-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024 : Shape := ⟨1, ![1024]⟩
abbrev S100000x64 : Shape := ⟨2, ![100000, 64]⟩
abbrev S128x64 : Shape := ⟨2, ![128, 64]⟩
abbrev S128 : Shape := ⟨1, ![128]⟩
abbrev S100000x128 : Shape := ⟨2, ![100000, 128]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S100000x128 : S_.BroadcastsInDim S100000x128 (![] : Fin 0 → Fin S100000x128.rank)
  reducesTo_S100000x128_S_d0_1 : S100000x128.ReducesTo [0, 1] S_
  bcast_S_S100000 : S_.BroadcastsInDim S100000 (![] : Fin 0 → Fin S100000.rank)
  reducesTo_S100000_S_d0 : S100000.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg0 : IVec S1024 32) (main_arg5 : FVec F S100000 .f32) (main_v13 : IVec S_ 1) (main_v16 : IVec S100000x128 1) : IVec S_ 1 :=
  let main_c_5 : IVec S_ 1 := constantI S_ 1 1#1
  let main_v17 : IVec S_ 1 := (fun x v => Host.reduce IntOp.andi x v reducesTo_S100000x128_S_d0_1 h_S_) main_v16 main_c_5
  let main_v18 : IVec S_ 1 := andi main_v13 main_v17
  let main_v19 : FVec F S100000 .f32 := Host.absf main_arg5
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_c_8 : IVec S_ 32 := constantI S_ 32 0#32
  let main_v24 : IVec S1024 32 := broadcastInDim S1024 ![] bcast_S_S1024 main_c_8
  let main_v25 : IVec S1024 1 := cmpi .sge main_arg0 main_v24
  let main_c_9 : IVec S_ 32 := constantI S_ 32 99999#32
  let main_v26 : IVec S1024 32 := broadcastInDim S1024 ![] bcast_S_S1024 main_c_9
  let main_v27 : IVec S1024 1 := cmpi .sle main_arg0 main_v26
  let main_v28 : IVec S1024 1 := andi main_v25 main_v27
  let main_c_10 : IVec S_ 1 := constantI S_ 1 1#1
  let main_v29 : IVec S_ 1 := (fun x v => Host.reduce IntOp.andi x v reducesTo_S1024_S_d0 h_S_) main_v28 main_c_10
  let main_v30 : IVec S_ 1 := andi main_v23 main_v29
  main_v30

def fn {F : FTy → Type} [FloatOps F] (main_arg0 : IVec S1024 32) (main_arg1 : FVec F S100000x64 .f32) (main_arg2 : FVec F S128x64 .f32) (main_arg3 : FVec F S128 .f32) (main_arg4 : FVec F S100000x128 .f32) (main_arg5 : FVec F S100000 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S100000x128 .f32 := Host.absf main_arg4
  let main_cst_4 : FVec F S_ .f32 := constant S_ .f32 0x7F800000#32
  let main_v15 : FVec F S100000x128 .f32 := broadcastInDim S100000x128 ![] bcast_S_S100000x128 main_cst_4
  let main_v16 : IVec S100000x128 1 := cmpf .olt main_v14 main_v15
  fn_part1 (F := F) main_arg0 main_arg5 main_v13 main_v16
-- ==== Kernel.lean ====
abbrev S1024 : Shape := ⟨1, ![1024]⟩
abbrev S100000x64 : Shape := ⟨2, ![100000, 64]⟩
abbrev S128x64 : Shape := ⟨2, ![128, 64]⟩
abbrev S128 : Shape := ⟨1, ![128]⟩
abbrev S100000x128 : Shape := ⟨2, ![100000, 128]⟩
abbrev S100000 : Shape := ⟨1, ![100000]⟩
abbrev S128x1 : Shape := ⟨2, ![128, 1]⟩
abbrev S1x100000 : Shape := ⟨2, ![1, 100000]⟩
abbrev S50000x128 : Shape := ⟨2, ![50000, 128]⟩
abbrev S_ : Shape := ⟨0, ![]⟩
abbrev S1024x128 : Shape := ⟨2, ![1024, 128]⟩
abbrev S32 : Shape := ⟨1, ![32]⟩
abbrev S32x128 : Shape := ⟨2, ![32, 128]⟩
abbrev S1024x1 : Shape := ⟨2, ![1024, 1]⟩
abbrev S100000x1024 : Shape := ⟨2, ![100000, 1024]⟩
abbrev S3072x128 : Shape := ⟨2, ![3072, 128]⟩
abbrev S1x3072 : Shape := ⟨2, ![1, 3072]⟩
abbrev S128x1024 : Shape := ⟨2, ![128, 1024]⟩
abbrev S1x1024 : Shape := ⟨2, ![1, 1024]⟩
abbrev S2x3072x1024 : Shape := ⟨3, ![2, 3072, 1024]⟩
abbrev S2x8 : Shape := ⟨2, ![2, 8]⟩
abbrev S1024x64 : Shape := ⟨2, ![1024, 64]⟩
abbrev S64x1024 : Shape := ⟨2, ![64, 1024]⟩
abbrev S3072x1024 : Shape := ⟨2, ![3072, 1024]⟩
abbrev S3072x1 : Shape := ⟨2, ![3072, 1]⟩
abbrev S1x1 : Shape := ⟨2, ![1, 1]⟩
abbrev S384x1024 : Shape := ⟨2, ![384, 1024]⟩
abbrev S1x384x1024 : Shape := ⟨3, ![1, 384, 1024]⟩
abbrev S1x3072x1024 : Shape := ⟨3, ![1, 3072, 1024]⟩
abbrev S424x1024 : Shape := ⟨2, ![424, 1024]⟩
abbrev S1x424x1024 : Shape := ⟨3, ![1, 424, 1024]⟩
abbrev S1024x100000 : Shape := ⟨2, ![1024, 100000]⟩

abbrev nBuf : Table → Nat
  | .hbm => 19
  | .local .tc .vmem => 12
  | .local .scVector .vmem => 2
  | _ => 0

abbrev bufTy : (tb : Table) → Fin (nBuf tb) → BufTy
  | .hbm, ⟨0, _⟩ => ⟨S1024, .i32⟩
  | .hbm, ⟨1, _⟩ => ⟨S100000x64, .f32⟩
  | .hbm, ⟨2, _⟩ => ⟨S128x64, .f32⟩
  | .hbm, ⟨3, _⟩ => ⟨S128, .f32⟩
  | .hbm, ⟨4, _⟩ => ⟨S100000x128, .f32⟩
  | .hbm, ⟨5, _⟩ => ⟨S100000, .f32⟩
  | .hbm, ⟨6, _⟩ => ⟨S128x1, .f32⟩
  | .hbm, ⟨7, _⟩ => ⟨S1x100000, .f32⟩
  | .hbm, ⟨8, _⟩ => ⟨S50000x128, .f32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024x128, .f32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S100000x1024, .f32⟩
  | .hbm, ⟨18, _⟩ => ⟨S1024x100000, .f32⟩
  | .local .tc .vmem, ⟨0, _⟩ => ⟨S1024x128, .f32⟩
  | .local .tc .vmem, ⟨1, _⟩ => ⟨S1024x1, .i32⟩
  | .local .tc .vmem, ⟨2, _⟩ => ⟨S128x64, .f32⟩
  | .local .tc .vmem, ⟨3, _⟩ => ⟨S128x1, .f32⟩
  | .local .tc .vmem, ⟨4, _⟩ => ⟨S3072x128, .f32⟩
  | .local .tc .vmem, ⟨5, _⟩ => ⟨S3072x128, .f32⟩
  | .local .tc .vmem, ⟨6, _⟩ => ⟨S1x3072, .f32⟩
  | .local .tc .vmem, ⟨7, _⟩ => ⟨S1x3072, .f32⟩
  | .local .tc .vmem, ⟨8, _⟩ => ⟨S128x1024, .bf16⟩
  | .local .tc .vmem, ⟨9, _⟩ => ⟨S1x1024, .f32⟩
  | .local .tc .vmem, ⟨10, _⟩ => ⟨S1x1024, .f32⟩
  | .local .tc .vmem, ⟨11, _⟩ => ⟨S2x3072x1024, .f32⟩
  | .local .scVector .vmem, ⟨0, _⟩ => ⟨S32, .i32⟩
  | .local .scVector .vmem, ⟨1, _⟩ => ⟨S32x128, .f32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v2_scv : Ref sig .scVector := ⟨.hbm, 8, rfl⟩
abbrev main_v4_scv : Ref sig .scVector := ⟨.hbm, 11, rfl⟩
abbrev main_v5_scv : Ref sig .scVector := ⟨.hbm, 12, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg4_1 : Ref sig .tc := ⟨.vmem, 5, rfl⟩
abbrev cc1_stg5_0 : Ref sig .tc := ⟨.vmem, 6, rfl⟩
abbrev cc1_stg5_1 : Ref sig .tc := ⟨.vmem, 7, rfl⟩
abbrev cc1_scratch0 : Ref sig .tc := ⟨.vmem, 8, rfl⟩
abbrev cc1_scratch1 : Ref sig .tc := ⟨.vmem, 9, rfl⟩
abbrev cc1_scratch2 : Ref sig .tc := ⟨.vmem, 10, rfl⟩
abbrev cc1_scratch3 : Ref sig .tc := ⟨.vmem, 11, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem4_1 : DmaSem sig := 8
abbrev cc1_sem5_0 : DmaSem sig := 9
abbrev cc1_sem5_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r1 : BitVec 32 := 0#32
  ![v2.toNat, 0]
abbrev grid1 : Pipeline.Grid := ⟨2, ![2, 33], ![false, false]⟩

def k1_cond4 (i : grid1.Coords) : BitVec 1 :=
  let arg0 : BitVec 32 := BitVec.ofNat 32 (i 0).val
  let c1_i32 : BitVec 32 := 1#32
  let v24 : BitVec 1 := Scalar.cmpi .eq arg0 c1_i32
  let v25 : BitVec 32 := Scalar.extui v24
  let c0_i32_12 : BitVec 32 := 0#32
  let v26 : BitVec 1 := Scalar.cmpi .ne v25 c0_i32_12
  v26

def k1_cond5 (i : grid1.Coords) : BitVec 1 :=
  let arg1 : BitVec 32 := BitVec.ofNat 32 (i 1).val
  let c2_i32_15 : BitVec 32 := 2#32
  let v31 : BitVec 1 := Scalar.cmpi .sge arg1 c2_i32_15
  let v32 : BitVec 32 := Scalar.extui v31
  let c0_i32_16 : BitVec 32 := 0#32
  let v33 : BitVec 1 := Scalar.cmpi .ne v32 c0_i32_16
  v33

def k1_off1 (i : grid1.Coords) : Fin 2 → Nat :=
  let arg1 : BitVec 32 := BitVec.ofNat 32 (i 1).val
  let c2_i32 : BitVec 32 := 2#32
  let v27 : BitVec 32 := Scalar.remsi arg1 c2_i32
  let c0_i32_32 : BitVec 32 := 0#32
  ![v27.toNat, 0]
def k1_off2 (i : grid1.Coords) (c0_i32_24 : BitVec 32) : Fin 2 → Nat :=
  let arg1 : BitVec 32 := BitVec.ofNat 32 (i 1).val
  let c2_i32_23 : BitVec 32 := 2#32
  let v44 : BitVec 32 := Scalar.subi arg1 c2_i32_23
  let c3072_i32 : BitVec 32 := 3072#32
  let v45 : BitVec 32 := Scalar.muli v44 c3072_i32
  let v46 : BitVec 32 := Scalar.addi v45 c0_i32_24
  let c0_i32_33 : BitVec 32 := 0#32
  ![v46.toNat, 0]
def k1_off3 (i : grid1.Coords) : Fin 3 → Nat :=
  let arg1 : BitVec 32 := BitVec.ofNat 32 (i 1).val
  let c2_i32 : BitVec 32 := 2#32
  let v27 : BitVec 32 := Scalar.remsi arg1 c2_i32
  let c0_i32_34 : BitVec 32 := 0#32
  let c0_i32_35 : BitVec 32 := 0#32
  ![v27.toNat, 0, 0]
def k1_off4 (i : grid1.Coords) : Fin 2 → Nat :=
  let arg1 : BitVec 32 := BitVec.ofNat 32 (i 1).val
  let c2_i32 : BitVec 32 := 2#32
  let v27 : BitVec 32 := Scalar.remsi arg1 c2_i32
  let c1_i32_36 : BitVec 32 := 1#32
  ![v27.toNat, 1]
def k1_off5 (i : grid1.Coords) : Fin 3 → Nat :=
  let arg1 : BitVec 32 := BitVec.ofNat 32 (i 1).val
  let c2_i32 : BitVec 32 := 2#32
  let v27 : BitVec 32 := Scalar.remsi arg1 c2_i32
  let c384_i32_38 : BitVec 32 := 384#32
  let c0_i32_39 : BitVec 32 := 0#32
  ![v27.toNat, 384, 0]
def k1_off6 (i : grid1.Coords) : Fin 2 → Nat :=
  let arg1 : BitVec 32 := BitVec.ofNat 32 (i 1).val
  let c2_i32 : BitVec 32 := 2#32
  let v27 : BitVec 32 := Scalar.remsi arg1 c2_i32
  let c2_i32_40 : BitVec 32 := 2#32
  ![v27.toNat, 2]
def k1_off7 (i : grid1.Coords) : Fin 3 → Nat :=
  let arg1 : BitVec 32 := BitVec.ofNat 32 (i 1).val
  let c2_i32 : BitVec 32 := 2#32
  let v27 : BitVec 32 := Scalar.remsi arg1 c2_i32
  let c768_i32_42 : BitVec 32 := 768#32
  let c0_i32_43 : BitVec 32 := 0#32
  ![v27.toNat, 768, 0]
def k1_off8 (i : grid1.Coords) : Fin 2 → Nat :=
  let arg1 : BitVec 32 := BitVec.ofNat 32 (i 1).val
  let c2_i32 : BitVec 32 := 2#32
  let v27 : BitVec 32 := Scalar.remsi arg1 c2_i32
  let c3_i32 : BitVec 32 := 3#32
  ![v27.toNat, 3]
def k1_off9 (i : grid1.Coords) : Fin 3 → Nat :=
  let arg1 : BitVec 32 := BitVec.ofNat 32 (i 1).val
  let c2_i32 : BitVec 32 := 2#32
  let v27 : BitVec 32 := Scalar.remsi arg1 c2_i32
  let c1152_i32_45 : BitVec 32 := 1152#32
  let c0_i32_46 : BitVec 32 := 0#32
  ![v27.toNat, 1152, 0]
def k1_off10 (i : grid1.Coords) : Fin 2 → Nat :=
  let arg1 : BitVec 32 := BitVec.ofNat 32 (i 1).val
  let c2_i32 : BitVec 32 := 2#32
  let v27 : BitVec 32 := Scalar.remsi arg1 c2_i32
  let c4_i32 : BitVec 32 := 4#32
  ![v27.toNat, 4]
def k1_off11 (i : grid1.Coords) : Fin 3 → Nat :=
  let arg1 : BitVec 32 := BitVec.ofNat 32 (i 1).val
  let c2_i32 : BitVec 32 := 2#32
  let v27 : BitVec 32 := Scalar.remsi arg1 c2_i32
  let c1536_i32_48 : BitVec 32 := 1536#32
  let c0_i32_49 : BitVec 32 := 0#32
  ![v27.toNat, 1536, 0]
def k1_off12 (i : grid1.Coords) : Fin 2 → Nat :=
  let arg1 : BitVec 32 := BitVec.ofNat 32 (i 1).val
  let c2_i32 : BitVec 32 := 2#32
  let v27 : BitVec 32 := Scalar.remsi arg1 c2_i32
  let c5_i32 : BitVec 32 := 5#32
  ![v27.toNat, 5]
def k1_off13 (i : grid1.Coords) : Fin 3 → Nat :=
  let arg1 : BitVec 32 := BitVec.ofNat 32 (i 1).val
  let c2_i32 : BitVec 32 := 2#32
  let v27 : BitVec 32 := Scalar.remsi arg1 c2_i32
  let c1920_i32_51 : BitVec 32 := 1920#32
  let c0_i32_52 : BitVec 32 := 0#32
  ![v27.toNat, 1920, 0]
def k1_off14 (i : grid1.Coords) : Fin 2 → Nat :=
  let arg1 : BitVec 32 := BitVec.ofNat 32 (i 1).val
  let c2_i32 : BitVec 32 := 2#32
  let v27 : BitVec 32 := Scalar.remsi arg1 c2_i32
  let c6_i32 : BitVec 32 := 6#32
  ![v27.toNat, 6]
def k1_off15 (i : grid1.Coords) : Fin 3 → Nat :=
  let arg1 : BitVec 32 := BitVec.ofNat 32 (i 1).val
  let c2_i32 : BitVec 32 := 2#32
  let v27 : BitVec 32 := Scalar.remsi arg1 c2_i32
  let c2304_i32_54 : BitVec 32 := 2304#32
  let c0_i32_55 : BitVec 32 := 0#32
  ![v27.toNat, 2304, 0]
def k1_off16 (i : grid1.Coords) : Fin 2 → Nat :=
  let arg1 : BitVec 32 := BitVec.ofNat 32 (i 1).val
  let c2_i32 : BitVec 32 := 2#32
  let v27 : BitVec 32 := Scalar.remsi arg1 c2_i32
  let c7_i32 : BitVec 32 := 7#32
  ![v27.toNat, 7]
def k1_off17 (i : grid1.Coords) : Fin 3 → Nat :=
  let arg1 : BitVec 32 := BitVec.ofNat 32 (i 1).val
  let c2_i32 : BitVec 32 := 2#32
  let v27 : BitVec 32 := Scalar.remsi arg1 c2_i32
  let c2688_i32_57 : BitVec 32 := 2688#32
  let c0_i32_58 : BitVec 32 := 0#32
  ![v27.toNat, 2688, 0]
def k1_off18 (i : grid1.Coords) : Fin 3 → Nat :=
  let arg1 : BitVec 32 := BitVec.ofNat 32 (i 1).val
  let c2_i32 : BitVec 32 := 2#32
  let v27 : BitVec 32 := Scalar.remsi arg1 c2_i32
  let v34 : Index := Scalar.indexCast v27
  let c0_17 : Index := 0#32
  let c0_18 : Index := 0#32
  ![v34.toNat, 0, 0]
def k1_cond6 (i : grid1.Coords) : BitVec 1 :=
  let arg1 : BitVec 32 := BitVec.ofNat 32 (i 1).val
  let c32_i32_19 : BitVec 32 := 32#32
  let v38 : BitVec 1 := Scalar.cmpi .slt arg1 c32_i32_19
  let v39 : BitVec 32 := Scalar.extui v38
  let c0_i32_20 : BitVec 32 := 0#32
  let v40 : BitVec 1 := Scalar.cmpi .ne v39 c0_i32_20
  v40

def k1_off19 (i : grid1.Coords) : Fin 2 → Nat :=
  let arg1 : BitVec 32 := BitVec.ofNat 32 (i 1).val
  let c2_i32 : BitVec 32 := 2#32
  let v27 : BitVec 32 := Scalar.remsi arg1 c2_i32
  let c0_i32_31 : BitVec 32 := 0#32
  ![v27.toNat, 0]
def k1_off20 (i : grid1.Coords) (c0_i32_23 : BitVec 32) : Fin 2 → Nat :=
  let arg1 : BitVec 32 := BitVec.ofNat 32 (i 1).val
  let c3072_i32 : BitVec 32 := 3072#32
  let v44 : BitVec 32 := Scalar.muli arg1 c3072_i32
  let v45 : BitVec 32 := Scalar.addi v44 c0_i32_23
  let c0_i32_32 : BitVec 32 := 0#32
  ![v45.toNat, 0]
def k1_off21 (i : grid1.Coords) : Fin 3 → Nat :=
  let arg1 : BitVec 32 := BitVec.ofNat 32 (i 1).val
  let c2_i32 : BitVec 32 := 2#32
  let v27 : BitVec 32 := Scalar.remsi arg1 c2_i32
  let c0_i32_33 : BitVec 32 := 0#32
  let c0_i32_34 : BitVec 32 := 0#32
  ![v27.toNat, 0, 0]
def k1_off22 (i : grid1.Coords) : Fin 2 → Nat :=
  let arg1 : BitVec 32 := BitVec.ofNat 32 (i 1).val
  let c2_i32 : BitVec 32 := 2#32
  let v27 : BitVec 32 := Scalar.remsi arg1 c2_i32
  let c1_i32_35 : BitVec 32 := 1#32
  ![v27.toNat, 1]
def k1_off23 (i : grid1.Coords) : Fin 3 → Nat :=
  let arg1 : BitVec 32 := BitVec.ofNat 32 (i 1).val
  let c2_i32 : BitVec 32 := 2#32
  let v27 : BitVec 32 := Scalar.remsi arg1 c2_i32
  let c384_i32_37 : BitVec 32 := 384#32
  let c0_i32_38 : BitVec 32 := 0#32
  ![v27.toNat, 384, 0]
def k1_off24 (i : grid1.Coords) : Fin 2 → Nat :=
  let arg1 : BitVec 32 := BitVec.ofNat 32 (i 1).val
  let c2_i32 : BitVec 32 := 2#32
  let v27 : BitVec 32 := Scalar.remsi arg1 c2_i32
  let c2_i32_39 : BitVec 32 := 2#32
  ![v27.toNat, 2]
def k1_off25 (i : grid1.Coords) : Fin 3 → Nat :=
  let arg1 : BitVec 32 := BitVec.ofNat 32 (i 1).val
  let c2_i32 : BitVec 32 := 2#32
  let v27 : BitVec 32 := Scalar.remsi arg1 c2_i32
  let c768_i32_41 : BitVec 32 := 768#32
  let c0_i32_42 : BitVec 32 := 0#32
  ![v27.toNat, 768, 0]
def k1_off26 (i : grid1.Coords) : Fin 2 → Nat :=
  let arg1 : BitVec 32 := BitVec.ofNat 32 (i 1).val
  let c2_i32 : BitVec 32 := 2#32
  let v27 : BitVec 32 := Scalar.remsi arg1 c2_i32
  let c3_i32 : BitVec 32 := 3#32
  ![v27.toNat, 3]
def k1_off27 (i : grid1.Coords) : Fin 3 → Nat :=
  let arg1 : BitVec 32 := BitVec.ofNat 32 (i 1).val
  let c2_i32 : BitVec 32 := 2#32
  let v27 : BitVec 32 := Scalar.remsi arg1 c2_i32
  let c1152_i32_44 : BitVec 32 := 1152#32
  let c0_i32_45 : BitVec 32 := 0#32
  ![v27.toNat, 1152, 0]
def k1_off28 (i : grid1.Coords) : Fin 2 → Nat :=
  let arg1 : BitVec 32 := BitVec.ofNat 32 (i 1).val
  let c2_i32 : BitVec 32 := 2#32
  let v27 : BitVec 32 := Scalar.remsi arg1 c2_i32
  let c4_i32 : BitVec 32 := 4#32
  ![v27.toNat, 4]
def k1_off29 (i : grid1.Coords) : Fin 3 → Nat :=
  let arg1 : BitVec 32 := BitVec.ofNat 32 (i 1).val
  let c2_i32 : BitVec 32 := 2#32
  let v27 : BitVec 32 := Scalar.remsi arg1 c2_i32
  let c1536_i32_47 : BitVec 32 := 1536#32
  let c0_i32_48 : BitVec 32 := 0#32
  ![v27.toNat, 1536, 0]
def k1_off30 (i : grid1.Coords) : Fin 2 → Nat :=
  let arg1 : BitVec 32 := BitVec.ofNat 32 (i 1).val
  let c2_i32 : BitVec 32 := 2#32
  let v27 : BitVec 32 := Scalar.remsi arg1 c2_i32
  let c5_i32 : BitVec 32 := 5#32
  ![v27.toNat, 5]
def k1_off31 (i : grid1.Coords) : Fin 3 → Nat :=
  let arg1 : BitVec 32 := BitVec.ofNat 32 (i 1).val
  let c2_i32 : BitVec 32 := 2#32
  let v27 : BitVec 32 := Scalar.remsi arg1 c2_i32
  let c1920_i32_50 : BitVec 32 := 1920#32
  let c0_i32_51 : BitVec 32 := 0#32
  ![v27.toNat, 1920, 0]
def k1_off32 (i : grid1.Coords) : Fin 2 → Nat :=
  let arg1 : BitVec 32 := BitVec.ofNat 32 (i 1).val
  let c2_i32 : BitVec 32 := 2#32
  let v27 : BitVec 32 := Scalar.remsi arg1 c2_i32
  let c6_i32 : BitVec 32 := 6#32
  ![v27.toNat, 6]
def k1_off33 (i : grid1.Coords) : Fin 3 → Nat :=
  let arg1 : BitVec 32 := BitVec.ofNat 32 (i 1).val
  let c2_i32 : BitVec 32 := 2#32
  let v27 : BitVec 32 := Scalar.remsi arg1 c2_i32
  let c2304_i32_53 : BitVec 32 := 2304#32
  let c0_i32_54 : BitVec 32 := 0#32
  ![v27.toNat, 2304, 0]
def k1_off34 (i : grid1.Coords) : Fin 2 → Nat :=
  let arg1 : BitVec 32 := BitVec.ofNat 32 (i 1).val
  let c2_i32 : BitVec 32 := 2#32
  let v27 : BitVec 32 := Scalar.remsi arg1 c2_i32
  let c7_i32 : BitVec 32 := 7#32
  ![v27.toNat, 7]
def k1_off35 (i : grid1.Coords) : Fin 3 → Nat :=
  let arg1 : BitVec 32 := BitVec.ofNat 32 (i 1).val
  let c2_i32 : BitVec 32 := 2#32
  let v27 : BitVec 32 := Scalar.remsi arg1 c2_i32
  let c2688_i32_56 : BitVec 32 := 2688#32
  let c0_i32_57 : BitVec 32 := 0#32
  ![v27.toNat, 2688, 0]
def k1_cond7 (i : grid1.Coords) : BitVec 1 :=
  let arg1 : BitVec 32 := BitVec.ofNat 32 (i 1).val
  let c32_i32_21 : BitVec 32 := 32#32
  let v41 : BitVec 1 := Scalar.cmpi .eq arg1 c32_i32_21
  let v42 : BitVec 32 := Scalar.extui v41
  let c0_i32_22 : BitVec 32 := 0#32
  let v43 : BitVec 1 := Scalar.cmpi .ne v42 c0_i32_22
  v43

def k1_off36 (i : grid1.Coords) : Fin 2 → Nat :=
  let arg1 : BitVec 32 := BitVec.ofNat 32 (i 1).val
  let c2_i32 : BitVec 32 := 2#32
  let v27 : BitVec 32 := Scalar.remsi arg1 c2_i32
  let c0_i32_23 : BitVec 32 := 0#32
  ![v27.toNat, 0]
def k1_off37 (i : grid1.Coords) : Fin 3 → Nat :=
  let arg1 : BitVec 32 := BitVec.ofNat 32 (i 1).val
  let c2_i32 : BitVec 32 := 2#32
  let v27 : BitVec 32 := Scalar.remsi arg1 c2_i32
  let c0_i32_25 : BitVec 32 := 0#32
  let c0_i32_26 : BitVec 32 := 0#32
  ![v27.toNat, 0, 0]
def k1_off38 (i : grid1.Coords) : Fin 2 → Nat :=
  let arg1 : BitVec 32 := BitVec.ofNat 32 (i 1).val
  let c2_i32 : BitVec 32 := 2#32
  let v27 : BitVec 32 := Scalar.remsi arg1 c2_i32
  let c1_i32_27 : BitVec 32 := 1#32
  ![v27.toNat, 1]
def k1_off39 (i : grid1.Coords) : Fin 3 → Nat :=
  let arg1 : BitVec 32 := BitVec.ofNat 32 (i 1).val
  let c2_i32 : BitVec 32 := 2#32
  let v27 : BitVec 32 := Scalar.remsi arg1 c2_i32
  let c424_i32 : BitVec 32 := 424#32
  let c0_i32_29 : BitVec 32 := 0#32
  ![v27.toNat, 424, 0]
def k1_off40 (i : grid1.Coords) : Fin 2 → Nat :=
  let arg1 : BitVec 32 := BitVec.ofNat 32 (i 1).val
  let c2_i32 : BitVec 32 := 2#32
  let v27 : BitVec 32 := Scalar.remsi arg1 c2_i32
  let c2_i32_30 : BitVec 32 := 2#32
  ![v27.toNat, 2]
def k1_off41 (i : grid1.Coords) : Fin 3 → Nat :=
  let arg1 : BitVec 32 := BitVec.ofNat 32 (i 1).val
  let c2_i32 : BitVec 32 := 2#32
  let v27 : BitVec 32 := Scalar.remsi arg1 c2_i32
  let c848_i32 : BitVec 32 := 848#32
  let c0_i32_32 : BitVec 32 := 0#32
  ![v27.toNat, 848, 0]
def k1_off42 (i : grid1.Coords) : Fin 2 → Nat :=
  let arg1 : BitVec 32 := BitVec.ofNat 32 (i 1).val
  let c2_i32 : BitVec 32 := 2#32
  let v27 : BitVec 32 := Scalar.remsi arg1 c2_i32
  let c3_i32 : BitVec 32 := 3#32
  ![v27.toNat, 3]
def k1_off43 (i : grid1.Coords) : Fin 3 → Nat :=
  let arg1 : BitVec 32 := BitVec.ofNat 32 (i 1).val
  let c2_i32 : BitVec 32 := 2#32
  let v27 : BitVec 32 := Scalar.remsi arg1 c2_i32
  let c1272_i32 : BitVec 32 := 1272#32
  let c0_i32_34 : BitVec 32 := 0#32
  ![v27.toNat, 1272, 0]
def k1_off44 (i : grid1.Coords) : Fin 2 → Nat :=
  let c1_i32_35 : BitVec 32 := 1#32
  let arg1 : BitVec 32 := BitVec.ofNat 32 (i 1).val
  let c2_i32 : BitVec 32 := 2#32
  let v27 : BitVec 32 := Scalar.remsi arg1 c2_i32
  let v64 : BitVec 32 := Scalar.subi c1_i32_35 v27
  let c0_i32_45 : BitVec 32 := 0#32
  ![v64.toNat, 0]
def k1_off45 (i : grid1.Coords) (c0_i32_37 : BitVec 32) : Fin 2 → Nat :=
  let arg1 : BitVec 32 := BitVec.ofNat 32 (i 1).val
  let c1_i32_36 : BitVec 32 := 1#32
  let v65 : BitVec 32 := Scalar.subi arg1 c1_i32_36
  let c3072_i32 : BitVec 32 := 3072#32
  let v66 : BitVec 32 := Scalar.muli v65 c3072_i32
  let v67 : BitVec 32 := Scalar.addi v66 c0_i32_37
  let c0_i32_46 : BitVec 32 := 0#32
  ![v67.toNat, 0]
def k1_off46 (i : grid1.Coords) : Fin 3 → Nat :=
  let c1_i32_35 : BitVec 32 := 1#32
  let arg1 : BitVec 32 := BitVec.ofNat 32 (i 1).val
  let c2_i32 : BitVec 32 := 2#32
  let v27 : BitVec 32 := Scalar.remsi arg1 c2_i32
  let v64 : BitVec 32 := Scalar.subi c1_i32_35 v27
  let c0_i32_47 : BitVec 32 := 0#32
  let c0_i32_48 : BitVec 32 := 0#32
  ![v64.toNat, 0, 0]
def k1_off47 (i : grid1.Coords) : Fin 2 → Nat :=
  let c1_i32_35 : BitVec 32 := 1#32
  let arg1 : BitVec 32 := BitVec.ofNat 32 (i 1).val
  let c2_i32 : BitVec 32 := 2#32
  let v27 : BitVec 32 := Scalar.remsi arg1 c2_i32
  let v64 : BitVec 32 := Scalar.subi c1_i32_35 v27
  let c1_i32_49 : BitVec 32 := 1#32
  ![v64.toNat, 1]
def k1_off48 (i : grid1.Coords) : Fin 3 → Nat :=
  let c1_i32_35 : BitVec 32 := 1#32
  let arg1 : BitVec 32 := BitVec.ofNat 32 (i 1).val
  let c2_i32 : BitVec 32 := 2#32
  let v27 : BitVec 32 := Scalar.remsi arg1 c2_i32
  let v64 : BitVec 32 := Scalar.subi c1_i32_35 v27
  let c384_i32_51 : BitVec 32 := 384#32
  let c0_i32_52 : BitVec 32 := 0#32
  ![v64.toNat, 384, 0]
def k1_off49 (i : grid1.Coords) : Fin 2 → Nat :=
  let c1_i32_35 : BitVec 32 := 1#32
  let arg1 : BitVec 32 := BitVec.ofNat 32 (i 1).val
  let c2_i32 : BitVec 32 := 2#32
  let v27 : BitVec 32 := Scalar.remsi arg1 c2_i32
  let v64 : BitVec 32 := Scalar.subi c1_i32_35 v27
  let c2_i32_53 : BitVec 32 := 2#32
  ![v64.toNat, 2]
def k1_off50 (i : grid1.Coords) : Fin 3 → Nat :=
  let c1_i32_35 : BitVec 32 := 1#32
  let arg1 : BitVec 32 := BitVec.ofNat 32 (i 1).val
  let c2_i32 : BitVec 32 := 2#32
  let v27 : BitVec 32 := Scalar.remsi arg1 c2_i32
  let v64 : BitVec 32 := Scalar.subi c1_i32_35 v27
  let c768_i32_55 : BitVec 32 := 768#32
  let c0_i32_56 : BitVec 32 := 0#32
  ![v64.toNat, 768, 0]
def k1_off51 (i : grid1.Coords) : Fin 2 → Nat :=
  let c1_i32_35 : BitVec 32 := 1#32
  let arg1 : BitVec 32 := BitVec.ofNat 32 (i 1).val
  let c2_i32 : BitVec 32 := 2#32
  let v27 : BitVec 32 := Scalar.remsi arg1 c2_i32
  let v64 : BitVec 32 := Scalar.subi c1_i32_35 v27
  let c3_i32_57 : BitVec 32 := 3#32
  ![v64.toNat, 3]
def k1_off52 (i : grid1.Coords) : Fin 3 → Nat :=
  let c1_i32_35 : BitVec 32 := 1#32
  let arg1 : BitVec 32 := BitVec.ofNat 32 (i 1).val
  let c2_i32 : BitVec 32 := 2#32
  let v27 : BitVec 32 := Scalar.remsi arg1 c2_i32
  let v64 : BitVec 32 := Scalar.subi c1_i32_35 v27
  let c1152_i32_59 : BitVec 32 := 1152#32
  let c0_i32_60 : BitVec 32 := 0#32
  ![v64.toNat, 1152, 0]
def k1_off53 (i : grid1.Coords) : Fin 2 → Nat :=
  let c1_i32_35 : BitVec 32 := 1#32
  let arg1 : BitVec 32 := BitVec.ofNat 32 (i 1).val
  let c2_i32 : BitVec 32 := 2#32
  let v27 : BitVec 32 := Scalar.remsi arg1 c2_i32
  let v64 : BitVec 32 := Scalar.subi c1_i32_35 v27
  let c4_i32 : BitVec 32 := 4#32
  ![v64.toNat, 4]
def k1_off54 (i : grid1.Coords) : Fin 3 → Nat :=
  let c1_i32_35 : BitVec 32 := 1#32
  let arg1 : BitVec 32 := BitVec.ofNat 32 (i 1).val
  let c2_i32 : BitVec 32 := 2#32
  let v27 : BitVec 32 := Scalar.remsi arg1 c2_i32
  let v64 : BitVec 32 := Scalar.subi c1_i32_35 v27
  let c1536_i32_62 : BitVec 32 := 1536#32
  let c0_i32_63 : BitVec 32 := 0#32
  ![v64.toNat, 1536, 0]
def k1_off55 (i : grid1.Coords) : Fin 2 → Nat :=
  let c1_i32_35 : BitVec 32 := 1#32
  let arg1 : BitVec 32 := BitVec.ofNat 32 (i 1).val
  let c2_i32 : BitVec 32 := 2#32
  let v27 : BitVec 32 := Scalar.remsi arg1 c2_i32
  let v64 : BitVec 32 := Scalar.subi c1_i32_35 v27
  let c5_i32 : BitVec 32 := 5#32
  ![v64.toNat, 5]
def k1_off56 (i : grid1.Coords) : Fin 3 → Nat :=
  let c1_i32_35 : BitVec 32 := 1#32
  let arg1 : BitVec 32 := BitVec.ofNat 32 (i 1).val
  let c2_i32 : BitVec 32 := 2#32
  let v27 : BitVec 32 := Scalar.remsi arg1 c2_i32
  let v64 : BitVec 32 := Scalar.subi c1_i32_35 v27
  let c1920_i32_65 : BitVec 32 := 1920#32
  let c0_i32_66 : BitVec 32 := 0#32
  ![v64.toNat, 1920, 0]
def k1_off57 (i : grid1.Coords) : Fin 2 → Nat :=
  let c1_i32_35 : BitVec 32 := 1#32
  let arg1 : BitVec 32 := BitVec.ofNat 32 (i 1).val
  let c2_i32 : BitVec 32 := 2#32
  let v27 : BitVec 32 := Scalar.remsi arg1 c2_i32
  let v64 : BitVec 32 := Scalar.subi c1_i32_35 v27
  let c6_i32 : BitVec 32 := 6#32
  ![v64.toNat, 6]
def k1_off58 (i : grid1.Coords) : Fin 3 → Nat :=
  let c1_i32_35 : BitVec 32 := 1#32
  let arg1 : BitVec 32 := BitVec.ofNat 32 (i 1).val
  let c2_i32 : BitVec 32 := 2#32
  let v27 : BitVec 32 := Scalar.remsi arg1 c2_i32
  let v64 : BitVec 32 := Scalar.subi c1_i32_35 v27
  let c2304_i32_68 : BitVec 32 := 2304#32
  let c0_i32_69 : BitVec 32 := 0#32
  ![v64.toNat, 2304, 0]
def k1_off59 (i : grid1.Coords) : Fin 2 → Nat :=
  let c1_i32_35 : BitVec 32 := 1#32
  let arg1 : BitVec 32 := BitVec.ofNat 32 (i 1).val
  let c2_i32 : BitVec 32 := 2#32
  let v27 : BitVec 32 := Scalar.remsi arg1 c2_i32
  let v64 : BitVec 32 := Scalar.subi c1_i32_35 v27
  let c7_i32 : BitVec 32 := 7#32
  ![v64.toNat, 7]
def k1_off60 (i : grid1.Coords) : Fin 3 → Nat :=
  let c1_i32_35 : BitVec 32 := 1#32
  let arg1 : BitVec 32 := BitVec.ofNat 32 (i 1).val
  let c2_i32 : BitVec 32 := 2#32
  let v27 : BitVec 32 := Scalar.remsi arg1 c2_i32
  let v64 : BitVec 32 := Scalar.subi c1_i32_35 v27
  let c2688_i32_71 : BitVec 32 := 2688#32
  let c0_i32_72 : BitVec 32 := 0#32
  ![v64.toNat, 2688, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1024x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S3072x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x3072 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S128_S128x1 : S128.ShapeCasts S128x1
  shapeCasts_S100000_S1x100000 : S100000.ShapeCasts S1x100000
  shapeCasts_S100000x64_S50000x128 : S100000x64.ShapeCasts S50000x128
  bcast_S_S1024 : S_.BroadcastsInDim S1024 (![] : Fin 0 → Fin S1024.rank)
  inb_S50000x128_S50000x128_0_0 : ∀ a, (![0, 0] : Fin 2 → Nat) a + S50000x128.size a ≤ S50000x128.size a
  gathers_S50000x128_S32x128 : S50000x128.Gathers 0 S32x128
  shapeCasts_S1024_S1024x1 : S1024.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  slices_S1024x128_o0_64_S1024x64 : S1024x128.Slices ![0, 64] S1024x64
  slices_S1024x128_o0_0_S1024x64 : S1024x128.Slices ![0, 0] S1024x64
  broadcasts_S1024x1_S1024x64 : S1024x1.Broadcasts S1024x64
  transposes_S1024x64_p1_0_S64x1024 : S1024x64.Transposes [1, 0] S64x1024
  inb_S128x64_S128x64_0_0 : ∀ a, (![0, 0] : Fin 2 → Nat) a + S128x64.size a ≤ S128x64.size a
  h_S128x64 : 0 < S128x64.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x1024 : S128x1.Broadcasts S128x1024
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  packedbf16_S128x1024_S128x1024_0_0 : (Rect.unit (s := S128x1024) ![0, 0] S128x1024.size inb_S128x1024_S128x1024_0_0).PackedRows (EltTy.packing .bf16)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S3072x128_S3072x128_0_0 : ∀ a, (![0, 0] : Fin 2 → Nat) a + S3072x128.size a ≤ S3072x128.size a
  h_S3072x128 : 0 < S3072x128.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  transposes_S1x3072_p1_0_S3072x1 : S1x3072.Transposes [1, 0] S3072x1
  broadcasts_S3072x1_S3072x1024 : S3072x1.Broadcasts S3072x1024
  reduces_S3072x1024_S1024 : S3072x1024.Reduces [0] S1024
  shapeCasts_S1024_S1x1024 : S1024.ShapeCasts S1x1024
  iota_S3072x1024_d0_w32 : S3072x1024.Iotas .tc 32 [0]
  broadcasts_S1x1024_S3072x1024 : S1x1024.Broadcasts S3072x1024
  squeezes_S1x1_S_ : S1x1.Squeezes S_
  squeezes_S1x384x1024_S384x1024 : S1x384x1024.Squeezes S384x1024
  h_S1x3072x1024 : 0 < S1x3072x1024.numel
  shapeCasts_S1x3072x1024_S3072x1024 : S1x3072x1024.ShapeCasts S3072x1024
  shapeCasts_S3072x1024_S1x3072x1024 : S3072x1024.ShapeCasts S1x3072x1024
  inb_S100000x1024_S424x1024_98304_0 : ∀ a, (![98304, 0] : Fin 2 → Nat) a + S424x1024.size a ≤ S100000x1024.size a
  squeezes_S1x424x1024_S424x1024 : S1x424x1024.Squeezes S424x1024
  inb_S100000x1024_S424x1024_98728_0 : ∀ a, (![98728, 0] : Fin 2 → Nat) a + S424x1024.size a ≤ S100000x1024.size a
  inb_S100000x1024_S424x1024_99152_0 : ∀ a, (![99152, 0] : Fin 2 → Nat) a + S424x1024.size a ≤ S100000x1024.size a
  inb_S100000x1024_S424x1024_99576_0 : ∀ a, (![99576, 0] : Fin 2 → Nat) a + S424x1024.size a ≤ S100000x1024.size a
  transposes_S100000x1024_S1024x100000_1_0 : S100000x1024.Transposes [1, 0] S1024x100000
  dot_S128x64_S64x1024_S128x1024_1_0_0_1_n_n_wf : DotDims.WF S128x64 S64x1024 S128x1024 [1] [0] [0] [1] [] []
  dot_S3072x128_S128x1024_S3072x1024_1_0_0_1_n_n_wf : DotDims.WF S3072x128 S128x1024 S3072x1024 [1] [0] [0] [1] [] []
  hcc0_scratch2 : 0 + S_.numel ≤ 27
  hcc0_scoped0 : 1 + S_.numel ≤ 27
  hcc0_scoped1 : 2 + S_.numel ≤ 27
  hcc1_scratch4 : 11 + S2x8.numel ≤ 27
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32.size a ≤ S1024.size a
  k0_off2_inb : ∀ i : grid0.Coords, ∀ a, (k0_off2 i) a + S32x128.size a ≤ S1024x128.size a
  hrank1 : 0 < grid1.rank
  k1_off1_inb : ∀ i : grid1.Coords, ∀ (k1_h4 : k1_cond4 i = 1#1), ∀ (k1_h5 : k1_cond5 i = 1#1), ∀ a, (k1_off1 i) a + S1x1.size a ≤ S2x8.size a
  k1_off2_inb : ∀ i : grid1.Coords, ∀ (k1_h4 : k1_cond4 i = 1#1), ∀ (k1_h5 : k1_cond5 i = 1#1), ∀ (r : Fin 8), ∀ a, (k1_off2 i (BitVec.ofNat 32 (384 * r.val))) a + S384x1024.size a ≤ S100000x1024.size a
  k1_off3_inb : ∀ i : grid1.Coords, ∀ (k1_h4 : k1_cond4 i = 1#1), ∀ (k1_h5 : k1_cond5 i = 1#1), ∀ a, (k1_off3 i) a + S1x384x1024.size a ≤ S2x3072x1024.size a
  k1_off4_inb : ∀ i : grid1.Coords, ∀ (k1_h4 : k1_cond4 i = 1#1), ∀ (k1_h5 : k1_cond5 i = 1#1), ∀ a, (k1_off4 i) a + S1x1.size a ≤ S2x8.size a
  k1_off5_inb : ∀ i : grid1.Coords, ∀ (k1_h4 : k1_cond4 i = 1#1), ∀ (k1_h5 : k1_cond5 i = 1#1), ∀ a, (k1_off5 i) a + S1x384x1024.size a ≤ S2x3072x1024.size a
  k1_off6_inb : ∀ i : grid1.Coords, ∀ (k1_h4 : k1_cond4 i = 1#1), ∀ (k1_h5 : k1_cond5 i = 1#1), ∀ a, (k1_off6 i) a + S1x1.size a ≤ S2x8.size a
  k1_off7_inb : ∀ i : grid1.Coords, ∀ (k1_h4 : k1_cond4 i = 1#1), ∀ (k1_h5 : k1_cond5 i = 1#1), ∀ a, (k1_off7 i) a + S1x384x1024.size a ≤ S2x3072x1024.size a
  k1_off8_inb : ∀ i : grid1.Coords, ∀ (k1_h4 : k1_cond4 i = 1#1), ∀ (k1_h5 : k1_cond5 i = 1#1), ∀ a, (k1_off8 i) a + S1x1.size a ≤ S2x8.size a
  k1_off9_inb : ∀ i : grid1.Coords, ∀ (k1_h4 : k1_cond4 i = 1#1), ∀ (k1_h5 : k1_cond5 i = 1#1), ∀ a, (k1_off9 i) a + S1x384x1024.size a ≤ S2x3072x1024.size a
  k1_off10_inb : ∀ i : grid1.Coords, ∀ (k1_h4 : k1_cond4 i = 1#1), ∀ (k1_h5 : k1_cond5 i = 1#1), ∀ a, (k1_off10 i) a + S1x1.size a ≤ S2x8.size a
  k1_off11_inb : ∀ i : grid1.Coords, ∀ (k1_h4 : k1_cond4 i = 1#1), ∀ (k1_h5 : k1_cond5 i = 1#1), ∀ a, (k1_off11 i) a + S1x384x1024.size a ≤ S2x3072x1024.size a
  k1_off12_inb : ∀ i : grid1.Coords, ∀ (k1_h4 : k1_cond4 i = 1#1), ∀ (k1_h5 : k1_cond5 i = 1#1), ∀ a, (k1_off12 i) a + S1x1.size a ≤ S2x8.size a
  k1_off13_inb : ∀ i : grid1.Coords, ∀ (k1_h4 : k1_cond4 i = 1#1), ∀ (k1_h5 : k1_cond5 i = 1#1), ∀ a, (k1_off13 i) a + S1x384x1024.size a ≤ S2x3072x1024.size a
  k1_off14_inb : ∀ i : grid1.Coords, ∀ (k1_h4 : k1_cond4 i = 1#1), ∀ (k1_h5 : k1_cond5 i = 1#1), ∀ a, (k1_off14 i) a + S1x1.size a ≤ S2x8.size a
  k1_off15_inb : ∀ i : grid1.Coords, ∀ (k1_h4 : k1_cond4 i = 1#1), ∀ (k1_h5 : k1_cond5 i = 1#1), ∀ a, (k1_off15 i) a + S1x384x1024.size a ≤ S2x3072x1024.size a
  k1_off16_inb : ∀ i : grid1.Coords, ∀ (k1_h4 : k1_cond4 i = 1#1), ∀ (k1_h5 : k1_cond5 i = 1#1), ∀ a, (k1_off16 i) a + S1x1.size a ≤ S2x8.size a
  k1_off17_inb : ∀ i : grid1.Coords, ∀ (k1_h4 : k1_cond4 i = 1#1), ∀ (k1_h5 : k1_cond5 i = 1#1), ∀ a, (k1_off17 i) a + S1x384x1024.size a ≤ S2x3072x1024.size a
  k1_off18_inb : ∀ i : grid1.Coords, ∀ (k1_h4 : k1_cond4 i = 1#1), ∀ a, (k1_off18 i) a + S1x3072x1024.size a ≤ S2x3072x1024.size a
  k1_off19_inb : ∀ i : grid1.Coords, ∀ (k1_h4 : k1_cond4 i = 1#1), ∀ (k1_h6 : k1_cond6 i = 1#1), ∀ a, (k1_off19 i) a + S1x1.size a ≤ S2x8.size a
  k1_off20_inb : ∀ i : grid1.Coords, ∀ (k1_h4 : k1_cond4 i = 1#1), ∀ (k1_h6 : k1_cond6 i = 1#1), ∀ (r : Fin 8), ∀ a, (k1_off20 i (BitVec.ofNat 32 (384 * r.val))) a + S384x1024.size a ≤ S100000x1024.size a
  k1_off21_inb : ∀ i : grid1.Coords, ∀ (k1_h4 : k1_cond4 i = 1#1), ∀ (k1_h6 : k1_cond6 i = 1#1), ∀ a, (k1_off21 i) a + S1x384x1024.size a ≤ S2x3072x1024.size a
  k1_off22_inb : ∀ i : grid1.Coords, ∀ (k1_h4 : k1_cond4 i = 1#1), ∀ (k1_h6 : k1_cond6 i = 1#1), ∀ a, (k1_off22 i) a + S1x1.size a ≤ S2x8.size a
  k1_off23_inb : ∀ i : grid1.Coords, ∀ (k1_h4 : k1_cond4 i = 1#1), ∀ (k1_h6 : k1_cond6 i = 1#1), ∀ a, (k1_off23 i) a + S1x384x1024.size a ≤ S2x3072x1024.size a
  k1_off24_inb : ∀ i : grid1.Coords, ∀ (k1_h4 : k1_cond4 i = 1#1), ∀ (k1_h6 : k1_cond6 i = 1#1), ∀ a, (k1_off24 i) a + S1x1.size a ≤ S2x8.size a
  k1_off25_inb : ∀ i : grid1.Coords, ∀ (k1_h4 : k1_cond4 i = 1#1), ∀ (k1_h6 : k1_cond6 i = 1#1), ∀ a, (k1_off25 i) a + S1x384x1024.size a ≤ S2x3072x1024.size a
  k1_off26_inb : ∀ i : grid1.Coords, ∀ (k1_h4 : k1_cond4 i = 1#1), ∀ (k1_h6 : k1_cond6 i = 1#1), ∀ a, (k1_off26 i) a + S1x1.size a ≤ S2x8.size a
  k1_off27_inb : ∀ i : grid1.Coords, ∀ (k1_h4 : k1_cond4 i = 1#1), ∀ (k1_h6 : k1_cond6 i = 1#1), ∀ a, (k1_off27 i) a + S1x384x1024.size a ≤ S2x3072x1024.size a
  k1_off28_inb : ∀ i : grid1.Coords, ∀ (k1_h4 : k1_cond4 i = 1#1), ∀ (k1_h6 : k1_cond6 i = 1#1), ∀ a, (k1_off28 i) a + S1x1.size a ≤ S2x8.size a
  k1_off29_inb : ∀ i : grid1.Coords, ∀ (k1_h4 : k1_cond4 i = 1#1), ∀ (k1_h6 : k1_cond6 i = 1#1), ∀ a, (k1_off29 i) a + S1x384x1024.size a ≤ S2x3072x1024.size a
  k1_off30_inb : ∀ i : grid1.Coords, ∀ (k1_h4 : k1_cond4 i = 1#1), ∀ (k1_h6 : k1_cond6 i = 1#1), ∀ a, (k1_off30 i) a + S1x1.size a ≤ S2x8.size a
  k1_off31_inb : ∀ i : grid1.Coords, ∀ (k1_h4 : k1_cond4 i = 1#1), ∀ (k1_h6 : k1_cond6 i = 1#1), ∀ a, (k1_off31 i) a + S1x384x1024.size a ≤ S2x3072x1024.size a
  k1_off32_inb : ∀ i : grid1.Coords, ∀ (k1_h4 : k1_cond4 i = 1#1), ∀ (k1_h6 : k1_cond6 i = 1#1), ∀ a, (k1_off32 i) a + S1x1.size a ≤ S2x8.size a
  k1_off33_inb : ∀ i : grid1.Coords, ∀ (k1_h4 : k1_cond4 i = 1#1), ∀ (k1_h6 : k1_cond6 i = 1#1), ∀ a, (k1_off33 i) a + S1x384x1024.size a ≤ S2x3072x1024.size a
  k1_off34_inb : ∀ i : grid1.Coords, ∀ (k1_h4 : k1_cond4 i = 1#1), ∀ (k1_h6 : k1_cond6 i = 1#1), ∀ a, (k1_off34 i) a + S1x1.size a ≤ S2x8.size a
  k1_off35_inb : ∀ i : grid1.Coords, ∀ (k1_h4 : k1_cond4 i = 1#1), ∀ (k1_h6 : k1_cond6 i = 1#1), ∀ a, (k1_off35 i) a + S1x384x1024.size a ≤ S2x3072x1024.size a
  k1_off36_inb : ∀ i : grid1.Coords, ∀ (k1_h4 : k1_cond4 i = 1#1), ∀ (k1_h7 : k1_cond7 i = 1#1), ∀ a, (k1_off36 i) a + S1x1.size a ≤ S2x8.size a
  k1_off37_inb : ∀ i : grid1.Coords, ∀ (k1_h4 : k1_cond4 i = 1#1), ∀ (k1_h7 : k1_cond7 i = 1#1), ∀ a, (k1_off37 i) a + S1x424x1024.size a ≤ S2x3072x1024.size a
  k1_off38_inb : ∀ i : grid1.Coords, ∀ (k1_h4 : k1_cond4 i = 1#1), ∀ (k1_h7 : k1_cond7 i = 1#1), ∀ a, (k1_off38 i) a + S1x1.size a ≤ S2x8.size a
  k1_off39_inb : ∀ i : grid1.Coords, ∀ (k1_h4 : k1_cond4 i = 1#1), ∀ (k1_h7 : k1_cond7 i = 1#1), ∀ a, (k1_off39 i) a + S1x424x1024.size a ≤ S2x3072x1024.size a
  k1_off40_inb : ∀ i : grid1.Coords, ∀ (k1_h4 : k1_cond4 i = 1#1), ∀ (k1_h7 : k1_cond7 i = 1#1), ∀ a, (k1_off40 i) a + S1x1.size a ≤ S2x8.size a
  k1_off41_inb : ∀ i : grid1.Coords, ∀ (k1_h4 : k1_cond4 i = 1#1), ∀ (k1_h7 : k1_cond7 i = 1#1), ∀ a, (k1_off41 i) a + S1x424x1024.size a ≤ S2x3072x1024.size a
  k1_off42_inb : ∀ i : grid1.Coords, ∀ (k1_h4 : k1_cond4 i = 1#1), ∀ (k1_h7 : k1_cond7 i = 1#1), ∀ a, (k1_off42 i) a + S1x1.size a ≤ S2x8.size a
  k1_off43_inb : ∀ i : grid1.Coords, ∀ (k1_h4 : k1_cond4 i = 1#1), ∀ (k1_h7 : k1_cond7 i = 1#1), ∀ a, (k1_off43 i) a + S1x424x1024.size a ≤ S2x3072x1024.size a
  k1_off44_inb : ∀ i : grid1.Coords, ∀ (k1_h4 : k1_cond4 i = 1#1), ∀ (k1_h7 : k1_cond7 i = 1#1), ∀ a, (k1_off44 i) a + S1x1.size a ≤ S2x8.size a
  k1_off45_inb : ∀ i : grid1.Coords, ∀ (k1_h4 : k1_cond4 i = 1#1), ∀ (k1_h7 : k1_cond7 i = 1#1), ∀ (r : Fin 8), ∀ a, (k1_off45 i (BitVec.ofNat 32 (384 * r.val))) a + S384x1024.size a ≤ S100000x1024.size a
  k1_off46_inb : ∀ i : grid1.Coords, ∀ (k1_h4 : k1_cond4 i = 1#1), ∀ (k1_h7 : k1_cond7 i = 1#1), ∀ a, (k1_off46 i) a + S1x384x1024.size a ≤ S2x3072x1024.size a
  k1_off47_inb : ∀ i : grid1.Coords, ∀ (k1_h4 : k1_cond4 i = 1#1), ∀ (k1_h7 : k1_cond7 i = 1#1), ∀ a, (k1_off47 i) a + S1x1.size a ≤ S2x8.size a
  k1_off48_inb : ∀ i : grid1.Coords, ∀ (k1_h4 : k1_cond4 i = 1#1), ∀ (k1_h7 : k1_cond7 i = 1#1), ∀ a, (k1_off48 i) a + S1x384x1024.size a ≤ S2x3072x1024.size a
  k1_off49_inb : ∀ i : grid1.Coords, ∀ (k1_h4 : k1_cond4 i = 1#1), ∀ (k1_h7 : k1_cond7 i = 1#1), ∀ a, (k1_off49 i) a + S1x1.size a ≤ S2x8.size a
  k1_off50_inb : ∀ i : grid1.Coords, ∀ (k1_h4 : k1_cond4 i = 1#1), ∀ (k1_h7 : k1_cond7 i = 1#1), ∀ a, (k1_off50 i) a + S1x384x1024.size a ≤ S2x3072x1024.size a
  k1_off51_inb : ∀ i : grid1.Coords, ∀ (k1_h4 : k1_cond4 i = 1#1), ∀ (k1_h7 : k1_cond7 i = 1#1), ∀ a, (k1_off51 i) a + S1x1.size a ≤ S2x8.size a
  k1_off52_inb : ∀ i : grid1.Coords, ∀ (k1_h4 : k1_cond4 i = 1#1), ∀ (k1_h7 : k1_cond7 i = 1#1), ∀ a, (k1_off52 i) a + S1x384x1024.size a ≤ S2x3072x1024.size a
  k1_off53_inb : ∀ i : grid1.Coords, ∀ (k1_h4 : k1_cond4 i = 1#1), ∀ (k1_h7 : k1_cond7 i = 1#1), ∀ a, (k1_off53 i) a + S1x1.size a ≤ S2x8.size a
  k1_off54_inb : ∀ i : grid1.Coords, ∀ (k1_h4 : k1_cond4 i = 1#1), ∀ (k1_h7 : k1_cond7 i = 1#1), ∀ a, (k1_off54 i) a + S1x384x1024.size a ≤ S2x3072x1024.size a
  k1_off55_inb : ∀ i : grid1.Coords, ∀ (k1_h4 : k1_cond4 i = 1#1), ∀ (k1_h7 : k1_cond7 i = 1#1), ∀ a, (k1_off55 i) a + S1x1.size a ≤ S2x8.size a
  k1_off56_inb : ∀ i : grid1.Coords, ∀ (k1_h4 : k1_cond4 i = 1#1), ∀ (k1_h7 : k1_cond7 i = 1#1), ∀ a, (k1_off56 i) a + S1x384x1024.size a ≤ S2x3072x1024.size a
  k1_off57_inb : ∀ i : grid1.Coords, ∀ (k1_h4 : k1_cond4 i = 1#1), ∀ (k1_h7 : k1_cond7 i = 1#1), ∀ a, (k1_off57 i) a + S1x1.size a ≤ S2x8.size a
  k1_off58_inb : ∀ i : grid1.Coords, ∀ (k1_h4 : k1_cond4 i = 1#1), ∀ (k1_h7 : k1_cond7 i = 1#1), ∀ a, (k1_off58 i) a + S1x384x1024.size a ≤ S2x3072x1024.size a
  k1_off59_inb : ∀ i : grid1.Coords, ∀ (k1_h4 : k1_cond4 i = 1#1), ∀ (k1_h7 : k1_cond7 i = 1#1), ∀ a, (k1_off59 i) a + S1x1.size a ≤ S2x8.size a
  k1_off60_inb : ∀ i : grid1.Coords, ∀ (k1_h4 : k1_cond4 i = 1#1), ∀ (k1_h7 : k1_cond7 i = 1#1), ∀ a, (k1_off60 i) a + S1x384x1024.size a ≤ S2x3072x1024.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S1024x128.size a
  hwx1_0 : ∀ i : grid1.Coords, EltTy.bits .f32 = 32 ∨ (Rect.block (s := S1024x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S1024x1.size a
  hwx1_1 : ∀ i : grid1.Coords, EltTy.bits .i32 = 32 ∨ (Rect.block (s := S1024x1) S1024x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S3072x128.size a < S100000x128.size a
  hwx1_4 : ∀ i : grid1.Coords, EltTy.bits .f32 = 32 ∨ (Rect.unit (s := S100000x128) (fun a => cc1_transform_4 i a * S3072x128.size a) (fun a => (Pipeline.Clip.of (cc1_transform_4 i a) (S3072x128.size a) (S100000x128.size a)).extent (S3072x128.size a)) fun a => Pipeline.Clip.inb (Pipeline.Clip.ok_of (hstart1_4 i a))).WholeWords (EltTy.packing .f32)
  hwxs1_4 : ∀ i : grid1.Coords, EltTy.bits .f32 = 32 ∨ (Rect.unit (s := S3072x128) (fun _ => 0) (fun a => (Pipeline.Clip.of (cc1_transform_4 i a) (S3072x128.size a) (S100000x128.size a)).extent (S3072x128.size a)) fun a => (Nat.zero_add _).trans_le (Pipeline.Clip.extent_le (Pipeline.Clip.ok_of (hstart1_4 i a)))).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hstart1_5 : ∀ (i : grid1.Coords) a, cc1_transform_5 i a * S1x3072.size a < S1x100000.size a
  hwx1_5 : ∀ i : grid1.Coords, EltTy.bits .f32 = 32 ∨ (Rect.unit (s := S1x100000) (fun a => cc1_transform_5 i a * S1x3072.size a) (fun a => (Pipeline.Clip.of (cc1_transform_5 i a) (S1x3072.size a) (S1x100000.size a)).extent (S1x3072.size a)) fun a => Pipeline.Clip.inb (Pipeline.Clip.ok_of (hstart1_5 i a))).WholeWords (EltTy.packing .f32)
  hwxs1_5 : ∀ i : grid1.Coords, EltTy.bits .f32 = 32 ∨ (Rect.unit (s := S1x3072) (fun _ => 0) (fun a => (Pipeline.Clip.of (cc1_transform_5 i a) (S1x3072.size a) (S1x100000.size a)).extent (S1x3072.size a)) fun a => (Nat.zero_add _).trans_le (Pipeline.Clip.extent_le (Pipeline.Clip.ok_of (hstart1_5 i a)))).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
abbrev cc1_scratch4 : DmaSems sig S2x8 := SemArray.consecutive 11 S2x8 hcc1_scratch4
def dot_S128x64_S64x1024_S128x1024_1_0_0_1_n_n : DotDims S128x64 S64x1024 S128x1024 where
  lhsContracting := [1]
  rhsContracting := [0]
  lhsNonContracting := [0]
  rhsNonContracting := [1]
  lhsBatch := []
  rhsBatch := []
  wf := dot_S128x64_S64x1024_S128x1024_1_0_0_1_n_n_wf
def dot_S3072x128_S128x1024_S3072x1024_1_0_0_1_n_n : DotDims S3072x128 S128x1024 S3072x1024 where
  lhsContracting := [1]
  rhsContracting := [0]
  lhsNonContracting := [0]
  rhsNonContracting := [1]
  lhsBatch := []
  rhsBatch := []
  wf := dot_S3072x128_S128x1024_S3072x1024_1_0_0_1_n_n_wf

abbrev win1_0 : Pipeline.Window sig grid1 :=
  Pipeline.Window.ofSpec (Memref.whole main_v5) S1024x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpecClip (Memref.whole main_arg4) S3072x128.size cc1_transform_4 reads1_4 false false 2 stage1_4 sem1_4
    hrank1 hreads1_4 hstart1_4 nbuf1_4 (Memref.isWhole_whole _) hwx1_4 hwxs1_4 hstage1_4

abbrev win1_5 : Pipeline.Window sig grid1 :=
  Pipeline.Window.ofSpecClip (Memref.whole main_v1) S1x3072.size cc1_transform_5 reads1_5 false false 2 stage1_5 sem1_5
    hrank1 hreads1_5 hstart1_5 nbuf1_5 (Memref.isWhole_whole _) hwx1_5 hwxs1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1024 : Shape := ⟨1, ![1024]⟩
abbrev S100000x64 : Shape := ⟨2, ![100000, 64]⟩
abbrev S128x64 : Shape := ⟨2, ![128, 64]⟩
abbrev S128 : Shape := ⟨1, ![128]⟩
abbrev S100000x128 : Shape := ⟨2, ![100000, 128]⟩
abbrev S100000 : Shape := ⟨1, ![100000]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x64 : Shape := ⟨2, ![1024, 64]⟩
abbrev S64x128 : Shape := ⟨2, ![64, 128]⟩
abbrev S1024x128 : Shape := ⟨2, ![1024, 128]⟩
abbrev S1x128 : Shape := ⟨2, ![1, 128]⟩
abbrev S128x100000 : Shape := ⟨2, ![128, 100000]⟩
abbrev S1024x100000 : Shape := ⟨2, ![1024, 100000]⟩
abbrev S1x100000 : Shape := ⟨2, ![1, 100000]⟩

abbrev nBuf : Space → Nat
  | .hbm => 57
  | .vmem => 0
  | .smem => 0
  | _ => 0

abbrev bufTy : (tb : Table) → Fin (tcTables nBuf tb) → BufTy
  | .hbm, ⟨0, _⟩ => ⟨S1024, .i32⟩
  | .hbm, ⟨1, _⟩ => ⟨S100000x64, .f32⟩
  | .hbm, ⟨2, _⟩ => ⟨S128x64, .f32⟩
  | .hbm, ⟨3, _⟩ => ⟨S128, .f32⟩
  | .hbm, ⟨4, _⟩ => ⟨S100000x128, .f32⟩
  | .hbm, ⟨5, _⟩ => ⟨S100000, .f32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1, .i32⟩
  | .hbm, ⟨15, _⟩ => ⟨S_, .i32⟩
  | .hbm, ⟨16, _⟩ => ⟨S1024x1, .i32⟩
  | .hbm, ⟨17, _⟩ => ⟨S1024x1, .i1⟩
  | .hbm, ⟨18, _⟩ => ⟨S1x1, .i32⟩
  | .hbm, ⟨19, _⟩ => ⟨S1024x1, .i32⟩
  | .hbm, ⟨20, _⟩ => ⟨S1024x1, .i1⟩
  | .hbm, ⟨21, _⟩ => ⟨S1024x1, .i1⟩
  | .hbm, ⟨22, _⟩ => ⟨S_, .i1⟩
  | .hbm, ⟨23, _⟩ => ⟨S1024, .i1⟩
  | .hbm, ⟨24, _⟩ => ⟨S1024x64, .f32⟩
  | .hbm, ⟨25, _⟩ => ⟨S1024x64, .i1⟩
  | .hbm, ⟨26, _⟩ => ⟨S_, .f32⟩
  | .hbm, ⟨27, _⟩ => ⟨S1024x64, .f32⟩
  | .hbm, ⟨28, _⟩ => ⟨S1024x64, .f32⟩
  | .hbm, ⟨29, _⟩ => ⟨S64x128, .f32⟩
  | .hbm, ⟨30, _⟩ => ⟨S1024x128, .f32⟩
  | .hbm, ⟨31, _⟩ => ⟨S1x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | .hbm, ⟨37, _⟩ => ⟨S128x100000, .f32⟩
  | .hbm, ⟨38, _⟩ => ⟨S1024x100000, .f32⟩
  | .hbm, ⟨39, _⟩ => ⟨S1x100000, .f32⟩
  | .hbm, ⟨40, _⟩ => ⟨S1024x100000, .f32⟩
  | .hbm, ⟨41, _⟩ => ⟨S1024x100000, .f32⟩
  | .hbm, ⟨42, _⟩ => ⟨S_, .f32⟩
  | .hbm, ⟨43, _⟩ => ⟨S1024, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1024x1, .f32⟩
  | .hbm, ⟨48, _⟩ => ⟨S1024x100000, .f32⟩
  | .hbm, ⟨49, _⟩ => ⟨S1024x100000, .f32⟩
  | .hbm, ⟨50, _⟩ => ⟨S1024x100000, .f32⟩
  | .hbm, ⟨51, _⟩ => ⟨S_, .f32⟩
  | .hbm, ⟨52, _⟩ => ⟨S1024, .f32⟩
  | .hbm, ⟨53, _⟩ => ⟨S1024x1, .f32⟩
  | .hbm, ⟨54, _⟩ => ⟨S1024x1, .f32⟩
  | .hbm, ⟨55, _⟩ => ⟨S1024x100000, .f32⟩
  | .hbm, ⟨56, _⟩ => ⟨S1024x100000, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_call1_cst : Ref sig .tc := ⟨.hbm, 34, rfl⟩
abbrev main_call1_v0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_call2_cst : Ref sig .tc := ⟨.hbm, 42, rfl⟩
abbrev main_call2_v0 : Ref sig .tc := ⟨.hbm, 43, rfl⟩
abbrev main_call2_cst_0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_v6 : Ref sig .tc := ⟨.hbm, 50, rfl⟩
abbrev main_call2_cst_1 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_v12 : Ref sig .tc := ⟨.hbm, 56, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x64_0 : S1024.BroadcastsInDim S1024x64 (![0] : Fin 1 → Fin S1024x64.rank)
  bcast_S_S1024x64 : S_.BroadcastsInDim S1024x64 (![] : Fin 0 → Fin S1024x64.rank)
  transposes_S128x64_S64x128_1_0 : S128x64.Transposes [1, 0] S64x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  transposes_S100000x128_S128x100000_1_0 : S100000x128.Transposes [1, 0] S128x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  reducesTo_S1024x100000_S1024_d1 : S1024x100000.ReducesTo [1] S1024
  bcast_S1024x1_S1024x100000_0_1 : S1024x1.BroadcastsInDim S1024x100000 (![0, 1] : Fin 2 → Fin S1024x100000.rank)
  gather_S100000x64_S1024x1_S1024x64_1_0_n_n_0_1_164_wf : GatherDims.WF S100000x64 S1024x1 S1024x64 [1] [0] [] [0] [] 1 ![1, 64]
  dot_S1024x64_S64x128_S1024x128_1_0_0_1_n_n_wf : DotDims.WF S1024x64 S64x128 S1024x128 [1] [0] [0] [1] [] []
  dot_S1024x128_S128x100000_S1024x100000_1_0_0_1_n_n_wf : DotDims.WF S1024x128 S128x100000 S1024x100000 [1] [0] [0] [1] [] []

variable [Facts₀]

def gather_S100000x64_S1024x1_S1024x64_1_0_n_n_0_1_164 : GatherDims S100000x64 S1024x1 S1024x64 where
  offsetDims := [1]
  collapsedSliceDims := [0]
  operandBatchingDims := []
  startIndicesBatchingDims := []
  startIndexMap := [0]
  indexVectorDim := 1
  sliceSizes := ![1, 64]
  wf := gather_S100000x64_S1024x1_S1024x64_1_0_n_n_0_1_164_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x100000_S1024x100000_1_0_0_1_n_n : DotDims S1024x128 S128x100000 S1024x100000 where
  lhsContracting := [1]
  rhsContracting := [0]
  lhsNonContracting := [0]
  rhsNonContracting := [1]
  lhsBatch := []
  rhsBatch := []
  wf := dot_S1024x128_S128x100000_S1024x100000_1_0_0_1_n_n_wf

class Facts : Prop extends Facts₀ where

variable [Facts]
-- ==== Proof.Kernel.Common.lean ====
/-
  The program as the SparseCore launch theorem sees it, and the proof's resource algebra: the handshake cells'
  rounds (indexed by naturals), a second copy of the rounds algebra for the TensorCore pipeline's staging cells,
  and the exclusive counters that local transfers in flight are tracked with.
-/
import proofs.«204087_g3891240370374_cont_8to1_b_1678_29_alg».proof.Kernel
import proofs.«204087_g3891240370374_cont_8to1_b_1678_29_alg».proof.Proof.Gen.Kernel
import proofs.«204087_g3891240370374_cont_8to1_b_1678_29_alg».proof.Proof.Gen.Kernel.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

/-- The handshakes' rounds: the left factor. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The pipeline's staging cells' rounds: the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MT nD τ sig (HIx 1) (Elt F) ℕ UU ℕ)).LandsIn (upEmb : UEmb _ (MT nD τ sig (HIx 1) (Elt F) ℕ UU ℕ)) := by
  unfold EH; infer_instance
instance EP_landsIn : (EP : Emb UP (MT nD τ sig (HIx 1) (Elt F) ℕ UU ℕ)).LandsIn (upEmb : UEmb _ (MT nD τ sig (HIx 1) (Elt F) ℕ UU ℕ)) := by
  unfold EP; infer_instance

example : CountersIn UU := inferInstance

end Cert.Proof.Kernel

end
-- ==== Proof.Kernel.MainA.lean ====
/-
  @main on the TensorCore, cut into its straight lines of host operations, the SparseCore call and the kernel
  region; the TensorCore's unscoped arrays as one set of whole buffers at a valuation.
-/
import proofs.«204087_g3891240370374_cont_8to1_b_1678_29_alg».proof.Proof.Kernel.Common
import proofs.«204087_g3891240370374_cont_8to1_b_1678_29_alg».proof.Proof.Gen.Kernel.Launch
import Idealize.ShloMosaic.Lib.Pipeline.Regions

noncomputable section

namespace Cert.Proof.Kernel

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

/-! ## The host lines -/

abbrev opV0 : HloOp τ sig (Elt F) := StableHlo.reshape main_arg3 main_v0 rfl shapeCasts_S128_S128x1
abbrev opV1 : HloOp τ sig (Elt F) := StableHlo.reshape main_arg5 main_v1 rfl shapeCasts_S100000_S1x100000
abbrev opV2 : HloOp τ sig (Elt F) := StableHlo.reshape main_arg1 main_v2 rfl shapeCasts_S100000x64_S50000x128
abbrev opC : HloOp τ sig (Elt F) := StableHlo.nullary main_c (constantI S_ 32 1#32)
abbrev opV3 : HloOp τ sig (Elt F) :=
  StableHlo.unary main_c main_v3 (broadcastInDim S1024 ![] bcast_S_S1024 : (⟨S_, .i32⟩ : BufTy).Contents (Elt F) → (⟨S1024, .i32⟩ : BufTy).Contents (Elt F))
abbrev opV4 : HloOp τ sig (Elt F) :=
  StableHlo.binary main_arg0 main_v3 main_v4 (Host.shrsi : (⟨S1024, .i32⟩ : BufTy).Contents (Elt F) → (⟨S1024, .i32⟩ : BufTy).Contents (Elt F) → (⟨S1024, .i32⟩ : BufTy).Contents (Elt F))
abbrev opC0 : HloOp τ sig (Elt F) := StableHlo.nullary main_c_0 (constantI S_ 32 1#32)
abbrev opV6 : HloOp τ sig (Elt F) :=
  StableHlo.unary main_c_0 main_v6 (broadcastInDim S1024 ![] bcast_S_S1024 : (⟨S_, .i32⟩ : BufTy).Contents (Elt F) → (⟨S1024, .i32⟩ : BufTy).Contents (Elt F))
abbrev opV7 : HloOp τ sig (Elt F) :=
  StableHlo.binary main_arg0 main_v6 main_v7 (andi : (⟨S1024, .i32⟩ : BufTy).Contents (Elt F) → (⟨S1024, .i32⟩ : BufTy).Contents (Elt F) → (⟨S1024, .i32⟩ : BufTy).Contents (Elt F))
abbrev opV8 : HloOp τ sig (Elt F) := StableHlo.reshape main_v7 main_v8 rfl shapeCasts_S1024_S1024x1
abbrev opV10 : HloOp τ sig (Elt F) :=
  StableHlo.unary main_v9 main_v10 ((transpose S1024x100000 [1, 0] · transposes_S100000x1024_S1024x100000_1_0) : (⟨S100000x1024, .f32⟩ : BufTy).Contents (Elt F) → (⟨S1024x100000, .f32⟩ : BufTy).Contents (Elt F))

/-- The operations before the SparseCore call, between it and the kernel region, and after the region. -/
abbrev ops1 : List (HloOp τ sig (Elt F)) := [opV0, opV1, opV2, opC, opV3, opV4]
abbrev ops2 : List (HloOp τ sig (Elt F)) := [opC0, opV6, opV7, opV8]
abbrev ops3 : List (HloOp τ sig (Elt F)) := [opV10]

/-- @main is: the first line, the SparseCore call, the second line, the kernel region, the last line. -/
theorem main_eq (d : Dev nD) :
    main (F := F) d = (StableHlo.seq ops1 >>= fun _ => (K (F := F)).run d 0 >>= fun _ => StableHlo.seq ops2 >>= fun _ =>
      Prog.op (.customCall (SparseCore.inner (Pipeline.entry 0)) ()) fun _ => StableHlo.seq ops3 >>= fun _ => pure ⟨⟩) := by
  simp only [main, StableHlo.seq, Prog.lift, bind_assoc, pure_bind, Prog.bind_op, Prog.bind_ret, Prog.pure_eq_ret]

/-! ## The TensorCore's unscoped arrays as one held set -/

variable (m : (ℓ : Loc nD τ sig) → Buf (Elt F) ℓ) (ρ : Dev nD → PrngReg)

/-- Every unscoped buffer of the TensorCore, as a device reference. -/
def Sall : Finset (DevRef τ sig) :=
  (Finset.univ.filter fun b : Ref sig .tc => ¬ b.isScoped).map ⟨Proc.devRef .tc, Proc.devRef_injective _⟩

/-- The launch valuation of device `d`. -/
def V0 (d : Dev nD) : Valuation τ sig (Elt F) := fun b => m (d, b)

theorem unscoped_held (d : Dev nD) :
    (unscopedBufs d (fun b => m ((SparseCore.T d).loc b)) : sProp 𝕄) = held (T d) Sall (V0 m d) := by
  unfold unscopedBufs held Sall
  rw [bigSep_map]
  rfl

theorem mem_Sall (b : Ref sig .tc) (h : b.isScoped = false) : (Proc.devRef .tc b : DevRef τ sig) ∈ Sall := by
  unfold Sall
  exact Finset.mem_map.mpr ⟨b, Finset.mem_filter.mpr ⟨Finset.mem_univ _, by simp [h]⟩, rfl⟩

open TcCoe in
theorem sub1 (y : Ref sig .tc) (hy : y.isScoped = false) : ({(y : DevRef τ sig)} : Finset (DevRef τ sig)) ⊆ Sall := by
  intro b hb; cases Finset.mem_singleton.mp hb; exact mem_Sall y hy
open TcCoe in
theorem sub2 (x y : Ref sig .tc) (hx : x.isScoped = false) (hy : y.isScoped = false) :
    ({(x : DevRef τ sig), (y : DevRef τ sig)} : Finset (DevRef τ sig)) ⊆ Sall := by
  intro b hb
  rcases Finset.mem_insert.mp hb with rfl | hb
  · exact mem_Sall x hx
  · cases Finset.mem_singleton.mp hb; exact mem_Sall y hy
open TcCoe in
theorem sub3 (x y z : Ref sig .tc) (hx : x.isScoped = false) (hy : y.isScoped = false) (hz : z.isScoped = false) :
    ({(x : DevRef τ sig), (y : DevRef τ sig), (z : DevRef τ sig)} : Finset (DevRef τ sig)) ⊆ Sall := by
  intro b hb
  rcases Finset.mem_insert.mp hb with rfl | hb
  · exact mem_Sall x hx
  · exact sub2 y z hy hz hb

theorem ops1_sub : ∀ op ∈ (ops1 (F := F)), op.bufs ⊆ Sall := by
  intro op hop
  simp only [List.mem_cons, List.not_mem_nil, or_false] at hop
  rcases hop with rfl | rfl | rfl | rfl | rfl | rfl
  · exact sub2 main_arg3 main_v0 rfl rfl
  · exact sub2 main_arg5 main_v1 rfl rfl
  · exact sub2 main_arg1 main_v2 rfl rfl
  · exact sub1 main_c rfl
  · exact sub2 main_c main_v3 rfl rfl
  · exact sub3 main_arg0 main_v3 main_v4 rfl rfl rfl
theorem ops2_sub : ∀ op ∈ (ops2 (F := F)), op.bufs ⊆ Sall := by
  intro op hop
  simp only [List.mem_cons, List.not_mem_nil, or_false] at hop
  rcases hop with rfl | rfl | rfl | rfl
  · exact sub1 main_c_0 rfl
  · exact sub2 main_c_0 main_v6 rfl rfl
  · exact sub3 main_arg0 main_v6 main_v7 rfl rfl rfl
  · exact sub2 main_v7 main_v8 rfl rfl
theorem ops3_sub : ∀ op ∈ (ops3 (F := F)), op.bufs ⊆ Sall := by
  intro op hop
  simp only [List.mem_cons, List.not_mem_nil, or_false] at hop
  rcases hop with rfl
  exact sub2 main_v9 main_v10 rfl rfl
theorem ops1_fresh : ∀ op ∈ (ops1 (F := F)), op.fresh = ∅ := by
  intro op hop
  simp only [List.mem_cons, List.not_mem_nil, or_false] at hop
  rcases hop with rfl | rfl | rfl | rfl | rfl | rfl <;> rfl
theorem ops2_fresh : ∀ op ∈ (ops2 (F := F)), op.fresh = ∅ := by
  intro op hop
  simp only [List.mem_cons, List.not_mem_nil, or_false] at hop
  rcases hop with rfl | rfl | rfl | rfl <;> rfl
theorem ops3_fresh : ∀ op ∈ (ops3 (F := F)), op.fresh = ∅ := by
  intro op hop
  simp only [List.mem_cons, List.not_mem_nil, or_false] at hop
  rcases hop with rfl
  rfl

end Cert.Proof.Kernel

end
-- ==== Proof.Kernel.SC.lean ====
/-
  The SparseCore side of the call, part one: what the handshakes of the one vector-subcore call carry. The call takes the
  table, the index list and the result array whole; each of the two SparseCores is handed one half-share of the table
  and, of the index list and of the result, the sixteen 32-row blocks its tiles work on; each tile is handed a read
  share of the table and its own block of the two other arrays. Tile (c, s) works on block 2 s + c. What comes back is
  the same, the result's blocks at ONE whole-array function: row b of the result is the table's row named by word b of
  the index list.
-/
import proofs.«204087_g3891240370374_cont_8to1_b_1678_29_alg».proof.Proof.Kernel.Common
import Idealize.ShloMosaic.Lib.ValueIdx

noncomputable section

namespace Cert.Proof.Kernel

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type}

local notation "𝕄" => MT nD τ sig (HIx 1) (Elt F) ℕ UU ℕ

/-! ## The three arrays of the call -/

/-- The table, the index list and the result, as locations of device d. -/
abbrev v2Loc (d : Dev nD) : Loc nD τ sig := (SparseCore.T d).loc main_v2
abbrev v4Loc (d : Dev nD) : Loc nD τ sig := (SparseCore.T d).loc main_v4
abbrev v5Loc (d : Dev nD) : Loc nD τ sig := (SparseCore.T d).loc main_v5

/-- The row of the table that word b of the index list names (made total by reduction modulo the table's height). -/
def rowOf {d : Dev nD} (ix : Buf (Elt F) (v4Loc d)) (b : Fin 1024) : Fin 50000 :=
  ⟨(ix (ValueIdx.ix1 b)).toNat % 50000, Nat.mod_lt _ (by decide)⟩

/-- The gathered array as ONE function of the table and the index list: entry (b, j) is entry (ix b, j) of the table. -/
def gathered {d : Dev nD} (t : Buf (Elt F) (v2Loc d)) (ix : Buf (Elt F) (v4Loc d)) : Buf (Elt F) (v5Loc d) :=
  fun x => t (ValueIdx.ix2 (rowOf ix (x 0)) (x 1))

theorem gathered_apply {d : Dev nD} (t : Buf (Elt F) (v2Loc d)) (ix : Buf (Elt F) (v4Loc d)) (b : Fin 1024) (j : Fin 128)
    (h : (ix (ValueIdx.ix1 b)).toNat < 50000) :
    gathered t ix (ValueIdx.ix2 b j) = t (ValueIdx.ix2 (⟨(ix (ValueIdx.ix1 b)).toNat, h⟩ : Fin 50000) j) := by
  unfold gathered rowOf
  congr 2
  exact Fin.ext (Nat.mod_eq_of_lt h)

/-! ## The thirty-two blocks of rows -/

theorem hdiv4 : 32 ∣ S1024.size 0 := ⟨32, rfl⟩
theorem hdiv5 : 32 ∣ S1024x128.size 0 := ⟨32, rfl⟩
/-- Block w of the index list, and of the result: rows 32 w to 32 w + 31. -/
abbrev row4 (w : Fin 32) : Rect S1024 := Rect.part (s := S1024) (a₀ := 0) hdiv4 w
abbrev row5 (w : Fin 32) : Rect S1024x128 := Rect.part (s := S1024x128) (a₀ := 0) hdiv5 w
abbrev rows4 (w : Fin 32) : Finset S1024.Idx := (row4 w).set
abbrev rows5 (w : Fin 32) : Finset S1024x128.Idx := (row5 w).set

theorem rows4_disjoint : ∀ i ∈ (Finset.univ : Finset (Fin 32)), ∀ j ∈ (Finset.univ : Finset (Fin 32)), i ≠ j → Disjoint (rows4 i) (rows4 j) :=
  fun _ _ _ _ h => Rect.part_disjoint hdiv4 h
theorem rows5_disjoint : ∀ i ∈ (Finset.univ : Finset (Fin 32)), ∀ j ∈ (Finset.univ : Finset (Fin 32)), i ≠ j → Disjoint (rows5 i) (rows5 j) :=
  fun _ _ _ _ h => Rect.part_disjoint hdiv5 h
theorem rows4_cover : (Finset.univ : Finset (Fin 32)).biUnion rows4 = Finset.univ := Rect.biUnion_part hdiv4
theorem rows5_cover : (Finset.univ : Finset (Fin 32)).biUnion rows5 = Finset.univ := Rect.biUnion_part hdiv5

/-- The block of tile s of SparseCore c: the tiles of the two SparseCores alternate. -/
abbrev wid (c : Fin 2) (s : Fin 16) : Fin 32 := ⟨2 * s.val + c.val, by omega⟩

/-- (SparseCore, tile) pairs are the thirty-two blocks. -/
def widEquiv : Fin 2 × Fin 16 ≃ Fin 32 where
  toFun p := wid p.1 p.2
  invFun w := (⟨w.val % 2, Nat.mod_lt _ (by decide)⟩, ⟨w.val / 2, by omega⟩)
  left_inv p := by
    obtain ⟨c, s⟩ := p
    refine Prod.ext (Fin.ext ?_) (Fin.ext ?_)
    · show (2 * s.val + c.val) % 2 = c.val
      omega
    · show (2 * s.val + c.val) / 2 = s.val
      omega
  right_inv w := by
    refine Fin.ext ?_
    show 2 * (w.val / 2) + w.val % 2 = w.val
    omega

/-- A family over the blocks, dealt to the SparseCores and their tiles. -/
theorem bigSep_wid (Φ : Fin 32 → sProp 𝕄) :
    (bigSep Finset.univ fun c : Fin 2 => bigSep Finset.univ fun s : Fin 16 => Φ (wid c s)) = bigSep Finset.univ Φ := by
  rw [BI.bigSep_univ_equiv widEquiv Φ, BI.bigSep_univ_prod]
  rfl

theorem v4_blocks (d : Dev nD) (f : Buf (Elt F) (v4Loc d)) :
    (v4Loc d ↦{fullShare} f : sProp 𝕄) = bigSep Finset.univ fun w : Fin 32 => v4Loc d ↦[rows4 w]{fullShare} f := by
  rw [← pointsTo_biUnion Finset.univ (ℓ := v4Loc d) rows4 rows4_disjoint, rows4_cover]; try rfl
theorem v5_blocks (d : Dev nD) (f : Buf (Elt F) (v5Loc d)) :
    (v5Loc d ↦{fullShare} f : sProp 𝕄) = bigSep Finset.univ fun w : Fin 32 => v5Loc d ↦[rows5 w]{fullShare} f := by
  rw [← pointsTo_biUnion Finset.univ (ℓ := v5Loc d) rows5 rows5_disjoint, rows5_cover]; try rfl

/-! ## The shares of the table -/

/-- A SparseCore's share of the table: a half. -/
def coreShare (c : Fin 2) : PosShare TreeShare := if c = 0 then fullShare.left else fullShare.right
/-- A tile's: one of sixteen read tokens of its SparseCore's half. -/
abbrev tileShare (c : Fin 2) (s : Fin 16) : PosShare TreeShare := shareTok (coreShare c) 16 s

theorem v2_cores (d : Dev nD) (f : Buf (Elt F) (v2Loc d)) :
    (v2Loc d ↦{fullShare} f : sProp 𝕄) = bigSep Finset.univ fun c : Fin 2 => v2Loc d ↦{coreShare c} f := by
  rw [bigSep_univ_two]
  show _ = iprop((v2Loc d ↦{fullShare.left} f) ∗ v2Loc d ↦{fullShare.right} f)
  exact BI.Entails.antisymm (pointsTo_share (PosShare.mem_left_op_right fullShare)).1 (pointsTo_share (PosShare.mem_left_op_right fullShare)).2

/-! ## What the handshakes carry -/

variable (t : (d : Dev nD) → Buf (Elt F) (v2Loc d)) (ix : (d : Dev nD) → Buf (Elt F) (v4Loc d)) (o : (d : Dev nD) → Buf (Elt F) (v5Loc d))

/-- Block w of the index list and of the result, the result at r. -/
abbrev blk (d : Dev nD) (r : Buf (Elt F) (v5Loc d)) (w : Fin 32) : sProp 𝕄 :=
  iprop((v4Loc d ↦[rows4 w]{fullShare} ix d) ∗ (v5Loc d ↦[rows5 w]{fullShare} r))

/-- What a SparseCore is handed (the result at r): its half of the table and its sixteen blocks. -/
abbrev forCore (d : Dev nD) (r : Buf (Elt F) (v5Loc d)) (c : Fin 2) : sProp 𝕄 :=
  iprop((v2Loc d ↦{coreShare c} t d) ∗ bigSep Finset.univ fun s : Fin 16 => blk ix d r (wid c s))
/-- What a tile is handed (the result at r): its read token of the table and its block. -/
abbrev forTile (d : Dev nD) (r : Buf (Elt F) (v5Loc d)) (c : Fin 2) (s : Fin 16) : sProp 𝕄 :=
  iprop((v2Loc d ↦{tileShare c s} t d) ∗ blk ix d r (wid c s))

/-- The one call: out, the result at its contents before the call; back, at the gathered rows. -/
def P : (K (F := F)).Pay (nD := nD) (Val := Elt F) (Name := ℕ) (U := UU) where
  st := fun q d c => match q with | 0 => forCore t ix d (o d) (Fin.cast nCore_zero c)
  dn := fun q d c => match q with | 0 => forCore t ix d (gathered (t d) (ix d)) (Fin.cast nCore_zero c)
  go := fun q d c i => match q with | 0 => forTile t ix d (o d) (Fin.cast nCore_zero c) (Fin.cast nSub_zero i)
  td := fun q d c i => match q with | 0 => forTile t ix d (gathered (t d) (ix d)) (Fin.cast nCore_zero c) (Fin.cast nSub_zero i)
  x := fun _ _ => iprop(emp)

instance P_storable : (P (F := F) t ix o).IsStorable where
  st q d c := match q with
    | 0 => (inferInstance : BI.Storable (upEmb : UEmb _ 𝕄) (forCore t ix d (o d) (Fin.cast nCore_zero c)))
  dn q d c := match q with
    | 0 => (inferInstance : BI.Storable (upEmb : UEmb _ 𝕄) (forCore t ix d (gathered (t d) (ix d)) (Fin.cast nCore_zero c)))
  go q d c i := match q with
    | 0 => (inferInstance : BI.Storable (upEmb : UEmb _ 𝕄) (forTile t ix d (o d) (Fin.cast nCore_zero c) (Fin.cast nSub_zero i)))
  td q d c i := match q with
    | 0 => (inferInstance : BI.Storable (upEmb : UEmb _ 𝕄) (forTile t ix d (gathered (t d) (ix d)) (Fin.cast nCore_zero c) (Fin.cast nSub_zero i)))

theorem P_st (d : Dev nD) (c : Fin ((K (F := F)).nCore 0)) : (P t ix o).st 0 d c = forCore t ix d (o d) (Fin.cast nCore_zero c) := rfl
theorem P_dn (d : Dev nD) (c : Fin ((K (F := F)).nCore 0)) : (P t ix o).dn 0 d c = forCore t ix d (gathered (t d) (ix d)) (Fin.cast nCore_zero c) := rfl
theorem P_go (d : Dev nD) (c : Fin ((K (F := F)).nCore 0)) (i : Fin ((K (F := F)).nSub 0)) :
    (P t ix o).go 0 d c i = forTile t ix d (o d) (Fin.cast nCore_zero c) (Fin.cast nSub_zero i) := rfl
theorem P_td (d : Dev nD) (c : Fin ((K (F := F)).nCore 0)) (i : Fin ((K (F := F)).nSub 0)) :
    (P t ix o).td 0 d c i = forTile t ix d (gathered (t d) (ix d)) (Fin.cast nCore_zero c) (Fin.cast nSub_zero i) := rfl
theorem P_x (q : Fin 1) (thr : Thread nD τ) : (P t ix o).x q thr = iprop(emp) := rfl
theorem P_ox : (P t ix o).ox = fun _ _ => 0 := rfl

/-! ## The whole arrays are the SparseCores' parts -/

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The three arrays whole, the result at r, are the two SparseCores' parts. -/
theorem cores_eq (d : Dev nD) (r : Buf (Elt F) (v5Loc d)) :
    (bigSep Finset.univ fun c : Fin 2 => forCore t ix d r c)
      = iprop((v2Loc d ↦{fullShare} t d) ∗ (v4Loc d ↦{fullShare} ix d) ∗ (v5Loc d ↦{fullShare} r)) := by
  rw [bigSep_sep', bigSep_wid (F := F) (fun w => blk ix d r w), bigSep_sep', ← v2_cores, ← v4_blocks, ← v5_blocks]

theorem st0_eq (d : Dev nD) :
    (bigSep Finset.univ fun c : Fin ((K (F := F)).nCore 0) => (P t ix o).st 0 d c)
      = iprop((v2Loc d ↦{fullShare} t d) ∗ (v4Loc d ↦{fullShare} ix d) ∗ (v5Loc d ↦{fullShare} o d)) := by
  simp only [P_st]
  rw [bigSep_cores (F := F) (fun c => forCore t ix d (o d) c), cores_eq]
theorem dn0_eq (d : Dev nD) :
    (bigSep Finset.univ fun c : Fin ((K (F := F)).nCore 0) => (P t ix o).dn 0 d c)
      = iprop((v2Loc d ↦{fullShare} t d) ∗ (v4Loc d ↦{fullShare} ix d) ∗ (v5Loc d ↦{fullShare} gathered (t d) (ix d))) := by
  simp only [P_dn]
  rw [bigSep_cores (F := F) (fun c => forCore t ix d (gathered (t d) (ix d)) c), cores_eq]
/-- After the call: the table and the index list whole and unchanged, the result at the gathered rows. -/
theorem dn0 (d : Dev nD) :
    (bigSep Finset.univ fun c : Fin ((K (F := F)).nCore 0) => (P t ix o).dn 0 d c)
      ⊢ iprop((v2Loc d ↦{fullShare} t d) ∗ (v4Loc d ↦{fullShare} ix d) ∗ (v5Loc d ↦{fullShare} gathered (t d) (ix d))) :=
  Entails.of_eq (dn0_eq t ix o d)

/-! ## A SparseCore's part is its tiles' -/

/-- The tiles' parts of one SparseCore: their read tokens of the table and their blocks. -/
theorem tiles_eq (d : Dev nD) (r : Buf (Elt F) (v5Loc d)) (c : Fin 2) :
    (bigSep Finset.univ fun s : Fin 16 => forTile t ix d r c s)
      = iprop((bigSep Finset.univ fun s : Fin 16 => v2Loc d ↦{tileShare c s} t d) ∗ bigSep Finset.univ fun s : Fin 16 => blk ix d r (wid c s)) :=
  bigSep_sep' _ _ _

theorem vecSplit : (K (F := F)).VecSplit' (P t ix o) 0 := by
  intro d c
  simp only [P_st, P_dn, P_go, P_td]
  rw [bigSep_tasks (F := F) (fun s => forTile t ix d (o d) (Fin.cast nCore_zero c) s),
    bigSep_tasks (F := F) (fun s => forTile t ix d (gathered (t d) (ix d)) (Fin.cast nCore_zero c) s), tiles_eq, tiles_eq]
  iintro ⟨Ht, Hb⟩
  ihave Ht' := (Transfers.pointsTo_toks_split (coreShare (Fin.cast nCore_zero c)) 16) $$ Ht
  icases Ht' with ⟨Hrest, Htoks⟩
  imodintro
  isplitl [Htoks Hb]
  · isplitl [Htoks]; · iexact Htoks
    iexact Hb
  iintro ⟨Htoks, Hb⟩
  isplitl [Hrest Htoks]
  · iapply (Transfers.pointsTo_toks_join (coreShare (Fin.cast nCore_zero c)) 16)
    isplitl [Hrest]; · iexact Hrest
    iexact Htoks
  iexact Hb

end Cert.Proof.Kernel

end
-- ==== Proof.Kernel.MainB.lean ====
/-
  The kernel region as a segment of @main, and @main on the TensorCore: the first line of host operations, the
  SparseCore call (the table, the index list and the rows handed over and taken back), the second line, the
  region (entered with the TensorCore's arrays at the valuation the lines left), the last line.
-/
import proofs.«204087_g3891240370374_cont_8to1_b_1678_29_alg».proof.Proof.Kernel.MainA
import proofs.«204087_g3891240370374_cont_8to1_b_1678_29_alg».proof.Proof.Kernel.SC

noncomputable section

namespace Cert.Proof.Kernel

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

abbrev aAdm : (p : Fin 1) → (pcfgs (F := F) p).Adm := fun p => (cfgs p).toPCfg_adm

abbrev r2 : DevRef τ sig := Proc.devRef .tc (main_v2 : Ref sig .tc)
abbrev r4 : DevRef τ sig := Proc.devRef .tc (main_v4 : Ref sig .tc)
abbrev r5 : DevRef τ sig := Proc.devRef .tc (main_v5 : Ref sig .tc)
abbrev r9 : DevRef τ sig := Proc.devRef .tc (main_v9 : Ref sig .tc)
abbrev v9Loc (d : Dev nD) : Loc nD τ sig := (SparseCore.T d).loc main_v9

variable (m : (ℓ : Loc nD τ sig) → Buf (Elt F) ℓ) (ρ : Dev nD → PrngReg)

/-! ## The valuations along @main -/

/-- After the first line. -/
def V1 (d : Dev nD) : Valuation τ sig (Elt F) := StableHlo.after (ops1 (F := F)) (V0 m d)
/-- The table, the index list and the rows' array as the SparseCore call finds them. -/
def tV (d : Dev nD) : Buf (Elt F) (v2Loc d) := V1 m d r2
def ixV (d : Dev nD) : Buf (Elt F) (v4Loc d) := V1 m d r4
def oV (d : Dev nD) : Buf (Elt F) (v5Loc d) := V1 m d r5
/-- After the call: the rows' array holds the gathered rows. -/
def V2 (d : Dev nD) : Valuation τ sig (Elt F) := Function.update (V1 m d) r5 (gathered (tV m d) (ixV m d))
/-- After the second line: what the region is entered with. -/
def V3 (d : Dev nD) : Valuation τ sig (Elt F) := StableHlo.after (ops2 (F := F)) (V2 m d)
/-- After the region, the output array at `f`. -/
def V4 (d : Dev nD) (f : Buf (Elt F) (v9Loc d)) : Valuation τ sig (Elt F) := Function.update (V3 m d) r9 f

/-- The entry contents of the region's six windowed arrays. -/
def Aent (c : Dev nD) : (w : Fin cfg1.W) → Buf (Elt F) ((cfg1.win w).arr.view.loc (c.tc : Thread nD τ)) :=
  fun w => V3 m c (Proc.devRef .tc (Pipeline.arrRef spec1 w))

/-- The wait pairs the TensorCore may have recorded by the end of its handshakes: everything of level at most 8. -/
def Rec (c : Dev nD) : Set (SemLoc sig × HIx 1) := {p | (K (F := F)).lev ((c.tc : Thread nD τ), p.1) p.2 ≤ 8}

/-! ## What the region's body proof supplies -/

structure RegionSide where
  pdat : (c : Dev nD) → Pipeline.Dat τ (Elt F) (HIx 1) ℕ UU ℕ cfg1 c
  hA : ∀ c w, (pdat c).A w = Aent m c w
  hshare : ∀ c w, (pdat c).share w = fullShare
  howed : ∀ c t, (pdat c).owed t = 0
  hrec : ∀ c t, (pdat c).recorded t = Rec (F := F) c
  osem : Fin 16 → SemLoc sig
  ho : Pipeline.OwnSemFacts spec1 osem
  hbody : ∀ c, Pipeline.BodyObligationLoose (pdat c) (defs₀ (F := F)) 𝒱₀ (none : HIx 1) Set.univ
  Out : (c : Dev nD) → Buf (Elt F) (v9Loc c) → Prop
  hin : ∀ c, iprop((∃ f, v9Loc c ↦{fullShare} f) ∗ Pipeline.ownSems0 osem c ∗ Pipeline.scopedRest spec1 c) ⊢ ((pdat c).Φ 0 : sProp 𝕄)
  hout : ∀ c, ((pdat c).Φ (Fin.last _) : sProp 𝕄)
    ⊢ iprop((∃ f, (v9Loc c ↦{fullShare} f) ∗ ⌜Out c f⌝) ∗ Pipeline.ownSems0 osem c ∗ Pipeline.scopedRest spec1 c)

variable {m}

/-! ## The region as a segment -/

/-- The unscoped buffers that are no window's array, but the output array. -/
def restBut9 (c : Dev nD) (W : Valuation τ sig (Elt F)) : sProp 𝕄 :=
  bigSep ((((Finset.univ.filter fun b : Ref sig .tc => ¬ b.isScoped) \ Finset.univ.image (Pipeline.arrRef spec1))).erase main_v9)
    fun b => ((c.tc : Thread nD τ).loc b) ↦{fullShare} W (Proc.devRef .tc b)

/-- What the TensorCore owes nothing of, its recorded pairs of level at most 8. -/
abbrev owesDone (c : Dev nD) : sProp 𝕄 := iprop(∃ W, ⌜(K (F := F)).WBelow (T c) W 8⌝ ∗ owes (T c) 0 W)

/-! ### Entry and exit of the region -/

omit [FloatOps F] in
/-- No window of the region is ever written back: all six are inputs. -/
theorem noflush : ∀ (w : Fin cfg1.W) (t : Fin cfg1.N), (cfg1.win w).flush t = false :=
  (by decide +kernel : ∀ (w : Fin 6) (t : Fin grid1.N), (win1 w).flush t = false)

/-- An array no point writes back keeps its entry contents. -/
theorem arrAt_const (c : Dev nD) (dat : Pipeline.Dat τ (Elt F) (HIx 1) ℕ UU ℕ cfg1 c) (w : Fin cfg1.W) : ∀ n, dat.arrAt w n = dat.A w
  | 0 => rfl
  | n + 1 => by
    have ih := arrAt_const c dat w n
    unfold Pipeline.Dat.arrAt
    simp only []
    split
    · rw [noflush]; simpa using ih
    · exact ih

omit [FloatOps F] in
theorem arrRef_ne_v9 : ∀ w : Fin cfg1.W, Pipeline.arrRef spec1 w ≠ (main_v9 : Ref sig .tc) := by decide

theorem mem_rest_v9 : (main_v9 : Ref sig .tc) ∈ ((Finset.univ.filter fun b : Ref sig .tc => ¬ b.isScoped) \ Finset.univ.image (Pipeline.arrRef spec1)) := by decide

/-- The TensorCore's unscoped arrays at a valuation: the six windowed arrays, the output array, the rest. -/
theorem unscoped_split (c : Dev nD) (W : Valuation τ sig (Elt F)) :
    (unscopedBufs c (fun b => W (Proc.devRef .tc b)) : sProp 𝕄)
      = iprop((bigSep Finset.univ fun w : Fin cfg1.W => ((c.tc : Thread nD τ).loc (Pipeline.arrRef spec1 w)) ↦{fullShare} W (Proc.devRef .tc (Pipeline.arrRef spec1 w)))
          ∗ (v9Loc c ↦{fullShare} W r9) ∗ restBut9 c W) := by
  rw [Pipeline.PerCore.unscopedBufs_split (fun _ : Dev nD => cfgs) (0 : Fin 1) c Gen.winFacts1.arr_unscoped Gen.winFacts1.arr_inj]
  unfold Pipeline.unscopedRest restBut9
  rw [SparseCore.bigSep_erase' mem_rest_v9]

theorem arrays_at (RS : RegionSide m) (c : Dev nD) (n : ℕ) :
    ((RS.pdat c).arrays ((RS.pdat c).arrAt · n) : sProp 𝕄)
      = bigSep Finset.univ fun w : Fin cfg1.W => ((c.tc : Thread nD τ).loc (Pipeline.arrRef spec1 w)) ↦{fullShare} V3 m c (Proc.devRef .tc (Pipeline.arrRef spec1 w)) := by
  unfold Pipeline.Dat.arrays
  refine bigSep_congr fun w _ => ?_
  dsimp only
  rw [(Gen.arr_whole1 w).set_eq_univ, RS.hshare, arrAt_const, RS.hA]
  rfl

theorem V4_of_ne (c : Dev nD) (f : Buf (Elt F) (v9Loc c)) (b : Ref sig .tc) (h : b ≠ main_v9) :
    V4 m c f (Proc.devRef .tc b) = V3 m c (Proc.devRef .tc b) :=
  Function.update_of_ne (fun e => h (Proc.devRef_injective _ e)) _ _
theorem V4_v9 (c : Dev nD) (f : Buf (Elt F) (v9Loc c)) : V4 m c f r9 = f := Function.update_self _ _ _

theorem restBut9_V4 (c : Dev nD) (f : Buf (Elt F) (v9Loc c)) : (restBut9 c (V4 m c f) : sProp 𝕄) = restBut9 c (V3 m c) := by
  unfold restBut9
  exact bigSep_congr fun b hb => by rw [V4_of_ne c f b (Finset.ne_of_mem_erase hb)]

theorem seg_entry (RS : RegionSide m) (c : Dev nD) :
    iprop((unscopedBufs c (fun b => V3 m c (Proc.devRef .tc b)) ∗ owesDone (F := F) c) ∗ Pipeline.ownSems0 RS.osem c
        ∗ levAts (K (F := F)).L (K (F := F)).lev)
      ⊢ |={Set.univ}=> iprop((RS.pdat c).arrays ((RS.pdat c).arrAt · 0)
          ∗ Pipeline.prefHeld (pcfgs (F := F) 0).pre c (fun _ => fullShare) (aAdm (F := F) 0).1
          ∗ (RS.pdat c).owesAt (none : HIx 1) 0 ∗ ((∃ f, v9Loc c ↦{fullShare} f) ∗ Pipeline.ownSems0 RS.osem c) ∗ restBut9 c (V3 m c)) := by
  iintro ⟨⟨HU, %W, %hW, HO⟩, Hown, -⟩
  imodintro
  ihave Hsp := (Entails.of_eq (unscoped_split c (V3 m c))) $$ HU
  icases Hsp with ⟨Harr, H9, Hrest⟩
  isplitl [Harr]
  · rw [arrays_at RS c 0]; iexact Harr
  isplitr
  · unfold Pipeline.prefHeld; rw [Finset.univ_eq_empty, bigSep_empty]; iempintro
  isplitl [HO]
  · iexists W; isplitr
    · ipureintro
      intro p hp
      refine Or.inl ?_
      rw [RS.hrec]
      exact hW p (Finset.mem_coe.mp hp)
    · rw [RS.howed]; iexact HO
  isplitl [H9 Hown]
  · isplitl [H9]
    · iexists _; iexact H9
    · iexact Hown
  · iexact Hrest

theorem seg_exit (RS : RegionSide m) (c : Dev nD) :
    iprop((RS.pdat c).arrays ((RS.pdat c).arrAt · cfg1.N) ∗ (RS.pdat c).owesAt (none : HIx 1) (Fin.last cfg1.N)
        ∗ (∃ f, (v9Loc c ↦{fullShare} f) ∗ ⌜RS.Out c f⌝) ∗ restBut9 c (V3 m c))
      ⊢ |={Set.univ}=> iprop((∃ f, ⌜RS.Out c f⌝ ∗ unscopedBufs c (fun b => V4 m c f (Proc.devRef .tc b))) ∗ owesDone (F := F) c) := by
  iintro ⟨Harr, ⟨%W, %hW, HO⟩, ⟨%f, H9, %hf⟩, Hrest⟩
  imodintro
  isplitl [Harr H9 Hrest]
  · iexists f; isplitr; · ipureintro; exact hf
    iapply (Entails.of_eq (unscoped_split c (V4 m c f)).symm)
    isplitl [Harr]
    · ihave Harr' := (Entails.of_eq (arrays_at RS c cfg1.N)) $$ Harr
      iapply (Entails.of_eq (bigSep_congr fun w _ => by rw [V4_of_ne c f _ (arrRef_ne_v9 w)]))
      iexact Harr'
    isplitl [H9]
    · rw [V4_v9]; iexact H9
    · unfold restBut9
      iapply (Entails.of_eq (bigSep_congr fun b hb => by rw [V4_of_ne c f b (Finset.ne_of_mem_erase hb)]))
      iexact Hrest
  · iexists W; isplitr
    · ipureintro
      intro p hp
      rcases hW (Finset.mem_coe.mpr hp) with h | ⟨w, s, rfl⟩
      · rw [RS.hrec] at h; exact h
      · exact Nat.zero_le _
    · rw [RS.howed]; iexact HO

def Rseg (RS : RegionSide m) : Pipeline.RegionSeg (pcfgs (F := F)) aAdm (fun _ c => RS.pdat c) (none : HIx 1) (defs₀ (F := F)) 𝒱₀
    (K (F := F)).L (K (F := F)).lev (0 : Fin 1) where
  win := Gen.winFacts1.to₀
  block_pos := Gen.block_pos1
  stage_whole := Gen.stage_whole1
  K := Fin 16
  osem := RS.osem
  ho := RS.ho
  hbody := RS.hbody
  hwaits c := (show (levAts (K (F := F)).L (K (F := F)).lev : sProp 𝕄) ⊢ BI.emp from by iintro -; iempintro).trans
    (Pipeline.cellsWaits_of_owed_zero cfgs (fun _ c => RS.pdat c) (none : HIx 1) 0 c (RS.howed c))
  pre c := iprop(unscopedBufs c (fun b => V3 m c (Proc.devRef .tc b)) ∗ owesDone c)
  post c := iprop((∃ f, ⌜RS.Out c f⌝ ∗ unscopedBufs c (fun b => V4 m c f (Proc.devRef .tc b))) ∗ owesDone c)
  X c := iprop((∃ f, v9Loc c ↦{fullShare} f) ∗ Pipeline.ownSems0 RS.osem c)
  Y c := iprop(∃ f, (v9Loc c ↦{fullShare} f) ∗ ⌜RS.Out c f⌝)
  Z c := restBut9 c (V3 m c)
  hentry c := seg_entry RS c
  hin c := by
    iintro ⟨⟨H9, Hs⟩, -, Hr⟩
    iapply (RS.hin c)
    isplitl [H9]; · iexact H9
    isplitl [Hs]; · iexact Hs
    iexact Hr
  hout c := RS.hout c
  hexit c := seg_exit RS c

end Cert.Proof.Kernel

end
-- ==== Proof.Kernel.MainC.lean ====
/-
  @main on the TensorCore, run: the first line, the SparseCore call, the second line, the kernel region entered
  through the lifted signature, the last line; what the TensorCore ends with.
-/
import proofs.«204087_g3891240370374_cont_8to1_b_1678_29_alg».proof.Proof.Kernel.MainB

noncomputable section

namespace Cert.Proof.Kernel

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-- The call's payloads at the valuation the first line leaves. -/
abbrev Pm : (K (F := F)).Pay (nD := nD) (Val := Elt F) (Name := ℕ) (U := UU) := P (tV m) (ixV m) (oV m)

/-- The pipeline's ghost state on device `d`, funded at the launch. -/
abbrev G (d : Dev nD) : sProp 𝕄 := iprop(Pipeline.cellsGhost cfgs EP (0 : Fin 1) d ∗ Pipeline.toksInit cfgs EP (0 : Fin 1) d)

/-- The three arrays the SparseCore call moves. -/
def S245 : Finset (DevRef τ sig) := {r2, r4, r5}
omit [FloatOps F] in
theorem S245_sub : S245 ⊆ Sall := by decide

theorem held_call (d : Dev nD) (W : Valuation τ sig (Elt F)) :
    (held (T d) Sall W : sProp 𝕄)
      = iprop(((v2Loc d ↦{fullShare} W r2) ∗ (v4Loc d ↦{fullShare} W r4) ∗ (v5Loc d ↦{fullShare} W r5)) ∗ held (T d) (Sall \ S245) W) := by
  rw [StableHlo.held_sub_split (T d) S245_sub W]
  congr 1
  unfold held S245
  rw [SparseCore.bigSep_insert' (by decide), SparseCore.bigSep_insert' (by decide), bigSep_singleton]

theorem V2_r2 (d : Dev nD) : V2 m d r2 = tV m d := Function.update_of_ne (by decide : r2 ≠ r5) _ _
theorem V2_r4 (d : Dev nD) : V2 m d r4 = ixV m d := Function.update_of_ne (by decide : r4 ≠ r5) _ _
theorem V2_r5 (d : Dev nD) : V2 m d r5 = gathered (tV m d) (ixV m d) := Function.update_self _ _ _
theorem held_rest_V2 (d : Dev nD) : (held (T d) (Sall \ S245) (V2 m d) : sProp 𝕄) = held (T d) (Sall \ S245) (V1 m d) :=
  StableHlo.held_congr (T d) fun b hb => Function.update_of_ne (fun e => (Finset.mem_sdiff.mp hb).2 (by rw [e]; decide)) _ _

/-- The TensorCore's state after its one call: it owes nothing; the rest of its handshake state rides along. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) : ((K (F := F)).tcSt EH d 1 : sProp 𝕄) = iprop(owesDone (F := F) d ∗ tcRest d) := by
  unfold SparseCore.Cfg.tcSt tcRest
  rw [(K (F := F)).Otc_end d (le_refl 1)]

theorem tcSt_eq' (d : Dev nD) : ((K (F := F)).tcSt EH d ((0 : Fin 1).val + 1) : sProp 𝕄) = iprop(owesDone (F := F) d ∗ tcRest d) := tcSt_eq d

theorem unscoped_held' (d : Dev nD) (W : Valuation τ sig (Elt F)) :
    (unscopedBufs d (fun b => W (Proc.devRef .tc b)) : sProp 𝕄) = held (T d) Sall W := by
  unfold unscopedBufs held Sall
  rw [bigSep_map]
  rfl

variable {m} in
theorem Rseg_pre (RS : RegionSide m) (d : Dev nD) :
    (Rseg RS).pre d = iprop(unscopedBufs d (fun b => V3 m d (Proc.devRef .tc b)) ∗ owesDone (F := F) d) := rfl
variable {m} in
theorem Rseg_post (RS : RegionSide m) (d : Dev nD) :
    (Rseg RS).post d = iprop((∃ f, ⌜RS.Out d f⌝ ∗ unscopedBufs d (fun b => V4 m d f (Proc.devRef .tc b))) ∗ owesDone (F := F) d) := rfl

/-- The region's call and what follows it, in the pipelines' signature, is the same program lifted. -/
theorem lift_eq :
    SparseCore.liftProg (Q := 1) (Prog.op (.customCall (Pipeline.entry (0 : Fin 1)) ()) fun _ => StableHlo.seq (ops3 (F := F)) >>= fun _ => pure ⟨⟩
        : Prog (TpuEff nD τ sig (Elt F) (ΛP (F := F)) .tc) PUnit)
      = (Prog.op (.customCall (SparseCore.inner (Pipeline.entry 0)) ()) fun _ => StableHlo.seq (ops3 (F := F)) >>= fun _ => pure ⟨⟩) := rfl

theorem lift_region (d : Dev nD) (Q : PUnit → sProp 𝕄) :
    wp frame (wpE (D (F := F)) 𝒱 (SparseCore.T d) none) Set.univ
        (Prog.op (.customCall (Pipeline.entry (0 : Fin 1)) ()) fun _ => StableHlo.seq (ops3 (F := F)) >>= fun _ => pure ⟨⟩) Q
      ⊢ wp frame (wpE ((K (F := F)).defs (D (F := F))) 𝒱 (SparseCore.T d) none) Set.univ
        (Prog.op (.customCall (SparseCore.inner (Pipeline.entry 0)) ()) fun _ => StableHlo.seq (ops3 (F := F)) >>= fun _ => pure ⟨⟩) Q := by
  rw [← lift_eq]
  exact (K (F := F)).wp_liftProg (D (F := F)) 𝒱 (SparseCore.T d) Set.univ none _ Q

/-- What @main leaves: the output array's contents in the relation the region's proof states, every unscoped
    array at the valuation after the last line. -/
def FIN (RS : RegionSide m) (d : Dev nD) : sProp 𝕄 :=
  iprop(∃ f, ⌜RS.Out d f⌝ ∗ held (T d) Sall (StableHlo.after (ops3 (F := F)) (V4 m d f)))

set_option backward.isDefEq.respectTransparency.types false in
theorem hmain (RS : RegionSide m) (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m RS d) := by
  unfold SparseCore.Cfg.tcRes
  rw [unscoped_held, main_eq]
  iintro ⟨#Hctx, Hst, ⟨Hb, Hheld, -, -⟩, Hcg, Htk⟩
  -- the first line
  iapply (StableHlo.wp_seq (defs := (K (F := F)).defs (D (F := F))) 𝒱 none Set.univ d Sall _ (ops1 (F := F)) ops1_sub ops1_fresh (V0 m d)) $$ [Hb Hheld]
  · isplitl [Hb] <;> iassumption
  iintro ⟨Hb, Hheld⟩
  rw [show StableHlo.after (ops1 (F := F)) (V0 m d) = V1 m d from rfl]
  -- the call: the table, the index list and the rows' array out and back
  rw [wp_bind]
  ihave Hh := (Entails.of_eq (held_call d (V1 m d))) $$ Hheld
  icases Hh with ⟨⟨H2, H4, H5⟩, Hrest⟩
  iapply ((K (F := F)).wp_run (D (F := F)) 𝒱 (EH := EH) (P := Pm m) κ d 0) $$ [Hst H2 H4 H5 Hb Hrest Hcg Htk]
  isplitr; · iexact Hctx
  isplitl [Hst]; · iexact Hst
  isplitl [H2 H4 H5]
  · rw [st0_eq]
    isplitl [H2]; · iexact H2
    isplitl [H4]; · iexact H4
    iexact H5
  iintro ⟨Hst, Hdn⟩
  ihave Hdn' := (Entails.of_eq (dn0_eq (tV m) (ixV m) (oV m) d)) $$ Hdn
  icases Hdn' with ⟨H2, H4, H5⟩
  ihave Hheld := (Entails.of_eq (held_call d (V2 m d)).symm) $$ [H2 H4 H5 Hrest]
  · rw [V2_r2, V2_r4, V2_r5, held_rest_V2]
    isplitl [H2 H4 H5]
    · isplitl [H2]; · iexact H2
      isplitl [H4]; · iexact H4
      iexact H5
    · iexact Hrest
  -- the second line
  iapply (StableHlo.wp_seq (defs := (K (F := F)).defs (D (F := F))) 𝒱 none Set.univ d Sall _ (ops2 (F := F)) ops2_sub ops2_fresh (V2 m d)) $$ [Hb Hheld]
  · isplitl [Hb] <;> iassumption
  iintro ⟨Hb, Hheld⟩
  rw [show StableHlo.after (ops2 (F := F)) (V2 m d) = V3 m d from rfl]
  -- the region, entered through the lifted signature
  ihave Hst' := (Entails.of_eq (tcSt_eq' d)) $$ Hst
  icases Hst' with ⟨Hod, Htr⟩
  iapply (lift_region d (fun _ => iprop((K (F := F)).tcSt EH d 1 ∗ FIN m RS d)))
  iapply (Pipeline.RegionSeg.wp (pcfgs (F := F)) aAdm (fun _ c => RS.pdat c) (none : HIx 1) Gen.cellOf_inj EP (defs₀ (F := F)) 𝒱₀
      (K (F := F)).L (K (F := F)).lev (Rseg RS) d none (fun u hu => nomatch hu) _ _) $$ [Hb Hheld Hod Htr Hcg Htk]
  rw [Rseg_pre, Rseg_post]
  isplitl [Htr]
  · iintro ⟨Hb, ⟨%f, %hf, Hub⟩, Hod⟩
    ihave Hheld := (Entails.of_eq (unscoped_held' d (V4 m d f))) $$ Hub
    iapply (StableHlo.wp_seq (defs := D (F := F)) 𝒱 none Set.univ d Sall _ (ops3 (F := F)) ops3_sub ops3_fresh (V4 m d f)) $$ [Hb Hheld]
    · isplitl [Hb] <;> iassumption
    iintro ⟨Hb, Hheld⟩
    rw [Prog.pure_eq_ret, wp_ret]; imodintro
    isplitl [Hod Htr]
    · rw [tcSt_eq]
      isplitl [Hod]; · iexact Hod
      iexact Htr
    · unfold FIN
      iexists f; isplitr; · ipureintro; exact hf
      iexact Hheld
  isplitl [Hb]; · iexact Hb
  isplitl [Hheld Hod]
  · isplitl [Hheld]
    · iapply (Entails.of_eq (unscoped_held' d (V3 m d)).symm); iexact Hheld
    · iexact Hod
  isplitr; · iapply ((K (F := F)).ctx_levAts κ); iexact Hctx
  isplitl [Hcg]; · iexact Hcg
  iexact Htk

end Cert.Proof.Kernel

end
-- ==== Proof.Kernel.SCBody.lean ====
/-
  The SparseCore side of the call, part two: one tile's task, once, at a symbolic tile (c, s). The tile copies its
  block of the index list into its index scratch, gathers the table's rows those 32 words name into its row scratch,
  and copies the row scratch out to its block of the result; each transfer is waited for before the next is issued, so
  each of the three semaphores carries one transfer at a time. What the last copy leaves in the block is stated as
  the ONE whole-array function of the table and the index list: at row 32 w + k of the result, the table's row
  named by word 32 w + k of the index list (the words in range, by the precondition).
-/
import proofs.«204087_g3891240370374_cont_8to1_b_1678_29_alg».proof.Proof.Kernel.SC

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (t : (d : Dev nD) → Buf (Elt F) (v2Loc d)) (ix : (d : Dev nD) → Buf (Elt F) (v4Loc d)) (o : (d : Dev nD) → Buf (Elt F) (v5Loc d))

variable [FloatOps F]

-- the kernel's memrefs, spelt as the body table passes them
local notation "tW" => (Memref.whole Cert.Kernel.main_v2_scv : Memref Cert.Kernel.sig Kind.scVector Space.hbm Cert.Kernel.S50000x128 EltTy.f32)
local notation "iW" => (Memref.whole Cert.Kernel.main_v4_scv : Memref Cert.Kernel.sig Kind.scVector Space.hbm Cert.Kernel.S1024 EltTy.i32)
local notation "oW" => (Memref.whole Cert.Kernel.main_v5_scv : Memref Cert.Kernel.sig Kind.scVector Space.hbm Cert.Kernel.S1024x128 EltTy.f32)
local notation "sI" => (Memref.whole Cert.Kernel.cc0_scratch0 : Memref Cert.Kernel.sig Kind.scVector Space.vmem Cert.Kernel.S32 EltTy.i32)
local notation "sR" => (Memref.whole Cert.Kernel.cc0_scratch1 : Memref Cert.Kernel.sig Kind.scVector Space.vmem Cert.Kernel.S32x128 EltTy.f32)

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)
/-- The tile's block. -/
abbrev wL (L : grid0.Coords) : Fin 32 := wid (cL L) (jL L)

/-- The tile's block of the index list and of the result, as the kernel slices them. -/
abbrev rectK1 (L : grid0.Coords) : Rect S1024 := Rect.unit (s := S1024) (k0_off1 L) S32.size (k0_off1_inb L)
abbrev rectK2 (L : grid0.Coords) : Rect S1024x128 := Rect.unit (s := S1024x128) (k0_off2 L) S32x128.size (k0_off2_inb L)
abbrev sl4 (L : grid0.Coords) : Memref sig .scVector .hbm S32 .i32 := (iW).slice (rectK1 L) (fun _ => rfl)
abbrev sl5 (L : grid0.Coords) : Memref sig .scVector .hbm S32x128 .f32 := (oW).slice (rectK2 L) (fun _ => rfl)

omit [FloatOps F] in
theorem rectK1_eq : rectK1 L = row4 (wL L) := by
  unfold rectK1 row4 Rect.part Rect.block
  congr 1 <;> funext a
  · rw [k0_off1_eq]
    match a with
    | 0 => simp [Shape.partIx, Shape.partSize]; omega
  · match a with
    | 0 => simp [Shape.partSize]
omit [FloatOps F] in
theorem rectK2_eq : rectK2 L = row5 (wL L) := by
  unfold rectK2 row5 Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

omit [FloatOps F] in
theorem set_sl4 : (sl4 L).view.set = rows4 (wL L) := by
  show ((View.whole (main_v4_scv : Ref sig .scVector)).slice (rectK1 L)).set = (row4 (wL L)).set
  rw [View.set_slice_whole, rectK1_eq]
omit [FloatOps F] in
theorem set_sl5 : (sl5 L).view.set = rows5 (wL L) := by
  show ((View.whole (main_v5_scv : Ref sig .scVector)).slice (rectK2 L)).set = (row5 (wL L)).set
  rw [View.set_slice_whole, rectK2_eq]

omit [FloatOps F] in
theorem pts_sl4 (f : Buf (Elt F) (v4Loc d)) :
    ((sl4 L).view.loc (V d (cV L) (jV L)) ↦[(sl4 L).view.set]{fullShare} f : sProp 𝕄) = v4Loc d ↦[rows4 (wL L)]{fullShare} f := by
  rw [set_sl4]
omit [FloatOps F] in
theorem pts_sl5 (f : Buf (Elt F) (v5Loc d)) :
    ((sl5 L).view.loc (V d (cV L) (jV L)) ↦[(sl5 L).view.set]{fullShare} f : sProp 𝕄) = v5Loc d ↦[rows5 (wL L)]{fullShare} f := by
  rw [set_sl5]
omit [FloatOps F] in
theorem pts_tW (q : PosShare TreeShare) (f : Buf (Elt F) (v2Loc d)) :
    ((tW).view.loc (V d (cV L) (jV L)) ↦{q} f : sProp 𝕄) = v2Loc d ↦{q} f := rfl
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl

/-! ### The tile's own semaphores and buffers -/

abbrev cAcell (d : Dev nD) (c : Fin τ.nSC) (i : Fin τ.nSub) : GSem nD τ sig := (V d c i, .dma cc0_scoped0.sem)
abbrev cGcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0
          ∗ bigSep ((((ownCells (V d (cV L) (jV L))).erase (cAcell d (cV L) (jV L))).erase (cGcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc0_scratch2.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ### Where the tile's slices sit, and the value the task leaves -/

omit [FloatOps F] in
theorem emb_sl4 (x : S32.Idx) : (((sl4 L).view.emb x) 0).val = 64 * (L 1).val + 32 * (L 0).val + (x 0).val := by
  show ((rectK1 L).emb x 0 : Nat) = _
  rw [Rect.emb_apply]
  show k0_off1 L 0 + 1 * (x 0).val = _
  rw [k0_off1_eq]
  simp
omit [FloatOps F] in
theorem emb_sl5_0 (y : S32x128.Idx) : (((sl5 L).view.emb y) 0).val = 64 * (L 1).val + 32 * (L 0).val + (y 0).val := by
  show ((rectK2 L).emb y 0 : Nat) = _
  rw [Rect.emb_apply]
  show k0_off2 L 0 + 1 * (y 0).val = _
  rw [k0_off2_eq]
  simp
omit [FloatOps F] in
theorem emb_sl5_1 (y : S32x128.Idx) : (((sl5 L).view.emb y) 1).val = (y 1).val := by
  show ((rectK2 L).emb y 1 : Nat) = _
  rw [Rect.emb_apply]
  show k0_off2 L 1 + 1 * (y 1).val = _
  rw [k0_off2_eq]
  simp
omit [FloatOps F] in
/-- Entry k of a list of 32 words in row-major order is the word at index k. -/
theorem rowMajor_symm_S32 (k : Fin S32.numel) : ((S32.rowMajor.symm k) 0).val = k.val := by
  have h := Shape.rowMajor_val_one (S32.rowMajor.symm k)
  rw [Equiv.apply_symm_apply] at h
  exact h.symm

omit [FloatOps F] in
/-- One whole-shape write read back through the view is its payload. -/
theorem read_writes_whole {κ : Kind} {sp : Space} {s : Shape} {e : EltTy} (v : View sig κ sp s e) (f : v.ty.Contents (Elt F))
    (G : s.Idx → Elt F e) (y : s.Idx) : v.read (Elt F) (v.writes (Elt F) f [⟨Rect.whole s, G⟩]) y = G y := by
  have h := View.read_writes_cons_emb v f (Rect.whole s) G [] y
  rwa [Rect.emb_whole_apply] at h

omit [FloatOps F] in
/-- One whole-shape write, at an element of the view, is its payload there. -/
theorem writes_whole_emb {κ : Kind} {sp : Space} {s : Shape} {e : EltTy} (v : View sig κ sp s e) (f : v.ty.Contents (Elt F))
    (G : s.Idx → Elt F e) (y : s.Idx) :
    v.writes (Elt F) f [⟨Rect.whole s, G⟩] (v.emb y) = _root_.cast (congrArg (Elt F) v.elt_eq.symm) (G y) := by
  have h := View.write_emb_of_mem (v := v.slice (Rect.whole s)) f G (Finset.mem_univ y)
  rw [View.emb_slice] at h
  simp only [Function.Embedding.trans_apply, Rect.emb_whole_apply] at h
  exact h

omit [FloatOps F] in
/-- What the index scratch holds after the first copy, read through the scratch: the tile's block of the index list. -/
theorem idx_eq (fs : Buf (Elt F) ((V d (cV L) (jV L)).loc cc0_scratch0)) :
    View.read (Elt F) (sI).view (View.write (Elt F) (sI).view fs (ReadAs.same.apply (View.read (Elt F) (sl4 L).view (ix d))) Finset.univ)
      = fun x => ix d ((sl4 L).view.emb x) := by
  rw [View.write_whole_univ, View.read_whole, ReadAs.apply_same]
  funext x
  exact (View.read_apply _ _).trans (cast_eq _ _)

omit [FloatOps F] in
/-- The whole table's rectangle places an index at itself. -/
theorem unit00_emb (z : S50000x128.Idx) :
    (Rect.unit (s := S50000x128) ![0, 0] S50000x128.size inb_S50000x128_S50000x128_0_0).emb z = z := by
  funext a
  apply Fin.ext
  rw [Rect.emb_apply]
  match a with
  | 0 => show 0 + 1 * (z 0).val = (z 0).val; omega
  | 1 => show 0 + 1 * (z 1).val = (z 1).val; omega

omit [FloatOps F] in
/-- The table's index a gathered element reads: the named row, the element's own column. -/
theorem gidx (R : Fin (S32x128.size (gathers_S50000x128_S32x128).axis') → Fin (S50000x128.size (gathers_S50000x128_S32x128).axis)) (y : S32x128.Idx) :
    (gathers_S50000x128_S32x128).idx R y = ValueIdx.ix2 (R (y 0)) (y 1) := by
  funext a
  match a with
  | 0 => exact Shape.Gathers.idx_axis gathers_S50000x128_S32x128 R y
  | 1 => exact Fin.ext (Shape.Gathers.idx_of_ne gathers_S50000x128_S32x128 R y 1 (by decide))

/-- What the task's last copy leaves at an element of its block of the result: the gathered value. -/
theorem gather_value (hin : ∀ (d : Dev nD) (b : Idx (v4Loc d)), (ix d b).toNat < 50000)
    (fs : Buf (Elt F) ((V d (cV L) (jV L)).loc cc0_scratch0)) (fr : Buf (Elt F) ((V d (cV L) (jV L)).loc cc0_scratch1))
    (hin' : ∀ x, ((sI).view.read (Elt F) (View.write (Elt F) (sI).view fs (ReadAs.same.apply (View.read (Elt F) (sl4 L).view (ix d))) Finset.univ) x).toNat
      < S50000x128.size (gathers_S50000x128_S32x128).axis)
    (y : S32x128.Idx) :
    (sl5 L).view.writes (Elt F) (o d)
        [⟨Rect.whole S32x128,
          ReadAs.same.apply (View.read (Elt F) (sR).view ((sR).view.writes (Elt F) fr
            [⟨Rect.whole cc0_scratch1.ty.shape,
              SparseCore.gatherPayload gathers_S50000x128_S32x128
                (View.read (Elt F) ((tW).slice (Rect.unit ![0, 0] S50000x128.size inb_S50000x128_S50000x128_0_0) (fun _ => rfl)).view (t d))
                (SparseCore.rows (View.read (Elt F) (sI).view (View.write (Elt F) (sI).view fs (ReadAs.same.apply (View.read (Elt F) (sl4 L).view (ix d))) Finset.univ))
                  rfl hin')⟩]))⟩]
        ((sl5 L).view.emb y)
      = gathered (t d) (ix d) ((sl5 L).view.emb y) := by
  refine (writes_whole_emb (F := F) (sl5 L).view (o d) _ y).trans ?_
  refine (cast_eq _ _).trans ?_
  rw [ReadAs.apply_same]
  refine (read_writes_whole (F := F) (sR).view fr _ y).trans ?_
  unfold SparseCore.gatherPayload
  refine (View.read_apply _ _).trans ((cast_eq _ _).trans ?_)
  unfold gathered
  refine congrArg (t d) ?_
  show (Rect.unit (s := S50000x128) ![0, 0] S50000x128.size inb_S50000x128_S50000x128_0_0).emb _ = _
  refine (unit00_emb _).trans ((gidx _ y).trans ?_)
  refine congrArg₂ ValueIdx.ix2 ?_ ?_
  · apply Fin.ext
    refine (congrArg BitVec.toNat (congrFun (idx_eq ix d L fs) _)).trans ?_
    show (ix d ((sl4 L).view.emb (S32.rowMajor.symm (Fin.cast _ (y 0))))).toNat = (ix d (ValueIdx.ix1 ((sl5 L).view.emb y 0))).toNat % 50000
    have e2 : (sl4 L).view.emb (S32.rowMajor.symm (Fin.cast rfl (y 0))) = ValueIdx.ix1 ((sl5 L).view.emb y 0) := by
      funext a
      match a with
      | 0 =>
        apply Fin.ext
        rw [emb_sl4, rowMajor_symm_S32]
        show _ = (((sl5 L).view.emb y) 0).val
        rw [emb_sl5_0]
        rfl
    refine (congrArg (fun z => (ix d z).toNat) e2).trans ?_
    exact (Nat.mod_eq_of_lt (hin d _)).symm
  · exact Fin.ext (emb_sl5_1 L y).symm

/-- The task on vector subcore (L 0, L 1) of device d. -/
theorem tile_body (hF : (K (F := F)).Facts) (hin : ∀ (d : Dev nD) (b : Idx (v4Loc d)), (ix d b).toNat < 50000)
    (O : CellTallies nD τ sig (HIx 1)) (W : Waits sig (HIx 1)) (hO : ∀ g, O g none = 0) :
    iprop(levAts (K (F := F)).L (K (F := F)).lev ∗ emp
        ∗ forTile t ix d (o d) (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tW (Memref.isWhole_whole _) iW (Memref.isWhole_whole _) oW (Memref.isWhole_whole _)
            sI (Memref.isWhole_whole _) sR (Memref.isWhole_whole _) cc0_scratch2 cc0_scoped0 cc0_scoped1)
          fun _ => iprop(forTile t ix d (gathered (t d) (ix d)) (cL L) (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hs⟩, ⟨%fr, Hr⟩, Hbufs⟩, ⟨HsemA, HsemG, HsemB, Hsems⟩, HO⟩
  ihave Hmw := ((K (F := F)).mayWaits_none (thr := V d (cV L) (jV L)) hO) $$ Hlv
  ihave Ht' := (Entails.of_eq (pts_tW (F := F) d L _ _).symm) $$ Ht
  ihave Hi' := (Entails.of_eq (pts_sl4 (F := F) d L _).symm) $$ Hi
  ihave Ho' := (Entails.of_eq (pts_sl5 (F := F) d L _).symm) $$ Ho
  ihave Hs' := (Entails.of_eq (pts_sI (F := F) d L _).symm) $$ Hs
  ihave Hr' := (Entails.of_eq (pts_sR (F := F) d L _).symm) $$ Hr
  sl_exec
  have hin' : ∀ x, ((sI).view.read (Elt F) (View.write (Elt F) (sI).view fs (tile_body.sl.dma0 ix d L) Finset.univ) x).toNat < S50000x128.size (gathers_S50000x128_S32x128).axis := by
    intro x
    unfold tile_body.sl.dma0
    rw [View.write_whole_univ, View.read_whole, ReadAs.apply_same, View.read_apply]
    exact hin d _
  sl_exec
  have hval : ∀ i ∈ (sl5 L).view.set,
      ((sl5 L).view.writes (Elt F) (o d) [⟨Rect.whole S32x128, tile_body.sl.dma0_1 t ix d L fs fr hin'⟩]) i = gathered (t d) (ix d) i := by
    intro i hi
    obtain ⟨y, -, rfl⟩ := Finset.mem_map.mp hi
    unfold tile_body.sl.dma0_1 tile_body.sl.gather0 tile_body.sl.dma0
    exact gather_value t ix o d L hin fs fr hin' y
  sl_step
  isplitl [Ht' Hi' Ho']
  · isplitl [Ht']; · iapply (Entails.of_eq (pts_tW (F := F) d L _ _)); iexact Ht'
    isplitl [Hi']; · iapply (Entails.of_eq (pts_sl4 (F := F) d L _)); iexact Hi'
    iapply (Entails.of_eq ((pointsTo_congr hval).trans (pts_sl5 (F := F) d L _))); iexact Ho'
  isplitl [Hs' Hr' Hbufs]
  · isplitl [Hs']; · iexists _; iapply (Entails.of_eq (pts_sI (F := F) d L _)); iexact Hs'
    isplitl [Hr']; · iexists _; iapply (Entails.of_eq (pts_sR (F := F) d L _)); iexact Hr'
    iexact Hbufs
  isplitl [HsemA HsemG HsemB Hsems]
  · isplitl [HsemA]; · iexact HsemA
    isplitl [HsemG]; · iexact HsemG
    isplitl [HsemB]; · iexact HsemB
    iexact Hsems
  iexists (insert (SemLoc.dma cc0_scoped1.sem, (default : HIx 1)) (insert (SemLoc.dma cc0_scratch2.sem, (default : HIx 1))
    (insert (SemLoc.dma cc0_scoped0.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile

/-! ## The launch theorem's obligation for the tiles -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          tW (Memref.isWhole_whole _) iW (Memref.isWhole_whole _) oW (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task, from its read token of the table and its block of the index list and of the result: the block
    of the result at the gathered rows, everything else as it was. -/
theorem tileObl (hF : (K (F := F)).Facts) (hin : ∀ (d : Dev nD) (b : Idx (v4Loc d)), (ix d b).toNat < 50000) :
    (K (F := F)).TileObl (D (F := F)) 𝒱 (P t ix o) v₀ 0 := by
  intro d c i O W hO _ _
  simp only [P_ox, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body t ix o d (coordsV ⟨_, hc.1⟩ ⟨_, hc.2⟩) hF hin O W hO).trans (wp_mono frame _ _ fun _ => obl_post)

end Cert.Proof.Kernel

end
-- ==== Proof.Kernel.MainD.lean ====
/-
  The launch: the certificate's ghost element (the handshakes' rounds, the pipeline's staging cells, the counters),
  how the TensorCore's final assertion reads the final memory, and the program's run from the launch theorem.
-/
import proofs.«204087_g3891240370374_cont_8to1_b_1678_29_alg».proof.Proof.Kernel.MainC
import proofs.«204087_g3891240370374_cont_8to1_b_1678_29_alg».proof.Proof.Kernel.SCBody

noncomputable section

namespace Cert.Proof.Kernel

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

def u₀ : UU :=
  (initOf (K (F := F)).hsCells (K (F := F)).hsToks,
    (initOf (Pipeline.cells (nD := nD) (τ := τ) cfgs Gen.cellOf_inj) (Pipeline.launchToks (nD := nD) (τ := τ) cfgs Gen.cellOf_inj), 1))

omit [FloatOps F] in
theorem ownU_split3 (a : UH) (b : UP) (c : Counters) : (ownU ((a, (b, c)) : UU) : sProp 𝕄) ⊢ iprop(BI.own (EH a) ∗ BI.own (EP b)) := by
  have h1 : (ownU ((a, (b, c)) : UU) : sProp 𝕄) ⊢ iprop(BI.own (EH a) ∗ ownU (((1 : UH), (b, c)) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, c))))
  have h2 : (ownU (((1 : UH), (b, c)) : UU) : sProp 𝕄) ⊢ iprop(BI.own (EP b) ∗ ownU (((1 : UH), ((1 : UP), c)) : UU)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op c))))
  iintro H
  ihave H1 := h1 $$ H
  icases H1 with ⟨Ha, H⟩
  ihave H2 := h2 $$ H
  icases H2 with ⟨Hb, -⟩
  isplitl [Ha]; · iexact Ha
  iexact Hb

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (Pm m).x q thr) := by
  unfold u₀
  iintro Hu
  ihave H := (ownU_split3 _ _ _) $$ Hu
  icases H with ⟨HH, HP⟩
  imod (Pipeline.fund_ghost (nD := nD) (τ := τ) cfgs EP Gen.cellOf_inj) $$ HP with ⟨Hcg, Htk⟩
  have e1 : (bigSep Finset.univ fun c : Dev nD => bigSep Finset.univ fun p : Fin 1 => (Pipeline.cellsGhost cfgs EP p c : sProp 𝕄))
      = bigSep Finset.univ fun c : Dev nD => Pipeline.cellsGhost cfgs EP (0 : Fin 1) c :=
    bigSep_congr fun d _ => bigSep_univ_of_subsingleton (0 : Fin 1)
  have e2 : (bigSep Finset.univ fun c : Dev nD => bigSep Finset.univ fun p : Fin 1 => (Pipeline.toksInit cfgs EP p c : sProp 𝕄))
      = bigSep Finset.univ fun c : Dev nD => Pipeline.toksInit cfgs EP (0 : Fin 1) c :=
    bigSep_congr fun d _ => bigSep_univ_of_subsingleton (0 : Fin 1)
  have e3 : (bigSep Finset.univ fun thr : Thread nD τ => bigSep Finset.univ fun q : Fin 1 => (Pm m).x q thr) = (iprop(emp) : sProp 𝕄) := by
    show (bigSep Finset.univ fun _ : Thread nD τ => bigSep Finset.univ fun _ : Fin 1 => (iprop(emp) : sProp 𝕄)) = _
    rw [bigSep_congr fun _ _ => bigSep_emp' _, bigSep_emp']
  ihave Hcg' := (Entails.of_eq e1) $$ Hcg
  ihave Htk' := (Entails.of_eq e2) $$ Htk
  imodintro
  isplitl [HH]; · iexact HH
  isplitl [Hcg' Htk']
  · rw [bigSep_sep']
    isplitl [Hcg']; · iexact Hcg'
    iexact Htk'
  · rw [e3]; iempintro

/-! ## Reading the final memory -/

def fq (RS : RegionSide m) (d : Dev nD) (s' : Phys nD τ sig (Elt F)) : Prop :=
  ∃ f, RS.Out d f ∧ ∀ b ∈ Sall, s'.mem.mem (d, b) = StableHlo.after (ops3 (F := F)) (V4 m d f) b

theorem hfin (RS : RegionSide m) (d : Dev nD) (s' : Phys nD τ sig (Elt F)) : iprop(FIN m RS d ∗ SI s') ⊢ (⌜fq m RS d s'⌝ : sProp 𝕄) := by
  unfold FIN held
  iintro ⟨⟨%f, %hf, H⟩, HSI⟩
  ihave %h := (SI_pointsTo_bufs_agree (qs := fun _ => fullShare) Sall) $$ [HSI H]
  · isplitl [HSI]; · iexact HSI
    iexact H
  ipureintro
  exact ⟨f, hf, h⟩

/-! ## The run -/

def QC (RS : RegionSide m) : PUnit × MemSt nD τ sig (Elt F) → Prop := fun r =>
  ∀ c : Dev nD, ∃ f, RS.Out c f ∧ ∀ b ∈ Sall, r.2.mem (c, b) = StableHlo.after (ops3 (F := F)) (V4 m c f) b

theorem run_main [∀ e, Nonempty (Elt F e)] (RS : RegionSide m)
    (hin : ∀ (d : Dev nD) (b : Idx (v4Loc d)), (ixV m d b).toNat < 50000) :
    θ_run (Cert.Kernel.defs (F := F)) (Cert.Kernel.threads (F := F)) ⟨m, fun _ => 0, ρ⟩ (QC m RS) :=
  SparseCore.Cfg.θ_run_sc (K := K (F := F)) (D := D (F := F)) (𝒱 := 𝒱) (EH := EH) (P := Pm m) facts v₀
    (fun q hq => match q with | 0 => nomatch hq)
    (fun q _ => match q with | 0 => tileObl (tV m) (ixV m) (oV m) facts hin)
    (fun q _ => match q with | 0 => SparseCore.Cfg.VecSplit.of_plain (vecSplit (tV m) (ixV m) (oV m)))
    m ρ main (fun d => G (F := F) d) (FIN m RS) (u₀ (F := F)) (sep_elim_left.trans (hu₀ m)) (hmain m ρ RS) (fq m RS) (hfin m RS) (QC m RS) (fun _ h => h)

end Cert.Proof.Kernel

end
-- ==== Proof.Spec.lean ====
/-
  The function both programs compute, written once over coordinates: an embedding row looked up by an
  integer index, a dense layer with a rectifier, a second dense layer onto the vocabulary, and the
  logarithm of the soft-max along the vocabulary in its unshifted form
  `logit b v - log (∑ v', exp (logit b v'))`. Imports no program: only the ideal values and the
  index vocabulary.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The table row looked up for batch entry `b`: the index word read as a natural number, taken modulo the
    number of rows so that the term is total. For a word `w` with `0 ≤ w ≤ 99999` (signed) it is `w.toNat`. -/
def row (idx : IVec ⟨1, ![1024]⟩ 32) (b : Fin 1024) : Fin 100000 :=
  ⟨(idx (ix1 b)).toNat % 100000, Nat.mod_lt _ (by omega)⟩

theorem row_val (idx : IVec ⟨1, ![1024]⟩ 32) (b : Fin 1024) : (row idx b).val = (idx (ix1 b)).toNat % 100000 := rfl

/-- The hidden layer: the looked-up row against each row of the projection, plus the bias, rectified. -/
def hid (idx : IVec ⟨1, ![1024]⟩ 32) (emb : FVec Ideal ⟨2, ![100000, 64]⟩ .f32) (Wp : FVec Ideal ⟨2, ![128, 64]⟩ .f32)
    (bp : FVec Ideal ⟨1, ![128]⟩ .f32) (b : Fin 1024) (k : Fin 128) : EReal :=
  max (∑ d : Fin 64, emb (ix2 (row idx b) d) * Wp (ix2 k d) + bp (ix1 k)) 0

/-- The logits: the hidden layer against each row of the output matrix, plus the bias. -/
def logit (idx : IVec ⟨1, ![1024]⟩ 32) (emb : FVec Ideal ⟨2, ![100000, 64]⟩ .f32) (Wp : FVec Ideal ⟨2, ![128, 64]⟩ .f32)
    (bp : FVec Ideal ⟨1, ![128]⟩ .f32) (Wo : FVec Ideal ⟨2, ![100000, 128]⟩ .f32) (bo : FVec Ideal ⟨1, ![100000]⟩ .f32)
    (b : Fin 1024) (v : Fin 100000) : EReal :=
  ∑ k : Fin 128, hid idx emb Wp bp b k * Wo (ix2 v k) + bo (ix1 v)

/-- The result: each logit minus the logarithm of the sum, along the vocabulary, of the exponentials of its row. -/
def G (idx : IVec ⟨1, ![1024]⟩ 32) (emb : FVec Ideal ⟨2, ![100000, 64]⟩ .f32) (Wp : FVec Ideal ⟨2, ![128, 64]⟩ .f32)
    (bp : FVec Ideal ⟨1, ![128]⟩ .f32) (Wo : FVec Ideal ⟨2, ![100000, 128]⟩ .f32) (bo : FVec Ideal ⟨1, ![100000]⟩ .f32) :
    FVec Ideal ⟨2, ![1024, 100000]⟩ .f32 :=
  fun j => logit idx emb Wp bp Wo bo (j 0) (j 1)
    - Ideal.log (∑ v' : Fin 100000, Ideal.exp (logit idx emb Wp bp Wo bo (j 0) v'))

theorem G_apply (idx : IVec ⟨1, ![1024]⟩ 32) (emb : FVec Ideal ⟨2, ![100000, 64]⟩ .f32) (Wp : FVec Ideal ⟨2, ![128, 64]⟩ .f32)
    (bp : FVec Ideal ⟨1, ![128]⟩ .f32) (Wo : FVec Ideal ⟨2, ![100000, 128]⟩ .f32) (bo : FVec Ideal ⟨1, ![100000]⟩ .f32)
    (b : Fin 1024) (v : Fin 100000) :
    G idx emb Wp bp Wo bo (ix2 b v)
      = logit idx emb Wp bp Wo bo b v - Ideal.log (∑ v' : Fin 100000, Ideal.exp (logit idx emb Wp bp Wo bo b v')) := rfl

end Cert.Spec

end
-- ==== Proof.Law.lean ====
/-
  The law the two programs differ by, in the extended reals: for real logits the logarithm of the soft-max
  taken after subtracting a real shift `μ` from every logit is the unshifted one,
  `(l v - μ) - log (0 + ∑ exp (l v' - μ)) = l v - log (∑ exp (l v'))`, because
  `∑ exp (l v' - μ) = exp (-μ) · ∑ exp (l v')` and both sums are positive reals. Also: the maximum of finitely
  many reals, folded from `-∞`, is a real; and a finite sum, product, maximum of reals is a real.
-/
import proofs.«204087_g3891240370374_cont_8to1_b_1678_29_alg».proof.Proof.Spec

noncomputable section

open scoped BigOperators

namespace Cert.Spec

open Idealize.ShloMosaic Idealize.ShloMosaic.ValueIdx

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real is a real. -/
def IsReal (x : EReal) : Prop := ∃ r : ℝ, x = (r : EReal)

theorem IsReal.coe (r : ℝ) : IsReal (r : EReal) := ⟨r, rfl⟩
theorem isReal_zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.sum {ι : Type*} (s : Finset ι) {f : ι → EReal} (hf : ∀ i, IsReal (f i)) : IsReal (∑ i ∈ s, f i) := by
  choose g hg using hf
  exact ⟨∑ i ∈ s, g i, by rw [coe_sum]; exact Finset.sum_congr rfl fun i _ => hg i⟩
theorem IsReal.ne_bot {x : EReal} (hx : IsReal x) : x ≠ ⊥ := by obtain ⟨a, rfl⟩ := hx; exact EReal.coe_ne_bot a
theorem IsReal.ne_top {x : EReal} (hx : IsReal x) : x ≠ ⊤ := by obtain ⟨a, rfl⟩ := hx; exact EReal.coe_ne_top a
theorem isReal_of_ne {x : EReal} (hb : x ≠ ⊥) (ht : x ≠ ⊤) : IsReal x := ⟨x.toReal, (EReal.coe_toReal ht hb).symm⟩

/-- The maximum of finitely many reals (at least one), folded from `-∞`, is a real. -/
theorem isReal_fold_max {ι : Type*} [Fintype ι] [Nonempty ι] {l : ι → EReal} (hl : ∀ i, IsReal (l i)) :
    IsReal ((Finset.univ : Finset ι).fold max ⊥ l) := by
  refine isReal_of_ne ?_ ?_
  · refine ne_of_gt ((Finset.lt_fold_max _).mpr (Or.inr ?_))
    obtain ⟨i⟩ := ‹Nonempty ι›
    exact ⟨i, Finset.mem_univ i, bot_lt_iff_ne_bot.mpr (hl i).ne_bot⟩
  · exact ne_of_lt ((Finset.fold_max_lt _).mpr ⟨bot_lt_top, fun i _ => lt_top_iff_ne_top.mpr (hl i).ne_top⟩)

/-- THE LAW, over the reals: subtracting a real shift from every logit before the exponentials leaves the
    logarithm of the soft-max unchanged. The left side has the sum taken from the initial value `0`, as a
    host sum is. -/
theorem lse_shift_coe {ι : Type*} [Fintype ι] [Nonempty ι] (r : ι → ℝ) (μ : ℝ) (v : ι) :
    ((r v : EReal) - (μ : EReal)) - Ideal.log (0 + ∑ v' : ι, Ideal.exp ((r v' : EReal) - (μ : EReal)))
      = (r v : EReal) - Ideal.log (∑ v' : ι, Ideal.exp (r v' : EReal)) := by
  have h1 : ∀ v', Ideal.exp ((r v' : EReal) - (μ : EReal)) = ((Real.exp (r v' - μ) : ℝ) : EReal) := fun v' => by
    rw [← EReal.coe_sub, Ideal.exp_coe]
  have h2 : ∀ v', Ideal.exp (r v' : EReal) = ((Real.exp (r v') : ℝ) : EReal) := fun v' => Ideal.exp_coe _
  simp only [h1, h2, zero_add]
  rw [← coe_sum, ← coe_sum]
  have hpos1 : 0 < ∑ v' : ι, Real.exp (r v' - μ) := Finset.sum_pos (fun _ _ => Real.exp_pos _) Finset.univ_nonempty
  have hpos2 : 0 < ∑ v' : ι, Real.exp (r v') := Finset.sum_pos (fun _ _ => Real.exp_pos _) Finset.univ_nonempty
  rw [Ideal.log_coe, Ideal.log_coe, if_neg (not_le.mpr hpos1), if_neg (not_le.mpr hpos2)]
  rw [← EReal.coe_sub, ← EReal.coe_sub, ← EReal.coe_sub]
  have hs : ∑ v' : ι, Real.exp (r v' - μ) = Real.exp (-μ) * ∑ v' : ι, Real.exp (r v') := by
    rw [Finset.mul_sum]
    refine Finset.sum_congr rfl fun x _ => ?_
    rw [← Real.exp_add]; congr 1; ring
  rw [hs, Real.log_mul (Real.exp_pos _).ne' hpos2.ne', Real.log_exp]
  congr 1; ring

/-- THE LAW, as the two programs meet it: for real logits `l` and the shift the row maximum folded from `-∞` and
    then taken against `-∞` once more. -/
theorem lse_shift {ι : Type*} [Fintype ι] [Nonempty ι] {l : ι → EReal} (hl : ∀ i, IsReal (l i)) (v : ι) :
    (l v - max ⊥ ((Finset.univ : Finset ι).fold max ⊥ l))
        - Ideal.log (0 + ∑ v' : ι, Ideal.exp (l v' - max ⊥ ((Finset.univ : Finset ι).fold max ⊥ l)))
      = l v - Ideal.log (∑ v' : ι, Ideal.exp (l v')) := by
  obtain ⟨μ, hμ⟩ := isReal_fold_max hl
  choose r hr using hl
  rw [hμ, max_eq_right bot_le]
  simp only [hr]
  exact lse_shift_coe r μ v

/-! ## Under finite inputs everything is a real -/

theorem hid_isReal (idx : IVec ⟨1, ![1024]⟩ 32) (emb : FVec Ideal ⟨2, ![100000, 64]⟩ .f32) (Wp : FVec Ideal ⟨2, ![128, 64]⟩ .f32)
    (bp : FVec Ideal ⟨1, ![128]⟩ .f32) (hemb : ∀ i, IsReal (emb i)) (hWp : ∀ i, IsReal (Wp i)) (hbp : ∀ i, IsReal (bp i))
    (b : Fin 1024) (k : Fin 128) : IsReal (hid idx emb Wp bp b k) :=
  (((IsReal.sum _ fun _ => (hemb _).mul (hWp _)).add (hbp _)).max isReal_zero)

theorem logit_isReal (idx : IVec ⟨1, ![1024]⟩ 32) (emb : FVec Ideal ⟨2, ![100000, 64]⟩ .f32) (Wp : FVec Ideal ⟨2, ![128, 64]⟩ .f32)
    (bp : FVec Ideal ⟨1, ![128]⟩ .f32) (Wo : FVec Ideal ⟨2, ![100000, 128]⟩ .f32) (bo : FVec Ideal ⟨1, ![100000]⟩ .f32)
    (hemb : ∀ i, IsReal (emb i)) (hWp : ∀ i, IsReal (Wp i)) (hbp : ∀ i, IsReal (bp i))
    (hWo : ∀ i, IsReal (Wo i)) (hbo : ∀ i, IsReal (bo i))
    (b : Fin 1024) (v : Fin 100000) : IsReal (logit idx emb Wp bp Wo bo b v) :=
  ((IsReal.sum _ fun _ => (hid_isReal idx emb Wp bp hemb hWp hbp _ _).mul (hWo _)).add (hbo _))

end Cert.Spec

end
-- ==== Proof.Pre.lean ====
/-
  The precondition decoded, over six arrays and no program: `input_domain` all ones says every float entry is a
  real (its absolute value is below `+∞`, so it is neither infinity) and every index word lies in `[0, 99999]`
  read signed — hence, read unsigned, below the number of table rows.
-/
import proofs.«204087_g3891240370374_cont_8to1_b_1678_29_alg».proof.Pre_input_domain
import proofs.«204087_g3891240370374_cont_8to1_b_1678_29_alg».proof.Proof.Law
import Idealize.ShloMosaic.Lib.ReduceAll
import Idealize.ShloMosaic.Lib.IdealHost

noncomputable section

namespace Cert.Pre

open Idealize.ShloMosaic Idealize.ShloMosaic.ValueIdx Cert.Pre_input_domain Cert.Spec

variable [Cert.Pre_input_domain.Facts]

/-- The scalar shape has one index. -/
instance : Subsingleton S_.Idx := ⟨fun a b => funext fun d => d.elim0⟩

/-- The pattern of `+∞` denotes the top element. -/
theorem ofBits_inf : Ideal.ofBits .f32 0x7F800000#32 = ⊤ := by simp [Ideal.ofBits, Ideal.ieee]

/-- An extended real whose absolute value is below `+∞` is a real. -/
theorem finite_elt (x : EReal) (h : Ideal.cmp .olt (max x (-x)) (Ideal.ofBits .f32 0x7F800000#32) = 1#1) : IsReal x := by
  rw [ofBits_inf] at h
  induction x using EReal.rec with
  | bot => exact absurd h (by simp [Ideal.cmp])
  | top => exact absurd h (by simp [Ideal.cmp])
  | coe r => exact ⟨r, rfl⟩

/-- A 32-bit word in `[0, 99999]` read signed is the same number read unsigned. -/
theorem toNat_of_range (w : BitVec 32) (h0 : 0 ≤ w.toInt) (h1 : w.toInt ≤ 99999) : w.toNat ≤ 99999 ∧ w.toInt = (w.toNat : Int) := by
  have h32 := w.isLt
  unfold BitVec.toInt at h0 h1 ⊢
  split at h0 <;> split at h1 <;> simp_all <;> omega

/-- The vector conjunction at an index is the conjunction of the bits. -/
theorem andi_apply {s : Shape} (a b : IVec s 1) (i : s.Idx) : andi a b i = IntOp.andi (a i) (b i) := rfl

/-- THE INTEGER HALF of the precondition, at any float instance: every index word in `[0, 99999]` read signed. -/
theorem decode_idx {F : FTy → Type} [FloatOps F] (idx : IVec S1024 32) (emb : FVec F S100000x64 .f32) (Wp : FVec F S128x64 .f32)
    (bp : FVec F S128 .f32) (Wo : FVec F S100000x128 .f32) (bo : FVec F S100000 .f32)
    (h : fn (F := F) idx emb Wp bp Wo bo = fun _ => 1#1) :
    ∀ b : Fin 1024, 0 ≤ (idx (ix1 b)).toInt ∧ (idx (ix1 b)).toInt ≤ 99999 := by
  have e := congrFun h ix0
  dsimp only [fn, fn_part1] at e
  simp only [andi_apply, IntOp.andi_eq_one] at e
  obtain ⟨-, h6⟩ := e
  intro b
  have hb := Host.reduce_andi_all _ _ _ _ _ h6 (ix1 b)
  rw [andi_apply] at hb
  obtain ⟨hge, hle⟩ := IntOp.andi_eq_one.mp hb
  have hge' : (0#32 : BitVec 32).toInt ≤ (idx (ix1 b)).toInt := IntOp.cmpi_sge.mp hge
  have hle' : (idx (ix1 b)).toInt ≤ (99999#32 : BitVec 32).toInt := IntOp.cmpi_sle.mp hle
  rw [show (0#32 : BitVec 32).toInt = 0 from by decide] at hge'
  rw [show (99999#32 : BitVec 32).toInt = 99999 from by decide] at hle'
  exact ⟨hge', hle'⟩

/-- An arithmetic shift right by one of a word in `[0, 99999]` halves it. -/
theorem shr1_toNat (w : BitVec 32) (h0 : 0 ≤ w.toInt) (h1 : w.toInt ≤ 99999) :
    (IntOp.shrsi .host w 1#32).toNat = w.toNat / 2 := by
  have hr := toNat_of_range w h0 h1
  have hmsb : w.msb = false := by rw [BitVec.msb_eq_false_iff_two_mul_lt]; omega
  unfold IntOp.shrsi
  rw [if_pos (by decide)]
  show (w.sshiftRight (1#32 : BitVec 32).toNat).toNat = _
  rw [BitVec.sshiftRight_eq_of_msb_false hmsb, BitVec.toNat_ushiftRight]
  simp [Nat.shiftRight_eq_div_pow]

/-- The host's arithmetic shift right by a broadcast one, at a batch entry whose word is in range: below half the
    number of table rows. -/
theorem shr1_lt (idx : IVec S1024 32) (hb : S_.BroadcastsInDim S1024 (![] : Fin 0 → Fin S1024.rank)) (b : Fin 1024)
    (h0 : 0 ≤ (idx (ix1 b)).toInt) (h1 : (idx (ix1 b)).toInt ≤ 99999) :
    (Host.shrsi idx (broadcastInDim S1024 ![] hb (constantI S_ 32 1#32)) (ix1 b)).toNat < 50000 := by
  show (IntOp.shrsi .host (idx (ix1 b)) (broadcastInDim S1024 ![] hb (constantI S_ 32 1#32) (ix1 b))).toNat < 50000
  rw [broadcastInDim_scalar_apply]
  show (IntOp.shrsi .host (idx (ix1 b)) 1#32).toNat < 50000
  rw [shr1_toNat _ h0 h1]
  have := (toNat_of_range _ h0 h1).1
  omega

/-- THE PRECONDITION DECODED: every float entry a real, every index word in `[0, 99999]` read signed. -/
theorem decode (idx : IVec S1024 32) (emb : FVec Ideal S100000x64 .f32) (Wp : FVec Ideal S128x64 .f32) (bp : FVec Ideal S128 .f32)
    (Wo : FVec Ideal S100000x128 .f32) (bo : FVec Ideal S100000 .f32)
    (h : fn (F := Ideal) idx emb Wp bp Wo bo = fun _ => 1#1) :
    (∀ i, IsReal (emb i)) ∧ (∀ i, IsReal (Wp i)) ∧ (∀ i, IsReal (bp i)) ∧ (∀ i, IsReal (Wo i)) ∧ (∀ i, IsReal (bo i))
      ∧ ∀ b : Fin 1024, 0 ≤ (idx (ix1 b)).toInt ∧ (idx (ix1 b)).toInt ≤ 99999 := by
  have e := congrFun h ix0
  dsimp only [fn, fn_part1] at e
  have hA : ∀ {s : Shape} (a b : IVec s 1) (i : s.Idx), andi a b i = IntOp.andi (a i) (b i) := fun _ _ _ => rfl
  simp only [hA, IntOp.andi_eq_one] at e
  obtain ⟨⟨⟨⟨⟨h1, h2⟩, h3⟩, h4⟩, h5⟩, h6⟩ := e
  refine ⟨fun i => finite_elt _ (Host.reduce_andi_all _ _ _ _ _ h1 i), fun i => finite_elt _ (Host.reduce_andi_all _ _ _ _ _ h2 i),
    fun i => finite_elt _ (Host.reduce_andi_all _ _ _ _ _ h3 i), fun i => finite_elt _ (Host.reduce_andi_all _ _ _ _ _ h4 i),
    fun i => finite_elt _ (Host.reduce_andi_all _ _ _ _ _ h5 i), fun b => ?_⟩
  have hb := Host.reduce_andi_all _ _ _ _ _ h6 (ix1 b)
  rw [hA] at hb
  obtain ⟨hge, hle⟩ := IntOp.andi_eq_one.mp hb
  have hge' : (0#32 : BitVec 32).toInt ≤ (idx (ix1 b)).toInt := IntOp.cmpi_sge.mp hge
  have hle' : (idx (ix1 b)).toInt ≤ (99999#32 : BitVec 32).toInt := IntOp.cmpi_sle.mp hle
  rw [show (0#32 : BitVec 32).toInt = 0 from by decide] at hge'
  rw [show (99999#32 : BitVec 32).toInt = 99999 from by decide] at hle'
  exact ⟨hge', hle'⟩

/-- Under the precondition the looked-up row is the index word read unsigned. -/
theorem row_val_of_range (idx : IVec S1024 32) (b : Fin 1024) (h0 : 0 ≤ (idx (ix1 b)).toInt) (h1 : (idx (ix1 b)).toInt ≤ 99999) :
    (row idx b).val = (idx (ix1 b)).toNat := by
  rw [row_val]
  exact Nat.mod_eq_of_lt (by have := (toNat_of_range _ h0 h1).1; omega)

end Cert.Pre

end
-- ==== Proof.Kernel.MainE.lean ====
/-
  What the run says of the final memory: the argument arrays are written by no line of @main, and the result is
  the transpose of the array the region wrote. The gather's indices are in range under the precondition: they
  are the inputs shifted right by one, the inputs below 100000.
-/
import proofs.«204087_g3891240370374_cont_8to1_b_1678_29_alg».proof.Proof.Kernel.MainD
import proofs.«204087_g3891240370374_cont_8to1_b_1678_29_alg».proof.Proof.Pre

noncomputable section

namespace Cert.Proof.Kernel

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)

/-! ## The gather's indices -/

theorem ixV_eq (d : Dev nD) :
    ixV m d = Host.shrsi (m ((SparseCore.T d).loc main_arg0)) (broadcastInDim S1024 ![] bcast_S_S1024 (constantI S_ 32 1#32)) := by
  unfold ixV V1
  show StableHlo.after (ops1 (F := F)) (V0 m d) ((main_v4 : Ref sig .tc) : DevRef τ sig) = _
  after_results
  rfl

theorem hin_of_pre [Cert.Pre_input_domain.Facts]
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    ∀ (d : Dev nD) (b : Idx (v4Loc d)), (ixV m d b).toNat < 50000 := by
  intro d b
  rw [ixV_eq]
  have hr := Cert.Pre.decode_idx _ _ _ _ _ _ (hpre d) (b 0)
  have h := Cert.Pre.shr1_lt (m ((SparseCore.T d).loc main_arg0)) bcast_S_S1024 (b 0) hr.1 hr.2
  rw [ValueIdx.eq_ix1 b]
  exact h

/-! ## The arguments, and the result -/

/-- Every buffer some line of @main, the call or the region writes. -/
abbrev written : List (Ref sig .tc) :=
  [main_v0, main_v1, main_v2, main_c, main_v3, main_v4, main_c_0, main_v6, main_v7, main_v8, main_v10, main_v5, main_v9]

theorem kept (b : Ref sig .tc) (hb : ∀ y ∈ written, b ≠ y) (c : Dev nD) (f : Buf (Elt F) (v9Loc c)) :
    StableHlo.after (ops3 (F := F)) (V4 m c f) (b : DevRef τ sig) = m ((c.tc : Thread nD τ).loc b) := by
  have nw : ∀ y : Ref sig .tc, b ≠ y → ((b : DevRef τ sig)) ∉ ({(y : DevRef τ sig)} : Finset (DevRef τ sig)) :=
    fun y h hm => h (Proc.devRef_injective _ (Finset.mem_singleton.mp hm))
  rw [StableHlo.after_of_forall_not_mem (ops3 (F := F)) _ (by
    intro op hop; simp only [List.mem_cons, List.not_mem_nil, or_false] at hop; rcases hop with rfl
    exact nw main_v10 (hb _ (by simp)))]
  unfold V4; rw [Function.update_of_ne (fun e => hb main_v9 (by simp) (Proc.devRef_injective _ e))]
  unfold V3; rw [StableHlo.after_of_forall_not_mem (ops2 (F := F)) _ (by
    intro op hop; simp only [List.mem_cons, List.not_mem_nil, or_false] at hop
    rcases hop with rfl | rfl | rfl | rfl
    · exact nw main_c_0 (hb _ (by simp))
    · exact nw main_v6 (hb _ (by simp))
    · exact nw main_v7 (hb _ (by simp))
    · exact nw main_v8 (hb _ (by simp)))]
  unfold V2; rw [Function.update_of_ne (fun e => hb main_v5 (by simp) (Proc.devRef_injective _ e))]
  unfold V1; rw [StableHlo.after_of_forall_not_mem (ops1 (F := F)) _ (by
    intro op hop; simp only [List.mem_cons, List.not_mem_nil, or_false] at hop
    rcases hop with rfl | rfl | rfl | rfl | rfl | rfl
    · exact nw main_v0 (hb _ (by simp))
    · exact nw main_v1 (hb _ (by simp))
    · exact nw main_v2 (hb _ (by simp))
    · exact nw main_c (hb _ (by simp))
    · exact nw main_v3 (hb _ (by simp))
    · exact nw main_v4 (hb _ (by simp)))]
  rfl

theorem res10 (c : Dev nD) (f : Buf (Elt F) (v9Loc c)) :
    StableHlo.after (ops3 (F := F)) (V4 m c f) ((main_v10 : Ref sig .tc) : DevRef τ sig)
      = transpose S1024x100000 [1, 0] f transposes_S100000x1024_S1024x100000_1_0 := by
  simp only [StableHlo.after_cons, StableHlo.after_nil]
  rw [StableHlo.unary_result]
  show transpose S1024x100000 [1, 0] (V4 m c f r9) transposes_S100000x1024_S1024x100000_1_0 = _
  rw [V4_v9]

/-- The argument arrays end as they were launched. -/
def ArgsKept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

/-- The run with the strongest post: the result is the transpose of an array in the relation the region's proof
    states, the arguments unchanged. -/
theorem run_value [∀ e, Nonempty (Elt F e)] (RS : RegionSide m)
    (hin : ∀ (d : Dev nD) (b : Idx (v4Loc d)), (ixV m d b).toNat < 50000) :
    θ_run (Cert.Kernel.defs (F := F)) (Cert.Kernel.threads (F := F)) ⟨m, fun _ => 0, ρ⟩ (fun r => ∀ c : Dev nD,
      (∃ f, RS.Out c f ∧ r.2.mem ((c.tc : Thread nD τ).loc main_v10) = transpose S1024x100000 [1, 0] f transposes_S100000x1024_S1024x100000_1_0)
      ∧ ArgsKept m r c) :=
  (θ_run (Cert.Kernel.defs (F := F)) _ _).mono (fun r h c => by
    obtain ⟨f, hf, hall⟩ := h c
    refine ⟨⟨f, hf, ?_⟩, ?_, ?_, ?_, ?_, ?_, ?_⟩
    · exact (hall _ (mem_Sall main_v10 rfl)).trans (res10 m c f)
    · exact (hall _ (mem_Sall main_arg0 rfl)).trans (kept m main_arg0 (by decide) c f)
    · exact (hall _ (mem_Sall main_arg1 rfl)).trans (kept m main_arg1 (by decide) c f)
    · exact (hall _ (mem_Sall main_arg2 rfl)).trans (kept m main_arg2 (by decide) c f)
    · exact (hall _ (mem_Sall main_arg3 rfl)).trans (kept m main_arg3 (by decide) c f)
    · exact (hall _ (mem_Sall main_arg4 rfl)).trans (kept m main_arg4 (by decide) c f)
    · exact (hall _ (mem_Sall main_arg5 rfl)).trans (kept m main_arg5 (by decide) c f))
    (run_main m ρ RS hin)

end Cert.Proof.Kernel

end
-- ==== Proof.Kernel.RegionDat.lean ====
/-
  The TensorCore region's proof data: what the kernel body holds between grid points. The grid has two passes
  over the 33 vocabulary blocks. Pass 0 builds the hidden activations, the running sum and its logarithm in three
  scratch buffers; pass 1 writes each block's outputs into a two-slot ring and copies the ring's slots out to
  the result in row chunks, each copy waited for two points after it was started.
-/
import proofs.«204087_g3891240370374_cont_8to1_b_1678_29_alg».proof.Proof.Kernel.Common
import proofs.«204087_g3891240370374_cont_8to1_b_1678_29_alg».proof.Proof.Gen.Kernel.Launch
import proofs.«204087_g3891240370374_cont_8to1_b_1678_29_alg».proof.Proof.Gen.Kernel.Points
import Idealize.ShloMosaic.Lib.Pipeline.FrameBody
import Idealize.ShloMosaic.Lib.Ring
import Idealize.ShloMosaic.Lib.Tactic
import Idealize.ShloMosaic.Lib.ValueIdx

set_option maxRecDepth 16384

noncomputable section

namespace Cert.Proof.Kernel

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

/-! ## The windows' blocks -/

/-- Window `w`'s block at point `t`, read off its array as the region finds it. -/
def iblk (c : Dev nD) (A : (w : Fin cfg1.W) → Buf (Elt F) ((cfg1.win w).arr.view.loc (c : Thread nD τ))) (w : Fin cfg1.W) (t : Fin cfg1.N) :
    ((cfg1.win w).xblock (cfg1.grid.coords t)).Idx → Elt F (cfg1.win w).elt :=
  ((cfg1.win w).blk t).view.read (Elt F) (A w)

/-- What window `w`'s staging buffer holds at point `t`: its block where the fetch fills the buffer, `d` elsewhere. -/
def stg (c : Dev nD) (A : (w : Fin cfg1.W) → Buf (Elt F) ((cfg1.win w).arr.view.loc (c : Thread nD τ))) (w : Fin cfg1.W) (t : Fin cfg1.N)
    (d : (cfg1.win w).block.Idx → Elt F (cfg1.win w).elt) : (cfg1.win w).block.Idx → Elt F (cfg1.win w).elt :=
  (cfg1.win w).fill (cfg1.grid.coords t) d (iblk c A w t)

/-! ## The kernel's own semaphores -/

/-- The sixteen DMA semaphores of the kernel's scratch array, row by row. -/
def osem : Fin 16 → SemLoc sig := fun k => .dma ⟨11 + k.val, by have := k.isLt; exact (by omega : 11 + k.val < 27)⟩

theorem osemFacts : Pipeline.OwnSemFacts spec1 osem := by decide

/-! ## The ring, the result's row chunks, the semaphores: closed forms -/

abbrev mainM : Memref sig .tc .hbm S100000x1024 .f32 := Memref.whole main_v9
abbrev ringM : Memref sig .tc .vmem S2x3072x1024 .f32 := Memref.whole cc1_scratch3

theorem mainChunk_inb (b : Fin 32) (r : Fin 8) :
    ∀ a, (![3072 * b.val + 384 * r.val, 0] : Fin 2 → ℕ) a + S384x1024.size a ≤ S100000x1024.size a := by
  intro a; have := b.isLt; have := r.isLt
  fin_cases a
  · show 3072 * b.val + 384 * r.val + 384 ≤ 100000; omega
  · show 0 + 1024 ≤ 1024; omega
theorem mainTail_inb (r : Fin 4) :
    ∀ a, (![98304 + 424 * r.val, 0] : Fin 2 → ℕ) a + S424x1024.size a ≤ S100000x1024.size a := by
  intro a; have := r.isLt
  fin_cases a
  · show 98304 + 424 * r.val + 424 ≤ 100000; omega
  · show 0 + 1024 ≤ 1024; omega
theorem ringChunk_inb (s : Fin 2) (r : Fin 8) :
    ∀ a, (![s.val, 384 * r.val, 0] : Fin 3 → ℕ) a + S1x384x1024.size a ≤ S2x3072x1024.size a := by
  intro a; have := s.isLt; have := r.isLt
  fin_cases a
  · show s.val + 1 ≤ 2; omega
  · show 384 * r.val + 384 ≤ 3072; omega
  · show 0 + 1024 ≤ 1024; omega
theorem ringTail_inb (s : Fin 2) (r : Fin 4) :
    ∀ a, (![s.val, 424 * r.val, 0] : Fin 3 → ℕ) a + S1x424x1024.size a ≤ S2x3072x1024.size a := by
  intro a; have := s.isLt; have := r.isLt
  fin_cases a
  · show s.val + 1 ≤ 2; omega
  · show 424 * r.val + 424 ≤ 3072; omega
  · show 0 + 1024 ≤ 1024; omega
theorem ringSlot_inb (s : Fin 2) :
    ∀ a, (![s.val, 0, 0] : Fin 3 → ℕ) a + S1x3072x1024.size a ≤ S2x3072x1024.size a := by
  intro a; have := s.isLt
  fin_cases a
  · show s.val + 1 ≤ 2; omega
  · show 0 + 3072 ≤ 3072; omega
  · show 0 + 1024 ≤ 1024; omega
theorem rsem_inb (s : Fin 2) (r : Fin 8) : ∀ a, (![s.val, r.val] : Fin 2 → ℕ) a + S1x1.size a ≤ S2x8.size a := by
  intro a; have := s.isLt; have := r.isLt
  fin_cases a
  · show s.val + 1 ≤ 2; omega
  · show r.val + 1 ≤ 8; omega

/-- Rows `[3072 b + 384 r, 3072 b + 384 r + 384)` of the result: what copy `r` of block `b` writes. -/
def mainChunk (b : Fin 32) (r : Fin 8) : Memref sig .tc .hbm S384x1024 .f32 :=
  mainM.slice (Rect.unit ![3072 * b.val + 384 * r.val, 0] S384x1024.size (mainChunk_inb b r)) (fun _ => rfl)
/-- Rows `[98304 + 424 r, 98304 + 424 r + 424)` of the result: what copy `r` of the last block writes. -/
def mainTail (r : Fin 4) : Memref sig .tc .hbm S424x1024 .f32 :=
  mainM.slice (Rect.unit ![98304 + 424 * r.val, 0] S424x1024.size (mainTail_inb r)) (fun _ => rfl)
/-- Rows `[384 r, 384 r + 384)` of the ring's slot `s`. -/
def ringChunk (s : Fin 2) (r : Fin 8) : Memref sig .tc .vmem S384x1024 .f32 :=
  (ringM.slice (Rect.unit ![s.val, 384 * r.val, 0] S1x384x1024.size (ringChunk_inb s r)) (fun _ => rfl)).squeeze S384x1024 squeezes_S1x384x1024_S384x1024
/-- Rows `[424 r, 424 r + 424)` of the ring's slot `s`. -/
def ringTail (s : Fin 2) (r : Fin 4) : Memref sig .tc .vmem S424x1024 .f32 :=
  (ringM.slice (Rect.unit ![s.val, 424 * r.val, 0] S1x424x1024.size (ringTail_inb s r)) (fun _ => rfl)).squeeze S424x1024 squeezes_S1x424x1024_S424x1024
/-- The ring's slot `s`. -/
def ringSlot (s : Fin 2) : Memref sig .tc .vmem S1x3072x1024 .f32 :=
  ringM.slice (Rect.unit ![s.val, 0, 0] S1x3072x1024.size (ringSlot_inb s)) (fun _ => rfl)
/-- Semaphore `(s, r)` of the kernel's array. -/
def rsem (s : Fin 2) (r : Fin 8) : DmaSem sig :=
  ((cc1_scratch4.slice (Rect.unit ![s.val, r.val] S1x1.size (rsem_inb s r))).squeeze S_ squeezes_S1x1_S_).sem

/-- The slot block `b` is written through. -/
def slotOf (b : ℕ) : Fin 2 := ⟨b % 2, Nat.mod_lt _ (by decide)⟩

example (c : Dev nD) : (mainChunk 3 5).view.loc (c : Thread nD τ) = mainM.view.loc (c : Thread nD τ) := rfl
example (c : Dev nD) : (ringChunk 1 5).view.loc (c : Thread nD τ) = ringM.view.loc (c : Thread nD τ) := rfl
example (c : Dev nD) : mainM.view.loc (c : Thread nD τ) = (c : Thread nD τ).loc main_v9 := rfl
example : osem 10 = .dma (rsem 1 2) := by decide

/-! ## What the region's values satisfy

The invariant carries, beside each buffer, a predicate on what it holds; the body's proof applies the closure
hypotheses below at its stores and never opens a predicate. -/

/-- Entry contents of the windows' arrays. -/
abbrev Arrs (c : Dev nD) : Type := (w : Fin cfg1.W) → Buf (Elt F) ((cfg1.win w).arr.view.loc (c : Thread nD τ))

/-- The predicates on the scratch buffers' and the result's contents, with what the body needs of them where it
    stores: each store's payload, applied to values satisfying the predicates, satisfies the next one. -/
structure RegionInv (c : Dev nD) (A : Arrs (F := F) c) where
  /-- the hidden activations, -/
  HT : Vec F S128x1024 .bf16 → Prop
  /-- the running sum after `n` vocabulary blocks, -/
  S : ℕ → Vec F S1x1024 .f32 → Prop
  /-- its logarithm, -/
  LSE : Vec F S1x1024 .f32 → Prop
  /-- what copy `r` of block `b` leaves in its rows of the result, -/
  OutC : Fin 32 → Fin 8 → Vec F S384x1024 .f32 → Prop
  /-- what copy `r` of the last block leaves in its. -/
  OutT : Fin 4 → Vec F S424x1024 .f32 → Prop
  hHT : ∀ t : Fin cfg1.N, t.val = 0 → ∀ d0 d1 d2 d3, HT (k1_pay1 (stg c A 0 t d0) (stg c A 1 t d1) (stg c A 2 t d2) (stg c A 3 t d3))
  hS0 : S 0 (k1_pay2 (F := F))
  hS : ∀ t : Fin cfg1.N, t.val < 32 → ∀ d4 d5 ht s, HT ht → S t.val s → S (t.val + 1) (k1_pay4 (stg c A 4 t d4) ht (stg c A 5 t d5) s)
  hLSE : ∀ t : Fin cfg1.N, t.val = 32 → ∀ d4 d5 ht s, HT ht → S 32 s → LSE (k1_pay5 (stg c A 4 t d4) ht (stg c A 5 t d5) s)
  hOutC : ∀ (t : Fin cfg1.N) (b : Fin 32), t.val = 33 + b.val → ∀ (r : Fin 8) d4 d5 ht l, HT ht → LSE l → ∀ X : Vec F S384x1024 .f32,
    (∀ (i : Fin 384) (v : Fin 1024), X (ValueIdx.ix2 i v)
      = k1_pay6 (stg c A 4 t d4) ht (stg c A 5 t d5) l (ValueIdx.ix3 (0 : Fin 1) (⟨384 * r.val + i.val, by omega⟩ : Fin 3072) v)) → OutC b r X
  hOutT : ∀ (t : Fin cfg1.N), t.val = 65 → ∀ (r : Fin 4) d4 d5 ht l, HT ht → LSE l → ∀ X : Vec F S424x1024 .f32,
    (∀ (i : Fin 424) (v : Fin 1024), X (ValueIdx.ix2 i v)
      = k1_pay6 (stg c A 4 t d4) ht (stg c A 5 t d5) l (ValueIdx.ix3 (0 : Fin 1) (⟨424 * r.val + i.val, by omega⟩ : Fin 3072) v)) → OutT r X

/-- Every predicate true. -/
def RegionInv.trivial (c : Dev nD) (A : Arrs (F := F) c) : RegionInv c A where
  HT _ := True
  S _ _ := True
  LSE _ := True
  OutC _ _ _ := True
  OutT _ _ := True
  hHT _ _ _ _ _ _ := True.intro
  hS0 := True.intro
  hS _ _ _ _ _ _ _ _ := True.intro
  hLSE _ _ _ _ _ _ _ _ := True.intro
  hOutC _ _ _ _ _ _ _ _ _ _ _ _ := True.intro
  hOutT _ _ _ _ _ _ _ _ _ _ _ := True.intro

/-! ## The invariant -/

/-- The counters' embedding the transfers' invariants live at. -/
abbrev EC : UEmb Counters 𝕄 := countersEmb (U := UU)

/-- Rows `[a, b)` of the result. -/
def rowRange (a b : ℕ) : Finset S100000x1024.Idx := Finset.univ.filter fun x => a ≤ (x 0).val ∧ (x 0).val < b

section Inv

variable (c : Dev nD) (A : Arrs (F := F) c)

variable (I : RegionInv c A)

/-- The three scratch buffers before point `n`: the hidden activations from the first point on, the running sum of
    the blocks met so far during pass 0 and of all of them after it, its logarithm from pass 1 on. -/
def scr (n : ℕ) : sProp 𝕄 :=
  iprop((∃ X : Vec F S128x1024 .bf16, ((Memref.whole cc1_scratch0).view.loc (c : Thread nD τ) ↦{fullShare} X) ∗ ⌜1 ≤ n → I.HT X⌝)
    ∗ (∃ X : Vec F S1x1024 .f32, ((Memref.whole cc1_scratch1).view.loc (c : Thread nD τ) ↦{fullShare} X) ∗ ⌜1 ≤ n → I.S (min n 32) X⌝)
    ∗ (∃ X : Vec F S1x1024 .f32, ((Memref.whole cc1_scratch2).view.loc (c : Thread nD τ) ↦{fullShare} X) ∗ ⌜33 ≤ n → I.LSE X⌝))

/-- Every row chunk of the result holds what its copy leaves. -/
def OutAll (f : Buf (Elt F) (mainM.view.loc (c : Thread nD τ))) : Prop :=
  (∀ b r, I.OutC b r ((mainChunk b r).view.read (Elt F) f)) ∧ ∀ r, I.OutT r ((mainTail r).view.read (Elt F) f)

/-- No copy outstanding: the result and the ring whole, the sixteen semaphores at zero (during pass 0; and, every
    chunk written, after the last point). -/
def idle (fin : Prop) : sProp 𝕄 :=
  iprop((∃ f, (mainM.view.loc (c : Thread nD τ) ↦{fullShare} f) ∗ ⌜fin → OutAll c A I f⌝)
    ∗ (∃ q : Buf (Elt F) (ringM.view.loc (c : Thread nD τ)), ringM.view.loc (c : Thread nD τ) ↦{fullShare} q) ∗ Pipeline.ownSems0 osem c)

/-- Copy `r` of block `b` outstanding: its semaphore carries the flight, which delivers the result's row chunk at
    contents satisfying the chunk's predicate and the ring's row chunk back. -/
def FlightC (b : Fin 32) (r : Fin 8) : sProp 𝕄 :=
  iprop(∃ (g : Buf (Elt F) (mainM.view.loc (c : Thread nD τ))) (q : Buf (Elt F) (ringM.view.loc (c : Thread nD τ))),
    ⌜I.OutC b r ((mainChunk b r).view.read (Elt F) g)⌝ ∗
    Transfers.Flight EC (c : Thread nD τ) (.dma (rsem (slotOf b.val) r)) (none : HIx 1) 49152
      iprop(((mainChunk b r).view.loc (c : Thread nD τ) ↦[(mainChunk b r).view.set]{fullShare} g)
        ∗ ((ringChunk (slotOf b.val) r).view.loc (c : Thread nD τ) ↦[(ringChunk (slotOf b.val) r).view.set]{fullShare} q)))

/-- The eight copies of block `b` outstanding (no block, nothing). -/
def FlightB (b : ℕ) : sProp 𝕄 := if h : b < 32 then bigSep Finset.univ (fun r : Fin 8 => FlightC c A I ⟨b, h⟩ r) else iprop(emp)

/-- Slot `s` of the ring in hand, its eight semaphores at zero. -/
def idleSlot (s : Fin 2) : sProp 𝕄 :=
  iprop((∃ q : Buf (Elt F) (ringM.view.loc (c : Thread nD τ)), (ringSlot s).view.loc (c : Thread nD τ) ↦[(ringSlot s).view.set]{fullShare} q)
    ∗ bigSep Finset.univ fun r : Fin 8 => semVal ((c : Thread nD τ), SemLoc.dma (rsem s r)) 0)

/-- Before point `(1, j)`, `1 ≤ j ≤ 32`: the rows of the blocks below `j - 2` landed, each chunk at contents
    satisfying its predicate; the rows from block `j` on untouched; blocks `j - 2` and `j - 1` outstanding (before
    `(1, 1)`: block 0, and slot 1 in hand). -/
def fly (j : ℕ) : sProp 𝕄 :=
  iprop((∃ f : Buf (Elt F) (mainM.view.loc (c : Thread nD τ)), (mainM.view.loc (c : Thread nD τ) ↦[rowRange 0 (3072 * (j - 2))]{fullShare} f)
        ∗ ⌜∀ (b : Fin 32) r, b.val + 2 < j → I.OutC b r ((mainChunk b r).view.read (Elt F) f)⌝)
    ∗ (∃ f : Buf (Elt F) (mainM.view.loc (c : Thread nD τ)), mainM.view.loc (c : Thread nD τ) ↦[rowRange (3072 * j) 100000]{fullShare} f)
    ∗ (if 2 ≤ j then FlightB c A I (j - 2) else idleSlot c 1)
    ∗ FlightB c A I (j - 1))

/-- The invariant before point `n` (`n = 33 p + j` before point `(p, j)`; `n = 66` after the last). -/
def Φ (n : ℕ) : sProp 𝕄 :=
  iprop(scr c A I n ∗ if n ≤ 33 then idle c A I False else if n = 66 then idle c A I True else fly c A I (n - 33))

end Inv

/-! ## The proof data -/

/-- The proof data of the pipeline on core `c`: the arrays as the region finds them; after the body each input's
    staging buffer at its block (the body writes none of them); the invariant `Φ`; nothing owed; full shares; the
    waits recorded before the region within `Rec`. -/
def pdat (c : Dev nD) (A : Arrs (F := F) c) (Rec : Set (SemLoc sig × HIx 1)) (I : RegionInv c A) :
    Dat τ (Elt F) (HIx 1) ℕ UU ℕ cfg1 c where
  A := A
  after w t := stg c A w t fun _ => default
  Φ n := Φ c A I n.val
  q _ := fullShare
  owed _ := 0
  recorded _ := Rec

theorem win_isIn : ∀ w : Fin cfg1.W, (cfg1.win w).isOut = false := by decide

theorem win_clip (w : Fin cfg1.W) (t t' : Fin cfg1.N) (h : (cfg1.win w).index t = (cfg1.win w).index t') :
    (cfg1.win w).clip (cfg1.grid.coords t) = (cfg1.win w).clip (cfg1.grid.coords t') := by
  fin_cases w
  · rfl
  · rfl
  · rfl
  · rfl
  · funext a
    show Pipeline.Clip.of (cc1_transform_4 (grid1.coords t) a) _ _ = Pipeline.Clip.of (cc1_transform_4 (grid1.coords t') a) _ _
    rw [show cc1_transform_4 (grid1.coords t) a = cc1_transform_4 (grid1.coords t') a from congrFun h a]
  · funext a
    show Pipeline.Clip.of (cc1_transform_5 (grid1.coords t) a) _ _ = Pipeline.Clip.of (cc1_transform_5 (grid1.coords t') a) _ _
    rw [show cc1_transform_5 (grid1.coords t) a = cc1_transform_5 (grid1.coords t') a from congrFun h a]

/-- Every window's current staging buffer holds its block at every point, fetched there or not. -/
theorem before_eq (c : Dev nD) (A : Arrs (F := F) c) (Rec : Set (SemLoc sig × HIx 1)) (I : RegionInv c A)
    (w : Fin cfg1.W) (t : Fin cfg1.N) (d) : (pdat c A Rec I).before w t d = stg c A w t d :=
  ((pdat c A Rec I).before_in_eq_fetched w (win_isIn w) (fun _ => rfl) (win_clip w)
    (fun t => (cfg1.win w).cut_fill _ _ _) t d).trans rfl

/-! ## Entry and exit -/

theorem hin (c : Dev nD) (A : Arrs (F := F) c) (Rec : Set (SemLoc sig × HIx 1)) (I : RegionInv c A) :
    iprop((∃ f, (c : Thread nD τ).loc main_v9 ↦{fullShare} f) ∗ Pipeline.scopedRest spec1 c ∗ Pipeline.ownSems0 osem c)
      ⊢ ((pdat c A Rec I).Φ 0 : sProp 𝕄) := by
  rw [scopedRest1_eq]
  show _ ⊢ Φ c A I 0
  unfold Φ scr idle
  rw [if_pos (by decide)]
  iintro ⟨⟨%f, Hm⟩, ⟨⟨%f0, H0⟩, ⟨%f1, H1⟩, ⟨%f2, H2⟩, ⟨%f3, H3⟩⟩, Hs⟩
  isplitl [H0 H1 H2]
  · isplitl [H0]
    · iexists f0; isplitl [H0]; · iexact H0
      ipureintro; intro h; omega
    isplitl [H1]
    · iexists f1; isplitl [H1]; · iexact H1
      ipureintro; intro h; omega
    · iexists f2; isplitl [H2]; · iexact H2
      ipureintro; intro h; omega
  isplitl [Hm]
  · iexists f; isplitl [Hm]; · iexact Hm
    ipureintro; intro h; exact h.elim
  isplitl [H3]
  · iexists f3; iexact H3
  · iexact Hs

theorem hout (c : Dev nD) (A : Arrs (F := F) c) (Rec : Set (SemLoc sig × HIx 1)) (I : RegionInv c A) :
    ((pdat c A Rec I).Φ (Fin.last _) : sProp 𝕄)
      ⊢ iprop((∃ f, ((c : Thread nD τ).loc main_v9 ↦{fullShare} f) ∗ ⌜OutAll c A I f⌝) ∗ Pipeline.ownSems0 osem c ∗ Pipeline.scopedRest spec1 c) := by
  rw [scopedRest1_eq]
  show Φ c A I 66 ⊢ _
  unfold Φ scr idle
  rw [if_neg (by decide), if_pos rfl]
  iintro ⟨⟨⟨%f0, H0, -⟩, ⟨%f1, H1, -⟩, ⟨%f2, H2, -⟩⟩, ⟨%f, Hm, %hf⟩, ⟨%f3, H3⟩, Hs⟩
  isplitl [Hm]
  · iexists f; isplitl [Hm]; · iexact Hm
    ipureintro; exact hf trivial
  isplitl [Hs]; · iexact Hs
  isplitl [H0]; · iexists f0; iexact H0
  isplitl [H1]; · iexists f1; iexact H1
  isplitl [H2]; · iexists f2; iexact H2
  iexists f3; iexact H3

end Cert.Proof.Kernel

end
-- ==== Proof.Kernel.MainF.lean ====
/-
  The region's interface from the proof data of its body: the entry arrays, the recorded pairs and the relations on
  the contents plugged in.
-/
import proofs.«204087_g3891240370374_cont_8to1_b_1678_29_alg».proof.Proof.Kernel.MainE
import proofs.«204087_g3891240370374_cont_8to1_b_1678_29_alg».proof.Proof.Kernel.RegionDat

noncomputable section

namespace Cert.Proof.Kernel

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type} [FloatOps F]

local notation "𝕄" => MT nD τ sig (HIx 1) (Elt F) ℕ UU ℕ

variable (m : (ℓ : Loc nD τ sig) → Buf (Elt F) ℓ)

/-- Every pair at the index of the kernels' own waits has level 0. -/
theorem hRec (c : Dev nD) : ∀ sm : SemLoc sig, (sm, (none : HIx 1)) ∈ Rec (F := F) c := fun _ => Nat.zero_le _

def RS_of (I : (c : Dev nD) → RegionInv c (Aent m c))
    (hb : ∀ c, Pipeline.BodyObligationLoose (pdat c (Aent m c) (Rec (F := F) c) (I c)) (defs₀ (F := F)) 𝒱₀ (none : HIx 1) Set.univ) :
    RegionSide m where
  pdat c := pdat c (Aent m c) (Rec (F := F) c) (I c)
  hA c w := rfl
  hshare c w := by unfold Pipeline.Dat.share; rw [win_isIn]; rfl
  howed c t := rfl
  hrec c t := rfl
  osem := osem
  ho := osemFacts
  hbody := hb
  Out c f := OutAll c (Aent m c) (I c) f
  hin c := by
    iintro ⟨H9, Hs, Hr⟩
    iapply (hin c (Aent m c) (Rec (F := F) c) (I c))
    isplitl [H9]; · iexact H9
    isplitl [Hr]; · iexact Hr
    iexact Hs
  hout c := hout c (Aent m c) (Rec (F := F) c) (I c)

end Cert.Proof.Kernel

end
-- ==== Proof.Kernel.RegionPoint.lean ====
/-
  The TensorCore region's body obligation cut into its points: the body's branch conditions in closed form, what
  the whole-buffer accesses read and leave, and the obligation at one point.
-/
import proofs.«204087_g3891240370374_cont_8to1_b_1678_29_alg».proof.Proof.Kernel.RegionDat
import Idealize.ShloMosaic.Lib.Pipeline.Value

set_option maxRecDepth 16384

noncomputable section

namespace Cert.Proof.Kernel

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

/-! ## The body's branch conditions -/

/-- The first point of pass 0, -/
abbrev cA (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- a point of pass 0 but the last, -/
abbrev cB (i : grid1.Coords) : Prop :=
  Scalar.cmpi .ne (Scalar.extui (Scalar.andi (Scalar.cmpi .eq (BitVec.ofNat 32 (i 0).val) 0#32) (Scalar.cmpi .slt (BitVec.ofNat 32 (i 1).val) 32#32))) 0#32 = 1#1
/-- the last point of pass 0: as the body computes them. -/
abbrev cC (i : grid1.Coords) : Prop :=
  Scalar.cmpi .ne (Scalar.extui (Scalar.andi (Scalar.cmpi .eq (BitVec.ofNat 32 (i 0).val) 0#32) (Scalar.cmpi .eq (BitVec.ofNat 32 (i 1).val) 32#32))) 0#32 = 1#1

theorem hcA : ∀ t : Fin cfg1.N, cA (grid1.coords t) ↔ t.val = 0 :=
  (by decide +kernel : ∀ t : Fin grid1.N, cA (grid1.coords t) ↔ t.val = 0)
theorem hcB : ∀ t : Fin cfg1.N, cB (grid1.coords t) ↔ t.val < 32 :=
  (by decide +kernel : ∀ t : Fin grid1.N, cB (grid1.coords t) ↔ t.val < 32)
theorem hcC : ∀ t : Fin cfg1.N, cC (grid1.coords t) ↔ t.val = 32 :=
  (by decide +kernel : ∀ t : Fin grid1.N, cC (grid1.coords t) ↔ t.val = 32)
theorem hc4 : ∀ t : Fin cfg1.N, k1_cond4 (grid1.coords t) = 1#1 ↔ 33 ≤ t.val :=
  (by decide +kernel : ∀ t : Fin grid1.N, k1_cond4 (grid1.coords t) = 1#1 ↔ 33 ≤ t.val)
theorem hc5 : ∀ t : Fin cfg1.N, k1_cond5 (grid1.coords t) = 1#1 ↔ 2 ≤ t.val % 33 :=
  (by decide +kernel : ∀ t : Fin grid1.N, k1_cond5 (grid1.coords t) = 1#1 ↔ 2 ≤ t.val % 33)
theorem hc6 : ∀ t : Fin cfg1.N, k1_cond6 (grid1.coords t) = 1#1 ↔ t.val % 33 < 32 :=
  (by decide +kernel : ∀ t : Fin grid1.N, k1_cond6 (grid1.coords t) = 1#1 ↔ t.val % 33 < 32)
theorem hc7 : ∀ t : Fin cfg1.N, k1_cond7 (grid1.coords t) = 1#1 ↔ t.val % 33 = 32 :=
  (by decide +kernel : ∀ t : Fin grid1.N, k1_cond7 (grid1.coords t) = 1#1 ↔ t.val % 33 = 32)
theorem coords0 : ∀ t : Fin cfg1.N, ((grid1.coords t) 0).val = t.val / 33 :=
  (by decide +kernel : ∀ t : Fin grid1.N, ((grid1.coords t) 0).val = t.val / 33)
theorem coords1 : ∀ t : Fin cfg1.N, ((grid1.coords t) 1).val = t.val % 33 :=
  (by decide +kernel : ∀ t : Fin grid1.N, ((grid1.coords t) 1).val = t.val % 33)

/-! ## What the whole-buffer accesses read and leave -/

theorem zero2 : (![0, 0] : Fin 2 → ℕ) = fun _ => 0 := by funext a; fin_cases a <;> rfl

/-- A load through the whole-shape rectangle at zero offsets reads what the view reads. -/
theorem readAt_unit_zero {sig' : RefSig} {κ : Kind} {sp : Space} {S : Shape} {e : EltTy} (v : View sig' κ sp S e)
    {off : Fin S.rank → ℕ} (h : off = fun _ => 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

/-- A store through it, last, leaves its payload read back through the view. -/
theorem read_writes_unit_zero {sig' : RefSig} {κ : Kind} {sp : Space} {S : Shape} {e : EltTy} (v : View sig' κ sp S e)
    {off : Fin S.rank → ℕ} (h : off = fun _ => 0) (inb : ∀ a, off a + S.size a ≤ S.size a) (f : v.ty.Contents (Elt F))
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h]

/-- Of a whole buffer, the contents themselves. -/
theorem whole_readAt_unit_zero (b : Ref sig .tc) {off : Fin b.ty.shape.rank → ℕ} (h : off = fun _ => 0)
    (inb : ∀ a, off a + b.ty.shape.size a ≤ b.ty.shape.size a) (f : b.ty.Contents (Elt F)) :
    (Memref.whole b).view.readAt (Elt F) (Rect.unit off b.ty.shape.size inb).toLoadRect f = f :=
  readAt_unit_zero (Memref.whole b).view h inb f

theorem whole_writes_unit_zero (b : Ref sig .tc) {off : Fin b.ty.shape.rank → ℕ} (h : off = fun _ => 0)
    (inb : ∀ a, off a + b.ty.shape.size a ≤ b.ty.shape.size a) (f : b.ty.Contents (Elt F))
    (w : b.ty.shape.Idx → Elt F b.ty.elt) (L : List (View.Piece (Elt F) b.ty.shape b.ty.elt)) :
    (Memref.whole b).view.writes (Elt F) f ((⟨Rect.unit off b.ty.shape.size inb, w⟩ : View.Piece (Elt F) b.ty.shape b.ty.elt) :: L) = w :=
  read_writes_unit_zero (Memref.whole b).view h inb f w L

/-! ## The body obligation, point by point -/

section Points

variable (c : Dev nD) (A : Arrs (F := F) c) (Rec : Set (SemLoc sig × HIx 1)) (I : RegionInv c A)

/-- What the body is called with at point `t` (the library's obligation, the windows one by one), -/
def bodyPre (t : Fin cfg1.N) : sProp 𝕄 :=
  iprop((pdat c A Rec I).Φ t.castSucc ∗ (pdat c A Rec I).owesAt (none : HIx 1) t.castSucc
    ∗ (∃ d, owns (c : Thread nD τ) (st1_0 t) fullShare ((pdat c A Rec I).before 0 t d))
    ∗ (∃ d, owns (c : Thread nD τ) (st1_1 t) fullShare ((pdat c A Rec I).before 1 t d))
    ∗ (∃ d, owns (c : Thread nD τ) (st1_2 t) fullShare ((pdat c A Rec I).before 2 t d))
    ∗ (∃ d, owns (c : Thread nD τ) (st1_3 t) fullShare ((pdat c A Rec I).before 3 t d))
    ∗ (∃ d, owns (c : Thread nD τ) (st1_4 t) fullShare ((pdat c A Rec I).before 4 t d))
    ∗ (∃ d, owns (c : Thread nD τ) (st1_5 t) fullShare ((pdat c A Rec I).before 5 t d)))

/-- and what it returns: the whole-array windows' buffers as found, the two clipped windows' on the part their
    fetches fill. -/
def bodyPost (t : Fin cfg1.N) : sProp 𝕄 :=
  iprop((pdat c A Rec I).Φ t.succ ∗ (pdat c A Rec I).owesAt (none : HIx 1) t.succ
    ∗ owns (c : Thread nD τ) (st1_0 t) fullShare ((pdat c A Rec I).after 0 t)
    ∗ owns (c : Thread nD τ) (st1_1 t) fullShare ((pdat c A Rec I).after 1 t)
    ∗ owns (c : Thread nD τ) (st1_2 t) fullShare ((pdat c A Rec I).after 2 t)
    ∗ owns (c : Thread nD τ) (st1_3 t) fullShare ((pdat c A Rec I).after 3 t)
    ∗ (∃ d, owns (c : Thread nD τ) (st1_4 t) fullShare ((cfg1.win 4).fill (cfg1.grid.coords t) d ((cfg1.win 4).cut (cfg1.grid.coords t) ((pdat c A Rec I).after 4 t))))
    ∗ (∃ d, owns (c : Thread nD τ) (st1_5 t) fullShare ((cfg1.win 5).fill (cfg1.grid.coords t) d ((cfg1.win 5).cut (cfg1.grid.coords t) ((pdat c A Rec I).after 5 t)))))

/-- The obligation at point `t`. -/
def PointObl (t : Fin cfg1.N) : Prop :=
  bodyPre c A Rec I t ⊢ wp frame (wpE (defs₀ (F := F)) 𝒱₀ (c : Thread nD τ) none) Set.univ (bodyAt1 t) (fun _ => bodyPost c A Rec I t)

/-- The library's body obligation from the points'. -/
theorem hbody_of (h : ∀ t, PointObl c A Rec I t) :
    BodyObligationLoose (pdat c A Rec I) (defs₀ (F := F)) 𝒱₀ (none : HIx 1) Set.univ := fun t => by
  rw [bigSep_W1, bigSep_W1]
  exact h t

/-- A whole-array window's staging buffer holds its block whatever it held before the fetch. -/
theorem stg_indep (w : Fin cfg1.W) (hw : ∀ i a, (cfg1.win w).clip i a = none) (t : Fin cfg1.N) (d d') :
    stg c A w t d = stg c A w t d' :=
  (pdat c A Set.univ (RegionInv.trivial c A)).fetched_of_clip_none w t (fun a => hw _ a) d d'

/-- A clipped window's block, filled out and cut back, is the block. -/
theorem fill_cut_after (w : Fin cfg1.W) (t : Fin cfg1.N) (d) :
    (cfg1.win w).fill (cfg1.grid.coords t) d ((cfg1.win w).cut (cfg1.grid.coords t) ((pdat c A Rec I).after w t)) = stg c A w t d := by
  show (cfg1.win w).fill (cfg1.grid.coords t) d ((cfg1.win w).cut (cfg1.grid.coords t) (stg c A w t fun _ => default)) = _
  unfold stg; rw [(cfg1.win w).cut_fill]

/-- The same, of the buffer. -/
theorem owns_fill_cut (w : Fin cfg1.W) (t : Fin cfg1.N) (d) (m : Memref sig .tc .vmem (cfg1.win w).block (cfg1.win w).elt) :
    owns (c : Thread nD τ) m fullShare (stg c A w t d)
      ⊢ (owns (c : Thread nD τ) m fullShare ((cfg1.win w).fill (cfg1.grid.coords t) d ((cfg1.win w).cut (cfg1.grid.coords t) ((pdat c A Rec I).after w t))) : sProp 𝕄) := by
  rw [fill_cut_after]

/-- A whole-array window's buffer at its block is at what the proof data names. -/
theorem owns_after (w : Fin cfg1.W) (hw : ∀ i a, (cfg1.win w).clip i a = none) (t : Fin cfg1.N) (d) (m : Memref sig .tc .vmem (cfg1.win w).block (cfg1.win w).elt) :
    owns (c : Thread nD τ) m fullShare (stg c A w t d) ⊢ (owns (c : Thread nD τ) m fullShare ((pdat c A Rec I).after w t) : sProp 𝕄) := by
  rw [show (pdat c A Rec I).after w t = stg c A w t (fun _ => default) from rfl, stg_indep c A w hw t (fun _ => default) d]

end Points

end Cert.Proof.Kernel

end
-- ==== Proof.Kernel.RegionBody0.lean ====
/-
  The TensorCore region's body at the points of pass 0: the first point fills the hidden activations and zeroes
  the running sum; every point but the last adds its block to the running sum; the last takes the logarithm. No
  copy is started or waited for: the result, the ring and the semaphores pass through untouched.
-/
import proofs.«204087_g3891240370374_cont_8to1_b_1678_29_alg».proof.Proof.Kernel.RegionPoint

set_option maxRecDepth 16384

noncomputable section

namespace Cert.Proof.Kernel

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

/-! ## The body's runs in pass 0, on any staging memrefs -/

set_option maxHeartbeats 1000000 in
/-- A point of pass 0 but the first and the last: the running sum takes the block. -/
theorem run0_mid (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S128x64 .f32) (harg4 : arg4.IsWhole) (arg5 : Memref sig .tc .vmem S128x1 .f32) (harg5 : arg5.IsWhole) (arg6 : Memref sig .tc .vmem S3072x128 .f32) (harg6 : arg6.IsWhole) (arg7 : Memref sig .tc .vmem S1x3072 .f32) (harg7 : arg7.IsWhole)
    (hA : ¬cA i) (hB : cB i) (hC : ¬cC i) (h4 : ¬k1_cond4 i = 1#1)
    (X4 : Vec F S3072x128 .f32) (X5 : Vec F S1x3072 .f32) (ht : Vec F S128x1024 .bf16) (s : Vec F S1x1024 .f32)
    (K : PUnit → sProp 𝕄) :
    iprop(owns (c : Thread nD τ) arg6 fullShare X4 ∗ owns (c : Thread nD τ) arg7 fullShare X5
        ∗ ((Memref.whole cc1_scratch0).view.loc (c : Thread nD τ) ↦{fullShare} ht)
        ∗ ((Memref.whole cc1_scratch1).view.loc (c : Thread nD τ) ↦{fullShare} s)
        ∗ (iprop(owns (c : Thread nD τ) arg6 fullShare X4 ∗ owns (c : Thread nD τ) arg7 fullShare X5
            ∗ ((Memref.whole cc1_scratch0).view.loc (c : Thread nD τ) ↦{fullShare} ht)
            ∗ (∃ Y, ⌜Y = k1_pay4 X4 ht X5 s⌝ ∗ ((Memref.whole cc1_scratch1).view.loc (c : Thread nD τ) ↦{fullShare} Y))) -∗ K ⟨⟩))
      ⊢ wp frame (wpE (defs₀ (F := F)) 𝒱₀ (c : Thread nD τ) none) Set.univ
          (cc1__fused_body i arg2 harg2 arg3 harg3 arg4 harg4 arg5 harg5 arg6 harg6 arg7 harg7 (Memref.whole main_v9) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4) K := by
  rw [cc1__fused_body_eq_skeleton]; unfold cc1__fused_body_skel
  unfold owns
  iintro ⟨⟨%f4, %hf4, H4⟩, ⟨%f5, %hf5, H5⟩, H9, H10, Hk⟩
  obtain rfl := harg6.eq_unread hf4
  obtain rfl := harg7.eq_unread hf5
  sl_exec (disch := first | exact hA | exact hB | exact hC | exact h4)
  sl_step
  iapply Hk
  isplitl [H4]
  · iexists _; isplitr; · ipureintro; exact hf4
    iexact H4
  isplitl [H5]
  · iexists _; isplitr; · ipureintro; exact hf5
    iexact H5
  isplitl [H9]; · iexact H9
  iexists _; isplitr; swap; · iexact H10
  ipureintro
  refine (whole_writes_unit_zero cc1_scratch1 zero2 _ _ _ []).trans ?_
  congr 1
  · exact (readAt_unit_zero _ zero2 _ _).trans hf4
  · exact whole_readAt_unit_zero cc1_scratch0 zero2 _ _
  · exact (readAt_unit_zero _ zero2 _ _).trans hf5
  · exact whole_readAt_unit_zero cc1_scratch1 zero2 _ _

set_option maxHeartbeats 1000000 in
/-- The last point of pass 0: the logarithm of the running sum with the last block is stored. -/
theorem run0_last (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S128x64 .f32) (harg4 : arg4.IsWhole) (arg5 : Memref sig .tc .vmem S128x1 .f32) (harg5 : arg5.IsWhole) (arg6 : Memref sig .tc .vmem S3072x128 .f32) (harg6 : arg6.IsWhole) (arg7 : Memref sig .tc .vmem S1x3072 .f32) (harg7 : arg7.IsWhole)
    (hA : ¬cA i) (hB : ¬cB i) (hC : cC i) (h4 : ¬k1_cond4 i = 1#1)
    (X4 : Vec F S3072x128 .f32) (X5 : Vec F S1x3072 .f32) (ht : Vec F S128x1024 .bf16) (s : Vec F S1x1024 .f32) (l0 : Vec F S1x1024 .f32)
    (K : PUnit → sProp 𝕄) :
    iprop(owns (c : Thread nD τ) arg6 fullShare X4 ∗ owns (c : Thread nD τ) arg7 fullShare X5
        ∗ ((Memref.whole cc1_scratch0).view.loc (c : Thread nD τ) ↦{fullShare} ht)
        ∗ ((Memref.whole cc1_scratch1).view.loc (c : Thread nD τ) ↦{fullShare} s)
        ∗ ((Memref.whole cc1_scratch2).view.loc (c : Thread nD τ) ↦{fullShare} l0)
        ∗ (iprop(owns (c : Thread nD τ) arg6 fullShare X4 ∗ owns (c : Thread nD τ) arg7 fullShare X5
            ∗ ((Memref.whole cc1_scratch0).view.loc (c : Thread nD τ) ↦{fullShare} ht)
            ∗ ((Memref.whole cc1_scratch1).view.loc (c : Thread nD τ) ↦{fullShare} s)
            ∗ (∃ Y, ⌜Y = k1_pay5 X4 ht X5 s⌝ ∗ ((Memref.whole cc1_scratch2).view.loc (c : Thread nD τ) ↦{fullShare} Y))) -∗ K ⟨⟩))
      ⊢ wp frame (wpE (defs₀ (F := F)) 𝒱₀ (c : Thread nD τ) none) Set.univ
          (cc1__fused_body i arg2 harg2 arg3 harg3 arg4 harg4 arg5 harg5 arg6 harg6 arg7 harg7 (Memref.whole main_v9) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4) K := by
  rw [cc1__fused_body_eq_skeleton]; unfold cc1__fused_body_skel
  unfold owns
  iintro ⟨⟨%f4, %hf4, H4⟩, ⟨%f5, %hf5, H5⟩, H9, H10, H11, Hk⟩
  obtain rfl := harg6.eq_unread hf4
  obtain rfl := harg7.eq_unread hf5
  sl_exec (disch := first | exact hA | exact hB | exact hC | exact h4)
  sl_step
  iapply Hk
  isplitl [H4]
  · iexists _; isplitr; · ipureintro; exact hf4
    iexact H4
  isplitl [H5]
  · iexists _; isplitr; · ipureintro; exact hf5
    iexact H5
  isplitl [H9]; · iexact H9
  isplitl [H10]; · iexact H10
  iexists _; isplitr; swap; · iexact H11
  ipureintro
  refine (whole_writes_unit_zero cc1_scratch2 zero2 _ _ _ []).trans ?_
  congr 1
  · exact (readAt_unit_zero _ zero2 _ _).trans hf4
  · exact whole_readAt_unit_zero cc1_scratch0 zero2 _ _
  · exact (readAt_unit_zero _ zero2 _ _).trans hf5
  · exact whole_readAt_unit_zero cc1_scratch1 zero2 _ _

set_option maxHeartbeats 2000000 in
/-- The first point: the hidden activations are computed from the four whole-array windows and stored, the running
    sum is zeroed, then takes the first block. -/
theorem run0_first (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S128x64 .f32) (harg4 : arg4.IsWhole) (arg5 : Memref sig .tc .vmem S128x1 .f32) (harg5 : arg5.IsWhole) (arg6 : Memref sig .tc .vmem S3072x128 .f32) (harg6 : arg6.IsWhole) (arg7 : Memref sig .tc .vmem S1x3072 .f32) (harg7 : arg7.IsWhole)
    (hA : cA i) (hB : cB i) (hC : ¬cC i) (h4 : ¬k1_cond4 i = 1#1)
    (X0 : Vec F S1024x128 .f32) (X1 : Vec F S1024x1 .i32) (X2 : Vec F S128x64 .f32) (X3 : Vec F S128x1 .f32)
    (X4 : Vec F S3072x128 .f32) (X5 : Vec F S1x3072 .f32) (h0 : Vec F S128x1024 .bf16) (s0 : Vec F S1x1024 .f32)
    (K : PUnit → sProp 𝕄) :
    iprop(owns (c : Thread nD τ) arg2 fullShare X0 ∗ owns (c : Thread nD τ) arg3 fullShare X1
        ∗ owns (c : Thread nD τ) arg4 fullShare X2 ∗ owns (c : Thread nD τ) arg5 fullShare X3
        ∗ owns (c : Thread nD τ) arg6 fullShare X4 ∗ owns (c : Thread nD τ) arg7 fullShare X5
        ∗ ((Memref.whole cc1_scratch0).view.loc (c : Thread nD τ) ↦{fullShare} h0)
        ∗ ((Memref.whole cc1_scratch1).view.loc (c : Thread nD τ) ↦{fullShare} s0)
        ∗ (iprop(owns (c : Thread nD τ) arg2 fullShare X0 ∗ owns (c : Thread nD τ) arg3 fullShare X1
            ∗ owns (c : Thread nD τ) arg4 fullShare X2 ∗ owns (c : Thread nD τ) arg5 fullShare X3
            ∗ owns (c : Thread nD τ) arg6 fullShare X4 ∗ owns (c : Thread nD τ) arg7 fullShare X5
            ∗ (∃ Y, ⌜Y = k1_pay1 X0 X1 X2 X3⌝ ∗ ((Memref.whole cc1_scratch0).view.loc (c : Thread nD τ) ↦{fullShare} Y))
            ∗ (∃ Y, ⌜Y = k1_pay4 X4 (k1_pay1 X0 X1 X2 X3) X5 (k1_pay2 (F := F))⌝ ∗ ((Memref.whole cc1_scratch1).view.loc (c : Thread nD τ) ↦{fullShare} Y))) -∗ K ⟨⟩))
      ⊢ wp frame (wpE (defs₀ (F := F)) 𝒱₀ (c : Thread nD τ) none) Set.univ
          (cc1__fused_body i arg2 harg2 arg3 harg3 arg4 harg4 arg5 harg5 arg6 harg6 arg7 harg7 (Memref.whole main_v9) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4) K := by
  rw [cc1__fused_body_eq_skeleton]; unfold cc1__fused_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, H9, H10, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  sl_exec (disch := first | exact hA | exact hB | exact hC | exact h4)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H9]
  · iexists _; isplitr; swap; · iexact H9
    ipureintro
    unfold run0_first.sl.H9_1
    refine (whole_writes_unit_zero cc1_scratch0 zero2 _ _ _ []).trans ?_
    congr 1
    · exact (readAt_unit_zero _ zero2 _ _).trans hf0
    · exact (readAt_unit_zero _ zero2 _ _).trans hf1
    · exact (readAt_unit_zero _ zero2 _ _).trans hf2
    · exact (readAt_unit_zero _ zero2 _ _).trans hf3
  iexists _; isplitr; swap; · iexact H10
  ipureintro
  refine (whole_writes_unit_zero cc1_scratch1 zero2 _ _ _ _).trans ?_
  congr 1
  · exact (readAt_unit_zero _ zero2 _ _).trans hf4
  · unfold run0_first.sl.v7 run0_first.sl.H9_1
    refine (View.readCov_unit_zero (Memref.whole cc1_scratch0).view zero2 _ _).trans ?_
    congr 1
    · exact (readAt_unit_zero _ zero2 _ _).trans hf0
    · exact (readAt_unit_zero _ zero2 _ _).trans hf1
    · exact (readAt_unit_zero _ zero2 _ _).trans hf2
    · exact (readAt_unit_zero _ zero2 _ _).trans hf3
  · exact (readAt_unit_zero _ zero2 _ _).trans hf5
  · unfold run0_first.sl.v27 run0_first.sl.H10_1
    exact View.readCov_unit_zero (Memref.whole cc1_scratch1).view zero2 _ _

/-! ## The obligation at the points of pass 0 -/

section Points0

variable (c : Dev nD) (A : Arrs (F := F) c) (Rec : Set (SemLoc sig × HIx 1)) (I : RegionInv c A)

set_option maxHeartbeats 1000000 in
theorem point0_mid (t : Fin cfg1.N) (h0 : 0 < t.val) (h32 : t.val < 32) : PointObl c A Rec I t := by
  unfold PointObl bodyPre bodyPost bodyAt1
  simp only [before_eq]
  rw [show (pdat c A Rec I).Φ t.castSucc = Φ c A I t.val from rfl, show (pdat c A Rec I).Φ t.succ = Φ c A I (t.val + 1) from rfl,
    show (pdat c A Rec I).owesAt (none : HIx 1) t.succ = (pdat c A Rec I).owesAt (none : HIx 1) t.castSucc from rfl]
  unfold Φ scr
  rw [if_pos (by omega : t.val ≤ 33), if_pos (by omega : t.val + 1 ≤ 33)]
  iintro ⟨⟨⟨⟨%hv, H9, %hhv⟩, ⟨%s, H10, %hs⟩, ⟨%l, H11, -⟩⟩, Hidle⟩, Ho, ⟨%d0, H0⟩, ⟨%d1, H1⟩, ⟨%d2, H2⟩, ⟨%d3, H3⟩, ⟨%d4, H4⟩, ⟨%d5, H5⟩⟩
  iapply (run0_mid c (grid1.coords t) _ _ _ _ _ _ _ _ _ _ _ _ (fun hc => by have := (hcA t).mp hc; omega) ((hcB t).mpr h32)
    (fun hc => by have := (hcC t).mp hc; omega) (fun hc => by have := (hc4 t).mp hc; omega) (stg c A 4 t d4) (stg c A 5 t d5) hv s _)
  isplitl [H4]; · iexact H4
  isplitl [H5]; · iexact H5
  isplitl [H9]; · iexact H9
  isplitl [H10]; · iexact H10
  iintro ⟨H4, H5, H9, ⟨%Y, %hY, H10⟩⟩
  isplitl [H9 H10 H11 Hidle]
  · isplitr [Hidle]
    · isplitl [H9]
      · iexists hv; isplitl [H9]; · iexact H9
        ipureintro; intro _; exact hhv (by omega)
      isplitl [H10]
      · iexists Y; isplitl [H10]; · iexact H10
        ipureintro; intro _
        have hs' := hs (by omega)
        rw [min_eq_left (by omega : t.val ≤ 32)] at hs'
        rw [min_eq_left (by omega : t.val + 1 ≤ 32), hY]
        exact I.hS t h32 d4 d5 hv s (hhv (by omega)) hs'
      · iexists l; isplitl [H11]; · iexact H11
        ipureintro; intro hc; omega
    · iexact Hidle
  isplitl [Ho]; · iexact Ho
  isplitl [H0]; · iapply (owns_after c A Rec I 0 (fun _ _ => rfl) t d0 _) $$ H0
  isplitl [H1]; · iapply (owns_after c A Rec I 1 (fun _ _ => rfl) t d1 _) $$ H1
  isplitl [H2]; · iapply (owns_after c A Rec I 2 (fun _ _ => rfl) t d2 _) $$ H2
  isplitl [H3]; · iapply (owns_after c A Rec I 3 (fun _ _ => rfl) t d3 _) $$ H3
  isplitl [H4]; · iexists d4; iapply (owns_fill_cut c A Rec I 4 t d4 _) $$ H4
  iexists d5; iapply (owns_fill_cut c A Rec I 5 t d5 _) $$ H5

set_option maxHeartbeats 1000000 in
theorem point0_first (t : Fin cfg1.N) (h0 : t.val = 0) : PointObl c A Rec I t := by
  unfold PointObl bodyPre bodyPost bodyAt1
  simp only [before_eq]
  rw [show (pdat c A Rec I).Φ t.castSucc = Φ c A I t.val from rfl, show (pdat c A Rec I).Φ t.succ = Φ c A I (t.val + 1) from rfl,
    show (pdat c A Rec I).owesAt (none : HIx 1) t.succ = (pdat c A Rec I).owesAt (none : HIx 1) t.castSucc from rfl]
  unfold Φ scr
  rw [if_pos (by omega : t.val ≤ 33), if_pos (by omega : t.val + 1 ≤ 33)]
  iintro ⟨⟨⟨⟨%hv, H9, -⟩, ⟨%s, H10, -⟩, ⟨%l, H11, -⟩⟩, Hidle⟩, Ho, ⟨%d0, H0⟩, ⟨%d1, H1⟩, ⟨%d2, H2⟩, ⟨%d3, H3⟩, ⟨%d4, H4⟩, ⟨%d5, H5⟩⟩
  iapply (run0_first c (grid1.coords t) _ _ _ _ _ _ _ _ _ _ _ _ ((hcA t).mpr h0) ((hcB t).mpr (by omega))
    (fun hc => by have := (hcC t).mp hc; omega) (fun hc => by have := (hc4 t).mp hc; omega)
    (stg c A 0 t d0) (stg c A 1 t d1) (stg c A 2 t d2) (stg c A 3 t d3) (stg c A 4 t d4) (stg c A 5 t d5) hv s _)
  isplitl [H0]; · iexact H0
  isplitl [H1]; · iexact H1
  isplitl [H2]; · iexact H2
  isplitl [H3]; · iexact H3
  isplitl [H4]; · iexact H4
  isplitl [H5]; · iexact H5
  isplitl [H9]; · iexact H9
  isplitl [H10]; · iexact H10
  iintro ⟨H0, H1, H2, H3, H4, H5, ⟨%Y0, %hY0, H9⟩, ⟨%Y1, %hY1, H10⟩⟩
  isplitl [H9 H10 H11 Hidle]
  · isplitr [Hidle]
    · isplitl [H9]
      · iexists Y0; isplitl [H9]; · iexact H9
        ipureintro; intro _; rw [hY0]; exact I.hHT t h0 d0 d1 d2 d3
      isplitl [H10]
      · iexists Y1; isplitl [H10]; · iexact H10
        ipureintro; intro _
        rw [min_eq_left (by omega : t.val + 1 ≤ 32), hY1]
        refine I.hS t (by omega) d4 d5 _ _ (I.hHT t h0 d0 d1 d2 d3) ?_
        rw [h0]; exact I.hS0
      · iexists l; isplitl [H11]; · iexact H11
        ipureintro; intro hc; omega
    · iexact Hidle
  isplitl [Ho]; · iexact Ho
  isplitl [H0]; · iapply (owns_after c A Rec I 0 (fun _ _ => rfl) t d0 _) $$ H0
  isplitl [H1]; · iapply (owns_after c A Rec I 1 (fun _ _ => rfl) t d1 _) $$ H1
  isplitl [H2]; · iapply (owns_after c A Rec I 2 (fun _ _ => rfl) t d2 _) $$ H2
  isplitl [H3]; · iapply (owns_after c A Rec I 3 (fun _ _ => rfl) t d3 _) $$ H3
  isplitl [H4]; · iexists d4; iapply (owns_fill_cut c A Rec I 4 t d4 _) $$ H4
  iexists d5; iapply (owns_fill_cut c A Rec I 5 t d5 _) $$ H5

set_option maxHeartbeats 1000000 in
theorem point0_last (t : Fin cfg1.N) (h32 : t.val = 32) : PointObl c A Rec I t := by
  unfold PointObl bodyPre bodyPost bodyAt1
  simp only [before_eq]
  rw [show (pdat c A Rec I).Φ t.castSucc = Φ c A I t.val from rfl, show (pdat c A Rec I).Φ t.succ = Φ c A I (t.val + 1) from rfl,
    show (pdat c A Rec I).owesAt (none : HIx 1) t.succ = (pdat c A Rec I).owesAt (none : HIx 1) t.castSucc from rfl]
  unfold Φ scr
  rw [if_pos (by omega : t.val ≤ 33), if_pos (by omega : t.val + 1 ≤ 33)]
  iintro ⟨⟨⟨⟨%hv, H9, %hhv⟩, ⟨%s, H10, %hs⟩, ⟨%l, H11, -⟩⟩, Hidle⟩, Ho, ⟨%d0, H0⟩, ⟨%d1, H1⟩, ⟨%d2, H2⟩, ⟨%d3, H3⟩, ⟨%d4, H4⟩, ⟨%d5, H5⟩⟩
  iapply (run0_last c (grid1.coords t) _ _ _ _ _ _ _ _ _ _ _ _ (fun hc => by have := (hcA t).mp hc; omega) (fun hc => by have := (hcB t).mp hc; omega)
    ((hcC t).mpr h32) (fun hc => by have := (hc4 t).mp hc; omega) (stg c A 4 t d4) (stg c A 5 t d5) hv s l _)
  isplitl [H4]; · iexact H4
  isplitl [H5]; · iexact H5
  isplitl [H9]; · iexact H9
  isplitl [H10]; · iexact H10
  isplitl [H11]; · iexact H11
  iintro ⟨H4, H5, H9, H10, ⟨%Y, %hY, H11⟩⟩
  have hs' := hs (by omega)
  rw [h32] at hs'
  isplitl [H9 H10 H11 Hidle]
  · isplitr [Hidle]
    · isplitl [H9]
      · iexists hv; isplitl [H9]; · iexact H9
        ipureintro; intro _; exact hhv (by omega)
      isplitl [H10]
      · iexists s; isplitl [H10]; · iexact H10
        ipureintro; intro _
        rw [h32]; exact hs'
      · iexists Y; isplitl [H11]; · iexact H11
        ipureintro; intro _; rw [hY]
        exact I.hLSE t h32 d4 d5 hv s (hhv (by omega)) hs'
    · iexact Hidle
  isplitl [Ho]; · iexact Ho
  isplitl [H0]; · iapply (owns_after c A Rec I 0 (fun _ _ => rfl) t d0 _) $$ H0
  isplitl [H1]; · iapply (owns_after c A Rec I 1 (fun _ _ => rfl) t d1 _) $$ H1
  isplitl [H2]; · iapply (owns_after c A Rec I 2 (fun _ _ => rfl) t d2 _) $$ H2
  isplitl [H3]; · iapply (owns_after c A Rec I 3 (fun _ _ => rfl) t d3 _) $$ H3
  isplitl [H4]; · iexists d4; iapply (owns_fill_cut c A Rec I 4 t d4 _) $$ H4
  iexists d5; iapply (owns_fill_cut c A Rec I 5 t d5 _) $$ H5

end Points0

end Cert.Proof.Kernel

end
-- ==== Proof.Kernel.RegionSets.lean ====
/-
  The geometry of the region's copies: the result's rows and the ring's slots cut into the chunks the copies move,
  and what that makes of the points-tos (a range of rows held whole is held chunk by chunk, and back).
-/
import proofs.«204087_g3891240370374_cont_8to1_b_1678_29_alg».proof.Proof.Kernel.RegionDat

set_option maxRecDepth 16384

noncomputable section

namespace Cert.Proof.Kernel

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

/-! ## Rows of the result -/

theorem mem_rowRange {a b : ℕ} {x : S100000x1024.Idx} : x ∈ rowRange a b ↔ a ≤ (x 0).val ∧ (x 0).val < b := by
  unfold rowRange; simp

theorem rowRange_union {a b c : ℕ} (h1 : a ≤ b) (h2 : b ≤ c) : rowRange a c = rowRange a b ∪ rowRange b c := by
  ext x; simp only [mem_rowRange, Finset.mem_union]; omega

theorem rowRange_disjoint {a b c d : ℕ} (h : b ≤ c) : Disjoint (rowRange a b) (rowRange c d) := by
  rw [Finset.disjoint_left]; intro x h1 h2; rw [mem_rowRange] at h1 h2; omega

theorem rowRange_univ : rowRange 0 100000 = Finset.univ := by
  ext x; simp only [mem_rowRange, Finset.mem_univ, iff_true]
  exact ⟨Nat.zero_le _, (show (x 0).val < 100000 from (x 0).isLt)⟩

theorem rowRange_self (a : ℕ) : rowRange a a = ∅ := by
  ext x; simp only [mem_rowRange, Finset.notMem_empty, iff_false]; omega

theorem rowRange_subset {a b c d : ℕ} (h1 : c ≤ a) (h2 : b ≤ d) : rowRange a b ⊆ rowRange c d := by
  intro x; simp only [mem_rowRange]; omega

/-- The rows a unit rectangle of full width covers. -/
theorem rows_set (a n : ℕ) (size : Fin 2 → ℕ) (h0 : size 0 = n) (h1 : size 1 = 1024)
    (inb : ∀ k, (![a, 0] : Fin 2 → ℕ) k + size k ≤ S100000x1024.size k) :
    (Rect.unit (s := S100000x1024) ![a, 0] size inb).set = rowRange a (a + n) := by
  ext x
  rw [Rect.mem_set_unit, mem_rowRange]
  constructor
  · intro h; have := h 0; rw [h0] at this; exact this
  · intro h k; fin_cases k
    · show a ≤ (x 0).val ∧ (x 0).val < a + size 0; rw [h0]; exact h
    · show 0 ≤ (x 1).val ∧ (x 1).val < 0 + size 1; rw [h1]; exact ⟨Nat.zero_le _, by have := (show (x 1).val < 1024 from (x 1).isLt); omega⟩

theorem mainChunk_set (b : Fin 32) (r : Fin 8) :
    (mainChunk b r).view.set = rowRange (3072 * b.val + 384 * r.val) (3072 * b.val + 384 * r.val + 384) := by
  exact (View.set_slice_whole main_v9 _).trans (rows_set _ 384 _ rfl rfl _)

theorem mainTail_set (r : Fin 4) :
    (mainTail r).view.set = rowRange (98304 + 424 * r.val) (98304 + 424 * r.val + 424) := by
  exact (View.set_slice_whole main_v9 _).trans (rows_set _ 424 _ rfl rfl _)

/-! ## Rows of the ring's slots -/

/-- Rows `[a, b)` of the ring's slot `s`. -/
def ringRange (s a b : ℕ) : Finset S2x3072x1024.Idx := Finset.univ.filter fun x => (x 0).val = s ∧ a ≤ (x 1).val ∧ (x 1).val < b

theorem mem_ringRange {s a b : ℕ} {x : S2x3072x1024.Idx} : x ∈ ringRange s a b ↔ (x 0).val = s ∧ a ≤ (x 1).val ∧ (x 1).val < b := by
  unfold ringRange; simp

theorem ringRange_disjoint {s s' a b c d : ℕ} (h : s ≠ s' ∨ b ≤ c) : Disjoint (ringRange s a b) (ringRange s' c d) := by
  rw [Finset.disjoint_left]; intro x h1 h2; rw [mem_ringRange] at h1 h2; omega

theorem ring_rows_set (s a n : ℕ) (size : Fin 3 → ℕ) (h0 : size 0 = 1) (h1 : size 1 = n) (h2 : size 2 = 1024)
    (inb : ∀ k, (![s, a, 0] : Fin 3 → ℕ) k + size k ≤ S2x3072x1024.size k) :
    (Rect.unit (s := S2x3072x1024) ![s, a, 0] size inb).set = ringRange s a (a + n) := by
  ext x
  rw [Rect.mem_set_unit, mem_ringRange]
  constructor
  · intro h; have e0 := h 0; have e1 := h 1; rw [h0] at e0; rw [h1] at e1
    have e0' : s ≤ (x 0).val ∧ (x 0).val < s + 1 := e0
    have e1' : a ≤ (x 1).val ∧ (x 1).val < a + n := e1
    omega
  · intro h k; fin_cases k
    · show s ≤ (x 0).val ∧ (x 0).val < s + size 0; rw [h0]; omega
    · show a ≤ (x 1).val ∧ (x 1).val < a + size 1; rw [h1]; omega
    · show 0 ≤ (x 2).val ∧ (x 2).val < 0 + size 2; rw [h2]; exact ⟨Nat.zero_le _, by have := (show (x 2).val < 1024 from (x 2).isLt); omega⟩

theorem ringChunk_set (s : Fin 2) (r : Fin 8) : (ringChunk s r).view.set = ringRange s.val (384 * r.val) (384 * r.val + 384) := by
  exact (View.set_reshape (v := (View.whole cc1_scratch3).slice _) _).trans ((View.set_slice_whole cc1_scratch3 _).trans (ring_rows_set _ _ 384 _ rfl rfl rfl _))

theorem ringTail_set (s : Fin 2) (r : Fin 4) : (ringTail s r).view.set = ringRange s.val (424 * r.val) (424 * r.val + 424) := by
  exact (View.set_reshape (v := (View.whole cc1_scratch3).slice _) _).trans ((View.set_slice_whole cc1_scratch3 _).trans (ring_rows_set _ _ 424 _ rfl rfl rfl _))

theorem ringSlot_set (s : Fin 2) : (ringSlot s).view.set = ringRange s.val 0 3072 := by
  exact (View.set_slice_whole cc1_scratch3 _).trans (ring_rows_set _ _ 3072 _ rfl rfl rfl _)

/-! ## Points-tos along the cuts -/

theorem bigSep_F8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

theorem bigSep_F16 {M : Type} [URA M] (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), 1, 2, 3, 4, 5, 6, 7, 8, 9, 10, 11, 12, 13, 14, 15] (by decide) (by decide) Φ

section Pts

variable (c : Dev nD)

/-- Rows `[a, d)` of the result held at one contents are rows `[a, b)` and rows `[b, d)` held at them. -/
theorem rows_split {a b d : ℕ} (h1 : a ≤ b) (h2 : b ≤ d) (f : Buf (Elt F) (mainM.view.loc (c : Thread nD τ))) :
    (mainM.view.loc (c : Thread nD τ) ↦[rowRange a d]{fullShare} f : sProp 𝕄)
      ⊣⊢ iprop((mainM.view.loc (c : Thread nD τ) ↦[rowRange a b]{fullShare} f) ∗ (mainM.view.loc (c : Thread nD τ) ↦[rowRange b d]{fullShare} f)) := by
  rw [rowRange_union h1 h2]; exact pointsTo_union (rowRange_disjoint (le_refl b))

/-- Rows `[a, b)` and rows `[b, d)` held at contents of their own are rows `[a, d)` held at contents agreeing with
    each on its rows. -/
theorem rows_join {a b d : ℕ} (h1 : a ≤ b) (h2 : b ≤ d) (f g : Buf (Elt F) (mainM.view.loc (c : Thread nD τ))) :
    iprop((mainM.view.loc (c : Thread nD τ) ↦[rowRange a b]{fullShare} f) ∗ (mainM.view.loc (c : Thread nD τ) ↦[rowRange b d]{fullShare} g))
      ⊢ (iprop(∃ h : Buf (Elt F) (mainM.view.loc (c : Thread nD τ)),
          ⌜(∀ x ∈ rowRange a b, h x = f x) ∧ (∀ x ∈ rowRange b d, h x = g x)⌝ ∗ (mainM.view.loc (c : Thread nD τ) ↦[rowRange a d]{fullShare} h)) : sProp 𝕄) := by
  have hd : Disjoint (rowRange a b) (rowRange b d) := rowRange_disjoint (le_refl b)
  iintro ⟨Hf, Hg⟩
  iexists (rowRange b d).piecewise g f
  isplitr
  · ipureintro
    refine ⟨fun x hx => ?_, fun x hx => ?_⟩
    · exact Finset.piecewise_eq_of_notMem _ _ _ (Finset.disjoint_left.mp hd hx)
    · exact Finset.piecewise_eq_of_mem _ _ _ hx
  · rw [rowRange_union h1 h2]
    iapply (pointsTo_join hd)
    isplitl [Hf]; · iexact Hf
    iexact Hg

/-- The same of the ring's slot `s`. -/
def ringSet (s a b : ℕ) : Finset S2x3072x1024.Idx := ringRange s a b

theorem ringRange_union {s a b d : ℕ} (h1 : a ≤ b) (h2 : b ≤ d) : ringRange s a d = ringRange s a b ∪ ringRange s b d := by
  ext x; simp only [mem_ringRange, Finset.mem_union]; omega

theorem ring_split {s a b d : ℕ} (h1 : a ≤ b) (h2 : b ≤ d) (f : Buf (Elt F) (ringM.view.loc (c : Thread nD τ))) :
    (ringM.view.loc (c : Thread nD τ) ↦[ringRange s a d]{fullShare} f : sProp 𝕄)
      ⊣⊢ iprop((ringM.view.loc (c : Thread nD τ) ↦[ringRange s a b]{fullShare} f) ∗ (ringM.view.loc (c : Thread nD τ) ↦[ringRange s b d]{fullShare} f)) := by
  rw [ringRange_union h1 h2]; exact pointsTo_union (ringRange_disjoint (.inr (le_refl b)))

theorem ring_join {s a b d : ℕ} (h1 : a ≤ b) (h2 : b ≤ d) (f g : Buf (Elt F) (ringM.view.loc (c : Thread nD τ))) :
    iprop((ringM.view.loc (c : Thread nD τ) ↦[ringRange s a b]{fullShare} f) ∗ (ringM.view.loc (c : Thread nD τ) ↦[ringRange s b d]{fullShare} g))
      ⊢ (iprop(∃ h : Buf (Elt F) (ringM.view.loc (c : Thread nD τ)), ringM.view.loc (c : Thread nD τ) ↦[ringRange s a d]{fullShare} h) : sProp 𝕄) := by
  have hd : Disjoint (ringRange s a b) (ringRange s b d) := ringRange_disjoint (.inr (le_refl b))
  iintro ⟨Hf, Hg⟩
  iexists (ringRange s b d).piecewise g f
  rw [ringRange_union h1 h2]
  iapply (pointsTo_join hd)
  isplitl [Hf]; · iexact Hf
  iexact Hg

theorem ring_univ : (Finset.univ : Finset S2x3072x1024.Idx) = ringRange 0 0 3072 ∪ ringRange 1 0 3072 := by
  ext x; simp only [mem_ringRange, Finset.mem_union, Finset.mem_univ, true_iff]
  have h0 := (show (x 0).val < 2 from (x 0).isLt); have h1 := (show (x 1).val < 3072 from (x 1).isLt); omega

/-- The ring held whole is its two slots held. -/
theorem ring_slots (f : Buf (Elt F) (ringM.view.loc (c : Thread nD τ))) :
    (ringM.view.loc (c : Thread nD τ) ↦{fullShare} f : sProp 𝕄)
      ⊣⊢ iprop((ringM.view.loc (c : Thread nD τ) ↦[ringRange 0 0 3072]{fullShare} f) ∗ (ringM.view.loc (c : Thread nD τ) ↦[ringRange 1 0 3072]{fullShare} f)) := by
  show (ringM.view.loc (c : Thread nD τ) ↦[(Finset.univ : Finset S2x3072x1024.Idx)]{fullShare} f : sProp 𝕄) ⊣⊢ _
  rw [ring_univ]; exact pointsTo_union (ringRange_disjoint (.inl (by decide)))

theorem ring_slots_join (f g : Buf (Elt F) (ringM.view.loc (c : Thread nD τ))) :
    iprop((ringM.view.loc (c : Thread nD τ) ↦[ringRange 0 0 3072]{fullShare} f) ∗ (ringM.view.loc (c : Thread nD τ) ↦[ringRange 1 0 3072]{fullShare} g))
      ⊢ (iprop(∃ h : Buf (Elt F) (ringM.view.loc (c : Thread nD τ)), ringM.view.loc (c : Thread nD τ) ↦{fullShare} h) : sProp 𝕄) := by
  have hd : Disjoint (ringRange 0 0 3072) (ringRange 1 0 3072) := ringRange_disjoint (.inl (by decide))
  iintro ⟨Hf, Hg⟩
  iexists (ringRange 1 0 3072).piecewise g f
  show _ ⊢ (ringM.view.loc (c : Thread nD τ) ↦[(Finset.univ : Finset S2x3072x1024.Idx)]{fullShare} _ : sProp 𝕄)
  rw [ring_univ]
  iapply (pointsTo_join hd)

/-- The result held whole is its rows `[0, 100000)` held. -/
theorem main_rows (f : Buf (Elt F) (mainM.view.loc (c : Thread nD τ))) :
    (mainM.view.loc (c : Thread nD τ) ↦{fullShare} f : sProp 𝕄) = (mainM.view.loc (c : Thread nD τ) ↦[rowRange 0 100000]{fullShare} f) := by
  rw [rowRange_univ]

/-- What a chunk's copy reads of the result depends on the chunk's rows only. -/
theorem mainChunk_read_congr (b : Fin 32) (r : Fin 8) (f g : Buf (Elt F) (mainM.view.loc (c : Thread nD τ)))
    (h : ∀ x ∈ rowRange (3072 * b.val + 384 * r.val) (3072 * b.val + 384 * r.val + 384), f x = g x) :
    (mainChunk b r).view.read (Elt F) f = (mainChunk b r).view.read (Elt F) g :=
  View.read_congr_of_subset (mainChunk b r).view _ (by rw [mainChunk_set]; exact Finset.Subset.refl _) h

theorem mainTail_read_congr (r : Fin 4) (f g : Buf (Elt F) (mainM.view.loc (c : Thread nD τ)))
    (h : ∀ x ∈ rowRange (98304 + 424 * r.val) (98304 + 424 * r.val + 424), f x = g x) :
    (mainTail r).view.read (Elt F) f = (mainTail r).view.read (Elt F) g :=
  View.read_congr_of_subset (mainTail r).view _ (by rw [mainTail_set]; exact Finset.Subset.refl _) h

end Pts

/-! ## The program's spellings of the chunks

The body slices the ring, the result and the semaphore array at offsets it computes; a proof names them by their
values. Each lemma takes the computed offsets `o` with the equation to their value, so that it is proved by
substituting the variable. -/

section Spell

variable (c : Dev nD)

theorem pt_mainChunk (o : Fin 2 → ℕ) (a : ℕ) (e : o = ![a, 0]) (inb : ∀ k, o k + S384x1024.size k ≤ S100000x1024.size k)
    (f : Buf (Elt F) (mainM.view.loc (c : Thread nD τ))) :
    ((mainM.slice (Rect.unit o S384x1024.size inb) (fun _ => rfl)).view.loc (c : Thread nD τ)
        ↦[(mainM.slice (Rect.unit o S384x1024.size inb) (fun _ => rfl)).view.set]{fullShare} f : sProp 𝕄)
      = (mainM.view.loc (c : Thread nD τ) ↦[rowRange a (a + 384)]{fullShare} f) := by
  subst e
  exact congrArg (fun S : Finset S100000x1024.Idx => (mainM.view.loc (c : Thread nD τ) ↦[S]{fullShare} f : sProp 𝕄))
    ((View.set_slice_whole main_v9 _).trans (rows_set a 384 _ rfl rfl _))

theorem pt_mainTail (o : Fin 2 → ℕ) (a : ℕ) (e : o = ![a, 0]) (inb : ∀ k, o k + S424x1024.size k ≤ S100000x1024.size k)
    (f : Buf (Elt F) (mainM.view.loc (c : Thread nD τ))) :
    ((mainM.slice (Rect.unit o S424x1024.size inb) (fun _ => rfl)).view.loc (c : Thread nD τ)
        ↦[(mainM.slice (Rect.unit o S424x1024.size inb) (fun _ => rfl)).view.set]{fullShare} f : sProp 𝕄)
      = (mainM.view.loc (c : Thread nD τ) ↦[rowRange a (a + 424)]{fullShare} f) := by
  subst e
  exact congrArg (fun S : Finset S100000x1024.Idx => (mainM.view.loc (c : Thread nD τ) ↦[S]{fullShare} f : sProp 𝕄))
    ((View.set_slice_whole main_v9 _).trans (rows_set a 424 _ rfl rfl _))

theorem pt_ringChunk (o : Fin 3 → ℕ) (s a : ℕ) (e : o = ![s, a, 0]) (inb : ∀ k, o k + S1x384x1024.size k ≤ S2x3072x1024.size k)
    (f : Buf (Elt F) (ringM.view.loc (c : Thread nD τ))) :
    (((ringM.slice (Rect.unit o S1x384x1024.size inb) (fun _ => rfl)).squeeze S384x1024 squeezes_S1x384x1024_S384x1024).view.loc (c : Thread nD τ)
        ↦[((ringM.slice (Rect.unit o S1x384x1024.size inb) (fun _ => rfl)).squeeze S384x1024 squeezes_S1x384x1024_S384x1024).view.set]{fullShare} f : sProp 𝕄)
      = (ringM.view.loc (c : Thread nD τ) ↦[ringRange s a (a + 384)]{fullShare} f) := by
  subst e
  exact congrArg (fun S : Finset S2x3072x1024.Idx => (ringM.view.loc (c : Thread nD τ) ↦[S]{fullShare} f : sProp 𝕄))
    ((View.set_reshape (v := (View.whole cc1_scratch3).slice _) _).trans ((View.set_slice_whole cc1_scratch3 _).trans (ring_rows_set s a 384 _ rfl rfl rfl _)))

theorem pt_ringTail (o : Fin 3 → ℕ) (s a : ℕ) (e : o = ![s, a, 0]) (inb : ∀ k, o k + S1x424x1024.size k ≤ S2x3072x1024.size k)
    (f : Buf (Elt F) (ringM.view.loc (c : Thread nD τ))) :
    (((ringM.slice (Rect.unit o S1x424x1024.size inb) (fun _ => rfl)).squeeze S424x1024 squeezes_S1x424x1024_S424x1024).view.loc (c : Thread nD τ)
        ↦[((ringM.slice (Rect.unit o S1x424x1024.size inb) (fun _ => rfl)).squeeze S424x1024 squeezes_S1x424x1024_S424x1024).view.set]{fullShare} f : sProp 𝕄)
      = (ringM.view.loc (c : Thread nD τ) ↦[ringRange s a (a + 424)]{fullShare} f) := by
  subst e
  exact congrArg (fun S : Finset S2x3072x1024.Idx => (ringM.view.loc (c : Thread nD τ) ↦[S]{fullShare} f : sProp 𝕄))
    ((View.set_reshape (v := (View.whole cc1_scratch3).slice _) _).trans ((View.set_slice_whole cc1_scratch3 _).trans (ring_rows_set s a 424 _ rfl rfl rfl _)))

theorem pt_ringSlot (o : Fin 3 → ℕ) (s : ℕ) (e : o = ![s, 0, 0]) (inb : ∀ k, o k + S1x3072x1024.size k ≤ S2x3072x1024.size k)
    (f : Buf (Elt F) (ringM.view.loc (c : Thread nD τ))) :
    ((ringM.slice (Rect.unit o S1x3072x1024.size inb) (fun _ => rfl)).view.loc (c : Thread nD τ)
        ↦[(ringM.slice (Rect.unit o S1x3072x1024.size inb) (fun _ => rfl)).view.set]{fullShare} f : sProp 𝕄)
      = (ringM.view.loc (c : Thread nD τ) ↦[ringRange s 0 3072]{fullShare} f) := by
  subst e
  exact congrArg (fun S : Finset S2x3072x1024.Idx => (ringM.view.loc (c : Thread nD τ) ↦[S]{fullShare} f : sProp 𝕄))
    ((View.set_slice_whole cc1_scratch3 _).trans (ring_rows_set s 0 3072 _ rfl rfl rfl _))

theorem sem_spell (o : Fin 2 → ℕ) (s : Fin 2) (r : Fin 8) (e : o = ![s.val, r.val]) (inb : ∀ k, o k + S1x1.size k ≤ S2x8.size k) :
    ((cc1_scratch4.slice (Rect.unit o S1x1.size inb)).squeeze S_ squeezes_S1x1_S_).sem = rsem s r := by
  subst e; rfl

end Spell

end Cert.Proof.Kernel

end
-- ==== Proof.Kernel.RegionLanded.lean ====
/-
  Where the ring's and the result's row chunks sit: a chunk of a ring slot, read after the slot was stored
  whole, is the stored value's rows; a result chunk read after one whole write through it is what was written.
-/
import proofs.«204087_g3891240370374_cont_8to1_b_1678_29_alg».proof.Proof.Kernel.RegionDat

set_option maxRecDepth 16384

noncomputable section

namespace Cert.Proof.Kernel

open Cert.Kernel Cert.Kernel.Gen

open Idealize.ShloMosaic Idealize.ShloMosaic.TcCoe

variable {F : FTy → Type} [FloatOps F]

variable (c : Dev nD)

/-- Element (i, v) of chunk r of slot s sits where element (0, 384 r + i, v) of the slot does. -/
theorem ringChunk_emb (s : Fin 2) (r : Fin 8) (i : Fin 384) (v : Fin 1024) :
    (ringChunk s r).view.emb (ValueIdx.ix2 i v)
      = (ringM.access (Rect.unit ![s.val, 0, 0] S1x3072x1024.size (ringSlot_inb s))).emb
          (ValueIdx.ix3 (0 : Fin 1) (⟨384 * r.val + i.val, by omega⟩ : Fin 3072) v) := by
  have hre : Shape.reshapeEquiv squeezes_S1x384x1024_S384x1024.numel_eq (ValueIdx.ix2 i v) = ValueIdx.ix3 (0 : Fin 1) i v :=
    Shape.reshapeEquiv_eq_of_rowMajor _ (by
      rw [Shape.rowMajor_val_two, Shape.rowMajor_val_three]
      show (0 * 384 + i.val) * 1024 + v.val = i.val * 1024 + v.val
      omega)
  show ((ringM.view.slice (Rect.unit ![s.val, 384 * r.val, 0] S1x384x1024.size (ringChunk_inb s r))).reshape S384x1024 squeezes_S1x384x1024_S384x1024.numel_eq).emb (ValueIdx.ix2 i v) = _
  rw [View.emb_reshape]
  show (ringM.view.slice (Rect.unit ![s.val, 384 * r.val, 0] S1x384x1024.size (ringChunk_inb s r))).emb
      (Shape.reshapeEquiv squeezes_S1x384x1024_S384x1024.numel_eq (ValueIdx.ix2 i v)) = _
  rw [hre]
  funext a; apply Fin.ext
  match a with
  | ⟨0, _⟩ => show s.val + 1 * 0 = s.val + 1 * 0; rfl
  | ⟨1, _⟩ => show 384 * r.val + 1 * i.val = 0 + 1 * (384 * r.val + i.val); omega
  | ⟨2, _⟩ => show 0 + 1 * v.val = 0 + 1 * v.val; rfl

/-- (L1) Chunk r of slot s, read after the slot was stored whole with P: rows 384 r to 384 r + 383 of P. -/
theorem landed_chunk (s : Fin 2) (r : Fin 8) (q0 : Buf (Elt F) (ringM.view.loc (c : Thread nD τ))) (P : Vec F S1x3072x1024 .f32) (i : Fin 384) (v : Fin 1024) :
    ReadAs.same.apply ((ringChunk s r).view.read (Elt F) (View.write (Elt F) (ringM.access (Rect.unit ![s.val, 0, 0] S1x3072x1024.size (ringSlot_inb s))) q0 P Finset.univ)) (ValueIdx.ix2 i v)
      = P (ValueIdx.ix3 (0 : Fin 1) (⟨384 * r.val + i.val, by omega⟩ : Fin 3072) v) := by
  rw [ReadAs.apply_same]
  refine (View.read_apply _ _).trans ((cast_eq _ _).trans ?_)
  rw [ringChunk_emb]
  exact (View.write_emb_of_mem _ _ (Finset.mem_univ _)).trans (cast_eq _ _)

/-- Element (i, v) of tail chunk r of slot s sits where element (0, 424 r + i, v) of the slot does. -/
theorem ringTail_emb (s : Fin 2) (r : Fin 4) (i : Fin 424) (v : Fin 1024) :
    (ringTail s r).view.emb (ValueIdx.ix2 i v)
      = (ringM.access (Rect.unit ![s.val, 0, 0] S1x3072x1024.size (ringSlot_inb s))).emb
          (ValueIdx.ix3 (0 : Fin 1) (⟨424 * r.val + i.val, by omega⟩ : Fin 3072) v) := by
  have hre : Shape.reshapeEquiv squeezes_S1x424x1024_S424x1024.numel_eq (ValueIdx.ix2 i v) = ValueIdx.ix3 (0 : Fin 1) i v :=
    Shape.reshapeEquiv_eq_of_rowMajor _ (by
      rw [Shape.rowMajor_val_two, Shape.rowMajor_val_three]
      show (0 * 424 + i.val) * 1024 + v.val = i.val * 1024 + v.val
      omega)
  show ((ringM.view.slice (Rect.unit ![s.val, 424 * r.val, 0] S1x424x1024.size (ringTail_inb s r))).reshape S424x1024 squeezes_S1x424x1024_S424x1024.numel_eq).emb (ValueIdx.ix2 i v) = _
  rw [View.emb_reshape]
  show (ringM.view.slice (Rect.unit ![s.val, 424 * r.val, 0] S1x424x1024.size (ringTail_inb s r))).emb
      (Shape.reshapeEquiv squeezes_S1x424x1024_S424x1024.numel_eq (ValueIdx.ix2 i v)) = _
  rw [hre]
  funext a; apply Fin.ext
  match a with
  | ⟨0, _⟩ => show s.val + 1 * 0 = s.val + 1 * 0; rfl
  | ⟨1, _⟩ => show 424 * r.val + 1 * i.val = 0 + 1 * (424 * r.val + i.val); omega
  | ⟨2, _⟩ => show 0 + 1 * v.val = 0 + 1 * v.val; rfl

/-- (L2) Tail chunk r of slot s, read after the slot was stored whole with P: rows 424 r to 424 r + 423 of P. -/
theorem landed_tail (s : Fin 2) (r : Fin 4) (q0 : Buf (Elt F) (ringM.view.loc (c : Thread nD τ))) (P : Vec F S1x3072x1024 .f32) (i : Fin 424) (v : Fin 1024) :
    ReadAs.same.apply ((ringTail s r).view.read (Elt F) (View.write (Elt F) (ringM.access (Rect.unit ![s.val, 0, 0] S1x3072x1024.size (ringSlot_inb s))) q0 P Finset.univ)) (ValueIdx.ix2 i v)
      = P (ValueIdx.ix3 (0 : Fin 1) (⟨424 * r.val + i.val, by omega⟩ : Fin 3072) v) := by
  rw [ReadAs.apply_same]
  refine (View.read_apply _ _).trans ((cast_eq _ _).trans ?_)
  rw [ringTail_emb]
  exact (View.write_emb_of_mem _ _ (Finset.mem_univ _)).trans (cast_eq _ _)

/-- One whole write through a view, read back through it, is what was written. -/
theorem read_writes_whole' {κ : Kind} {sp : Space} {s : Shape} {e : EltTy} (v : View sig κ sp s e) (f : v.ty.Contents (Elt F))
    (p : s.Idx → Elt F e) : v.read (Elt F) (v.writes (Elt F) f [⟨Rect.whole s, p⟩]) = p := by
  funext y
  have h := View.read_writes_cons_emb v f (Rect.whole s) p [] y
  rwa [Rect.emb_whole_apply] at h

/-- (L3) A result chunk after one whole write through it. -/
theorem landed_read (b : Fin 32) (r : Fin 8) (g : Buf (Elt F) (mainM.view.loc (c : Thread nD τ))) (p : Vec F S384x1024 .f32) :
    (mainChunk b r).view.read (Elt F) ((mainChunk b r).view.writes (Elt F) g [⟨Rect.whole _, p⟩]) = p :=
  read_writes_whole' (mainChunk b r).view g p

/-- (L4) A result tail chunk after one whole write through it. -/
theorem landed_read_tail (r : Fin 4) (g : Buf (Elt F) (mainM.view.loc (c : Thread nD τ))) (p : Vec F S424x1024 .f32) :
    (mainTail r).view.read (Elt F) ((mainTail r).view.writes (Elt F) g [⟨Rect.whole _, p⟩]) = p :=
  read_writes_whole' (mainTail r).view g p

end Cert.Proof.Kernel

end
-- ==== Proof.Kernel.RegionSpell.lean ====
/-
  The copies' flights and landed contents, in the program's spelling and in the proof's.
-/
import proofs.«204087_g3891240370374_cont_8to1_b_1678_29_alg».proof.Proof.Kernel.RegionSets
import proofs.«204087_g3891240370374_cont_8to1_b_1678_29_alg».proof.Proof.Kernel.RegionLanded

set_option maxRecDepth 16384

noncomputable section

namespace Cert.Proof.Kernel

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

/-! ## A copy in flight, the program's spelling and the proof's -/

section Flights

variable (c : Dev nD)

theorem rowRange_congr {a a' u u' : ℕ} (h1 : a = a') (h2 : u = u') : rowRange a u = rowRange a' u' := by subst h1 h2; rfl
theorem ringRange_congr {s a a' u u' : ℕ} (h1 : a = a') (h2 : u = u') : ringRange s a u = ringRange s a' u' := by subst h1 h2; rfl

theorem pt_mainChunk' (o : Fin 2 → ℕ) (a u : ℕ) (e : o = ![a, 0]) (hu : u = a + 384) (inb : ∀ k, o k + S384x1024.size k ≤ S100000x1024.size k)
    (f : Buf (Elt F) (mainM.view.loc (c : Thread nD τ))) :
    ((mainM.slice (Rect.unit o S384x1024.size inb) (fun _ => rfl)).view.loc (c : Thread nD τ)
        ↦[(mainM.slice (Rect.unit o S384x1024.size inb) (fun _ => rfl)).view.set]{fullShare} f : sProp 𝕄)
      = (mainM.view.loc (c : Thread nD τ) ↦[rowRange a u]{fullShare} f) := by
  subst hu; exact pt_mainChunk c o a e inb f

theorem pt_ringChunk' (o : Fin 3 → ℕ) (s a u : ℕ) (e : o = ![s, a, 0]) (hu : u = a + 384) (inb : ∀ k, o k + S1x384x1024.size k ≤ S2x3072x1024.size k)
    (f : Buf (Elt F) (ringM.view.loc (c : Thread nD τ))) :
    (((ringM.slice (Rect.unit o S1x384x1024.size inb) (fun _ => rfl)).squeeze S384x1024 squeezes_S1x384x1024_S384x1024).view.loc (c : Thread nD τ)
        ↦[((ringM.slice (Rect.unit o S1x384x1024.size inb) (fun _ => rfl)).squeeze S384x1024 squeezes_S1x384x1024_S384x1024).view.set]{fullShare} f : sProp 𝕄)
      = (ringM.view.loc (c : Thread nD τ) ↦[ringRange s a u]{fullShare} f) := by
  subst hu; exact pt_ringChunk c o s a e inb f

/-- A started copy's flight as the run states it is the flight over the rows' ranges. -/
theorem flight_spell (os od : Fin 2 → ℕ) (or' : Fin 3 → ℕ) (s : Fin 2) (r : Fin 8) (a u ra ru : ℕ)
    (es : os = ![s.val, r.val]) (ed : od = ![a, 0]) (hu : u = a + 384) (er : or' = ![s.val, ra, 0]) (hru : ru = ra + 384)
    (inbs : ∀ k, os k + S1x1.size k ≤ S2x8.size k) (inbd : ∀ k, od k + S384x1024.size k ≤ S100000x1024.size k)
    (inbr : ∀ k, or' k + S1x384x1024.size k ≤ S2x3072x1024.size k)
    (Wd : Buf (Elt F) (mainM.view.loc (c : Thread nD τ))) (Wr : Buf (Elt F) (ringM.view.loc (c : Thread nD τ))) :
    (Transfers.Flight EC (c : Thread nD τ) (.dma ((cc1_scratch4.slice (Rect.unit os S1x1.size inbs)).squeeze S_ squeezes_S1x1_S_).sem) (none : HIx 1) 49152
        iprop(((mainM.slice (Rect.unit od S384x1024.size inbd) (fun _ => rfl)).view.loc (c : Thread nD τ)
              ↦[(mainM.slice (Rect.unit od S384x1024.size inbd) (fun _ => rfl)).view.set]{fullShare} Wd)
          ∗ (((ringM.slice (Rect.unit or' S1x384x1024.size inbr) (fun _ => rfl)).squeeze S384x1024 squeezes_S1x384x1024_S384x1024).view.loc (c : Thread nD τ)
              ↦[((ringM.slice (Rect.unit or' S1x384x1024.size inbr) (fun _ => rfl)).squeeze S384x1024 squeezes_S1x384x1024_S384x1024).view.set]{fullShare} Wr)) : sProp 𝕄)
      = Transfers.Flight EC (c : Thread nD τ) (.dma (rsem s r)) (none : HIx 1) 49152
          iprop((mainM.view.loc (c : Thread nD τ) ↦[rowRange a u]{fullShare} Wd) ∗ (ringM.view.loc (c : Thread nD τ) ↦[ringRange s.val ra ru]{fullShare} Wr)) := by
  rw [pt_mainChunk' c od a u ed hu inbd Wd, pt_ringChunk' c or' s.val ra ru er hru inbr Wr, sem_spell os s r es inbs]

end Flights

/-! ## A started copy, as the run leaves it -/

section Started

variable (c : Dev nD)

/-- The slot after the body's store of the block's outputs `P`. -/
def slotW (s : Fin 2) (q : Buf (Elt F) (ringM.view.loc (c : Thread nD τ))) (P : Vec F S1x3072x1024 .f32) :
    Buf (Elt F) (ringM.view.loc (c : Thread nD τ)) :=
  View.write (Elt F) (ringM.access (Rect.unit ![s.val, 0, 0] S1x3072x1024.size (ringSlot_inb s))) q P Finset.univ

theorem slotW_spell (s : Fin 2) (o : Fin 3 → ℕ) (e : o = ![s.val, 0, 0]) (inb : ∀ k, o k + S1x3072x1024.size k ≤ S2x3072x1024.size k)
    (q : Buf (Elt F) (ringM.view.loc (c : Thread nD τ))) (P : Vec F S1x3072x1024 .f32) :
    View.write (Elt F) (ringM.access (Rect.unit o S1x3072x1024.size inb)) q P Finset.univ = slotW c s q P := by
  subst e; rfl

/-- Copy `r` of block `b` started from slot `s` holding `W`: its semaphore carries the flight, which delivers the
    result's rows at contents that read, through the chunk, what the copy read of the slot. -/
def FlightX (b : Fin 32) (s : Fin 2) (r : Fin 8) (W : Buf (Elt F) (ringM.view.loc (c : Thread nD τ))) : sProp 𝕄 :=
  iprop(∃ g' : Buf (Elt F) (mainM.view.loc (c : Thread nD τ)),
    ⌜(mainChunk b r).view.read (Elt F) g' = ReadAs.same.apply ((ringChunk s r).view.read (Elt F) W)⌝
    ∗ Transfers.Flight EC (c : Thread nD τ) (.dma (rsem s r)) (none : HIx 1) 49152
        iprop((mainM.view.loc (c : Thread nD τ) ↦[rowRange (3072 * b.val + 384 * r.val) (3072 * b.val + 384 * r.val + 384)]{fullShare} g')
          ∗ (ringM.view.loc (c : Thread nD τ) ↦[ringRange s.val (384 * r.val) (384 * r.val + 384)]{fullShare} W)))

/-- What a started copy lands reads, through the chunk, what it read of the ring. -/
theorem fact_spell (od : Fin 2 → ℕ) (or' : Fin 3 → ℕ) (b : Fin 32) (s : Fin 2) (r : Fin 8)
    (ed : od = ![3072 * b.val + 384 * r.val, 0]) (er : or' = ![s.val, 384 * r.val, 0])
    (inbd : ∀ k, od k + S384x1024.size k ≤ S100000x1024.size k) (inbr : ∀ k, or' k + S1x384x1024.size k ≤ S2x3072x1024.size k)
    (g : Buf (Elt F) (mainM.view.loc (c : Thread nD τ))) (W : Buf (Elt F) (ringM.view.loc (c : Thread nD τ))) :
    (mainChunk b r).view.read (Elt F)
        ((mainM.slice (Rect.unit od S384x1024.size inbd) (fun _ => rfl)).view.writes (Elt F) g
          [⟨Rect.whole _, ReadAs.same.apply (View.read (Elt F)
              ((ringM.slice (Rect.unit or' S1x384x1024.size inbr) (fun _ => rfl)).squeeze S384x1024 squeezes_S1x384x1024_S384x1024).view W)⟩])
      = ReadAs.same.apply ((ringChunk s r).view.read (Elt F) W) := by
  subst ed er
  exact landed_read c b r g _

end Started

end Cert.Proof.Kernel

end
-- ==== Proof.Kernel.RegionPhi.lean ====
/-
  The invariant's cases, unfolded: what it is at the points of pass 0, at a point of pass 1 and after the last.
-/
import proofs.«204087_g3891240370374_cont_8to1_b_1678_29_alg».proof.Proof.Kernel.RegionSpell

set_option maxRecDepth 16384

noncomputable section

namespace Cert.Proof.Kernel

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

/-! ## From the run's flights to the invariant's -/

section ToInv

variable (c : Dev nD) (A : Arrs (F := F) c) (I : RegionInv c A)

theorem pt_mainChunkC (b : Fin 32) (r : Fin 8) (g : Buf (Elt F) (mainM.view.loc (c : Thread nD τ))) :
    ((mainChunk b r).view.loc (c : Thread nD τ) ↦[(mainChunk b r).view.set]{fullShare} g : sProp 𝕄)
      = (mainM.view.loc (c : Thread nD τ) ↦[rowRange (3072 * b.val + 384 * r.val) (3072 * b.val + 384 * r.val + 384)]{fullShare} g) :=
  congrArg (fun S : Finset S100000x1024.Idx => (mainM.view.loc (c : Thread nD τ) ↦[S]{fullShare} g : sProp 𝕄)) (mainChunk_set b r)

theorem pt_ringChunkC (s : Fin 2) (r : Fin 8) (W : Buf (Elt F) (ringM.view.loc (c : Thread nD τ))) :
    ((ringChunk s r).view.loc (c : Thread nD τ) ↦[(ringChunk s r).view.set]{fullShare} W : sProp 𝕄)
      = (ringM.view.loc (c : Thread nD τ) ↦[ringRange s.val (384 * r.val) (384 * r.val + 384)]{fullShare} W) :=
  congrArg (fun S : Finset S2x3072x1024.Idx => (ringM.view.loc (c : Thread nD τ) ↦[S]{fullShare} W : sProp 𝕄)) (ringChunk_set s r)

theorem pt_ringSlotC (s : Fin 2) (W : Buf (Elt F) (ringM.view.loc (c : Thread nD τ))) :
    ((ringSlot s).view.loc (c : Thread nD τ) ↦[(ringSlot s).view.set]{fullShare} W : sProp 𝕄)
      = (ringM.view.loc (c : Thread nD τ) ↦[ringRange s.val 0 3072]{fullShare} W) :=
  congrArg (fun S : Finset S2x3072x1024.Idx => (ringM.view.loc (c : Thread nD τ) ↦[S]{fullShare} W : sProp 𝕄)) (ringSlot_set s)

/-- A copy started at point `t` of block `b`, from the slot holding the block's outputs, is the invariant's flight:
    what it lands satisfies the chunk's predicate. -/
theorem flightX_C (t : Fin cfg1.N) (b : Fin 32) (htb : t.val = 33 + b.val) (s : Fin 2) (hs : slotOf b.val = s) (r : Fin 8)
    (d4 d5) (ht : Vec F S128x1024 .bf16) (l : Vec F S1x1024 .f32) (hHT : I.HT ht) (hL : I.LSE l)
    (q0 : Buf (Elt F) (ringM.view.loc (c : Thread nD τ))) (P : Vec F S1x3072x1024 .f32)
    (hP : P = k1_pay6 (stg c A 4 t d4) ht (stg c A 5 t d5) l) :
    FlightX c b s r (slotW c s q0 P) ⊢ (FlightC c A I b r : sProp 𝕄) := by
  subst hs hP
  unfold FlightX FlightC
  iintro ⟨%g', %hg', Hf⟩
  iexists g', (slotW c (slotOf b.val) q0 (k1_pay6 (stg c A 4 t d4) ht (stg c A 5 t d5) l))
  isplitr
  · ipureintro
    refine I.hOutC t b htb r d4 d5 ht l hHT hL _ (fun i v => ?_)
    rw [hg']; exact landed_chunk c _ r q0 _ i v
  · rw [pt_mainChunkC, pt_ringChunkC]
    iexact Hf

end ToInv

section Unfold

variable (c : Dev nD) (A : Arrs (F := F) c) (I : RegionInv c A)

theorem Φ_idle (n : ℕ) (h : n ≤ 33) : Φ c A I n = iprop(scr c A I n ∗ idle c A I False) := by
  unfold Φ; rw [if_pos h]

theorem Φ_fly (n : ℕ) (h1 : 33 < n) (h2 : n < 66) : Φ c A I n = iprop(scr c A I n ∗ fly c A I (n - 33)) := by
  unfold Φ; rw [if_neg (by omega), if_neg (by omega)]

theorem Φ_done : Φ c A I 66 = iprop(scr c A I 66 ∗ idle c A I True) := by
  unfold Φ; rw [if_neg (by decide), if_pos rfl]

theorem FlightB_lt (b : ℕ) (h : b < 32) :
    FlightB c A I b = iprop(FlightC c A I ⟨b, h⟩ 0 ∗ FlightC c A I ⟨b, h⟩ 1 ∗ FlightC c A I ⟨b, h⟩ 2 ∗ FlightC c A I ⟨b, h⟩ 3 ∗ FlightC c A I ⟨b, h⟩ 4 ∗ FlightC c A I ⟨b, h⟩ 5 ∗ FlightC c A I ⟨b, h⟩ 6 ∗ FlightC c A I ⟨b, h⟩ 7) := by
  unfold FlightB; rw [dif_pos h, bigSep_F8]

theorem sems0_eq : (Pipeline.ownSems0 osem c : sProp 𝕄)
    = iprop(semVal ((c : Thread nD τ), SemLoc.dma (rsem 0 0)) 0 ∗ semVal ((c : Thread nD τ), SemLoc.dma (rsem 0 1)) 0 ∗ semVal ((c : Thread nD τ), SemLoc.dma (rsem 0 2)) 0 ∗ semVal ((c : Thread nD τ), SemLoc.dma (rsem 0 3)) 0 ∗ semVal ((c : Thread nD τ), SemLoc.dma (rsem 0 4)) 0 ∗ semVal ((c : Thread nD τ), SemLoc.dma (rsem 0 5)) 0 ∗ semVal ((c : Thread nD τ), SemLoc.dma (rsem 0 6)) 0 ∗ semVal ((c : Thread nD τ), SemLoc.dma (rsem 0 7)) 0
        ∗ semVal ((c : Thread nD τ), SemLoc.dma (rsem 1 0)) 0 ∗ semVal ((c : Thread nD τ), SemLoc.dma (rsem 1 1)) 0 ∗ semVal ((c : Thread nD τ), SemLoc.dma (rsem 1 2)) 0 ∗ semVal ((c : Thread nD τ), SemLoc.dma (rsem 1 3)) 0 ∗ semVal ((c : Thread nD τ), SemLoc.dma (rsem 1 4)) 0 ∗ semVal ((c : Thread nD τ), SemLoc.dma (rsem 1 5)) 0 ∗ semVal ((c : Thread nD τ), SemLoc.dma (rsem 1 6)) 0 ∗ semVal ((c : Thread nD τ), SemLoc.dma (rsem 1 7)) 0) := by
  unfold Pipeline.ownSems0; rw [bigSep_F16]; rfl

theorem idleSlot_eq (s : Fin 2) : (idleSlot (F := F) c s : sProp 𝕄)
    = iprop((∃ q : Buf (Elt F) (ringM.view.loc (c : Thread nD τ)), ringM.view.loc (c : Thread nD τ) ↦[ringRange s.val 0 3072]{fullShare} q)
        ∗ semVal ((c : Thread nD τ), SemLoc.dma (rsem s 0)) 0 ∗ semVal ((c : Thread nD τ), SemLoc.dma (rsem s 1)) 0 ∗ semVal ((c : Thread nD τ), SemLoc.dma (rsem s 2)) 0 ∗ semVal ((c : Thread nD τ), SemLoc.dma (rsem s 3)) 0 ∗ semVal ((c : Thread nD τ), SemLoc.dma (rsem s 4)) 0 ∗ semVal ((c : Thread nD τ), SemLoc.dma (rsem s 5)) 0 ∗ semVal ((c : Thread nD τ), SemLoc.dma (rsem s 6)) 0 ∗ semVal ((c : Thread nD τ), SemLoc.dma (rsem s 7)) 0) := by
  unfold idleSlot; rw [bigSep_F8]
  congr 1
  exact congrArg _ (funext fun q => pt_ringSlotC c s q)

/-- Before point `(1, j)`, `2 ≤ j`. -/
theorem fly_ge (j : ℕ) (h : 2 ≤ j) : fly c A I j
    = iprop((∃ f : Buf (Elt F) (mainM.view.loc (c : Thread nD τ)), (mainM.view.loc (c : Thread nD τ) ↦[rowRange 0 (3072 * (j - 2))]{fullShare} f)
        ∗ ⌜∀ (b : Fin 32) r, b.val + 2 < j → I.OutC b r ((mainChunk b r).view.read (Elt F) f)⌝)
      ∗ (∃ f : Buf (Elt F) (mainM.view.loc (c : Thread nD τ)), mainM.view.loc (c : Thread nD τ) ↦[rowRange (3072 * j) 100000]{fullShare} f)
      ∗ FlightB c A I (j - 2) ∗ FlightB c A I (j - 1)) := by
  unfold fly; rw [if_pos h]

/-- Before point `(1, 1)`. -/
theorem fly_one : fly c A I 1
    = iprop((∃ f : Buf (Elt F) (mainM.view.loc (c : Thread nD τ)), (mainM.view.loc (c : Thread nD τ) ↦[rowRange 0 (3072 * (1 - 2))]{fullShare} f)
        ∗ ⌜∀ (b : Fin 32) r, b.val + 2 < 1 → I.OutC b r ((mainChunk b r).view.read (Elt F) f)⌝)
      ∗ (∃ f : Buf (Elt F) (mainM.view.loc (c : Thread nD τ)), mainM.view.loc (c : Thread nD τ) ↦[rowRange (3072 * 1) 100000]{fullShare} f)
      ∗ idleSlot c 1 ∗ FlightB c A I (1 - 1)) := by
  unfold fly; rw [if_neg (by decide)]

end Unfold

section Elim

variable (c : Dev nD) (A : Arrs (F := F) c) (I : RegionInv c A)

/-- The invariant's flight of copy `r` of block `b`, over the rows' ranges (spelt as the caller needs them). -/
theorem FlightC_elim (b : Fin 32) (r : Fin 8) (s : Fin 2) (hs : slotOf b.val = s) (lo hi rlo rhi : ℕ)
    (h1 : lo = 3072 * b.val + 384 * r.val) (h2 : hi = lo + 384) (h3 : rlo = 384 * r.val) (h4 : rhi = rlo + 384) :
    FlightC c A I b r ⊢ (iprop(∃ (g : Buf (Elt F) (mainM.view.loc (c : Thread nD τ))) (q : Buf (Elt F) (ringM.view.loc (c : Thread nD τ))),
        ⌜I.OutC b r ((mainChunk b r).view.read (Elt F) g)⌝ ∗
        Transfers.Flight EC (c : Thread nD τ) (.dma (rsem s r)) (none : HIx 1) 49152
          iprop((mainM.view.loc (c : Thread nD τ) ↦[rowRange lo hi]{fullShare} g) ∗ (ringM.view.loc (c : Thread nD τ) ↦[ringRange s.val rlo rhi]{fullShare} q))) : sProp 𝕄) := by
  subst hs h2 h4 h1 h3
  unfold FlightC
  simp only [pt_mainChunkC, pt_ringChunkC]
  exact .rfl

end Elim

end Cert.Proof.Kernel

end
-- ==== Proof.Kernel.RegionJoins.lean ====
/-
  The result's rows and the ring's slots cut into the chunks the copies move, and put together again: a block's
  rows held whole are its eight chunks held; eight chunks of a slot, each at contents of its own, are the slot at
  some contents; the rows landed so far and a block's eight landed chunks, each satisfying its predicate, are the
  rows landed through that block, every chunk so far satisfying its predicate; and the same for the last block's
  four chunks, which complete the result.
-/
import proofs.«204087_g3891240370374_cont_8to1_b_1678_29_alg».proof.Proof.Kernel.RegionSets

set_option maxRecDepth 16384

noncomputable section

namespace Cert.Proof.Kernel

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Joins

variable (c : Dev nD)

local notation "mainL" => mainM.view.loc (c : Thread nD τ)
local notation "ringL" => ringM.view.loc (c : Thread nD τ)

/-! ## Splits -/

/-- (J1) A block's rows held whole are its eight row chunks held. -/
theorem block_split (a : ℕ) (f : Buf (Elt F) mainL) :
    (mainL ↦[rowRange a (a + 3072)]{fullShare} f : sProp 𝕄)
      ⊢ iprop((mainL ↦[rowRange a (a + 384)]{fullShare} f) ∗ (mainL ↦[rowRange (a + 384) (a + 768)]{fullShare} f)
          ∗ (mainL ↦[rowRange (a + 768) (a + 1152)]{fullShare} f) ∗ (mainL ↦[rowRange (a + 1152) (a + 1536)]{fullShare} f)
          ∗ (mainL ↦[rowRange (a + 1536) (a + 1920)]{fullShare} f) ∗ (mainL ↦[rowRange (a + 1920) (a + 2304)]{fullShare} f)
          ∗ (mainL ↦[rowRange (a + 2304) (a + 2688)]{fullShare} f) ∗ (mainL ↦[rowRange (a + 2688) (a + 3072)]{fullShare} f)) :=
  (rows_split c (b := a + 384) (by omega) (by omega) f).1.trans <| sep_mono_right <|
  (rows_split c (b := a + 768) (by omega) (by omega) f).1.trans <| sep_mono_right <|
  (rows_split c (b := a + 1152) (by omega) (by omega) f).1.trans <| sep_mono_right <|
  (rows_split c (b := a + 1536) (by omega) (by omega) f).1.trans <| sep_mono_right <|
  (rows_split c (b := a + 1920) (by omega) (by omega) f).1.trans <| sep_mono_right <|
  (rows_split c (b := a + 2304) (by omega) (by omega) f).1.trans <| sep_mono_right <|
  (rows_split c (b := a + 2688) (by omega) (by omega) f).1

/-- (J2) A slot held whole is its eight row chunks held. -/
theorem slot_split (s : ℕ) (q : Buf (Elt F) ringL) :
    (ringL ↦[ringRange s 0 3072]{fullShare} q : sProp 𝕄)
      ⊢ iprop((ringL ↦[ringRange s 0 384]{fullShare} q) ∗ (ringL ↦[ringRange s 384 768]{fullShare} q)
          ∗ (ringL ↦[ringRange s 768 1152]{fullShare} q) ∗ (ringL ↦[ringRange s 1152 1536]{fullShare} q)
          ∗ (ringL ↦[ringRange s 1536 1920]{fullShare} q) ∗ (ringL ↦[ringRange s 1920 2304]{fullShare} q)
          ∗ (ringL ↦[ringRange s 2304 2688]{fullShare} q) ∗ (ringL ↦[ringRange s 2688 3072]{fullShare} q)) :=
  (ring_split c (b := 384) (by omega) (by omega) q).1.trans <| sep_mono_right <|
  (ring_split c (b := 768) (by omega) (by omega) q).1.trans <| sep_mono_right <|
  (ring_split c (b := 1152) (by omega) (by omega) q).1.trans <| sep_mono_right <|
  (ring_split c (b := 1536) (by omega) (by omega) q).1.trans <| sep_mono_right <|
  (ring_split c (b := 1920) (by omega) (by omega) q).1.trans <| sep_mono_right <|
  (ring_split c (b := 2304) (by omega) (by omega) q).1.trans <| sep_mono_right <|
  (ring_split c (b := 2688) (by omega) (by omega) q).1

/-- (J5) The last block's rows of the result are its four row chunks. -/
theorem tail_split (f : Buf (Elt F) mainL) :
    (mainL ↦[rowRange 98304 100000]{fullShare} f : sProp 𝕄)
      ⊢ iprop((mainL ↦[rowRange 98304 98728]{fullShare} f) ∗ (mainL ↦[rowRange 98728 99152]{fullShare} f)
          ∗ (mainL ↦[rowRange 99152 99576]{fullShare} f) ∗ (mainL ↦[rowRange 99576 100000]{fullShare} f)) :=
  (rows_split c (b := 98728) (by omega) (by omega) f).1.trans <| sep_mono_right <|
  (rows_split c (b := 99152) (by omega) (by omega) f).1.trans <| sep_mono_right <|
  (rows_split c (b := 99576) (by omega) (by omega) f).1

/-- (J5) A slot held whole is the four row chunks the last block's copies read and the rest. -/
theorem slot_split_tail (s : ℕ) (q : Buf (Elt F) ringL) :
    (ringL ↦[ringRange s 0 3072]{fullShare} q : sProp 𝕄)
      ⊢ iprop((ringL ↦[ringRange s 0 424]{fullShare} q) ∗ (ringL ↦[ringRange s 424 848]{fullShare} q)
          ∗ (ringL ↦[ringRange s 848 1272]{fullShare} q) ∗ (ringL ↦[ringRange s 1272 1696]{fullShare} q)
          ∗ (ringL ↦[ringRange s 1696 3072]{fullShare} q)) :=
  (ring_split c (b := 424) (by omega) (by omega) q).1.trans <| sep_mono_right <|
  (ring_split c (b := 848) (by omega) (by omega) q).1.trans <| sep_mono_right <|
  (ring_split c (b := 1272) (by omega) (by omega) q).1.trans <| sep_mono_right <|
  (ring_split c (b := 1696) (by omega) (by omega) q).1

/-! ## Joins of the ring -/

/-- A joined part and the next chunk are the part extended. -/
theorem ring_join_ex {s a b d : ℕ} (h1 : a ≤ b) (h2 : b ≤ d) (g : Buf (Elt F) ringL) :
    iprop((∃ f, ringL ↦[ringRange s a b]{fullShare} f) ∗ (ringL ↦[ringRange s b d]{fullShare} g))
      ⊢ (iprop(∃ h : Buf (Elt F) ringL, ringL ↦[ringRange s a d]{fullShare} h) : sProp 𝕄) := by
  iintro ⟨⟨%f, Hf⟩, Hg⟩
  iapply (ring_join c h1 h2 f g)
  isplitl [Hf]; · iexact Hf
  iexact Hg

/-- (J3) Eight row chunks of a slot, each at contents of its own, are the slot at some contents. -/
theorem slot_join (s : ℕ) (q0 q1 q2 q3 q4 q5 q6 q7 : Buf (Elt F) ringL) :
    iprop((ringL ↦[ringRange s 0 384]{fullShare} q0) ∗ (ringL ↦[ringRange s 384 768]{fullShare} q1)
        ∗ (ringL ↦[ringRange s 768 1152]{fullShare} q2) ∗ (ringL ↦[ringRange s 1152 1536]{fullShare} q3)
        ∗ (ringL ↦[ringRange s 1536 1920]{fullShare} q4) ∗ (ringL ↦[ringRange s 1920 2304]{fullShare} q5)
        ∗ (ringL ↦[ringRange s 2304 2688]{fullShare} q6) ∗ (ringL ↦[ringRange s 2688 3072]{fullShare} q7))
      ⊢ (iprop(∃ q : Buf (Elt F) ringL, ringL ↦[ringRange s 0 3072]{fullShare} q) : sProp 𝕄) := by
  iintro ⟨H0, H1, H2, H3, H4, H5, H6, H7⟩
  ihave H := (ring_join c (s := s) (a := 0) (b := 384) (d := 768) (by omega) (by omega) q0 q1) $$ [H0 H1]
  · isplitl [H0]; · iexact H0
    iexact H1
  ihave H := (ring_join_ex c (s := s) (a := 0) (b := 768) (d := 1152) (by omega) (by omega) q2) $$ [H H2]
  · isplitl [H]; · iexact H
    iexact H2
  ihave H := (ring_join_ex c (s := s) (a := 0) (b := 1152) (d := 1536) (by omega) (by omega) q3) $$ [H H3]
  · isplitl [H]; · iexact H
    iexact H3
  ihave H := (ring_join_ex c (s := s) (a := 0) (b := 1536) (d := 1920) (by omega) (by omega) q4) $$ [H H4]
  · isplitl [H]; · iexact H
    iexact H4
  ihave H := (ring_join_ex c (s := s) (a := 0) (b := 1920) (d := 2304) (by omega) (by omega) q5) $$ [H H5]
  · isplitl [H]; · iexact H
    iexact H5
  ihave H := (ring_join_ex c (s := s) (a := 0) (b := 2304) (d := 2688) (by omega) (by omega) q6) $$ [H H6]
  · isplitl [H]; · iexact H
    iexact H6
  iapply (ring_join_ex c (s := s) (a := 0) (b := 2688) (d := 3072) (by omega) (by omega) q7)
  isplitl [H]; · iexact H
  iexact H7

/-- (J5) The four row chunks the last block's copies read, each at contents of its own, and the rest of the slot,
    are the slot at some contents. -/
theorem slot_join_tail (s : ℕ) (q0 q1 q2 q3 qrest : Buf (Elt F) ringL) :
    iprop((ringL ↦[ringRange s 0 424]{fullShare} q0) ∗ (ringL ↦[ringRange s 424 848]{fullShare} q1)
        ∗ (ringL ↦[ringRange s 848 1272]{fullShare} q2) ∗ (ringL ↦[ringRange s 1272 1696]{fullShare} q3)
        ∗ (ringL ↦[ringRange s 1696 3072]{fullShare} qrest))
      ⊢ (iprop(∃ q : Buf (Elt F) ringL, ringL ↦[ringRange s 0 3072]{fullShare} q) : sProp 𝕄) := by
  iintro ⟨H0, H1, H2, H3, H4⟩
  ihave H := (ring_join c (s := s) (a := 0) (b := 424) (d := 848) (by omega) (by omega) q0 q1) $$ [H0 H1]
  · isplitl [H0]; · iexact H0
    iexact H1
  ihave H := (ring_join_ex c (s := s) (a := 0) (b := 848) (d := 1272) (by omega) (by omega) q2) $$ [H H2]
  · isplitl [H]; · iexact H
    iexact H2
  ihave H := (ring_join_ex c (s := s) (a := 0) (b := 1272) (d := 1696) (by omega) (by omega) q3) $$ [H H3]
  · isplitl [H]; · iexact H
    iexact H3
  iapply (ring_join_ex c (s := s) (a := 0) (b := 1696) (d := 3072) (by omega) (by omega) qrest)
  isplitl [H]; · iexact H
  iexact H4

/-! ## Joins of the result, the chunks' predicates carried along -/

variable (A : Arrs (F := F) c) (I : RegionInv c A)

/-- One landed chunk of block b joined to the rows landed before it. -/
theorem landed_step (b : Fin 32) (r : Fin 8) (a a' : ℕ) (ha : a = 3072 * b.val + 384 * r.val) (ha' : a' = a + 384)
    (f g : Buf (Elt F) mainL)
    (hf : ∀ (b' : Fin 32) (r' : Fin 8), (b'.val < b.val ∨ (b' = b ∧ r'.val < r.val)) → I.OutC b' r' ((mainChunk b' r').view.read (Elt F) f))
    (hg : I.OutC b r ((mainChunk b r).view.read (Elt F) g)) :
    iprop((mainL ↦[rowRange 0 a]{fullShare} f) ∗ (mainL ↦[rowRange a a']{fullShare} g))
      ⊢ (iprop(∃ f' : Buf (Elt F) mainL, (mainL ↦[rowRange 0 a']{fullShare} f')
          ∗ ⌜∀ (b' : Fin 32) (r' : Fin 8), (b'.val < b.val ∨ (b' = b ∧ r'.val < r.val + 1)) → I.OutC b' r' ((mainChunk b' r').view.read (Elt F) f')⌝) : sProp 𝕄) := by
  subst ha ha'
  iintro H
  ihave H := (rows_join c (a := 0) (by omega) (by omega) f g) $$ H
  icases H with ⟨%h, %hh, H⟩
  iexists h
  isplitl [H]; · iexact H
  ipureintro
  intro b' r' hbr
  have hr' := r'.isLt
  by_cases hnew : b' = b ∧ r' = r
  · obtain ⟨rfl, rfl⟩ := hnew
    rw [mainChunk_read_congr c b' r' h g fun x hx => hh.2 x hx]
    exact hg
  · have hold : b'.val < b.val ∨ (b' = b ∧ r'.val < r.val) := by
      rcases hbr with h1 | ⟨h1, h2⟩
      · exact .inl h1
      · refine .inr ⟨h1, ?_⟩
        rcases Nat.lt_or_ge r'.val r.val with h3 | h3
        · exact h3
        · exact absurd ⟨h1, Fin.ext (by omega)⟩ hnew
    rw [mainChunk_read_congr c b' r' h f fun x hx => hh.1 x (by
      rw [mem_rowRange] at hx ⊢
      rcases hold with h1 | ⟨h1, h2⟩
      · omega
      · subst h1; omega)]
    exact hf b' r' hold

/-- (J4) The rows landed before block b and block b's eight landed chunks are the rows landed through block b. -/
theorem landed_join (b : Fin 32) (f g0 g1 g2 g3 g4 g5 g6 g7 : Buf (Elt F) mainL)
    (hf : ∀ (b' : Fin 32) (r : Fin 8), b'.val < b.val → I.OutC b' r ((mainChunk b' r).view.read (Elt F) f))
    (hg0 : I.OutC b 0 ((mainChunk b 0).view.read (Elt F) g0)) (hg1 : I.OutC b 1 ((mainChunk b 1).view.read (Elt F) g1))
    (hg2 : I.OutC b 2 ((mainChunk b 2).view.read (Elt F) g2)) (hg3 : I.OutC b 3 ((mainChunk b 3).view.read (Elt F) g3))
    (hg4 : I.OutC b 4 ((mainChunk b 4).view.read (Elt F) g4)) (hg5 : I.OutC b 5 ((mainChunk b 5).view.read (Elt F) g5))
    (hg6 : I.OutC b 6 ((mainChunk b 6).view.read (Elt F) g6)) (hg7 : I.OutC b 7 ((mainChunk b 7).view.read (Elt F) g7)) :
    iprop((mainL ↦[rowRange 0 (3072 * b.val)]{fullShare} f)
        ∗ (mainL ↦[rowRange (3072 * b.val) (3072 * b.val + 384)]{fullShare} g0) ∗ (mainL ↦[rowRange (3072 * b.val + 384) (3072 * b.val + 768)]{fullShare} g1)
        ∗ (mainL ↦[rowRange (3072 * b.val + 768) (3072 * b.val + 1152)]{fullShare} g2) ∗ (mainL ↦[rowRange (3072 * b.val + 1152) (3072 * b.val + 1536)]{fullShare} g3)
        ∗ (mainL ↦[rowRange (3072 * b.val + 1536) (3072 * b.val + 1920)]{fullShare} g4) ∗ (mainL ↦[rowRange (3072 * b.val + 1920) (3072 * b.val + 2304)]{fullShare} g5)
        ∗ (mainL ↦[rowRange (3072 * b.val + 2304) (3072 * b.val + 2688)]{fullShare} g6) ∗ (mainL ↦[rowRange (3072 * b.val + 2688) (3072 * b.val + 3072)]{fullShare} g7))
      ⊢ (iprop(∃ f' : Buf (Elt F) mainL, (mainL ↦[rowRange 0 (3072 * (b.val + 1))]{fullShare} f')
          ∗ ⌜∀ (b' : Fin 32) (r : Fin 8), b'.val < b.val + 1 → I.OutC b' r ((mainChunk b' r).view.read (Elt F) f')⌝) : sProp 𝕄) := by
  iintro ⟨H, H0, H1, H2, H3, H4, H5, H6, H7⟩
  ihave H := (landed_step c A I b 0 (3072 * b.val) (3072 * b.val + 384) (by simp) rfl f g0
      (fun b' r' h => hf b' r' (by rcases h with h | ⟨_, h⟩; exact h; exact absurd h (Nat.not_lt_zero _))) hg0) $$ [H H0]
  · isplitl [H]; · iexact H
    iexact H0
  icases H with ⟨%f0, H, %h0⟩
  ihave H := (landed_step c A I b 1 (3072 * b.val + 384) (3072 * b.val + 768) (by simp) (by omega) f0 g1 h0 hg1) $$ [H H1]
  · isplitl [H]; · iexact H
    iexact H1
  icases H with ⟨%f1, H, %h1⟩
  ihave H := (landed_step c A I b 2 (3072 * b.val + 768) (3072 * b.val + 1152) (by simp) (by omega) f1 g2 h1 hg2) $$ [H H2]
  · isplitl [H]; · iexact H
    iexact H2
  icases H with ⟨%f2, H, %h2⟩
  ihave H := (landed_step c A I b 3 (3072 * b.val + 1152) (3072 * b.val + 1536) (by simp) (by omega) f2 g3 h2 hg3) $$ [H H3]
  · isplitl [H]; · iexact H
    iexact H3
  icases H with ⟨%f3, H, %h3⟩
  ihave H := (landed_step c A I b 4 (3072 * b.val + 1536) (3072 * b.val + 1920) (by simp) (by omega) f3 g4 h3 hg4) $$ [H H4]
  · isplitl [H]; · iexact H
    iexact H4
  icases H with ⟨%f4, H, %h4⟩
  ihave H := (landed_step c A I b 5 (3072 * b.val + 1920) (3072 * b.val + 2304) (by simp) (by omega) f4 g5 h4 hg5) $$ [H H5]
  · isplitl [H]; · iexact H
    iexact H5
  icases H with ⟨%f5, H, %h5⟩
  ihave H := (landed_step c A I b 6 (3072 * b.val + 2304) (3072 * b.val + 2688) (by simp) (by omega) f5 g6 h5 hg6) $$ [H H6]
  · isplitl [H]; · iexact H
    iexact H6
  icases H with ⟨%f6, H, %h6⟩
  ihave H := (landed_step c A I b 7 (3072 * b.val + 2688) (3072 * b.val + 3072) (by simp) (by omega) f6 g7 h6 hg7) $$ [H H7]
  · isplitl [H]; · iexact H
    iexact H7
  icases H with ⟨%f7, H, %h7⟩
  iexists f7
  isplitl [H]
  · rw [show 3072 * (b.val + 1) = 3072 * b.val + 3072 from by ring]; iexact H
  ipureintro
  intro b' r hb'
  refine h7 b' r ?_
  rcases Nat.lt_or_ge b'.val b.val with h | h
  · exact .inl h
  · exact .inr ⟨Fin.ext (by omega), by have := r.isLt; show r.val < 7 + 1; omega⟩

/-- One landed chunk of the last block joined to the rows landed before it. -/
theorem tail_step (r : Fin 4) (a a' : ℕ) (ha : a = 98304 + 424 * r.val) (ha' : a' = a + 424)
    (f g : Buf (Elt F) mainL)
    (hfC : ∀ (b' : Fin 32) (r' : Fin 8), I.OutC b' r' ((mainChunk b' r').view.read (Elt F) f))
    (hfT : ∀ r' : Fin 4, r'.val < r.val → I.OutT r' ((mainTail r').view.read (Elt F) f))
    (hg : I.OutT r ((mainTail r).view.read (Elt F) g)) :
    iprop((mainL ↦[rowRange 0 a]{fullShare} f) ∗ (mainL ↦[rowRange a a']{fullShare} g))
      ⊢ (iprop(∃ f' : Buf (Elt F) mainL, (mainL ↦[rowRange 0 a']{fullShare} f')
          ∗ ⌜(∀ (b' : Fin 32) (r' : Fin 8), I.OutC b' r' ((mainChunk b' r').view.read (Elt F) f'))
              ∧ ∀ r' : Fin 4, r'.val < r.val + 1 → I.OutT r' ((mainTail r').view.read (Elt F) f')⌝) : sProp 𝕄) := by
  subst ha ha'
  iintro H
  ihave H := (rows_join c (a := 0) (by omega) (by omega) f g) $$ H
  icases H with ⟨%h, %hh, H⟩
  iexists h
  isplitl [H]; · iexact H
  ipureintro
  refine ⟨fun b' r' => ?_, fun r' hr' => ?_⟩
  · rw [mainChunk_read_congr c b' r' h f fun x hx => hh.1 x (by
      rw [mem_rowRange] at hx ⊢; have := b'.isLt; have := r'.isLt; omega)]
    exact hfC b' r'
  · by_cases hnew : r' = r
    · subst hnew
      rw [mainTail_read_congr c r' h g fun x hx => hh.2 x hx]
      exact hg
    · have hlt : r'.val < r.val := by
        rcases Nat.lt_or_ge r'.val r.val with h3 | h3
        · exact h3
        · exact absurd (Fin.ext (by omega)) hnew
      rw [mainTail_read_congr c r' h f fun x hx => hh.1 x (by rw [mem_rowRange] at hx ⊢; omega)]
      exact hfT r' hlt

/-- (J5) The rows landed through block 31 and the last block's four landed chunks are the whole result, every
    chunk satisfying its predicate. -/
theorem final_join (f t0 t1 t2 t3 : Buf (Elt F) mainL)
    (hf : ∀ (b' : Fin 32) (r : Fin 8), b'.val < 32 → I.OutC b' r ((mainChunk b' r).view.read (Elt F) f))
    (ht0 : I.OutT 0 ((mainTail 0).view.read (Elt F) t0)) (ht1 : I.OutT 1 ((mainTail 1).view.read (Elt F) t1))
    (ht2 : I.OutT 2 ((mainTail 2).view.read (Elt F) t2)) (ht3 : I.OutT 3 ((mainTail 3).view.read (Elt F) t3)) :
    iprop((mainL ↦[rowRange 0 98304]{fullShare} f) ∗ (mainL ↦[rowRange 98304 98728]{fullShare} t0) ∗ (mainL ↦[rowRange 98728 99152]{fullShare} t1)
        ∗ (mainL ↦[rowRange 99152 99576]{fullShare} t2) ∗ (mainL ↦[rowRange 99576 100000]{fullShare} t3))
      ⊢ (iprop(∃ f' : Buf (Elt F) mainL, (mainL ↦{fullShare} f') ∗ ⌜OutAll c A I f'⌝) : sProp 𝕄) := by
  iintro ⟨H, H0, H1, H2, H3⟩
  ihave H := (tail_step c A I 0 98304 98728 rfl rfl f t0 (fun b' r' => hf b' r' b'.isLt) (fun r' h => absurd h (Nat.not_lt_zero _)) ht0) $$ [H H0]
  · isplitl [H]; · iexact H
    iexact H0
  icases H with ⟨%f0, H, %h0⟩
  ihave H := (tail_step c A I 1 98728 99152 rfl rfl f0 t1 h0.1 h0.2 ht1) $$ [H H1]
  · isplitl [H]; · iexact H
    iexact H1
  icases H with ⟨%f1, H, %h1⟩
  ihave H := (tail_step c A I 2 99152 99576 rfl rfl f1 t2 h1.1 h1.2 ht2) $$ [H H2]
  · isplitl [H]; · iexact H
    iexact H2
  icases H with ⟨%f2, H, %h2⟩
  ihave H := (tail_step c A I 3 99576 100000 rfl rfl f2 t3 h2.1 h2.2 ht3) $$ [H H3]
  · isplitl [H]; · iexact H
    iexact H3
  icases H with ⟨%f3, H, %h3⟩
  iexists f3
  isplitl [H]
  · rw [main_rows]; iexact H
  ipureintro
  exact ⟨h3.1, fun r => h3.2 r (by have := r.isLt; show r.val < 3 + 1; omega)⟩

end Joins

end Cert.Proof.Kernel

end
-- ==== Proof.Kernel.RegionBody1a.lean ====
/-
  The TensorCore region's body at the first two points of pass 1: nothing to wait for; the block's outputs are
  stored into its ring slot and the slot's eight row chunks are started on their way to the result.
-/
import proofs.«204087_g3891240370374_cont_8to1_b_1678_29_alg».proof.Proof.Kernel.RegionPoint
import proofs.«204087_g3891240370374_cont_8to1_b_1678_29_alg».proof.Proof.Kernel.RegionPhi
import proofs.«204087_g3891240370374_cont_8to1_b_1678_29_alg».proof.Proof.Kernel.RegionJoins

set_option maxRecDepth 16384

noncomputable section

namespace Cert.Proof.Kernel

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

section Run1

set_option maxHeartbeats 8000000 in
/-- A point of pass 1 that waits for nothing and starts its block's eight copies (the first two points). -/
theorem run1_lo (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S128x64 .f32) (harg4 : arg4.IsWhole) (arg5 : Memref sig .tc .vmem S128x1 .f32) (harg5 : arg5.IsWhole) (arg6 : Memref sig .tc .vmem S3072x128 .f32) (harg6 : arg6.IsWhole) (arg7 : Memref sig .tc .vmem S1x3072 .f32) (harg7 : arg7.IsWhole)
    (j : ℕ) (hj : (i 1).val = j) (s : Fin 2) (hs : j % 2 = s.val) (hj32 : j < 32)
    (hA : ¬cA i) (hB : ¬cB i) (hC : ¬cC i) (h4 : k1_cond4 i = 1#1) (h5 : ¬k1_cond5 i = 1#1) (h6 : k1_cond6 i = 1#1) (h7 : ¬k1_cond7 i = 1#1)
    (X4 : Vec F S3072x128 .f32) (X5 : Vec F S1x3072 .f32) (ht : Vec F S128x1024 .bf16) (l : Vec F S1x1024 .f32)
    (q : Buf (Elt F) (ringM.view.loc (c : Thread nD τ))) (g : Buf (Elt F) (mainM.view.loc (c : Thread nD τ)))
    (K : PUnit → sProp 𝕄) :
    iprop(owns (c : Thread nD τ) arg6 fullShare X4 ∗ owns (c : Thread nD τ) arg7 fullShare X5
        ∗ ((Memref.whole cc1_scratch0).view.loc (c : Thread nD τ) ↦{fullShare} ht)
        ∗ ((Memref.whole cc1_scratch2).view.loc (c : Thread nD τ) ↦{fullShare} l)
        ∗ (ringM.view.loc (c : Thread nD τ) ↦[ringRange s.val 0 3072]{fullShare} q)
        ∗ (mainM.view.loc (c : Thread nD τ) ↦[rowRange (3072 * j) (3072 * j + 3072)]{fullShare} g)
        ∗ semVal ((c : Thread nD τ), SemLoc.dma (rsem s 0)) 0
        ∗ semVal ((c : Thread nD τ), SemLoc.dma (rsem s 1)) 0
        ∗ semVal ((c : Thread nD τ), SemLoc.dma (rsem s 2)) 0
        ∗ semVal ((c : Thread nD τ), SemLoc.dma (rsem s 3)) 0
        ∗ semVal ((c : Thread nD τ), SemLoc.dma (rsem s 4)) 0
        ∗ semVal ((c : Thread nD τ), SemLoc.dma (rsem s 5)) 0
        ∗ semVal ((c : Thread nD τ), SemLoc.dma (rsem s 6)) 0
        ∗ semVal ((c : Thread nD τ), SemLoc.dma (rsem s 7)) 0
        ∗ (iprop(owns (c : Thread nD τ) arg6 fullShare X4 ∗ owns (c : Thread nD τ) arg7 fullShare X5
            ∗ ((Memref.whole cc1_scratch0).view.loc (c : Thread nD τ) ↦{fullShare} ht)
            ∗ ((Memref.whole cc1_scratch2).view.loc (c : Thread nD τ) ↦{fullShare} l)
            ∗ (∃ P, ⌜P = k1_pay6 X4 ht X5 l⌝ ∗ FlightX c ⟨j, hj32⟩ s 0 (slotW c s q P) ∗ FlightX c ⟨j, hj32⟩ s 1 (slotW c s q P) ∗ FlightX c ⟨j, hj32⟩ s 2 (slotW c s q P) ∗ FlightX c ⟨j, hj32⟩ s 3 (slotW c s q P) ∗ FlightX c ⟨j, hj32⟩ s 4 (slotW c s q P) ∗ FlightX c ⟨j, hj32⟩ s 5 (slotW c s q P) ∗ FlightX c ⟨j, hj32⟩ s 6 (slotW c s q P) ∗ FlightX c ⟨j, hj32⟩ s 7 (slotW c s q P))) -∗ K ⟨⟩))
      ⊢ wp frame (wpE (defs₀ (F := F)) 𝒱₀ (c : Thread nD τ) none) Set.univ
          (cc1__fused_body i arg2 harg2 arg3 harg3 arg4 harg4 arg5 harg5 arg6 harg6 arg7 harg7 (Memref.whole main_v9) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4) K := by
  have hsv : (i 1).val % 2 = s.val := by rw [hj]; exact hs
  have e18 : k1_off18 i = ![s.val, 0, 0] := by rw [k1_off18_eq, hsv]
  have ed0 : k1_off20 i 0#32 = ![3072 * j, 0] := by rw [← hj]; exact k1_off20_eq i ⟨0, by decide⟩
  have er0 : k1_off21 i = ![s.val, 0, 0] := by rw [k1_off21_eq, hsv]
  have es0 : k1_off19 i = ![s.val, 0] := by rw [k1_off19_eq, hsv]
  have ed1 : k1_off20 i 384#32 = ![3072 * j + 384, 0] := by rw [← hj]; exact k1_off20_eq i ⟨1, by decide⟩
  have er1 : k1_off23 i = ![s.val, 384, 0] := by rw [k1_off23_eq, hsv]
  have es1 : k1_off22 i = ![s.val, 1] := by rw [k1_off22_eq, hsv]
  have ed2 : k1_off20 i 768#32 = ![3072 * j + 768, 0] := by rw [← hj]; exact k1_off20_eq i ⟨2, by decide⟩
  have er2 : k1_off25 i = ![s.val, 768, 0] := by rw [k1_off25_eq, hsv]
  have es2 : k1_off24 i = ![s.val, 2] := by rw [k1_off24_eq, hsv]
  have ed3 : k1_off20 i 1152#32 = ![3072 * j + 1152, 0] := by rw [← hj]; exact k1_off20_eq i ⟨3, by decide⟩
  have er3 : k1_off27 i = ![s.val, 1152, 0] := by rw [k1_off27_eq, hsv]
  have es3 : k1_off26 i = ![s.val, 3] := by rw [k1_off26_eq, hsv]
  have ed4 : k1_off20 i 1536#32 = ![3072 * j + 1536, 0] := by rw [← hj]; exact k1_off20_eq i ⟨4, by decide⟩
  have er4 : k1_off29 i = ![s.val, 1536, 0] := by rw [k1_off29_eq, hsv]
  have es4 : k1_off28 i = ![s.val, 4] := by rw [k1_off28_eq, hsv]
  have ed5 : k1_off20 i 1920#32 = ![3072 * j + 1920, 0] := by rw [← hj]; exact k1_off20_eq i ⟨5, by decide⟩
  have er5 : k1_off31 i = ![s.val, 1920, 0] := by rw [k1_off31_eq, hsv]
  have es5 : k1_off30 i = ![s.val, 5] := by rw [k1_off30_eq, hsv]
  have ed6 : k1_off20 i 2304#32 = ![3072 * j + 2304, 0] := by rw [← hj]; exact k1_off20_eq i ⟨6, by decide⟩
  have er6 : k1_off33 i = ![s.val, 2304, 0] := by rw [k1_off33_eq, hsv]
  have es6 : k1_off32 i = ![s.val, 6] := by rw [k1_off32_eq, hsv]
  have ed7 : k1_off20 i 2688#32 = ![3072 * j + 2688, 0] := by rw [← hj]; exact k1_off20_eq i ⟨7, by decide⟩
  have er7 : k1_off35 i = ![s.val, 2688, 0] := by rw [k1_off35_eq, hsv]
  have es7 : k1_off34 i = ![s.val, 7] := by rw [k1_off34_eq, hsv]
  rw [cc1__fused_body_eq_skeleton]; unfold cc1__fused_body_skel
  unfold owns
  iintro ⟨⟨%f4, %hf4, H4⟩, ⟨%f5, %hf5, H5⟩, H9, H11, Hslot, Hblk, Z0, Z1, Z2, Z3, Z4, Z5, Z6, Z7, Hk⟩
  obtain rfl := harg6.eq_unread hf4
  obtain rfl := harg7.eq_unread hf5
  -- the slot, as the body names it
  ihave Hslot := (Entails.of_eq (pt_ringSlot c (k1_off18 i) s.val e18 (k1_off18_inb i h4) q).symm) $$ Hslot
  (set_option sl_exec.stopBefore "k1_cond6" in sl_exec (disch := first | exact hA | exact hB | exact hC | exact h4 | exact h5 | exact h6 | exact h7))

  unfold run1_lo.sl.Hslot_w1
  -- the slot back over its rows, cut into the chunks the copies read
  ihave Hslot := (Entails.of_eq (pt_ringSlot c (k1_off18 i) s.val e18 (k1_off18_inb i h4) _)) $$ Hslot
  ihave Hslot := (Entails.of_eq (congrArg (fun W => (ringM.view.loc (c : Thread nD τ) ↦[ringRange s.val 0 3072]{fullShare} W : sProp 𝕄))
    (slotW_spell c s (k1_off18 i) e18 (k1_off18_inb i h4) q _))) $$ Hslot
  ihave Hslot := (slot_split c s.val _) $$ Hslot
  icases Hslot with ⟨C0, C1, C2, C3, C4, C5, C6, C7⟩
  ihave C0 := (Entails.of_eq (pt_ringChunk' c (k1_off21 i) s.val 0 384 er0 (by omega) (k1_off21_inb i h4 h6) _).symm) $$ C0
  ihave C1 := (Entails.of_eq (pt_ringChunk' c (k1_off23 i) s.val 384 768 er1 (by omega) (k1_off23_inb i h4 h6) _).symm) $$ C1
  ihave C2 := (Entails.of_eq (pt_ringChunk' c (k1_off25 i) s.val 768 1152 er2 (by omega) (k1_off25_inb i h4 h6) _).symm) $$ C2
  ihave C3 := (Entails.of_eq (pt_ringChunk' c (k1_off27 i) s.val 1152 1536 er3 (by omega) (k1_off27_inb i h4 h6) _).symm) $$ C3
  ihave C4 := (Entails.of_eq (pt_ringChunk' c (k1_off29 i) s.val 1536 1920 er4 (by omega) (k1_off29_inb i h4 h6) _).symm) $$ C4
  ihave C5 := (Entails.of_eq (pt_ringChunk' c (k1_off31 i) s.val 1920 2304 er5 (by omega) (k1_off31_inb i h4 h6) _).symm) $$ C5
  ihave C6 := (Entails.of_eq (pt_ringChunk' c (k1_off33 i) s.val 2304 2688 er6 (by omega) (k1_off33_inb i h4 h6) _).symm) $$ C6
  ihave C7 := (Entails.of_eq (pt_ringChunk' c (k1_off35 i) s.val 2688 3072 er7 (by omega) (k1_off35_inb i h4 h6) _).symm) $$ C7
  -- the block's rows, cut into the chunks the copies write
  ihave Hblk := (block_split c (3072 * j) g) $$ Hblk
  icases Hblk with ⟨D0, D1, D2, D3, D4, D5, D6, D7⟩
  ihave D0 := (Entails.of_eq (pt_mainChunk' c (k1_off20 i 0#32) (3072 * j) (3072 * j + 384) ed0 (by omega) (k1_off20_inb i h4 h6 0) g).symm) $$ D0
  ihave D1 := (Entails.of_eq (pt_mainChunk' c (k1_off20 i 384#32) (3072 * j + 384) (3072 * j + 768) ed1 (by omega) (k1_off20_inb i h4 h6 1) g).symm) $$ D1
  ihave D2 := (Entails.of_eq (pt_mainChunk' c (k1_off20 i 768#32) (3072 * j + 768) (3072 * j + 1152) ed2 (by omega) (k1_off20_inb i h4 h6 2) g).symm) $$ D2
  ihave D3 := (Entails.of_eq (pt_mainChunk' c (k1_off20 i 1152#32) (3072 * j + 1152) (3072 * j + 1536) ed3 (by omega) (k1_off20_inb i h4 h6 3) g).symm) $$ D3
  ihave D4 := (Entails.of_eq (pt_mainChunk' c (k1_off20 i 1536#32) (3072 * j + 1536) (3072 * j + 1920) ed4 (by omega) (k1_off20_inb i h4 h6 4) g).symm) $$ D4
  ihave D5 := (Entails.of_eq (pt_mainChunk' c (k1_off20 i 1920#32) (3072 * j + 1920) (3072 * j + 2304) ed5 (by omega) (k1_off20_inb i h4 h6 5) g).symm) $$ D5
  ihave D6 := (Entails.of_eq (pt_mainChunk' c (k1_off20 i 2304#32) (3072 * j + 2304) (3072 * j + 2688) ed6 (by omega) (k1_off20_inb i h4 h6 6) g).symm) $$ D6
  ihave D7 := (Entails.of_eq (pt_mainChunk' c (k1_off20 i 2688#32) (3072 * j + 2688) (3072 * j + 3072) ed7 (by omega) (k1_off20_inb i h4 h6 7) g).symm) $$ D7
  -- the semaphores, as the body names them
  ihave Z0 := (Entails.of_eq (congrArg (fun x => (semVal ((c : Thread nD τ), SemLoc.dma x) 0 : sProp 𝕄)) (sem_spell (k1_off19 i) s 0 es0 (k1_off19_inb i h4 h6)).symm)) $$ Z0
  ihave Z1 := (Entails.of_eq (congrArg (fun x => (semVal ((c : Thread nD τ), SemLoc.dma x) 0 : sProp 𝕄)) (sem_spell (k1_off22 i) s 1 es1 (k1_off22_inb i h4 h6)).symm)) $$ Z1
  ihave Z2 := (Entails.of_eq (congrArg (fun x => (semVal ((c : Thread nD τ), SemLoc.dma x) 0 : sProp 𝕄)) (sem_spell (k1_off24 i) s 2 es2 (k1_off24_inb i h4 h6)).symm)) $$ Z2
  ihave Z3 := (Entails.of_eq (congrArg (fun x => (semVal ((c : Thread nD τ), SemLoc.dma x) 0 : sProp 𝕄)) (sem_spell (k1_off26 i) s 3 es3 (k1_off26_inb i h4 h6)).symm)) $$ Z3
  ihave Z4 := (Entails.of_eq (congrArg (fun x => (semVal ((c : Thread nD τ), SemLoc.dma x) 0 : sProp 𝕄)) (sem_spell (k1_off28 i) s 4 es4 (k1_off28_inb i h4 h6)).symm)) $$ Z4
  ihave Z5 := (Entails.of_eq (congrArg (fun x => (semVal ((c : Thread nD τ), SemLoc.dma x) 0 : sProp 𝕄)) (sem_spell (k1_off30 i) s 5 es5 (k1_off30_inb i h4 h6)).symm)) $$ Z5
  ihave Z6 := (Entails.of_eq (congrArg (fun x => (semVal ((c : Thread nD τ), SemLoc.dma x) 0 : sProp 𝕄)) (sem_spell (k1_off32 i) s 6 es6 (k1_off32_inb i h4 h6)).symm)) $$ Z6
  ihave Z7 := (Entails.of_eq (congrArg (fun x => (semVal ((c : Thread nD τ), SemLoc.dma x) 0 : sProp 𝕄)) (sem_spell (k1_off34 i) s 7 es7 (k1_off34_inb i h4 h6)).symm)) $$ Z7
  sl_exec (disch := first | exact hA | exact hB | exact hC | exact h4 | exact h5 | exact h6 | exact h7)
  sl_step
  iapply Hk
  isplitl [H4]
  · iexists _; isplitr; · ipureintro; exact hf4
    iexact H4
  isplitl [H5]
  · iexists _; isplitr; · ipureintro; exact hf5
    iexact H5
  isplitl [H9]; · iexact H9
  isplitl [H11]; · iexact H11
  iexists _; isplitr; swap
  · -- the eight flights, over the rows' ranges
    isplitl [Z0]
    · unfold FlightX; iexists _; isplitr; swap
      · ihave Z0 := (Entails.of_eq (flight_spell c (k1_off19 i) (k1_off20 i 0#32) (k1_off21 i) s 0 (3072 * j) (3072 * j + 384) 0 (0 + 384)
          es0 ed0 rfl er0 rfl _ _ _ _ _)) $$ Z0
        iexact Z0
      · ipureintro
        exact fact_spell c _ _ ⟨j, hj32⟩ s 0 ed0 er0 _ _ g _
    isplitl [Z1]
    · unfold FlightX; iexists _; isplitr; swap
      · ihave Z1 := (Entails.of_eq (flight_spell c (k1_off22 i) (k1_off20 i 384#32) (k1_off23 i) s 1 (3072 * j + 384) (3072 * j + 384 + 384) 384 (384 + 384)
          es1 ed1 rfl er1 rfl _ _ _ _ _)) $$ Z1
        iexact Z1
      · ipureintro
        exact fact_spell c _ _ ⟨j, hj32⟩ s 1 ed1 er1 _ _ g _
    isplitl [Z2]
    · unfold FlightX; iexists _; isplitr; swap
      · ihave Z2 := (Entails.of_eq (flight_spell c (k1_off24 i) (k1_off20 i 768#32) (k1_off25 i) s 2 (3072 * j + 768) (3072 * j + 768 + 384) 768 (768 + 384)
          es2 ed2 rfl er2 rfl _ _ _ _ _)) $$ Z2
        iexact Z2
      · ipureintro
        exact fact_spell c _ _ ⟨j, hj32⟩ s 2 ed2 er2 _ _ g _
    isplitl [Z3]
    · unfold FlightX; iexists _; isplitr; swap
      · ihave Z3 := (Entails.of_eq (flight_spell c (k1_off26 i) (k1_off20 i 1152#32) (k1_off27 i) s 3 (3072 * j + 1152) (3072 * j + 1152 + 384) 1152 (1152 + 384)
          es3 ed3 rfl er3 rfl _ _ _ _ _)) $$ Z3
        iexact Z3
      · ipureintro
        exact fact_spell c _ _ ⟨j, hj32⟩ s 3 ed3 er3 _ _ g _
    isplitl [Z4]
    · unfold FlightX; iexists _; isplitr; swap
      · ihave Z4 := (Entails.of_eq (flight_spell c (k1_off28 i) (k1_off20 i 1536#32) (k1_off29 i) s 4 (3072 * j + 1536) (3072 * j + 1536 + 384) 1536 (1536 + 384)
          es4 ed4 rfl er4 rfl _ _ _ _ _)) $$ Z4
        iexact Z4
      · ipureintro
        exact fact_spell c _ _ ⟨j, hj32⟩ s 4 ed4 er4 _ _ g _
    isplitl [Z5]
    · unfold FlightX; iexists _; isplitr; swap
      · ihave Z5 := (Entails.of_eq (flight_spell c (k1_off30 i) (k1_off20 i 1920#32) (k1_off31 i) s 5 (3072 * j + 1920) (3072 * j + 1920 + 384) 1920 (1920 + 384)
          es5 ed5 rfl er5 rfl _ _ _ _ _)) $$ Z5
        iexact Z5
      · ipureintro
        exact fact_spell c _ _ ⟨j, hj32⟩ s 5 ed5 er5 _ _ g _
    isplitl [Z6]
    · unfold FlightX; iexists _; isplitr; swap
      · ihave Z6 := (Entails.of_eq (flight_spell c (k1_off32 i) (k1_off20 i 2304#32) (k1_off33 i) s 6 (3072 * j + 2304) (3072 * j + 2304 + 384) 2304 (2304 + 384)
          es6 ed6 rfl er6 rfl _ _ _ _ _)) $$ Z6
        iexact Z6
      · ipureintro
        exact fact_spell c _ _ ⟨j, hj32⟩ s 6 ed6 er6 _ _ g _
    · unfold FlightX; iexists _; isplitr; swap
      · ihave Z7 := (Entails.of_eq (flight_spell c (k1_off34 i) (k1_off20 i 2688#32) (k1_off35 i) s 7 (3072 * j + 2688) (3072 * j + 2688 + 384) 2688 (2688 + 384)
          es7 ed7 rfl er7 rfl _ _ _ _ _)) $$ Z7
        iexact Z7
      · ipureintro
        exact fact_spell c _ _ ⟨j, hj32⟩ s 7 ed7 er7 _ _ g _
  · ipureintro
    congr 1
    · exact (readAt_unit_zero _ zero2 _ _).trans hf4
    · exact whole_readAt_unit_zero cc1_scratch0 zero2 _ _
    · exact (readAt_unit_zero _ zero2 _ _).trans hf5
    · exact whole_readAt_unit_zero cc1_scratch2 zero2 _ _

end Run1

/-! ## The obligation at the first two points of pass 1 -/

section Points1a

variable (c : Dev nD) (A : Arrs (F := F) c) (Rec : Set (SemLoc sig × HIx 1)) (I : RegionInv c A)

/-- No rows of the result held: nothing. -/
theorem rows_none (f : Buf (Elt F) (mainM.view.loc (c : Thread nD τ))) :
    (iprop(emp) : sProp 𝕄) ⊢ (mainM.view.loc (c : Thread nD τ) ↦[rowRange 0 0]{fullShare} f) := by
  rw [rowRange_self, pointsTo_empty]

set_option maxHeartbeats 4000000 in
theorem point1_first (t : Fin cfg1.N) (h33 : t.val = 33) : PointObl c A Rec I t := by
  unfold PointObl bodyPre bodyPost bodyAt1
  simp only [before_eq]
  rw [show (pdat c A Rec I).Φ t.castSucc = Φ c A I t.val from rfl, show (pdat c A Rec I).Φ t.succ = Φ c A I (t.val + 1) from rfl,
    show (pdat c A Rec I).owesAt (none : HIx 1) t.succ = (pdat c A Rec I).owesAt (none : HIx 1) t.castSucc from rfl]
  rw [Φ_idle c A I t.val (by omega), Φ_fly c A I (t.val + 1) (by omega) (by omega), show t.val + 1 - 33 = 1 from by omega, fly_one,
    FlightB_lt c A I (1 - 1) (by decide), idleSlot_eq]
  unfold scr idle
  rw [sems0_eq]
  iintro ⟨⟨⟨⟨%hv, H9, %hhv⟩, ⟨%sv, H10, %hs⟩, ⟨%l, H11, %hl⟩⟩, ⟨%f, Hm, -⟩, ⟨%q, Hr⟩, Z0, Z1, Z2, Z3, Z4, Z5, Z6, Z7, Y0, Y1, Y2, Y3, Y4, Y5, Y6, Y7⟩, Ho, ⟨%d0, H0⟩, ⟨%d1, H1⟩, ⟨%d2, H2⟩, ⟨%d3, H3⟩, ⟨%d4, H4⟩, ⟨%d5, H5⟩⟩
  -- the result's rows: block 0's and the rest; the ring's slots
  ihave Hm := (Entails.of_eq (main_rows c f)) $$ Hm
  ihave Hm := (rows_split c (a := 0) (b := 3072) (d := 100000) (by omega) (by omega) f).1 $$ Hm
  icases Hm with ⟨Hblk, Hrest⟩
  ihave Hr := (ring_slots c q).1 $$ Hr
  icases Hr with ⟨Hs0, Hs1⟩
  iapply (run1_lo c (grid1.coords t) _ _ _ _ _ _ _ _ _ _ _ _ 0 (by rw [coords1, h33]) 0 rfl (by decide)
    (fun hc => by have := (hcA t).mp hc; omega) (fun hc => by have := (hcB t).mp hc; omega) (fun hc => by have := (hcC t).mp hc; omega)
    ((hc4 t).mpr (by omega)) (fun hc => by have := (hc5 t).mp hc; omega) ((hc6 t).mpr (by omega)) (fun hc => by have := (hc7 t).mp hc; omega)
    (stg c A 4 t d4) (stg c A 5 t d5) hv l q f _)
  isplitl [H4]; · iexact H4
  isplitl [H5]; · iexact H5
  isplitl [H9]; · iexact H9
  isplitl [H11]; · iexact H11
  isplitl [Hs0]; · iexact Hs0
  isplitl [Hblk]; · iexact Hblk
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  iintro ⟨H4, H5, H9, H11, ⟨%P, %hP, F0, F1, F2, F3, F4, F5, F6, F7⟩⟩
  isplitl [H9 H10 H11 Hrest Hs1 Y0 Y1 Y2 Y3 Y4 Y5 Y6 Y7 F0 F1 F2 F3 F4 F5 F6 F7]
  · isplitl [H9 H10 H11]
    · isplitl [H9]
      · iexists hv; isplitl [H9]; · iexact H9
        ipureintro; intro _; exact hhv (by omega)
      isplitl [H10]
      · iexists sv; isplitl [H10]; · iexact H10
        ipureintro; intro _
        have hs' := hs (by omega)
        rw [min_eq_right (by omega : 32 ≤ t.val)] at hs'
        rw [min_eq_right (by omega : 32 ≤ t.val + 1)]; exact hs'
      · iexists l; isplitl [H11]; · iexact H11
        ipureintro; intro _; exact hl (by omega)
    isplitr
    · iexists f; isplitl []
      · iapply (rows_none c f); iempintro
      · ipureintro; intro b r hb; omega
    isplitl [Hrest]; · iexists f; iexact Hrest
    isplitl [Hs1 Y0 Y1 Y2 Y3 Y4 Y5 Y6 Y7]
    · isplitl [Hs1]; · iexists q; iexact Hs1
      isplitl [Y0]; · iexact Y0
      isplitl [Y1]; · iexact Y1
      isplitl [Y2]; · iexact Y2
      isplitl [Y3]; · iexact Y3
      isplitl [Y4]; · iexact Y4
      isplitl [Y5]; · iexact Y5
      isplitl [Y6]; · iexact Y6
      iexact Y7
    isplitl [F0]; · iapply (flightX_C c A I t ⟨0, Nat.zero_lt_succ 31⟩ (by rw [h33]; rfl) 0 rfl 0 d4 d5 hv l (hhv (by omega)) (hl (by omega)) q P hP) $$ F0
    isplitl [F1]; · iapply (flightX_C c A I t ⟨0, Nat.zero_lt_succ 31⟩ (by rw [h33]; rfl) 0 rfl 1 d4 d5 hv l (hhv (by omega)) (hl (by omega)) q P hP) $$ F1
    isplitl [F2]; · iapply (flightX_C c A I t ⟨0, Nat.zero_lt_succ 31⟩ (by rw [h33]; rfl) 0 rfl 2 d4 d5 hv l (hhv (by omega)) (hl (by omega)) q P hP) $$ F2
    isplitl [F3]; · iapply (flightX_C c A I t ⟨0, Nat.zero_lt_succ 31⟩ (by rw [h33]; rfl) 0 rfl 3 d4 d5 hv l (hhv (by omega)) (hl (by omega)) q P hP) $$ F3
    isplitl [F4]; · iapply (flightX_C c A I t ⟨0, Nat.zero_lt_succ 31⟩ (by rw [h33]; rfl) 0 rfl 4 d4 d5 hv l (hhv (by omega)) (hl (by omega)) q P hP) $$ F4
    isplitl [F5]; · iapply (flightX_C c A I t ⟨0, Nat.zero_lt_succ 31⟩ (by rw [h33]; rfl) 0 rfl 5 d4 d5 hv l (hhv (by omega)) (hl (by omega)) q P hP) $$ F5
    isplitl [F6]; · iapply (flightX_C c A I t ⟨0, Nat.zero_lt_succ 31⟩ (by rw [h33]; rfl) 0 rfl 6 d4 d5 hv l (hhv (by omega)) (hl (by omega)) q P hP) $$ F6
    iapply (flightX_C c A I t ⟨0, Nat.zero_lt_succ 31⟩ (by rw [h33]; rfl) 0 rfl 7 d4 d5 hv l (hhv (by omega)) (hl (by omega)) q P hP) $$ F7
  isplitl [Ho]; · iexact Ho
  isplitl [H0]; · iapply (owns_after c A Rec I 0 (fun _ _ => rfl) t d0 _) $$ H0
  isplitl [H1]; · iapply (owns_after c A Rec I 1 (fun _ _ => rfl) t d1 _) $$ H1
  isplitl [H2]; · iapply (owns_after c A Rec I 2 (fun _ _ => rfl) t d2 _) $$ H2
  isplitl [H3]; · iapply (owns_after c A Rec I 3 (fun _ _ => rfl) t d3 _) $$ H3
  isplitl [H4]; · iexists d4; iapply (owns_fill_cut c A Rec I 4 t d4 _) $$ H4
  iexists d5; iapply (owns_fill_cut c A Rec I 5 t d5 _) $$ H5

end Points1a

section Points1b

variable (c : Dev nD) (A : Arrs (F := F) c) (Rec : Set (SemLoc sig × HIx 1)) (I : RegionInv c A)

set_option maxHeartbeats 4000000 in
theorem point1_second (t : Fin cfg1.N) (h34 : t.val = 34) : PointObl c A Rec I t := by
  unfold PointObl bodyPre bodyPost bodyAt1
  simp only [before_eq]
  rw [show (pdat c A Rec I).Φ t.castSucc = Φ c A I t.val from rfl, show (pdat c A Rec I).Φ t.succ = Φ c A I (t.val + 1) from rfl,
    show (pdat c A Rec I).owesAt (none : HIx 1) t.succ = (pdat c A Rec I).owesAt (none : HIx 1) t.castSucc from rfl]
  rw [Φ_fly c A I t.val (by omega) (by omega), Φ_fly c A I (t.val + 1) (by omega) (by omega), show t.val - 33 = 1 from by omega,
    show t.val + 1 - 33 = 2 from by omega, fly_one, fly_ge c A I 2 (by decide), idleSlot_eq, FlightB_lt c A I (2 - 1) (by decide)]
  unfold scr
  iintro ⟨⟨⟨⟨%hv, H9, %hhv⟩, ⟨%sv, H10, %hs⟩, ⟨%l, H11, %hl⟩⟩, ⟨%f0, Hl, -⟩, ⟨%f, Hu⟩, ⟨⟨%q, Hs1⟩, Y0, Y1, Y2, Y3, Y4, Y5, Y6, Y7⟩, HB0⟩, Ho, ⟨%d0, H0⟩, ⟨%d1, H1⟩, ⟨%d2, H2⟩, ⟨%d3, H3⟩, ⟨%d4, H4⟩, ⟨%d5, H5⟩⟩
  -- the untouched rows: block 1's and the rest
  ihave Hu := (rows_split c (a := 3072 * 1) (b := 3072 * 1 + 3072) (d := 100000) (by omega) (by omega) f).1 $$ Hu
  icases Hu with ⟨Hblk, Hrest⟩
  iapply (run1_lo c (grid1.coords t) _ _ _ _ _ _ _ _ _ _ _ _ 1 (by rw [coords1, h34]) 1 rfl (by decide)
    (fun hc => by have := (hcA t).mp hc; omega) (fun hc => by have := (hcB t).mp hc; omega) (fun hc => by have := (hcC t).mp hc; omega)
    ((hc4 t).mpr (by omega)) (fun hc => by have := (hc5 t).mp hc; omega) ((hc6 t).mpr (by omega)) (fun hc => by have := (hc7 t).mp hc; omega)
    (stg c A 4 t d4) (stg c A 5 t d5) hv l q f _)
  isplitl [H4]; · iexact H4
  isplitl [H5]; · iexact H5
  isplitl [H9]; · iexact H9
  isplitl [H11]; · iexact H11
  isplitl [Hs1]; · iexact Hs1
  isplitl [Hblk]; · iexact Hblk
  isplitl [Y0]; · iexact Y0
  isplitl [Y1]; · iexact Y1
  isplitl [Y2]; · iexact Y2
  isplitl [Y3]; · iexact Y3
  isplitl [Y4]; · iexact Y4
  isplitl [Y5]; · iexact Y5
  isplitl [Y6]; · iexact Y6
  isplitl [Y7]; · iexact Y7
  iintro ⟨H4, H5, H9, H11, ⟨%P, %hP, F0, F1, F2, F3, F4, F5, F6, F7⟩⟩
  isplitl [H9 H10 H11 Hl Hrest HB0 F0 F1 F2 F3 F4 F5 F6 F7]
  · isplitl [H9 H10 H11]
    · isplitl [H9]
      · iexists hv; isplitl [H9]; · iexact H9
        ipureintro; intro _; exact hhv (by omega)
      isplitl [H10]
      · iexists sv; isplitl [H10]; · iexact H10
        ipureintro; intro _
        have hs' := hs (by omega)
        rw [min_eq_right (by omega : 32 ≤ t.val)] at hs'
        rw [min_eq_right (by omega : 32 ≤ t.val + 1)]; exact hs'
      · iexists l; isplitl [H11]; · iexact H11
        ipureintro; intro _; exact hl (by omega)
    isplitl [Hl]
    · iexists f0; isplitl [Hl]; · iexact Hl
      ipureintro; intro b r hb; omega
    isplitl [Hrest]; · iexists f; iexact Hrest
    isplitl [HB0]; · iexact HB0
    isplitl [F0]; · iapply (flightX_C c A I t ⟨1, Nat.succ_lt_succ (Nat.zero_lt_succ 30)⟩ (by rw [h34]; rfl) 1 rfl 0 d4 d5 hv l (hhv (by omega)) (hl (by omega)) q P hP) $$ F0
    isplitl [F1]; · iapply (flightX_C c A I t ⟨1, Nat.succ_lt_succ (Nat.zero_lt_succ 30)⟩ (by rw [h34]; rfl) 1 rfl 1 d4 d5 hv l (hhv (by omega)) (hl (by omega)) q P hP) $$ F1
    isplitl [F2]; · iapply (flightX_C c A I t ⟨1, Nat.succ_lt_succ (Nat.zero_lt_succ 30)⟩ (by rw [h34]; rfl) 1 rfl 2 d4 d5 hv l (hhv (by omega)) (hl (by omega)) q P hP) $$ F2
    isplitl [F3]; · iapply (flightX_C c A I t ⟨1, Nat.succ_lt_succ (Nat.zero_lt_succ 30)⟩ (by rw [h34]; rfl) 1 rfl 3 d4 d5 hv l (hhv (by omega)) (hl (by omega)) q P hP) $$ F3
    isplitl [F4]; · iapply (flightX_C c A I t ⟨1, Nat.succ_lt_succ (Nat.zero_lt_succ 30)⟩ (by rw [h34]; rfl) 1 rfl 4 d4 d5 hv l (hhv (by omega)) (hl (by omega)) q P hP) $$ F4
    isplitl [F5]; · iapply (flightX_C c A I t ⟨1, Nat.succ_lt_succ (Nat.zero_lt_succ 30)⟩ (by rw [h34]; rfl) 1 rfl 5 d4 d5 hv l (hhv (by omega)) (hl (by omega)) q P hP) $$ F5
    isplitl [F6]; · iapply (flightX_C c A I t ⟨1, Nat.succ_lt_succ (Nat.zero_lt_succ 30)⟩ (by rw [h34]; rfl) 1 rfl 6 d4 d5 hv l (hhv (by omega)) (hl (by omega)) q P hP) $$ F6
    iapply (flightX_C c A I t ⟨1, Nat.succ_lt_succ (Nat.zero_lt_succ 30)⟩ (by rw [h34]; rfl) 1 rfl 7 d4 d5 hv l (hhv (by omega)) (hl (by omega)) q P hP) $$ F7
  isplitl [Ho]; · iexact Ho
  isplitl [H0]; · iapply (owns_after c A Rec I 0 (fun _ _ => rfl) t d0 _) $$ H0
  isplitl [H1]; · iapply (owns_after c A Rec I 1 (fun _ _ => rfl) t d1 _) $$ H1
  isplitl [H2]; · iapply (owns_after c A Rec I 2 (fun _ _ => rfl) t d2 _) $$ H2
  isplitl [H3]; · iapply (owns_after c A Rec I 3 (fun _ _ => rfl) t d3 _) $$ H3
  isplitl [H4]; · iexists d4; iapply (owns_fill_cut c A Rec I 4 t d4 _) $$ H4
  iexists d5; iapply (owns_fill_cut c A Rec I 5 t d5 _) $$ H5

end Points1b

end Cert.Proof.Kernel

end
-- ==== Proof.Kernel.RegionBody1b.lean ====
/-
  The TensorCore region's body at the points of pass 1 that wait for the copies started two points before on
  their slot, store their block's outputs into it and start the block's copies.
-/
import proofs.«204087_g3891240370374_cont_8to1_b_1678_29_alg».proof.Proof.Kernel.RegionPoint
import proofs.«204087_g3891240370374_cont_8to1_b_1678_29_alg».proof.Proof.Kernel.RegionPhi
import proofs.«204087_g3891240370374_cont_8to1_b_1678_29_alg».proof.Proof.Kernel.RegionJoins

set_option maxRecDepth 16384

noncomputable section

namespace Cert.Proof.Kernel

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

section Run1

set_option maxHeartbeats 16000000 in
/-- A point of pass 1 that waits for the eight copies started two points before on its slot, stores its block's
    outputs into the slot, and starts the block's eight copies. -/
theorem run1_mid (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S128x64 .f32) (harg4 : arg4.IsWhole) (arg5 : Memref sig .tc .vmem S128x1 .f32) (harg5 : arg5.IsWhole) (arg6 : Memref sig .tc .vmem S3072x128 .f32) (harg6 : arg6.IsWhole) (arg7 : Memref sig .tc .vmem S1x3072 .f32) (harg7 : arg7.IsWhole)
    (j : ℕ) (hj : (i 1).val = j) (s : Fin 2) (hs : j % 2 = s.val) (hj32 : j < 32)
    (hA : ¬cA i) (hB : ¬cB i) (hC : ¬cC i) (h4 : k1_cond4 i = 1#1) (h5 : k1_cond5 i = 1#1) (h6 : k1_cond6 i = 1#1) (h7 : ¬k1_cond7 i = 1#1)
    (X4 : Vec F S3072x128 .f32) (X5 : Vec F S1x3072 .f32) (ht : Vec F S128x1024 .bf16) (l : Vec F S1x1024 .f32)
    (SD : Fin 8 → Finset S100000x1024.Idx) (gd : Fin 8 → Buf (Elt F) (mainM.view.loc (c : Thread nD τ)))
    (qs : Fin 8 → Buf (Elt F) (ringM.view.loc (c : Thread nD τ))) (g : Buf (Elt F) (mainM.view.loc (c : Thread nD τ)))
    (W : Waits sig (HIx 1)) (K : PUnit → sProp 𝕄) :
    iprop(owns (c : Thread nD τ) arg6 fullShare X4 ∗ owns (c : Thread nD τ) arg7 fullShare X5
        ∗ ((Memref.whole cc1_scratch0).view.loc (c : Thread nD τ) ↦{fullShare} ht)
        ∗ ((Memref.whole cc1_scratch2).view.loc (c : Thread nD τ) ↦{fullShare} l)
        ∗ owes (c : Thread nD τ) 0 W
        ∗ (mainM.view.loc (c : Thread nD τ) ↦[rowRange (3072 * j) (3072 * j + 3072)]{fullShare} g)
        ∗ Transfers.Flight EC (c : Thread nD τ) (.dma (rsem s 0)) (none : HIx 1) 49152
            iprop((mainM.view.loc (c : Thread nD τ) ↦[SD 0]{fullShare} gd 0) ∗ (ringM.view.loc (c : Thread nD τ) ↦[ringRange s.val 0 384]{fullShare} qs 0))
        ∗ Transfers.Flight EC (c : Thread nD τ) (.dma (rsem s 1)) (none : HIx 1) 49152
            iprop((mainM.view.loc (c : Thread nD τ) ↦[SD 1]{fullShare} gd 1) ∗ (ringM.view.loc (c : Thread nD τ) ↦[ringRange s.val 384 768]{fullShare} qs 1))
        ∗ Transfers.Flight EC (c : Thread nD τ) (.dma (rsem s 2)) (none : HIx 1) 49152
            iprop((mainM.view.loc (c : Thread nD τ) ↦[SD 2]{fullShare} gd 2) ∗ (ringM.view.loc (c : Thread nD τ) ↦[ringRange s.val 768 1152]{fullShare} qs 2))
        ∗ Transfers.Flight EC (c : Thread nD τ) (.dma (rsem s 3)) (none : HIx 1) 49152
            iprop((mainM.view.loc (c : Thread nD τ) ↦[SD 3]{fullShare} gd 3) ∗ (ringM.view.loc (c : Thread nD τ) ↦[ringRange s.val 1152 1536]{fullShare} qs 3))
        ∗ Transfers.Flight EC (c : Thread nD τ) (.dma (rsem s 4)) (none : HIx 1) 49152
            iprop((mainM.view.loc (c : Thread nD τ) ↦[SD 4]{fullShare} gd 4) ∗ (ringM.view.loc (c : Thread nD τ) ↦[ringRange s.val 1536 1920]{fullShare} qs 4))
        ∗ Transfers.Flight EC (c : Thread nD τ) (.dma (rsem s 5)) (none : HIx 1) 49152
            iprop((mainM.view.loc (c : Thread nD τ) ↦[SD 5]{fullShare} gd 5) ∗ (ringM.view.loc (c : Thread nD τ) ↦[ringRange s.val 1920 2304]{fullShare} qs 5))
        ∗ Transfers.Flight EC (c : Thread nD τ) (.dma (rsem s 6)) (none : HIx 1) 49152
            iprop((mainM.view.loc (c : Thread nD τ) ↦[SD 6]{fullShare} gd 6) ∗ (ringM.view.loc (c : Thread nD τ) ↦[ringRange s.val 2304 2688]{fullShare} qs 6))
        ∗ Transfers.Flight EC (c : Thread nD τ) (.dma (rsem s 7)) (none : HIx 1) 49152
            iprop((mainM.view.loc (c : Thread nD τ) ↦[SD 7]{fullShare} gd 7) ∗ (ringM.view.loc (c : Thread nD τ) ↦[ringRange s.val 2688 3072]{fullShare} qs 7))
        ∗ (iprop(owns (c : Thread nD τ) arg6 fullShare X4 ∗ owns (c : Thread nD τ) arg7 fullShare X5
            ∗ ((Memref.whole cc1_scratch0).view.loc (c : Thread nD τ) ↦{fullShare} ht)
            ∗ ((Memref.whole cc1_scratch2).view.loc (c : Thread nD τ) ↦{fullShare} l)
            ∗ (∃ W' : Waits sig (HIx 1), ⌜∀ p ∈ W', p ∈ W ∨ p.2 = none⌝ ∗ owes (c : Thread nD τ) 0 W')
            ∗ (mainM.view.loc (c : Thread nD τ) ↦[SD 0]{fullShare} gd 0) ∗ (mainM.view.loc (c : Thread nD τ) ↦[SD 1]{fullShare} gd 1) ∗ (mainM.view.loc (c : Thread nD τ) ↦[SD 2]{fullShare} gd 2) ∗ (mainM.view.loc (c : Thread nD τ) ↦[SD 3]{fullShare} gd 3) ∗ (mainM.view.loc (c : Thread nD τ) ↦[SD 4]{fullShare} gd 4) ∗ (mainM.view.loc (c : Thread nD τ) ↦[SD 5]{fullShare} gd 5) ∗ (mainM.view.loc (c : Thread nD τ) ↦[SD 6]{fullShare} gd 6) ∗ (mainM.view.loc (c : Thread nD τ) ↦[SD 7]{fullShare} gd 7)
            ∗ (∃ q P, ⌜P = k1_pay6 X4 ht X5 l⌝ ∗ FlightX c ⟨j, hj32⟩ s 0 (slotW c s q P) ∗ FlightX c ⟨j, hj32⟩ s 1 (slotW c s q P) ∗ FlightX c ⟨j, hj32⟩ s 2 (slotW c s q P) ∗ FlightX c ⟨j, hj32⟩ s 3 (slotW c s q P) ∗ FlightX c ⟨j, hj32⟩ s 4 (slotW c s q P) ∗ FlightX c ⟨j, hj32⟩ s 5 (slotW c s q P) ∗ FlightX c ⟨j, hj32⟩ s 6 (slotW c s q P) ∗ FlightX c ⟨j, hj32⟩ s 7 (slotW c s q P))) -∗ K ⟨⟩))
      ⊢ wp frame (wpE (defs₀ (F := F)) 𝒱₀ (c : Thread nD τ) none) Set.univ
          (cc1__fused_body i arg2 harg2 arg3 harg3 arg4 harg4 arg5 harg5 arg6 harg6 arg7 harg7 (Memref.whole main_v9) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4) K := by
  have hsv : (i 1).val % 2 = s.val := by rw [hj]; exact hs
  have e18 : k1_off18 i = ![s.val, 0, 0] := by rw [k1_off18_eq, hsv]
  have ed0 : k1_off20 i 0#32 = ![3072 * j, 0] := by rw [← hj]; exact k1_off20_eq i ⟨0, by decide⟩
  have er0 : k1_off21 i = ![s.val, 0, 0] := by rw [k1_off21_eq, hsv]
  have es0 : k1_off19 i = ![s.val, 0] := by rw [k1_off19_eq, hsv]
  have ed1 : k1_off20 i 384#32 = ![3072 * j + 384, 0] := by rw [← hj]; exact k1_off20_eq i ⟨1, by decide⟩
  have er1 : k1_off23 i = ![s.val, 384, 0] := by rw [k1_off23_eq, hsv]
  have es1 : k1_off22 i = ![s.val, 1] := by rw [k1_off22_eq, hsv]
  have ed2 : k1_off20 i 768#32 = ![3072 * j + 768, 0] := by rw [← hj]; exact k1_off20_eq i ⟨2, by decide⟩
  have er2 : k1_off25 i = ![s.val, 768, 0] := by rw [k1_off25_eq, hsv]
  have es2 : k1_off24 i = ![s.val, 2] := by rw [k1_off24_eq, hsv]
  have ed3 : k1_off20 i 1152#32 = ![3072 * j + 1152, 0] := by rw [← hj]; exact k1_off20_eq i ⟨3, by decide⟩
  have er3 : k1_off27 i = ![s.val, 1152, 0] := by rw [k1_off27_eq, hsv]
  have es3 : k1_off26 i = ![s.val, 3] := by rw [k1_off26_eq, hsv]
  have ed4 : k1_off20 i 1536#32 = ![3072 * j + 1536, 0] := by rw [← hj]; exact k1_off20_eq i ⟨4, by decide⟩
  have er4 : k1_off29 i = ![s.val, 1536, 0] := by rw [k1_off29_eq, hsv]
  have es4 : k1_off28 i = ![s.val, 4] := by rw [k1_off28_eq, hsv]
  have ed5 : k1_off20 i 1920#32 = ![3072 * j + 1920, 0] := by rw [← hj]; exact k1_off20_eq i ⟨5, by decide⟩
  have er5 : k1_off31 i = ![s.val, 1920, 0] := by rw [k1_off31_eq, hsv]
  have es5 : k1_off30 i = ![s.val, 5] := by rw [k1_off30_eq, hsv]
  have ed6 : k1_off20 i 2304#32 = ![3072 * j + 2304, 0] := by rw [← hj]; exact k1_off20_eq i ⟨6, by decide⟩
  have er6 : k1_off33 i = ![s.val, 2304, 0] := by rw [k1_off33_eq, hsv]
  have es6 : k1_off32 i = ![s.val, 6] := by rw [k1_off32_eq, hsv]
  have ed7 : k1_off20 i 2688#32 = ![3072 * j + 2688, 0] := by rw [← hj]; exact k1_off20_eq i ⟨7, by decide⟩
  have er7 : k1_off35 i = ![s.val, 2688, 0] := by rw [k1_off35_eq, hsv]
  have es7 : k1_off34 i = ![s.val, 7] := by rw [k1_off34_eq, hsv]
  have ew0 : k1_off1 i = ![s.val, 0] := by rw [k1_off1_eq, hsv]
  have ew1 : k1_off4 i = ![s.val, 1] := by rw [k1_off4_eq, hsv]
  have ew2 : k1_off6 i = ![s.val, 2] := by rw [k1_off6_eq, hsv]
  have ew3 : k1_off8 i = ![s.val, 3] := by rw [k1_off8_eq, hsv]
  have ew4 : k1_off10 i = ![s.val, 4] := by rw [k1_off10_eq, hsv]
  have ew5 : k1_off12 i = ![s.val, 5] := by rw [k1_off12_eq, hsv]
  have ew6 : k1_off14 i = ![s.val, 6] := by rw [k1_off14_eq, hsv]
  have ew7 : k1_off16 i = ![s.val, 7] := by rw [k1_off16_eq, hsv]
  rw [cc1__fused_body_eq_skeleton]; unfold cc1__fused_body_skel
  unfold owns
  iintro ⟨⟨%f4, %hf4, H4⟩, ⟨%f5, %hf5, H5⟩, H9, H11, Ho, Hblk, W0, W1, W2, W3, W4, W5, W6, W7, Hk⟩
  obtain rfl := harg6.eq_unread hf4
  obtain rfl := harg7.eq_unread hf5
  -- the flights' semaphores, as the waits name them
  ihave W0 := (Entails.of_eq (congrArg (fun x => (Transfers.Flight EC (c : Thread nD τ) (SemLoc.dma x) (none : HIx 1) 49152
      iprop((mainM.view.loc (c : Thread nD τ) ↦[SD 0]{fullShare} gd 0) ∗ (ringM.view.loc (c : Thread nD τ) ↦[ringRange s.val 0 384]{fullShare} qs 0)) : sProp 𝕄))
    (sem_spell (k1_off1 i) s 0 ew0 (k1_off1_inb i h4 h5)).symm)) $$ W0
  ihave W1 := (Entails.of_eq (congrArg (fun x => (Transfers.Flight EC (c : Thread nD τ) (SemLoc.dma x) (none : HIx 1) 49152
      iprop((mainM.view.loc (c : Thread nD τ) ↦[SD 1]{fullShare} gd 1) ∗ (ringM.view.loc (c : Thread nD τ) ↦[ringRange s.val 384 768]{fullShare} qs 1)) : sProp 𝕄))
    (sem_spell (k1_off4 i) s 1 ew1 (k1_off4_inb i h4 h5)).symm)) $$ W1
  ihave W2 := (Entails.of_eq (congrArg (fun x => (Transfers.Flight EC (c : Thread nD τ) (SemLoc.dma x) (none : HIx 1) 49152
      iprop((mainM.view.loc (c : Thread nD τ) ↦[SD 2]{fullShare} gd 2) ∗ (ringM.view.loc (c : Thread nD τ) ↦[ringRange s.val 768 1152]{fullShare} qs 2)) : sProp 𝕄))
    (sem_spell (k1_off6 i) s 2 ew2 (k1_off6_inb i h4 h5)).symm)) $$ W2
  ihave W3 := (Entails.of_eq (congrArg (fun x => (Transfers.Flight EC (c : Thread nD τ) (SemLoc.dma x) (none : HIx 1) 49152
      iprop((mainM.view.loc (c : Thread nD τ) ↦[SD 3]{fullShare} gd 3) ∗ (ringM.view.loc (c : Thread nD τ) ↦[ringRange s.val 1152 1536]{fullShare} qs 3)) : sProp 𝕄))
    (sem_spell (k1_off8 i) s 3 ew3 (k1_off8_inb i h4 h5)).symm)) $$ W3
  ihave W4 := (Entails.of_eq (congrArg (fun x => (Transfers.Flight EC (c : Thread nD τ) (SemLoc.dma x) (none : HIx 1) 49152
      iprop((mainM.view.loc (c : Thread nD τ) ↦[SD 4]{fullShare} gd 4) ∗ (ringM.view.loc (c : Thread nD τ) ↦[ringRange s.val 1536 1920]{fullShare} qs 4)) : sProp 𝕄))
    (sem_spell (k1_off10 i) s 4 ew4 (k1_off10_inb i h4 h5)).symm)) $$ W4
  ihave W5 := (Entails.of_eq (congrArg (fun x => (Transfers.Flight EC (c : Thread nD τ) (SemLoc.dma x) (none : HIx 1) 49152
      iprop((mainM.view.loc (c : Thread nD τ) ↦[SD 5]{fullShare} gd 5) ∗ (ringM.view.loc (c : Thread nD τ) ↦[ringRange s.val 1920 2304]{fullShare} qs 5)) : sProp 𝕄))
    (sem_spell (k1_off12 i) s 5 ew5 (k1_off12_inb i h4 h5)).symm)) $$ W5
  ihave W6 := (Entails.of_eq (congrArg (fun x => (Transfers.Flight EC (c : Thread nD τ) (SemLoc.dma x) (none : HIx 1) 49152
      iprop((mainM.view.loc (c : Thread nD τ) ↦[SD 6]{fullShare} gd 6) ∗ (ringM.view.loc (c : Thread nD τ) ↦[ringRange s.val 2304 2688]{fullShare} qs 6)) : sProp 𝕄))
    (sem_spell (k1_off14 i) s 6 ew6 (k1_off14_inb i h4 h5)).symm)) $$ W6
  ihave W7 := (Entails.of_eq (congrArg (fun x => (Transfers.Flight EC (c : Thread nD τ) (SemLoc.dma x) (none : HIx 1) 49152
      iprop((mainM.view.loc (c : Thread nD τ) ↦[SD 7]{fullShare} gd 7) ∗ (ringM.view.loc (c : Thread nD τ) ↦[ringRange s.val 2688 3072]{fullShare} qs 7)) : sProp 𝕄))
    (sem_spell (k1_off16 i) s 7 ew7 (k1_off16_inb i h4 h5)).symm)) $$ W7
  (set_option sl_exec.stopBefore "k1_cond6" in sl_exec (disch := first | exact hA | exact hB | exact hC | exact h4 | exact h5 | exact h6 | exact h7))

  -- the slot's eight chunks are back: the slot, as the body names it
  ihave Hj := (slot_join c s.val _ _ _ _ _ _ _ _) $$ [W0_src W1_src W2_src W3_src W4_src W5_src W6_src W7_src]
  · isplitl [W0_src]; · iexact W0_src
    isplitl [W1_src]; · iexact W1_src
    isplitl [W2_src]; · iexact W2_src
    isplitl [W3_src]; · iexact W3_src
    isplitl [W4_src]; · iexact W4_src
    isplitl [W5_src]; · iexact W5_src
    isplitl [W6_src]; · iexact W6_src
    iexact W7_src
  icases Hj with ⟨%q, Hslot⟩
  ihave Hslot := (Entails.of_eq (pt_ringSlot c (k1_off18 i) s.val e18 (k1_off18_inb i h4) q).symm) $$ Hslot
  (set_option sl_exec.stopBefore "k1_cond6" in sl_exec (disch := first | exact hA | exact hB | exact hC | exact h4 | exact h5 | exact h6 | exact h7))

  unfold run1_mid.sl.Hslot_w1
  -- the slot back over its rows, cut into the chunks the copies read
  ihave Hslot := (Entails.of_eq (pt_ringSlot c (k1_off18 i) s.val e18 (k1_off18_inb i h4) _)) $$ Hslot
  ihave Hslot := (Entails.of_eq (congrArg (fun W => (ringM.view.loc (c : Thread nD τ) ↦[ringRange s.val 0 3072]{fullShare} W : sProp 𝕄))
    (slotW_spell c s (k1_off18 i) e18 (k1_off18_inb i h4) q _))) $$ Hslot
  ihave Hslot := (slot_split c s.val _) $$ Hslot
  icases Hslot with ⟨C0, C1, C2, C3, C4, C5, C6, C7⟩
  ihave C0 := (Entails.of_eq (pt_ringChunk' c (k1_off21 i) s.val 0 384 er0 (by omega) (k1_off21_inb i h4 h6) _).symm) $$ C0
  ihave C1 := (Entails.of_eq (pt_ringChunk' c (k1_off23 i) s.val 384 768 er1 (by omega) (k1_off23_inb i h4 h6) _).symm) $$ C1
  ihave C2 := (Entails.of_eq (pt_ringChunk' c (k1_off25 i) s.val 768 1152 er2 (by omega) (k1_off25_inb i h4 h6) _).symm) $$ C2
  ihave C3 := (Entails.of_eq (pt_ringChunk' c (k1_off27 i) s.val 1152 1536 er3 (by omega) (k1_off27_inb i h4 h6) _).symm) $$ C3
  ihave C4 := (Entails.of_eq (pt_ringChunk' c (k1_off29 i) s.val 1536 1920 er4 (by omega) (k1_off29_inb i h4 h6) _).symm) $$ C4
  ihave C5 := (Entails.of_eq (pt_ringChunk' c (k1_off31 i) s.val 1920 2304 er5 (by omega) (k1_off31_inb i h4 h6) _).symm) $$ C5
  ihave C6 := (Entails.of_eq (pt_ringChunk' c (k1_off33 i) s.val 2304 2688 er6 (by omega) (k1_off33_inb i h4 h6) _).symm) $$ C6
  ihave C7 := (Entails.of_eq (pt_ringChunk' c (k1_off35 i) s.val 2688 3072 er7 (by omega) (k1_off35_inb i h4 h6) _).symm) $$ C7
  -- the block's rows, cut into the chunks the copies write
  ihave Hblk := (block_split c (3072 * j) g) $$ Hblk
  icases Hblk with ⟨D0, D1, D2, D3, D4, D5, D6, D7⟩
  ihave D0 := (Entails.of_eq (pt_mainChunk' c (k1_off20 i 0#32) (3072 * j) (3072 * j + 384) ed0 (by omega) (k1_off20_inb i h4 h6 0) g).symm) $$ D0
  ihave D1 := (Entails.of_eq (pt_mainChunk' c (k1_off20 i 384#32) (3072 * j + 384) (3072 * j + 768) ed1 (by omega) (k1_off20_inb i h4 h6 1) g).symm) $$ D1
  ihave D2 := (Entails.of_eq (pt_mainChunk' c (k1_off20 i 768#32) (3072 * j + 768) (3072 * j + 1152) ed2 (by omega) (k1_off20_inb i h4 h6 2) g).symm) $$ D2
  ihave D3 := (Entails.of_eq (pt_mainChunk' c (k1_off20 i 1152#32) (3072 * j + 1152) (3072 * j + 1536) ed3 (by omega) (k1_off20_inb i h4 h6 3) g).symm) $$ D3
  ihave D4 := (Entails.of_eq (pt_mainChunk' c (k1_off20 i 1536#32) (3072 * j + 1536) (3072 * j + 1920) ed4 (by omega) (k1_off20_inb i h4 h6 4) g).symm) $$ D4
  ihave D5 := (Entails.of_eq (pt_mainChunk' c (k1_off20 i 1920#32) (3072 * j + 1920) (3072 * j + 2304) ed5 (by omega) (k1_off20_inb i h4 h6 5) g).symm) $$ D5
  ihave D6 := (Entails.of_eq (pt_mainChunk' c (k1_off20 i 2304#32) (3072 * j + 2304) (3072 * j + 2688) ed6 (by omega) (k1_off20_inb i h4 h6 6) g).symm) $$ D6
  ihave D7 := (Entails.of_eq (pt_mainChunk' c (k1_off20 i 2688#32) (3072 * j + 2688) (3072 * j + 3072) ed7 (by omega) (k1_off20_inb i h4 h6 7) g).symm) $$ D7
  -- the semaphores, from the waits' names to the starts'
  ihave W0 := (Entails.of_eq (congrArg (fun x => (semVal ((c : Thread nD τ), SemLoc.dma x) 0 : sProp 𝕄)) ((sem_spell (k1_off1 i) s 0 ew0 (k1_off1_inb i h4 h5)).trans (sem_spell (k1_off19 i) s 0 es0 (k1_off19_inb i h4 h6)).symm))) $$ W0
  ihave W1 := (Entails.of_eq (congrArg (fun x => (semVal ((c : Thread nD τ), SemLoc.dma x) 0 : sProp 𝕄)) ((sem_spell (k1_off4 i) s 1 ew1 (k1_off4_inb i h4 h5)).trans (sem_spell (k1_off22 i) s 1 es1 (k1_off22_inb i h4 h6)).symm))) $$ W1
  ihave W2 := (Entails.of_eq (congrArg (fun x => (semVal ((c : Thread nD τ), SemLoc.dma x) 0 : sProp 𝕄)) ((sem_spell (k1_off6 i) s 2 ew2 (k1_off6_inb i h4 h5)).trans (sem_spell (k1_off24 i) s 2 es2 (k1_off24_inb i h4 h6)).symm))) $$ W2
  ihave W3 := (Entails.of_eq (congrArg (fun x => (semVal ((c : Thread nD τ), SemLoc.dma x) 0 : sProp 𝕄)) ((sem_spell (k1_off8 i) s 3 ew3 (k1_off8_inb i h4 h5)).trans (sem_spell (k1_off26 i) s 3 es3 (k1_off26_inb i h4 h6)).symm))) $$ W3
  ihave W4 := (Entails.of_eq (congrArg (fun x => (semVal ((c : Thread nD τ), SemLoc.dma x) 0 : sProp 𝕄)) ((sem_spell (k1_off10 i) s 4 ew4 (k1_off10_inb i h4 h5)).trans (sem_spell (k1_off28 i) s 4 es4 (k1_off28_inb i h4 h6)).symm))) $$ W4
  ihave W5 := (Entails.of_eq (congrArg (fun x => (semVal ((c : Thread nD τ), SemLoc.dma x) 0 : sProp 𝕄)) ((sem_spell (k1_off12 i) s 5 ew5 (k1_off12_inb i h4 h5)).trans (sem_spell (k1_off30 i) s 5 es5 (k1_off30_inb i h4 h6)).symm))) $$ W5
  ihave W6 := (Entails.of_eq (congrArg (fun x => (semVal ((c : Thread nD τ), SemLoc.dma x) 0 : sProp 𝕄)) ((sem_spell (k1_off14 i) s 6 ew6 (k1_off14_inb i h4 h5)).trans (sem_spell (k1_off32 i) s 6 es6 (k1_off32_inb i h4 h6)).symm))) $$ W6
  ihave W7 := (Entails.of_eq (congrArg (fun x => (semVal ((c : Thread nD τ), SemLoc.dma x) 0 : sProp 𝕄)) ((sem_spell (k1_off16 i) s 7 ew7 (k1_off16_inb i h4 h5)).trans (sem_spell (k1_off34 i) s 7 es7 (k1_off34_inb i h4 h6)).symm))) $$ W7
  sl_exec (disch := first | exact hA | exact hB | exact hC | exact h4 | exact h5 | exact h6 | exact h7)
  sl_step
  iapply Hk
  isplitl [H4]
  · iexists _; isplitr; · ipureintro; exact hf4
    iexact H4
  isplitl [H5]
  · iexists _; isplitr; · ipureintro; exact hf5
    iexact H5
  isplitl [H9]; · iexact H9
  isplitl [H11]; · iexact H11
  isplitl [Ho]
  · iexists _; isplitr; swap; · iexact Ho
    ipureintro
    intro p hp
    simp only [Finset.mem_insert] at hp
    rcases hp with rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact .inl hp
  isplitl [W0_dst]; · iexact W0_dst
  isplitl [W1_dst]; · iexact W1_dst
  isplitl [W2_dst]; · iexact W2_dst
  isplitl [W3_dst]; · iexact W3_dst
  isplitl [W4_dst]; · iexact W4_dst
  isplitl [W5_dst]; · iexact W5_dst
  isplitl [W6_dst]; · iexact W6_dst
  isplitl [W7_dst]; · iexact W7_dst
  iexists q, _; isplitr; swap
  · -- the eight flights, over the rows' ranges
    isplitl [W0]
    · unfold FlightX; iexists _; isplitr; swap
      · ihave W0 := (Entails.of_eq (flight_spell c (k1_off19 i) (k1_off20 i 0#32) (k1_off21 i) s 0 (3072 * j) (3072 * j + 384) 0 (0 + 384)
          es0 ed0 rfl er0 rfl _ _ _ _ _)) $$ W0
        iexact W0
      · ipureintro
        exact fact_spell c _ _ ⟨j, hj32⟩ s 0 ed0 er0 _ _ g _
    isplitl [W1]
    · unfold FlightX; iexists _; isplitr; swap
      · ihave W1 := (Entails.of_eq (flight_spell c (k1_off22 i) (k1_off20 i 384#32) (k1_off23 i) s 1 (3072 * j + 384) (3072 * j + 384 + 384) 384 (384 + 384)
          es1 ed1 rfl er1 rfl _ _ _ _ _)) $$ W1
        iexact W1
      · ipureintro
        exact fact_spell c _ _ ⟨j, hj32⟩ s 1 ed1 er1 _ _ g _
    isplitl [W2]
    · unfold FlightX; iexists _; isplitr; swap
      · ihave W2 := (Entails.of_eq (flight_spell c (k1_off24 i) (k1_off20 i 768#32) (k1_off25 i) s 2 (3072 * j + 768) (3072 * j + 768 + 384) 768 (768 + 384)
          es2 ed2 rfl er2 rfl _ _ _ _ _)) $$ W2
        iexact W2
      · ipureintro
        exact fact_spell c _ _ ⟨j, hj32⟩ s 2 ed2 er2 _ _ g _
    isplitl [W3]
    · unfold FlightX; iexists _; isplitr; swap
      · ihave W3 := (Entails.of_eq (flight_spell c (k1_off26 i) (k1_off20 i 1152#32) (k1_off27 i) s 3 (3072 * j + 1152) (3072 * j + 1152 + 384) 1152 (1152 + 384)
          es3 ed3 rfl er3 rfl _ _ _ _ _)) $$ W3
        iexact W3
      · ipureintro
        exact fact_spell c _ _ ⟨j, hj32⟩ s 3 ed3 er3 _ _ g _
    isplitl [W4]
    · unfold FlightX; iexists _; isplitr; swap
      · ihave W4 := (Entails.of_eq (flight_spell c (k1_off28 i) (k1_off20 i 1536#32) (k1_off29 i) s 4 (3072 * j + 1536) (3072 * j + 1536 + 384) 1536 (1536 + 384)
          es4 ed4 rfl er4 rfl _ _ _ _ _)) $$ W4
        iexact W4
      · ipureintro
        exact fact_spell c _ _ ⟨j, hj32⟩ s 4 ed4 er4 _ _ g _
    isplitl [W5]
    · unfold FlightX; iexists _; isplitr; swap
      · ihave W5 := (Entails.of_eq (flight_spell c (k1_off30 i) (k1_off20 i 1920#32) (k1_off31 i) s 5 (3072 * j + 1920) (3072 * j + 1920 + 384) 1920 (1920 + 384)
          es5 ed5 rfl er5 rfl _ _ _ _ _)) $$ W5
        iexact W5
      · ipureintro
        exact fact_spell c _ _ ⟨j, hj32⟩ s 5 ed5 er5 _ _ g _
    isplitl [W6]
    · unfold FlightX; iexists _; isplitr; swap
      · ihave W6 := (Entails.of_eq (flight_spell c (k1_off32 i) (k1_off20 i 2304#32) (k1_off33 i) s 6 (3072 * j + 2304) (3072 * j + 2304 + 384) 2304 (2304 + 384)
          es6 ed6 rfl er6 rfl _ _ _ _ _)) $$ W6
        iexact W6
      · ipureintro
        exact fact_spell c _ _ ⟨j, hj32⟩ s 6 ed6 er6 _ _ g _
    · unfold FlightX; iexists _; isplitr; swap
      · ihave W7 := (Entails.of_eq (flight_spell c (k1_off34 i) (k1_off20 i 2688#32) (k1_off35 i) s 7 (3072 * j + 2688) (3072 * j + 2688 + 384) 2688 (2688 + 384)
          es7 ed7 rfl er7 rfl _ _ _ _ _)) $$ W7
        iexact W7
      · ipureintro
        exact fact_spell c _ _ ⟨j, hj32⟩ s 7 ed7 er7 _ _ g _
  · ipureintro
    congr 1
    · exact (readAt_unit_zero _ zero2 _ _).trans hf4
    · exact whole_readAt_unit_zero cc1_scratch0 zero2 _ _
    · exact (readAt_unit_zero _ zero2 _ _).trans hf5
    · exact whole_readAt_unit_zero cc1_scratch2 zero2 _ _

end Run1

/-! ## The obligation at the points of pass 1 that wait, store and start -/

section Points1mid

variable (c : Dev nD) (A : Arrs (F := F) c) (Rec : Set (SemLoc sig × HIx 1)) (I : RegionInv c A)

set_option maxHeartbeats 8000000 in
theorem point1_mid (hRec : ∀ sm : SemLoc sig, (sm, (none : HIx 1)) ∈ Rec) (t : Fin cfg1.N) (h35 : 35 ≤ t.val) (h64 : t.val ≤ 64) :
    PointObl c A Rec I t := by
  obtain ⟨j, hj⟩ : ∃ j, t.val = 33 + j := ⟨t.val - 33, by omega⟩
  have hj2 : 2 ≤ j := by omega
  have hj31 : j ≤ 31 := by omega
  have hj2lt : j - 2 < 32 := by omega
  have hjlt : j < 32 := by omega
  have hslot : slotOf (j - 2) = slotOf j := Fin.ext (by show (j - 2) % 2 = j % 2; omega)
  unfold PointObl bodyPre bodyPost bodyAt1
  simp only [before_eq]
  rw [show (pdat c A Rec I).Φ t.castSucc = Φ c A I t.val from rfl, show (pdat c A Rec I).Φ t.succ = Φ c A I (t.val + 1) from rfl,
    show (pdat c A Rec I).owesAt (none : HIx 1) t.succ = (pdat c A Rec I).owesAt (none : HIx 1) t.castSucc from rfl]
  rw [Φ_fly c A I t.val (by omega) (by omega), Φ_fly c A I (t.val + 1) (by omega) (by omega),
    show t.val - 33 = j from by omega, show t.val + 1 - 33 = j + 1 from by omega,
    fly_ge c A I j hj2, fly_ge c A I (j + 1) (by omega),
    show j + 1 - 2 = j - 1 from by omega, show j + 1 - 1 = j from by omega,
    FlightB_lt c A I (j - 2) (by omega), FlightB_lt c A I j (by omega)]
  unfold scr
  iintro ⟨⟨⟨⟨%hv, H9, %hhv⟩, ⟨%sv, H10, %hs⟩, ⟨%l, H11, %hl⟩⟩, ⟨%f0, Hl, %hl0⟩, ⟨%fu, Hu⟩, ⟨B0, B1, B2, B3, B4, B5, B6, B7⟩, HB1⟩, ⟨%W, %hW, Ho⟩, ⟨%d0, H0⟩, ⟨%d1, H1⟩, ⟨%d2, H2⟩, ⟨%d3, H3⟩, ⟨%d4, H4⟩, ⟨%d5, H5⟩⟩
  -- the flights of block j - 2, over the rows' ranges
  ihave B0 := (FlightC_elim c A I ⟨j - 2, hj2lt⟩ 0 (slotOf j) hslot (3072 * (j - 2)) (3072 * (j - 2) + 384) 0 384 rfl (by omega) rfl rfl) $$ B0
  icases B0 with ⟨%g0, %q0, %hg0, B0⟩
  ihave B1 := (FlightC_elim c A I ⟨j - 2, hj2lt⟩ 1 (slotOf j) hslot (3072 * (j - 2) + 384) (3072 * (j - 2) + 768) 384 768 rfl (by omega) rfl rfl) $$ B1
  icases B1 with ⟨%g1, %q1, %hg1, B1⟩
  ihave B2 := (FlightC_elim c A I ⟨j - 2, hj2lt⟩ 2 (slotOf j) hslot (3072 * (j - 2) + 768) (3072 * (j - 2) + 1152) 768 1152 rfl (by omega) rfl rfl) $$ B2
  icases B2 with ⟨%g2, %q2, %hg2, B2⟩
  ihave B3 := (FlightC_elim c A I ⟨j - 2, hj2lt⟩ 3 (slotOf j) hslot (3072 * (j - 2) + 1152) (3072 * (j - 2) + 1536) 1152 1536 rfl (by omega) rfl rfl) $$ B3
  icases B3 with ⟨%g3, %q3, %hg3, B3⟩
  ihave B4 := (FlightC_elim c A I ⟨j - 2, hj2lt⟩ 4 (slotOf j) hslot (3072 * (j - 2) + 1536) (3072 * (j - 2) + 1920) 1536 1920 rfl (by omega) rfl rfl) $$ B4
  icases B4 with ⟨%g4, %q4, %hg4, B4⟩
  ihave B5 := (FlightC_elim c A I ⟨j - 2, hj2lt⟩ 5 (slotOf j) hslot (3072 * (j - 2) + 1920) (3072 * (j - 2) + 2304) 1920 2304 rfl (by omega) rfl rfl) $$ B5
  icases B5 with ⟨%g5, %q5, %hg5, B5⟩
  ihave B6 := (FlightC_elim c A I ⟨j - 2, hj2lt⟩ 6 (slotOf j) hslot (3072 * (j - 2) + 2304) (3072 * (j - 2) + 2688) 2304 2688 rfl (by omega) rfl rfl) $$ B6
  icases B6 with ⟨%g6, %q6, %hg6, B6⟩
  ihave B7 := (FlightC_elim c A I ⟨j - 2, hj2lt⟩ 7 (slotOf j) hslot (3072 * (j - 2) + 2688) (3072 * (j - 2) + 3072) 2688 3072 rfl (by omega) rfl rfl) $$ B7
  icases B7 with ⟨%g7, %q7, %hg7, B7⟩
  -- the untouched rows: block j's and the rest
  ihave Hu := (rows_split c (a := 3072 * j) (b := 3072 * j + 3072) (d := 100000) (by omega) (by omega) fu).1 $$ Hu
  icases Hu with ⟨Hblk, Hrest⟩
  iapply (run1_mid c (grid1.coords t) _ _ _ _ _ _ _ _ _ _ _ _ j (by rw [coords1, hj]; omega) (slotOf j) rfl (by omega)
    (fun hc => by have := (hcA t).mp hc; omega) (fun hc => by have := (hcB t).mp hc; omega) (fun hc => by have := (hcC t).mp hc; omega)
    ((hc4 t).mpr (by omega)) ((hc5 t).mpr (by omega)) ((hc6 t).mpr (by omega)) (fun hc => by have := (hc7 t).mp hc; omega)
    (stg c A 4 t d4) (stg c A 5 t d5) hv l
    ![rowRange (3072 * (j - 2)) (3072 * (j - 2) + 384), rowRange (3072 * (j - 2) + 384) (3072 * (j - 2) + 768), rowRange (3072 * (j - 2) + 768) (3072 * (j - 2) + 1152), rowRange (3072 * (j - 2) + 1152) (3072 * (j - 2) + 1536), rowRange (3072 * (j - 2) + 1536) (3072 * (j - 2) + 1920), rowRange (3072 * (j - 2) + 1920) (3072 * (j - 2) + 2304), rowRange (3072 * (j - 2) + 2304) (3072 * (j - 2) + 2688), rowRange (3072 * (j - 2) + 2688) (3072 * (j - 2) + 3072)]
    ![g0, g1, g2, g3, g4, g5, g6, g7] ![q0, q1, q2, q3, q4, q5, q6, q7] fu W _)
  isplitl [H4]; · iexact H4
  isplitl [H5]; · iexact H5
  isplitl [H9]; · iexact H9
  isplitl [H11]; · iexact H11
  isplitl [Ho]; · iexact Ho
  isplitl [Hblk]; · iexact Hblk
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  iintro ⟨H4, H5, H9, H11, ⟨%W', %hW', Ho⟩, L0, L1, L2, L3, L4, L5, L6, L7, ⟨%q, %P, %hP, F0, F1, F2, F3, F4, F5, F6, F7⟩⟩
  -- the landed rows grow by block j - 2
  ihave HL := (landed_join c A I ⟨j - 2, hj2lt⟩ f0 g0 g1 g2 g3 g4 g5 g6 g7 (fun b' r hb => hl0 b' r (by simp only at hb; omega))
    hg0 hg1 hg2 hg3 hg4 hg5 hg6 hg7) $$ [Hl L0 L1 L2 L3 L4 L5 L6 L7]
  · isplitl [Hl]; · iexact Hl
    isplitl [L0]; · iexact L0
    isplitl [L1]; · iexact L1
    isplitl [L2]; · iexact L2
    isplitl [L3]; · iexact L3
    isplitl [L4]; · iexact L4
    isplitl [L5]; · iexact L5
    isplitl [L6]; · iexact L6
    iexact L7
  icases HL with ⟨%f', Hl, %hf'⟩
  isplitl [H9 H10 H11 Hl Hrest HB1 F0 F1 F2 F3 F4 F5 F6 F7]
  · isplitl [H9 H10 H11]
    · isplitl [H9]
      · iexists hv; isplitl [H9]; · iexact H9
        ipureintro; intro _; exact hhv (by omega)
      isplitl [H10]
      · iexists sv; isplitl [H10]; · iexact H10
        ipureintro; intro _
        have hs' := hs (by omega)
        rw [min_eq_right (by omega : 32 ≤ t.val)] at hs'
        rw [min_eq_right (by omega : 32 ≤ t.val + 1)]; exact hs'
      · iexists l; isplitl [H11]; · iexact H11
        ipureintro; intro _; exact hl (by omega)
    isplitl [Hl]
    · iexists f'; isplitl [Hl]
      · iapply (Entails.of_eq (congrArg (fun S : Finset S100000x1024.Idx => (mainM.view.loc (c : Thread nD τ) ↦[S]{fullShare} f' : sProp 𝕄))
          (rowRange_congr rfl (by simp only; omega)))) $$ Hl
      · ipureintro; intro b r hb; exact hf' b r (by simp only; omega)
    isplitl [Hrest]
    · iexists fu
      iapply (Entails.of_eq (congrArg (fun S : Finset S100000x1024.Idx => (mainM.view.loc (c : Thread nD τ) ↦[S]{fullShare} fu : sProp 𝕄))
          (rowRange_congr (by omega) rfl))) $$ Hrest
    isplitl [HB1]; · iexact HB1
    isplitl [F0]; · iapply (flightX_C c A I t ⟨j, hjlt⟩ hj (slotOf j) rfl 0 d4 d5 hv l (hhv (by omega)) (hl (by omega)) q P hP) $$ F0
    isplitl [F1]; · iapply (flightX_C c A I t ⟨j, hjlt⟩ hj (slotOf j) rfl 1 d4 d5 hv l (hhv (by omega)) (hl (by omega)) q P hP) $$ F1
    isplitl [F2]; · iapply (flightX_C c A I t ⟨j, hjlt⟩ hj (slotOf j) rfl 2 d4 d5 hv l (hhv (by omega)) (hl (by omega)) q P hP) $$ F2
    isplitl [F3]; · iapply (flightX_C c A I t ⟨j, hjlt⟩ hj (slotOf j) rfl 3 d4 d5 hv l (hhv (by omega)) (hl (by omega)) q P hP) $$ F3
    isplitl [F4]; · iapply (flightX_C c A I t ⟨j, hjlt⟩ hj (slotOf j) rfl 4 d4 d5 hv l (hhv (by omega)) (hl (by omega)) q P hP) $$ F4
    isplitl [F5]; · iapply (flightX_C c A I t ⟨j, hjlt⟩ hj (slotOf j) rfl 5 d4 d5 hv l (hhv (by omega)) (hl (by omega)) q P hP) $$ F5
    isplitl [F6]; · iapply (flightX_C c A I t ⟨j, hjlt⟩ hj (slotOf j) rfl 6 d4 d5 hv l (hhv (by omega)) (hl (by omega)) q P hP) $$ F6
    iapply (flightX_C c A I t ⟨j, hjlt⟩ hj (slotOf j) rfl 7 d4 d5 hv l (hhv (by omega)) (hl (by omega)) q P hP) $$ F7
  isplitl [Ho]
  · iexists W'; isplitr
    · ipureintro
      intro p hp
      rcases hW' p (Finset.mem_coe.mp hp) with h | h
      · exact hW (Finset.mem_coe.mpr h)
      · exact Or.inl (by obtain ⟨sm, ix⟩ := p; cases h; exact hRec sm)
    · iexact Ho
  isplitl [H0]; · iapply (owns_after c A Rec I 0 (fun _ _ => rfl) t d0 _) $$ H0
  isplitl [H1]; · iapply (owns_after c A Rec I 1 (fun _ _ => rfl) t d1 _) $$ H1
  isplitl [H2]; · iapply (owns_after c A Rec I 2 (fun _ _ => rfl) t d2 _) $$ H2
  isplitl [H3]; · iapply (owns_after c A Rec I 3 (fun _ _ => rfl) t d3 _) $$ H3
  isplitl [H4]; · iexists d4; iapply (owns_fill_cut c A Rec I 4 t d4 _) $$ H4
  iexists d5; iapply (owns_fill_cut c A Rec I 5 t d5 _) $$ H5

end Points1mid

end Cert.Proof.Kernel

end
-- ==== Proof.Kernel.RegionBody1c.lean ====
/-
  The TensorCore region's body at the last point of pass 1: the copies of block 30 are waited for, the last block's
  outputs are stored into the freed slot and its four row chunks started on their way; then the copies of block 31
  and the four just started are waited for, after which nothing is in flight.
-/
import proofs.«204087_g3891240370374_cont_8to1_b_1678_29_alg».proof.Proof.Kernel.RegionPoint
import proofs.«204087_g3891240370374_cont_8to1_b_1678_29_alg».proof.Proof.Kernel.RegionPhi
import proofs.«204087_g3891240370374_cont_8to1_b_1678_29_alg».proof.Proof.Kernel.RegionJoins

set_option maxRecDepth 16384

noncomputable section

namespace Cert.Proof.Kernel

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

/-! ## The last block's copies, the program's spelling and the proof's -/

section Tails

variable (c : Dev nD)

theorem pt_mainTail' (o : Fin 2 → ℕ) (a u : ℕ) (e : o = ![a, 0]) (hu : u = a + 424) (inb : ∀ k, o k + S424x1024.size k ≤ S100000x1024.size k)
    (f : Buf (Elt F) (mainM.view.loc (c : Thread nD τ))) :
    ((mainM.slice (Rect.unit o S424x1024.size inb) (fun _ => rfl)).view.loc (c : Thread nD τ)
        ↦[(mainM.slice (Rect.unit o S424x1024.size inb) (fun _ => rfl)).view.set]{fullShare} f : sProp 𝕄)
      = (mainM.view.loc (c : Thread nD τ) ↦[rowRange a u]{fullShare} f) := by
  subst hu; exact pt_mainTail c o a e inb f

theorem pt_ringTail' (o : Fin 3 → ℕ) (s a u : ℕ) (e : o = ![s, a, 0]) (hu : u = a + 424) (inb : ∀ k, o k + S1x424x1024.size k ≤ S2x3072x1024.size k)
    (f : Buf (Elt F) (ringM.view.loc (c : Thread nD τ))) :
    (((ringM.slice (Rect.unit o S1x424x1024.size inb) (fun _ => rfl)).squeeze S424x1024 squeezes_S1x424x1024_S424x1024).view.loc (c : Thread nD τ)
        ↦[((ringM.slice (Rect.unit o S1x424x1024.size inb) (fun _ => rfl)).squeeze S424x1024 squeezes_S1x424x1024_S424x1024).view.set]{fullShare} f : sProp 𝕄)
      = (ringM.view.loc (c : Thread nD τ) ↦[ringRange s a u]{fullShare} f) := by
  subst hu; exact pt_ringTail c o s a e inb f

/-- What a started tail copy lands reads, through the chunk, what it read of the ring. -/
theorem fact_spell_tail (od : Fin 2 → ℕ) (or' : Fin 3 → ℕ) (s : Fin 2) (r : Fin 4)
    (ed : od = ![98304 + 424 * r.val, 0]) (er : or' = ![s.val, 424 * r.val, 0])
    (inbd : ∀ k, od k + S424x1024.size k ≤ S100000x1024.size k) (inbr : ∀ k, or' k + S1x424x1024.size k ≤ S2x3072x1024.size k)
    (g : Buf (Elt F) (mainM.view.loc (c : Thread nD τ))) (W : Buf (Elt F) (ringM.view.loc (c : Thread nD τ))) :
    (mainTail r).view.read (Elt F)
        ((mainM.slice (Rect.unit od S424x1024.size inbd) (fun _ => rfl)).view.writes (Elt F) g
          [⟨Rect.whole _, ReadAs.same.apply (View.read (Elt F)
              ((ringM.slice (Rect.unit or' S1x424x1024.size inbr) (fun _ => rfl)).squeeze S424x1024 squeezes_S1x424x1024_S424x1024).view W)⟩])
      = ReadAs.same.apply ((ringTail s r).view.read (Elt F) W) := by
  subst ed er
  exact landed_read_tail c r g _

end Tails

section Run1

/-- An assertion set aside: the symbolic run does not look inside. -/
def Aside (P : sProp 𝕄) : sProp 𝕄 := P
theorem aside_intro {P : sProp 𝕄} : P ⊢ Aside P := .rfl
theorem aside_elim {P : sProp 𝕄} : Aside P ⊢ P := .rfl

set_option maxHeartbeats 32000000 in
/-- The last point: the eight copies of block 30 are waited for on slot s, the last block's outputs stored into the
    slot, its four row chunks started; the eight copies of block 31 on the other slot and the four are waited for. -/
theorem run1_last (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S128x64 .f32) (harg4 : arg4.IsWhole) (arg5 : Memref sig .tc .vmem S128x1 .f32) (harg5 : arg5.IsWhole) (arg6 : Memref sig .tc .vmem S3072x128 .f32) (harg6 : arg6.IsWhole) (arg7 : Memref sig .tc .vmem S1x3072 .f32) (harg7 : arg7.IsWhole)
    (hj : (i 1).val = 32) (s s' : Fin 2) (hs : 32 % 2 = s.val) (hs' : s'.val = 1 - s.val)
    (hA : ¬cA i) (hB : ¬cB i) (hC : ¬cC i) (h4 : k1_cond4 i = 1#1) (h5 : k1_cond5 i = 1#1) (h6 : ¬k1_cond6 i = 1#1) (h7 : k1_cond7 i = 1#1)
    (X4 : Vec F S3072x128 .f32) (X5 : Vec F S1x3072 .f32) (ht : Vec F S128x1024 .bf16) (l : Vec F S1x1024 .f32)
    (A0 A1 A2 A3 A4 A5 A6 A7 B0 B1 B2 B3 B4 B5 B6 B7 : Finset S100000x1024.Idx)
    (g0 g1 g2 g3 g4 g5 g6 g7 h0 h1 h2 h3 h4' h5' h6' h7' g : Buf (Elt F) (mainM.view.loc (c : Thread nD τ)))
    (q0 q1 q2 q3 q4 q5 q6 q7 p0 p1 p2 p3 p4 p5 p6 p7 : Buf (Elt F) (ringM.view.loc (c : Thread nD τ)))
    (W : Waits sig (HIx 1)) (K : PUnit → sProp 𝕄) :
    iprop(owns (c : Thread nD τ) arg6 fullShare X4 ∗ owns (c : Thread nD τ) arg7 fullShare X5
        ∗ ((Memref.whole cc1_scratch0).view.loc (c : Thread nD τ) ↦{fullShare} ht)
        ∗ ((Memref.whole cc1_scratch2).view.loc (c : Thread nD τ) ↦{fullShare} l)
        ∗ owes (c : Thread nD τ) 0 W
        ∗ (mainM.view.loc (c : Thread nD τ) ↦[rowRange 98304 100000]{fullShare} g)
        ∗ Transfers.Flight EC (c : Thread nD τ) (.dma (rsem s 0)) (none : HIx 1) 49152
            iprop((mainM.view.loc (c : Thread nD τ) ↦[A0]{fullShare} g0) ∗ (ringM.view.loc (c : Thread nD τ) ↦[ringRange s.val 0 384]{fullShare} q0))
        ∗ Transfers.Flight EC (c : Thread nD τ) (.dma (rsem s 1)) (none : HIx 1) 49152
            iprop((mainM.view.loc (c : Thread nD τ) ↦[A1]{fullShare} g1) ∗ (ringM.view.loc (c : Thread nD τ) ↦[ringRange s.val 384 768]{fullShare} q1))
        ∗ Transfers.Flight EC (c : Thread nD τ) (.dma (rsem s 2)) (none : HIx 1) 49152
            iprop((mainM.view.loc (c : Thread nD τ) ↦[A2]{fullShare} g2) ∗ (ringM.view.loc (c : Thread nD τ) ↦[ringRange s.val 768 1152]{fullShare} q2))
        ∗ Transfers.Flight EC (c : Thread nD τ) (.dma (rsem s 3)) (none : HIx 1) 49152
            iprop((mainM.view.loc (c : Thread nD τ) ↦[A3]{fullShare} g3) ∗ (ringM.view.loc (c : Thread nD τ) ↦[ringRange s.val 1152 1536]{fullShare} q3))
        ∗ Transfers.Flight EC (c : Thread nD τ) (.dma (rsem s 4)) (none : HIx 1) 49152
            iprop((mainM.view.loc (c : Thread nD τ) ↦[A4]{fullShare} g4) ∗ (ringM.view.loc (c : Thread nD τ) ↦[ringRange s.val 1536 1920]{fullShare} q4))
        ∗ Transfers.Flight EC (c : Thread nD τ) (.dma (rsem s 5)) (none : HIx 1) 49152
            iprop((mainM.view.loc (c : Thread nD τ) ↦[A5]{fullShare} g5) ∗ (ringM.view.loc (c : Thread nD τ) ↦[ringRange s.val 1920 2304]{fullShare} q5))
        ∗ Transfers.Flight EC (c : Thread nD τ) (.dma (rsem s 6)) (none : HIx 1) 49152
            iprop((mainM.view.loc (c : Thread nD τ) ↦[A6]{fullShare} g6) ∗ (ringM.view.loc (c : Thread nD τ) ↦[ringRange s.val 2304 2688]{fullShare} q6))
        ∗ Transfers.Flight EC (c : Thread nD τ) (.dma (rsem s 7)) (none : HIx 1) 49152
            iprop((mainM.view.loc (c : Thread nD τ) ↦[A7]{fullShare} g7) ∗ (ringM.view.loc (c : Thread nD τ) ↦[ringRange s.val 2688 3072]{fullShare} q7))
        ∗ Transfers.Flight EC (c : Thread nD τ) (.dma (rsem s' 0)) (none : HIx 1) 49152
            iprop((mainM.view.loc (c : Thread nD τ) ↦[B0]{fullShare} h0) ∗ (ringM.view.loc (c : Thread nD τ) ↦[ringRange s'.val 0 384]{fullShare} p0))
        ∗ Transfers.Flight EC (c : Thread nD τ) (.dma (rsem s' 1)) (none : HIx 1) 49152
            iprop((mainM.view.loc (c : Thread nD τ) ↦[B1]{fullShare} h1) ∗ (ringM.view.loc (c : Thread nD τ) ↦[ringRange s'.val 384 768]{fullShare} p1))
        ∗ Transfers.Flight EC (c : Thread nD τ) (.dma (rsem s' 2)) (none : HIx 1) 49152
            iprop((mainM.view.loc (c : Thread nD τ) ↦[B2]{fullShare} h2) ∗ (ringM.view.loc (c : Thread nD τ) ↦[ringRange s'.val 768 1152]{fullShare} p2))
        ∗ Transfers.Flight EC (c : Thread nD τ) (.dma (rsem s' 3)) (none : HIx 1) 49152
            iprop((mainM.view.loc (c : Thread nD τ) ↦[B3]{fullShare} h3) ∗ (ringM.view.loc (c : Thread nD τ) ↦[ringRange s'.val 1152 1536]{fullShare} p3))
        ∗ Transfers.Flight EC (c : Thread nD τ) (.dma (rsem s' 4)) (none : HIx 1) 49152
            iprop((mainM.view.loc (c : Thread nD τ) ↦[B4]{fullShare} h4') ∗ (ringM.view.loc (c : Thread nD τ) ↦[ringRange s'.val 1536 1920]{fullShare} p4))
        ∗ Transfers.Flight EC (c : Thread nD τ) (.dma (rsem s' 5)) (none : HIx 1) 49152
            iprop((mainM.view.loc (c : Thread nD τ) ↦[B5]{fullShare} h5') ∗ (ringM.view.loc (c : Thread nD τ) ↦[ringRange s'.val 1920 2304]{fullShare} p5))
        ∗ Transfers.Flight EC (c : Thread nD τ) (.dma (rsem s' 6)) (none : HIx 1) 49152
            iprop((mainM.view.loc (c : Thread nD τ) ↦[B6]{fullShare} h6') ∗ (ringM.view.loc (c : Thread nD τ) ↦[ringRange s'.val 2304 2688]{fullShare} p6))
        ∗ Transfers.Flight EC (c : Thread nD τ) (.dma (rsem s' 7)) (none : HIx 1) 49152
            iprop((mainM.view.loc (c : Thread nD τ) ↦[B7]{fullShare} h7') ∗ (ringM.view.loc (c : Thread nD τ) ↦[ringRange s'.val 2688 3072]{fullShare} p7))
        ∗ (iprop(owns (c : Thread nD τ) arg6 fullShare X4 ∗ owns (c : Thread nD τ) arg7 fullShare X5
            ∗ ((Memref.whole cc1_scratch0).view.loc (c : Thread nD τ) ↦{fullShare} ht)
            ∗ ((Memref.whole cc1_scratch2).view.loc (c : Thread nD τ) ↦{fullShare} l)
            ∗ (∃ W' : Waits sig (HIx 1), ⌜∀ p ∈ W', p ∈ W ∨ p.2 = none⌝ ∗ owes (c : Thread nD τ) 0 W')
            ∗ (mainM.view.loc (c : Thread nD τ) ↦[A0]{fullShare} g0) ∗ (mainM.view.loc (c : Thread nD τ) ↦[A1]{fullShare} g1) ∗ (mainM.view.loc (c : Thread nD τ) ↦[A2]{fullShare} g2) ∗ (mainM.view.loc (c : Thread nD τ) ↦[A3]{fullShare} g3) ∗ (mainM.view.loc (c : Thread nD τ) ↦[A4]{fullShare} g4) ∗ (mainM.view.loc (c : Thread nD τ) ↦[A5]{fullShare} g5) ∗ (mainM.view.loc (c : Thread nD τ) ↦[A6]{fullShare} g6) ∗ (mainM.view.loc (c : Thread nD τ) ↦[A7]{fullShare} g7)
            ∗ (mainM.view.loc (c : Thread nD τ) ↦[B0]{fullShare} h0) ∗ (mainM.view.loc (c : Thread nD τ) ↦[B1]{fullShare} h1) ∗ (mainM.view.loc (c : Thread nD τ) ↦[B2]{fullShare} h2) ∗ (mainM.view.loc (c : Thread nD τ) ↦[B3]{fullShare} h3) ∗ (mainM.view.loc (c : Thread nD τ) ↦[B4]{fullShare} h4') ∗ (mainM.view.loc (c : Thread nD τ) ↦[B5]{fullShare} h5') ∗ (mainM.view.loc (c : Thread nD τ) ↦[B6]{fullShare} h6') ∗ (mainM.view.loc (c : Thread nD τ) ↦[B7]{fullShare} h7')
            ∗ (ringM.view.loc (c : Thread nD τ) ↦[ringRange s'.val 0 384]{fullShare} p0) ∗ (ringM.view.loc (c : Thread nD τ) ↦[ringRange s'.val 384 768]{fullShare} p1) ∗ (ringM.view.loc (c : Thread nD τ) ↦[ringRange s'.val 768 1152]{fullShare} p2) ∗ (ringM.view.loc (c : Thread nD τ) ↦[ringRange s'.val 1152 1536]{fullShare} p3) ∗ (ringM.view.loc (c : Thread nD τ) ↦[ringRange s'.val 1536 1920]{fullShare} p4) ∗ (ringM.view.loc (c : Thread nD τ) ↦[ringRange s'.val 1920 2304]{fullShare} p5) ∗ (ringM.view.loc (c : Thread nD τ) ↦[ringRange s'.val 2304 2688]{fullShare} p6) ∗ (ringM.view.loc (c : Thread nD τ) ↦[ringRange s'.val 2688 3072]{fullShare} p7)
            ∗ (∃ (qj : Buf (Elt F) (ringM.view.loc (c : Thread nD τ))) (P : Vec F S1x3072x1024 .f32), ⌜P = k1_pay6 X4 ht X5 l⌝
                ∗ (∃ t : Buf (Elt F) (mainM.view.loc (c : Thread nD τ)), ⌜(mainTail 0).view.read (Elt F) t = ReadAs.same.apply ((ringTail s 0).view.read (Elt F) (slotW c s qj P))⌝
                  ∗ (mainM.view.loc (c : Thread nD τ) ↦[rowRange 98304 98728]{fullShare} t) ∗ (ringM.view.loc (c : Thread nD τ) ↦[ringRange s.val 0 424]{fullShare} slotW c s qj P))
                ∗ (∃ t : Buf (Elt F) (mainM.view.loc (c : Thread nD τ)), ⌜(mainTail 1).view.read (Elt F) t = ReadAs.same.apply ((ringTail s 1).view.read (Elt F) (slotW c s qj P))⌝
                  ∗ (mainM.view.loc (c : Thread nD τ) ↦[rowRange 98728 99152]{fullShare} t) ∗ (ringM.view.loc (c : Thread nD τ) ↦[ringRange s.val 424 848]{fullShare} slotW c s qj P))
                ∗ (∃ t : Buf (Elt F) (mainM.view.loc (c : Thread nD τ)), ⌜(mainTail 2).view.read (Elt F) t = ReadAs.same.apply ((ringTail s 2).view.read (Elt F) (slotW c s qj P))⌝
                  ∗ (mainM.view.loc (c : Thread nD τ) ↦[rowRange 99152 99576]{fullShare} t) ∗ (ringM.view.loc (c : Thread nD τ) ↦[ringRange s.val 848 1272]{fullShare} slotW c s qj P))
                ∗ (∃ t : Buf (Elt F) (mainM.view.loc (c : Thread nD τ)), ⌜(mainTail 3).view.read (Elt F) t = ReadAs.same.apply ((ringTail s 3).view.read (Elt F) (slotW c s qj P))⌝
                  ∗ (mainM.view.loc (c : Thread nD τ) ↦[rowRange 99576 100000]{fullShare} t) ∗ (ringM.view.loc (c : Thread nD τ) ↦[ringRange s.val 1272 1696]{fullShare} slotW c s qj P))
                ∗ (ringM.view.loc (c : Thread nD τ) ↦[ringRange s.val 1696 3072]{fullShare} slotW c s qj P))
            ∗ semVal ((c : Thread nD τ), SemLoc.dma (rsem s 0)) 0 ∗ semVal ((c : Thread nD τ), SemLoc.dma (rsem s 1)) 0 ∗ semVal ((c : Thread nD τ), SemLoc.dma (rsem s 2)) 0 ∗ semVal ((c : Thread nD τ), SemLoc.dma (rsem s 3)) 0 ∗ semVal ((c : Thread nD τ), SemLoc.dma (rsem s 4)) 0 ∗ semVal ((c : Thread nD τ), SemLoc.dma (rsem s 5)) 0 ∗ semVal ((c : Thread nD τ), SemLoc.dma (rsem s 6)) 0 ∗ semVal ((c : Thread nD τ), SemLoc.dma (rsem s 7)) 0
            ∗ semVal ((c : Thread nD τ), SemLoc.dma (rsem s' 0)) 0 ∗ semVal ((c : Thread nD τ), SemLoc.dma (rsem s' 1)) 0 ∗ semVal ((c : Thread nD τ), SemLoc.dma (rsem s' 2)) 0 ∗ semVal ((c : Thread nD τ), SemLoc.dma (rsem s' 3)) 0 ∗ semVal ((c : Thread nD τ), SemLoc.dma (rsem s' 4)) 0 ∗ semVal ((c : Thread nD τ), SemLoc.dma (rsem s' 5)) 0 ∗ semVal ((c : Thread nD τ), SemLoc.dma (rsem s' 6)) 0 ∗ semVal ((c : Thread nD τ), SemLoc.dma (rsem s' 7)) 0) -∗ K ⟨⟩))
      ⊢ wp frame (wpE (defs₀ (F := F)) 𝒱₀ (c : Thread nD τ) none) Set.univ
          (cc1__fused_body i arg2 harg2 arg3 harg3 arg4 harg4 arg5 harg5 arg6 harg6 arg7 harg7 (Memref.whole main_v9) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4) K := by
  have hsv : (i 1).val % 2 = s.val := by rw [hj]; exact hs
  have hsv' : 1 - (i 1).val % 2 = s'.val := by rw [hsv]; exact hs'.symm
  have e18 : k1_off18 i = ![s.val, 0, 0] := by rw [k1_off18_eq, hsv]
  have ew0 : k1_off1 i = ![s.val, 0] := by rw [k1_off1_eq, hsv]
  have ew1 : k1_off4 i = ![s.val, 1] := by rw [k1_off4_eq, hsv]
  have ew2 : k1_off6 i = ![s.val, 2] := by rw [k1_off6_eq, hsv]
  have ew3 : k1_off8 i = ![s.val, 3] := by rw [k1_off8_eq, hsv]
  have ew4 : k1_off10 i = ![s.val, 4] := by rw [k1_off10_eq, hsv]
  have ew5 : k1_off12 i = ![s.val, 5] := by rw [k1_off12_eq, hsv]
  have ew6 : k1_off14 i = ![s.val, 6] := by rw [k1_off14_eq, hsv]
  have ew7 : k1_off16 i = ![s.val, 7] := by rw [k1_off16_eq, hsv]
  have et0 : k1_off36 i = ![s.val, 0] := by rw [k1_off36_eq, hsv]
  have et1 : k1_off38 i = ![s.val, 1] := by rw [k1_off38_eq, hsv]
  have et2 : k1_off40 i = ![s.val, 2] := by rw [k1_off40_eq, hsv]
  have et3 : k1_off42 i = ![s.val, 3] := by rw [k1_off42_eq, hsv]
  have er0 : k1_off37 i = ![s.val, 0, 0] := by rw [k1_off37_eq, hsv]
  have er1 : k1_off39 i = ![s.val, 424, 0] := by rw [k1_off39_eq, hsv]
  have er2 : k1_off41 i = ![s.val, 848, 0] := by rw [k1_off41_eq, hsv]
  have er3 : k1_off43 i = ![s.val, 1272, 0] := by rw [k1_off43_eq, hsv]
  have ev0 : k1_off44 i = ![s'.val, 0] := by rw [k1_off44_eq, hsv']
  have ev1 : k1_off47 i = ![s'.val, 1] := by rw [k1_off47_eq, hsv']
  have ev2 : k1_off49 i = ![s'.val, 2] := by rw [k1_off49_eq, hsv']
  have ev3 : k1_off51 i = ![s'.val, 3] := by rw [k1_off51_eq, hsv']
  have ev4 : k1_off53 i = ![s'.val, 4] := by rw [k1_off53_eq, hsv']
  have ev5 : k1_off55 i = ![s'.val, 5] := by rw [k1_off55_eq, hsv']
  have ev6 : k1_off57 i = ![s'.val, 6] := by rw [k1_off57_eq, hsv']
  have ev7 : k1_off59 i = ![s'.val, 7] := by rw [k1_off59_eq, hsv']
  rw [cc1__fused_body_eq_skeleton]; unfold cc1__fused_body_skel
  unfold owns
  iintro ⟨⟨%f4, %hf4, H4⟩, ⟨%f5, %hf5, H5⟩, H9, H11, Ho, Hblk, W0, W1, W2, W3, W4, W5, W6, W7, V0, V1, V2, V3, V4, V5, V6, V7, Hk⟩
  obtain rfl := harg6.eq_unread hf4
  obtain rfl := harg7.eq_unread hf5
  -- block 31's flights set aside until their waits
  ihave V0 := (aside_intro) $$ V0
  ihave V1 := (aside_intro) $$ V1
  ihave V2 := (aside_intro) $$ V2
  ihave V3 := (aside_intro) $$ V3
  ihave V4 := (aside_intro) $$ V4
  ihave V5 := (aside_intro) $$ V5
  ihave V6 := (aside_intro) $$ V6
  ihave V7 := (aside_intro) $$ V7
  -- block 30's flights, their semaphores as the waits name them
  ihave W0 := (Entails.of_eq (congrArg (fun x => (Transfers.Flight EC (c : Thread nD τ) (SemLoc.dma x) (none : HIx 1) 49152
      iprop((mainM.view.loc (c : Thread nD τ) ↦[A0]{fullShare} g0) ∗ (ringM.view.loc (c : Thread nD τ) ↦[ringRange s.val 0 384]{fullShare} q0)) : sProp 𝕄))
    (sem_spell (k1_off1 i) s 0 ew0 (k1_off1_inb i h4 h5)).symm)) $$ W0
  ihave W1 := (Entails.of_eq (congrArg (fun x => (Transfers.Flight EC (c : Thread nD τ) (SemLoc.dma x) (none : HIx 1) 49152
      iprop((mainM.view.loc (c : Thread nD τ) ↦[A1]{fullShare} g1) ∗ (ringM.view.loc (c : Thread nD τ) ↦[ringRange s.val 384 768]{fullShare} q1)) : sProp 𝕄))
    (sem_spell (k1_off4 i) s 1 ew1 (k1_off4_inb i h4 h5)).symm)) $$ W1
  ihave W2 := (Entails.of_eq (congrArg (fun x => (Transfers.Flight EC (c : Thread nD τ) (SemLoc.dma x) (none : HIx 1) 49152
      iprop((mainM.view.loc (c : Thread nD τ) ↦[A2]{fullShare} g2) ∗ (ringM.view.loc (c : Thread nD τ) ↦[ringRange s.val 768 1152]{fullShare} q2)) : sProp 𝕄))
    (sem_spell (k1_off6 i) s 2 ew2 (k1_off6_inb i h4 h5)).symm)) $$ W2
  ihave W3 := (Entails.of_eq (congrArg (fun x => (Transfers.Flight EC (c : Thread nD τ) (SemLoc.dma x) (none : HIx 1) 49152
      iprop((mainM.view.loc (c : Thread nD τ) ↦[A3]{fullShare} g3) ∗ (ringM.view.loc (c : Thread nD τ) ↦[ringRange s.val 1152 1536]{fullShare} q3)) : sProp 𝕄))
    (sem_spell (k1_off8 i) s 3 ew3 (k1_off8_inb i h4 h5)).symm)) $$ W3
  ihave W4 := (Entails.of_eq (congrArg (fun x => (Transfers.Flight EC (c : Thread nD τ) (SemLoc.dma x) (none : HIx 1) 49152
      iprop((mainM.view.loc (c : Thread nD τ) ↦[A4]{fullShare} g4) ∗ (ringM.view.loc (c : Thread nD τ) ↦[ringRange s.val 1536 1920]{fullShare} q4)) : sProp 𝕄))
    (sem_spell (k1_off10 i) s 4 ew4 (k1_off10_inb i h4 h5)).symm)) $$ W4
  ihave W5 := (Entails.of_eq (congrArg (fun x => (Transfers.Flight EC (c : Thread nD τ) (SemLoc.dma x) (none : HIx 1) 49152
      iprop((mainM.view.loc (c : Thread nD τ) ↦[A5]{fullShare} g5) ∗ (ringM.view.loc (c : Thread nD τ) ↦[ringRange s.val 1920 2304]{fullShare} q5)) : sProp 𝕄))
    (sem_spell (k1_off12 i) s 5 ew5 (k1_off12_inb i h4 h5)).symm)) $$ W5
  ihave W6 := (Entails.of_eq (congrArg (fun x => (Transfers.Flight EC (c : Thread nD τ) (SemLoc.dma x) (none : HIx 1) 49152
      iprop((mainM.view.loc (c : Thread nD τ) ↦[A6]{fullShare} g6) ∗ (ringM.view.loc (c : Thread nD τ) ↦[ringRange s.val 2304 2688]{fullShare} q6)) : sProp 𝕄))
    (sem_spell (k1_off14 i) s 6 ew6 (k1_off14_inb i h4 h5)).symm)) $$ W6
  ihave W7 := (Entails.of_eq (congrArg (fun x => (Transfers.Flight EC (c : Thread nD τ) (SemLoc.dma x) (none : HIx 1) 49152
      iprop((mainM.view.loc (c : Thread nD τ) ↦[A7]{fullShare} g7) ∗ (ringM.view.loc (c : Thread nD τ) ↦[ringRange s.val 2688 3072]{fullShare} q7)) : sProp 𝕄))
    (sem_spell (k1_off16 i) s 7 ew7 (k1_off16_inb i h4 h5)).symm)) $$ W7
  (set_option sl_exec.stopBefore "k1_cond7" in sl_exec (disch := first | exact hA | exact hB | exact hC | exact h4 | exact h5 | exact h6 | exact h7))
  -- the slot's eight chunks are back: the slot, as the body names it
  ihave Hslot := (slot_join c s.val q0 q1 q2 q3 q4 q5 q6 q7) $$ [W0_src W1_src W2_src W3_src W4_src W5_src W6_src W7_src]
  · isplitl [W0_src]; · iexact W0_src
    isplitl [W1_src]; · iexact W1_src
    isplitl [W2_src]; · iexact W2_src
    isplitl [W3_src]; · iexact W3_src
    isplitl [W4_src]; · iexact W4_src
    isplitl [W5_src]; · iexact W5_src
    isplitl [W6_src]; · iexact W6_src
    iexact W7_src
  icases Hslot with ⟨%qj, Hslot⟩
  ihave Hslot := (Entails.of_eq (pt_ringSlot c (k1_off18 i) s.val e18 (k1_off18_inb i h4) qj).symm) $$ Hslot
  (set_option sl_exec.stopBefore "k1_cond7" in sl_exec (disch := first | exact hA | exact hB | exact hC | exact h4 | exact h5 | exact h6 | exact h7))
  unfold run1_last.sl.Hslot_w1
  -- the slot over its rows, cut into the four chunks the last block's copies read and the rest
  ihave Hslot := (Entails.of_eq (pt_ringSlot c (k1_off18 i) s.val e18 (k1_off18_inb i h4) _)) $$ Hslot
  ihave Hslot := (Entails.of_eq (congrArg (fun Wc => (ringM.view.loc (c : Thread nD τ) ↦[ringRange s.val 0 3072]{fullShare} Wc : sProp 𝕄))
    (slotW_spell c s (k1_off18 i) e18 (k1_off18_inb i h4) qj _))) $$ Hslot
  ihave Hslot := (slot_split_tail c s.val _) $$ Hslot
  icases Hslot with ⟨T0, T1, T2, T3, Trest⟩
  ihave T0 := (Entails.of_eq (pt_ringTail' c (k1_off37 i) s.val 0 424 er0 (by omega) (k1_off37_inb i h4 h7) _).symm) $$ T0
  ihave T1 := (Entails.of_eq (pt_ringTail' c (k1_off39 i) s.val 424 848 er1 (by omega) (k1_off39_inb i h4 h7) _).symm) $$ T1
  ihave T2 := (Entails.of_eq (pt_ringTail' c (k1_off41 i) s.val 848 1272 er2 (by omega) (k1_off41_inb i h4 h7) _).symm) $$ T2
  ihave T3 := (Entails.of_eq (pt_ringTail' c (k1_off43 i) s.val 1272 1696 er3 (by omega) (k1_off43_inb i h4 h7) _).symm) $$ T3
  -- the last block's rows of the result, cut into the four chunks the copies write
  ihave Hblk := (tail_split c g) $$ Hblk
  icases Hblk with ⟨D0, D1, D2, D3⟩
  ihave D0 := (Entails.of_eq (pt_mainTail' c ![98304, 0] 98304 98728 rfl rfl inb_S100000x1024_S424x1024_98304_0 g).symm) $$ D0
  ihave D1 := (Entails.of_eq (pt_mainTail' c ![98728, 0] 98728 99152 rfl rfl inb_S100000x1024_S424x1024_98728_0 g).symm) $$ D1
  ihave D2 := (Entails.of_eq (pt_mainTail' c ![99152, 0] 99152 99576 rfl rfl inb_S100000x1024_S424x1024_99152_0 g).symm) $$ D2
  ihave D3 := (Entails.of_eq (pt_mainTail' c ![99576, 0] 99576 100000 rfl rfl inb_S100000x1024_S424x1024_99576_0 g).symm) $$ D3
  -- the four semaphores the last block's copies complete on, from the waits' spelling to the starts'
  ihave W0 := (Entails.of_eq (congrArg (fun x => (semVal ((c : Thread nD τ), SemLoc.dma x) 0 : sProp 𝕄)) ((sem_spell (k1_off1 i) s 0 ew0 (k1_off1_inb i h4 h5)).trans (sem_spell (k1_off36 i) s 0 et0 (k1_off36_inb i h4 h7)).symm))) $$ W0
  ihave W1 := (Entails.of_eq (congrArg (fun x => (semVal ((c : Thread nD τ), SemLoc.dma x) 0 : sProp 𝕄)) ((sem_spell (k1_off4 i) s 1 ew1 (k1_off4_inb i h4 h5)).trans (sem_spell (k1_off38 i) s 1 et1 (k1_off38_inb i h4 h7)).symm))) $$ W1
  ihave W2 := (Entails.of_eq (congrArg (fun x => (semVal ((c : Thread nD τ), SemLoc.dma x) 0 : sProp 𝕄)) ((sem_spell (k1_off6 i) s 2 ew2 (k1_off6_inb i h4 h5)).trans (sem_spell (k1_off40 i) s 2 et2 (k1_off40_inb i h4 h7)).symm))) $$ W2
  ihave W3 := (Entails.of_eq (congrArg (fun x => (semVal ((c : Thread nD τ), SemLoc.dma x) 0 : sProp 𝕄)) ((sem_spell (k1_off8 i) s 3 ew3 (k1_off8_inb i h4 h5)).trans (sem_spell (k1_off42 i) s 3 et3 (k1_off42_inb i h4 h7)).symm))) $$ W3
  -- block 31's flights, their semaphores as the waits name them
  ihave V0 := (aside_elim) $$ V0
  ihave V0 := (Entails.of_eq (congrArg (fun x => (Transfers.Flight EC (c : Thread nD τ) (SemLoc.dma x) (none : HIx 1) 49152
      iprop((mainM.view.loc (c : Thread nD τ) ↦[B0]{fullShare} h0) ∗ (ringM.view.loc (c : Thread nD τ) ↦[ringRange s'.val 0 384]{fullShare} p0)) : sProp 𝕄))
    (sem_spell (k1_off44 i) s' 0 ev0 (k1_off44_inb i h4 h7)).symm)) $$ V0
  ihave V1 := (aside_elim) $$ V1
  ihave V1 := (Entails.of_eq (congrArg (fun x => (Transfers.Flight EC (c : Thread nD τ) (SemLoc.dma x) (none : HIx 1) 49152
      iprop((mainM.view.loc (c : Thread nD τ) ↦[B1]{fullShare} h1) ∗ (ringM.view.loc (c : Thread nD τ) ↦[ringRange s'.val 384 768]{fullShare} p1)) : sProp 𝕄))
    (sem_spell (k1_off47 i) s' 1 ev1 (k1_off47_inb i h4 h7)).symm)) $$ V1
  ihave V2 := (aside_elim) $$ V2
  ihave V2 := (Entails.of_eq (congrArg (fun x => (Transfers.Flight EC (c : Thread nD τ) (SemLoc.dma x) (none : HIx 1) 49152
      iprop((mainM.view.loc (c : Thread nD τ) ↦[B2]{fullShare} h2) ∗ (ringM.view.loc (c : Thread nD τ) ↦[ringRange s'.val 768 1152]{fullShare} p2)) : sProp 𝕄))
    (sem_spell (k1_off49 i) s' 2 ev2 (k1_off49_inb i h4 h7)).symm)) $$ V2
  ihave V3 := (aside_elim) $$ V3
  ihave V3 := (Entails.of_eq (congrArg (fun x => (Transfers.Flight EC (c : Thread nD τ) (SemLoc.dma x) (none : HIx 1) 49152
      iprop((mainM.view.loc (c : Thread nD τ) ↦[B3]{fullShare} h3) ∗ (ringM.view.loc (c : Thread nD τ) ↦[ringRange s'.val 1152 1536]{fullShare} p3)) : sProp 𝕄))
    (sem_spell (k1_off51 i) s' 3 ev3 (k1_off51_inb i h4 h7)).symm)) $$ V3
  ihave V4 := (aside_elim) $$ V4
  ihave V4 := (Entails.of_eq (congrArg (fun x => (Transfers.Flight EC (c : Thread nD τ) (SemLoc.dma x) (none : HIx 1) 49152
      iprop((mainM.view.loc (c : Thread nD τ) ↦[B4]{fullShare} h4') ∗ (ringM.view.loc (c : Thread nD τ) ↦[ringRange s'.val 1536 1920]{fullShare} p4)) : sProp 𝕄))
    (sem_spell (k1_off53 i) s' 4 ev4 (k1_off53_inb i h4 h7)).symm)) $$ V4
  ihave V5 := (aside_elim) $$ V5
  ihave V5 := (Entails.of_eq (congrArg (fun x => (Transfers.Flight EC (c : Thread nD τ) (SemLoc.dma x) (none : HIx 1) 49152
      iprop((mainM.view.loc (c : Thread nD τ) ↦[B5]{fullShare} h5') ∗ (ringM.view.loc (c : Thread nD τ) ↦[ringRange s'.val 1920 2304]{fullShare} p5)) : sProp 𝕄))
    (sem_spell (k1_off55 i) s' 5 ev5 (k1_off55_inb i h4 h7)).symm)) $$ V5
  ihave V6 := (aside_elim) $$ V6
  ihave V6 := (Entails.of_eq (congrArg (fun x => (Transfers.Flight EC (c : Thread nD τ) (SemLoc.dma x) (none : HIx 1) 49152
      iprop((mainM.view.loc (c : Thread nD τ) ↦[B6]{fullShare} h6') ∗ (ringM.view.loc (c : Thread nD τ) ↦[ringRange s'.val 2304 2688]{fullShare} p6)) : sProp 𝕄))
    (sem_spell (k1_off57 i) s' 6 ev6 (k1_off57_inb i h4 h7)).symm)) $$ V6
  ihave V7 := (aside_elim) $$ V7
  ihave V7 := (Entails.of_eq (congrArg (fun x => (Transfers.Flight EC (c : Thread nD τ) (SemLoc.dma x) (none : HIx 1) 49152
      iprop((mainM.view.loc (c : Thread nD τ) ↦[B7]{fullShare} h7') ∗ (ringM.view.loc (c : Thread nD τ) ↦[ringRange s'.val 2688 3072]{fullShare} p7)) : sProp 𝕄))
    (sem_spell (k1_off59 i) s' 7 ev7 (k1_off59_inb i h4 h7)).symm)) $$ V7
  sl_exec (disch := first | exact hA | exact hB | exact hC | exact h4 | exact h5 | exact h6 | exact h7)
  sl_step
  iapply Hk
  isplitl [H4]
  · iexists _; isplitr; · ipureintro; exact hf4
    iexact H4
  isplitl [H5]
  · iexists _; isplitr; · ipureintro; exact hf5
    iexact H5
  isplitl [H9]; · iexact H9
  isplitl [H11]; · iexact H11
  isplitl [Ho]
  · iexists _; isplitr; swap; · iexact Ho
    ipureintro; intro p hp
    simp only [Finset.mem_insert] at hp
    rcases hp with rfl | rfl | rfl | rfl | rfl | rfl | rfl | rfl | rfl | rfl | rfl | rfl | rfl | rfl | rfl | rfl | rfl | rfl | rfl | rfl | hp
    all_goals first | exact .inr rfl | exact .inl hp
  isplitl [W0_dst]; · iexact W0_dst
  isplitl [W1_dst]; · iexact W1_dst
  isplitl [W2_dst]; · iexact W2_dst
  isplitl [W3_dst]; · iexact W3_dst
  isplitl [W4_dst]; · iexact W4_dst
  isplitl [W5_dst]; · iexact W5_dst
  isplitl [W6_dst]; · iexact W6_dst
  isplitl [W7_dst]; · iexact W7_dst
  isplitl [V0_dst]; · iexact V0_dst
  isplitl [V1_dst]; · iexact V1_dst
  isplitl [V2_dst]; · iexact V2_dst
  isplitl [V3_dst]; · iexact V3_dst
  isplitl [V4_dst]; · iexact V4_dst
  isplitl [V5_dst]; · iexact V5_dst
  isplitl [V6_dst]; · iexact V6_dst
  isplitl [V7_dst]; · iexact V7_dst
  isplitl [V0_src]; · iexact V0_src
  isplitl [V1_src]; · iexact V1_src
  isplitl [V2_src]; · iexact V2_src
  isplitl [V3_src]; · iexact V3_src
  isplitl [V4_src]; · iexact V4_src
  isplitl [V5_src]; · iexact V5_src
  isplitl [V6_src]; · iexact V6_src
  isplitl [V7_src]; · iexact V7_src
  isplitl [D0 T0 D1 T1 D2 T2 D3 T3 Trest]
  · iexists qj, _; isplitr; swap
    · isplitl [D0 T0]
      · iexists _; isplitr; swap
        · isplitl [D0]
          · iapply (Entails.of_eq (pt_mainTail' c ![98304, 0] 98304 98728 rfl rfl inb_S100000x1024_S424x1024_98304_0 _)); iexact D0
          · iapply (Entails.of_eq (pt_ringTail' c (k1_off37 i) s.val 0 424 er0 (by omega) (k1_off37_inb i h4 h7) _)); iexact T0
        · ipureintro
          unfold run1_last.sl.dma0
          exact fact_spell_tail c _ _ s 0 rfl er0 _ _ g _
      isplitl [D1 T1]
      · iexists _; isplitr; swap
        · isplitl [D1]
          · iapply (Entails.of_eq (pt_mainTail' c ![98728, 0] 98728 99152 rfl rfl inb_S100000x1024_S424x1024_98728_0 _)); iexact D1
          · iapply (Entails.of_eq (pt_ringTail' c (k1_off39 i) s.val 424 848 er1 (by omega) (k1_off39_inb i h4 h7) _)); iexact T1
        · ipureintro
          unfold run1_last.sl.dma0_1
          exact fact_spell_tail c _ _ s 1 rfl er1 _ _ g _
      isplitl [D2 T2]
      · iexists _; isplitr; swap
        · isplitl [D2]
          · iapply (Entails.of_eq (pt_mainTail' c ![99152, 0] 99152 99576 rfl rfl inb_S100000x1024_S424x1024_99152_0 _)); iexact D2
          · iapply (Entails.of_eq (pt_ringTail' c (k1_off41 i) s.val 848 1272 er2 (by omega) (k1_off41_inb i h4 h7) _)); iexact T2
        · ipureintro
          unfold run1_last.sl.dma0_2
          exact fact_spell_tail c _ _ s 2 rfl er2 _ _ g _
      isplitl [D3 T3]
      · iexists _; isplitr; swap
        · isplitl [D3]
          · iapply (Entails.of_eq (pt_mainTail' c ![99576, 0] 99576 100000 rfl rfl inb_S100000x1024_S424x1024_99576_0 _)); iexact D3
          · iapply (Entails.of_eq (pt_ringTail' c (k1_off43 i) s.val 1272 1696 er3 (by omega) (k1_off43_inb i h4 h7) _)); iexact T3
        · ipureintro
          unfold run1_last.sl.dma0_3
          exact fact_spell_tail c _ _ s 3 rfl er3 _ _ g _
      iexact Trest
    · ipureintro
      congr 1
      · exact (readAt_unit_zero _ zero2 _ _).trans hf4
      · exact whole_readAt_unit_zero cc1_scratch0 zero2 _ _
      · exact (readAt_unit_zero _ zero2 _ _).trans hf5
      · exact whole_readAt_unit_zero cc1_scratch2 zero2 _ _
  isplitl [W0]; · iapply (Entails.of_eq (congrArg (fun x => (semVal ((c : Thread nD τ), SemLoc.dma x) 0 : sProp 𝕄)) (sem_spell (k1_off36 i) s 0 et0 (k1_off36_inb i h4 h7)))); iexact W0
  isplitl [W1]; · iapply (Entails.of_eq (congrArg (fun x => (semVal ((c : Thread nD τ), SemLoc.dma x) 0 : sProp 𝕄)) (sem_spell (k1_off38 i) s 1 et1 (k1_off38_inb i h4 h7)))); iexact W1
  isplitl [W2]; · iapply (Entails.of_eq (congrArg (fun x => (semVal ((c : Thread nD τ), SemLoc.dma x) 0 : sProp 𝕄)) (sem_spell (k1_off40 i) s 2 et2 (k1_off40_inb i h4 h7)))); iexact W2
  isplitl [W3]; · iapply (Entails.of_eq (congrArg (fun x => (semVal ((c : Thread nD τ), SemLoc.dma x) 0 : sProp 𝕄)) (sem_spell (k1_off42 i) s 3 et3 (k1_off42_inb i h4 h7)))); iexact W3
  isplitl [W4]; · iapply (Entails.of_eq (congrArg (fun x => (semVal ((c : Thread nD τ), SemLoc.dma x) 0 : sProp 𝕄)) (sem_spell (k1_off10 i) s 4 ew4 (k1_off10_inb i h4 h5)))); iexact W4
  isplitl [W5]; · iapply (Entails.of_eq (congrArg (fun x => (semVal ((c : Thread nD τ), SemLoc.dma x) 0 : sProp 𝕄)) (sem_spell (k1_off12 i) s 5 ew5 (k1_off12_inb i h4 h5)))); iexact W5
  isplitl [W6]; · iapply (Entails.of_eq (congrArg (fun x => (semVal ((c : Thread nD τ), SemLoc.dma x) 0 : sProp 𝕄)) (sem_spell (k1_off14 i) s 6 ew6 (k1_off14_inb i h4 h5)))); iexact W6
  isplitl [W7]; · iapply (Entails.of_eq (congrArg (fun x => (semVal ((c : Thread nD τ), SemLoc.dma x) 0 : sProp 𝕄)) (sem_spell (k1_off16 i) s 7 ew7 (k1_off16_inb i h4 h5)))); iexact W7
  isplitl [V0]; · iapply (Entails.of_eq (congrArg (fun x => (semVal ((c : Thread nD τ), SemLoc.dma x) 0 : sProp 𝕄)) (sem_spell (k1_off44 i) s' 0 ev0 (k1_off44_inb i h4 h7)))); iexact V0
  isplitl [V1]; · iapply (Entails.of_eq (congrArg (fun x => (semVal ((c : Thread nD τ), SemLoc.dma x) 0 : sProp 𝕄)) (sem_spell (k1_off47 i) s' 1 ev1 (k1_off47_inb i h4 h7)))); iexact V1
  isplitl [V2]; · iapply (Entails.of_eq (congrArg (fun x => (semVal ((c : Thread nD τ), SemLoc.dma x) 0 : sProp 𝕄)) (sem_spell (k1_off49 i) s' 2 ev2 (k1_off49_inb i h4 h7)))); iexact V2
  isplitl [V3]; · iapply (Entails.of_eq (congrArg (fun x => (semVal ((c : Thread nD τ), SemLoc.dma x) 0 : sProp 𝕄)) (sem_spell (k1_off51 i) s' 3 ev3 (k1_off51_inb i h4 h7)))); iexact V3
  isplitl [V4]; · iapply (Entails.of_eq (congrArg (fun x => (semVal ((c : Thread nD τ), SemLoc.dma x) 0 : sProp 𝕄)) (sem_spell (k1_off53 i) s' 4 ev4 (k1_off53_inb i h4 h7)))); iexact V4
  isplitl [V5]; · iapply (Entails.of_eq (congrArg (fun x => (semVal ((c : Thread nD τ), SemLoc.dma x) 0 : sProp 𝕄)) (sem_spell (k1_off55 i) s' 5 ev5 (k1_off55_inb i h4 h7)))); iexact V5
  isplitl [V6]; · iapply (Entails.of_eq (congrArg (fun x => (semVal ((c : Thread nD τ), SemLoc.dma x) 0 : sProp 𝕄)) (sem_spell (k1_off57 i) s' 6 ev6 (k1_off57_inb i h4 h7)))); iexact V6
  iapply (Entails.of_eq (congrArg (fun x => (semVal ((c : Thread nD τ), SemLoc.dma x) 0 : sProp 𝕄)) (sem_spell (k1_off59 i) s' 7 ev7 (k1_off59_inb i h4 h7)))); iexact V7

end Run1

/-! ## The obligation at the last point -/

section Points1c

variable (c : Dev nD) (A : Arrs (F := F) c) (Rec : Set (SemLoc sig × HIx 1)) (I : RegionInv c A)

omit [FloatOps F] in
theorem slot30 : slotOf (32 - 2) = 0 := by decide
omit [FloatOps F] in
theorem slot31 : slotOf (32 - 1) = 1 := by decide

/-- What a tail copy landed satisfies its chunk's predicate. -/
theorem tail_fact (t : Fin cfg1.N) (h65 : t.val = 65) (r : Fin 4) (d4 d5) (ht : Vec F S128x1024 .bf16) (l : Vec F S1x1024 .f32) (hHT : I.HT ht) (hL : I.LSE l)
    (s : Fin 2) (qj : Buf (Elt F) (ringM.view.loc (c : Thread nD τ))) (P : Vec F S1x3072x1024 .f32)
    (hP : P = k1_pay6 (stg c A 4 t d4) ht (stg c A 5 t d5) l)
    (tt : Buf (Elt F) (mainM.view.loc (c : Thread nD τ)))
    (hread : (mainTail r).view.read (Elt F) tt = ReadAs.same.apply ((ringTail s r).view.read (Elt F) (slotW c s qj P))) :
    I.OutT r ((mainTail r).view.read (Elt F) tt) := by
  subst hP
  refine I.hOutT t h65 r d4 d5 ht l hHT hL _ (fun i v => ?_)
  rw [hread]; exact landed_tail c s r qj _ i v

set_option maxHeartbeats 4000000 in
theorem point1_last (hRec : ∀ sm : SemLoc sig, (sm, (none : HIx 1)) ∈ Rec) (t : Fin cfg1.N) (h65 : t.val = 65) : PointObl c A Rec I t := by
  have e66 : t.val + 1 = 66 := by omega
  have h30 : 32 - 2 < 32 := by decide
  have h31 : 32 - 1 < 32 := by decide
  unfold PointObl bodyPre bodyPost bodyAt1
  simp only [before_eq]
  rw [show (pdat c A Rec I).Φ t.castSucc = Φ c A I t.val from rfl, show (pdat c A Rec I).Φ t.succ = Φ c A I (t.val + 1) from rfl,
    show (pdat c A Rec I).owesAt (none : HIx 1) t.succ = (pdat c A Rec I).owesAt (none : HIx 1) t.castSucc from rfl]
  rw [Φ_fly c A I t.val (by omega) (by omega), e66, Φ_done, show t.val - 33 = 32 from by omega, fly_ge c A I 32 (by decide),
    FlightB_lt c A I (32 - 2) (by decide), FlightB_lt c A I (32 - 1) (by decide)]
  unfold scr idle
  rw [sems0_eq]
  iintro ⟨⟨⟨⟨%hv, H9, %hhv⟩, ⟨%sv, H10, %hs⟩, ⟨%l, H11, %hl⟩⟩, ⟨%f0, Hl, %hl0⟩, ⟨%fu, Hu⟩, ⟨B0, B1, B2, B3, B4, B5, B6, B7⟩, ⟨C0, C1, C2, C3, C4, C5, C6, C7⟩⟩, ⟨%W, %hW, Ho⟩, ⟨%d0, H0⟩, ⟨%d1, H1⟩, ⟨%d2, H2⟩, ⟨%d3, H3⟩, ⟨%d4, H4⟩, ⟨%d5, H5⟩⟩
  -- the flights of blocks 30 and 31, over the rows' ranges
  ihave B0 := (FlightC_elim c A I (⟨32 - 2, h30⟩ : Fin 32) 0 (0 : Fin 2) slot30 (92160) (92544) 0 384 rfl rfl rfl rfl) $$ B0
  icases B0 with ⟨%g0, %q0, %hg0, B0⟩
  ihave B1 := (FlightC_elim c A I (⟨32 - 2, h30⟩ : Fin 32) 1 (0 : Fin 2) slot30 (92544) (92928) 384 768 rfl rfl rfl rfl) $$ B1
  icases B1 with ⟨%g1, %q1, %hg1, B1⟩
  ihave B2 := (FlightC_elim c A I (⟨32 - 2, h30⟩ : Fin 32) 2 (0 : Fin 2) slot30 (92928) (93312) 768 1152 rfl rfl rfl rfl) $$ B2
  icases B2 with ⟨%g2, %q2, %hg2, B2⟩
  ihave B3 := (FlightC_elim c A I (⟨32 - 2, h30⟩ : Fin 32) 3 (0 : Fin 2) slot30 (93312) (93696) 1152 1536 rfl rfl rfl rfl) $$ B3
  icases B3 with ⟨%g3, %q3, %hg3, B3⟩
  ihave B4 := (FlightC_elim c A I (⟨32 - 2, h30⟩ : Fin 32) 4 (0 : Fin 2) slot30 (93696) (94080) 1536 1920 rfl rfl rfl rfl) $$ B4
  icases B4 with ⟨%g4, %q4, %hg4, B4⟩
  ihave B5 := (FlightC_elim c A I (⟨32 - 2, h30⟩ : Fin 32) 5 (0 : Fin 2) slot30 (94080) (94464) 1920 2304 rfl rfl rfl rfl) $$ B5
  icases B5 with ⟨%g5, %q5, %hg5, B5⟩
  ihave B6 := (FlightC_elim c A I (⟨32 - 2, h30⟩ : Fin 32) 6 (0 : Fin 2) slot30 (94464) (94848) 2304 2688 rfl rfl rfl rfl) $$ B6
  icases B6 with ⟨%g6, %q6, %hg6, B6⟩
  ihave B7 := (FlightC_elim c A I (⟨32 - 2, h30⟩ : Fin 32) 7 (0 : Fin 2) slot30 (94848) (95232) 2688 3072 rfl rfl rfl rfl) $$ B7
  icases B7 with ⟨%g7, %q7, %hg7, B7⟩
  ihave C0 := (FlightC_elim c A I (⟨32 - 1, h31⟩ : Fin 32) 0 (1 : Fin 2) slot31 (95232) (95616) 0 384 rfl rfl rfl rfl) $$ C0
  icases C0 with ⟨%k0, %p0, %hk0, C0⟩
  ihave C1 := (FlightC_elim c A I (⟨32 - 1, h31⟩ : Fin 32) 1 (1 : Fin 2) slot31 (95616) (96000) 384 768 rfl rfl rfl rfl) $$ C1
  icases C1 with ⟨%k1, %p1, %hk1, C1⟩
  ihave C2 := (FlightC_elim c A I (⟨32 - 1, h31⟩ : Fin 32) 2 (1 : Fin 2) slot31 (96000) (96384) 768 1152 rfl rfl rfl rfl) $$ C2
  icases C2 with ⟨%k2, %p2, %hk2, C2⟩
  ihave C3 := (FlightC_elim c A I (⟨32 - 1, h31⟩ : Fin 32) 3 (1 : Fin 2) slot31 (96384) (96768) 1152 1536 rfl rfl rfl rfl) $$ C3
  icases C3 with ⟨%k3, %p3, %hk3, C3⟩
  ihave C4 := (FlightC_elim c A I (⟨32 - 1, h31⟩ : Fin 32) 4 (1 : Fin 2) slot31 (96768) (97152) 1536 1920 rfl rfl rfl rfl) $$ C4
  icases C4 with ⟨%k4, %p4, %hk4, C4⟩
  ihave C5 := (FlightC_elim c A I (⟨32 - 1, h31⟩ : Fin 32) 5 (1 : Fin 2) slot31 (97152) (97536) 1920 2304 rfl rfl rfl rfl) $$ C5
  icases C5 with ⟨%k5, %p5, %hk5, C5⟩
  ihave C6 := (FlightC_elim c A I (⟨32 - 1, h31⟩ : Fin 32) 6 (1 : Fin 2) slot31 (97536) (97920) 2304 2688 rfl rfl rfl rfl) $$ C6
  icases C6 with ⟨%k6, %p6, %hk6, C6⟩
  ihave C7 := (FlightC_elim c A I (⟨32 - 1, h31⟩ : Fin 32) 7 (1 : Fin 2) slot31 (97920) (98304) 2688 3072 rfl rfl rfl rfl) $$ C7
  icases C7 with ⟨%k7, %p7, %hk7, C7⟩
  -- the untouched rows: the last block's
  ihave Hu := (Entails.of_eq (congrArg (fun S : Finset S100000x1024.Idx => (mainM.view.loc (c : Thread nD τ) ↦[S]{fullShare} fu : sProp 𝕄))
      (rowRange_congr (show 3072 * 32 = 98304 from rfl) rfl))) $$ Hu
  iapply (run1_last c (grid1.coords t) _ _ _ _ _ _ _ _ _ _ _ _ (by rw [coords1, h65]) (0 : Fin 2) (1 : Fin 2) rfl rfl
    (fun hc => by have := (hcA t).mp hc; omega) (fun hc => by have := (hcB t).mp hc; omega) (fun hc => by have := (hcC t).mp hc; omega)
    ((hc4 t).mpr (by omega)) ((hc5 t).mpr (by omega)) (fun hc => by have := (hc6 t).mp hc; omega) ((hc7 t).mpr (by omega))
    (stg c A 4 t d4) (stg c A 5 t d5) hv l
    (rowRange 92160 92544) (rowRange 92544 92928) (rowRange 92928 93312) (rowRange 93312 93696) (rowRange 93696 94080) (rowRange 94080 94464) (rowRange 94464 94848) (rowRange 94848 95232)
    (rowRange 95232 95616) (rowRange 95616 96000) (rowRange 96000 96384) (rowRange 96384 96768) (rowRange 96768 97152) (rowRange 97152 97536) (rowRange 97536 97920) (rowRange 97920 98304)
    g0 g1 g2 g3 g4 g5 g6 g7 k0 k1 k2 k3 k4 k5 k6 k7 fu q0 q1 q2 q3 q4 q5 q6 q7 p0 p1 p2 p3 p4 p5 p6 p7 W _)
  isplitl [H4]; · iexact H4
  isplitl [H5]; · iexact H5
  isplitl [H9]; · iexact H9
  isplitl [H11]; · iexact H11
  isplitl [Ho]; · iexact Ho
  isplitl [Hu]; · iexact Hu
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  iintro ⟨H4, H5, H9, H11, ⟨%W', %hW', Ho⟩, L0, L1, L2, L3, L4, L5, L6, L7, M0, M1, M2, M3, M4, M5, M6, M7, R0, R1, R2, R3, R4, R5, R6, R7,
    ⟨%qj, %P, %hP, ⟨%t0, %ht0, Dt0, Rt0⟩, ⟨%t1, %ht1, Dt1, Rt1⟩, ⟨%t2, %ht2, Dt2, Rt2⟩, ⟨%t3, %ht3, Dt3, Rt3⟩, Rrest⟩,
    Z0, Z1, Z2, Z3, Z4, Z5, Z6, Z7, Y0, Y1, Y2, Y3, Y4, Y5, Y6, Y7⟩
  have hHT : I.HT hv := hhv (by omega)
  have hL : I.LSE l := hl (by omega)
  -- the landed rows grow by blocks 30 and 31
  ihave HL := (landed_join c A I (⟨32 - 2, h30⟩ : Fin 32) f0 g0 g1 g2 g3 g4 g5 g6 g7 (fun b' r hb => hl0 b' r (by simp only at hb; omega))
    hg0 hg1 hg2 hg3 hg4 hg5 hg6 hg7) $$ [Hl L0 L1 L2 L3 L4 L5 L6 L7]
  · isplitl [Hl]; · iexact Hl
    isplitl [L0]; · iexact L0
    isplitl [L1]; · iexact L1
    isplitl [L2]; · iexact L2
    isplitl [L3]; · iexact L3
    isplitl [L4]; · iexact L4
    isplitl [L5]; · iexact L5
    isplitl [L6]; · iexact L6
    iexact L7
  icases HL with ⟨%f1, Hl, %hf1⟩
  ihave HL := (landed_join c A I (⟨32 - 1, h31⟩ : Fin 32) f1 k0 k1 k2 k3 k4 k5 k6 k7 (fun b' r hb => hf1 b' r (by simp only at hb ⊢; omega))
    hk0 hk1 hk2 hk3 hk4 hk5 hk6 hk7) $$ [Hl M0 M1 M2 M3 M4 M5 M6 M7]
  · isplitl [Hl]; · iexact Hl
    isplitl [M0]; · iexact M0
    isplitl [M1]; · iexact M1
    isplitl [M2]; · iexact M2
    isplitl [M3]; · iexact M3
    isplitl [M4]; · iexact M4
    isplitl [M5]; · iexact M5
    isplitl [M6]; · iexact M6
    iexact M7
  icases HL with ⟨%f2, Hl, %hf2⟩
  -- and by the last block's four chunks: the whole result
  ihave HF := (final_join c A I f2 t0 t1 t2 t3 (fun b' r hb => hf2 b' r (by simp only; omega))
    (tail_fact c A I t h65 0 d4 d5 hv l hHT hL 0 qj P hP t0 ht0) (tail_fact c A I t h65 1 d4 d5 hv l hHT hL 0 qj P hP t1 ht1)
    (tail_fact c A I t h65 2 d4 d5 hv l hHT hL 0 qj P hP t2 ht2) (tail_fact c A I t h65 3 d4 d5 hv l hHT hL 0 qj P hP t3 ht3)) $$ [Hl Dt0 Dt1 Dt2 Dt3]
  · isplitl [Hl]; · iexact Hl
    isplitl [Dt0]; · iexact Dt0
    isplitl [Dt1]; · iexact Dt1
    isplitl [Dt2]; · iexact Dt2
    iexact Dt3
  icases HF with ⟨%ff, Hm, %hff⟩
  -- the ring: the two slots, whole again
  ihave Hs0 := (slot_join_tail c (0 : Fin 2).val _ _ _ _ _) $$ [Rt0 Rt1 Rt2 Rt3 Rrest]
  · isplitl [Rt0]; · iexact Rt0
    isplitl [Rt1]; · iexact Rt1
    isplitl [Rt2]; · iexact Rt2
    isplitl [Rt3]; · iexact Rt3
    iexact Rrest
  icases Hs0 with ⟨%qa, Hs0⟩
  ihave Hs1 := (slot_join c (1 : Fin 2).val p0 p1 p2 p3 p4 p5 p6 p7) $$ [R0 R1 R2 R3 R4 R5 R6 R7]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  icases Hs1 with ⟨%qb, Hs1⟩
  ihave Hr := (ring_slots_join c qa qb) $$ [Hs0 Hs1]
  · isplitl [Hs0]; · iexact Hs0
    iexact Hs1
  icases Hr with ⟨%qr, Hr⟩
  isplitl [H9 H10 H11 Hm Hr Z0 Z1 Z2 Z3 Z4 Z5 Z6 Z7 Y0 Y1 Y2 Y3 Y4 Y5 Y6 Y7]
  · isplitl [H9 H10 H11]
    · isplitl [H9]
      · iexists hv; isplitl [H9]; · iexact H9
        ipureintro; intro _; exact hHT
      isplitl [H10]
      · iexists sv; isplitl [H10]; · iexact H10
        ipureintro; intro _
        have hs' := hs (by omega)
        rw [min_eq_right (by omega : 32 ≤ t.val)] at hs'
        exact hs'
      · iexists l; isplitl [H11]; · iexact H11
        ipureintro; intro _; exact hL
    isplitl [Hm]
    · iexists ff; isplitl [Hm]; · iexact Hm
      ipureintro; intro _; exact hff
    isplitl [Hr]; · iexists qr; iexact Hr
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    iexact Y7
  isplitl [Ho]
  · iexists W'; isplitr
    · ipureintro
      intro p hp
      rcases hW' p (Finset.mem_coe.mp hp) with h | h
      · exact hW (Finset.mem_coe.mpr h)
      · exact Or.inl (by obtain ⟨sm, ix⟩ := p; cases h; exact hRec sm)
    · iexact Ho
  isplitl [H0]; · iapply (owns_after c A Rec I 0 (fun _ _ => rfl) t d0 _) $$ H0
  isplitl [H1]; · iapply (owns_after c A Rec I 1 (fun _ _ => rfl) t d1 _) $$ H1
  isplitl [H2]; · iapply (owns_after c A Rec I 2 (fun _ _ => rfl) t d2 _) $$ H2
  isplitl [H3]; · iapply (owns_after c A Rec I 3 (fun _ _ => rfl) t d3 _) $$ H3
  isplitl [H4]; · iexists d4; iapply (owns_fill_cut c A Rec I 4 t d4 _) $$ H4
  iexists d5; iapply (owns_fill_cut c A Rec I 5 t d5 _) $$ H5

end Points1c

end Cert.Proof.Kernel

end
-- ==== Proof.Kernel.RegionBody.lean ====
/-
  The TensorCore region's body obligation: at every grid point the body runs from the invariant before the point
  to the invariant after it — the three kinds of point of pass 0, the first two of pass 1, those that wait, store
  and start, and the last.
-/
import proofs.«204087_g3891240370374_cont_8to1_b_1678_29_alg».proof.Proof.Kernel.RegionBody0
import proofs.«204087_g3891240370374_cont_8to1_b_1678_29_alg».proof.Proof.Kernel.RegionBody1a
import proofs.«204087_g3891240370374_cont_8to1_b_1678_29_alg».proof.Proof.Kernel.RegionBody1b
import proofs.«204087_g3891240370374_cont_8to1_b_1678_29_alg».proof.Proof.Kernel.RegionBody1c

set_option maxRecDepth 16384

noncomputable section

namespace Cert.Proof.Kernel

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

theorem hbody (c : Dev nD) (A : Arrs (F := F) c) (Rec : Set (SemLoc sig × HIx 1)) (I : RegionInv c A)
    (hRec : ∀ sm : SemLoc sig, (sm, (none : HIx 1)) ∈ Rec) :
    BodyObligationLoose (pdat c A Rec I) (defs₀ (F := F)) 𝒱₀ (none : HIx 1) Set.univ :=
  hbody_of c A Rec I fun t => by
    have hN : t.val < 66 := lt_of_lt_of_eq t.isLt N_1
    by_cases h0 : t.val = 0
    · exact point0_first c A Rec I t h0
    by_cases h32 : t.val < 32
    · exact point0_mid c A Rec I t (by omega) h32
    by_cases h32' : t.val = 32
    · exact point0_last c A Rec I t h32'
    by_cases h33 : t.val = 33
    · exact point1_first c A Rec I t h33
    by_cases h34 : t.val = 34
    · exact point1_second c A Rec I t h34
    by_cases h64 : t.val ≤ 64
    · exact point1_mid c A Rec I hRec t (by omega) h64
    · exact point1_last c A Rec I hRec t (by omega)

end Cert.Proof.Kernel

end
-- ==== Proof.KernelIdeal.Common.lean ====
/-
  The program as the SparseCore launch theorem sees it, and the proof's resource algebra: the handshake cells'
  rounds (indexed by naturals), a second copy of the rounds algebra for the TensorCore pipeline's staging cells,
  and the exclusive counters that local transfers in flight are tracked with.
-/
import proofs.«204087_g3891240370374_cont_8to1_b_1678_29_alg».proof.KernelIdeal
import proofs.«204087_g3891240370374_cont_8to1_b_1678_29_alg».proof.Proof.Gen.KernelIdeal
import proofs.«204087_g3891240370374_cont_8to1_b_1678_29_alg».proof.Proof.Gen.KernelIdeal.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

/-- The handshakes' rounds: the left factor. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- The pipeline's staging cells' rounds: the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EH_landsIn : (EH : Emb UH (MT nD τ sig (HIx 1) (Elt F) ℕ UU ℕ)).LandsIn (upEmb : UEmb _ (MT nD τ sig (HIx 1) (Elt F) ℕ UU ℕ)) := by
  unfold EH; infer_instance
instance EP_landsIn : (EP : Emb UP (MT nD τ sig (HIx 1) (Elt F) ℕ UU ℕ)).LandsIn (upEmb : UEmb _ (MT nD τ sig (HIx 1) (Elt F) ℕ UU ℕ)) := by
  unfold EP; infer_instance

example : CountersIn UU := inferInstance

end Cert.Proof.KernelIdeal

end
-- ==== Proof.KernelIdeal.MainA.lean ====
/-
  @main on the TensorCore, cut into its straight lines of host operations, the SparseCore call and the kernel
  region; the TensorCore's unscoped arrays as one set of whole buffers at a valuation.
-/
import proofs.«204087_g3891240370374_cont_8to1_b_1678_29_alg».proof.Proof.KernelIdeal.Common
import proofs.«204087_g3891240370374_cont_8to1_b_1678_29_alg».proof.Proof.Gen.KernelIdeal.Launch
import Idealize.ShloMosaic.Lib.Pipeline.Regions

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

/-! ## The host lines -/

abbrev opV0 : HloOp τ sig (Elt F) := StableHlo.reshape main_arg3 main_v0 rfl shapeCasts_S128_S128x1
abbrev opV1 : HloOp τ sig (Elt F) := StableHlo.reshape main_arg5 main_v1 rfl shapeCasts_S100000_S1x100000
abbrev opV2 : HloOp τ sig (Elt F) := StableHlo.reshape main_arg1 main_v2 rfl shapeCasts_S100000x64_S50000x128
abbrev opC : HloOp τ sig (Elt F) := StableHlo.nullary main_c (constantI S_ 32 1#32)
abbrev opV3 : HloOp τ sig (Elt F) :=
  StableHlo.unary main_c main_v3 (broadcastInDim S1024 ![] bcast_S_S1024 : (⟨S_, .i32⟩ : BufTy).Contents (Elt F) → (⟨S1024, .i32⟩ : BufTy).Contents (Elt F))
abbrev opV4 : HloOp τ sig (Elt F) :=
  StableHlo.binary main_arg0 main_v3 main_v4 (Host.shrsi : (⟨S1024, .i32⟩ : BufTy).Contents (Elt F) → (⟨S1024, .i32⟩ : BufTy).Contents (Elt F) → (⟨S1024, .i32⟩ : BufTy).Contents (Elt F))
abbrev opC0 : HloOp τ sig (Elt F) := StableHlo.nullary main_c_0 (constantI S_ 32 1#32)
abbrev opV6 : HloOp τ sig (Elt F) :=
  StableHlo.unary main_c_0 main_v6 (broadcastInDim S1024 ![] bcast_S_S1024 : (⟨S_, .i32⟩ : BufTy).Contents (Elt F) → (⟨S1024, .i32⟩ : BufTy).Contents (Elt F))
abbrev opV7 : HloOp τ sig (Elt F) :=
  StableHlo.binary main_arg0 main_v6 main_v7 (andi : (⟨S1024, .i32⟩ : BufTy).Contents (Elt F) → (⟨S1024, .i32⟩ : BufTy).Contents (Elt F) → (⟨S1024, .i32⟩ : BufTy).Contents (Elt F))
abbrev opV8 : HloOp τ sig (Elt F) := StableHlo.reshape main_v7 main_v8 rfl shapeCasts_S1024_S1024x1
abbrev opV10 : HloOp τ sig (Elt F) :=
  StableHlo.unary main_v9 main_v10 ((transpose S1024x100000 [1, 0] · transposes_S100000x1024_S1024x100000_1_0) : (⟨S100000x1024, .f32⟩ : BufTy).Contents (Elt F) → (⟨S1024x100000, .f32⟩ : BufTy).Contents (Elt F))

/-- The operations before the SparseCore call, between it and the kernel region, and after the region. -/
abbrev ops1 : List (HloOp τ sig (Elt F)) := [opV0, opV1, opV2, opC, opV3, opV4]
abbrev ops2 : List (HloOp τ sig (Elt F)) := [opC0, opV6, opV7, opV8]
abbrev ops3 : List (HloOp τ sig (Elt F)) := [opV10]

/-- @main is: the first line, the SparseCore call, the second line, the kernel region, the last line. -/
theorem main_eq (d : Dev nD) :
    main (F := F) d = (StableHlo.seq ops1 >>= fun _ => (K (F := F)).run d 0 >>= fun _ => StableHlo.seq ops2 >>= fun _ =>
      Prog.op (.customCall (SparseCore.inner (Pipeline.entry 0)) ()) fun _ => StableHlo.seq ops3 >>= fun _ => pure ⟨⟩) := by
  simp only [main, StableHlo.seq, Prog.lift, bind_assoc, pure_bind, Prog.bind_op, Prog.bind_ret, Prog.pure_eq_ret]

/-! ## The TensorCore's unscoped arrays as one held set -/

variable (m : (ℓ : Loc nD τ sig) → Buf (Elt F) ℓ) (ρ : Dev nD → PrngReg)

/-- Every unscoped buffer of the TensorCore, as a device reference. -/
def Sall : Finset (DevRef τ sig) :=
  (Finset.univ.filter fun b : Ref sig .tc => ¬ b.isScoped).map ⟨Proc.devRef .tc, Proc.devRef_injective _⟩

/-- The launch valuation of device `d`. -/
def V0 (d : Dev nD) : Valuation τ sig (Elt F) := fun b => m (d, b)

theorem unscoped_held (d : Dev nD) :
    (unscopedBufs d (fun b => m ((SparseCore.T d).loc b)) : sProp 𝕄) = held (T d) Sall (V0 m d) := by
  unfold unscopedBufs held Sall
  rw [bigSep_map]
  rfl

theorem mem_Sall (b : Ref sig .tc) (h : b.isScoped = false) : (Proc.devRef .tc b : DevRef τ sig) ∈ Sall := by
  unfold Sall
  exact Finset.mem_map.mpr ⟨b, Finset.mem_filter.mpr ⟨Finset.mem_univ _, by simp [h]⟩, rfl⟩

open TcCoe in
theorem sub1 (y : Ref sig .tc) (hy : y.isScoped = false) : ({(y : DevRef τ sig)} : Finset (DevRef τ sig)) ⊆ Sall := by
  intro b hb; cases Finset.mem_singleton.mp hb; exact mem_Sall y hy
open TcCoe in
theorem sub2 (x y : Ref sig .tc) (hx : x.isScoped = false) (hy : y.isScoped = false) :
    ({(x : DevRef τ sig), (y : DevRef τ sig)} : Finset (DevRef τ sig)) ⊆ Sall := by
  intro b hb
  rcases Finset.mem_insert.mp hb with rfl | hb
  · exact mem_Sall x hx
  · cases Finset.mem_singleton.mp hb; exact mem_Sall y hy
open TcCoe in
theorem sub3 (x y z : Ref sig .tc) (hx : x.isScoped = false) (hy : y.isScoped = false) (hz : z.isScoped = false) :
    ({(x : DevRef τ sig), (y : DevRef τ sig), (z : DevRef τ sig)} : Finset (DevRef τ sig)) ⊆ Sall := by
  intro b hb
  rcases Finset.mem_insert.mp hb with rfl | hb
  · exact mem_Sall x hx
  · exact sub2 y z hy hz hb

theorem ops1_sub : ∀ op ∈ (ops1 (F := F)), op.bufs ⊆ Sall := by
  intro op hop
  simp only [List.mem_cons, List.not_mem_nil, or_false] at hop
  rcases hop with rfl | rfl | rfl | rfl | rfl | rfl
  · exact sub2 main_arg3 main_v0 rfl rfl
  · exact sub2 main_arg5 main_v1 rfl rfl
  · exact sub2 main_arg1 main_v2 rfl rfl
  · exact sub1 main_c rfl
  · exact sub2 main_c main_v3 rfl rfl
  · exact sub3 main_arg0 main_v3 main_v4 rfl rfl rfl
theorem ops2_sub : ∀ op ∈ (ops2 (F := F)), op.bufs ⊆ Sall := by
  intro op hop
  simp only [List.mem_cons, List.not_mem_nil, or_false] at hop
  rcases hop with rfl | rfl | rfl | rfl
  · exact sub1 main_c_0 rfl
  · exact sub2 main_c_0 main_v6 rfl rfl
  · exact sub3 main_arg0 main_v6 main_v7 rfl rfl rfl
  · exact sub2 main_v7 main_v8 rfl rfl
theorem ops3_sub : ∀ op ∈ (ops3 (F := F)), op.bufs ⊆ Sall := by
  intro op hop
  simp only [List.mem_cons, List.not_mem_nil, or_false] at hop
  rcases hop with rfl
  exact sub2 main_v9 main_v10 rfl rfl
theorem ops1_fresh : ∀ op ∈ (ops1 (F := F)), op.fresh = ∅ := by
  intro op hop
  simp only [List.mem_cons, List.not_mem_nil, or_false] at hop
  rcases hop with rfl | rfl | rfl | rfl | rfl | rfl <;> rfl
theorem ops2_fresh : ∀ op ∈ (ops2 (F := F)), op.fresh = ∅ := by
  intro op hop
  simp only [List.mem_cons, List.not_mem_nil, or_false] at hop
  rcases hop with rfl | rfl | rfl | rfl <;> rfl
theorem ops3_fresh : ∀ op ∈ (ops3 (F := F)), op.fresh = ∅ := by
  intro op hop
  simp only [List.mem_cons, List.not_mem_nil, or_false] at hop
  rcases hop with rfl
  rfl

end Cert.Proof.KernelIdeal

end
-- ==== Proof.KernelIdeal.SC.lean ====
/-
  The SparseCore side of the call, part one: what the handshakes of the one vector-subcore call carry. The call takes the
  table, the index list and the result array whole; each of the two SparseCores is handed one half-share of the table
  and, of the index list and of the result, the sixteen 32-row blocks its tiles work on; each tile is handed a read
  share of the table and its own block of the two other arrays. Tile (c, s) works on block 2 s + c. What comes back is
  the same, the result's blocks at ONE whole-array function: row b of the result is the table's row named by word b of
  the index list.
-/
import proofs.«204087_g3891240370374_cont_8to1_b_1678_29_alg».proof.Proof.KernelIdeal.Common
import Idealize.ShloMosaic.Lib.ValueIdx

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type}

local notation "𝕄" => MT nD τ sig (HIx 1) (Elt F) ℕ UU ℕ

/-! ## The three arrays of the call -/

/-- The table, the index list and the result, as locations of device d. -/
abbrev v2Loc (d : Dev nD) : Loc nD τ sig := (SparseCore.T d).loc main_v2
abbrev v4Loc (d : Dev nD) : Loc nD τ sig := (SparseCore.T d).loc main_v4
abbrev v5Loc (d : Dev nD) : Loc nD τ sig := (SparseCore.T d).loc main_v5

/-- The row of the table that word b of the index list names (made total by reduction modulo the table's height). -/
def rowOf {d : Dev nD} (ix : Buf (Elt F) (v4Loc d)) (b : Fin 1024) : Fin 50000 :=
  ⟨(ix (ValueIdx.ix1 b)).toNat % 50000, Nat.mod_lt _ (by decide)⟩

/-- The gathered array as ONE function of the table and the index list: entry (b, j) is entry (ix b, j) of the table. -/
def gathered {d : Dev nD} (t : Buf (Elt F) (v2Loc d)) (ix : Buf (Elt F) (v4Loc d)) : Buf (Elt F) (v5Loc d) :=
  fun x => t (ValueIdx.ix2 (rowOf ix (x 0)) (x 1))

theorem gathered_apply {d : Dev nD} (t : Buf (Elt F) (v2Loc d)) (ix : Buf (Elt F) (v4Loc d)) (b : Fin 1024) (j : Fin 128)
    (h : (ix (ValueIdx.ix1 b)).toNat < 50000) :
    gathered t ix (ValueIdx.ix2 b j) = t (ValueIdx.ix2 (⟨(ix (ValueIdx.ix1 b)).toNat, h⟩ : Fin 50000) j) := by
  unfold gathered rowOf
  congr 2
  exact Fin.ext (Nat.mod_eq_of_lt h)

/-! ## The thirty-two blocks of rows -/

theorem hdiv4 : 32 ∣ S1024.size 0 := ⟨32, rfl⟩
theorem hdiv5 : 32 ∣ S1024x128.size 0 := ⟨32, rfl⟩
/-- Block w of the index list, and of the result: rows 32 w to 32 w + 31. -/
abbrev row4 (w : Fin 32) : Rect S1024 := Rect.part (s := S1024) (a₀ := 0) hdiv4 w
abbrev row5 (w : Fin 32) : Rect S1024x128 := Rect.part (s := S1024x128) (a₀ := 0) hdiv5 w
abbrev rows4 (w : Fin 32) : Finset S1024.Idx := (row4 w).set
abbrev rows5 (w : Fin 32) : Finset S1024x128.Idx := (row5 w).set

theorem rows4_disjoint : ∀ i ∈ (Finset.univ : Finset (Fin 32)), ∀ j ∈ (Finset.univ : Finset (Fin 32)), i ≠ j → Disjoint (rows4 i) (rows4 j) :=
  fun _ _ _ _ h => Rect.part_disjoint hdiv4 h
theorem rows5_disjoint : ∀ i ∈ (Finset.univ : Finset (Fin 32)), ∀ j ∈ (Finset.univ : Finset (Fin 32)), i ≠ j → Disjoint (rows5 i) (rows5 j) :=
  fun _ _ _ _ h => Rect.part_disjoint hdiv5 h
theorem rows4_cover : (Finset.univ : Finset (Fin 32)).biUnion rows4 = Finset.univ := Rect.biUnion_part hdiv4
theorem rows5_cover : (Finset.univ : Finset (Fin 32)).biUnion rows5 = Finset.univ := Rect.biUnion_part hdiv5

/-- The block of tile s of SparseCore c: the tiles of the two SparseCores alternate. -/
abbrev wid (c : Fin 2) (s : Fin 16) : Fin 32 := ⟨2 * s.val + c.val, by omega⟩

/-- (SparseCore, tile) pairs are the thirty-two blocks. -/
def widEquiv : Fin 2 × Fin 16 ≃ Fin 32 where
  toFun p := wid p.1 p.2
  invFun w := (⟨w.val % 2, Nat.mod_lt _ (by decide)⟩, ⟨w.val / 2, by omega⟩)
  left_inv p := by
    obtain ⟨c, s⟩ := p
    refine Prod.ext (Fin.ext ?_) (Fin.ext ?_)
    · show (2 * s.val + c.val) % 2 = c.val
      omega
    · show (2 * s.val + c.val) / 2 = s.val
      omega
  right_inv w := by
    refine Fin.ext ?_
    show 2 * (w.val / 2) + w.val % 2 = w.val
    omega

/-- A family over the blocks, dealt to the SparseCores and their tiles. -/
theorem bigSep_wid (Φ : Fin 32 → sProp 𝕄) :
    (bigSep Finset.univ fun c : Fin 2 => bigSep Finset.univ fun s : Fin 16 => Φ (wid c s)) = bigSep Finset.univ Φ := by
  rw [BI.bigSep_univ_equiv widEquiv Φ, BI.bigSep_univ_prod]
  rfl

theorem v4_blocks (d : Dev nD) (f : Buf (Elt F) (v4Loc d)) :
    (v4Loc d ↦{fullShare} f : sProp 𝕄) = bigSep Finset.univ fun w : Fin 32 => v4Loc d ↦[rows4 w]{fullShare} f := by
  rw [← pointsTo_biUnion Finset.univ (ℓ := v4Loc d) rows4 rows4_disjoint, rows4_cover]; try rfl
theorem v5_blocks (d : Dev nD) (f : Buf (Elt F) (v5Loc d)) :
    (v5Loc d ↦{fullShare} f : sProp 𝕄) = bigSep Finset.univ fun w : Fin 32 => v5Loc d ↦[rows5 w]{fullShare} f := by
  rw [← pointsTo_biUnion Finset.univ (ℓ := v5Loc d) rows5 rows5_disjoint, rows5_cover]; try rfl

/-! ## The shares of the table -/

/-- A SparseCore's share of the table: a half. -/
def coreShare (c : Fin 2) : PosShare TreeShare := if c = 0 then fullShare.left else fullShare.right
/-- A tile's: one of sixteen read tokens of its SparseCore's half. -/
abbrev tileShare (c : Fin 2) (s : Fin 16) : PosShare TreeShare := shareTok (coreShare c) 16 s

theorem v2_cores (d : Dev nD) (f : Buf (Elt F) (v2Loc d)) :
    (v2Loc d ↦{fullShare} f : sProp 𝕄) = bigSep Finset.univ fun c : Fin 2 => v2Loc d ↦{coreShare c} f := by
  rw [bigSep_univ_two]
  show _ = iprop((v2Loc d ↦{fullShare.left} f) ∗ v2Loc d ↦{fullShare.right} f)
  exact BI.Entails.antisymm (pointsTo_share (PosShare.mem_left_op_right fullShare)).1 (pointsTo_share (PosShare.mem_left_op_right fullShare)).2

/-! ## What the handshakes carry -/

variable (t : (d : Dev nD) → Buf (Elt F) (v2Loc d)) (ix : (d : Dev nD) → Buf (Elt F) (v4Loc d)) (o : (d : Dev nD) → Buf (Elt F) (v5Loc d))

/-- Block w of the index list and of the result, the result at r. -/
abbrev blk (d : Dev nD) (r : Buf (Elt F) (v5Loc d)) (w : Fin 32) : sProp 𝕄 :=
  iprop((v4Loc d ↦[rows4 w]{fullShare} ix d) ∗ (v5Loc d ↦[rows5 w]{fullShare} r))

/-- What a SparseCore is handed (the result at r): its half of the table and its sixteen blocks. -/
abbrev forCore (d : Dev nD) (r : Buf (Elt F) (v5Loc d)) (c : Fin 2) : sProp 𝕄 :=
  iprop((v2Loc d ↦{coreShare c} t d) ∗ bigSep Finset.univ fun s : Fin 16 => blk ix d r (wid c s))
/-- What a tile is handed (the result at r): its read token of the table and its block. -/
abbrev forTile (d : Dev nD) (r : Buf (Elt F) (v5Loc d)) (c : Fin 2) (s : Fin 16) : sProp 𝕄 :=
  iprop((v2Loc d ↦{tileShare c s} t d) ∗ blk ix d r (wid c s))

/-- The one call: out, the result at its contents before the call; back, at the gathered rows. -/
def P : (K (F := F)).Pay (nD := nD) (Val := Elt F) (Name := ℕ) (U := UU) where
  st := fun q d c => match q with | 0 => forCore t ix d (o d) (Fin.cast nCore_zero c)
  dn := fun q d c => match q with | 0 => forCore t ix d (gathered (t d) (ix d)) (Fin.cast nCore_zero c)
  go := fun q d c i => match q with | 0 => forTile t ix d (o d) (Fin.cast nCore_zero c) (Fin.cast nSub_zero i)
  td := fun q d c i => match q with | 0 => forTile t ix d (gathered (t d) (ix d)) (Fin.cast nCore_zero c) (Fin.cast nSub_zero i)
  x := fun _ _ => iprop(emp)

instance P_storable : (P (F := F) t ix o).IsStorable where
  st q d c := match q with
    | 0 => (inferInstance : BI.Storable (upEmb : UEmb _ 𝕄) (forCore t ix d (o d) (Fin.cast nCore_zero c)))
  dn q d c := match q with
    | 0 => (inferInstance : BI.Storable (upEmb : UEmb _ 𝕄) (forCore t ix d (gathered (t d) (ix d)) (Fin.cast nCore_zero c)))
  go q d c i := match q with
    | 0 => (inferInstance : BI.Storable (upEmb : UEmb _ 𝕄) (forTile t ix d (o d) (Fin.cast nCore_zero c) (Fin.cast nSub_zero i)))
  td q d c i := match q with
    | 0 => (inferInstance : BI.Storable (upEmb : UEmb _ 𝕄) (forTile t ix d (gathered (t d) (ix d)) (Fin.cast nCore_zero c) (Fin.cast nSub_zero i)))

theorem P_st (d : Dev nD) (c : Fin ((K (F := F)).nCore 0)) : (P t ix o).st 0 d c = forCore t ix d (o d) (Fin.cast nCore_zero c) := rfl
theorem P_dn (d : Dev nD) (c : Fin ((K (F := F)).nCore 0)) : (P t ix o).dn 0 d c = forCore t ix d (gathered (t d) (ix d)) (Fin.cast nCore_zero c) := rfl
theorem P_go (d : Dev nD) (c : Fin ((K (F := F)).nCore 0)) (i : Fin ((K (F := F)).nSub 0)) :
    (P t ix o).go 0 d c i = forTile t ix d (o d) (Fin.cast nCore_zero c) (Fin.cast nSub_zero i) := rfl
theorem P_td (d : Dev nD) (c : Fin ((K (F := F)).nCore 0)) (i : Fin ((K (F := F)).nSub 0)) :
    (P t ix o).td 0 d c i = forTile t ix d (gathered (t d) (ix d)) (Fin.cast nCore_zero c) (Fin.cast nSub_zero i) := rfl
theorem P_x (q : Fin 1) (thr : Thread nD τ) : (P t ix o).x q thr = iprop(emp) := rfl
theorem P_ox : (P t ix o).ox = fun _ _ => 0 := rfl

/-! ## The whole arrays are the SparseCores' parts -/

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The three arrays whole, the result at r, are the two SparseCores' parts. -/
theorem cores_eq (d : Dev nD) (r : Buf (Elt F) (v5Loc d)) :
    (bigSep Finset.univ fun c : Fin 2 => forCore t ix d r c)
      = iprop((v2Loc d ↦{fullShare} t d) ∗ (v4Loc d ↦{fullShare} ix d) ∗ (v5Loc d ↦{fullShare} r)) := by
  rw [bigSep_sep', bigSep_wid (F := F) (fun w => blk ix d r w), bigSep_sep', ← v2_cores, ← v4_blocks, ← v5_blocks]

theorem st0_eq (d : Dev nD) :
    (bigSep Finset.univ fun c : Fin ((K (F := F)).nCore 0) => (P t ix o).st 0 d c)
      = iprop((v2Loc d ↦{fullShare} t d) ∗ (v4Loc d ↦{fullShare} ix d) ∗ (v5Loc d ↦{fullShare} o d)) := by
  simp only [P_st]
  rw [bigSep_cores (F := F) (fun c => forCore t ix d (o d) c), cores_eq]
theorem dn0_eq (d : Dev nD) :
    (bigSep Finset.univ fun c : Fin ((K (F := F)).nCore 0) => (P t ix o).dn 0 d c)
      = iprop((v2Loc d ↦{fullShare} t d) ∗ (v4Loc d ↦{fullShare} ix d) ∗ (v5Loc d ↦{fullShare} gathered (t d) (ix d))) := by
  simp only [P_dn]
  rw [bigSep_cores (F := F) (fun c => forCore t ix d (gathered (t d) (ix d)) c), cores_eq]
/-- After the call: the table and the index list whole and unchanged, the result at the gathered rows. -/
theorem dn0 (d : Dev nD) :
    (bigSep Finset.univ fun c : Fin ((K (F := F)).nCore 0) => (P t ix o).dn 0 d c)
      ⊢ iprop((v2Loc d ↦{fullShare} t d) ∗ (v4Loc d ↦{fullShare} ix d) ∗ (v5Loc d ↦{fullShare} gathered (t d) (ix d))) :=
  Entails.of_eq (dn0_eq t ix o d)

/-! ## A SparseCore's part is its tiles' -/

/-- The tiles' parts of one SparseCore: their read tokens of the table and their blocks. -/
theorem tiles_eq (d : Dev nD) (r : Buf (Elt F) (v5Loc d)) (c : Fin 2) :
    (bigSep Finset.univ fun s : Fin 16 => forTile t ix d r c s)
      = iprop((bigSep Finset.univ fun s : Fin 16 => v2Loc d ↦{tileShare c s} t d) ∗ bigSep Finset.univ fun s : Fin 16 => blk ix d r (wid c s)) :=
  bigSep_sep' _ _ _

theorem vecSplit : (K (F := F)).VecSplit' (P t ix o) 0 := by
  intro d c
  simp only [P_st, P_dn, P_go, P_td]
  rw [bigSep_tasks (F := F) (fun s => forTile t ix d (o d) (Fin.cast nCore_zero c) s),
    bigSep_tasks (F := F) (fun s => forTile t ix d (gathered (t d) (ix d)) (Fin.cast nCore_zero c) s), tiles_eq, tiles_eq]
  iintro ⟨Ht, Hb⟩
  ihave Ht' := (Transfers.pointsTo_toks_split (coreShare (Fin.cast nCore_zero c)) 16) $$ Ht
  icases Ht' with ⟨Hrest, Htoks⟩
  imodintro
  isplitl [Htoks Hb]
  · isplitl [Htoks]; · iexact Htoks
    iexact Hb
  iintro ⟨Htoks, Hb⟩
  isplitl [Hrest Htoks]
  · iapply (Transfers.pointsTo_toks_join (coreShare (Fin.cast nCore_zero c)) 16)
    isplitl [Hrest]; · iexact Hrest
    iexact Htoks
  iexact Hb

end Cert.Proof.KernelIdeal

end
-- ==== Proof.KernelIdeal.MainB.lean ====
/-
  The kernel region as a segment of @main, and @main on the TensorCore: the first line of host operations, the
  SparseCore call (the table, the index list and the rows handed over and taken back), the second line, the
  region (entered with the TensorCore's arrays at the valuation the lines left), the last line.
-/
import proofs.«204087_g3891240370374_cont_8to1_b_1678_29_alg».proof.Proof.KernelIdeal.MainA
import proofs.«204087_g3891240370374_cont_8to1_b_1678_29_alg».proof.Proof.KernelIdeal.SC

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

abbrev aAdm : (p : Fin 1) → (pcfgs (F := F) p).Adm := fun p => (cfgs p).toPCfg_adm

abbrev r2 : DevRef τ sig := Proc.devRef .tc (main_v2 : Ref sig .tc)
abbrev r4 : DevRef τ sig := Proc.devRef .tc (main_v4 : Ref sig .tc)
abbrev r5 : DevRef τ sig := Proc.devRef .tc (main_v5 : Ref sig .tc)
abbrev r9 : DevRef τ sig := Proc.devRef .tc (main_v9 : Ref sig .tc)
abbrev v9Loc (d : Dev nD) : Loc nD τ sig := (SparseCore.T d).loc main_v9

variable (m : (ℓ : Loc nD τ sig) → Buf (Elt F) ℓ) (ρ : Dev nD → PrngReg)

/-! ## The valuations along @main -/

/-- After the first line. -/
def V1 (d : Dev nD) : Valuation τ sig (Elt F) := StableHlo.after (ops1 (F := F)) (V0 m d)
/-- The table, the index list and the rows' array as the SparseCore call finds them. -/
def tV (d : Dev nD) : Buf (Elt F) (v2Loc d) := V1 m d r2
def ixV (d : Dev nD) : Buf (Elt F) (v4Loc d) := V1 m d r4
def oV (d : Dev nD) : Buf (Elt F) (v5Loc d) := V1 m d r5
/-- After the call: the rows' array holds the gathered rows. -/
def V2 (d : Dev nD) : Valuation τ sig (Elt F) := Function.update (V1 m d) r5 (gathered (tV m d) (ixV m d))
/-- After the second line: what the region is entered with. -/
def V3 (d : Dev nD) : Valuation τ sig (Elt F) := StableHlo.after (ops2 (F := F)) (V2 m d)
/-- After the region, the output array at `f`. -/
def V4 (d : Dev nD) (f : Buf (Elt F) (v9Loc d)) : Valuation τ sig (Elt F) := Function.update (V3 m d) r9 f

/-- The entry contents of the region's six windowed arrays. -/
def Aent (c : Dev nD) : (w : Fin cfg1.W) → Buf (Elt F) ((cfg1.win w).arr.view.loc (c.tc : Thread nD τ)) :=
  fun w => V3 m c (Proc.devRef .tc (Pipeline.arrRef spec1 w))

/-- The wait pairs the TensorCore may have recorded by the end of its handshakes: everything of level at most 8. -/
def Rec (c : Dev nD) : Set (SemLoc sig × HIx 1) := {p | (K (F := F)).lev ((c.tc : Thread nD τ), p.1) p.2 ≤ 8}

/-! ## What the region's body proof supplies -/

structure RegionSide where
  pdat : (c : Dev nD) → Pipeline.Dat τ (Elt F) (HIx 1) ℕ UU ℕ cfg1 c
  hA : ∀ c w, (pdat c).A w = Aent m c w
  hshare : ∀ c w, (pdat c).share w = fullShare
  howed : ∀ c t, (pdat c).owed t = 0
  hrec : ∀ c t, (pdat c).recorded t = Rec (F := F) c
  osem : Fin 16 → SemLoc sig
  ho : Pipeline.OwnSemFacts spec1 osem
  hbody : ∀ c, Pipeline.BodyObligationLoose (pdat c) (defs₀ (F := F)) 𝒱₀ (none : HIx 1) Set.univ
  Out : (c : Dev nD) → Buf (Elt F) (v9Loc c) → Prop
  hin : ∀ c, iprop((∃ f, v9Loc c ↦{fullShare} f) ∗ Pipeline.ownSems0 osem c ∗ Pipeline.scopedRest spec1 c) ⊢ ((pdat c).Φ 0 : sProp 𝕄)
  hout : ∀ c, ((pdat c).Φ (Fin.last _) : sProp 𝕄)
    ⊢ iprop((∃ f, (v9Loc c ↦{fullShare} f) ∗ ⌜Out c f⌝) ∗ Pipeline.ownSems0 osem c ∗ Pipeline.scopedRest spec1 c)

variable {m}

/-! ## The region as a segment -/

/-- The unscoped buffers that are no window's array, but the output array. -/
def restBut9 (c : Dev nD) (W : Valuation τ sig (Elt F)) : sProp 𝕄 :=
  bigSep ((((Finset.univ.filter fun b : Ref sig .tc => ¬ b.isScoped) \ Finset.univ.image (Pipeline.arrRef spec1))).erase main_v9)
    fun b => ((c.tc : Thread nD τ).loc b) ↦{fullShare} W (Proc.devRef .tc b)

/-- What the TensorCore owes nothing of, its recorded pairs of level at most 8. -/
abbrev owesDone (c : Dev nD) : sProp 𝕄 := iprop(∃ W, ⌜(K (F := F)).WBelow (T c) W 8⌝ ∗ owes (T c) 0 W)

/-! ### Entry and exit of the region -/

omit [FloatOps F] in
/-- No window of the region is ever written back: all six are inputs. -/
theorem noflush : ∀ (w : Fin cfg1.W) (t : Fin cfg1.N), (cfg1.win w).flush t = false :=
  (by decide +kernel : ∀ (w : Fin 6) (t : Fin grid1.N), (win1 w).flush t = false)

/-- An array no point writes back keeps its entry contents. -/
theorem arrAt_const (c : Dev nD) (dat : Pipeline.Dat τ (Elt F) (HIx 1) ℕ UU ℕ cfg1 c) (w : Fin cfg1.W) : ∀ n, dat.arrAt w n = dat.A w
  | 0 => rfl
  | n + 1 => by
    have ih := arrAt_const c dat w n
    unfold Pipeline.Dat.arrAt
    simp only []
    split
    · rw [noflush]; simpa using ih
    · exact ih

omit [FloatOps F] in
theorem arrRef_ne_v9 : ∀ w : Fin cfg1.W, Pipeline.arrRef spec1 w ≠ (main_v9 : Ref sig .tc) := by decide

theorem mem_rest_v9 : (main_v9 : Ref sig .tc) ∈ ((Finset.univ.filter fun b : Ref sig .tc => ¬ b.isScoped) \ Finset.univ.image (Pipeline.arrRef spec1)) := by decide

/-- The TensorCore's unscoped arrays at a valuation: the six windowed arrays, the output array, the rest. -/
theorem unscoped_split (c : Dev nD) (W : Valuation τ sig (Elt F)) :
    (unscopedBufs c (fun b => W (Proc.devRef .tc b)) : sProp 𝕄)
      = iprop((bigSep Finset.univ fun w : Fin cfg1.W => ((c.tc : Thread nD τ).loc (Pipeline.arrRef spec1 w)) ↦{fullShare} W (Proc.devRef .tc (Pipeline.arrRef spec1 w)))
          ∗ (v9Loc c ↦{fullShare} W r9) ∗ restBut9 c W) := by
  rw [Pipeline.PerCore.unscopedBufs_split (fun _ : Dev nD => cfgs) (0 : Fin 1) c Gen.winFacts1.arr_unscoped Gen.winFacts1.arr_inj]
  unfold Pipeline.unscopedRest restBut9
  rw [SparseCore.bigSep_erase' mem_rest_v9]

theorem arrays_at (RS : RegionSide m) (c : Dev nD) (n : ℕ) :
    ((RS.pdat c).arrays ((RS.pdat c).arrAt · n) : sProp 𝕄)
      = bigSep Finset.univ fun w : Fin cfg1.W => ((c.tc : Thread nD τ).loc (Pipeline.arrRef spec1 w)) ↦{fullShare} V3 m c (Proc.devRef .tc (Pipeline.arrRef spec1 w)) := by
  unfold Pipeline.Dat.arrays
  refine bigSep_congr fun w _ => ?_
  dsimp only
  rw [(Gen.arr_whole1 w).set_eq_univ, RS.hshare, arrAt_const, RS.hA]
  rfl

theorem V4_of_ne (c : Dev nD) (f : Buf (Elt F) (v9Loc c)) (b : Ref sig .tc) (h : b ≠ main_v9) :
    V4 m c f (Proc.devRef .tc b) = V3 m c (Proc.devRef .tc b) :=
  Function.update_of_ne (fun e => h (Proc.devRef_injective _ e)) _ _
theorem V4_v9 (c : Dev nD) (f : Buf (Elt F) (v9Loc c)) : V4 m c f r9 = f := Function.update_self _ _ _

theorem restBut9_V4 (c : Dev nD) (f : Buf (Elt F) (v9Loc c)) : (restBut9 c (V4 m c f) : sProp 𝕄) = restBut9 c (V3 m c) := by
  unfold restBut9
  exact bigSep_congr fun b hb => by rw [V4_of_ne c f b (Finset.ne_of_mem_erase hb)]

theorem seg_entry (RS : RegionSide m) (c : Dev nD) :
    iprop((unscopedBufs c (fun b => V3 m c (Proc.devRef .tc b)) ∗ owesDone (F := F) c) ∗ Pipeline.ownSems0 RS.osem c
        ∗ levAts (K (F := F)).L (K (F := F)).lev)
      ⊢ |={Set.univ}=> iprop((RS.pdat c).arrays ((RS.pdat c).arrAt · 0)
          ∗ Pipeline.prefHeld (pcfgs (F := F) 0).pre c (fun _ => fullShare) (aAdm (F := F) 0).1
          ∗ (RS.pdat c).owesAt (none : HIx 1) 0 ∗ ((∃ f, v9Loc c ↦{fullShare} f) ∗ Pipeline.ownSems0 RS.osem c) ∗ restBut9 c (V3 m c)) := by
  iintro ⟨⟨HU, %W, %hW, HO⟩, Hown, -⟩
  imodintro
  ihave Hsp := (Entails.of_eq (unscoped_split c (V3 m c))) $$ HU
  icases Hsp with ⟨Harr, H9, Hrest⟩
  isplitl [Harr]
  · rw [arrays_at RS c 0]; iexact Harr
  isplitr
  · unfold Pipeline.prefHeld; rw [Finset.univ_eq_empty, bigSep_empty]; iempintro
  isplitl [HO]
  · iexists W; isplitr
    · ipureintro
      intro p hp
      refine Or.inl ?_
      rw [RS.hrec]
      exact hW p (Finset.mem_coe.mp hp)
    · rw [RS.howed]; iexact HO
  isplitl [H9 Hown]
  · isplitl [H9]
    · iexists _; iexact H9
    · iexact Hown
  · iexact Hrest

theorem seg_exit (RS : RegionSide m) (c : Dev nD) :
    iprop((RS.pdat c).arrays ((RS.pdat c).arrAt · cfg1.N) ∗ (RS.pdat c).owesAt (none : HIx 1) (Fin.last cfg1.N)
        ∗ (∃ f, (v9Loc c ↦{fullShare} f) ∗ ⌜RS.Out c f⌝) ∗ restBut9 c (V3 m c))
      ⊢ |={Set.univ}=> iprop((∃ f, ⌜RS.Out c f⌝ ∗ unscopedBufs c (fun b => V4 m c f (Proc.devRef .tc b))) ∗ owesDone (F := F) c) := by
  iintro ⟨Harr, ⟨%W, %hW, HO⟩, ⟨%f, H9, %hf⟩, Hrest⟩
  imodintro
  isplitl [Harr H9 Hrest]
  · iexists f; isplitr; · ipureintro; exact hf
    iapply (Entails.of_eq (unscoped_split c (V4 m c f)).symm)
    isplitl [Harr]
    · ihave Harr' := (Entails.of_eq (arrays_at RS c cfg1.N)) $$ Harr
      iapply (Entails.of_eq (bigSep_congr fun w _ => by rw [V4_of_ne c f _ (arrRef_ne_v9 w)]))
      iexact Harr'
    isplitl [H9]
    · rw [V4_v9]; iexact H9
    · unfold restBut9
      iapply (Entails.of_eq (bigSep_congr fun b hb => by rw [V4_of_ne c f b (Finset.ne_of_mem_erase hb)]))
      iexact Hrest
  · iexists W; isplitr
    · ipureintro
      intro p hp
      rcases hW (Finset.mem_coe.mpr hp) with h | ⟨w, s, rfl⟩
      · rw [RS.hrec] at h; exact h
      · exact Nat.zero_le _
    · rw [RS.howed]; iexact HO

def Rseg (RS : RegionSide m) : Pipeline.RegionSeg (pcfgs (F := F)) aAdm (fun _ c => RS.pdat c) (none : HIx 1) (defs₀ (F := F)) 𝒱₀
    (K (F := F)).L (K (F := F)).lev (0 : Fin 1) where
  win := Gen.winFacts1.to₀
  block_pos := Gen.block_pos1
  stage_whole := Gen.stage_whole1
  K := Fin 16
  osem := RS.osem
  ho := RS.ho
  hbody := RS.hbody
  hwaits c := (show (levAts (K (F := F)).L (K (F := F)).lev : sProp 𝕄) ⊢ BI.emp from by iintro -; iempintro).trans
    (Pipeline.cellsWaits_of_owed_zero cfgs (fun _ c => RS.pdat c) (none : HIx 1) 0 c (RS.howed c))
  pre c := iprop(unscopedBufs c (fun b => V3 m c (Proc.devRef .tc b)) ∗ owesDone c)
  post c := iprop((∃ f, ⌜RS.Out c f⌝ ∗ unscopedBufs c (fun b => V4 m c f (Proc.devRef .tc b))) ∗ owesDone c)
  X c := iprop((∃ f, v9Loc c ↦{fullShare} f) ∗ Pipeline.ownSems0 RS.osem c)
  Y c := iprop(∃ f, (v9Loc c ↦{fullShare} f) ∗ ⌜RS.Out c f⌝)
  Z c := restBut9 c (V3 m c)
  hentry c := seg_entry RS c
  hin c := by
    iintro ⟨⟨H9, Hs⟩, -, Hr⟩
    iapply (RS.hin c)
    isplitl [H9]; · iexact H9
    isplitl [Hs]; · iexact Hs
    iexact Hr
  hout c := RS.hout c
  hexit c := seg_exit RS c

end Cert.Proof.KernelIdeal

end
-- ==== Proof.KernelIdeal.MainC.lean ====
/-
  @main on the TensorCore, run: the first line, the SparseCore call, the second line, the kernel region entered
  through the lifted signature, the last line; what the TensorCore ends with.
-/
import proofs.«204087_g3891240370374_cont_8to1_b_1678_29_alg».proof.Proof.KernelIdeal.MainB

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-- The call's payloads at the valuation the first line leaves. -/
abbrev Pm : (K (F := F)).Pay (nD := nD) (Val := Elt F) (Name := ℕ) (U := UU) := P (tV m) (ixV m) (oV m)

/-- The pipeline's ghost state on device `d`, funded at the launch. -/
abbrev G (d : Dev nD) : sProp 𝕄 := iprop(Pipeline.cellsGhost cfgs EP (0 : Fin 1) d ∗ Pipeline.toksInit cfgs EP (0 : Fin 1) d)

/-- The three arrays the SparseCore call moves. -/
def S245 : Finset (DevRef τ sig) := {r2, r4, r5}
omit [FloatOps F] in
theorem S245_sub : S245 ⊆ Sall := by decide

theorem held_call (d : Dev nD) (W : Valuation τ sig (Elt F)) :
    (held (T d) Sall W : sProp 𝕄)
      = iprop(((v2Loc d ↦{fullShare} W r2) ∗ (v4Loc d ↦{fullShare} W r4) ∗ (v5Loc d ↦{fullShare} W r5)) ∗ held (T d) (Sall \ S245) W) := by
  rw [StableHlo.held_sub_split (T d) S245_sub W]
  congr 1
  unfold held S245
  rw [SparseCore.bigSep_insert' (by decide), SparseCore.bigSep_insert' (by decide), bigSep_singleton]

theorem V2_r2 (d : Dev nD) : V2 m d r2 = tV m d := Function.update_of_ne (by decide : r2 ≠ r5) _ _
theorem V2_r4 (d : Dev nD) : V2 m d r4 = ixV m d := Function.update_of_ne (by decide : r4 ≠ r5) _ _
theorem V2_r5 (d : Dev nD) : V2 m d r5 = gathered (tV m d) (ixV m d) := Function.update_self _ _ _
theorem held_rest_V2 (d : Dev nD) : (held (T d) (Sall \ S245) (V2 m d) : sProp 𝕄) = held (T d) (Sall \ S245) (V1 m d) :=
  StableHlo.held_congr (T d) fun b hb => Function.update_of_ne (fun e => (Finset.mem_sdiff.mp hb).2 (by rw [e]; decide)) _ _

/-- The TensorCore's state after its one call: it owes nothing; the rest of its handshake state rides along. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) : ((K (F := F)).tcSt EH d 1 : sProp 𝕄) = iprop(owesDone (F := F) d ∗ tcRest d) := by
  unfold SparseCore.Cfg.tcSt tcRest
  rw [(K (F := F)).Otc_end d (le_refl 1)]

theorem tcSt_eq' (d : Dev nD) : ((K (F := F)).tcSt EH d ((0 : Fin 1).val + 1) : sProp 𝕄) = iprop(owesDone (F := F) d ∗ tcRest d) := tcSt_eq d

theorem unscoped_held' (d : Dev nD) (W : Valuation τ sig (Elt F)) :
    (unscopedBufs d (fun b => W (Proc.devRef .tc b)) : sProp 𝕄) = held (T d) Sall W := by
  unfold unscopedBufs held Sall
  rw [bigSep_map]
  rfl

variable {m} in
theorem Rseg_pre (RS : RegionSide m) (d : Dev nD) :
    (Rseg RS).pre d = iprop(unscopedBufs d (fun b => V3 m d (Proc.devRef .tc b)) ∗ owesDone (F := F) d) := rfl
variable {m} in
theorem Rseg_post (RS : RegionSide m) (d : Dev nD) :
    (Rseg RS).post d = iprop((∃ f, ⌜RS.Out d f⌝ ∗ unscopedBufs d (fun b => V4 m d f (Proc.devRef .tc b))) ∗ owesDone (F := F) d) := rfl

/-- The region's call and what follows it, in the pipelines' signature, is the same program lifted. -/
theorem lift_eq :
    SparseCore.liftProg (Q := 1) (Prog.op (.customCall (Pipeline.entry (0 : Fin 1)) ()) fun _ => StableHlo.seq (ops3 (F := F)) >>= fun _ => pure ⟨⟩
        : Prog (TpuEff nD τ sig (Elt F) (ΛP (F := F)) .tc) PUnit)
      = (Prog.op (.customCall (SparseCore.inner (Pipeline.entry 0)) ()) fun _ => StableHlo.seq (ops3 (F := F)) >>= fun _ => pure ⟨⟩) := rfl

theorem lift_region (d : Dev nD) (Q : PUnit → sProp 𝕄) :
    wp frame (wpE (D (F := F)) 𝒱 (SparseCore.T d) none) Set.univ
        (Prog.op (.customCall (Pipeline.entry (0 : Fin 1)) ()) fun _ => StableHlo.seq (ops3 (F := F)) >>= fun _ => pure ⟨⟩) Q
      ⊢ wp frame (wpE ((K (F := F)).defs (D (F := F))) 𝒱 (SparseCore.T d) none) Set.univ
        (Prog.op (.customCall (SparseCore.inner (Pipeline.entry 0)) ()) fun _ => StableHlo.seq (ops3 (F := F)) >>= fun _ => pure ⟨⟩) Q := by
  rw [← lift_eq]
  exact (K (F := F)).wp_liftProg (D (F := F)) 𝒱 (SparseCore.T d) Set.univ none _ Q

/-- What @main leaves: the output array's contents in the relation the region's proof states, every unscoped
    array at the valuation after the last line. -/
def FIN (RS : RegionSide m) (d : Dev nD) : sProp 𝕄 :=
  iprop(∃ f, ⌜RS.Out d f⌝ ∗ held (T d) Sall (StableHlo.after (ops3 (F := F)) (V4 m d f)))

set_option backward.isDefEq.respectTransparency.types false in
theorem hmain (RS : RegionSide m) (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m RS d) := by
  unfold SparseCore.Cfg.tcRes
  rw [unscoped_held, main_eq]
  iintro ⟨#Hctx, Hst, ⟨Hb, Hheld, -, -⟩, Hcg, Htk⟩
  -- the first line
  iapply (StableHlo.wp_seq (defs := (K (F := F)).defs (D (F := F))) 𝒱 none Set.univ d Sall _ (ops1 (F := F)) ops1_sub ops1_fresh (V0 m d)) $$ [Hb Hheld]
  · isplitl [Hb] <;> iassumption
  iintro ⟨Hb, Hheld⟩
  rw [show StableHlo.after (ops1 (F := F)) (V0 m d) = V1 m d from rfl]
  -- the call: the table, the index list and the rows' array out and back
  rw [wp_bind]
  ihave Hh := (Entails.of_eq (held_call d (V1 m d))) $$ Hheld
  icases Hh with ⟨⟨H2, H4, H5⟩, Hrest⟩
  iapply ((K (F := F)).wp_run (D (F := F)) 𝒱 (EH := EH) (P := Pm m) κ d 0) $$ [Hst H2 H4 H5 Hb Hrest Hcg Htk]
  isplitr; · iexact Hctx
  isplitl [Hst]; · iexact Hst
  isplitl [H2 H4 H5]
  · rw [st0_eq]
    isplitl [H2]; · iexact H2
    isplitl [H4]; · iexact H4
    iexact H5
  iintro ⟨Hst, Hdn⟩
  ihave Hdn' := (Entails.of_eq (dn0_eq (tV m) (ixV m) (oV m) d)) $$ Hdn
  icases Hdn' with ⟨H2, H4, H5⟩
  ihave Hheld := (Entails.of_eq (held_call d (V2 m d)).symm) $$ [H2 H4 H5 Hrest]
  · rw [V2_r2, V2_r4, V2_r5, held_rest_V2]
    isplitl [H2 H4 H5]
    · isplitl [H2]; · iexact H2
      isplitl [H4]; · iexact H4
      iexact H5
    · iexact Hrest
  -- the second line
  iapply (StableHlo.wp_seq (defs := (K (F := F)).defs (D (F := F))) 𝒱 none Set.univ d Sall _ (ops2 (F := F)) ops2_sub ops2_fresh (V2 m d)) $$ [Hb Hheld]
  · isplitl [Hb] <;> iassumption
  iintro ⟨Hb, Hheld⟩
  rw [show StableHlo.after (ops2 (F := F)) (V2 m d) = V3 m d from rfl]
  -- the region, entered through the lifted signature
  ihave Hst' := (Entails.of_eq (tcSt_eq' d)) $$ Hst
  icases Hst' with ⟨Hod, Htr⟩
  iapply (lift_region d (fun _ => iprop((K (F := F)).tcSt EH d 1 ∗ FIN m RS d)))
  iapply (Pipeline.RegionSeg.wp (pcfgs (F := F)) aAdm (fun _ c => RS.pdat c) (none : HIx 1) Gen.cellOf_inj EP (defs₀ (F := F)) 𝒱₀
      (K (F := F)).L (K (F := F)).lev (Rseg RS) d none (fun u hu => nomatch hu) _ _) $$ [Hb Hheld Hod Htr Hcg Htk]
  rw [Rseg_pre, Rseg_post]
  isplitl [Htr]
  · iintro ⟨Hb, ⟨%f, %hf, Hub⟩, Hod⟩
    ihave Hheld := (Entails.of_eq (unscoped_held' d (V4 m d f))) $$ Hub
    iapply (StableHlo.wp_seq (defs := D (F := F)) 𝒱 none Set.univ d Sall _ (ops3 (F := F)) ops3_sub ops3_fresh (V4 m d f)) $$ [Hb Hheld]
    · isplitl [Hb] <;> iassumption
    iintro ⟨Hb, Hheld⟩
    rw [Prog.pure_eq_ret, wp_ret]; imodintro
    isplitl [Hod Htr]
    · rw [tcSt_eq]
      isplitl [Hod]; · iexact Hod
      iexact Htr
    · unfold FIN
      iexists f; isplitr; · ipureintro; exact hf
      iexact Hheld
  isplitl [Hb]; · iexact Hb
  isplitl [Hheld Hod]
  · isplitl [Hheld]
    · iapply (Entails.of_eq (unscoped_held' d (V3 m d)).symm); iexact Hheld
    · iexact Hod
  isplitr; · iapply ((K (F := F)).ctx_levAts κ); iexact Hctx
  isplitl [Hcg]; · iexact Hcg
  iexact Htk

end Cert.Proof.KernelIdeal

end
-- ==== Proof.KernelIdeal.SCBody.lean ====
/-
  The SparseCore side of the call, part two: one tile's task, once, at a symbolic tile (c, s). The tile copies its
  block of the index list into its index scratch, gathers the table's rows those 32 words name into its row scratch,
  and copies the row scratch out to its block of the result; each transfer is waited for before the next is issued, so
  each of the three semaphores carries one transfer at a time. What the last copy leaves in the block is stated as
  the ONE whole-array function of the table and the index list: at row 32 w + k of the result, the table's row
  named by word 32 w + k of the index list (the words in range, by the precondition).
-/
import proofs.«204087_g3891240370374_cont_8to1_b_1678_29_alg».proof.Proof.KernelIdeal.SC

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (t : (d : Dev nD) → Buf (Elt F) (v2Loc d)) (ix : (d : Dev nD) → Buf (Elt F) (v4Loc d)) (o : (d : Dev nD) → Buf (Elt F) (v5Loc d))

variable [FloatOps F]

-- the kernel's memrefs, spelt as the body table passes them
local notation "tW" => (Memref.whole Cert.KernelIdeal.main_v2_scv : Memref Cert.KernelIdeal.sig Kind.scVector Space.hbm Cert.KernelIdeal.S50000x128 EltTy.f32)
local notation "iW" => (Memref.whole Cert.KernelIdeal.main_v4_scv : Memref Cert.KernelIdeal.sig Kind.scVector Space.hbm Cert.KernelIdeal.S1024 EltTy.i32)
local notation "oW" => (Memref.whole Cert.KernelIdeal.main_v5_scv : Memref Cert.KernelIdeal.sig Kind.scVector Space.hbm Cert.KernelIdeal.S1024x128 EltTy.f32)
local notation "sI" => (Memref.whole Cert.KernelIdeal.cc0_scratch0 : Memref Cert.KernelIdeal.sig Kind.scVector Space.vmem Cert.KernelIdeal.S32 EltTy.i32)
local notation "sR" => (Memref.whole Cert.KernelIdeal.cc0_scratch1 : Memref Cert.KernelIdeal.sig Kind.scVector Space.vmem Cert.KernelIdeal.S32x128 EltTy.f32)

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)
/-- The tile's block. -/
abbrev wL (L : grid0.Coords) : Fin 32 := wid (cL L) (jL L)

/-- The tile's block of the index list and of the result, as the kernel slices them. -/
abbrev rectK1 (L : grid0.Coords) : Rect S1024 := Rect.unit (s := S1024) (k0_off1 L) S32.size (k0_off1_inb L)
abbrev rectK2 (L : grid0.Coords) : Rect S1024x128 := Rect.unit (s := S1024x128) (k0_off2 L) S32x128.size (k0_off2_inb L)
abbrev sl4 (L : grid0.Coords) : Memref sig .scVector .hbm S32 .i32 := (iW).slice (rectK1 L) (fun _ => rfl)
abbrev sl5 (L : grid0.Coords) : Memref sig .scVector .hbm S32x128 .f32 := (oW).slice (rectK2 L) (fun _ => rfl)

omit [FloatOps F] in
theorem rectK1_eq : rectK1 L = row4 (wL L) := by
  unfold rectK1 row4 Rect.part Rect.block
  congr 1 <;> funext a
  · rw [k0_off1_eq]
    match a with
    | 0 => simp [Shape.partIx, Shape.partSize]; omega
  · match a with
    | 0 => simp [Shape.partSize]
omit [FloatOps F] in
theorem rectK2_eq : rectK2 L = row5 (wL L) := by
  unfold rectK2 row5 Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

omit [FloatOps F] in
theorem set_sl4 : (sl4 L).view.set = rows4 (wL L) := by
  show ((View.whole (main_v4_scv : Ref sig .scVector)).slice (rectK1 L)).set = (row4 (wL L)).set
  rw [View.set_slice_whole, rectK1_eq]
omit [FloatOps F] in
theorem set_sl5 : (sl5 L).view.set = rows5 (wL L) := by
  show ((View.whole (main_v5_scv : Ref sig .scVector)).slice (rectK2 L)).set = (row5 (wL L)).set
  rw [View.set_slice_whole, rectK2_eq]

omit [FloatOps F] in
theorem pts_sl4 (f : Buf (Elt F) (v4Loc d)) :
    ((sl4 L).view.loc (V d (cV L) (jV L)) ↦[(sl4 L).view.set]{fullShare} f : sProp 𝕄) = v4Loc d ↦[rows4 (wL L)]{fullShare} f := by
  rw [set_sl4]
omit [FloatOps F] in
theorem pts_sl5 (f : Buf (Elt F) (v5Loc d)) :
    ((sl5 L).view.loc (V d (cV L) (jV L)) ↦[(sl5 L).view.set]{fullShare} f : sProp 𝕄) = v5Loc d ↦[rows5 (wL L)]{fullShare} f := by
  rw [set_sl5]
omit [FloatOps F] in
theorem pts_tW (q : PosShare TreeShare) (f : Buf (Elt F) (v2Loc d)) :
    ((tW).view.loc (V d (cV L) (jV L)) ↦{q} f : sProp 𝕄) = v2Loc d ↦{q} f := rfl
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sR (f : Buf (Elt F) ((V d (cV L) (jV L)).loc cc0_scratch1)) :
    ((sR).view.loc (V d (cV L) (jV L)) ↦{fullShare} f : sProp 𝕄) = (V d (cV L) (jV L)).loc cc0_scratch1 ↦{fullShare} f := rfl

/-! ### The tile's own semaphores and buffers -/

abbrev cAcell (d : Dev nD) (c : Fin τ.nSC) (i : Fin τ.nSub) : GSem nD τ sig := (V d c i, .dma cc0_scoped0.sem)
abbrev cGcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cGcell d (cV L) (jV L)) 0 ∗ semVal (cBcell d (cV L) (jV L)) 0
          ∗ bigSep ((((ownCells (V d (cV L) (jV L))).erase (cAcell d (cV L) (jV L))).erase (cGcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cGcell]; decide, (mem_ownCells (g := cGcell d (cV L) (jV L))).mpr ⟨rfl, by
      show (SemLoc.dma cc0_scratch2.sem : SemLoc sig).isScoped .scVector = true; decide⟩⟩),
    SparseCore.bigSep_erase' (Finset.mem_erase.mpr ⟨by simp [cGcell, cBcell]; decide, Finset.mem_erase.mpr ⟨by simp [cAcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ### Where the tile's slices sit, and the value the task leaves -/

omit [FloatOps F] in
theorem emb_sl4 (x : S32.Idx) : (((sl4 L).view.emb x) 0).val = 64 * (L 1).val + 32 * (L 0).val + (x 0).val := by
  show ((rectK1 L).emb x 0 : Nat) = _
  rw [Rect.emb_apply]
  show k0_off1 L 0 + 1 * (x 0).val = _
  rw [k0_off1_eq]
  simp
omit [FloatOps F] in
theorem emb_sl5_0 (y : S32x128.Idx) : (((sl5 L).view.emb y) 0).val = 64 * (L 1).val + 32 * (L 0).val + (y 0).val := by
  show ((rectK2 L).emb y 0 : Nat) = _
  rw [Rect.emb_apply]
  show k0_off2 L 0 + 1 * (y 0).val = _
  rw [k0_off2_eq]
  simp
omit [FloatOps F] in
theorem emb_sl5_1 (y : S32x128.Idx) : (((sl5 L).view.emb y) 1).val = (y 1).val := by
  show ((rectK2 L).emb y 1 : Nat) = _
  rw [Rect.emb_apply]
  show k0_off2 L 1 + 1 * (y 1).val = _
  rw [k0_off2_eq]
  simp
omit [FloatOps F] in
/-- Entry k of a list of 32 words in row-major order is the word at index k. -/
theorem rowMajor_symm_S32 (k : Fin S32.numel) : ((S32.rowMajor.symm k) 0).val = k.val := by
  have h := Shape.rowMajor_val_one (S32.rowMajor.symm k)
  rw [Equiv.apply_symm_apply] at h
  exact h.symm

omit [FloatOps F] in
/-- One whole-shape write read back through the view is its payload. -/
theorem read_writes_whole {κ : Kind} {sp : Space} {s : Shape} {e : EltTy} (v : View sig κ sp s e) (f : v.ty.Contents (Elt F))
    (G : s.Idx → Elt F e) (y : s.Idx) : v.read (Elt F) (v.writes (Elt F) f [⟨Rect.whole s, G⟩]) y = G y := by
  have h := View.read_writes_cons_emb v f (Rect.whole s) G [] y
  rwa [Rect.emb_whole_apply] at h

omit [FloatOps F] in
/-- One whole-shape write, at an element of the view, is its payload there. -/
theorem writes_whole_emb {κ : Kind} {sp : Space} {s : Shape} {e : EltTy} (v : View sig κ sp s e) (f : v.ty.Contents (Elt F))
    (G : s.Idx → Elt F e) (y : s.Idx) :
    v.writes (Elt F) f [⟨Rect.whole s, G⟩] (v.emb y) = _root_.cast (congrArg (Elt F) v.elt_eq.symm) (G y) := by
  have h := View.write_emb_of_mem (v := v.slice (Rect.whole s)) f G (Finset.mem_univ y)
  rw [View.emb_slice] at h
  simp only [Function.Embedding.trans_apply, Rect.emb_whole_apply] at h
  exact h

omit [FloatOps F] in
/-- What the index scratch holds after the first copy, read through the scratch: the tile's block of the index list. -/
theorem idx_eq (fs : Buf (Elt F) ((V d (cV L) (jV L)).loc cc0_scratch0)) :
    View.read (Elt F) (sI).view (View.write (Elt F) (sI).view fs (ReadAs.same.apply (View.read (Elt F) (sl4 L).view (ix d))) Finset.univ)
      = fun x => ix d ((sl4 L).view.emb x) := by
  rw [View.write_whole_univ, View.read_whole, ReadAs.apply_same]
  funext x
  exact (View.read_apply _ _).trans (cast_eq _ _)

omit [FloatOps F] in
/-- The whole table's rectangle places an index at itself. -/
theorem unit00_emb (z : S50000x128.Idx) :
    (Rect.unit (s := S50000x128) ![0, 0] S50000x128.size inb_S50000x128_S50000x128_0_0).emb z = z := by
  funext a
  apply Fin.ext
  rw [Rect.emb_apply]
  match a with
  | 0 => show 0 + 1 * (z 0).val = (z 0).val; omega
  | 1 => show 0 + 1 * (z 1).val = (z 1).val; omega

omit [FloatOps F] in
/-- The table's index a gathered element reads: the named row, the element's own column. -/
theorem gidx (R : Fin (S32x128.size (gathers_S50000x128_S32x128).axis') → Fin (S50000x128.size (gathers_S50000x128_S32x128).axis)) (y : S32x128.Idx) :
    (gathers_S50000x128_S32x128).idx R y = ValueIdx.ix2 (R (y 0)) (y 1) := by
  funext a
  match a with
  | 0 => exact Shape.Gathers.idx_axis gathers_S50000x128_S32x128 R y
  | 1 => exact Fin.ext (Shape.Gathers.idx_of_ne gathers_S50000x128_S32x128 R y 1 (by decide))

/-- What the task's last copy leaves at an element of its block of the result: the gathered value. -/
theorem gather_value (hin : ∀ (d : Dev nD) (b : Idx (v4Loc d)), (ix d b).toNat < 50000)
    (fs : Buf (Elt F) ((V d (cV L) (jV L)).loc cc0_scratch0)) (fr : Buf (Elt F) ((V d (cV L) (jV L)).loc cc0_scratch1))
    (hin' : ∀ x, ((sI).view.read (Elt F) (View.write (Elt F) (sI).view fs (ReadAs.same.apply (View.read (Elt F) (sl4 L).view (ix d))) Finset.univ) x).toNat
      < S50000x128.size (gathers_S50000x128_S32x128).axis)
    (y : S32x128.Idx) :
    (sl5 L).view.writes (Elt F) (o d)
        [⟨Rect.whole S32x128,
          ReadAs.same.apply (View.read (Elt F) (sR).view ((sR).view.writes (Elt F) fr
            [⟨Rect.whole cc0_scratch1.ty.shape,
              SparseCore.gatherPayload gathers_S50000x128_S32x128
                (View.read (Elt F) ((tW).slice (Rect.unit ![0, 0] S50000x128.size inb_S50000x128_S50000x128_0_0) (fun _ => rfl)).view (t d))
                (SparseCore.rows (View.read (Elt F) (sI).view (View.write (Elt F) (sI).view fs (ReadAs.same.apply (View.read (Elt F) (sl4 L).view (ix d))) Finset.univ))
                  rfl hin')⟩]))⟩]
        ((sl5 L).view.emb y)
      = gathered (t d) (ix d) ((sl5 L).view.emb y) := by
  refine (writes_whole_emb (F := F) (sl5 L).view (o d) _ y).trans ?_
  refine (cast_eq _ _).trans ?_
  rw [ReadAs.apply_same]
  refine (read_writes_whole (F := F) (sR).view fr _ y).trans ?_
  unfold SparseCore.gatherPayload
  refine (View.read_apply _ _).trans ((cast_eq _ _).trans ?_)
  unfold gathered
  refine congrArg (t d) ?_
  show (Rect.unit (s := S50000x128) ![0, 0] S50000x128.size inb_S50000x128_S50000x128_0_0).emb _ = _
  refine (unit00_emb _).trans ((gidx _ y).trans ?_)
  refine congrArg₂ ValueIdx.ix2 ?_ ?_
  · apply Fin.ext
    refine (congrArg BitVec.toNat (congrFun (idx_eq ix d L fs) _)).trans ?_
    show (ix d ((sl4 L).view.emb (S32.rowMajor.symm (Fin.cast _ (y 0))))).toNat = (ix d (ValueIdx.ix1 ((sl5 L).view.emb y 0))).toNat % 50000
    have e2 : (sl4 L).view.emb (S32.rowMajor.symm (Fin.cast rfl (y 0))) = ValueIdx.ix1 ((sl5 L).view.emb y 0) := by
      funext a
      match a with
      | 0 =>
        apply Fin.ext
        rw [emb_sl4, rowMajor_symm_S32]
        show _ = (((sl5 L).view.emb y) 0).val
        rw [emb_sl5_0]
        rfl
    refine (congrArg (fun z => (ix d z).toNat) e2).trans ?_
    exact (Nat.mod_eq_of_lt (hin d _)).symm
  · exact Fin.ext (emb_sl5_1 L y).symm

/-- The task on vector subcore (L 0, L 1) of device d. -/
theorem tile_body (hF : (K (F := F)).Facts) (hin : ∀ (d : Dev nD) (b : Idx (v4Loc d)), (ix d b).toNat < 50000)
    (O : CellTallies nD τ sig (HIx 1)) (W : Waits sig (HIx 1)) (hO : ∀ g, O g none = 0) :
    iprop(levAts (K (F := F)).L (K (F := F)).lev ∗ emp
        ∗ forTile t ix d (o d) (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tW (Memref.isWhole_whole _) iW (Memref.isWhole_whole _) oW (Memref.isWhole_whole _)
            sI (Memref.isWhole_whole _) sR (Memref.isWhole_whole _) cc0_scratch2 cc0_scoped0 cc0_scoped1)
          fun _ => iprop(forTile t ix d (gathered (t d) (ix d)) (cL L) (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hs⟩, ⟨%fr, Hr⟩, Hbufs⟩, ⟨HsemA, HsemG, HsemB, Hsems⟩, HO⟩
  ihave Hmw := ((K (F := F)).mayWaits_none (thr := V d (cV L) (jV L)) hO) $$ Hlv
  ihave Ht' := (Entails.of_eq (pts_tW (F := F) d L _ _).symm) $$ Ht
  ihave Hi' := (Entails.of_eq (pts_sl4 (F := F) d L _).symm) $$ Hi
  ihave Ho' := (Entails.of_eq (pts_sl5 (F := F) d L _).symm) $$ Ho
  ihave Hs' := (Entails.of_eq (pts_sI (F := F) d L _).symm) $$ Hs
  ihave Hr' := (Entails.of_eq (pts_sR (F := F) d L _).symm) $$ Hr
  sl_exec
  have hin' : ∀ x, ((sI).view.read (Elt F) (View.write (Elt F) (sI).view fs (tile_body.sl.dma0 ix d L) Finset.univ) x).toNat < S50000x128.size (gathers_S50000x128_S32x128).axis := by
    intro x
    unfold tile_body.sl.dma0
    rw [View.write_whole_univ, View.read_whole, ReadAs.apply_same, View.read_apply]
    exact hin d _
  sl_exec
  have hval : ∀ i ∈ (sl5 L).view.set,
      ((sl5 L).view.writes (Elt F) (o d) [⟨Rect.whole S32x128, tile_body.sl.dma0_1 t ix d L fs fr hin'⟩]) i = gathered (t d) (ix d) i := by
    intro i hi
    obtain ⟨y, -, rfl⟩ := Finset.mem_map.mp hi
    unfold tile_body.sl.dma0_1 tile_body.sl.gather0 tile_body.sl.dma0
    exact gather_value t ix o d L hin fs fr hin' y
  sl_step
  isplitl [Ht' Hi' Ho']
  · isplitl [Ht']; · iapply (Entails.of_eq (pts_tW (F := F) d L _ _)); iexact Ht'
    isplitl [Hi']; · iapply (Entails.of_eq (pts_sl4 (F := F) d L _)); iexact Hi'
    iapply (Entails.of_eq ((pointsTo_congr hval).trans (pts_sl5 (F := F) d L _))); iexact Ho'
  isplitl [Hs' Hr' Hbufs]
  · isplitl [Hs']; · iexists _; iapply (Entails.of_eq (pts_sI (F := F) d L _)); iexact Hs'
    isplitl [Hr']; · iexists _; iapply (Entails.of_eq (pts_sR (F := F) d L _)); iexact Hr'
    iexact Hbufs
  isplitl [HsemA HsemG HsemB Hsems]
  · isplitl [HsemA]; · iexact HsemA
    isplitl [HsemG]; · iexact HsemG
    isplitl [HsemB]; · iexact HsemB
    iexact Hsems
  iexists (insert (SemLoc.dma cc0_scoped1.sem, (default : HIx 1)) (insert (SemLoc.dma cc0_scratch2.sem, (default : HIx 1))
    (insert (SemLoc.dma cc0_scoped0.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile

/-! ## The launch theorem's obligation for the tiles -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          tW (Memref.isWhole_whole _) iW (Memref.isWhole_whole _) oW (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task, from its read token of the table and its block of the index list and of the result: the block
    of the result at the gathered rows, everything else as it was. -/
theorem tileObl (hF : (K (F := F)).Facts) (hin : ∀ (d : Dev nD) (b : Idx (v4Loc d)), (ix d b).toNat < 50000) :
    (K (F := F)).TileObl (D (F := F)) 𝒱 (P t ix o) v₀ 0 := by
  intro d c i O W hO _ _
  simp only [P_ox, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body t ix o d (coordsV ⟨_, hc.1⟩ ⟨_, hc.2⟩) hF hin O W hO).trans (wp_mono frame _ _ fun _ => obl_post)

end Cert.Proof.KernelIdeal

end
-- ==== Proof.KernelIdeal.MainD.lean ====
/-
  The launch: the certificate's ghost element (the handshakes' rounds, the pipeline's staging cells, the counters),
  how the TensorCore's final assertion reads the final memory, and the program's run from the launch theorem.
-/
import proofs.«204087_g3891240370374_cont_8to1_b_1678_29_alg».proof.Proof.KernelIdeal.MainC
import proofs.«204087_g3891240370374_cont_8to1_b_1678_29_alg».proof.Proof.KernelIdeal.SCBody

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

def u₀ : UU :=
  (initOf (K (F := F)).hsCells (K (F := F)).hsToks,
    (initOf (Pipeline.cells (nD := nD) (τ := τ) cfgs Gen.cellOf_inj) (Pipeline.launchToks (nD := nD) (τ := τ) cfgs Gen.cellOf_inj), 1))

omit [FloatOps F] in
theorem ownU_split3 (a : UH) (b : UP) (c : Counters) : (ownU ((a, (b, c)) : UU) : sProp 𝕄) ⊢ iprop(BI.own (EH a) ∗ BI.own (EP b)) := by
  have h1 : (ownU ((a, (b, c)) : UU) : sProp 𝕄) ⊢ iprop(BI.own (EH a) ∗ ownU (((1 : UH), (b, c)) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, c))))
  have h2 : (ownU (((1 : UH), (b, c)) : UU) : sProp 𝕄) ⊢ iprop(BI.own (EP b) ∗ ownU (((1 : UH), ((1 : UP), c)) : UU)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op c))))
  iintro H
  ihave H1 := h1 $$ H
  icases H1 with ⟨Ha, H⟩
  ihave H2 := h2 $$ H
  icases H2 with ⟨Hb, -⟩
  isplitl [Ha]; · iexact Ha
  iexact Hb

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (Pm m).x q thr) := by
  unfold u₀
  iintro Hu
  ihave H := (ownU_split3 _ _ _) $$ Hu
  icases H with ⟨HH, HP⟩
  imod (Pipeline.fund_ghost (nD := nD) (τ := τ) cfgs EP Gen.cellOf_inj) $$ HP with ⟨Hcg, Htk⟩
  have e1 : (bigSep Finset.univ fun c : Dev nD => bigSep Finset.univ fun p : Fin 1 => (Pipeline.cellsGhost cfgs EP p c : sProp 𝕄))
      = bigSep Finset.univ fun c : Dev nD => Pipeline.cellsGhost cfgs EP (0 : Fin 1) c :=
    bigSep_congr fun d _ => bigSep_univ_of_subsingleton (0 : Fin 1)
  have e2 : (bigSep Finset.univ fun c : Dev nD => bigSep Finset.univ fun p : Fin 1 => (Pipeline.toksInit cfgs EP p c : sProp 𝕄))
      = bigSep Finset.univ fun c : Dev nD => Pipeline.toksInit cfgs EP (0 : Fin 1) c :=
    bigSep_congr fun d _ => bigSep_univ_of_subsingleton (0 : Fin 1)
  have e3 : (bigSep Finset.univ fun thr : Thread nD τ => bigSep Finset.univ fun q : Fin 1 => (Pm m).x q thr) = (iprop(emp) : sProp 𝕄) := by
    show (bigSep Finset.univ fun _ : Thread nD τ => bigSep Finset.univ fun _ : Fin 1 => (iprop(emp) : sProp 𝕄)) = _
    rw [bigSep_congr fun _ _ => bigSep_emp' _, bigSep_emp']
  ihave Hcg' := (Entails.of_eq e1) $$ Hcg
  ihave Htk' := (Entails.of_eq e2) $$ Htk
  imodintro
  isplitl [HH]; · iexact HH
  isplitl [Hcg' Htk']
  · rw [bigSep_sep']
    isplitl [Hcg']; · iexact Hcg'
    iexact Htk'
  · rw [e3]; iempintro

/-! ## Reading the final memory -/

def fq (RS : RegionSide m) (d : Dev nD) (s' : Phys nD τ sig (Elt F)) : Prop :=
  ∃ f, RS.Out d f ∧ ∀ b ∈ Sall, s'.mem.mem (d, b) = StableHlo.after (ops3 (F := F)) (V4 m d f) b

theorem hfin (RS : RegionSide m) (d : Dev nD) (s' : Phys nD τ sig (Elt F)) : iprop(FIN m RS d ∗ SI s') ⊢ (⌜fq m RS d s'⌝ : sProp 𝕄) := by
  unfold FIN held
  iintro ⟨⟨%f, %hf, H⟩, HSI⟩
  ihave %h := (SI_pointsTo_bufs_agree (qs := fun _ => fullShare) Sall) $$ [HSI H]
  · isplitl [HSI]; · iexact HSI
    iexact H
  ipureintro
  exact ⟨f, hf, h⟩

/-! ## The run -/

def QC (RS : RegionSide m) : PUnit × MemSt nD τ sig (Elt F) → Prop := fun r =>
  ∀ c : Dev nD, ∃ f, RS.Out c f ∧ ∀ b ∈ Sall, r.2.mem (c, b) = StableHlo.after (ops3 (F := F)) (V4 m c f) b

theorem run_main [∀ e, Nonempty (Elt F e)] (RS : RegionSide m)
    (hin : ∀ (d : Dev nD) (b : Idx (v4Loc d)), (ixV m d b).toNat < 50000) :
    θ_run (Cert.KernelIdeal.defs (F := F)) (Cert.KernelIdeal.threads (F := F)) ⟨m, fun _ => 0, ρ⟩ (QC m RS) :=
  SparseCore.Cfg.θ_run_sc (K := K (F := F)) (D := D (F := F)) (𝒱 := 𝒱) (EH := EH) (P := Pm m) facts v₀
    (fun q hq => match q with | 0 => nomatch hq)
    (fun q _ => match q with | 0 => tileObl (tV m) (ixV m) (oV m) facts hin)
    (fun q _ => match q with | 0 => SparseCore.Cfg.VecSplit.of_plain (vecSplit (tV m) (ixV m) (oV m)))
    m ρ main (fun d => G (F := F) d) (FIN m RS) (u₀ (F := F)) (sep_elim_left.trans (hu₀ m)) (hmain m ρ RS) (fq m RS) (hfin m RS) (QC m RS) (fun _ h => h)

end Cert.Proof.KernelIdeal

end
-- ==== Proof.KernelIdeal.MainE.lean ====
/-
  What the run says of the final memory: the argument arrays are written by no line of @main, and the result is
  the transpose of the array the region wrote. The gather's indices are in range under the precondition: they
  are the inputs shifted right by one, the inputs below 100000.
-/
import proofs.«204087_g3891240370374_cont_8to1_b_1678_29_alg».proof.Proof.KernelIdeal.MainD
import proofs.«204087_g3891240370374_cont_8to1_b_1678_29_alg».proof.Proof.Pre

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)

/-! ## The gather's indices -/

theorem ixV_eq (d : Dev nD) :
    ixV m d = Host.shrsi (m ((SparseCore.T d).loc main_arg0)) (broadcastInDim S1024 ![] bcast_S_S1024 (constantI S_ 32 1#32)) := by
  unfold ixV V1
  show StableHlo.after (ops1 (F := F)) (V0 m d) ((main_v4 : Ref sig .tc) : DevRef τ sig) = _
  after_results
  rfl

theorem hin_of_pre [Cert.Pre_input_domain.Facts]
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    ∀ (d : Dev nD) (b : Idx (v4Loc d)), (ixV m d b).toNat < 50000 := by
  intro d b
  rw [ixV_eq]
  have hr := Cert.Pre.decode_idx _ _ _ _ _ _ (hpre d) (b 0)
  have h := Cert.Pre.shr1_lt (m ((SparseCore.T d).loc main_arg0)) bcast_S_S1024 (b 0) hr.1 hr.2
  rw [ValueIdx.eq_ix1 b]
  exact h

/-! ## The arguments, and the result -/

/-- Every buffer some line of @main, the call or the region writes. -/
abbrev written : List (Ref sig .tc) :=
  [main_v0, main_v1, main_v2, main_c, main_v3, main_v4, main_c_0, main_v6, main_v7, main_v8, main_v10, main_v5, main_v9]

theorem kept (b : Ref sig .tc) (hb : ∀ y ∈ written, b ≠ y) (c : Dev nD) (f : Buf (Elt F) (v9Loc c)) :
    StableHlo.after (ops3 (F := F)) (V4 m c f) (b : DevRef τ sig) = m ((c.tc : Thread nD τ).loc b) := by
  have nw : ∀ y : Ref sig .tc, b ≠ y → ((b : DevRef τ sig)) ∉ ({(y : DevRef τ sig)} : Finset (DevRef τ sig)) :=
    fun y h hm => h (Proc.devRef_injective _ (Finset.mem_singleton.mp hm))
  rw [StableHlo.after_of_forall_not_mem (ops3 (F := F)) _ (by
    intro op hop; simp only [List.mem_cons, List.not_mem_nil, or_false] at hop; rcases hop with rfl
    exact nw main_v10 (hb _ (by simp)))]
  unfold V4; rw [Function.update_of_ne (fun e => hb main_v9 (by simp) (Proc.devRef_injective _ e))]
  unfold V3; rw [StableHlo.after_of_forall_not_mem (ops2 (F := F)) _ (by
    intro op hop; simp only [List.mem_cons, List.not_mem_nil, or_false] at hop
    rcases hop with rfl | rfl | rfl | rfl
    · exact nw main_c_0 (hb _ (by simp))
    · exact nw main_v6 (hb _ (by simp))
    · exact nw main_v7 (hb _ (by simp))
    · exact nw main_v8 (hb _ (by simp)))]
  unfold V2; rw [Function.update_of_ne (fun e => hb main_v5 (by simp) (Proc.devRef_injective _ e))]
  unfold V1; rw [StableHlo.after_of_forall_not_mem (ops1 (F := F)) _ (by
    intro op hop; simp only [List.mem_cons, List.not_mem_nil, or_false] at hop
    rcases hop with rfl | rfl | rfl | rfl | rfl | rfl
    · exact nw main_v0 (hb _ (by simp))
    · exact nw main_v1 (hb _ (by simp))
    · exact nw main_v2 (hb _ (by simp))
    · exact nw main_c (hb _ (by simp))
    · exact nw main_v3 (hb _ (by simp))
    · exact nw main_v4 (hb _ (by simp)))]
  rfl

theorem res10 (c : Dev nD) (f : Buf (Elt F) (v9Loc c)) :
    StableHlo.after (ops3 (F := F)) (V4 m c f) ((main_v10 : Ref sig .tc) : DevRef τ sig)
      = transpose S1024x100000 [1, 0] f transposes_S100000x1024_S1024x100000_1_0 := by
  simp only [StableHlo.after_cons, StableHlo.after_nil]
  rw [StableHlo.unary_result]
  show transpose S1024x100000 [1, 0] (V4 m c f r9) transposes_S100000x1024_S1024x100000_1_0 = _
  rw [V4_v9]

/-- The argument arrays end as they were launched. -/
def ArgsKept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

/-- The run with the strongest post: the result is the transpose of an array in the relation the region's proof
    states, the arguments unchanged. -/
theorem run_value [∀ e, Nonempty (Elt F e)] (RS : RegionSide m)
    (hin : ∀ (d : Dev nD) (b : Idx (v4Loc d)), (ixV m d b).toNat < 50000) :
    θ_run (Cert.KernelIdeal.defs (F := F)) (Cert.KernelIdeal.threads (F := F)) ⟨m, fun _ => 0, ρ⟩ (fun r => ∀ c : Dev nD,
      (∃ f, RS.Out c f ∧ r.2.mem ((c.tc : Thread nD τ).loc main_v10) = transpose S1024x100000 [1, 0] f transposes_S100000x1024_S1024x100000_1_0)
      ∧ ArgsKept m r c) :=
  (θ_run (Cert.KernelIdeal.defs (F := F)) _ _).mono (fun r h c => by
    obtain ⟨f, hf, hall⟩ := h c
    refine ⟨⟨f, hf, ?_⟩, ?_, ?_, ?_, ?_, ?_, ?_⟩
    · exact (hall _ (mem_Sall main_v10 rfl)).trans (res10 m c f)
    · exact (hall _ (mem_Sall main_arg0 rfl)).trans (kept m main_arg0 (by decide) c f)
    · exact (hall _ (mem_Sall main_arg1 rfl)).trans (kept m main_arg1 (by decide) c f)
    · exact (hall _ (mem_Sall main_arg2 rfl)).trans (kept m main_arg2 (by decide) c f)
    · exact (hall _ (mem_Sall main_arg3 rfl)).trans (kept m main_arg3 (by decide) c f)
    · exact (hall _ (mem_Sall main_arg4 rfl)).trans (kept m main_arg4 (by decide) c f)
    · exact (hall _ (mem_Sall main_arg5 rfl)).trans (kept m main_arg5 (by decide) c f))
    (run_main m ρ RS hin)

end Cert.Proof.KernelIdeal

end
-- ==== Proof.KernelIdeal.RegionDat.lean ====
/-
  The TensorCore region's proof data: what the kernel body holds between grid points. The grid has two passes
  over the 33 vocabulary blocks. Pass 0 builds the hidden activations, the running sum and its logarithm in three
  scratch buffers; pass 1 writes each block's outputs into a two-slot ring and copies the ring's slots out to
  the result in row chunks, each copy waited for two points after it was started.
-/
import proofs.«204087_g3891240370374_cont_8to1_b_1678_29_alg».proof.Proof.KernelIdeal.Common
import proofs.«204087_g3891240370374_cont_8to1_b_1678_29_alg».proof.Proof.Gen.KernelIdeal.Launch
import proofs.«204087_g3891240370374_cont_8to1_b_1678_29_alg».proof.Proof.Gen.KernelIdeal.Points
import Idealize.ShloMosaic.Lib.Pipeline.FrameBody
import Idealize.ShloMosaic.Lib.Ring
import Idealize.ShloMosaic.Lib.Tactic
import Idealize.ShloMosaic.Lib.ValueIdx

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

/-! ## The windows' blocks -/

/-- Window `w`'s block at point `t`, read off its array as the region finds it. -/
def iblk (c : Dev nD) (A : (w : Fin cfg1.W) → Buf (Elt F) ((cfg1.win w).arr.view.loc (c : Thread nD τ))) (w : Fin cfg1.W) (t : Fin cfg1.N) :
    ((cfg1.win w).xblock (cfg1.grid.coords t)).Idx → Elt F (cfg1.win w).elt :=
  ((cfg1.win w).blk t).view.read (Elt F) (A w)

/-- What window `w`'s staging buffer holds at point `t`: its block where the fetch fills the buffer, `d` elsewhere. -/
def stg (c : Dev nD) (A : (w : Fin cfg1.W) → Buf (Elt F) ((cfg1.win w).arr.view.loc (c : Thread nD τ))) (w : Fin cfg1.W) (t : Fin cfg1.N)
    (d : (cfg1.win w).block.Idx → Elt F (cfg1.win w).elt) : (cfg1.win w).block.Idx → Elt F (cfg1.win w).elt :=
  (cfg1.win w).fill (cfg1.grid.coords t) d (iblk c A w t)

/-! ## The kernel's own semaphores -/

/-- The sixteen DMA semaphores of the kernel's scratch array, row by row. -/
def osem : Fin 16 → SemLoc sig := fun k => .dma ⟨11 + k.val, by have := k.isLt; exact (by omega : 11 + k.val < 27)⟩

theorem osemFacts : Pipeline.OwnSemFacts spec1 osem := by decide

/-! ## The ring, the result's row chunks, the semaphores: closed forms -/

abbrev mainM : Memref sig .tc .hbm S100000x1024 .f32 := Memref.whole main_v9
abbrev ringM : Memref sig .tc .vmem S2x3072x1024 .f32 := Memref.whole cc1_scratch3

theorem mainChunk_inb (b : Fin 32) (r : Fin 8) :
    ∀ a, (![3072 * b.val + 384 * r.val, 0] : Fin 2 → ℕ) a + S384x1024.size a ≤ S100000x1024.size a := by
  intro a; have := b.isLt; have := r.isLt
  fin_cases a
  · show 3072 * b.val + 384 * r.val + 384 ≤ 100000; omega
  · show 0 + 1024 ≤ 1024; omega
theorem mainTail_inb (r : Fin 4) :
    ∀ a, (![98304 + 424 * r.val, 0] : Fin 2 → ℕ) a + S424x1024.size a ≤ S100000x1024.size a := by
  intro a; have := r.isLt
  fin_cases a
  · show 98304 + 424 * r.val + 424 ≤ 100000; omega
  · show 0 + 1024 ≤ 1024; omega
theorem ringChunk_inb (s : Fin 2) (r : Fin 8) :
    ∀ a, (![s.val, 384 * r.val, 0] : Fin 3 → ℕ) a + S1x384x1024.size a ≤ S2x3072x1024.size a := by
  intro a; have := s.isLt; have := r.isLt
  fin_cases a
  · show s.val + 1 ≤ 2; omega
  · show 384 * r.val + 384 ≤ 3072; omega
  · show 0 + 1024 ≤ 1024; omega
theorem ringTail_inb (s : Fin 2) (r : Fin 4) :
    ∀ a, (![s.val, 424 * r.val, 0] : Fin 3 → ℕ) a + S1x424x1024.size a ≤ S2x3072x1024.size a := by
  intro a; have := s.isLt; have := r.isLt
  fin_cases a
  · show s.val + 1 ≤ 2; omega
  · show 424 * r.val + 424 ≤ 3072; omega
  · show 0 + 1024 ≤ 1024; omega
theorem ringSlot_inb (s : Fin 2) :
    ∀ a, (![s.val, 0, 0] : Fin 3 → ℕ) a + S1x3072x1024.size a ≤ S2x3072x1024.size a := by
  intro a; have := s.isLt
  fin_cases a
  · show s.val + 1 ≤ 2; omega
  · show 0 + 3072 ≤ 3072; omega
  · show 0 + 1024 ≤ 1024; omega
theorem rsem_inb (s : Fin 2) (r : Fin 8) : ∀ a, (![s.val, r.val] : Fin 2 → ℕ) a + S1x1.size a ≤ S2x8.size a := by
  intro a; have := s.isLt; have := r.isLt
  fin_cases a
  · show s.val + 1 ≤ 2; omega
  · show r.val + 1 ≤ 8; omega

/-- Rows `[3072 b + 384 r, 3072 b + 384 r + 384)` of the result: what copy `r` of block `b` writes. -/
def mainChunk (b : Fin 32) (r : Fin 8) : Memref sig .tc .hbm S384x1024 .f32 :=
  mainM.slice (Rect.unit ![3072 * b.val + 384 * r.val, 0] S384x1024.size (mainChunk_inb b r)) (fun _ => rfl)
/-- Rows `[98304 + 424 r, 98304 + 424 r + 424)` of the result: what copy `r` of the last block writes. -/
def mainTail (r : Fin 4) : Memref sig .tc .hbm S424x1024 .f32 :=
  mainM.slice (Rect.unit ![98304 + 424 * r.val, 0] S424x1024.size (mainTail_inb r)) (fun _ => rfl)
/-- Rows `[384 r, 384 r + 384)` of the ring's slot `s`. -/
def ringChunk (s : Fin 2) (r : Fin 8) : Memref sig .tc .vmem S384x1024 .f32 :=
  (ringM.slice (Rect.unit ![s.val, 384 * r.val, 0] S1x384x1024.size (ringChunk_inb s r)) (fun _ => rfl)).squeeze S384x1024 squeezes_S1x384x1024_S384x1024
/-- Rows `[424 r, 424 r + 424)` of the ring's slot `s`. -/
def ringTail (s : Fin 2) (r : Fin 4) : Memref sig .tc .vmem S424x1024 .f32 :=
  (ringM.slice (Rect.unit ![s.val, 424 * r.val, 0] S1x424x1024.size (ringTail_inb s r)) (fun _ => rfl)).squeeze S424x1024 squeezes_S1x424x1024_S424x1024
/-- The ring's slot `s`. -/
def ringSlot (s : Fin 2) : Memref sig .tc .vmem S1x3072x1024 .f32 :=
  ringM.slice (Rect.unit ![s.val, 0, 0] S1x3072x1024.size (ringSlot_inb s)) (fun _ => rfl)
/-- Semaphore `(s, r)` of the kernel's array. -/
def rsem (s : Fin 2) (r : Fin 8) : DmaSem sig :=
  ((cc1_scratch4.slice (Rect.unit ![s.val, r.val] S1x1.size (rsem_inb s r))).squeeze S_ squeezes_S1x1_S_).sem

/-- The slot block `b` is written through. -/
def slotOf (b : ℕ) : Fin 2 := ⟨b % 2, Nat.mod_lt _ (by decide)⟩

example (c : Dev nD) : (mainChunk 3 5).view.loc (c : Thread nD τ) = mainM.view.loc (c : Thread nD τ) := rfl
example (c : Dev nD) : (ringChunk 1 5).view.loc (c : Thread nD τ) = ringM.view.loc (c : Thread nD τ) := rfl
example (c : Dev nD) : mainM.view.loc (c : Thread nD τ) = (c : Thread nD τ).loc main_v9 := rfl
example : osem 10 = .dma (rsem 1 2) := by decide

/-! ## What the region's values satisfy

The invariant carries, beside each buffer, a predicate on what it holds; the body's proof applies the closure
hypotheses below at its stores and never opens a predicate. -/

/-- Entry contents of the windows' arrays. -/
abbrev Arrs (c : Dev nD) : Type := (w : Fin cfg1.W) → Buf (Elt F) ((cfg1.win w).arr.view.loc (c : Thread nD τ))

/-- The predicates on the scratch buffers' and the result's contents, with what the body needs of them where it
    stores: each store's payload, applied to values satisfying the predicates, satisfies the next one. -/
structure RegionInv (c : Dev nD) (A : Arrs (F := F) c) where
  /-- the hidden activations, -/
  HT : Vec F S128x1024 .bf16 → Prop
  /-- the running sum after `n` vocabulary blocks, -/
  S : ℕ → Vec F S1x1024 .f32 → Prop
  /-- its logarithm, -/
  LSE : Vec F S1x1024 .f32 → Prop
  /-- what copy `r` of block `b` leaves in its rows of the result, -/
  OutC : Fin 32 → Fin 8 → Vec F S384x1024 .f32 → Prop
  /-- what copy `r` of the last block leaves in its. -/
  OutT : Fin 4 → Vec F S424x1024 .f32 → Prop
  hHT : ∀ t : Fin cfg1.N, t.val = 0 → ∀ d0 d1 d2 d3, HT (k1_pay1 (stg c A 0 t d0) (stg c A 1 t d1) (stg c A 2 t d2) (stg c A 3 t d3))
  hS0 : S 0 (k1_pay2 (F := F))
  hS : ∀ t : Fin cfg1.N, t.val < 32 → ∀ d4 d5 ht s, HT ht → S t.val s → S (t.val + 1) (k1_pay4 (stg c A 4 t d4) ht (stg c A 5 t d5) s)
  hLSE : ∀ t : Fin cfg1.N, t.val = 32 → ∀ d4 d5 ht s, HT ht → S 32 s → LSE (k1_pay5 (stg c A 4 t d4) ht (stg c A 5 t d5) s)
  hOutC : ∀ (t : Fin cfg1.N) (b : Fin 32), t.val = 33 + b.val → ∀ (r : Fin 8) d4 d5 ht l, HT ht → LSE l → ∀ X : Vec F S384x1024 .f32,
    (∀ (i : Fin 384) (v : Fin 1024), X (ValueIdx.ix2 i v)
      = k1_pay6 (stg c A 4 t d4) ht (stg c A 5 t d5) l (ValueIdx.ix3 (0 : Fin 1) (⟨384 * r.val + i.val, by omega⟩ : Fin 3072) v)) → OutC b r X
  hOutT : ∀ (t : Fin cfg1.N), t.val = 65 → ∀ (r : Fin 4) d4 d5 ht l, HT ht → LSE l → ∀ X : Vec F S424x1024 .f32,
    (∀ (i : Fin 424) (v : Fin 1024), X (ValueIdx.ix2 i v)
      = k1_pay6 (stg c A 4 t d4) ht (stg c A 5 t d5) l (ValueIdx.ix3 (0 : Fin 1) (⟨424 * r.val + i.val, by omega⟩ : Fin 3072) v)) → OutT r X

/-- Every predicate true. -/
def RegionInv.trivial (c : Dev nD) (A : Arrs (F := F) c) : RegionInv c A where
  HT _ := True
  S _ _ := True
  LSE _ := True
  OutC _ _ _ := True
  OutT _ _ := True
  hHT _ _ _ _ _ _ := True.intro
  hS0 := True.intro
  hS _ _ _ _ _ _ _ _ := True.intro
  hLSE _ _ _ _ _ _ _ _ := True.intro
  hOutC _ _ _ _ _ _ _ _ _ _ _ _ := True.intro
  hOutT _ _ _ _ _ _ _ _ _ _ _ := True.intro

/-! ## The invariant -/

/-- The counters' embedding the transfers' invariants live at. -/
abbrev EC : UEmb Counters 𝕄 := countersEmb (U := UU)

/-- Rows `[a, b)` of the result. -/
def rowRange (a b : ℕ) : Finset S100000x1024.Idx := Finset.univ.filter fun x => a ≤ (x 0).val ∧ (x 0).val < b

section Inv

variable (c : Dev nD) (A : Arrs (F := F) c)

variable (I : RegionInv c A)

/-- The three scratch buffers before point `n`: the hidden activations from the first point on, the running sum of
    the blocks met so far during pass 0 and of all of them after it, its logarithm from pass 1 on. -/
def scr (n : ℕ) : sProp 𝕄 :=
  iprop((∃ X : Vec F S128x1024 .bf16, ((Memref.whole cc1_scratch0).view.loc (c : Thread nD τ) ↦{fullShare} X) ∗ ⌜1 ≤ n → I.HT X⌝)
    ∗ (∃ X : Vec F S1x1024 .f32, ((Memref.whole cc1_scratch1).view.loc (c : Thread nD τ) ↦{fullShare} X) ∗ ⌜1 ≤ n → I.S (min n 32) X⌝)
    ∗ (∃ X : Vec F S1x1024 .f32, ((Memref.whole cc1_scratch2).view.loc (c : Thread nD τ) ↦{fullShare} X) ∗ ⌜33 ≤ n → I.LSE X⌝))

/-- Every row chunk of the result holds what its copy leaves. -/
def OutAll (f : Buf (Elt F) (mainM.view.loc (c : Thread nD τ))) : Prop :=
  (∀ b r, I.OutC b r ((mainChunk b r).view.read (Elt F) f)) ∧ ∀ r, I.OutT r ((mainTail r).view.read (Elt F) f)

/-- No copy outstanding: the result and the ring whole, the sixteen semaphores at zero (during pass 0; and, every
    chunk written, after the last point). -/
def idle (fin : Prop) : sProp 𝕄 :=
  iprop((∃ f, (mainM.view.loc (c : Thread nD τ) ↦{fullShare} f) ∗ ⌜fin → OutAll c A I f⌝)
    ∗ (∃ q : Buf (Elt F) (ringM.view.loc (c : Thread nD τ)), ringM.view.loc (c : Thread nD τ) ↦{fullShare} q) ∗ Pipeline.ownSems0 osem c)

/-- Copy `r` of block `b` outstanding: its semaphore carries the flight, which delivers the result's row chunk at
    contents satisfying the chunk's predicate and the ring's row chunk back. -/
def FlightC (b : Fin 32) (r : Fin 8) : sProp 𝕄 :=
  iprop(∃ (g : Buf (Elt F) (mainM.view.loc (c : Thread nD τ))) (q : Buf (Elt F) (ringM.view.loc (c : Thread nD τ))),
    ⌜I.OutC b r ((mainChunk b r).view.read (Elt F) g)⌝ ∗
    Transfers.Flight EC (c : Thread nD τ) (.dma (rsem (slotOf b.val) r)) (none : HIx 1) 49152
      iprop(((mainChunk b r).view.loc (c : Thread nD τ) ↦[(mainChunk b r).view.set]{fullShare} g)
        ∗ ((ringChunk (slotOf b.val) r).view.loc (c : Thread nD τ) ↦[(ringChunk (slotOf b.val) r).view.set]{fullShare} q)))

/-- The eight copies of block `b` outstanding (no block, nothing). -/
def FlightB (b : ℕ) : sProp 𝕄 := if h : b < 32 then bigSep Finset.univ (fun r : Fin 8 => FlightC c A I ⟨b, h⟩ r) else iprop(emp)

/-- Slot `s` of the ring in hand, its eight semaphores at zero. -/
def idleSlot (s : Fin 2) : sProp 𝕄 :=
  iprop((∃ q : Buf (Elt F) (ringM.view.loc (c : Thread nD τ)), (ringSlot s).view.loc (c : Thread nD τ) ↦[(ringSlot s).view.set]{fullShare} q)
    ∗ bigSep Finset.univ fun r : Fin 8 => semVal ((c : Thread nD τ), SemLoc.dma (rsem s r)) 0)

/-- Before point `(1, j)`, `1 ≤ j ≤ 32`: the rows of the blocks below `j - 2` landed, each chunk at contents
    satisfying its predicate; the rows from block `j` on untouched; blocks `j - 2` and `j - 1` outstanding (before
    `(1, 1)`: block 0, and slot 1 in hand). -/
def fly (j : ℕ) : sProp 𝕄 :=
  iprop((∃ f : Buf (Elt F) (mainM.view.loc (c : Thread nD τ)), (mainM.view.loc (c : Thread nD τ) ↦[rowRange 0 (3072 * (j - 2))]{fullShare} f)
        ∗ ⌜∀ (b : Fin 32) r, b.val + 2 < j → I.OutC b r ((mainChunk b r).view.read (Elt F) f)⌝)
    ∗ (∃ f : Buf (Elt F) (mainM.view.loc (c : Thread nD τ)), mainM.view.loc (c : Thread nD τ) ↦[rowRange (3072 * j) 100000]{fullShare} f)
    ∗ (if 2 ≤ j then FlightB c A I (j - 2) else idleSlot c 1)
    ∗ FlightB c A I (j - 1))

/-- The invariant before point `n` (`n = 33 p + j` before point `(p, j)`; `n = 66` after the last). -/
def Φ (n : ℕ) : sProp 𝕄 :=
  iprop(scr c A I n ∗ if n ≤ 33 then idle c A I False else if n = 66 then idle c A I True else fly c A I (n - 33))

end Inv

/-! ## The proof data -/

/-- The proof data of the pipeline on core `c`: the arrays as the region finds them; after the body each input's
    staging buffer at its block (the body writes none of them); the invariant `Φ`; nothing owed; full shares; the
    waits recorded before the region within `Rec`. -/
def pdat (c : Dev nD) (A : Arrs (F := F) c) (Rec : Set (SemLoc sig × HIx 1)) (I : RegionInv c A) :
    Dat τ (Elt F) (HIx 1) ℕ UU ℕ cfg1 c where
  A := A
  after w t := stg c A w t fun _ => default
  Φ n := Φ c A I n.val
  q _ := fullShare
  owed _ := 0
  recorded _ := Rec

theorem win_isIn : ∀ w : Fin cfg1.W, (cfg1.win w).isOut = false := by decide

theorem win_clip (w : Fin cfg1.W) (t t' : Fin cfg1.N) (h : (cfg1.win w).index t = (cfg1.win w).index t') :
    (cfg1.win w).clip (cfg1.grid.coords t) = (cfg1.win w).clip (cfg1.grid.coords t') := by
  fin_cases w
  · rfl
  · rfl
  · rfl
  · rfl
  · funext a
    show Pipeline.Clip.of (cc1_transform_4 (grid1.coords t) a) _ _ = Pipeline.Clip.of (cc1_transform_4 (grid1.coords t') a) _ _
    rw [show cc1_transform_4 (grid1.coords t) a = cc1_transform_4 (grid1.coords t') a from congrFun h a]
  · funext a
    show Pipeline.Clip.of (cc1_transform_5 (grid1.coords t) a) _ _ = Pipeline.Clip.of (cc1_transform_5 (grid1.coords t') a) _ _
    rw [show cc1_transform_5 (grid1.coords t) a = cc1_transform_5 (grid1.coords t') a from congrFun h a]

/-- Every window's current staging buffer holds its block at every point, fetched there or not. -/
theorem before_eq (c : Dev nD) (A : Arrs (F := F) c) (Rec : Set (SemLoc sig × HIx 1)) (I : RegionInv c A)
    (w : Fin cfg1.W) (t : Fin cfg1.N) (d) : (pdat c A Rec I).before w t d = stg c A w t d :=
  ((pdat c A Rec I).before_in_eq_fetched w (win_isIn w) (fun _ => rfl) (win_clip w)
    (fun t => (cfg1.win w).cut_fill _ _ _) t d).trans rfl

/-! ## Entry and exit -/

theorem hin (c : Dev nD) (A : Arrs (F := F) c) (Rec : Set (SemLoc sig × HIx 1)) (I : RegionInv c A) :
    iprop((∃ f, (c : Thread nD τ).loc main_v9 ↦{fullShare} f) ∗ Pipeline.scopedRest spec1 c ∗ Pipeline.ownSems0 osem c)
      ⊢ ((pdat c A Rec I).Φ 0 : sProp 𝕄) := by
  rw [scopedRest1_eq]
  show _ ⊢ Φ c A I 0
  unfold Φ scr idle
  rw [if_pos (by decide)]
  iintro ⟨⟨%f, Hm⟩, ⟨⟨%f0, H0⟩, ⟨%f1, H1⟩, ⟨%f2, H2⟩, ⟨%f3, H3⟩⟩, Hs⟩
  isplitl [H0 H1 H2]
  · isplitl [H0]
    · iexists f0; isplitl [H0]; · iexact H0
      ipureintro; intro h; omega
    isplitl [H1]
    · iexists f1; isplitl [H1]; · iexact H1
      ipureintro; intro h; omega
    · iexists f2; isplitl [H2]; · iexact H2
      ipureintro; intro h; omega
  isplitl [Hm]
  · iexists f; isplitl [Hm]; · iexact Hm
    ipureintro; intro h; exact h.elim
  isplitl [H3]
  · iexists f3; iexact H3
  · iexact Hs

theorem hout (c : Dev nD) (A : Arrs (F := F) c) (Rec : Set (SemLoc sig × HIx 1)) (I : RegionInv c A) :
    ((pdat c A Rec I).Φ (Fin.last _) : sProp 𝕄)
      ⊢ iprop((∃ f, ((c : Thread nD τ).loc main_v9 ↦{fullShare} f) ∗ ⌜OutAll c A I f⌝) ∗ Pipeline.ownSems0 osem c ∗ Pipeline.scopedRest spec1 c) := by
  rw [scopedRest1_eq]
  show Φ c A I 66 ⊢ _
  unfold Φ scr idle
  rw [if_neg (by decide), if_pos rfl]
  iintro ⟨⟨⟨%f0, H0, -⟩, ⟨%f1, H1, -⟩, ⟨%f2, H2, -⟩⟩, ⟨%f, Hm, %hf⟩, ⟨%f3, H3⟩, Hs⟩
  isplitl [Hm]
  · iexists f; isplitl [Hm]; · iexact Hm
    ipureintro; exact hf trivial
  isplitl [Hs]; · iexact Hs
  isplitl [H0]; · iexists f0; iexact H0
  isplitl [H1]; · iexists f1; iexact H1
  isplitl [H2]; · iexists f2; iexact H2
  iexists f3; iexact H3

end Cert.Proof.KernelIdeal

end
-- ==== Proof.KernelIdeal.MainF.lean ====
/-
  The region's interface from the proof data of its body: the entry arrays, the recorded pairs and the relations on
  the contents plugged in.
-/
import proofs.«204087_g3891240370374_cont_8to1_b_1678_29_alg».proof.Proof.KernelIdeal.MainE
import proofs.«204087_g3891240370374_cont_8to1_b_1678_29_alg».proof.Proof.KernelIdeal.RegionDat

noncomputable section

namespace Cert.Proof.KernelIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe

variable {F : FTy → Type} [FloatOps F]

local notation "𝕄" => MT nD τ sig (HIx 1) (Elt F) ℕ UU ℕ

variable (m : (ℓ : Loc nD τ sig) → Buf (Elt F) ℓ)

/-- Every pair at the index of the kernels' own waits has level 0. -/
theorem hRec (c : Dev nD) : ∀ sm : SemLoc sig, (sm, (none : HIx 1)) ∈ Rec (F := F) c := fun _ => Nat.zero_le _

def RS_of (I : (c : Dev nD) → RegionInv c (Aent m c))
    (hb : ∀ c, Pipeline.BodyObligationLoose (pdat c (Aent m c) (Rec (F := F) c) (I c)) (defs₀ (F := F)) 𝒱₀ (none : HIx 1) Set.univ) :
    RegionSide m where
  pdat c := pdat c (Aent m c) (Rec (F := F) c) (I c)
  hA c w := rfl
  hshare c w := by unfold Pipeline.Dat.share; rw [win_isIn]; rfl
  howed c t := rfl
  hrec c t := rfl
  osem := osem
  ho := osemFacts
  hbody := hb
  Out c f := OutAll c (Aent m c) (I c) f
  hin c := by
    iintro ⟨H9, Hs, Hr⟩
    iapply (hin c (Aent m c) (Rec (F := F) c) (I c))
    isplitl [H9]; · iexact H9
    isplitl [Hr]; · iexact Hr
    iexact Hs
  hout c := hout c (Aent m c) (Rec (F := F) c) (I c)

end Cert.Proof.KernelIdeal

end
-- ==== Proof.KernelIdeal.RegionPoint.lean ====
/-
  The TensorCore region's body obligation cut into its points: the body's branch conditions in closed form, what
  the whole-buffer accesses read and leave, and the obligation at one point.
-/
import proofs.«204087_g3891240370374_cont_8to1_b_1678_29_alg».proof.Proof.KernelIdeal.RegionDat
import Idealize.ShloMosaic.Lib.Pipeline.Value

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

/-! ## The body's branch conditions -/

/-- The first point of pass 0, -/
abbrev cA (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- a point of pass 0 but the last, -/
abbrev cB (i : grid1.Coords) : Prop :=
  Scalar.cmpi .ne (Scalar.extui (Scalar.andi (Scalar.cmpi .eq (BitVec.ofNat 32 (i 0).val) 0#32) (Scalar.cmpi .slt (BitVec.ofNat 32 (i 1).val) 32#32))) 0#32 = 1#1
/-- the last point of pass 0: as the body computes them. -/
abbrev cC (i : grid1.Coords) : Prop :=
  Scalar.cmpi .ne (Scalar.extui (Scalar.andi (Scalar.cmpi .eq (BitVec.ofNat 32 (i 0).val) 0#32) (Scalar.cmpi .eq (BitVec.ofNat 32 (i 1).val) 32#32))) 0#32 = 1#1

theorem hcA : ∀ t : Fin cfg1.N, cA (grid1.coords t) ↔ t.val = 0 :=
  (by decide +kernel : ∀ t : Fin grid1.N, cA (grid1.coords t) ↔ t.val = 0)
theorem hcB : ∀ t : Fin cfg1.N, cB (grid1.coords t) ↔ t.val < 32 :=
  (by decide +kernel : ∀ t : Fin grid1.N, cB (grid1.coords t) ↔ t.val < 32)
theorem hcC : ∀ t : Fin cfg1.N, cC (grid1.coords t) ↔ t.val = 32 :=
  (by decide +kernel : ∀ t : Fin grid1.N, cC (grid1.coords t) ↔ t.val = 32)
theorem hc4 : ∀ t : Fin cfg1.N, k1_cond4 (grid1.coords t) = 1#1 ↔ 33 ≤ t.val :=
  (by decide +kernel : ∀ t : Fin grid1.N, k1_cond4 (grid1.coords t) = 1#1 ↔ 33 ≤ t.val)
theorem hc5 : ∀ t : Fin cfg1.N, k1_cond5 (grid1.coords t) = 1#1 ↔ 2 ≤ t.val % 33 :=
  (by decide +kernel : ∀ t : Fin grid1.N, k1_cond5 (grid1.coords t) = 1#1 ↔ 2 ≤ t.val % 33)
theorem hc6 : ∀ t : Fin cfg1.N, k1_cond6 (grid1.coords t) = 1#1 ↔ t.val % 33 < 32 :=
  (by decide +kernel : ∀ t : Fin grid1.N, k1_cond6 (grid1.coords t) = 1#1 ↔ t.val % 33 < 32)
theorem hc7 : ∀ t : Fin cfg1.N, k1_cond7 (grid1.coords t) = 1#1 ↔ t.val % 33 = 32 :=
  (by decide +kernel : ∀ t : Fin grid1.N, k1_cond7 (grid1.coords t) = 1#1 ↔ t.val % 33 = 32)
theorem coords0 : ∀ t : Fin cfg1.N, ((grid1.coords t) 0).val = t.val / 33 :=
  (by decide +kernel : ∀ t : Fin grid1.N, ((grid1.coords t) 0).val = t.val / 33)
theorem coords1 : ∀ t : Fin cfg1.N, ((grid1.coords t) 1).val = t.val % 33 :=
  (by decide +kernel : ∀ t : Fin grid1.N, ((grid1.coords t) 1).val = t.val % 33)

/-! ## What the whole-buffer accesses read and leave -/

theorem zero2 : (![0, 0] : Fin 2 → ℕ) = fun _ => 0 := by funext a; fin_cases a <;> rfl

/-- A load through the whole-shape rectangle at zero offsets reads what the view reads. -/
theorem readAt_unit_zero {sig' : RefSig} {κ : Kind} {sp : Space} {S : Shape} {e : EltTy} (v : View sig' κ sp S e)
    {off : Fin S.rank → ℕ} (h : off = fun _ => 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

/-- A store through it, last, leaves its payload read back through the view. -/
theorem read_writes_unit_zero {sig' : RefSig} {κ : Kind} {sp : Space} {S : Shape} {e : EltTy} (v : View sig' κ sp S e)
    {off : Fin S.rank → ℕ} (h : off = fun _ => 0) (inb : ∀ a, off a + S.size a ≤ S.size a) (f : v.ty.Contents (Elt F))
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h]

/-- Of a whole buffer, the contents themselves. -/
theorem whole_readAt_unit_zero (b : Ref sig .tc) {off : Fin b.ty.shape.rank → ℕ} (h : off = fun _ => 0)
    (inb : ∀ a, off a + b.ty.shape.size a ≤ b.ty.shape.size a) (f : b.ty.Contents (Elt F)) :
    (Memref.whole b).view.readAt (Elt F) (Rect.unit off b.ty.shape.size inb).toLoadRect f = f :=
  readAt_unit_zero (Memref.whole b).view h inb f

theorem whole_writes_unit_zero (b : Ref sig .tc) {off : Fin b.ty.shape.rank → ℕ} (h : off = fun _ => 0)
    (inb : ∀ a, off a + b.ty.shape.size a ≤ b.ty.shape.size a) (f : b.ty.Contents (Elt F))
    (w : b.ty.shape.Idx → Elt F b.ty.elt) (L : List (View.Piece (Elt F) b.ty.shape b.ty.elt)) :
    (Memref.whole b).view.writes (Elt F) f ((⟨Rect.unit off b.ty.shape.size inb, w⟩ : View.Piece (Elt F) b.ty.shape b.ty.elt) :: L) = w :=
  read_writes_unit_zero (Memref.whole b).view h inb f w L

/-! ## The body obligation, point by point -/

section Points

variable (c : Dev nD) (A : Arrs (F := F) c) (Rec : Set (SemLoc sig × HIx 1)) (I : RegionInv c A)

/-- What the body is called with at point `t` (the library's obligation, the windows one by one), -/
def bodyPre (t : Fin cfg1.N) : sProp 𝕄 :=
  iprop((pdat c A Rec I).Φ t.castSucc ∗ (pdat c A Rec I).owesAt (none : HIx 1) t.castSucc
    ∗ (∃ d, owns (c : Thread nD τ) (st1_0 t) fullShare ((pdat c A Rec I).before 0 t d))
    ∗ (∃ d, owns (c : Thread nD τ) (st1_1 t) fullShare ((pdat c A Rec I).before 1 t d))
    ∗ (∃ d, owns (c : Thread nD τ) (st1_2 t) fullShare ((pdat c A Rec I).before 2 t d))
    ∗ (∃ d, owns (c : Thread nD τ) (st1_3 t) fullShare ((pdat c A Rec I).before 3 t d))
    ∗ (∃ d, owns (c : Thread nD τ) (st1_4 t) fullShare ((pdat c A Rec I).before 4 t d))
    ∗ (∃ d, owns (c : Thread nD τ) (st1_5 t) fullShare ((pdat c A Rec I).before 5 t d)))

/-- and what it returns: the whole-array windows' buffers as found, the two clipped windows' on the part their
    fetches fill. -/
def bodyPost (t : Fin cfg1.N) : sProp 𝕄 :=
  iprop((pdat c A Rec I).Φ t.succ ∗ (pdat c A Rec I).owesAt (none : HIx 1) t.succ
    ∗ owns (c : Thread nD τ) (st1_0 t) fullShare ((pdat c A Rec I).after 0 t)
    ∗ owns (c : Thread nD τ) (st1_1 t) fullShare ((pdat c A Rec I).after 1 t)
    ∗ owns (c : Thread nD τ) (st1_2 t) fullShare ((pdat c A Rec I).after 2 t)
    ∗ owns (c : Thread nD τ) (st1_3 t) fullShare ((pdat c A Rec I).after 3 t)
    ∗ (∃ d, owns (c : Thread nD τ) (st1_4 t) fullShare ((cfg1.win 4).fill (cfg1.grid.coords t) d ((cfg1.win 4).cut (cfg1.grid.coords t) ((pdat c A Rec I).after 4 t))))
    ∗ (∃ d, owns (c : Thread nD τ) (st1_5 t) fullShare ((cfg1.win 5).fill (cfg1.grid.coords t) d ((cfg1.win 5).cut (cfg1.grid.coords t) ((pdat c A Rec I).after 5 t)))))

/-- The obligation at point `t`. -/
def PointObl (t : Fin cfg1.N) : Prop :=
  bodyPre c A Rec I t ⊢ wp frame (wpE (defs₀ (F := F)) 𝒱₀ (c : Thread nD τ) none) Set.univ (bodyAt1 t) (fun _ => bodyPost c A Rec I t)

/-- The library's body obligation from the points'. -/
theorem hbody_of (h : ∀ t, PointObl c A Rec I t) :
    BodyObligationLoose (pdat c A Rec I) (defs₀ (F := F)) 𝒱₀ (none : HIx 1) Set.univ := fun t => by
  rw [bigSep_W1, bigSep_W1]
  exact h t

/-- A whole-array window's staging buffer holds its block whatever it held before the fetch. -/
theorem stg_indep (w : Fin cfg1.W) (hw : ∀ i a, (cfg1.win w).clip i a = none) (t : Fin cfg1.N) (d d') :
    stg c A w t d = stg c A w t d' :=
  (pdat c A Set.univ (RegionInv.trivial c A)).fetched_of_clip_none w t (fun a => hw _ a) d d'

/-- A clipped window's block, filled out and cut back, is the block. -/
theorem fill_cut_after (w : Fin cfg1.W) (t : Fin cfg1.N) (d) :
    (cfg1.win w).fill (cfg1.grid.coords t) d ((cfg1.win w).cut (cfg1.grid.coords t) ((pdat c A Rec I).after w t)) = stg c A w t d := by
  show (cfg1.win w).fill (cfg1.grid.coords t) d ((cfg1.win w).cut (cfg1.grid.coords t) (stg c A w t fun _ => default)) = _
  unfold stg; rw [(cfg1.win w).cut_fill]

/-- The same, of the buffer. -/
theorem owns_fill_cut (w : Fin cfg1.W) (t : Fin cfg1.N) (d) (m : Memref sig .tc .vmem (cfg1.win w).block (cfg1.win w).elt) :
    owns (c : Thread nD τ) m fullShare (stg c A w t d)
      ⊢ (owns (c : Thread nD τ) m fullShare ((cfg1.win w).fill (cfg1.grid.coords t) d ((cfg1.win w).cut (cfg1.grid.coords t) ((pdat c A Rec I).after w t))) : sProp 𝕄) := by
  rw [fill_cut_after]

/-- A whole-array window's buffer at its block is at what the proof data names. -/
theorem owns_after (w : Fin cfg1.W) (hw : ∀ i a, (cfg1.win w).clip i a = none) (t : Fin cfg1.N) (d) (m : Memref sig .tc .vmem (cfg1.win w).block (cfg1.win w).elt) :
    owns (c : Thread nD τ) m fullShare (stg c A w t d) ⊢ (owns (c : Thread nD τ) m fullShare ((pdat c A Rec I).after w t) : sProp 𝕄) := by
  rw [show (pdat c A Rec I).after w t = stg c A w t (fun _ => default) from rfl, stg_indep c A w hw t (fun _ => default) d]

end Points

end Cert.Proof.KernelIdeal

end
-- ==== Proof.KernelIdeal.RegionBody0.lean ====
/-
  The TensorCore region's body at the points of pass 0: the first point fills the hidden activations and zeroes
  the running sum; every point but the last adds its block to the running sum; the last takes the logarithm. No
  copy is started or waited for: the result, the ring and the semaphores pass through untouched.
-/
import proofs.«204087_g3891240370374_cont_8to1_b_1678_29_alg».proof.Proof.KernelIdeal.RegionPoint

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

/-! ## The body's runs in pass 0, on any staging memrefs -/

set_option maxHeartbeats 1000000 in
/-- A point of pass 0 but the first and the last: the running sum takes the block. -/
theorem run0_mid (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S128x64 .f32) (harg4 : arg4.IsWhole) (arg5 : Memref sig .tc .vmem S128x1 .f32) (harg5 : arg5.IsWhole) (arg6 : Memref sig .tc .vmem S3072x128 .f32) (harg6 : arg6.IsWhole) (arg7 : Memref sig .tc .vmem S1x3072 .f32) (harg7 : arg7.IsWhole)
    (hA : ¬cA i) (hB : cB i) (hC : ¬cC i) (h4 : ¬k1_cond4 i = 1#1)
    (X4 : Vec F S3072x128 .f32) (X5 : Vec F S1x3072 .f32) (ht : Vec F S128x1024 .bf16) (s : Vec F S1x1024 .f32)
    (K : PUnit → sProp 𝕄) :
    iprop(owns (c : Thread nD τ) arg6 fullShare X4 ∗ owns (c : Thread nD τ) arg7 fullShare X5
        ∗ ((Memref.whole cc1_scratch0).view.loc (c : Thread nD τ) ↦{fullShare} ht)
        ∗ ((Memref.whole cc1_scratch1).view.loc (c : Thread nD τ) ↦{fullShare} s)
        ∗ (iprop(owns (c : Thread nD τ) arg6 fullShare X4 ∗ owns (c : Thread nD τ) arg7 fullShare X5
            ∗ ((Memref.whole cc1_scratch0).view.loc (c : Thread nD τ) ↦{fullShare} ht)
            ∗ (∃ Y, ⌜Y = k1_pay4 X4 ht X5 s⌝ ∗ ((Memref.whole cc1_scratch1).view.loc (c : Thread nD τ) ↦{fullShare} Y))) -∗ K ⟨⟩))
      ⊢ wp frame (wpE (defs₀ (F := F)) 𝒱₀ (c : Thread nD τ) none) Set.univ
          (cc1__fused_body i arg2 harg2 arg3 harg3 arg4 harg4 arg5 harg5 arg6 harg6 arg7 harg7 (Memref.whole main_v9) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4) K := by
  rw [cc1__fused_body_eq_skeleton]; unfold cc1__fused_body_skel
  unfold owns
  iintro ⟨⟨%f4, %hf4, H4⟩, ⟨%f5, %hf5, H5⟩, H9, H10, Hk⟩
  obtain rfl := harg6.eq_unread hf4
  obtain rfl := harg7.eq_unread hf5
  sl_exec (disch := first | exact hA | exact hB | exact hC | exact h4)
  sl_step
  iapply Hk
  isplitl [H4]
  · iexists _; isplitr; · ipureintro; exact hf4
    iexact H4
  isplitl [H5]
  · iexists _; isplitr; · ipureintro; exact hf5
    iexact H5
  isplitl [H9]; · iexact H9
  iexists _; isplitr; swap; · iexact H10
  ipureintro
  refine (whole_writes_unit_zero cc1_scratch1 zero2 _ _ _ []).trans ?_
  congr 1
  · exact (readAt_unit_zero _ zero2 _ _).trans hf4
  · exact whole_readAt_unit_zero cc1_scratch0 zero2 _ _
  · exact (readAt_unit_zero _ zero2 _ _).trans hf5
  · exact whole_readAt_unit_zero cc1_scratch1 zero2 _ _

set_option maxHeartbeats 1000000 in
/-- The last point of pass 0: the logarithm of the running sum with the last block is stored. -/
theorem run0_last (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S128x64 .f32) (harg4 : arg4.IsWhole) (arg5 : Memref sig .tc .vmem S128x1 .f32) (harg5 : arg5.IsWhole) (arg6 : Memref sig .tc .vmem S3072x128 .f32) (harg6 : arg6.IsWhole) (arg7 : Memref sig .tc .vmem S1x3072 .f32) (harg7 : arg7.IsWhole)
    (hA : ¬cA i) (hB : ¬cB i) (hC : cC i) (h4 : ¬k1_cond4 i = 1#1)
    (X4 : Vec F S3072x128 .f32) (X5 : Vec F S1x3072 .f32) (ht : Vec F S128x1024 .bf16) (s : Vec F S1x1024 .f32) (l0 : Vec F S1x1024 .f32)
    (K : PUnit → sProp 𝕄) :
    iprop(owns (c : Thread nD τ) arg6 fullShare X4 ∗ owns (c : Thread nD τ) arg7 fullShare X5
        ∗ ((Memref.whole cc1_scratch0).view.loc (c : Thread nD τ) ↦{fullShare} ht)
        ∗ ((Memref.whole cc1_scratch1).view.loc (c : Thread nD τ) ↦{fullShare} s)
        ∗ ((Memref.whole cc1_scratch2).view.loc (c : Thread nD τ) ↦{fullShare} l0)
        ∗ (iprop(owns (c : Thread nD τ) arg6 fullShare X4 ∗ owns (c : Thread nD τ) arg7 fullShare X5
            ∗ ((Memref.whole cc1_scratch0).view.loc (c : Thread nD τ) ↦{fullShare} ht)
            ∗ ((Memref.whole cc1_scratch1).view.loc (c : Thread nD τ) ↦{fullShare} s)
            ∗ (∃ Y, ⌜Y = k1_pay5 X4 ht X5 s⌝ ∗ ((Memref.whole cc1_scratch2).view.loc (c : Thread nD τ) ↦{fullShare} Y))) -∗ K ⟨⟩))
      ⊢ wp frame (wpE (defs₀ (F := F)) 𝒱₀ (c : Thread nD τ) none) Set.univ
          (cc1__fused_body i arg2 harg2 arg3 harg3 arg4 harg4 arg5 harg5 arg6 harg6 arg7 harg7 (Memref.whole main_v9) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4) K := by
  rw [cc1__fused_body_eq_skeleton]; unfold cc1__fused_body_skel
  unfold owns
  iintro ⟨⟨%f4, %hf4, H4⟩, ⟨%f5, %hf5, H5⟩, H9, H10, H11, Hk⟩
  obtain rfl := harg6.eq_unread hf4
  obtain rfl := harg7.eq_unread hf5
  sl_exec (disch := first | exact hA | exact hB | exact hC | exact h4)
  sl_step
  iapply Hk
  isplitl [H4]
  · iexists _; isplitr; · ipureintro; exact hf4
    iexact H4
  isplitl [H5]
  · iexists _; isplitr; · ipureintro; exact hf5
    iexact H5
  isplitl [H9]; · iexact H9
  isplitl [H10]; · iexact H10
  iexists _; isplitr; swap; · iexact H11
  ipureintro
  refine (whole_writes_unit_zero cc1_scratch2 zero2 _ _ _ []).trans ?_
  congr 1
  · exact (readAt_unit_zero _ zero2 _ _).trans hf4
  · exact whole_readAt_unit_zero cc1_scratch0 zero2 _ _
  · exact (readAt_unit_zero _ zero2 _ _).trans hf5
  · exact whole_readAt_unit_zero cc1_scratch1 zero2 _ _

set_option maxHeartbeats 2000000 in
/-- The first point: the hidden activations are computed from the four whole-array windows and stored, the running
    sum is zeroed, then takes the first block. -/
theorem run0_first (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S128x64 .f32) (harg4 : arg4.IsWhole) (arg5 : Memref sig .tc .vmem S128x1 .f32) (harg5 : arg5.IsWhole) (arg6 : Memref sig .tc .vmem S3072x128 .f32) (harg6 : arg6.IsWhole) (arg7 : Memref sig .tc .vmem S1x3072 .f32) (harg7 : arg7.IsWhole)
    (hA : cA i) (hB : cB i) (hC : ¬cC i) (h4 : ¬k1_cond4 i = 1#1)
    (X0 : Vec F S1024x128 .f32) (X1 : Vec F S1024x1 .i32) (X2 : Vec F S128x64 .f32) (X3 : Vec F S128x1 .f32)
    (X4 : Vec F S3072x128 .f32) (X5 : Vec F S1x3072 .f32) (h0 : Vec F S128x1024 .bf16) (s0 : Vec F S1x1024 .f32)
    (K : PUnit → sProp 𝕄) :
    iprop(owns (c : Thread nD τ) arg2 fullShare X0 ∗ owns (c : Thread nD τ) arg3 fullShare X1
        ∗ owns (c : Thread nD τ) arg4 fullShare X2 ∗ owns (c : Thread nD τ) arg5 fullShare X3
        ∗ owns (c : Thread nD τ) arg6 fullShare X4 ∗ owns (c : Thread nD τ) arg7 fullShare X5
        ∗ ((Memref.whole cc1_scratch0).view.loc (c : Thread nD τ) ↦{fullShare} h0)
        ∗ ((Memref.whole cc1_scratch1).view.loc (c : Thread nD τ) ↦{fullShare} s0)
        ∗ (iprop(owns (c : Thread nD τ) arg2 fullShare X0 ∗ owns (c : Thread nD τ) arg3 fullShare X1
            ∗ owns (c : Thread nD τ) arg4 fullShare X2 ∗ owns (c : Thread nD τ) arg5 fullShare X3
            ∗ owns (c : Thread nD τ) arg6 fullShare X4 ∗ owns (c : Thread nD τ) arg7 fullShare X5
            ∗ (∃ Y, ⌜Y = k1_pay1 X0 X1 X2 X3⌝ ∗ ((Memref.whole cc1_scratch0).view.loc (c : Thread nD τ) ↦{fullShare} Y))
            ∗ (∃ Y, ⌜Y = k1_pay4 X4 (k1_pay1 X0 X1 X2 X3) X5 (k1_pay2 (F := F))⌝ ∗ ((Memref.whole cc1_scratch1).view.loc (c : Thread nD τ) ↦{fullShare} Y))) -∗ K ⟨⟩))
      ⊢ wp frame (wpE (defs₀ (F := F)) 𝒱₀ (c : Thread nD τ) none) Set.univ
          (cc1__fused_body i arg2 harg2 arg3 harg3 arg4 harg4 arg5 harg5 arg6 harg6 arg7 harg7 (Memref.whole main_v9) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4) K := by
  rw [cc1__fused_body_eq_skeleton]; unfold cc1__fused_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, H9, H10, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  sl_exec (disch := first | exact hA | exact hB | exact hC | exact h4)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H9]
  · iexists _; isplitr; swap; · iexact H9
    ipureintro
    unfold run0_first.sl.H9_1
    refine (whole_writes_unit_zero cc1_scratch0 zero2 _ _ _ []).trans ?_
    congr 1
    · exact (readAt_unit_zero _ zero2 _ _).trans hf0
    · exact (readAt_unit_zero _ zero2 _ _).trans hf1
    · exact (readAt_unit_zero _ zero2 _ _).trans hf2
    · exact (readAt_unit_zero _ zero2 _ _).trans hf3
  iexists _; isplitr; swap; · iexact H10
  ipureintro
  refine (whole_writes_unit_zero cc1_scratch1 zero2 _ _ _ _).trans ?_
  congr 1
  · exact (readAt_unit_zero _ zero2 _ _).trans hf4
  · unfold run0_first.sl.v7 run0_first.sl.H9_1
    refine (View.readCov_unit_zero (Memref.whole cc1_scratch0).view zero2 _ _).trans ?_
    congr 1
    · exact (readAt_unit_zero _ zero2 _ _).trans hf0
    · exact (readAt_unit_zero _ zero2 _ _).trans hf1
    · exact (readAt_unit_zero _ zero2 _ _).trans hf2
    · exact (readAt_unit_zero _ zero2 _ _).trans hf3
  · exact (readAt_unit_zero _ zero2 _ _).trans hf5
  · unfold run0_first.sl.v27 run0_first.sl.H10_1
    exact View.readCov_unit_zero (Memref.whole cc1_scratch1).view zero2 _ _

/-! ## The obligation at the points of pass 0 -/

section Points0

variable (c : Dev nD) (A : Arrs (F := F) c) (Rec : Set (SemLoc sig × HIx 1)) (I : RegionInv c A)

set_option maxHeartbeats 1000000 in
theorem point0_mid (t : Fin cfg1.N) (h0 : 0 < t.val) (h32 : t.val < 32) : PointObl c A Rec I t := by
  unfold PointObl bodyPre bodyPost bodyAt1
  simp only [before_eq]
  rw [show (pdat c A Rec I).Φ t.castSucc = Φ c A I t.val from rfl, show (pdat c A Rec I).Φ t.succ = Φ c A I (t.val + 1) from rfl,
    show (pdat c A Rec I).owesAt (none : HIx 1) t.succ = (pdat c A Rec I).owesAt (none : HIx 1) t.castSucc from rfl]
  unfold Φ scr
  rw [if_pos (by omega : t.val ≤ 33), if_pos (by omega : t.val + 1 ≤ 33)]
  iintro ⟨⟨⟨⟨%hv, H9, %hhv⟩, ⟨%s, H10, %hs⟩, ⟨%l, H11, -⟩⟩, Hidle⟩, Ho, ⟨%d0, H0⟩, ⟨%d1, H1⟩, ⟨%d2, H2⟩, ⟨%d3, H3⟩, ⟨%d4, H4⟩, ⟨%d5, H5⟩⟩
  iapply (run0_mid c (grid1.coords t) _ _ _ _ _ _ _ _ _ _ _ _ (fun hc => by have := (hcA t).mp hc; omega) ((hcB t).mpr h32)
    (fun hc => by have := (hcC t).mp hc; omega) (fun hc => by have := (hc4 t).mp hc; omega) (stg c A 4 t d4) (stg c A 5 t d5) hv s _)
  isplitl [H4]; · iexact H4
  isplitl [H5]; · iexact H5
  isplitl [H9]; · iexact H9
  isplitl [H10]; · iexact H10
  iintro ⟨H4, H5, H9, ⟨%Y, %hY, H10⟩⟩
  isplitl [H9 H10 H11 Hidle]
  · isplitr [Hidle]
    · isplitl [H9]
      · iexists hv; isplitl [H9]; · iexact H9
        ipureintro; intro _; exact hhv (by omega)
      isplitl [H10]
      · iexists Y; isplitl [H10]; · iexact H10
        ipureintro; intro _
        have hs' := hs (by omega)
        rw [min_eq_left (by omega : t.val ≤ 32)] at hs'
        rw [min_eq_left (by omega : t.val + 1 ≤ 32), hY]
        exact I.hS t h32 d4 d5 hv s (hhv (by omega)) hs'
      · iexists l; isplitl [H11]; · iexact H11
        ipureintro; intro hc; omega
    · iexact Hidle
  isplitl [Ho]; · iexact Ho
  isplitl [H0]; · iapply (owns_after c A Rec I 0 (fun _ _ => rfl) t d0 _) $$ H0
  isplitl [H1]; · iapply (owns_after c A Rec I 1 (fun _ _ => rfl) t d1 _) $$ H1
  isplitl [H2]; · iapply (owns_after c A Rec I 2 (fun _ _ => rfl) t d2 _) $$ H2
  isplitl [H3]; · iapply (owns_after c A Rec I 3 (fun _ _ => rfl) t d3 _) $$ H3
  isplitl [H4]; · iexists d4; iapply (owns_fill_cut c A Rec I 4 t d4 _) $$ H4
  iexists d5; iapply (owns_fill_cut c A Rec I 5 t d5 _) $$ H5

set_option maxHeartbeats 1000000 in
theorem point0_first (t : Fin cfg1.N) (h0 : t.val = 0) : PointObl c A Rec I t := by
  unfold PointObl bodyPre bodyPost bodyAt1
  simp only [before_eq]
  rw [show (pdat c A Rec I).Φ t.castSucc = Φ c A I t.val from rfl, show (pdat c A Rec I).Φ t.succ = Φ c A I (t.val + 1) from rfl,
    show (pdat c A Rec I).owesAt (none : HIx 1) t.succ = (pdat c A Rec I).owesAt (none : HIx 1) t.castSucc from rfl]
  unfold Φ scr
  rw [if_pos (by omega : t.val ≤ 33), if_pos (by omega : t.val + 1 ≤ 33)]
  iintro ⟨⟨⟨⟨%hv, H9, -⟩, ⟨%s, H10, -⟩, ⟨%l, H11, -⟩⟩, Hidle⟩, Ho, ⟨%d0, H0⟩, ⟨%d1, H1⟩, ⟨%d2, H2⟩, ⟨%d3, H3⟩, ⟨%d4, H4⟩, ⟨%d5, H5⟩⟩
  iapply (run0_first c (grid1.coords t) _ _ _ _ _ _ _ _ _ _ _ _ ((hcA t).mpr h0) ((hcB t).mpr (by omega))
    (fun hc => by have := (hcC t).mp hc; omega) (fun hc => by have := (hc4 t).mp hc; omega)
    (stg c A 0 t d0) (stg c A 1 t d1) (stg c A 2 t d2) (stg c A 3 t d3) (stg c A 4 t d4) (stg c A 5 t d5) hv s _)
  isplitl [H0]; · iexact H0
  isplitl [H1]; · iexact H1
  isplitl [H2]; · iexact H2
  isplitl [H3]; · iexact H3
  isplitl [H4]; · iexact H4
  isplitl [H5]; · iexact H5
  isplitl [H9]; · iexact H9
  isplitl [H10]; · iexact H10
  iintro ⟨H0, H1, H2, H3, H4, H5, ⟨%Y0, %hY0, H9⟩, ⟨%Y1, %hY1, H10⟩⟩
  isplitl [H9 H10 H11 Hidle]
  · isplitr [Hidle]
    · isplitl [H9]
      · iexists Y0; isplitl [H9]; · iexact H9
        ipureintro; intro _; rw [hY0]; exact I.hHT t h0 d0 d1 d2 d3
      isplitl [H10]
      · iexists Y1; isplitl [H10]; · iexact H10
        ipureintro; intro _
        rw [min_eq_left (by omega : t.val + 1 ≤ 32), hY1]
        refine I.hS t (by omega) d4 d5 _ _ (I.hHT t h0 d0 d1 d2 d3) ?_
        rw [h0]; exact I.hS0
      · iexists l; isplitl [H11]; · iexact H11
        ipureintro; intro hc; omega
    · iexact Hidle
  isplitl [Ho]; · iexact Ho
  isplitl [H0]; · iapply (owns_after c A Rec I 0 (fun _ _ => rfl) t d0 _) $$ H0
  isplitl [H1]; · iapply (owns_after c A Rec I 1 (fun _ _ => rfl) t d1 _) $$ H1
  isplitl [H2]; · iapply (owns_after c A Rec I 2 (fun _ _ => rfl) t d2 _) $$ H2
  isplitl [H3]; · iapply (owns_after c A Rec I 3 (fun _ _ => rfl) t d3 _) $$ H3
  isplitl [H4]; · iexists d4; iapply (owns_fill_cut c A Rec I 4 t d4 _) $$ H4
  iexists d5; iapply (owns_fill_cut c A Rec I 5 t d5 _) $$ H5

set_option maxHeartbeats 1000000 in
theorem point0_last (t : Fin cfg1.N) (h32 : t.val = 32) : PointObl c A Rec I t := by
  unfold PointObl bodyPre bodyPost bodyAt1
  simp only [before_eq]
  rw [show (pdat c A Rec I).Φ t.castSucc = Φ c A I t.val from rfl, show (pdat c A Rec I).Φ t.succ = Φ c A I (t.val + 1) from rfl,
    show (pdat c A Rec I).owesAt (none : HIx 1) t.succ = (pdat c A Rec I).owesAt (none : HIx 1) t.castSucc from rfl]
  unfold Φ scr
  rw [if_pos (by omega : t.val ≤ 33), if_pos (by omega : t.val + 1 ≤ 33)]
  iintro ⟨⟨⟨⟨%hv, H9, %hhv⟩, ⟨%s, H10, %hs⟩, ⟨%l, H11, -⟩⟩, Hidle⟩, Ho, ⟨%d0, H0⟩, ⟨%d1, H1⟩, ⟨%d2, H2⟩, ⟨%d3, H3⟩, ⟨%d4, H4⟩, ⟨%d5, H5⟩⟩
  iapply (run0_last c (grid1.coords t) _ _ _ _ _ _ _ _ _ _ _ _ (fun hc => by have := (hcA t).mp hc; omega) (fun hc => by have := (hcB t).mp hc; omega)
    ((hcC t).mpr h32) (fun hc => by have := (hc4 t).mp hc; omega) (stg c A 4 t d4) (stg c A 5 t d5) hv s l _)
  isplitl [H4]; · iexact H4
  isplitl [H5]; · iexact H5
  isplitl [H9]; · iexact H9
  isplitl [H10]; · iexact H10
  isplitl [H11]; · iexact H11
  iintro ⟨H4, H5, H9, H10, ⟨%Y, %hY, H11⟩⟩
  have hs' := hs (by omega)
  rw [h32] at hs'
  isplitl [H9 H10 H11 Hidle]
  · isplitr [Hidle]
    · isplitl [H9]
      · iexists hv; isplitl [H9]; · iexact H9
        ipureintro; intro _; exact hhv (by omega)
      isplitl [H10]
      · iexists s; isplitl [H10]; · iexact H10
        ipureintro; intro _
        rw [h32]; exact hs'
      · iexists Y; isplitl [H11]; · iexact H11
        ipureintro; intro _; rw [hY]
        exact I.hLSE t h32 d4 d5 hv s (hhv (by omega)) hs'
    · iexact Hidle
  isplitl [Ho]; · iexact Ho
  isplitl [H0]; · iapply (owns_after c A Rec I 0 (fun _ _ => rfl) t d0 _) $$ H0
  isplitl [H1]; · iapply (owns_after c A Rec I 1 (fun _ _ => rfl) t d1 _) $$ H1
  isplitl [H2]; · iapply (owns_after c A Rec I 2 (fun _ _ => rfl) t d2 _) $$ H2
  isplitl [H3]; · iapply (owns_after c A Rec I 3 (fun _ _ => rfl) t d3 _) $$ H3
  isplitl [H4]; · iexists d4; iapply (owns_fill_cut c A Rec I 4 t d4 _) $$ H4
  iexists d5; iapply (owns_fill_cut c A Rec I 5 t d5 _) $$ H5

end Points0

end Cert.Proof.KernelIdeal

end
-- ==== Proof.KernelIdeal.RegionSets.lean ====
/-
  The geometry of the region's copies: the result's rows and the ring's slots cut into the chunks the copies move,
  and what that makes of the points-tos (a range of rows held whole is held chunk by chunk, and back).
-/
import proofs.«204087_g3891240370374_cont_8to1_b_1678_29_alg».proof.Proof.KernelIdeal.RegionDat

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

/-! ## Rows of the result -/

theorem mem_rowRange {a b : ℕ} {x : S100000x1024.Idx} : x ∈ rowRange a b ↔ a ≤ (x 0).val ∧ (x 0).val < b := by
  unfold rowRange; simp

theorem rowRange_union {a b c : ℕ} (h1 : a ≤ b) (h2 : b ≤ c) : rowRange a c = rowRange a b ∪ rowRange b c := by
  ext x; simp only [mem_rowRange, Finset.mem_union]; omega

theorem rowRange_disjoint {a b c d : ℕ} (h : b ≤ c) : Disjoint (rowRange a b) (rowRange c d) := by
  rw [Finset.disjoint_left]; intro x h1 h2; rw [mem_rowRange] at h1 h2; omega

theorem rowRange_univ : rowRange 0 100000 = Finset.univ := by
  ext x; simp only [mem_rowRange, Finset.mem_univ, iff_true]
  exact ⟨Nat.zero_le _, (show (x 0).val < 100000 from (x 0).isLt)⟩

theorem rowRange_self (a : ℕ) : rowRange a a = ∅ := by
  ext x; simp only [mem_rowRange, Finset.notMem_empty, iff_false]; omega

theorem rowRange_subset {a b c d : ℕ} (h1 : c ≤ a) (h2 : b ≤ d) : rowRange a b ⊆ rowRange c d := by
  intro x; simp only [mem_rowRange]; omega

/-- The rows a unit rectangle of full width covers. -/
theorem rows_set (a n : ℕ) (size : Fin 2 → ℕ) (h0 : size 0 = n) (h1 : size 1 = 1024)
    (inb : ∀ k, (![a, 0] : Fin 2 → ℕ) k + size k ≤ S100000x1024.size k) :
    (Rect.unit (s := S100000x1024) ![a, 0] size inb).set = rowRange a (a + n) := by
  ext x
  rw [Rect.mem_set_unit, mem_rowRange]
  constructor
  · intro h; have := h 0; rw [h0] at this; exact this
  · intro h k; fin_cases k
    · show a ≤ (x 0).val ∧ (x 0).val < a + size 0; rw [h0]; exact h
    · show 0 ≤ (x 1).val ∧ (x 1).val < 0 + size 1; rw [h1]; exact ⟨Nat.zero_le _, by have := (show (x 1).val < 1024 from (x 1).isLt); omega⟩

theorem mainChunk_set (b : Fin 32) (r : Fin 8) :
    (mainChunk b r).view.set = rowRange (3072 * b.val + 384 * r.val) (3072 * b.val + 384 * r.val + 384) := by
  exact (View.set_slice_whole main_v9 _).trans (rows_set _ 384 _ rfl rfl _)

theorem mainTail_set (r : Fin 4) :
    (mainTail r).view.set = rowRange (98304 + 424 * r.val) (98304 + 424 * r.val + 424) := by
  exact (View.set_slice_whole main_v9 _).trans (rows_set _ 424 _ rfl rfl _)

/-! ## Rows of the ring's slots -/

/-- Rows `[a, b)` of the ring's slot `s`. -/
def ringRange (s a b : ℕ) : Finset S2x3072x1024.Idx := Finset.univ.filter fun x => (x 0).val = s ∧ a ≤ (x 1).val ∧ (x 1).val < b

theorem mem_ringRange {s a b : ℕ} {x : S2x3072x1024.Idx} : x ∈ ringRange s a b ↔ (x 0).val = s ∧ a ≤ (x 1).val ∧ (x 1).val < b := by
  unfold ringRange; simp

theorem ringRange_disjoint {s s' a b c d : ℕ} (h : s ≠ s' ∨ b ≤ c) : Disjoint (ringRange s a b) (ringRange s' c d) := by
  rw [Finset.disjoint_left]; intro x h1 h2; rw [mem_ringRange] at h1 h2; omega

theorem ring_rows_set (s a n : ℕ) (size : Fin 3 → ℕ) (h0 : size 0 = 1) (h1 : size 1 = n) (h2 : size 2 = 1024)
    (inb : ∀ k, (![s, a, 0] : Fin 3 → ℕ) k + size k ≤ S2x3072x1024.size k) :
    (Rect.unit (s := S2x3072x1024) ![s, a, 0] size inb).set = ringRange s a (a + n) := by
  ext x
  rw [Rect.mem_set_unit, mem_ringRange]
  constructor
  · intro h; have e0 := h 0; have e1 := h 1; rw [h0] at e0; rw [h1] at e1
    have e0' : s ≤ (x 0).val ∧ (x 0).val < s + 1 := e0
    have e1' : a ≤ (x 1).val ∧ (x 1).val < a + n := e1
    omega
  · intro h k; fin_cases k
    · show s ≤ (x 0).val ∧ (x 0).val < s + size 0; rw [h0]; omega
    · show a ≤ (x 1).val ∧ (x 1).val < a + size 1; rw [h1]; omega
    · show 0 ≤ (x 2).val ∧ (x 2).val < 0 + size 2; rw [h2]; exact ⟨Nat.zero_le _, by have := (show (x 2).val < 1024 from (x 2).isLt); omega⟩

theorem ringChunk_set (s : Fin 2) (r : Fin 8) : (ringChunk s r).view.set = ringRange s.val (384 * r.val) (384 * r.val + 384) := by
  exact (View.set_reshape (v := (View.whole cc1_scratch3).slice _) _).trans ((View.set_slice_whole cc1_scratch3 _).trans (ring_rows_set _ _ 384 _ rfl rfl rfl _))

theorem ringTail_set (s : Fin 2) (r : Fin 4) : (ringTail s r).view.set = ringRange s.val (424 * r.val) (424 * r.val + 424) := by
  exact (View.set_reshape (v := (View.whole cc1_scratch3).slice _) _).trans ((View.set_slice_whole cc1_scratch3 _).trans (ring_rows_set _ _ 424 _ rfl rfl rfl _))

theorem ringSlot_set (s : Fin 2) : (ringSlot s).view.set = ringRange s.val 0 3072 := by
  exact (View.set_slice_whole cc1_scratch3 _).trans (ring_rows_set _ _ 3072 _ rfl rfl rfl _)

/-! ## Points-tos along the cuts -/

theorem bigSep_F8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

theorem bigSep_F16 {M : Type} [URA M] (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), 1, 2, 3, 4, 5, 6, 7, 8, 9, 10, 11, 12, 13, 14, 15] (by decide) (by decide) Φ

section Pts

variable (c : Dev nD)

/-- Rows `[a, d)` of the result held at one contents are rows `[a, b)` and rows `[b, d)` held at them. -/
theorem rows_split {a b d : ℕ} (h1 : a ≤ b) (h2 : b ≤ d) (f : Buf (Elt F) (mainM.view.loc (c : Thread nD τ))) :
    (mainM.view.loc (c : Thread nD τ) ↦[rowRange a d]{fullShare} f : sProp 𝕄)
      ⊣⊢ iprop((mainM.view.loc (c : Thread nD τ) ↦[rowRange a b]{fullShare} f) ∗ (mainM.view.loc (c : Thread nD τ) ↦[rowRange b d]{fullShare} f)) := by
  rw [rowRange_union h1 h2]; exact pointsTo_union (rowRange_disjoint (le_refl b))

/-- Rows `[a, b)` and rows `[b, d)` held at contents of their own are rows `[a, d)` held at contents agreeing with
    each on its rows. -/
theorem rows_join {a b d : ℕ} (h1 : a ≤ b) (h2 : b ≤ d) (f g : Buf (Elt F) (mainM.view.loc (c : Thread nD τ))) :
    iprop((mainM.view.loc (c : Thread nD τ) ↦[rowRange a b]{fullShare} f) ∗ (mainM.view.loc (c : Thread nD τ) ↦[rowRange b d]{fullShare} g))
      ⊢ (iprop(∃ h : Buf (Elt F) (mainM.view.loc (c : Thread nD τ)),
          ⌜(∀ x ∈ rowRange a b, h x = f x) ∧ (∀ x ∈ rowRange b d, h x = g x)⌝ ∗ (mainM.view.loc (c : Thread nD τ) ↦[rowRange a d]{fullShare} h)) : sProp 𝕄) := by
  have hd : Disjoint (rowRange a b) (rowRange b d) := rowRange_disjoint (le_refl b)
  iintro ⟨Hf, Hg⟩
  iexists (rowRange b d).piecewise g f
  isplitr
  · ipureintro
    refine ⟨fun x hx => ?_, fun x hx => ?_⟩
    · exact Finset.piecewise_eq_of_notMem _ _ _ (Finset.disjoint_left.mp hd hx)
    · exact Finset.piecewise_eq_of_mem _ _ _ hx
  · rw [rowRange_union h1 h2]
    iapply (pointsTo_join hd)
    isplitl [Hf]; · iexact Hf
    iexact Hg

/-- The same of the ring's slot `s`. -/
def ringSet (s a b : ℕ) : Finset S2x3072x1024.Idx := ringRange s a b

theorem ringRange_union {s a b d : ℕ} (h1 : a ≤ b) (h2 : b ≤ d) : ringRange s a d = ringRange s a b ∪ ringRange s b d := by
  ext x; simp only [mem_ringRange, Finset.mem_union]; omega

theorem ring_split {s a b d : ℕ} (h1 : a ≤ b) (h2 : b ≤ d) (f : Buf (Elt F) (ringM.view.loc (c : Thread nD τ))) :
    (ringM.view.loc (c : Thread nD τ) ↦[ringRange s a d]{fullShare} f : sProp 𝕄)
      ⊣⊢ iprop((ringM.view.loc (c : Thread nD τ) ↦[ringRange s a b]{fullShare} f) ∗ (ringM.view.loc (c : Thread nD τ) ↦[ringRange s b d]{fullShare} f)) := by
  rw [ringRange_union h1 h2]; exact pointsTo_union (ringRange_disjoint (.inr (le_refl b)))

theorem ring_join {s a b d : ℕ} (h1 : a ≤ b) (h2 : b ≤ d) (f g : Buf (Elt F) (ringM.view.loc (c : Thread nD τ))) :
    iprop((ringM.view.loc (c : Thread nD τ) ↦[ringRange s a b]{fullShare} f) ∗ (ringM.view.loc (c : Thread nD τ) ↦[ringRange s b d]{fullShare} g))
      ⊢ (iprop(∃ h : Buf (Elt F) (ringM.view.loc (c : Thread nD τ)), ringM.view.loc (c : Thread nD τ) ↦[ringRange s a d]{fullShare} h) : sProp 𝕄) := by
  have hd : Disjoint (ringRange s a b) (ringRange s b d) := ringRange_disjoint (.inr (le_refl b))
  iintro ⟨Hf, Hg⟩
  iexists (ringRange s b d).piecewise g f
  rw [ringRange_union h1 h2]
  iapply (pointsTo_join hd)
  isplitl [Hf]; · iexact Hf
  iexact Hg

theorem ring_univ : (Finset.univ : Finset S2x3072x1024.Idx) = ringRange 0 0 3072 ∪ ringRange 1 0 3072 := by
  ext x; simp only [mem_ringRange, Finset.mem_union, Finset.mem_univ, true_iff]
  have h0 := (show (x 0).val < 2 from (x 0).isLt); have h1 := (show (x 1).val < 3072 from (x 1).isLt); omega

/-- The ring held whole is its two slots held. -/
theorem ring_slots (f : Buf (Elt F) (ringM.view.loc (c : Thread nD τ))) :
    (ringM.view.loc (c : Thread nD τ) ↦{fullShare} f : sProp 𝕄)
      ⊣⊢ iprop((ringM.view.loc (c : Thread nD τ) ↦[ringRange 0 0 3072]{fullShare} f) ∗ (ringM.view.loc (c : Thread nD τ) ↦[ringRange 1 0 3072]{fullShare} f)) := by
  show (ringM.view.loc (c : Thread nD τ) ↦[(Finset.univ : Finset S2x3072x1024.Idx)]{fullShare} f : sProp 𝕄) ⊣⊢ _
  rw [ring_univ]; exact pointsTo_union (ringRange_disjoint (.inl (by decide)))

theorem ring_slots_join (f g : Buf (Elt F) (ringM.view.loc (c : Thread nD τ))) :
    iprop((ringM.view.loc (c : Thread nD τ) ↦[ringRange 0 0 3072]{fullShare} f) ∗ (ringM.view.loc (c : Thread nD τ) ↦[ringRange 1 0 3072]{fullShare} g))
      ⊢ (iprop(∃ h : Buf (Elt F) (ringM.view.loc (c : Thread nD τ)), ringM.view.loc (c : Thread nD τ) ↦{fullShare} h) : sProp 𝕄) := by
  have hd : Disjoint (ringRange 0 0 3072) (ringRange 1 0 3072) := ringRange_disjoint (.inl (by decide))
  iintro ⟨Hf, Hg⟩
  iexists (ringRange 1 0 3072).piecewise g f
  show _ ⊢ (ringM.view.loc (c : Thread nD τ) ↦[(Finset.univ : Finset S2x3072x1024.Idx)]{fullShare} _ : sProp 𝕄)
  rw [ring_univ]
  iapply (pointsTo_join hd)

/-- The result held whole is its rows `[0, 100000)` held. -/
theorem main_rows (f : Buf (Elt F) (mainM.view.loc (c : Thread nD τ))) :
    (mainM.view.loc (c : Thread nD τ) ↦{fullShare} f : sProp 𝕄) = (mainM.view.loc (c : Thread nD τ) ↦[rowRange 0 100000]{fullShare} f) := by
  rw [rowRange_univ]

/-- What a chunk's copy reads of the result depends on the chunk's rows only. -/
theorem mainChunk_read_congr (b : Fin 32) (r : Fin 8) (f g : Buf (Elt F) (mainM.view.loc (c : Thread nD τ)))
    (h : ∀ x ∈ rowRange (3072 * b.val + 384 * r.val) (3072 * b.val + 384 * r.val + 384), f x = g x) :
    (mainChunk b r).view.read (Elt F) f = (mainChunk b r).view.read (Elt F) g :=
  View.read_congr_of_subset (mainChunk b r).view _ (by rw [mainChunk_set]; exact Finset.Subset.refl _) h

theorem mainTail_read_congr (r : Fin 4) (f g : Buf (Elt F) (mainM.view.loc (c : Thread nD τ)))
    (h : ∀ x ∈ rowRange (98304 + 424 * r.val) (98304 + 424 * r.val + 424), f x = g x) :
    (mainTail r).view.read (Elt F) f = (mainTail r).view.read (Elt F) g :=
  View.read_congr_of_subset (mainTail r).view _ (by rw [mainTail_set]; exact Finset.Subset.refl _) h

end Pts

/-! ## The program's spellings of the chunks

The body slices the ring, the result and the semaphore array at offsets it computes; a proof names them by their
values. Each lemma takes the computed offsets `o` with the equation to their value, so that it is proved by
substituting the variable. -/

section Spell

variable (c : Dev nD)

theorem pt_mainChunk (o : Fin 2 → ℕ) (a : ℕ) (e : o = ![a, 0]) (inb : ∀ k, o k + S384x1024.size k ≤ S100000x1024.size k)
    (f : Buf (Elt F) (mainM.view.loc (c : Thread nD τ))) :
    ((mainM.slice (Rect.unit o S384x1024.size inb) (fun _ => rfl)).view.loc (c : Thread nD τ)
        ↦[(mainM.slice (Rect.unit o S384x1024.size inb) (fun _ => rfl)).view.set]{fullShare} f : sProp 𝕄)
      = (mainM.view.loc (c : Thread nD τ) ↦[rowRange a (a + 384)]{fullShare} f) := by
  subst e
  exact congrArg (fun S : Finset S100000x1024.Idx => (mainM.view.loc (c : Thread nD τ) ↦[S]{fullShare} f : sProp 𝕄))
    ((View.set_slice_whole main_v9 _).trans (rows_set a 384 _ rfl rfl _))

theorem pt_mainTail (o : Fin 2 → ℕ) (a : ℕ) (e : o = ![a, 0]) (inb : ∀ k, o k + S424x1024.size k ≤ S100000x1024.size k)
    (f : Buf (Elt F) (mainM.view.loc (c : Thread nD τ))) :
    ((mainM.slice (Rect.unit o S424x1024.size inb) (fun _ => rfl)).view.loc (c : Thread nD τ)
        ↦[(mainM.slice (Rect.unit o S424x1024.size inb) (fun _ => rfl)).view.set]{fullShare} f : sProp 𝕄)
      = (mainM.view.loc (c : Thread nD τ) ↦[rowRange a (a + 424)]{fullShare} f) := by
  subst e
  exact congrArg (fun S : Finset S100000x1024.Idx => (mainM.view.loc (c : Thread nD τ) ↦[S]{fullShare} f : sProp 𝕄))
    ((View.set_slice_whole main_v9 _).trans (rows_set a 424 _ rfl rfl _))

theorem pt_ringChunk (o : Fin 3 → ℕ) (s a : ℕ) (e : o = ![s, a, 0]) (inb : ∀ k, o k + S1x384x1024.size k ≤ S2x3072x1024.size k)
    (f : Buf (Elt F) (ringM.view.loc (c : Thread nD τ))) :
    (((ringM.slice (Rect.unit o S1x384x1024.size inb) (fun _ => rfl)).squeeze S384x1024 squeezes_S1x384x1024_S384x1024).view.loc (c : Thread nD τ)
        ↦[((ringM.slice (Rect.unit o S1x384x1024.size inb) (fun _ => rfl)).squeeze S384x1024 squeezes_S1x384x1024_S384x1024).view.set]{fullShare} f : sProp 𝕄)
      = (ringM.view.loc (c : Thread nD τ) ↦[ringRange s a (a + 384)]{fullShare} f) := by
  subst e
  exact congrArg (fun S : Finset S2x3072x1024.Idx => (ringM.view.loc (c : Thread nD τ) ↦[S]{fullShare} f : sProp 𝕄))
    ((View.set_reshape (v := (View.whole cc1_scratch3).slice _) _).trans ((View.set_slice_whole cc1_scratch3 _).trans (ring_rows_set s a 384 _ rfl rfl rfl _)))

theorem pt_ringTail (o : Fin 3 → ℕ) (s a : ℕ) (e : o = ![s, a, 0]) (inb : ∀ k, o k + S1x424x1024.size k ≤ S2x3072x1024.size k)
    (f : Buf (Elt F) (ringM.view.loc (c : Thread nD τ))) :
    (((ringM.slice (Rect.unit o S1x424x1024.size inb) (fun _ => rfl)).squeeze S424x1024 squeezes_S1x424x1024_S424x1024).view.loc (c : Thread nD τ)
        ↦[((ringM.slice (Rect.unit o S1x424x1024.size inb) (fun _ => rfl)).squeeze S424x1024 squeezes_S1x424x1024_S424x1024).view.set]{fullShare} f : sProp 𝕄)
      = (ringM.view.loc (c : Thread nD τ) ↦[ringRange s a (a + 424)]{fullShare} f) := by
  subst e
  exact congrArg (fun S : Finset S2x3072x1024.Idx => (ringM.view.loc (c : Thread nD τ) ↦[S]{fullShare} f : sProp 𝕄))
    ((View.set_reshape (v := (View.whole cc1_scratch3).slice _) _).trans ((View.set_slice_whole cc1_scratch3 _).trans (ring_rows_set s a 424 _ rfl rfl rfl _)))

theorem pt_ringSlot (o : Fin 3 → ℕ) (s : ℕ) (e : o = ![s, 0, 0]) (inb : ∀ k, o k + S1x3072x1024.size k ≤ S2x3072x1024.size k)
    (f : Buf (Elt F) (ringM.view.loc (c : Thread nD τ))) :
    ((ringM.slice (Rect.unit o S1x3072x1024.size inb) (fun _ => rfl)).view.loc (c : Thread nD τ)
        ↦[(ringM.slice (Rect.unit o S1x3072x1024.size inb) (fun _ => rfl)).view.set]{fullShare} f : sProp 𝕄)
      = (ringM.view.loc (c : Thread nD τ) ↦[ringRange s 0 3072]{fullShare} f) := by
  subst e
  exact congrArg (fun S : Finset S2x3072x1024.Idx => (ringM.view.loc (c : Thread nD τ) ↦[S]{fullShare} f : sProp 𝕄))
    ((View.set_slice_whole cc1_scratch3 _).trans (ring_rows_set s 0 3072 _ rfl rfl rfl _))

theorem sem_spell (o : Fin 2 → ℕ) (s : Fin 2) (r : Fin 8) (e : o = ![s.val, r.val]) (inb : ∀ k, o k + S1x1.size k ≤ S2x8.size k) :
    ((cc1_scratch4.slice (Rect.unit o S1x1.size inb)).squeeze S_ squeezes_S1x1_S_).sem = rsem s r := by
  subst e; rfl

end Spell

end Cert.Proof.KernelIdeal

end
-- ==== Proof.KernelIdeal.RegionLanded.lean ====
/-
  Where the ring's and the result's row chunks sit: a chunk of a ring slot, read after the slot was stored
  whole, is the stored value's rows; a result chunk read after one whole write through it is what was written.
-/
import proofs.«204087_g3891240370374_cont_8to1_b_1678_29_alg».proof.Proof.KernelIdeal.RegionDat

set_option maxRecDepth 16384

noncomputable section

namespace Cert.Proof.KernelIdeal

open Cert.KernelIdeal Cert.KernelIdeal.Gen

open Idealize.ShloMosaic Idealize.ShloMosaic.TcCoe

variable {F : FTy → Type} [FloatOps F]

variable (c : Dev nD)

/-- Element (i, v) of chunk r of slot s sits where element (0, 384 r + i, v) of the slot does. -/
theorem ringChunk_emb (s : Fin 2) (r : Fin 8) (i : Fin 384) (v : Fin 1024) :
    (ringChunk s r).view.emb (ValueIdx.ix2 i v)
      = (ringM.access (Rect.unit ![s.val, 0, 0] S1x3072x1024.size (ringSlot_inb s))).emb
          (ValueIdx.ix3 (0 : Fin 1) (⟨384 * r.val + i.val, by omega⟩ : Fin 3072) v) := by
  have hre : Shape.reshapeEquiv squeezes_S1x384x1024_S384x1024.numel_eq (ValueIdx.ix2 i v) = ValueIdx.ix3 (0 : Fin 1) i v :=
    Shape.reshapeEquiv_eq_of_rowMajor _ (by
      rw [Shape.rowMajor_val_two, Shape.rowMajor_val_three]
      show (0 * 384 + i.val) * 1024 + v.val = i.val * 1024 + v.val
      omega)
  show ((ringM.view.slice (Rect.unit ![s.val, 384 * r.val, 0] S1x384x1024.size (ringChunk_inb s r))).reshape S384x1024 squeezes_S1x384x1024_S384x1024.numel_eq).emb (ValueIdx.ix2 i v) = _
  rw [View.emb_reshape]
  show (ringM.view.slice (Rect.unit ![s.val, 384 * r.val, 0] S1x384x1024.size (ringChunk_inb s r))).emb
      (Shape.reshapeEquiv squeezes_S1x384x1024_S384x1024.numel_eq (ValueIdx.ix2 i v)) = _
  rw [hre]
  funext a; apply Fin.ext
  match a with
  | ⟨0, _⟩ => show s.val + 1 * 0 = s.val + 1 * 0; rfl
  | ⟨1, _⟩ => show 384 * r.val + 1 * i.val = 0 + 1 * (384 * r.val + i.val); omega
  | ⟨2, _⟩ => show 0 + 1 * v.val = 0 + 1 * v.val; rfl

/-- (L1) Chunk r of slot s, read after the slot was stored whole with P: rows 384 r to 384 r + 383 of P. -/
theorem landed_chunk (s : Fin 2) (r : Fin 8) (q0 : Buf (Elt F) (ringM.view.loc (c : Thread nD τ))) (P : Vec F S1x3072x1024 .f32) (i : Fin 384) (v : Fin 1024) :
    ReadAs.same.apply ((ringChunk s r).view.read (Elt F) (View.write (Elt F) (ringM.access (Rect.unit ![s.val, 0, 0] S1x3072x1024.size (ringSlot_inb s))) q0 P Finset.univ)) (ValueIdx.ix2 i v)
      = P (ValueIdx.ix3 (0 : Fin 1) (⟨384 * r.val + i.val, by omega⟩ : Fin 3072) v) := by
  rw [ReadAs.apply_same]
  refine (View.read_apply _ _).trans ((cast_eq _ _).trans ?_)
  rw [ringChunk_emb]
  exact (View.write_emb_of_mem _ _ (Finset.mem_univ _)).trans (cast_eq _ _)

/-- Element (i, v) of tail chunk r of slot s sits where element (0, 424 r + i, v) of the slot does. -/
theorem ringTail_emb (s : Fin 2) (r : Fin 4) (i : Fin 424) (v : Fin 1024) :
    (ringTail s r).view.emb (ValueIdx.ix2 i v)
      = (ringM.access (Rect.unit ![s.val, 0, 0] S1x3072x1024.size (ringSlot_inb s))).emb
          (ValueIdx.ix3 (0 : Fin 1) (⟨424 * r.val + i.val, by omega⟩ : Fin 3072) v) := by
  have hre : Shape.reshapeEquiv squeezes_S1x424x1024_S424x1024.numel_eq (ValueIdx.ix2 i v) = ValueIdx.ix3 (0 : Fin 1) i v :=
    Shape.reshapeEquiv_eq_of_rowMajor _ (by
      rw [Shape.rowMajor_val_two, Shape.rowMajor_val_three]
      show (0 * 424 + i.val) * 1024 + v.val = i.val * 1024 + v.val
      omega)
  show ((ringM.view.slice (Rect.unit ![s.val, 424 * r.val, 0] S1x424x1024.size (ringTail_inb s r))).reshape S424x1024 squeezes_S1x424x1024_S424x1024.numel_eq).emb (ValueIdx.ix2 i v) = _
  rw [View.emb_reshape]
  show (ringM.view.slice (Rect.unit ![s.val, 424 * r.val, 0] S1x424x1024.size (ringTail_inb s r))).emb
      (Shape.reshapeEquiv squeezes_S1x424x1024_S424x1024.numel_eq (ValueIdx.ix2 i v)) = _
  rw [hre]
  funext a; apply Fin.ext
  match a with
  | ⟨0, _⟩ => show s.val + 1 * 0 = s.val + 1 * 0; rfl
  | ⟨1, _⟩ => show 424 * r.val + 1 * i.val = 0 + 1 * (424 * r.val + i.val); omega
  | ⟨2, _⟩ => show 0 + 1 * v.val = 0 + 1 * v.val; rfl

/-- (L2) Tail chunk r of slot s, read after the slot was stored whole with P: rows 424 r to 424 r + 423 of P. -/
theorem landed_tail (s : Fin 2) (r : Fin 4) (q0 : Buf (Elt F) (ringM.view.loc (c : Thread nD τ))) (P : Vec F S1x3072x1024 .f32) (i : Fin 424) (v : Fin 1024) :
    ReadAs.same.apply ((ringTail s r).view.read (Elt F) (View.write (Elt F) (ringM.access (Rect.unit ![s.val, 0, 0] S1x3072x1024.size (ringSlot_inb s))) q0 P Finset.univ)) (ValueIdx.ix2 i v)
      = P (ValueIdx.ix3 (0 : Fin 1) (⟨424 * r.val + i.val, by omega⟩ : Fin 3072) v) := by
  rw [ReadAs.apply_same]
  refine (View.read_apply _ _).trans ((cast_eq _ _).trans ?_)
  rw [ringTail_emb]
  exact (View.write_emb_of_mem _ _ (Finset.mem_univ _)).trans (cast_eq _ _)

/-- One whole write through a view, read back through it, is what was written. -/
theorem read_writes_whole' {κ : Kind} {sp : Space} {s : Shape} {e : EltTy} (v : View sig κ sp s e) (f : v.ty.Contents (Elt F))
    (p : s.Idx → Elt F e) : v.read (Elt F) (v.writes (Elt F) f [⟨Rect.whole s, p⟩]) = p := by
  funext y
  have h := View.read_writes_cons_emb v f (Rect.whole s) p [] y
  rwa [Rect.emb_whole_apply] at h

/-- (L3) A result chunk after one whole write through it. -/
theorem landed_read (b : Fin 32) (r : Fin 8) (g : Buf (Elt F) (mainM.view.loc (c : Thread nD τ))) (p : Vec F S384x1024 .f32) :
    (mainChunk b r).view.read (Elt F) ((mainChunk b r).view.writes (Elt F) g [⟨Rect.whole _, p⟩]) = p :=
  read_writes_whole' (mainChunk b r).view g p

/-- (L4) A result tail chunk after one whole write through it. -/
theorem landed_read_tail (r : Fin 4) (g : Buf (Elt F) (mainM.view.loc (c : Thread nD τ))) (p : Vec F S424x1024 .f32) :
    (mainTail r).view.read (Elt F) ((mainTail r).view.writes (Elt F) g [⟨Rect.whole _, p⟩]) = p :=
  read_writes_whole' (mainTail r).view g p

end Cert.Proof.KernelIdeal

end
-- ==== Proof.KernelIdeal.RegionSpell.lean ====
/-
  The copies' flights and landed contents, in the program's spelling and in the proof's.
-/
import proofs.«204087_g3891240370374_cont_8to1_b_1678_29_alg».proof.Proof.KernelIdeal.RegionSets
import proofs.«204087_g3891240370374_cont_8to1_b_1678_29_alg».proof.Proof.KernelIdeal.RegionLanded

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

/-! ## A copy in flight, the program's spelling and the proof's -/

section Flights

variable (c : Dev nD)

theorem rowRange_congr {a a' u u' : ℕ} (h1 : a = a') (h2 : u = u') : rowRange a u = rowRange a' u' := by subst h1 h2; rfl
theorem ringRange_congr {s a a' u u' : ℕ} (h1 : a = a') (h2 : u = u') : ringRange s a u = ringRange s a' u' := by subst h1 h2; rfl

theorem pt_mainChunk' (o : Fin 2 → ℕ) (a u : ℕ) (e : o = ![a, 0]) (hu : u = a + 384) (inb : ∀ k, o k + S384x1024.size k ≤ S100000x1024.size k)
    (f : Buf (Elt F) (mainM.view.loc (c : Thread nD τ))) :
    ((mainM.slice (Rect.unit o S384x1024.size inb) (fun _ => rfl)).view.loc (c : Thread nD τ)
        ↦[(mainM.slice (Rect.unit o S384x1024.size inb) (fun _ => rfl)).view.set]{fullShare} f : sProp 𝕄)
      = (mainM.view.loc (c : Thread nD τ) ↦[rowRange a u]{fullShare} f) := by
  subst hu; exact pt_mainChunk c o a e inb f

theorem pt_ringChunk' (o : Fin 3 → ℕ) (s a u : ℕ) (e : o = ![s, a, 0]) (hu : u = a + 384) (inb : ∀ k, o k + S1x384x1024.size k ≤ S2x3072x1024.size k)
    (f : Buf (Elt F) (ringM.view.loc (c : Thread nD τ))) :
    (((ringM.slice (Rect.unit o S1x384x1024.size inb) (fun _ => rfl)).squeeze S384x1024 squeezes_S1x384x1024_S384x1024).view.loc (c : Thread nD τ)
        ↦[((ringM.slice (Rect.unit o S1x384x1024.size inb) (fun _ => rfl)).squeeze S384x1024 squeezes_S1x384x1024_S384x1024).view.set]{fullShare} f : sProp 𝕄)
      = (ringM.view.loc (c : Thread nD τ) ↦[ringRange s a u]{fullShare} f) := by
  subst hu; exact pt_ringChunk c o s a e inb f

/-- A started copy's flight as the run states it is the flight over the rows' ranges. -/
theorem flight_spell (os od : Fin 2 → ℕ) (or' : Fin 3 → ℕ) (s : Fin 2) (r : Fin 8) (a u ra ru : ℕ)
    (es : os = ![s.val, r.val]) (ed : od = ![a, 0]) (hu : u = a + 384) (er : or' = ![s.val, ra, 0]) (hru : ru = ra + 384)
    (inbs : ∀ k, os k + S1x1.size k ≤ S2x8.size k) (inbd : ∀ k, od k + S384x1024.size k ≤ S100000x1024.size k)
    (inbr : ∀ k, or' k + S1x384x1024.size k ≤ S2x3072x1024.size k)
    (Wd : Buf (Elt F) (mainM.view.loc (c : Thread nD τ))) (Wr : Buf (Elt F) (ringM.view.loc (c : Thread nD τ))) :
    (Transfers.Flight EC (c : Thread nD τ) (.dma ((cc1_scratch4.slice (Rect.unit os S1x1.size inbs)).squeeze S_ squeezes_S1x1_S_).sem) (none : HIx 1) 49152
        iprop(((mainM.slice (Rect.unit od S384x1024.size inbd) (fun _ => rfl)).view.loc (c : Thread nD τ)
              ↦[(mainM.slice (Rect.unit od S384x1024.size inbd) (fun _ => rfl)).view.set]{fullShare} Wd)
          ∗ (((ringM.slice (Rect.unit or' S1x384x1024.size inbr) (fun _ => rfl)).squeeze S384x1024 squeezes_S1x384x1024_S384x1024).view.loc (c : Thread nD τ)
              ↦[((ringM.slice (Rect.unit or' S1x384x1024.size inbr) (fun _ => rfl)).squeeze S384x1024 squeezes_S1x384x1024_S384x1024).view.set]{fullShare} Wr)) : sProp 𝕄)
      = Transfers.Flight EC (c : Thread nD τ) (.dma (rsem s r)) (none : HIx 1) 49152
          iprop((mainM.view.loc (c : Thread nD τ) ↦[rowRange a u]{fullShare} Wd) ∗ (ringM.view.loc (c : Thread nD τ) ↦[ringRange s.val ra ru]{fullShare} Wr)) := by
  rw [pt_mainChunk' c od a u ed hu inbd Wd, pt_ringChunk' c or' s.val ra ru er hru inbr Wr, sem_spell os s r es inbs]

end Flights

/-! ## A started copy, as the run leaves it -/

section Started

variable (c : Dev nD)

/-- The slot after the body's store of the block's outputs `P`. -/
def slotW (s : Fin 2) (q : Buf (Elt F) (ringM.view.loc (c : Thread nD τ))) (P : Vec F S1x3072x1024 .f32) :
    Buf (Elt F) (ringM.view.loc (c : Thread nD τ)) :=
  View.write (Elt F) (ringM.access (Rect.unit ![s.val, 0, 0] S1x3072x1024.size (ringSlot_inb s))) q P Finset.univ

theorem slotW_spell (s : Fin 2) (o : Fin 3 → ℕ) (e : o = ![s.val, 0, 0]) (inb : ∀ k, o k + S1x3072x1024.size k ≤ S2x3072x1024.size k)
    (q : Buf (Elt F) (ringM.view.loc (c : Thread nD τ))) (P : Vec F S1x3072x1024 .f32) :
    View.write (Elt F) (ringM.access (Rect.unit o S1x3072x1024.size inb)) q P Finset.univ = slotW c s q P := by
  subst e; rfl

/-- Copy `r` of block `b` started from slot `s` holding `W`: its semaphore carries the flight, which delivers the
    result's rows at contents that read, through the chunk, what the copy read of the slot. -/
def FlightX (b : Fin 32) (s : Fin 2) (r : Fin 8) (W : Buf (Elt F) (ringM.view.loc (c : Thread nD τ))) : sProp 𝕄 :=
  iprop(∃ g' : Buf (Elt F) (mainM.view.loc (c : Thread nD τ)),
    ⌜(mainChunk b r).view.read (Elt F) g' = ReadAs.same.apply ((ringChunk s r).view.read (Elt F) W)⌝
    ∗ Transfers.Flight EC (c : Thread nD τ) (.dma (rsem s r)) (none : HIx 1) 49152
        iprop((mainM.view.loc (c : Thread nD τ) ↦[rowRange (3072 * b.val + 384 * r.val) (3072 * b.val + 384 * r.val + 384)]{fullShare} g')
          ∗ (ringM.view.loc (c : Thread nD τ) ↦[ringRange s.val (384 * r.val) (384 * r.val + 384)]{fullShare} W)))

/-- What a started copy lands reads, through the chunk, what it read of the ring. -/
theorem fact_spell (od : Fin 2 → ℕ) (or' : Fin 3 → ℕ) (b : Fin 32) (s : Fin 2) (r : Fin 8)
    (ed : od = ![3072 * b.val + 384 * r.val, 0]) (er : or' = ![s.val, 384 * r.val, 0])
    (inbd : ∀ k, od k + S384x1024.size k ≤ S100000x1024.size k) (inbr : ∀ k, or' k + S1x384x1024.size k ≤ S2x3072x1024.size k)
    (g : Buf (Elt F) (mainM.view.loc (c : Thread nD τ))) (W : Buf (Elt F) (ringM.view.loc (c : Thread nD τ))) :
    (mainChunk b r).view.read (Elt F)
        ((mainM.slice (Rect.unit od S384x1024.size inbd) (fun _ => rfl)).view.writes (Elt F) g
          [⟨Rect.whole _, ReadAs.same.apply (View.read (Elt F)
              ((ringM.slice (Rect.unit or' S1x384x1024.size inbr) (fun _ => rfl)).squeeze S384x1024 squeezes_S1x384x1024_S384x1024).view W)⟩])
      = ReadAs.same.apply ((ringChunk s r).view.read (Elt F) W) := by
  subst ed er
  exact landed_read c b r g _

end Started

end Cert.Proof.KernelIdeal

end
-- ==== Proof.KernelIdeal.RegionPhi.lean ====
/-
  The invariant's cases, unfolded: what it is at the points of pass 0, at a point of pass 1 and after the last.
-/
import proofs.«204087_g3891240370374_cont_8to1_b_1678_29_alg».proof.Proof.KernelIdeal.RegionSpell

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

/-! ## From the run's flights to the invariant's -/

section ToInv

variable (c : Dev nD) (A : Arrs (F := F) c) (I : RegionInv c A)

theorem pt_mainChunkC (b : Fin 32) (r : Fin 8) (g : Buf (Elt F) (mainM.view.loc (c : Thread nD τ))) :
    ((mainChunk b r).view.loc (c : Thread nD τ) ↦[(mainChunk b r).view.set]{fullShare} g : sProp 𝕄)
      = (mainM.view.loc (c : Thread nD τ) ↦[rowRange (3072 * b.val + 384 * r.val) (3072 * b.val + 384 * r.val + 384)]{fullShare} g) :=
  congrArg (fun S : Finset S100000x1024.Idx => (mainM.view.loc (c : Thread nD τ) ↦[S]{fullShare} g : sProp 𝕄)) (mainChunk_set b r)

theorem pt_ringChunkC (s : Fin 2) (r : Fin 8) (W : Buf (Elt F) (ringM.view.loc (c : Thread nD τ))) :
    ((ringChunk s r).view.loc (c : Thread nD τ) ↦[(ringChunk s r).view.set]{fullShare} W : sProp 𝕄)
      = (ringM.view.loc (c : Thread nD τ) ↦[ringRange s.val (384 * r.val) (384 * r.val + 384)]{fullShare} W) :=
  congrArg (fun S : Finset S2x3072x1024.Idx => (ringM.view.loc (c : Thread nD τ) ↦[S]{fullShare} W : sProp 𝕄)) (ringChunk_set s r)

theorem pt_ringSlotC (s : Fin 2) (W : Buf (Elt F) (ringM.view.loc (c : Thread nD τ))) :
    ((ringSlot s).view.loc (c : Thread nD τ) ↦[(ringSlot s).view.set]{fullShare} W : sProp 𝕄)
      = (ringM.view.loc (c : Thread nD τ) ↦[ringRange s.val 0 3072]{fullShare} W) :=
  congrArg (fun S : Finset S2x3072x1024.Idx => (ringM.view.loc (c : Thread nD τ) ↦[S]{fullShare} W : sProp 𝕄)) (ringSlot_set s)

/-- A copy started at point `t` of block `b`, from the slot holding the block's outputs, is the invariant's flight:
    what it lands satisfies the chunk's predicate. -/
theorem flightX_C (t : Fin cfg1.N) (b : Fin 32) (htb : t.val = 33 + b.val) (s : Fin 2) (hs : slotOf b.val = s) (r : Fin 8)
    (d4 d5) (ht : Vec F S128x1024 .bf16) (l : Vec F S1x1024 .f32) (hHT : I.HT ht) (hL : I.LSE l)
    (q0 : Buf (Elt F) (ringM.view.loc (c : Thread nD τ))) (P : Vec F S1x3072x1024 .f32)
    (hP : P = k1_pay6 (stg c A 4 t d4) ht (stg c A 5 t d5) l) :
    FlightX c b s r (slotW c s q0 P) ⊢ (FlightC c A I b r : sProp 𝕄) := by
  subst hs hP
  unfold FlightX FlightC
  iintro ⟨%g', %hg', Hf⟩
  iexists g', (slotW c (slotOf b.val) q0 (k1_pay6 (stg c A 4 t d4) ht (stg c A 5 t d5) l))
  isplitr
  · ipureintro
    refine I.hOutC t b htb r d4 d5 ht l hHT hL _ (fun i v => ?_)
    rw [hg']; exact landed_chunk c _ r q0 _ i v
  · rw [pt_mainChunkC, pt_ringChunkC]
    iexact Hf

end ToInv

section Unfold

variable (c : Dev nD) (A : Arrs (F := F) c) (I : RegionInv c A)

theorem Φ_idle (n : ℕ) (h : n ≤ 33) : Φ c A I n = iprop(scr c A I n ∗ idle c A I False) := by
  unfold Φ; rw [if_pos h]

theorem Φ_fly (n : ℕ) (h1 : 33 < n) (h2 : n < 66) : Φ c A I n = iprop(scr c A I n ∗ fly c A I (n - 33)) := by
  unfold Φ; rw [if_neg (by omega), if_neg (by omega)]

theorem Φ_done : Φ c A I 66 = iprop(scr c A I 66 ∗ idle c A I True) := by
  unfold Φ; rw [if_neg (by decide), if_pos rfl]

theorem FlightB_lt (b : ℕ) (h : b < 32) :
    FlightB c A I b = iprop(FlightC c A I ⟨b, h⟩ 0 ∗ FlightC c A I ⟨b, h⟩ 1 ∗ FlightC c A I ⟨b, h⟩ 2 ∗ FlightC c A I ⟨b, h⟩ 3 ∗ FlightC c A I ⟨b, h⟩ 4 ∗ FlightC c A I ⟨b, h⟩ 5 ∗ FlightC c A I ⟨b, h⟩ 6 ∗ FlightC c A I ⟨b, h⟩ 7) := by
  unfold FlightB; rw [dif_pos h, bigSep_F8]

theorem sems0_eq : (Pipeline.ownSems0 osem c : sProp 𝕄)
    = iprop(semVal ((c : Thread nD τ), SemLoc.dma (rsem 0 0)) 0 ∗ semVal ((c : Thread nD τ), SemLoc.dma (rsem 0 1)) 0 ∗ semVal ((c : Thread nD τ), SemLoc.dma (rsem 0 2)) 0 ∗ semVal ((c : Thread nD τ), SemLoc.dma (rsem 0 3)) 0 ∗ semVal ((c : Thread nD τ), SemLoc.dma (rsem 0 4)) 0 ∗ semVal ((c : Thread nD τ), SemLoc.dma (rsem 0 5)) 0 ∗ semVal ((c : Thread nD τ), SemLoc.dma (rsem 0 6)) 0 ∗ semVal ((c : Thread nD τ), SemLoc.dma (rsem 0 7)) 0
        ∗ semVal ((c : Thread nD τ), SemLoc.dma (rsem 1 0)) 0 ∗ semVal ((c : Thread nD τ), SemLoc.dma (rsem 1 1)) 0 ∗ semVal ((c : Thread nD τ), SemLoc.dma (rsem 1 2)) 0 ∗ semVal ((c : Thread nD τ), SemLoc.dma (rsem 1 3)) 0 ∗ semVal ((c : Thread nD τ), SemLoc.dma (rsem 1 4)) 0 ∗ semVal ((c : Thread nD τ), SemLoc.dma (rsem 1 5)) 0 ∗ semVal ((c : Thread nD τ), SemLoc.dma (rsem 1 6)) 0 ∗ semVal ((c : Thread nD τ), SemLoc.dma (rsem 1 7)) 0) := by
  unfold Pipeline.ownSems0; rw [bigSep_F16]; rfl

theorem idleSlot_eq (s : Fin 2) : (idleSlot (F := F) c s : sProp 𝕄)
    = iprop((∃ q : Buf (Elt F) (ringM.view.loc (c : Thread nD τ)), ringM.view.loc (c : Thread nD τ) ↦[ringRange s.val 0 3072]{fullShare} q)
        ∗ semVal ((c : Thread nD τ), SemLoc.dma (rsem s 0)) 0 ∗ semVal ((c : Thread nD τ), SemLoc.dma (rsem s 1)) 0 ∗ semVal ((c : Thread nD τ), SemLoc.dma (rsem s 2)) 0 ∗ semVal ((c : Thread nD τ), SemLoc.dma (rsem s 3)) 0 ∗ semVal ((c : Thread nD τ), SemLoc.dma (rsem s 4)) 0 ∗ semVal ((c : Thread nD τ), SemLoc.dma (rsem s 5)) 0 ∗ semVal ((c : Thread nD τ), SemLoc.dma (rsem s 6)) 0 ∗ semVal ((c : Thread nD τ), SemLoc.dma (rsem s 7)) 0) := by
  unfold idleSlot; rw [bigSep_F8]
  congr 1
  exact congrArg _ (funext fun q => pt_ringSlotC c s q)

/-- Before point `(1, j)`, `2 ≤ j`. -/
theorem fly_ge (j : ℕ) (h : 2 ≤ j) : fly c A I j
    = iprop((∃ f : Buf (Elt F) (mainM.view.loc (c : Thread nD τ)), (mainM.view.loc (c : Thread nD τ) ↦[rowRange 0 (3072 * (j - 2))]{fullShare} f)
        ∗ ⌜∀ (b : Fin 32) r, b.val + 2 < j → I.OutC b r ((mainChunk b r).view.read (Elt F) f)⌝)
      ∗ (∃ f : Buf (Elt F) (mainM.view.loc (c : Thread nD τ)), mainM.view.loc (c : Thread nD τ) ↦[rowRange (3072 * j) 100000]{fullShare} f)
      ∗ FlightB c A I (j - 2) ∗ FlightB c A I (j - 1)) := by
  unfold fly; rw [if_pos h]

/-- Before point `(1, 1)`. -/
theorem fly_one : fly c A I 1
    = iprop((∃ f : Buf (Elt F) (mainM.view.loc (c : Thread nD τ)), (mainM.view.loc (c : Thread nD τ) ↦[rowRange 0 (3072 * (1 - 2))]{fullShare} f)
        ∗ ⌜∀ (b : Fin 32) r, b.val + 2 < 1 → I.OutC b r ((mainChunk b r).view.read (Elt F) f)⌝)
      ∗ (∃ f : Buf (Elt F) (mainM.view.loc (c : Thread nD τ)), mainM.view.loc (c : Thread nD τ) ↦[rowRange (3072 * 1) 100000]{fullShare} f)
      ∗ idleSlot c 1 ∗ FlightB c A I (1 - 1)) := by
  unfold fly; rw [if_neg (by decide)]

end Unfold

section Elim

variable (c : Dev nD) (A : Arrs (F := F) c) (I : RegionInv c A)

/-- The invariant's flight of copy `r` of block `b`, over the rows' ranges (spelt as the caller needs them). -/
theorem FlightC_elim (b : Fin 32) (r : Fin 8) (s : Fin 2) (hs : slotOf b.val = s) (lo hi rlo rhi : ℕ)
    (h1 : lo = 3072 * b.val + 384 * r.val) (h2 : hi = lo + 384) (h3 : rlo = 384 * r.val) (h4 : rhi = rlo + 384) :
    FlightC c A I b r ⊢ (iprop(∃ (g : Buf (Elt F) (mainM.view.loc (c : Thread nD τ))) (q : Buf (Elt F) (ringM.view.loc (c : Thread nD τ))),
        ⌜I.OutC b r ((mainChunk b r).view.read (Elt F) g)⌝ ∗
        Transfers.Flight EC (c : Thread nD τ) (.dma (rsem s r)) (none : HIx 1) 49152
          iprop((mainM.view.loc (c : Thread nD τ) ↦[rowRange lo hi]{fullShare} g) ∗ (ringM.view.loc (c : Thread nD τ) ↦[ringRange s.val rlo rhi]{fullShare} q))) : sProp 𝕄) := by
  subst hs h2 h4 h1 h3
  unfold FlightC
  simp only [pt_mainChunkC, pt_ringChunkC]
  exact .rfl

end Elim

end Cert.Proof.KernelIdeal

end
-- ==== Proof.KernelIdeal.RegionJoins.lean ====
/-
  The result's rows and the ring's slots cut into the chunks the copies move, and put together again: a block's
  rows held whole are its eight chunks held; eight chunks of a slot, each at contents of its own, are the slot at
  some contents; the rows landed so far and a block's eight landed chunks, each satisfying its predicate, are the
  rows landed through that block, every chunk so far satisfying its predicate; and the same for the last block's
  four chunks, which complete the result.
-/
import proofs.«204087_g3891240370374_cont_8to1_b_1678_29_alg».proof.Proof.KernelIdeal.RegionSets

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Joins

variable (c : Dev nD)

local notation "mainL" => mainM.view.loc (c : Thread nD τ)
local notation "ringL" => ringM.view.loc (c : Thread nD τ)

/-! ## Splits -/

/-- (J1) A block's rows held whole are its eight row chunks held. -/
theorem block_split (a : ℕ) (f : Buf (Elt F) mainL) :
    (mainL ↦[rowRange a (a + 3072)]{fullShare} f : sProp 𝕄)
      ⊢ iprop((mainL ↦[rowRange a (a + 384)]{fullShare} f) ∗ (mainL ↦[rowRange (a + 384) (a + 768)]{fullShare} f)
          ∗ (mainL ↦[rowRange (a + 768) (a + 1152)]{fullShare} f) ∗ (mainL ↦[rowRange (a + 1152) (a + 1536)]{fullShare} f)
          ∗ (mainL ↦[rowRange (a + 1536) (a + 1920)]{fullShare} f) ∗ (mainL ↦[rowRange (a + 1920) (a + 2304)]{fullShare} f)
          ∗ (mainL ↦[rowRange (a + 2304) (a + 2688)]{fullShare} f) ∗ (mainL ↦[rowRange (a + 2688) (a + 3072)]{fullShare} f)) :=
  (rows_split c (b := a + 384) (by omega) (by omega) f).1.trans <| sep_mono_right <|
  (rows_split c (b := a + 768) (by omega) (by omega) f).1.trans <| sep_mono_right <|
  (rows_split c (b := a + 1152) (by omega) (by omega) f).1.trans <| sep_mono_right <|
  (rows_split c (b := a + 1536) (by omega) (by omega) f).1.trans <| sep_mono_right <|
  (rows_split c (b := a + 1920) (by omega) (by omega) f).1.trans <| sep_mono_right <|
  (rows_split c (b := a + 2304) (by omega) (by omega) f).1.trans <| sep_mono_right <|
  (rows_split c (b := a + 2688) (by omega) (by omega) f).1

/-- (J2) A slot held whole is its eight row chunks held. -/
theorem slot_split (s : ℕ) (q : Buf (Elt F) ringL) :
    (ringL ↦[ringRange s 0 3072]{fullShare} q : sProp 𝕄)
      ⊢ iprop((ringL ↦[ringRange s 0 384]{fullShare} q) ∗ (ringL ↦[ringRange s 384 768]{fullShare} q)
          ∗ (ringL ↦[ringRange s 768 1152]{fullShare} q) ∗ (ringL ↦[ringRange s 1152 1536]{fullShare} q)
          ∗ (ringL ↦[ringRange s 1536 1920]{fullShare} q) ∗ (ringL ↦[ringRange s 1920 2304]{fullShare} q)
          ∗ (ringL ↦[ringRange s 2304 2688]{fullShare} q) ∗ (ringL ↦[ringRange s 2688 3072]{fullShare} q)) :=
  (ring_split c (b := 384) (by omega) (by omega) q).1.trans <| sep_mono_right <|
  (ring_split c (b := 768) (by omega) (by omega) q).1.trans <| sep_mono_right <|
  (ring_split c (b := 1152) (by omega) (by omega) q).1.trans <| sep_mono_right <|
  (ring_split c (b := 1536) (by omega) (by omega) q).1.trans <| sep_mono_right <|
  (ring_split c (b := 1920) (by omega) (by omega) q).1.trans <| sep_mono_right <|
  (ring_split c (b := 2304) (by omega) (by omega) q).1.trans <| sep_mono_right <|
  (ring_split c (b := 2688) (by omega) (by omega) q).1

/-- (J5) The last block's rows of the result are its four row chunks. -/
theorem tail_split (f : Buf (Elt F) mainL) :
    (mainL ↦[rowRange 98304 100000]{fullShare} f : sProp 𝕄)
      ⊢ iprop((mainL ↦[rowRange 98304 98728]{fullShare} f) ∗ (mainL ↦[rowRange 98728 99152]{fullShare} f)
          ∗ (mainL ↦[rowRange 99152 99576]{fullShare} f) ∗ (mainL ↦[rowRange 99576 100000]{fullShare} f)) :=
  (rows_split c (b := 98728) (by omega) (by omega) f).1.trans <| sep_mono_right <|
  (rows_split c (b := 99152) (by omega) (by omega) f).1.trans <| sep_mono_right <|
  (rows_split c (b := 99576) (by omega) (by omega) f).1

/-- (J5) A slot held whole is the four row chunks the last block's copies read and the rest. -/
theorem slot_split_tail (s : ℕ) (q : Buf (Elt F) ringL) :
    (ringL ↦[ringRange s 0 3072]{fullShare} q : sProp 𝕄)
      ⊢ iprop((ringL ↦[ringRange s 0 424]{fullShare} q) ∗ (ringL ↦[ringRange s 424 848]{fullShare} q)
          ∗ (ringL ↦[ringRange s 848 1272]{fullShare} q) ∗ (ringL ↦[ringRange s 1272 1696]{fullShare} q)
          ∗ (ringL ↦[ringRange s 1696 3072]{fullShare} q)) :=
  (ring_split c (b := 424) (by omega) (by omega) q).1.trans <| sep_mono_right <|
  (ring_split c (b := 848) (by omega) (by omega) q).1.trans <| sep_mono_right <|
  (ring_split c (b := 1272) (by omega) (by omega) q).1.trans <| sep_mono_right <|
  (ring_split c (b := 1696) (by omega) (by omega) q).1

/-! ## Joins of the ring -/

/-- A joined part and the next chunk are the part extended. -/
theorem ring_join_ex {s a b d : ℕ} (h1 : a ≤ b) (h2 : b ≤ d) (g : Buf (Elt F) ringL) :
    iprop((∃ f, ringL ↦[ringRange s a b]{fullShare} f) ∗ (ringL ↦[ringRange s b d]{fullShare} g))
      ⊢ (iprop(∃ h : Buf (Elt F) ringL, ringL ↦[ringRange s a d]{fullShare} h) : sProp 𝕄) := by
  iintro ⟨⟨%f, Hf⟩, Hg⟩
  iapply (ring_join c h1 h2 f g)
  isplitl [Hf]; · iexact Hf
  iexact Hg

/-- (J3) Eight row chunks of a slot, each at contents of its own, are the slot at some contents. -/
theorem slot_join (s : ℕ) (q0 q1 q2 q3 q4 q5 q6 q7 : Buf (Elt F) ringL) :
    iprop((ringL ↦[ringRange s 0 384]{fullShare} q0) ∗ (ringL ↦[ringRange s 384 768]{fullShare} q1)
        ∗ (ringL ↦[ringRange s 768 1152]{fullShare} q2) ∗ (ringL ↦[ringRange s 1152 1536]{fullShare} q3)
        ∗ (ringL ↦[ringRange s 1536 1920]{fullShare} q4) ∗ (ringL ↦[ringRange s 1920 2304]{fullShare} q5)
        ∗ (ringL ↦[ringRange s 2304 2688]{fullShare} q6) ∗ (ringL ↦[ringRange s 2688 3072]{fullShare} q7))
      ⊢ (iprop(∃ q : Buf (Elt F) ringL, ringL ↦[ringRange s 0 3072]{fullShare} q) : sProp 𝕄) := by
  iintro ⟨H0, H1, H2, H3, H4, H5, H6, H7⟩
  ihave H := (ring_join c (s := s) (a := 0) (b := 384) (d := 768) (by omega) (by omega) q0 q1) $$ [H0 H1]
  · isplitl [H0]; · iexact H0
    iexact H1
  ihave H := (ring_join_ex c (s := s) (a := 0) (b := 768) (d := 1152) (by omega) (by omega) q2) $$ [H H2]
  · isplitl [H]; · iexact H
    iexact H2
  ihave H := (ring_join_ex c (s := s) (a := 0) (b := 1152) (d := 1536) (by omega) (by omega) q3) $$ [H H3]
  · isplitl [H]; · iexact H
    iexact H3
  ihave H := (ring_join_ex c (s := s) (a := 0) (b := 1536) (d := 1920) (by omega) (by omega) q4) $$ [H H4]
  · isplitl [H]; · iexact H
    iexact H4
  ihave H := (ring_join_ex c (s := s) (a := 0) (b := 1920) (d := 2304) (by omega) (by omega) q5) $$ [H H5]
  · isplitl [H]; · iexact H
    iexact H5
  ihave H := (ring_join_ex c (s := s) (a := 0) (b := 2304) (d := 2688) (by omega) (by omega) q6) $$ [H H6]
  · isplitl [H]; · iexact H
    iexact H6
  iapply (ring_join_ex c (s := s) (a := 0) (b := 2688) (d := 3072) (by omega) (by omega) q7)
  isplitl [H]; · iexact H
  iexact H7

/-- (J5) The four row chunks the last block's copies read, each at contents of its own, and the rest of the slot,
    are the slot at some contents. -/
theorem slot_join_tail (s : ℕ) (q0 q1 q2 q3 qrest : Buf (Elt F) ringL) :
    iprop((ringL ↦[ringRange s 0 424]{fullShare} q0) ∗ (ringL ↦[ringRange s 424 848]{fullShare} q1)
        ∗ (ringL ↦[ringRange s 848 1272]{fullShare} q2) ∗ (ringL ↦[ringRange s 1272 1696]{fullShare} q3)
        ∗ (ringL ↦[ringRange s 1696 3072]{fullShare} qrest))
      ⊢ (iprop(∃ q : Buf (Elt F) ringL, ringL ↦[ringRange s 0 3072]{fullShare} q) : sProp 𝕄) := by
  iintro ⟨H0, H1, H2, H3, H4⟩
  ihave H := (ring_join c (s := s) (a := 0) (b := 424) (d := 848) (by omega) (by omega) q0 q1) $$ [H0 H1]
  · isplitl [H0]; · iexact H0
    iexact H1
  ihave H := (ring_join_ex c (s := s) (a := 0) (b := 848) (d := 1272) (by omega) (by omega) q2) $$ [H H2]
  · isplitl [H]; · iexact H
    iexact H2
  ihave H := (ring_join_ex c (s := s) (a := 0) (b := 1272) (d := 1696) (by omega) (by omega) q3) $$ [H H3]
  · isplitl [H]; · iexact H
    iexact H3
  iapply (ring_join_ex c (s := s) (a := 0) (b := 1696) (d := 3072) (by omega) (by omega) qrest)
  isplitl [H]; · iexact H
  iexact H4

/-! ## Joins of the result, the chunks' predicates carried along -/

variable (A : Arrs (F := F) c) (I : RegionInv c A)

/-- One landed chunk of block b joined to the rows landed before it. -/
theorem landed_step (b : Fin 32) (r : Fin 8) (a a' : ℕ) (ha : a = 3072 * b.val + 384 * r.val) (ha' : a' = a + 384)
    (f g : Buf (Elt F) mainL)
    (hf : ∀ (b' : Fin 32) (r' : Fin 8), (b'.val < b.val ∨ (b' = b ∧ r'.val < r.val)) → I.OutC b' r' ((mainChunk b' r').view.read (Elt F) f))
    (hg : I.OutC b r ((mainChunk b r).view.read (Elt F) g)) :
    iprop((mainL ↦[rowRange 0 a]{fullShare} f) ∗ (mainL ↦[rowRange a a']{fullShare} g))
      ⊢ (iprop(∃ f' : Buf (Elt F) mainL, (mainL ↦[rowRange 0 a']{fullShare} f')
          ∗ ⌜∀ (b' : Fin 32) (r' : Fin 8), (b'.val < b.val ∨ (b' = b ∧ r'.val < r.val + 1)) → I.OutC b' r' ((mainChunk b' r').view.read (Elt F) f')⌝) : sProp 𝕄) := by
  subst ha ha'
  iintro H
  ihave H := (rows_join c (a := 0) (by omega) (by omega) f g) $$ H
  icases H with ⟨%h, %hh, H⟩
  iexists h
  isplitl [H]; · iexact H
  ipureintro
  intro b' r' hbr
  have hr' := r'.isLt
  by_cases hnew : b' = b ∧ r' = r
  · obtain ⟨rfl, rfl⟩ := hnew
    rw [mainChunk_read_congr c b' r' h g fun x hx => hh.2 x hx]
    exact hg
  · have hold : b'.val < b.val ∨ (b' = b ∧ r'.val < r.val) := by
      rcases hbr with h1 | ⟨h1, h2⟩
      · exact .inl h1
      · refine .inr ⟨h1, ?_⟩
        rcases Nat.lt_or_ge r'.val r.val with h3 | h3
        · exact h3
        · exact absurd ⟨h1, Fin.ext (by omega)⟩ hnew
    rw [mainChunk_read_congr c b' r' h f fun x hx => hh.1 x (by
      rw [mem_rowRange] at hx ⊢
      rcases hold with h1 | ⟨h1, h2⟩
      · omega
      · subst h1; omega)]
    exact hf b' r' hold

/-- (J4) The rows landed before block b and block b's eight landed chunks are the rows landed through block b. -/
theorem landed_join (b : Fin 32) (f g0 g1 g2 g3 g4 g5 g6 g7 : Buf (Elt F) mainL)
    (hf : ∀ (b' : Fin 32) (r : Fin 8), b'.val < b.val → I.OutC b' r ((mainChunk b' r).view.read (Elt F) f))
    (hg0 : I.OutC b 0 ((mainChunk b 0).view.read (Elt F) g0)) (hg1 : I.OutC b 1 ((mainChunk b 1).view.read (Elt F) g1))
    (hg2 : I.OutC b 2 ((mainChunk b 2).view.read (Elt F) g2)) (hg3 : I.OutC b 3 ((mainChunk b 3).view.read (Elt F) g3))
    (hg4 : I.OutC b 4 ((mainChunk b 4).view.read (Elt F) g4)) (hg5 : I.OutC b 5 ((mainChunk b 5).view.read (Elt F) g5))
    (hg6 : I.OutC b 6 ((mainChunk b 6).view.read (Elt F) g6)) (hg7 : I.OutC b 7 ((mainChunk b 7).view.read (Elt F) g7)) :
    iprop((mainL ↦[rowRange 0 (3072 * b.val)]{fullShare} f)
        ∗ (mainL ↦[rowRange (3072 * b.val) (3072 * b.val + 384)]{fullShare} g0) ∗ (mainL ↦[rowRange (3072 * b.val + 384) (3072 * b.val + 768)]{fullShare} g1)
        ∗ (mainL ↦[rowRange (3072 * b.val + 768) (3072 * b.val + 1152)]{fullShare} g2) ∗ (mainL ↦[rowRange (3072 * b.val + 1152) (3072 * b.val + 1536)]{fullShare} g3)
        ∗ (mainL ↦[rowRange (3072 * b.val + 1536) (3072 * b.val + 1920)]{fullShare} g4) ∗ (mainL ↦[rowRange (3072 * b.val + 1920) (3072 * b.val + 2304)]{fullShare} g5)
        ∗ (mainL ↦[rowRange (3072 * b.val + 2304) (3072 * b.val + 2688)]{fullShare} g6) ∗ (mainL ↦[rowRange (3072 * b.val + 2688) (3072 * b.val + 3072)]{fullShare} g7))
      ⊢ (iprop(∃ f' : Buf (Elt F) mainL, (mainL ↦[rowRange 0 (3072 * (b.val + 1))]{fullShare} f')
          ∗ ⌜∀ (b' : Fin 32) (r : Fin 8), b'.val < b.val + 1 → I.OutC b' r ((mainChunk b' r).view.read (Elt F) f')⌝) : sProp 𝕄) := by
  iintro ⟨H, H0, H1, H2, H3, H4, H5, H6, H7⟩
  ihave H := (landed_step c A I b 0 (3072 * b.val) (3072 * b.val + 384) (by simp) rfl f g0
      (fun b' r' h => hf b' r' (by rcases h with h | ⟨_, h⟩; exact h; exact absurd h (Nat.not_lt_zero _))) hg0) $$ [H H0]
  · isplitl [H]; · iexact H
    iexact H0
  icases H with ⟨%f0, H, %h0⟩
  ihave H := (landed_step c A I b 1 (3072 * b.val + 384) (3072 * b.val + 768) (by simp) (by omega) f0 g1 h0 hg1) $$ [H H1]
  · isplitl [H]; · iexact H
    iexact H1
  icases H with ⟨%f1, H, %h1⟩
  ihave H := (landed_step c A I b 2 (3072 * b.val + 768) (3072 * b.val + 1152) (by simp) (by omega) f1 g2 h1 hg2) $$ [H H2]
  · isplitl [H]; · iexact H
    iexact H2
  icases H with ⟨%f2, H, %h2⟩
  ihave H := (landed_step c A I b 3 (3072 * b.val + 1152) (3072 * b.val + 1536) (by simp) (by omega) f2 g3 h2 hg3) $$ [H H3]
  · isplitl [H]; · iexact H
    iexact H3
  icases H with ⟨%f3, H, %h3⟩
  ihave H := (landed_step c A I b 4 (3072 * b.val + 1536) (3072 * b.val + 1920) (by simp) (by omega) f3 g4 h3 hg4) $$ [H H4]
  · isplitl [H]; · iexact H
    iexact H4
  icases H with ⟨%f4, H, %h4⟩
  ihave H := (landed_step c A I b 5 (3072 * b.val + 1920) (3072 * b.val + 2304) (by simp) (by omega) f4 g5 h4 hg5) $$ [H H5]
  · isplitl [H]; · iexact H
    iexact H5
  icases H with ⟨%f5, H, %h5⟩
  ihave H := (landed_step c A I b 6 (3072 * b.val + 2304) (3072 * b.val + 2688) (by simp) (by omega) f5 g6 h5 hg6) $$ [H H6]
  · isplitl [H]; · iexact H
    iexact H6
  icases H with ⟨%f6, H, %h6⟩
  ihave H := (landed_step c A I b 7 (3072 * b.val + 2688) (3072 * b.val + 3072) (by simp) (by omega) f6 g7 h6 hg7) $$ [H H7]
  · isplitl [H]; · iexact H
    iexact H7
  icases H with ⟨%f7, H, %h7⟩
  iexists f7
  isplitl [H]
  · rw [show 3072 * (b.val + 1) = 3072 * b.val + 3072 from by ring]; iexact H
  ipureintro
  intro b' r hb'
  refine h7 b' r ?_
  rcases Nat.lt_or_ge b'.val b.val with h | h
  · exact .inl h
  · exact .inr ⟨Fin.ext (by omega), by have := r.isLt; show r.val < 7 + 1; omega⟩

/-- One landed chunk of the last block joined to the rows landed before it. -/
theorem tail_step (r : Fin 4) (a a' : ℕ) (ha : a = 98304 + 424 * r.val) (ha' : a' = a + 424)
    (f g : Buf (Elt F) mainL)
    (hfC : ∀ (b' : Fin 32) (r' : Fin 8), I.OutC b' r' ((mainChunk b' r').view.read (Elt F) f))
    (hfT : ∀ r' : Fin 4, r'.val < r.val → I.OutT r' ((mainTail r').view.read (Elt F) f))
    (hg : I.OutT r ((mainTail r).view.read (Elt F) g)) :
    iprop((mainL ↦[rowRange 0 a]{fullShare} f) ∗ (mainL ↦[rowRange a a']{fullShare} g))
      ⊢ (iprop(∃ f' : Buf (Elt F) mainL, (mainL ↦[rowRange 0 a']{fullShare} f')
          ∗ ⌜(∀ (b' : Fin 32) (r' : Fin 8), I.OutC b' r' ((mainChunk b' r').view.read (Elt F) f'))
              ∧ ∀ r' : Fin 4, r'.val < r.val + 1 → I.OutT r' ((mainTail r').view.read (Elt F) f')⌝) : sProp 𝕄) := by
  subst ha ha'
  iintro H
  ihave H := (rows_join c (a := 0) (by omega) (by omega) f g) $$ H
  icases H with ⟨%h, %hh, H⟩
  iexists h
  isplitl [H]; · iexact H
  ipureintro
  refine ⟨fun b' r' => ?_, fun r' hr' => ?_⟩
  · rw [mainChunk_read_congr c b' r' h f fun x hx => hh.1 x (by
      rw [mem_rowRange] at hx ⊢; have := b'.isLt; have := r'.isLt; omega)]
    exact hfC b' r'
  · by_cases hnew : r' = r
    · subst hnew
      rw [mainTail_read_congr c r' h g fun x hx => hh.2 x hx]
      exact hg
    · have hlt : r'.val < r.val := by
        rcases Nat.lt_or_ge r'.val r.val with h3 | h3
        · exact h3
        · exact absurd (Fin.ext (by omega)) hnew
      rw [mainTail_read_congr c r' h f fun x hx => hh.1 x (by rw [mem_rowRange] at hx ⊢; omega)]
      exact hfT r' hlt

/-- (J5) The rows landed through block 31 and the last block's four landed chunks are the whole result, every
    chunk satisfying its predicate. -/
theorem final_join (f t0 t1 t2 t3 : Buf (Elt F) mainL)
    (hf : ∀ (b' : Fin 32) (r : Fin 8), b'.val < 32 → I.OutC b' r ((mainChunk b' r).view.read (Elt F) f))
    (ht0 : I.OutT 0 ((mainTail 0).view.read (Elt F) t0)) (ht1 : I.OutT 1 ((mainTail 1).view.read (Elt F) t1))
    (ht2 : I.OutT 2 ((mainTail 2).view.read (Elt F) t2)) (ht3 : I.OutT 3 ((mainTail 3).view.read (Elt F) t3)) :
    iprop((mainL ↦[rowRange 0 98304]{fullShare} f) ∗ (mainL ↦[rowRange 98304 98728]{fullShare} t0) ∗ (mainL ↦[rowRange 98728 99152]{fullShare} t1)
        ∗ (mainL ↦[rowRange 99152 99576]{fullShare} t2) ∗ (mainL ↦[rowRange 99576 100000]{fullShare} t3))
      ⊢ (iprop(∃ f' : Buf (Elt F) mainL, (mainL ↦{fullShare} f') ∗ ⌜OutAll c A I f'⌝) : sProp 𝕄) := by
  iintro ⟨H, H0, H1, H2, H3⟩
  ihave H := (tail_step c A I 0 98304 98728 rfl rfl f t0 (fun b' r' => hf b' r' b'.isLt) (fun r' h => absurd h (Nat.not_lt_zero _)) ht0) $$ [H H0]
  · isplitl [H]; · iexact H
    iexact H0
  icases H with ⟨%f0, H, %h0⟩
  ihave H := (tail_step c A I 1 98728 99152 rfl rfl f0 t1 h0.1 h0.2 ht1) $$ [H H1]
  · isplitl [H]; · iexact H
    iexact H1
  icases H with ⟨%f1, H, %h1⟩
  ihave H := (tail_step c A I 2 99152 99576 rfl rfl f1 t2 h1.1 h1.2 ht2) $$ [H H2]
  · isplitl [H]; · iexact H
    iexact H2
  icases H with ⟨%f2, H, %h2⟩
  ihave H := (tail_step c A I 3 99576 100000 rfl rfl f2 t3 h2.1 h2.2 ht3) $$ [H H3]
  · isplitl [H]; · iexact H
    iexact H3
  icases H with ⟨%f3, H, %h3⟩
  iexists f3
  isplitl [H]
  · rw [main_rows]; iexact H
  ipureintro
  exact ⟨h3.1, fun r => h3.2 r (by have := r.isLt; show r.val < 3 + 1; omega)⟩

end Joins

end Cert.Proof.KernelIdeal

end
-- ==== Proof.KernelIdeal.RegionBody1a.lean ====
/-
  The TensorCore region's body at the first two points of pass 1: nothing to wait for; the block's outputs are
  stored into its ring slot and the slot's eight row chunks are started on their way to the result.
-/
import proofs.«204087_g3891240370374_cont_8to1_b_1678_29_alg».proof.Proof.KernelIdeal.RegionPoint
import proofs.«204087_g3891240370374_cont_8to1_b_1678_29_alg».proof.Proof.KernelIdeal.RegionPhi
import proofs.«204087_g3891240370374_cont_8to1_b_1678_29_alg».proof.Proof.KernelIdeal.RegionJoins

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

section Run1

set_option maxHeartbeats 8000000 in
/-- A point of pass 1 that waits for nothing and starts its block's eight copies (the first two points). -/
theorem run1_lo (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S128x64 .f32) (harg4 : arg4.IsWhole) (arg5 : Memref sig .tc .vmem S128x1 .f32) (harg5 : arg5.IsWhole) (arg6 : Memref sig .tc .vmem S3072x128 .f32) (harg6 : arg6.IsWhole) (arg7 : Memref sig .tc .vmem S1x3072 .f32) (harg7 : arg7.IsWhole)
    (j : ℕ) (hj : (i 1).val = j) (s : Fin 2) (hs : j % 2 = s.val) (hj32 : j < 32)
    (hA : ¬cA i) (hB : ¬cB i) (hC : ¬cC i) (h4 : k1_cond4 i = 1#1) (h5 : ¬k1_cond5 i = 1#1) (h6 : k1_cond6 i = 1#1) (h7 : ¬k1_cond7 i = 1#1)
    (X4 : Vec F S3072x128 .f32) (X5 : Vec F S1x3072 .f32) (ht : Vec F S128x1024 .bf16) (l : Vec F S1x1024 .f32)
    (q : Buf (Elt F) (ringM.view.loc (c : Thread nD τ))) (g : Buf (Elt F) (mainM.view.loc (c : Thread nD τ)))
    (K : PUnit → sProp 𝕄) :
    iprop(owns (c : Thread nD τ) arg6 fullShare X4 ∗ owns (c : Thread nD τ) arg7 fullShare X5
        ∗ ((Memref.whole cc1_scratch0).view.loc (c : Thread nD τ) ↦{fullShare} ht)
        ∗ ((Memref.whole cc1_scratch2).view.loc (c : Thread nD τ) ↦{fullShare} l)
        ∗ (ringM.view.loc (c : Thread nD τ) ↦[ringRange s.val 0 3072]{fullShare} q)
        ∗ (mainM.view.loc (c : Thread nD τ) ↦[rowRange (3072 * j) (3072 * j + 3072)]{fullShare} g)
        ∗ semVal ((c : Thread nD τ), SemLoc.dma (rsem s 0)) 0
        ∗ semVal ((c : Thread nD τ), SemLoc.dma (rsem s 1)) 0
        ∗ semVal ((c : Thread nD τ), SemLoc.dma (rsem s 2)) 0
        ∗ semVal ((c : Thread nD τ), SemLoc.dma (rsem s 3)) 0
        ∗ semVal ((c : Thread nD τ), SemLoc.dma (rsem s 4)) 0
        ∗ semVal ((c : Thread nD τ), SemLoc.dma (rsem s 5)) 0
        ∗ semVal ((c : Thread nD τ), SemLoc.dma (rsem s 6)) 0
        ∗ semVal ((c : Thread nD τ), SemLoc.dma (rsem s 7)) 0
        ∗ (iprop(owns (c : Thread nD τ) arg6 fullShare X4 ∗ owns (c : Thread nD τ) arg7 fullShare X5
            ∗ ((Memref.whole cc1_scratch0).view.loc (c : Thread nD τ) ↦{fullShare} ht)
            ∗ ((Memref.whole cc1_scratch2).view.loc (c : Thread nD τ) ↦{fullShare} l)
            ∗ (∃ P, ⌜P = k1_pay6 X4 ht X5 l⌝ ∗ FlightX c ⟨j, hj32⟩ s 0 (slotW c s q P) ∗ FlightX c ⟨j, hj32⟩ s 1 (slotW c s q P) ∗ FlightX c ⟨j, hj32⟩ s 2 (slotW c s q P) ∗ FlightX c ⟨j, hj32⟩ s 3 (slotW c s q P) ∗ FlightX c ⟨j, hj32⟩ s 4 (slotW c s q P) ∗ FlightX c ⟨j, hj32⟩ s 5 (slotW c s q P) ∗ FlightX c ⟨j, hj32⟩ s 6 (slotW c s q P) ∗ FlightX c ⟨j, hj32⟩ s 7 (slotW c s q P))) -∗ K ⟨⟩))
      ⊢ wp frame (wpE (defs₀ (F := F)) 𝒱₀ (c : Thread nD τ) none) Set.univ
          (cc1__fused_body i arg2 harg2 arg3 harg3 arg4 harg4 arg5 harg5 arg6 harg6 arg7 harg7 (Memref.whole main_v9) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4) K := by
  have hsv : (i 1).val % 2 = s.val := by rw [hj]; exact hs
  have e18 : k1_off18 i = ![s.val, 0, 0] := by rw [k1_off18_eq, hsv]
  have ed0 : k1_off20 i 0#32 = ![3072 * j, 0] := by rw [← hj]; exact k1_off20_eq i ⟨0, by decide⟩
  have er0 : k1_off21 i = ![s.val, 0, 0] := by rw [k1_off21_eq, hsv]
  have es0 : k1_off19 i = ![s.val, 0] := by rw [k1_off19_eq, hsv]
  have ed1 : k1_off20 i 384#32 = ![3072 * j + 384, 0] := by rw [← hj]; exact k1_off20_eq i ⟨1, by decide⟩
  have er1 : k1_off23 i = ![s.val, 384, 0] := by rw [k1_off23_eq, hsv]
  have es1 : k1_off22 i = ![s.val, 1] := by rw [k1_off22_eq, hsv]
  have ed2 : k1_off20 i 768#32 = ![3072 * j + 768, 0] := by rw [← hj]; exact k1_off20_eq i ⟨2, by decide⟩
  have er2 : k1_off25 i = ![s.val, 768, 0] := by rw [k1_off25_eq, hsv]
  have es2 : k1_off24 i = ![s.val, 2] := by rw [k1_off24_eq, hsv]
  have ed3 : k1_off20 i 1152#32 = ![3072 * j + 1152, 0] := by rw [← hj]; exact k1_off20_eq i ⟨3, by decide⟩
  have er3 : k1_off27 i = ![s.val, 1152, 0] := by rw [k1_off27_eq, hsv]
  have es3 : k1_off26 i = ![s.val, 3] := by rw [k1_off26_eq, hsv]
  have ed4 : k1_off20 i 1536#32 = ![3072 * j + 1536, 0] := by rw [← hj]; exact k1_off20_eq i ⟨4, by decide⟩
  have er4 : k1_off29 i = ![s.val, 1536, 0] := by rw [k1_off29_eq, hsv]
  have es4 : k1_off28 i = ![s.val, 4] := by rw [k1_off28_eq, hsv]
  have ed5 : k1_off20 i 1920#32 = ![3072 * j + 1920, 0] := by rw [← hj]; exact k1_off20_eq i ⟨5, by decide⟩
  have er5 : k1_off31 i = ![s.val, 1920, 0] := by rw [k1_off31_eq, hsv]
  have es5 : k1_off30 i = ![s.val, 5] := by rw [k1_off30_eq, hsv]
  have ed6 : k1_off20 i 2304#32 = ![3072 * j + 2304, 0] := by rw [← hj]; exact k1_off20_eq i ⟨6, by decide⟩
  have er6 : k1_off33 i = ![s.val, 2304, 0] := by rw [k1_off33_eq, hsv]
  have es6 : k1_off32 i = ![s.val, 6] := by rw [k1_off32_eq, hsv]
  have ed7 : k1_off20 i 2688#32 = ![3072 * j + 2688, 0] := by rw [← hj]; exact k1_off20_eq i ⟨7, by decide⟩
  have er7 : k1_off35 i = ![s.val, 2688, 0] := by rw [k1_off35_eq, hsv]
  have es7 : k1_off34 i = ![s.val, 7] := by rw [k1_off34_eq, hsv]
  rw [cc1__fused_body_eq_skeleton]; unfold cc1__fused_body_skel
  unfold owns
  iintro ⟨⟨%f4, %hf4, H4⟩, ⟨%f5, %hf5, H5⟩, H9, H11, Hslot, Hblk, Z0, Z1, Z2, Z3, Z4, Z5, Z6, Z7, Hk⟩
  obtain rfl := harg6.eq_unread hf4
  obtain rfl := harg7.eq_unread hf5
  -- the slot, as the body names it
  ihave Hslot := (Entails.of_eq (pt_ringSlot c (k1_off18 i) s.val e18 (k1_off18_inb i h4) q).symm) $$ Hslot
  (set_option sl_exec.stopBefore "k1_cond6" in sl_exec (disch := first | exact hA | exact hB | exact hC | exact h4 | exact h5 | exact h6 | exact h7))

  unfold run1_lo.sl.Hslot_w1
  -- the slot back over its rows, cut into the chunks the copies read
  ihave Hslot := (Entails.of_eq (pt_ringSlot c (k1_off18 i) s.val e18 (k1_off18_inb i h4) _)) $$ Hslot
  ihave Hslot := (Entails.of_eq (congrArg (fun W => (ringM.view.loc (c : Thread nD τ) ↦[ringRange s.val 0 3072]{fullShare} W : sProp 𝕄))
    (slotW_spell c s (k1_off18 i) e18 (k1_off18_inb i h4) q _))) $$ Hslot
  ihave Hslot := (slot_split c s.val _) $$ Hslot
  icases Hslot with ⟨C0, C1, C2, C3, C4, C5, C6, C7⟩
  ihave C0 := (Entails.of_eq (pt_ringChunk' c (k1_off21 i) s.val 0 384 er0 (by omega) (k1_off21_inb i h4 h6) _).symm) $$ C0
  ihave C1 := (Entails.of_eq (pt_ringChunk' c (k1_off23 i) s.val 384 768 er1 (by omega) (k1_off23_inb i h4 h6) _).symm) $$ C1
  ihave C2 := (Entails.of_eq (pt_ringChunk' c (k1_off25 i) s.val 768 1152 er2 (by omega) (k1_off25_inb i h4 h6) _).symm) $$ C2
  ihave C3 := (Entails.of_eq (pt_ringChunk' c (k1_off27 i) s.val 1152 1536 er3 (by omega) (k1_off27_inb i h4 h6) _).symm) $$ C3
  ihave C4 := (Entails.of_eq (pt_ringChunk' c (k1_off29 i) s.val 1536 1920 er4 (by omega) (k1_off29_inb i h4 h6) _).symm) $$ C4
  ihave C5 := (Entails.of_eq (pt_ringChunk' c (k1_off31 i) s.val 1920 2304 er5 (by omega) (k1_off31_inb i h4 h6) _).symm) $$ C5
  ihave C6 := (Entails.of_eq (pt_ringChunk' c (k1_off33 i) s.val 2304 2688 er6 (by omega) (k1_off33_inb i h4 h6) _).symm) $$ C6
  ihave C7 := (Entails.of_eq (pt_ringChunk' c (k1_off35 i) s.val 2688 3072 er7 (by omega) (k1_off35_inb i h4 h6) _).symm) $$ C7
  -- the block's rows, cut into the chunks the copies write
  ihave Hblk := (block_split c (3072 * j) g) $$ Hblk
  icases Hblk with ⟨D0, D1, D2, D3, D4, D5, D6, D7⟩
  ihave D0 := (Entails.of_eq (pt_mainChunk' c (k1_off20 i 0#32) (3072 * j) (3072 * j + 384) ed0 (by omega) (k1_off20_inb i h4 h6 0) g).symm) $$ D0
  ihave D1 := (Entails.of_eq (pt_mainChunk' c (k1_off20 i 384#32) (3072 * j + 384) (3072 * j + 768) ed1 (by omega) (k1_off20_inb i h4 h6 1) g).symm) $$ D1
  ihave D2 := (Entails.of_eq (pt_mainChunk' c (k1_off20 i 768#32) (3072 * j + 768) (3072 * j + 1152) ed2 (by omega) (k1_off20_inb i h4 h6 2) g).symm) $$ D2
  ihave D3 := (Entails.of_eq (pt_mainChunk' c (k1_off20 i 1152#32) (3072 * j + 1152) (3072 * j + 1536) ed3 (by omega) (k1_off20_inb i h4 h6 3) g).symm) $$ D3
  ihave D4 := (Entails.of_eq (pt_mainChunk' c (k1_off20 i 1536#32) (3072 * j + 1536) (3072 * j + 1920) ed4 (by omega) (k1_off20_inb i h4 h6 4) g).symm) $$ D4
  ihave D5 := (Entails.of_eq (pt_mainChunk' c (k1_off20 i 1920#32) (3072 * j + 1920) (3072 * j + 2304) ed5 (by omega) (k1_off20_inb i h4 h6 5) g).symm) $$ D5
  ihave D6 := (Entails.of_eq (pt_mainChunk' c (k1_off20 i 2304#32) (3072 * j + 2304) (3072 * j + 2688) ed6 (by omega) (k1_off20_inb i h4 h6 6) g).symm) $$ D6
  ihave D7 := (Entails.of_eq (pt_mainChunk' c (k1_off20 i 2688#32) (3072 * j + 2688) (3072 * j + 3072) ed7 (by omega) (k1_off20_inb i h4 h6 7) g).symm) $$ D7
  -- the semaphores, as the body names them
  ihave Z0 := (Entails.of_eq (congrArg (fun x => (semVal ((c : Thread nD τ), SemLoc.dma x) 0 : sProp 𝕄)) (sem_spell (k1_off19 i) s 0 es0 (k1_off19_inb i h4 h6)).symm)) $$ Z0
  ihave Z1 := (Entails.of_eq (congrArg (fun x => (semVal ((c : Thread nD τ), SemLoc.dma x) 0 : sProp 𝕄)) (sem_spell (k1_off22 i) s 1 es1 (k1_off22_inb i h4 h6)).symm)) $$ Z1
  ihave Z2 := (Entails.of_eq (congrArg (fun x => (semVal ((c : Thread nD τ), SemLoc.dma x) 0 : sProp 𝕄)) (sem_spell (k1_off24 i) s 2 es2 (k1_off24_inb i h4 h6)).symm)) $$ Z2
  ihave Z3 := (Entails.of_eq (congrArg (fun x => (semVal ((c : Thread nD τ), SemLoc.dma x) 0 : sProp 𝕄)) (sem_spell (k1_off26 i) s 3 es3 (k1_off26_inb i h4 h6)).symm)) $$ Z3
  ihave Z4 := (Entails.of_eq (congrArg (fun x => (semVal ((c : Thread nD τ), SemLoc.dma x) 0 : sProp 𝕄)) (sem_spell (k1_off28 i) s 4 es4 (k1_off28_inb i h4 h6)).symm)) $$ Z4
  ihave Z5 := (Entails.of_eq (congrArg (fun x => (semVal ((c : Thread nD τ), SemLoc.dma x) 0 : sProp 𝕄)) (sem_spell (k1_off30 i) s 5 es5 (k1_off30_inb i h4 h6)).symm)) $$ Z5
  ihave Z6 := (Entails.of_eq (congrArg (fun x => (semVal ((c : Thread nD τ), SemLoc.dma x) 0 : sProp 𝕄)) (sem_spell (k1_off32 i) s 6 es6 (k1_off32_inb i h4 h6)).symm)) $$ Z6
  ihave Z7 := (Entails.of_eq (congrArg (fun x => (semVal ((c : Thread nD τ), SemLoc.dma x) 0 : sProp 𝕄)) (sem_spell (k1_off34 i) s 7 es7 (k1_off34_inb i h4 h6)).symm)) $$ Z7
  sl_exec (disch := first | exact hA | exact hB | exact hC | exact h4 | exact h5 | exact h6 | exact h7)
  sl_step
  iapply Hk
  isplitl [H4]
  · iexists _; isplitr; · ipureintro; exact hf4
    iexact H4
  isplitl [H5]
  · iexists _; isplitr; · ipureintro; exact hf5
    iexact H5
  isplitl [H9]; · iexact H9
  isplitl [H11]; · iexact H11
  iexists _; isplitr; swap
  · -- the eight flights, over the rows' ranges
    isplitl [Z0]
    · unfold FlightX; iexists _; isplitr; swap
      · ihave Z0 := (Entails.of_eq (flight_spell c (k1_off19 i) (k1_off20 i 0#32) (k1_off21 i) s 0 (3072 * j) (3072 * j + 384) 0 (0 + 384)
          es0 ed0 rfl er0 rfl _ _ _ _ _)) $$ Z0
        iexact Z0
      · ipureintro
        exact fact_spell c _ _ ⟨j, hj32⟩ s 0 ed0 er0 _ _ g _
    isplitl [Z1]
    · unfold FlightX; iexists _; isplitr; swap
      · ihave Z1 := (Entails.of_eq (flight_spell c (k1_off22 i) (k1_off20 i 384#32) (k1_off23 i) s 1 (3072 * j + 384) (3072 * j + 384 + 384) 384 (384 + 384)
          es1 ed1 rfl er1 rfl _ _ _ _ _)) $$ Z1
        iexact Z1
      · ipureintro
        exact fact_spell c _ _ ⟨j, hj32⟩ s 1 ed1 er1 _ _ g _
    isplitl [Z2]
    · unfold FlightX; iexists _; isplitr; swap
      · ihave Z2 := (Entails.of_eq (flight_spell c (k1_off24 i) (k1_off20 i 768#32) (k1_off25 i) s 2 (3072 * j + 768) (3072 * j + 768 + 384) 768 (768 + 384)
          es2 ed2 rfl er2 rfl _ _ _ _ _)) $$ Z2
        iexact Z2
      · ipureintro
        exact fact_spell c _ _ ⟨j, hj32⟩ s 2 ed2 er2 _ _ g _
    isplitl [Z3]
    · unfold FlightX; iexists _; isplitr; swap
      · ihave Z3 := (Entails.of_eq (flight_spell c (k1_off26 i) (k1_off20 i 1152#32) (k1_off27 i) s 3 (3072 * j + 1152) (3072 * j + 1152 + 384) 1152 (1152 + 384)
          es3 ed3 rfl er3 rfl _ _ _ _ _)) $$ Z3
        iexact Z3
      · ipureintro
        exact fact_spell c _ _ ⟨j, hj32⟩ s 3 ed3 er3 _ _ g _
    isplitl [Z4]
    · unfold FlightX; iexists _; isplitr; swap
      · ihave Z4 := (Entails.of_eq (flight_spell c (k1_off28 i) (k1_off20 i 1536#32) (k1_off29 i) s 4 (3072 * j + 1536) (3072 * j + 1536 + 384) 1536 (1536 + 384)
          es4 ed4 rfl er4 rfl _ _ _ _ _)) $$ Z4
        iexact Z4
      · ipureintro
        exact fact_spell c _ _ ⟨j, hj32⟩ s 4 ed4 er4 _ _ g _
    isplitl [Z5]
    · unfold FlightX; iexists _; isplitr; swap
      · ihave Z5 := (Entails.of_eq (flight_spell c (k1_off30 i) (k1_off20 i 1920#32) (k1_off31 i) s 5 (3072 * j + 1920) (3072 * j + 1920 + 384) 1920 (1920 + 384)
          es5 ed5 rfl er5 rfl _ _ _ _ _)) $$ Z5
        iexact Z5
      · ipureintro
        exact fact_spell c _ _ ⟨j, hj32⟩ s 5 ed5 er5 _ _ g _
    isplitl [Z6]
    · unfold FlightX; iexists _; isplitr; swap
      · ihave Z6 := (Entails.of_eq (flight_spell c (k1_off32 i) (k1_off20 i 2304#32) (k1_off33 i) s 6 (3072 * j + 2304) (3072 * j + 2304 + 384) 2304 (2304 + 384)
          es6 ed6 rfl er6 rfl _ _ _ _ _)) $$ Z6
        iexact Z6
      · ipureintro
        exact fact_spell c _ _ ⟨j, hj32⟩ s 6 ed6 er6 _ _ g _
    · unfold FlightX; iexists _; isplitr; swap
      · ihave Z7 := (Entails.of_eq (flight_spell c (k1_off34 i) (k1_off20 i 2688#32) (k1_off35 i) s 7 (3072 * j + 2688) (3072 * j + 2688 + 384) 2688 (2688 + 384)
          es7 ed7 rfl er7 rfl _ _ _ _ _)) $$ Z7
        iexact Z7
      · ipureintro
        exact fact_spell c _ _ ⟨j, hj32⟩ s 7 ed7 er7 _ _ g _
  · ipureintro
    congr 1
    · exact (readAt_unit_zero _ zero2 _ _).trans hf4
    · exact whole_readAt_unit_zero cc1_scratch0 zero2 _ _
    · exact (readAt_unit_zero _ zero2 _ _).trans hf5
    · exact whole_readAt_unit_zero cc1_scratch2 zero2 _ _

end Run1

/-! ## The obligation at the first two points of pass 1 -/

section Points1a

variable (c : Dev nD) (A : Arrs (F := F) c) (Rec : Set (SemLoc sig × HIx 1)) (I : RegionInv c A)

/-- No rows of the result held: nothing. -/
theorem rows_none (f : Buf (Elt F) (mainM.view.loc (c : Thread nD τ))) :
    (iprop(emp) : sProp 𝕄) ⊢ (mainM.view.loc (c : Thread nD τ) ↦[rowRange 0 0]{fullShare} f) := by
  rw [rowRange_self, pointsTo_empty]

set_option maxHeartbeats 4000000 in
theorem point1_first (t : Fin cfg1.N) (h33 : t.val = 33) : PointObl c A Rec I t := by
  unfold PointObl bodyPre bodyPost bodyAt1
  simp only [before_eq]
  rw [show (pdat c A Rec I).Φ t.castSucc = Φ c A I t.val from rfl, show (pdat c A Rec I).Φ t.succ = Φ c A I (t.val + 1) from rfl,
    show (pdat c A Rec I).owesAt (none : HIx 1) t.succ = (pdat c A Rec I).owesAt (none : HIx 1) t.castSucc from rfl]
  rw [Φ_idle c A I t.val (by omega), Φ_fly c A I (t.val + 1) (by omega) (by omega), show t.val + 1 - 33 = 1 from by omega, fly_one,
    FlightB_lt c A I (1 - 1) (by decide), idleSlot_eq]
  unfold scr idle
  rw [sems0_eq]
  iintro ⟨⟨⟨⟨%hv, H9, %hhv⟩, ⟨%sv, H10, %hs⟩, ⟨%l, H11, %hl⟩⟩, ⟨%f, Hm, -⟩, ⟨%q, Hr⟩, Z0, Z1, Z2, Z3, Z4, Z5, Z6, Z7, Y0, Y1, Y2, Y3, Y4, Y5, Y6, Y7⟩, Ho, ⟨%d0, H0⟩, ⟨%d1, H1⟩, ⟨%d2, H2⟩, ⟨%d3, H3⟩, ⟨%d4, H4⟩, ⟨%d5, H5⟩⟩
  -- the result's rows: block 0's and the rest; the ring's slots
  ihave Hm := (Entails.of_eq (main_rows c f)) $$ Hm
  ihave Hm := (rows_split c (a := 0) (b := 3072) (d := 100000) (by omega) (by omega) f).1 $$ Hm
  icases Hm with ⟨Hblk, Hrest⟩
  ihave Hr := (ring_slots c q).1 $$ Hr
  icases Hr with ⟨Hs0, Hs1⟩
  iapply (run1_lo c (grid1.coords t) _ _ _ _ _ _ _ _ _ _ _ _ 0 (by rw [coords1, h33]) 0 rfl (by decide)
    (fun hc => by have := (hcA t).mp hc; omega) (fun hc => by have := (hcB t).mp hc; omega) (fun hc => by have := (hcC t).mp hc; omega)
    ((hc4 t).mpr (by omega)) (fun hc => by have := (hc5 t).mp hc; omega) ((hc6 t).mpr (by omega)) (fun hc => by have := (hc7 t).mp hc; omega)
    (stg c A 4 t d4) (stg c A 5 t d5) hv l q f _)
  isplitl [H4]; · iexact H4
  isplitl [H5]; · iexact H5
  isplitl [H9]; · iexact H9
  isplitl [H11]; · iexact H11
  isplitl [Hs0]; · iexact Hs0
  isplitl [Hblk]; · iexact Hblk
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  iintro ⟨H4, H5, H9, H11, ⟨%P, %hP, F0, F1, F2, F3, F4, F5, F6, F7⟩⟩
  isplitl [H9 H10 H11 Hrest Hs1 Y0 Y1 Y2 Y3 Y4 Y5 Y6 Y7 F0 F1 F2 F3 F4 F5 F6 F7]
  · isplitl [H9 H10 H11]
    · isplitl [H9]
      · iexists hv; isplitl [H9]; · iexact H9
        ipureintro; intro _; exact hhv (by omega)
      isplitl [H10]
      · iexists sv; isplitl [H10]; · iexact H10
        ipureintro; intro _
        have hs' := hs (by omega)
        rw [min_eq_right (by omega : 32 ≤ t.val)] at hs'
        rw [min_eq_right (by omega : 32 ≤ t.val + 1)]; exact hs'
      · iexists l; isplitl [H11]; · iexact H11
        ipureintro; intro _; exact hl (by omega)
    isplitr
    · iexists f; isplitl []
      · iapply (rows_none c f); iempintro
      · ipureintro; intro b r hb; omega
    isplitl [Hrest]; · iexists f; iexact Hrest
    isplitl [Hs1 Y0 Y1 Y2 Y3 Y4 Y5 Y6 Y7]
    · isplitl [Hs1]; · iexists q; iexact Hs1
      isplitl [Y0]; · iexact Y0
      isplitl [Y1]; · iexact Y1
      isplitl [Y2]; · iexact Y2
      isplitl [Y3]; · iexact Y3
      isplitl [Y4]; · iexact Y4
      isplitl [Y5]; · iexact Y5
      isplitl [Y6]; · iexact Y6
      iexact Y7
    isplitl [F0]; · iapply (flightX_C c A I t ⟨0, Nat.zero_lt_succ 31⟩ (by rw [h33]; rfl) 0 rfl 0 d4 d5 hv l (hhv (by omega)) (hl (by omega)) q P hP) $$ F0
    isplitl [F1]; · iapply (flightX_C c A I t ⟨0, Nat.zero_lt_succ 31⟩ (by rw [h33]; rfl) 0 rfl 1 d4 d5 hv l (hhv (by omega)) (hl (by omega)) q P hP) $$ F1
    isplitl [F2]; · iapply (flightX_C c A I t ⟨0, Nat.zero_lt_succ 31⟩ (by rw [h33]; rfl) 0 rfl 2 d4 d5 hv l (hhv (by omega)) (hl (by omega)) q P hP) $$ F2
    isplitl [F3]; · iapply (flightX_C c A I t ⟨0, Nat.zero_lt_succ 31⟩ (by rw [h33]; rfl) 0 rfl 3 d4 d5 hv l (hhv (by omega)) (hl (by omega)) q P hP) $$ F3
    isplitl [F4]; · iapply (flightX_C c A I t ⟨0, Nat.zero_lt_succ 31⟩ (by rw [h33]; rfl) 0 rfl 4 d4 d5 hv l (hhv (by omega)) (hl (by omega)) q P hP) $$ F4
    isplitl [F5]; · iapply (flightX_C c A I t ⟨0, Nat.zero_lt_succ 31⟩ (by rw [h33]; rfl) 0 rfl 5 d4 d5 hv l (hhv (by omega)) (hl (by omega)) q P hP) $$ F5
    isplitl [F6]; · iapply (flightX_C c A I t ⟨0, Nat.zero_lt_succ 31⟩ (by rw [h33]; rfl) 0 rfl 6 d4 d5 hv l (hhv (by omega)) (hl (by omega)) q P hP) $$ F6
    iapply (flightX_C c A I t ⟨0, Nat.zero_lt_succ 31⟩ (by rw [h33]; rfl) 0 rfl 7 d4 d5 hv l (hhv (by omega)) (hl (by omega)) q P hP) $$ F7
  isplitl [Ho]; · iexact Ho
  isplitl [H0]; · iapply (owns_after c A Rec I 0 (fun _ _ => rfl) t d0 _) $$ H0
  isplitl [H1]; · iapply (owns_after c A Rec I 1 (fun _ _ => rfl) t d1 _) $$ H1
  isplitl [H2]; · iapply (owns_after c A Rec I 2 (fun _ _ => rfl) t d2 _) $$ H2
  isplitl [H3]; · iapply (owns_after c A Rec I 3 (fun _ _ => rfl) t d3 _) $$ H3
  isplitl [H4]; · iexists d4; iapply (owns_fill_cut c A Rec I 4 t d4 _) $$ H4
  iexists d5; iapply (owns_fill_cut c A Rec I 5 t d5 _) $$ H5

end Points1a

section Points1b

variable (c : Dev nD) (A : Arrs (F := F) c) (Rec : Set (SemLoc sig × HIx 1)) (I : RegionInv c A)

set_option maxHeartbeats 4000000 in
theorem point1_second (t : Fin cfg1.N) (h34 : t.val = 34) : PointObl c A Rec I t := by
  unfold PointObl bodyPre bodyPost bodyAt1
  simp only [before_eq]
  rw [show (pdat c A Rec I).Φ t.castSucc = Φ c A I t.val from rfl, show (pdat c A Rec I).Φ t.succ = Φ c A I (t.val + 1) from rfl,
    show (pdat c A Rec I).owesAt (none : HIx 1) t.succ = (pdat c A Rec I).owesAt (none : HIx 1) t.castSucc from rfl]
  rw [Φ_fly c A I t.val (by omega) (by omega), Φ_fly c A I (t.val + 1) (by omega) (by omega), show t.val - 33 = 1 from by omega,
    show t.val + 1 - 33 = 2 from by omega, fly_one, fly_ge c A I 2 (by decide), idleSlot_eq, FlightB_lt c A I (2 - 1) (by decide)]
  unfold scr
  iintro ⟨⟨⟨⟨%hv, H9, %hhv⟩, ⟨%sv, H10, %hs⟩, ⟨%l, H11, %hl⟩⟩, ⟨%f0, Hl, -⟩, ⟨%f, Hu⟩, ⟨⟨%q, Hs1⟩, Y0, Y1, Y2, Y3, Y4, Y5, Y6, Y7⟩, HB0⟩, Ho, ⟨%d0, H0⟩, ⟨%d1, H1⟩, ⟨%d2, H2⟩, ⟨%d3, H3⟩, ⟨%d4, H4⟩, ⟨%d5, H5⟩⟩
  -- the untouched rows: block 1's and the rest
  ihave Hu := (rows_split c (a := 3072 * 1) (b := 3072 * 1 + 3072) (d := 100000) (by omega) (by omega) f).1 $$ Hu
  icases Hu with ⟨Hblk, Hrest⟩
  iapply (run1_lo c (grid1.coords t) _ _ _ _ _ _ _ _ _ _ _ _ 1 (by rw [coords1, h34]) 1 rfl (by decide)
    (fun hc => by have := (hcA t).mp hc; omega) (fun hc => by have := (hcB t).mp hc; omega) (fun hc => by have := (hcC t).mp hc; omega)
    ((hc4 t).mpr (by omega)) (fun hc => by have := (hc5 t).mp hc; omega) ((hc6 t).mpr (by omega)) (fun hc => by have := (hc7 t).mp hc; omega)
    (stg c A 4 t d4) (stg c A 5 t d5) hv l q f _)
  isplitl [H4]; · iexact H4
  isplitl [H5]; · iexact H5
  isplitl [H9]; · iexact H9
  isplitl [H11]; · iexact H11
  isplitl [Hs1]; · iexact Hs1
  isplitl [Hblk]; · iexact Hblk
  isplitl [Y0]; · iexact Y0
  isplitl [Y1]; · iexact Y1
  isplitl [Y2]; · iexact Y2
  isplitl [Y3]; · iexact Y3
  isplitl [Y4]; · iexact Y4
  isplitl [Y5]; · iexact Y5
  isplitl [Y6]; · iexact Y6
  isplitl [Y7]; · iexact Y7
  iintro ⟨H4, H5, H9, H11, ⟨%P, %hP, F0, F1, F2, F3, F4, F5, F6, F7⟩⟩
  isplitl [H9 H10 H11 Hl Hrest HB0 F0 F1 F2 F3 F4 F5 F6 F7]
  · isplitl [H9 H10 H11]
    · isplitl [H9]
      · iexists hv; isplitl [H9]; · iexact H9
        ipureintro; intro _; exact hhv (by omega)
      isplitl [H10]
      · iexists sv; isplitl [H10]; · iexact H10
        ipureintro; intro _
        have hs' := hs (by omega)
        rw [min_eq_right (by omega : 32 ≤ t.val)] at hs'
        rw [min_eq_right (by omega : 32 ≤ t.val + 1)]; exact hs'
      · iexists l; isplitl [H11]; · iexact H11
        ipureintro; intro _; exact hl (by omega)
    isplitl [Hl]
    · iexists f0; isplitl [Hl]; · iexact Hl
      ipureintro; intro b r hb; omega
    isplitl [Hrest]; · iexists f; iexact Hrest
    isplitl [HB0]; · iexact HB0
    isplitl [F0]; · iapply (flightX_C c A I t ⟨1, Nat.succ_lt_succ (Nat.zero_lt_succ 30)⟩ (by rw [h34]; rfl) 1 rfl 0 d4 d5 hv l (hhv (by omega)) (hl (by omega)) q P hP) $$ F0
    isplitl [F1]; · iapply (flightX_C c A I t ⟨1, Nat.succ_lt_succ (Nat.zero_lt_succ 30)⟩ (by rw [h34]; rfl) 1 rfl 1 d4 d5 hv l (hhv (by omega)) (hl (by omega)) q P hP) $$ F1
    isplitl [F2]; · iapply (flightX_C c A I t ⟨1, Nat.succ_lt_succ (Nat.zero_lt_succ 30)⟩ (by rw [h34]; rfl) 1 rfl 2 d4 d5 hv l (hhv (by omega)) (hl (by omega)) q P hP) $$ F2
    isplitl [F3]; · iapply (flightX_C c A I t ⟨1, Nat.succ_lt_succ (Nat.zero_lt_succ 30)⟩ (by rw [h34]; rfl) 1 rfl 3 d4 d5 hv l (hhv (by omega)) (hl (by omega)) q P hP) $$ F3
    isplitl [F4]; · iapply (flightX_C c A I t ⟨1, Nat.succ_lt_succ (Nat.zero_lt_succ 30)⟩ (by rw [h34]; rfl) 1 rfl 4 d4 d5 hv l (hhv (by omega)) (hl (by omega)) q P hP) $$ F4
    isplitl [F5]; · iapply (flightX_C c A I t ⟨1, Nat.succ_lt_succ (Nat.zero_lt_succ 30)⟩ (by rw [h34]; rfl) 1 rfl 5 d4 d5 hv l (hhv (by omega)) (hl (by omega)) q P hP) $$ F5
    isplitl [F6]; · iapply (flightX_C c A I t ⟨1, Nat.succ_lt_succ (Nat.zero_lt_succ 30)⟩ (by rw [h34]; rfl) 1 rfl 6 d4 d5 hv l (hhv (by omega)) (hl (by omega)) q P hP) $$ F6
    iapply (flightX_C c A I t ⟨1, Nat.succ_lt_succ (Nat.zero_lt_succ 30)⟩ (by rw [h34]; rfl) 1 rfl 7 d4 d5 hv l (hhv (by omega)) (hl (by omega)) q P hP) $$ F7
  isplitl [Ho]; · iexact Ho
  isplitl [H0]; · iapply (owns_after c A Rec I 0 (fun _ _ => rfl) t d0 _) $$ H0
  isplitl [H1]; · iapply (owns_after c A Rec I 1 (fun _ _ => rfl) t d1 _) $$ H1
  isplitl [H2]; · iapply (owns_after c A Rec I 2 (fun _ _ => rfl) t d2 _) $$ H2
  isplitl [H3]; · iapply (owns_after c A Rec I 3 (fun _ _ => rfl) t d3 _) $$ H3
  isplitl [H4]; · iexists d4; iapply (owns_fill_cut c A Rec I 4 t d4 _) $$ H4
  iexists d5; iapply (owns_fill_cut c A Rec I 5 t d5 _) $$ H5

end Points1b

end Cert.Proof.KernelIdeal

end
-- ==== Proof.KernelIdeal.RegionBody1b.lean ====
/-
  The TensorCore region's body at the points of pass 1 that wait for the copies started two points before on
  their slot, store their block's outputs into it and start the block's copies.
-/
import proofs.«204087_g3891240370374_cont_8to1_b_1678_29_alg».proof.Proof.KernelIdeal.RegionPoint
import proofs.«204087_g3891240370374_cont_8to1_b_1678_29_alg».proof.Proof.KernelIdeal.RegionPhi
import proofs.«204087_g3891240370374_cont_8to1_b_1678_29_alg».proof.Proof.KernelIdeal.RegionJoins

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

section Run1

set_option maxHeartbeats 16000000 in
/-- A point of pass 1 that waits for the eight copies started two points before on its slot, stores its block's
    outputs into the slot, and starts the block's eight copies. -/
theorem run1_mid (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S128x64 .f32) (harg4 : arg4.IsWhole) (arg5 : Memref sig .tc .vmem S128x1 .f32) (harg5 : arg5.IsWhole) (arg6 : Memref sig .tc .vmem S3072x128 .f32) (harg6 : arg6.IsWhole) (arg7 : Memref sig .tc .vmem S1x3072 .f32) (harg7 : arg7.IsWhole)
    (j : ℕ) (hj : (i 1).val = j) (s : Fin 2) (hs : j % 2 = s.val) (hj32 : j < 32)
    (hA : ¬cA i) (hB : ¬cB i) (hC : ¬cC i) (h4 : k1_cond4 i = 1#1) (h5 : k1_cond5 i = 1#1) (h6 : k1_cond6 i = 1#1) (h7 : ¬k1_cond7 i = 1#1)
    (X4 : Vec F S3072x128 .f32) (X5 : Vec F S1x3072 .f32) (ht : Vec F S128x1024 .bf16) (l : Vec F S1x1024 .f32)
    (SD : Fin 8 → Finset S100000x1024.Idx) (gd : Fin 8 → Buf (Elt F) (mainM.view.loc (c : Thread nD τ)))
    (qs : Fin 8 → Buf (Elt F) (ringM.view.loc (c : Thread nD τ))) (g : Buf (Elt F) (mainM.view.loc (c : Thread nD τ)))
    (W : Waits sig (HIx 1)) (K : PUnit → sProp 𝕄) :
    iprop(owns (c : Thread nD τ) arg6 fullShare X4 ∗ owns (c : Thread nD τ) arg7 fullShare X5
        ∗ ((Memref.whole cc1_scratch0).view.loc (c : Thread nD τ) ↦{fullShare} ht)
        ∗ ((Memref.whole cc1_scratch2).view.loc (c : Thread nD τ) ↦{fullShare} l)
        ∗ owes (c : Thread nD τ) 0 W
        ∗ (mainM.view.loc (c : Thread nD τ) ↦[rowRange (3072 * j) (3072 * j + 3072)]{fullShare} g)
        ∗ Transfers.Flight EC (c : Thread nD τ) (.dma (rsem s 0)) (none : HIx 1) 49152
            iprop((mainM.view.loc (c : Thread nD τ) ↦[SD 0]{fullShare} gd 0) ∗ (ringM.view.loc (c : Thread nD τ) ↦[ringRange s.val 0 384]{fullShare} qs 0))
        ∗ Transfers.Flight EC (c : Thread nD τ) (.dma (rsem s 1)) (none : HIx 1) 49152
            iprop((mainM.view.loc (c : Thread nD τ) ↦[SD 1]{fullShare} gd 1) ∗ (ringM.view.loc (c : Thread nD τ) ↦[ringRange s.val 384 768]{fullShare} qs 1))
        ∗ Transfers.Flight EC (c : Thread nD τ) (.dma (rsem s 2)) (none : HIx 1) 49152
            iprop((mainM.view.loc (c : Thread nD τ) ↦[SD 2]{fullShare} gd 2) ∗ (ringM.view.loc (c : Thread nD τ) ↦[ringRange s.val 768 1152]{fullShare} qs 2))
        ∗ Transfers.Flight EC (c : Thread nD τ) (.dma (rsem s 3)) (none : HIx 1) 49152
            iprop((mainM.view.loc (c : Thread nD τ) ↦[SD 3]{fullShare} gd 3) ∗ (ringM.view.loc (c : Thread nD τ) ↦[ringRange s.val 1152 1536]{fullShare} qs 3))
        ∗ Transfers.Flight EC (c : Thread nD τ) (.dma (rsem s 4)) (none : HIx 1) 49152
            iprop((mainM.view.loc (c : Thread nD τ) ↦[SD 4]{fullShare} gd 4) ∗ (ringM.view.loc (c : Thread nD τ) ↦[ringRange s.val 1536 1920]{fullShare} qs 4))
        ∗ Transfers.Flight EC (c : Thread nD τ) (.dma (rsem s 5)) (none : HIx 1) 49152
            iprop((mainM.view.loc (c : Thread nD τ) ↦[SD 5]{fullShare} gd 5) ∗ (ringM.view.loc (c : Thread nD τ) ↦[ringRange s.val 1920 2304]{fullShare} qs 5))
        ∗ Transfers.Flight EC (c : Thread nD τ) (.dma (rsem s 6)) (none : HIx 1) 49152
            iprop((mainM.view.loc (c : Thread nD τ) ↦[SD 6]{fullShare} gd 6) ∗ (ringM.view.loc (c : Thread nD τ) ↦[ringRange s.val 2304 2688]{fullShare} qs 6))
        ∗ Transfers.Flight EC (c : Thread nD τ) (.dma (rsem s 7)) (none : HIx 1) 49152
            iprop((mainM.view.loc (c : Thread nD τ) ↦[SD 7]{fullShare} gd 7) ∗ (ringM.view.loc (c : Thread nD τ) ↦[ringRange s.val 2688 3072]{fullShare} qs 7))
        ∗ (iprop(owns (c : Thread nD τ) arg6 fullShare X4 ∗ owns (c : Thread nD τ) arg7 fullShare X5
            ∗ ((Memref.whole cc1_scratch0).view.loc (c : Thread nD τ) ↦{fullShare} ht)
            ∗ ((Memref.whole cc1_scratch2).view.loc (c : Thread nD τ) ↦{fullShare} l)
            ∗ (∃ W' : Waits sig (HIx 1), ⌜∀ p ∈ W', p ∈ W ∨ p.2 = none⌝ ∗ owes (c : Thread nD τ) 0 W')
            ∗ (mainM.view.loc (c : Thread nD τ) ↦[SD 0]{fullShare} gd 0) ∗ (mainM.view.loc (c : Thread nD τ) ↦[SD 1]{fullShare} gd 1) ∗ (mainM.view.loc (c : Thread nD τ) ↦[SD 2]{fullShare} gd 2) ∗ (mainM.view.loc (c : Thread nD τ) ↦[SD 3]{fullShare} gd 3) ∗ (mainM.view.loc (c : Thread nD τ) ↦[SD 4]{fullShare} gd 4) ∗ (mainM.view.loc (c : Thread nD τ) ↦[SD 5]{fullShare} gd 5) ∗ (mainM.view.loc (c : Thread nD τ) ↦[SD 6]{fullShare} gd 6) ∗ (mainM.view.loc (c : Thread nD τ) ↦[SD 7]{fullShare} gd 7)
            ∗ (∃ q P, ⌜P = k1_pay6 X4 ht X5 l⌝ ∗ FlightX c ⟨j, hj32⟩ s 0 (slotW c s q P) ∗ FlightX c ⟨j, hj32⟩ s 1 (slotW c s q P) ∗ FlightX c ⟨j, hj32⟩ s 2 (slotW c s q P) ∗ FlightX c ⟨j, hj32⟩ s 3 (slotW c s q P) ∗ FlightX c ⟨j, hj32⟩ s 4 (slotW c s q P) ∗ FlightX c ⟨j, hj32⟩ s 5 (slotW c s q P) ∗ FlightX c ⟨j, hj32⟩ s 6 (slotW c s q P) ∗ FlightX c ⟨j, hj32⟩ s 7 (slotW c s q P))) -∗ K ⟨⟩))
      ⊢ wp frame (wpE (defs₀ (F := F)) 𝒱₀ (c : Thread nD τ) none) Set.univ
          (cc1__fused_body i arg2 harg2 arg3 harg3 arg4 harg4 arg5 harg5 arg6 harg6 arg7 harg7 (Memref.whole main_v9) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4) K := by
  have hsv : (i 1).val % 2 = s.val := by rw [hj]; exact hs
  have e18 : k1_off18 i = ![s.val, 0, 0] := by rw [k1_off18_eq, hsv]
  have ed0 : k1_off20 i 0#32 = ![3072 * j, 0] := by rw [← hj]; exact k1_off20_eq i ⟨0, by decide⟩
  have er0 : k1_off21 i = ![s.val, 0, 0] := by rw [k1_off21_eq, hsv]
  have es0 : k1_off19 i = ![s.val, 0] := by rw [k1_off19_eq, hsv]
  have ed1 : k1_off20 i 384#32 = ![3072 * j + 384, 0] := by rw [← hj]; exact k1_off20_eq i ⟨1, by decide⟩
  have er1 : k1_off23 i = ![s.val, 384, 0] := by rw [k1_off23_eq, hsv]
  have es1 : k1_off22 i = ![s.val, 1] := by rw [k1_off22_eq, hsv]
  have ed2 : k1_off20 i 768#32 = ![3072 * j + 768, 0] := by rw [← hj]; exact k1_off20_eq i ⟨2, by decide⟩
  have er2 : k1_off25 i = ![s.val, 768, 0] := by rw [k1_off25_eq, hsv]
  have es2 : k1_off24 i = ![s.val, 2] := by rw [k1_off24_eq, hsv]
  have ed3 : k1_off20 i 1152#32 = ![3072 * j + 1152, 0] := by rw [← hj]; exact k1_off20_eq i ⟨3, by decide⟩
  have er3 : k1_off27 i = ![s.val, 1152, 0] := by rw [k1_off27_eq, hsv]
  have es3 : k1_off26 i = ![s.val, 3] := by rw [k1_off26_eq, hsv]
  have ed4 : k1_off20 i 1536#32 = ![3072 * j + 1536, 0] := by rw [← hj]; exact k1_off20_eq i ⟨4, by decide⟩
  have er4 : k1_off29 i = ![s.val, 1536, 0] := by rw [k1_off29_eq, hsv]
  have es4 : k1_off28 i = ![s.val, 4] := by rw [k1_off28_eq, hsv]
  have ed5 : k1_off20 i 1920#32 = ![3072 * j + 1920, 0] := by rw [← hj]; exact k1_off20_eq i ⟨5, by decide⟩
  have er5 : k1_off31 i = ![s.val, 1920, 0] := by rw [k1_off31_eq, hsv]
  have es5 : k1_off30 i = ![s.val, 5] := by rw [k1_off30_eq, hsv]
  have ed6 : k1_off20 i 2304#32 = ![3072 * j + 2304, 0] := by rw [← hj]; exact k1_off20_eq i ⟨6, by decide⟩
  have er6 : k1_off33 i = ![s.val, 2304, 0] := by rw [k1_off33_eq, hsv]
  have es6 : k1_off32 i = ![s.val, 6] := by rw [k1_off32_eq, hsv]
  have ed7 : k1_off20 i 2688#32 = ![3072 * j + 2688, 0] := by rw [← hj]; exact k1_off20_eq i ⟨7, by decide⟩
  have er7 : k1_off35 i = ![s.val, 2688, 0] := by rw [k1_off35_eq, hsv]
  have es7 : k1_off34 i = ![s.val, 7] := by rw [k1_off34_eq, hsv]
  have ew0 : k1_off1 i = ![s.val, 0] := by rw [k1_off1_eq, hsv]
  have ew1 : k1_off4 i = ![s.val, 1] := by rw [k1_off4_eq, hsv]
  have ew2 : k1_off6 i = ![s.val, 2] := by rw [k1_off6_eq, hsv]
  have ew3 : k1_off8 i = ![s.val, 3] := by rw [k1_off8_eq, hsv]
  have ew4 : k1_off10 i = ![s.val, 4] := by rw [k1_off10_eq, hsv]
  have ew5 : k1_off12 i = ![s.val, 5] := by rw [k1_off12_eq, hsv]
  have ew6 : k1_off14 i = ![s.val, 6] := by rw [k1_off14_eq, hsv]
  have ew7 : k1_off16 i = ![s.val, 7] := by rw [k1_off16_eq, hsv]
  rw [cc1__fused_body_eq_skeleton]; unfold cc1__fused_body_skel
  unfold owns
  iintro ⟨⟨%f4, %hf4, H4⟩, ⟨%f5, %hf5, H5⟩, H9, H11, Ho, Hblk, W0, W1, W2, W3, W4, W5, W6, W7, Hk⟩
  obtain rfl := harg6.eq_unread hf4
  obtain rfl := harg7.eq_unread hf5
  -- the flights' semaphores, as the waits name them
  ihave W0 := (Entails.of_eq (congrArg (fun x => (Transfers.Flight EC (c : Thread nD τ) (SemLoc.dma x) (none : HIx 1) 49152
      iprop((mainM.view.loc (c : Thread nD τ) ↦[SD 0]{fullShare} gd 0) ∗ (ringM.view.loc (c : Thread nD τ) ↦[ringRange s.val 0 384]{fullShare} qs 0)) : sProp 𝕄))
    (sem_spell (k1_off1 i) s 0 ew0 (k1_off1_inb i h4 h5)).symm)) $$ W0
  ihave W1 := (Entails.of_eq (congrArg (fun x => (Transfers.Flight EC (c : Thread nD τ) (SemLoc.dma x) (none : HIx 1) 49152
      iprop((mainM.view.loc (c : Thread nD τ) ↦[SD 1]{fullShare} gd 1) ∗ (ringM.view.loc (c : Thread nD τ) ↦[ringRange s.val 384 768]{fullShare} qs 1)) : sProp 𝕄))
    (sem_spell (k1_off4 i) s 1 ew1 (k1_off4_inb i h4 h5)).symm)) $$ W1
  ihave W2 := (Entails.of_eq (congrArg (fun x => (Transfers.Flight EC (c : Thread nD τ) (SemLoc.dma x) (none : HIx 1) 49152
      iprop((mainM.view.loc (c : Thread nD τ) ↦[SD 2]{fullShare} gd 2) ∗ (ringM.view.loc (c : Thread nD τ) ↦[ringRange s.val 768 1152]{fullShare} qs 2)) : sProp 𝕄))
    (sem_spell (k1_off6 i) s 2 ew2 (k1_off6_inb i h4 h5)).symm)) $$ W2
  ihave W3 := (Entails.of_eq (congrArg (fun x => (Transfers.Flight EC (c : Thread nD τ) (SemLoc.dma x) (none : HIx 1) 49152
      iprop((mainM.view.loc (c : Thread nD τ) ↦[SD 3]{fullShare} gd 3) ∗ (ringM.view.loc (c : Thread nD τ) ↦[ringRange s.val 1152 1536]{fullShare} qs 3)) : sProp 𝕄))
    (sem_spell (k1_off8 i) s 3 ew3 (k1_off8_inb i h4 h5)).symm)) $$ W3
  ihave W4 := (Entails.of_eq (congrArg (fun x => (Transfers.Flight EC (c : Thread nD τ) (SemLoc.dma x) (none : HIx 1) 49152
      iprop((mainM.view.loc (c : Thread nD τ) ↦[SD 4]{fullShare} gd 4) ∗ (ringM.view.loc (c : Thread nD τ) ↦[ringRange s.val 1536 1920]{fullShare} qs 4)) : sProp 𝕄))
    (sem_spell (k1_off10 i) s 4 ew4 (k1_off10_inb i h4 h5)).symm)) $$ W4
  ihave W5 := (Entails.of_eq (congrArg (fun x => (Transfers.Flight EC (c : Thread nD τ) (SemLoc.dma x) (none : HIx 1) 49152
      iprop((mainM.view.loc (c : Thread nD τ) ↦[SD 5]{fullShare} gd 5) ∗ (ringM.view.loc (c : Thread nD τ) ↦[ringRange s.val 1920 2304]{fullShare} qs 5)) : sProp 𝕄))
    (sem_spell (k1_off12 i) s 5 ew5 (k1_off12_inb i h4 h5)).symm)) $$ W5
  ihave W6 := (Entails.of_eq (congrArg (fun x => (Transfers.Flight EC (c : Thread nD τ) (SemLoc.dma x) (none : HIx 1) 49152
      iprop((mainM.view.loc (c : Thread nD τ) ↦[SD 6]{fullShare} gd 6) ∗ (ringM.view.loc (c : Thread nD τ) ↦[ringRange s.val 2304 2688]{fullShare} qs 6)) : sProp 𝕄))
    (sem_spell (k1_off14 i) s 6 ew6 (k1_off14_inb i h4 h5)).symm)) $$ W6
  ihave W7 := (Entails.of_eq (congrArg (fun x => (Transfers.Flight EC (c : Thread nD τ) (SemLoc.dma x) (none : HIx 1) 49152
      iprop((mainM.view.loc (c : Thread nD τ) ↦[SD 7]{fullShare} gd 7) ∗ (ringM.view.loc (c : Thread nD τ) ↦[ringRange s.val 2688 3072]{fullShare} qs 7)) : sProp 𝕄))
    (sem_spell (k1_off16 i) s 7 ew7 (k1_off16_inb i h4 h5)).symm)) $$ W7
  (set_option sl_exec.stopBefore "k1_cond6" in sl_exec (disch := first | exact hA | exact hB | exact hC | exact h4 | exact h5 | exact h6 | exact h7))

  -- the slot's eight chunks are back: the slot, as the body names it
  ihave Hj := (slot_join c s.val _ _ _ _ _ _ _ _) $$ [W0_src W1_src W2_src W3_src W4_src W5_src W6_src W7_src]
  · isplitl [W0_src]; · iexact W0_src
    isplitl [W1_src]; · iexact W1_src
    isplitl [W2_src]; · iexact W2_src
    isplitl [W3_src]; · iexact W3_src
    isplitl [W4_src]; · iexact W4_src
    isplitl [W5_src]; · iexact W5_src
    isplitl [W6_src]; · iexact W6_src
    iexact W7_src
  icases Hj with ⟨%q, Hslot⟩
  ihave Hslot := (Entails.of_eq (pt_ringSlot c (k1_off18 i) s.val e18 (k1_off18_inb i h4) q).symm) $$ Hslot
  (set_option sl_exec.stopBefore "k1_cond6" in sl_exec (disch := first | exact hA | exact hB | exact hC | exact h4 | exact h5 | exact h6 | exact h7))

  unfold run1_mid.sl.Hslot_w1
  -- the slot back over its rows, cut into the chunks the copies read
  ihave Hslot := (Entails.of_eq (pt_ringSlot c (k1_off18 i) s.val e18 (k1_off18_inb i h4) _)) $$ Hslot
  ihave Hslot := (Entails.of_eq (congrArg (fun W => (ringM.view.loc (c : Thread nD τ) ↦[ringRange s.val 0 3072]{fullShare} W : sProp 𝕄))
    (slotW_spell c s (k1_off18 i) e18 (k1_off18_inb i h4) q _))) $$ Hslot
  ihave Hslot := (slot_split c s.val _) $$ Hslot
  icases Hslot with ⟨C0, C1, C2, C3, C4, C5, C6, C7⟩
  ihave C0 := (Entails.of_eq (pt_ringChunk' c (k1_off21 i) s.val 0 384 er0 (by omega) (k1_off21_inb i h4 h6) _).symm) $$ C0
  ihave C1 := (Entails.of_eq (pt_ringChunk' c (k1_off23 i) s.val 384 768 er1 (by omega) (k1_off23_inb i h4 h6) _).symm) $$ C1
  ihave C2 := (Entails.of_eq (pt_ringChunk' c (k1_off25 i) s.val 768 1152 er2 (by omega) (k1_off25_inb i h4 h6) _).symm) $$ C2
  ihave C3 := (Entails.of_eq (pt_ringChunk' c (k1_off27 i) s.val 1152 1536 er3 (by omega) (k1_off27_inb i h4 h6) _).symm) $$ C3
  ihave C4 := (Entails.of_eq (pt_ringChunk' c (k1_off29 i) s.val 1536 1920 er4 (by omega) (k1_off29_inb i h4 h6) _).symm) $$ C4
  ihave C5 := (Entails.of_eq (pt_ringChunk' c (k1_off31 i) s.val 1920 2304 er5 (by omega) (k1_off31_inb i h4 h6) _).symm) $$ C5
  ihave C6 := (Entails.of_eq (pt_ringChunk' c (k1_off33 i) s.val 2304 2688 er6 (by omega) (k1_off33_inb i h4 h6) _).symm) $$ C6
  ihave C7 := (Entails.of_eq (pt_ringChunk' c (k1_off35 i) s.val 2688 3072 er7 (by omega) (k1_off35_inb i h4 h6) _).symm) $$ C7
  -- the block's rows, cut into the chunks the copies write
  ihave Hblk := (block_split c (3072 * j) g) $$ Hblk
  icases Hblk with ⟨D0, D1, D2, D3, D4, D5, D6, D7⟩
  ihave D0 := (Entails.of_eq (pt_mainChunk' c (k1_off20 i 0#32) (3072 * j) (3072 * j + 384) ed0 (by omega) (k1_off20_inb i h4 h6 0) g).symm) $$ D0
  ihave D1 := (Entails.of_eq (pt_mainChunk' c (k1_off20 i 384#32) (3072 * j + 384) (3072 * j + 768) ed1 (by omega) (k1_off20_inb i h4 h6 1) g).symm) $$ D1
  ihave D2 := (Entails.of_eq (pt_mainChunk' c (k1_off20 i 768#32) (3072 * j + 768) (3072 * j + 1152) ed2 (by omega) (k1_off20_inb i h4 h6 2) g).symm) $$ D2
  ihave D3 := (Entails.of_eq (pt_mainChunk' c (k1_off20 i 1152#32) (3072 * j + 1152) (3072 * j + 1536) ed3 (by omega) (k1_off20_inb i h4 h6 3) g).symm) $$ D3
  ihave D4 := (Entails.of_eq (pt_mainChunk' c (k1_off20 i 1536#32) (3072 * j + 1536) (3072 * j + 1920) ed4 (by omega) (k1_off20_inb i h4 h6 4) g).symm) $$ D4
  ihave D5 := (Entails.of_eq (pt_mainChunk' c (k1_off20 i 1920#32) (3072 * j + 1920) (3072 * j + 2304) ed5 (by omega) (k1_off20_inb i h4 h6 5) g).symm) $$ D5
  ihave D6 := (Entails.of_eq (pt_mainChunk' c (k1_off20 i 2304#32) (3072 * j + 2304) (3072 * j + 2688) ed6 (by omega) (k1_off20_inb i h4 h6 6) g).symm) $$ D6
  ihave D7 := (Entails.of_eq (pt_mainChunk' c (k1_off20 i 2688#32) (3072 * j + 2688) (3072 * j + 3072) ed7 (by omega) (k1_off20_inb i h4 h6 7) g).symm) $$ D7
  -- the semaphores, from the waits' names to the starts'
  ihave W0 := (Entails.of_eq (congrArg (fun x => (semVal ((c : Thread nD τ), SemLoc.dma x) 0 : sProp 𝕄)) ((sem_spell (k1_off1 i) s 0 ew0 (k1_off1_inb i h4 h5)).trans (sem_spell (k1_off19 i) s 0 es0 (k1_off19_inb i h4 h6)).symm))) $$ W0
  ihave W1 := (Entails.of_eq (congrArg (fun x => (semVal ((c : Thread nD τ), SemLoc.dma x) 0 : sProp 𝕄)) ((sem_spell (k1_off4 i) s 1 ew1 (k1_off4_inb i h4 h5)).trans (sem_spell (k1_off22 i) s 1 es1 (k1_off22_inb i h4 h6)).symm))) $$ W1
  ihave W2 := (Entails.of_eq (congrArg (fun x => (semVal ((c : Thread nD τ), SemLoc.dma x) 0 : sProp 𝕄)) ((sem_spell (k1_off6 i) s 2 ew2 (k1_off6_inb i h4 h5)).trans (sem_spell (k1_off24 i) s 2 es2 (k1_off24_inb i h4 h6)).symm))) $$ W2
  ihave W3 := (Entails.of_eq (congrArg (fun x => (semVal ((c : Thread nD τ), SemLoc.dma x) 0 : sProp 𝕄)) ((sem_spell (k1_off8 i) s 3 ew3 (k1_off8_inb i h4 h5)).trans (sem_spell (k1_off26 i) s 3 es3 (k1_off26_inb i h4 h6)).symm))) $$ W3
  ihave W4 := (Entails.of_eq (congrArg (fun x => (semVal ((c : Thread nD τ), SemLoc.dma x) 0 : sProp 𝕄)) ((sem_spell (k1_off10 i) s 4 ew4 (k1_off10_inb i h4 h5)).trans (sem_spell (k1_off28 i) s 4 es4 (k1_off28_inb i h4 h6)).symm))) $$ W4
  ihave W5 := (Entails.of_eq (congrArg (fun x => (semVal ((c : Thread nD τ), SemLoc.dma x) 0 : sProp 𝕄)) ((sem_spell (k1_off12 i) s 5 ew5 (k1_off12_inb i h4 h5)).trans (sem_spell (k1_off30 i) s 5 es5 (k1_off30_inb i h4 h6)).symm))) $$ W5
  ihave W6 := (Entails.of_eq (congrArg (fun x => (semVal ((c : Thread nD τ), SemLoc.dma x) 0 : sProp 𝕄)) ((sem_spell (k1_off14 i) s 6 ew6 (k1_off14_inb i h4 h5)).trans (sem_spell (k1_off32 i) s 6 es6 (k1_off32_inb i h4 h6)).symm))) $$ W6
  ihave W7 := (Entails.of_eq (congrArg (fun x => (semVal ((c : Thread nD τ), SemLoc.dma x) 0 : sProp 𝕄)) ((sem_spell (k1_off16 i) s 7 ew7 (k1_off16_inb i h4 h5)).trans (sem_spell (k1_off34 i) s 7 es7 (k1_off34_inb i h4 h6)).symm))) $$ W7
  sl_exec (disch := first | exact hA | exact hB | exact hC | exact h4 | exact h5 | exact h6 | exact h7)
  sl_step
  iapply Hk
  isplitl [H4]
  · iexists _; isplitr; · ipureintro; exact hf4
    iexact H4
  isplitl [H5]
  · iexists _; isplitr; · ipureintro; exact hf5
    iexact H5
  isplitl [H9]; · iexact H9
  isplitl [H11]; · iexact H11
  isplitl [Ho]
  · iexists _; isplitr; swap; · iexact Ho
    ipureintro
    intro p hp
    simp only [Finset.mem_insert] at hp
    rcases hp with rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact .inl hp
  isplitl [W0_dst]; · iexact W0_dst
  isplitl [W1_dst]; · iexact W1_dst
  isplitl [W2_dst]; · iexact W2_dst
  isplitl [W3_dst]; · iexact W3_dst
  isplitl [W4_dst]; · iexact W4_dst
  isplitl [W5_dst]; · iexact W5_dst
  isplitl [W6_dst]; · iexact W6_dst
  isplitl [W7_dst]; · iexact W7_dst
  iexists q, _; isplitr; swap
  · -- the eight flights, over the rows' ranges
    isplitl [W0]
    · unfold FlightX; iexists _; isplitr; swap
      · ihave W0 := (Entails.of_eq (flight_spell c (k1_off19 i) (k1_off20 i 0#32) (k1_off21 i) s 0 (3072 * j) (3072 * j + 384) 0 (0 + 384)
          es0 ed0 rfl er0 rfl _ _ _ _ _)) $$ W0
        iexact W0
      · ipureintro
        exact fact_spell c _ _ ⟨j, hj32⟩ s 0 ed0 er0 _ _ g _
    isplitl [W1]
    · unfold FlightX; iexists _; isplitr; swap
      · ihave W1 := (Entails.of_eq (flight_spell c (k1_off22 i) (k1_off20 i 384#32) (k1_off23 i) s 1 (3072 * j + 384) (3072 * j + 384 + 384) 384 (384 + 384)
          es1 ed1 rfl er1 rfl _ _ _ _ _)) $$ W1
        iexact W1
      · ipureintro
        exact fact_spell c _ _ ⟨j, hj32⟩ s 1 ed1 er1 _ _ g _
    isplitl [W2]
    · unfold FlightX; iexists _; isplitr; swap
      · ihave W2 := (Entails.of_eq (flight_spell c (k1_off24 i) (k1_off20 i 768#32) (k1_off25 i) s 2 (3072 * j + 768) (3072 * j + 768 + 384) 768 (768 + 384)
          es2 ed2 rfl er2 rfl _ _ _ _ _)) $$ W2
        iexact W2
      · ipureintro
        exact fact_spell c _ _ ⟨j, hj32⟩ s 2 ed2 er2 _ _ g _
    isplitl [W3]
    · unfold FlightX; iexists _; isplitr; swap
      · ihave W3 := (Entails.of_eq (flight_spell c (k1_off26 i) (k1_off20 i 1152#32) (k1_off27 i) s 3 (3072 * j + 1152) (3072 * j + 1152 + 384) 1152 (1152 + 384)
          es3 ed3 rfl er3 rfl _ _ _ _ _)) $$ W3
        iexact W3
      · ipureintro
        exact fact_spell c _ _ ⟨j, hj32⟩ s 3 ed3 er3 _ _ g _
    isplitl [W4]
    · unfold FlightX; iexists _; isplitr; swap
      · ihave W4 := (Entails.of_eq (flight_spell c (k1_off28 i) (k1_off20 i 1536#32) (k1_off29 i) s 4 (3072 * j + 1536) (3072 * j + 1536 + 384) 1536 (1536 + 384)
          es4 ed4 rfl er4 rfl _ _ _ _ _)) $$ W4
        iexact W4
      · ipureintro
        exact fact_spell c _ _ ⟨j, hj32⟩ s 4 ed4 er4 _ _ g _
    isplitl [W5]
    · unfold FlightX; iexists _; isplitr; swap
      · ihave W5 := (Entails.of_eq (flight_spell c (k1_off30 i) (k1_off20 i 1920#32) (k1_off31 i) s 5 (3072 * j + 1920) (3072 * j + 1920 + 384) 1920 (1920 + 384)
          es5 ed5 rfl er5 rfl _ _ _ _ _)) $$ W5
        iexact W5
      · ipureintro
        exact fact_spell c _ _ ⟨j, hj32⟩ s 5 ed5 er5 _ _ g _
    isplitl [W6]
    · unfold FlightX; iexists _; isplitr; swap
      · ihave W6 := (Entails.of_eq (flight_spell c (k1_off32 i) (k1_off20 i 2304#32) (k1_off33 i) s 6 (3072 * j + 2304) (3072 * j + 2304 + 384) 2304 (2304 + 384)
          es6 ed6 rfl er6 rfl _ _ _ _ _)) $$ W6
        iexact W6
      · ipureintro
        exact fact_spell c _ _ ⟨j, hj32⟩ s 6 ed6 er6 _ _ g _
    · unfold FlightX; iexists _; isplitr; swap
      · ihave W7 := (Entails.of_eq (flight_spell c (k1_off34 i) (k1_off20 i 2688#32) (k1_off35 i) s 7 (3072 * j + 2688) (3072 * j + 2688 + 384) 2688 (2688 + 384)
          es7 ed7 rfl er7 rfl _ _ _ _ _)) $$ W7
        iexact W7
      · ipureintro
        exact fact_spell c _ _ ⟨j, hj32⟩ s 7 ed7 er7 _ _ g _
  · ipureintro
    congr 1
    · exact (readAt_unit_zero _ zero2 _ _).trans hf4
    · exact whole_readAt_unit_zero cc1_scratch0 zero2 _ _
    · exact (readAt_unit_zero _ zero2 _ _).trans hf5
    · exact whole_readAt_unit_zero cc1_scratch2 zero2 _ _

end Run1

/-! ## The obligation at the points of pass 1 that wait, store and start -/

section Points1mid

variable (c : Dev nD) (A : Arrs (F := F) c) (Rec : Set (SemLoc sig × HIx 1)) (I : RegionInv c A)

set_option maxHeartbeats 8000000 in
theorem point1_mid (hRec : ∀ sm : SemLoc sig, (sm, (none : HIx 1)) ∈ Rec) (t : Fin cfg1.N) (h35 : 35 ≤ t.val) (h64 : t.val ≤ 64) :
    PointObl c A Rec I t := by
  obtain ⟨j, hj⟩ : ∃ j, t.val = 33 + j := ⟨t.val - 33, by omega⟩
  have hj2 : 2 ≤ j := by omega
  have hj31 : j ≤ 31 := by omega
  have hj2lt : j - 2 < 32 := by omega
  have hjlt : j < 32 := by omega
  have hslot : slotOf (j - 2) = slotOf j := Fin.ext (by show (j - 2) % 2 = j % 2; omega)
  unfold PointObl bodyPre bodyPost bodyAt1
  simp only [before_eq]
  rw [show (pdat c A Rec I).Φ t.castSucc = Φ c A I t.val from rfl, show (pdat c A Rec I).Φ t.succ = Φ c A I (t.val + 1) from rfl,
    show (pdat c A Rec I).owesAt (none : HIx 1) t.succ = (pdat c A Rec I).owesAt (none : HIx 1) t.castSucc from rfl]
  rw [Φ_fly c A I t.val (by omega) (by omega), Φ_fly c A I (t.val + 1) (by omega) (by omega),
    show t.val - 33 = j from by omega, show t.val + 1 - 33 = j + 1 from by omega,
    fly_ge c A I j hj2, fly_ge c A I (j + 1) (by omega),
    show j + 1 - 2 = j - 1 from by omega, show j + 1 - 1 = j from by omega,
    FlightB_lt c A I (j - 2) (by omega), FlightB_lt c A I j (by omega)]
  unfold scr
  iintro ⟨⟨⟨⟨%hv, H9, %hhv⟩, ⟨%sv, H10, %hs⟩, ⟨%l, H11, %hl⟩⟩, ⟨%f0, Hl, %hl0⟩, ⟨%fu, Hu⟩, ⟨B0, B1, B2, B3, B4, B5, B6, B7⟩, HB1⟩, ⟨%W, %hW, Ho⟩, ⟨%d0, H0⟩, ⟨%d1, H1⟩, ⟨%d2, H2⟩, ⟨%d3, H3⟩, ⟨%d4, H4⟩, ⟨%d5, H5⟩⟩
  -- the flights of block j - 2, over the rows' ranges
  ihave B0 := (FlightC_elim c A I ⟨j - 2, hj2lt⟩ 0 (slotOf j) hslot (3072 * (j - 2)) (3072 * (j - 2) + 384) 0 384 rfl (by omega) rfl rfl) $$ B0
  icases B0 with ⟨%g0, %q0, %hg0, B0⟩
  ihave B1 := (FlightC_elim c A I ⟨j - 2, hj2lt⟩ 1 (slotOf j) hslot (3072 * (j - 2) + 384) (3072 * (j - 2) + 768) 384 768 rfl (by omega) rfl rfl) $$ B1
  icases B1 with ⟨%g1, %q1, %hg1, B1⟩
  ihave B2 := (FlightC_elim c A I ⟨j - 2, hj2lt⟩ 2 (slotOf j) hslot (3072 * (j - 2) + 768) (3072 * (j - 2) + 1152) 768 1152 rfl (by omega) rfl rfl) $$ B2
  icases B2 with ⟨%g2, %q2, %hg2, B2⟩
  ihave B3 := (FlightC_elim c A I ⟨j - 2, hj2lt⟩ 3 (slotOf j) hslot (3072 * (j - 2) + 1152) (3072 * (j - 2) + 1536) 1152 1536 rfl (by omega) rfl rfl) $$ B3
  icases B3 with ⟨%g3, %q3, %hg3, B3⟩
  ihave B4 := (FlightC_elim c A I ⟨j - 2, hj2lt⟩ 4 (slotOf j) hslot (3072 * (j - 2) + 1536) (3072 * (j - 2) + 1920) 1536 1920 rfl (by omega) rfl rfl) $$ B4
  icases B4 with ⟨%g4, %q4, %hg4, B4⟩
  ihave B5 := (FlightC_elim c A I ⟨j - 2, hj2lt⟩ 5 (slotOf j) hslot (3072 * (j - 2) + 1920) (3072 * (j - 2) + 2304) 1920 2304 rfl (by omega) rfl rfl) $$ B5
  icases B5 with ⟨%g5, %q5, %hg5, B5⟩
  ihave B6 := (FlightC_elim c A I ⟨j - 2, hj2lt⟩ 6 (slotOf j) hslot (3072 * (j - 2) + 2304) (3072 * (j - 2) + 2688) 2304 2688 rfl (by omega) rfl rfl) $$ B6
  icases B6 with ⟨%g6, %q6, %hg6, B6⟩
  ihave B7 := (FlightC_elim c A I ⟨j - 2, hj2lt⟩ 7 (slotOf j) hslot (3072 * (j - 2) + 2688) (3072 * (j - 2) + 3072) 2688 3072 rfl (by omega) rfl rfl) $$ B7
  icases B7 with ⟨%g7, %q7, %hg7, B7⟩
  -- the untouched rows: block j's and the rest
  ihave Hu := (rows_split c (a := 3072 * j) (b := 3072 * j + 3072) (d := 100000) (by omega) (by omega) fu).1 $$ Hu
  icases Hu with ⟨Hblk, Hrest⟩
  iapply (run1_mid c (grid1.coords t) _ _ _ _ _ _ _ _ _ _ _ _ j (by rw [coords1, hj]; omega) (slotOf j) rfl (by omega)
    (fun hc => by have := (hcA t).mp hc; omega) (fun hc => by have := (hcB t).mp hc; omega) (fun hc => by have := (hcC t).mp hc; omega)
    ((hc4 t).mpr (by omega)) ((hc5 t).mpr (by omega)) ((hc6 t).mpr (by omega)) (fun hc => by have := (hc7 t).mp hc; omega)
    (stg c A 4 t d4) (stg c A 5 t d5) hv l
    ![rowRange (3072 * (j - 2)) (3072 * (j - 2) + 384), rowRange (3072 * (j - 2) + 384) (3072 * (j - 2) + 768), rowRange (3072 * (j - 2) + 768) (3072 * (j - 2) + 1152), rowRange (3072 * (j - 2) + 1152) (3072 * (j - 2) + 1536), rowRange (3072 * (j - 2) + 1536) (3072 * (j - 2) + 1920), rowRange (3072 * (j - 2) + 1920) (3072 * (j - 2) + 2304), rowRange (3072 * (j - 2) + 2304) (3072 * (j - 2) + 2688), rowRange (3072 * (j - 2) + 2688) (3072 * (j - 2) + 3072)]
    ![g0, g1, g2, g3, g4, g5, g6, g7] ![q0, q1, q2, q3, q4, q5, q6, q7] fu W _)
  isplitl [H4]; · iexact H4
  isplitl [H5]; · iexact H5
  isplitl [H9]; · iexact H9
  isplitl [H11]; · iexact H11
  isplitl [Ho]; · iexact Ho
  isplitl [Hblk]; · iexact Hblk
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  iintro ⟨H4, H5, H9, H11, ⟨%W', %hW', Ho⟩, L0, L1, L2, L3, L4, L5, L6, L7, ⟨%q, %P, %hP, F0, F1, F2, F3, F4, F5, F6, F7⟩⟩
  -- the landed rows grow by block j - 2
  ihave HL := (landed_join c A I ⟨j - 2, hj2lt⟩ f0 g0 g1 g2 g3 g4 g5 g6 g7 (fun b' r hb => hl0 b' r (by simp only at hb; omega))
    hg0 hg1 hg2 hg3 hg4 hg5 hg6 hg7) $$ [Hl L0 L1 L2 L3 L4 L5 L6 L7]
  · isplitl [Hl]; · iexact Hl
    isplitl [L0]; · iexact L0
    isplitl [L1]; · iexact L1
    isplitl [L2]; · iexact L2
    isplitl [L3]; · iexact L3
    isplitl [L4]; · iexact L4
    isplitl [L5]; · iexact L5
    isplitl [L6]; · iexact L6
    iexact L7
  icases HL with ⟨%f', Hl, %hf'⟩
  isplitl [H9 H10 H11 Hl Hrest HB1 F0 F1 F2 F3 F4 F5 F6 F7]
  · isplitl [H9 H10 H11]
    · isplitl [H9]
      · iexists hv; isplitl [H9]; · iexact H9
        ipureintro; intro _; exact hhv (by omega)
      isplitl [H10]
      · iexists sv; isplitl [H10]; · iexact H10
        ipureintro; intro _
        have hs' := hs (by omega)
        rw [min_eq_right (by omega : 32 ≤ t.val)] at hs'
        rw [min_eq_right (by omega : 32 ≤ t.val + 1)]; exact hs'
      · iexists l; isplitl [H11]; · iexact H11
        ipureintro; intro _; exact hl (by omega)
    isplitl [Hl]
    · iexists f'; isplitl [Hl]
      · iapply (Entails.of_eq (congrArg (fun S : Finset S100000x1024.Idx => (mainM.view.loc (c : Thread nD τ) ↦[S]{fullShare} f' : sProp 𝕄))
          (rowRange_congr rfl (by simp only; omega)))) $$ Hl
      · ipureintro; intro b r hb; exact hf' b r (by simp only; omega)
    isplitl [Hrest]
    · iexists fu
      iapply (Entails.of_eq (congrArg (fun S : Finset S100000x1024.Idx => (mainM.view.loc (c : Thread nD τ) ↦[S]{fullShare} fu : sProp 𝕄))
          (rowRange_congr (by omega) rfl))) $$ Hrest
    isplitl [HB1]; · iexact HB1
    isplitl [F0]; · iapply (flightX_C c A I t ⟨j, hjlt⟩ hj (slotOf j) rfl 0 d4 d5 hv l (hhv (by omega)) (hl (by omega)) q P hP) $$ F0
    isplitl [F1]; · iapply (flightX_C c A I t ⟨j, hjlt⟩ hj (slotOf j) rfl 1 d4 d5 hv l (hhv (by omega)) (hl (by omega)) q P hP) $$ F1
    isplitl [F2]; · iapply (flightX_C c A I t ⟨j, hjlt⟩ hj (slotOf j) rfl 2 d4 d5 hv l (hhv (by omega)) (hl (by omega)) q P hP) $$ F2
    isplitl [F3]; · iapply (flightX_C c A I t ⟨j, hjlt⟩ hj (slotOf j) rfl 3 d4 d5 hv l (hhv (by omega)) (hl (by omega)) q P hP) $$ F3
    isplitl [F4]; · iapply (flightX_C c A I t ⟨j, hjlt⟩ hj (slotOf j) rfl 4 d4 d5 hv l (hhv (by omega)) (hl (by omega)) q P hP) $$ F4
    isplitl [F5]; · iapply (flightX_C c A I t ⟨j, hjlt⟩ hj (slotOf j) rfl 5 d4 d5 hv l (hhv (by omega)) (hl (by omega)) q P hP) $$ F5
    isplitl [F6]; · iapply (flightX_C c A I t ⟨j, hjlt⟩ hj (slotOf j) rfl 6 d4 d5 hv l (hhv (by omega)) (hl (by omega)) q P hP) $$ F6
    iapply (flightX_C c A I t ⟨j, hjlt⟩ hj (slotOf j) rfl 7 d4 d5 hv l (hhv (by omega)) (hl (by omega)) q P hP) $$ F7
  isplitl [Ho]
  · iexists W'; isplitr
    · ipureintro
      intro p hp
      rcases hW' p (Finset.mem_coe.mp hp) with h | h
      · exact hW (Finset.mem_coe.mpr h)
      · exact Or.inl (by obtain ⟨sm, ix⟩ := p; cases h; exact hRec sm)
    · iexact Ho
  isplitl [H0]; · iapply (owns_after c A Rec I 0 (fun _ _ => rfl) t d0 _) $$ H0
  isplitl [H1]; · iapply (owns_after c A Rec I 1 (fun _ _ => rfl) t d1 _) $$ H1
  isplitl [H2]; · iapply (owns_after c A Rec I 2 (fun _ _ => rfl) t d2 _) $$ H2
  isplitl [H3]; · iapply (owns_after c A Rec I 3 (fun _ _ => rfl) t d3 _) $$ H3
  isplitl [H4]; · iexists d4; iapply (owns_fill_cut c A Rec I 4 t d4 _) $$ H4
  iexists d5; iapply (owns_fill_cut c A Rec I 5 t d5 _) $$ H5

end Points1mid

end Cert.Proof.KernelIdeal

end
-- ==== Proof.KernelIdeal.RegionBody1c.lean ====
/-
  The TensorCore region's body at the last point of pass 1: the copies of block 30 are waited for, the last block's
  outputs are stored into the freed slot and its four row chunks started on their way; then the copies of block 31
  and the four just started are waited for, after which nothing is in flight.
-/
import proofs.«204087_g3891240370374_cont_8to1_b_1678_29_alg».proof.Proof.KernelIdeal.RegionPoint
import proofs.«204087_g3891240370374_cont_8to1_b_1678_29_alg».proof.Proof.KernelIdeal.RegionPhi
import proofs.«204087_g3891240370374_cont_8to1_b_1678_29_alg».proof.Proof.KernelIdeal.RegionJoins

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

/-! ## The last block's copies, the program's spelling and the proof's -/

section Tails

variable (c : Dev nD)

theorem pt_mainTail' (o : Fin 2 → ℕ) (a u : ℕ) (e : o = ![a, 0]) (hu : u = a + 424) (inb : ∀ k, o k + S424x1024.size k ≤ S100000x1024.size k)
    (f : Buf (Elt F) (mainM.view.loc (c : Thread nD τ))) :
    ((mainM.slice (Rect.unit o S424x1024.size inb) (fun _ => rfl)).view.loc (c : Thread nD τ)
        ↦[(mainM.slice (Rect.unit o S424x1024.size inb) (fun _ => rfl)).view.set]{fullShare} f : sProp 𝕄)
      = (mainM.view.loc (c : Thread nD τ) ↦[rowRange a u]{fullShare} f) := by
  subst hu; exact pt_mainTail c o a e inb f

theorem pt_ringTail' (o : Fin 3 → ℕ) (s a u : ℕ) (e : o = ![s, a, 0]) (hu : u = a + 424) (inb : ∀ k, o k + S1x424x1024.size k ≤ S2x3072x1024.size k)
    (f : Buf (Elt F) (ringM.view.loc (c : Thread nD τ))) :
    (((ringM.slice (Rect.unit o S1x424x1024.size inb) (fun _ => rfl)).squeeze S424x1024 squeezes_S1x424x1024_S424x1024).view.loc (c : Thread nD τ)
        ↦[((ringM.slice (Rect.unit o S1x424x1024.size inb) (fun _ => rfl)).squeeze S424x1024 squeezes_S1x424x1024_S424x1024).view.set]{fullShare} f : sProp 𝕄)
      = (ringM.view.loc (c : Thread nD τ) ↦[ringRange s a u]{fullShare} f) := by
  subst hu; exact pt_ringTail c o s a e inb f

/-- What a started tail copy lands reads, through the chunk, what it read of the ring. -/
theorem fact_spell_tail (od : Fin 2 → ℕ) (or' : Fin 3 → ℕ) (s : Fin 2) (r : Fin 4)
    (ed : od = ![98304 + 424 * r.val, 0]) (er : or' = ![s.val, 424 * r.val, 0])
    (inbd : ∀ k, od k + S424x1024.size k ≤ S100000x1024.size k) (inbr : ∀ k, or' k + S1x424x1024.size k ≤ S2x3072x1024.size k)
    (g : Buf (Elt F) (mainM.view.loc (c : Thread nD τ))) (W : Buf (Elt F) (ringM.view.loc (c : Thread nD τ))) :
    (mainTail r).view.read (Elt F)
        ((mainM.slice (Rect.unit od S424x1024.size inbd) (fun _ => rfl)).view.writes (Elt F) g
          [⟨Rect.whole _, ReadAs.same.apply (View.read (Elt F)
              ((ringM.slice (Rect.unit or' S1x424x1024.size inbr) (fun _ => rfl)).squeeze S424x1024 squeezes_S1x424x1024_S424x1024).view W)⟩])
      = ReadAs.same.apply ((ringTail s r).view.read (Elt F) W) := by
  subst ed er
  exact landed_read_tail c r g _

end Tails

section Run1

/-- An assertion set aside: the symbolic run does not look inside. -/
def Aside (P : sProp 𝕄) : sProp 𝕄 := P
theorem aside_intro {P : sProp 𝕄} : P ⊢ Aside P := .rfl
theorem aside_elim {P : sProp 𝕄} : Aside P ⊢ P := .rfl

set_option maxHeartbeats 32000000 in
/-- The last point: the eight copies of block 30 are waited for on slot s, the last block's outputs stored into the
    slot, its four row chunks started; the eight copies of block 31 on the other slot and the four are waited for. -/
theorem run1_last (c : Dev nD) (i : grid1.Coords) (arg2 : Memref sig .tc .vmem S1024x128 .f32) (harg2 : arg2.IsWhole) (arg3 : Memref sig .tc .vmem S1024x1 .i32) (harg3 : arg3.IsWhole) (arg4 : Memref sig .tc .vmem S128x64 .f32) (harg4 : arg4.IsWhole) (arg5 : Memref sig .tc .vmem S128x1 .f32) (harg5 : arg5.IsWhole) (arg6 : Memref sig .tc .vmem S3072x128 .f32) (harg6 : arg6.IsWhole) (arg7 : Memref sig .tc .vmem S1x3072 .f32) (harg7 : arg7.IsWhole)
    (hj : (i 1).val = 32) (s s' : Fin 2) (hs : 32 % 2 = s.val) (hs' : s'.val = 1 - s.val)
    (hA : ¬cA i) (hB : ¬cB i) (hC : ¬cC i) (h4 : k1_cond4 i = 1#1) (h5 : k1_cond5 i = 1#1) (h6 : ¬k1_cond6 i = 1#1) (h7 : k1_cond7 i = 1#1)
    (X4 : Vec F S3072x128 .f32) (X5 : Vec F S1x3072 .f32) (ht : Vec F S128x1024 .bf16) (l : Vec F S1x1024 .f32)
    (A0 A1 A2 A3 A4 A5 A6 A7 B0 B1 B2 B3 B4 B5 B6 B7 : Finset S100000x1024.Idx)
    (g0 g1 g2 g3 g4 g5 g6 g7 h0 h1 h2 h3 h4' h5' h6' h7' g : Buf (Elt F) (mainM.view.loc (c : Thread nD τ)))
    (q0 q1 q2 q3 q4 q5 q6 q7 p0 p1 p2 p3 p4 p5 p6 p7 : Buf (Elt F) (ringM.view.loc (c : Thread nD τ)))
    (W : Waits sig (HIx 1)) (K : PUnit → sProp 𝕄) :
    iprop(owns (c : Thread nD τ) arg6 fullShare X4 ∗ owns (c : Thread nD τ) arg7 fullShare X5
        ∗ ((Memref.whole cc1_scratch0).view.loc (c : Thread nD τ) ↦{fullShare} ht)
        ∗ ((Memref.whole cc1_scratch2).view.loc (c : Thread nD τ) ↦{fullShare} l)
        ∗ owes (c : Thread nD τ) 0 W
        ∗ (mainM.view.loc (c : Thread nD τ) ↦[rowRange 98304 100000]{fullShare} g)
        ∗ Transfers.Flight EC (c : Thread nD τ) (.dma (rsem s 0)) (none : HIx 1) 49152
            iprop((mainM.view.loc (c : Thread nD τ) ↦[A0]{fullShare} g0) ∗ (ringM.view.loc (c : Thread nD τ) ↦[ringRange s.val 0 384]{fullShare} q0))
        ∗ Transfers.Flight EC (c : Thread nD τ) (.dma (rsem s 1)) (none : HIx 1) 49152
            iprop((mainM.view.loc (c : Thread nD τ) ↦[A1]{fullShare} g1) ∗ (ringM.view.loc (c : Thread nD τ) ↦[ringRange s.val 384 768]{fullShare} q1))
        ∗ Transfers.Flight EC (c : Thread nD τ) (.dma (rsem s 2)) (none : HIx 1) 49152
            iprop((mainM.view.loc (c : Thread nD τ) ↦[A2]{fullShare} g2) ∗ (ringM.view.loc (c : Thread nD τ) ↦[ringRange s.val 768 1152]{fullShare} q2))
        ∗ Transfers.Flight EC (c : Thread nD τ) (.dma (rsem s 3)) (none : HIx 1) 49152
            iprop((mainM.view.loc (c : Thread nD τ) ↦[A3]{fullShare} g3) ∗ (ringM.view.loc (c : Thread nD τ) ↦[ringRange s.val 1152 1536]{fullShare} q3))
        ∗ Transfers.Flight EC (c : Thread nD τ) (.dma (rsem s 4)) (none : HIx 1) 49152
            iprop((mainM.view.loc (c : Thread nD τ) ↦[A4]{fullShare} g4) ∗ (ringM.view.loc (c : Thread nD τ) ↦[ringRange s.val 1536 1920]{fullShare} q4))
        ∗ Transfers.Flight EC (c : Thread nD τ) (.dma (rsem s 5)) (none : HIx 1) 49152
            iprop((mainM.view.loc (c : Thread nD τ) ↦[A5]{fullShare} g5) ∗ (ringM.view.loc (c : Thread nD τ) ↦[ringRange s.val 1920 2304]{fullShare} q5))
        ∗ Transfers.Flight EC (c : Thread nD τ) (.dma (rsem s 6)) (none : HIx 1) 49152
            iprop((mainM.view.loc (c : Thread nD τ) ↦[A6]{fullShare} g6) ∗ (ringM.view.loc (c : Thread nD τ) ↦[ringRange s.val 2304 2688]{fullShare} q6))
        ∗ Transfers.Flight EC (c : Thread nD τ) (.dma (rsem s 7)) (none : HIx 1) 49152
            iprop((mainM.view.loc (c : Thread nD τ) ↦[A7]{fullShare} g7) ∗ (ringM.view.loc (c : Thread nD τ) ↦[ringRange s.val 2688 3072]{fullShare} q7))
        ∗ Transfers.Flight EC (c : Thread nD τ) (.dma (rsem s' 0)) (none : HIx 1) 49152
            iprop((mainM.view.loc (c : Thread nD τ) ↦[B0]{fullShare} h0) ∗ (ringM.view.loc (c : Thread nD τ) ↦[ringRange s'.val 0 384]{fullShare} p0))
        ∗ Transfers.Flight EC (c : Thread nD τ) (.dma (rsem s' 1)) (none : HIx 1) 49152
            iprop((mainM.view.loc (c : Thread nD τ) ↦[B1]{fullShare} h1) ∗ (ringM.view.loc (c : Thread nD τ) ↦[ringRange s'.val 384 768]{fullShare} p1))
        ∗ Transfers.Flight EC (c : Thread nD τ) (.dma (rsem s' 2)) (none : HIx 1) 49152
            iprop((mainM.view.loc (c : Thread nD τ) ↦[B2]{fullShare} h2) ∗ (ringM.view.loc (c : Thread nD τ) ↦[ringRange s'.val 768 1152]{fullShare} p2))
        ∗ Transfers.Flight EC (c : Thread nD τ) (.dma (rsem s' 3)) (none : HIx 1) 49152
            iprop((mainM.view.loc (c : Thread nD τ) ↦[B3]{fullShare} h3) ∗ (ringM.view.loc (c : Thread nD τ) ↦[ringRange s'.val 1152 1536]{fullShare} p3))
        ∗ Transfers.Flight EC (c : Thread nD τ) (.dma (rsem s' 4)) (none : HIx 1) 49152
            iprop((mainM.view.loc (c : Thread nD τ) ↦[B4]{fullShare} h4') ∗ (ringM.view.loc (c : Thread nD τ) ↦[ringRange s'.val 1536 1920]{fullShare} p4))
        ∗ Transfers.Flight EC (c : Thread nD τ) (.dma (rsem s' 5)) (none : HIx 1) 49152
            iprop((mainM.view.loc (c : Thread nD τ) ↦[B5]{fullShare} h5') ∗ (ringM.view.loc (c : Thread nD τ) ↦[ringRange s'.val 1920 2304]{fullShare} p5))
        ∗ Transfers.Flight EC (c : Thread nD τ) (.dma (rsem s' 6)) (none : HIx 1) 49152
            iprop((mainM.view.loc (c : Thread nD τ) ↦[B6]{fullShare} h6') ∗ (ringM.view.loc (c : Thread nD τ) ↦[ringRange s'.val 2304 2688]{fullShare} p6))
        ∗ Transfers.Flight EC (c : Thread nD τ) (.dma (rsem s' 7)) (none : HIx 1) 49152
            iprop((mainM.view.loc (c : Thread nD τ) ↦[B7]{fullShare} h7') ∗ (ringM.view.loc (c : Thread nD τ) ↦[ringRange s'.val 2688 3072]{fullShare} p7))
        ∗ (iprop(owns (c : Thread nD τ) arg6 fullShare X4 ∗ owns (c : Thread nD τ) arg7 fullShare X5
            ∗ ((Memref.whole cc1_scratch0).view.loc (c : Thread nD τ) ↦{fullShare} ht)
            ∗ ((Memref.whole cc1_scratch2).view.loc (c : Thread nD τ) ↦{fullShare} l)
            ∗ (∃ W' : Waits sig (HIx 1), ⌜∀ p ∈ W', p ∈ W ∨ p.2 = none⌝ ∗ owes (c : Thread nD τ) 0 W')
            ∗ (mainM.view.loc (c : Thread nD τ) ↦[A0]{fullShare} g0) ∗ (mainM.view.loc (c : Thread nD τ) ↦[A1]{fullShare} g1) ∗ (mainM.view.loc (c : Thread nD τ) ↦[A2]{fullShare} g2) ∗ (mainM.view.loc (c : Thread nD τ) ↦[A3]{fullShare} g3) ∗ (mainM.view.loc (c : Thread nD τ) ↦[A4]{fullShare} g4) ∗ (mainM.view.loc (c : Thread nD τ) ↦[A5]{fullShare} g5) ∗ (mainM.view.loc (c : Thread nD τ) ↦[A6]{fullShare} g6) ∗ (mainM.view.loc (c : Thread nD τ) ↦[A7]{fullShare} g7)
            ∗ (mainM.view.loc (c : Thread nD τ) ↦[B0]{fullShare} h0) ∗ (mainM.view.loc (c : Thread nD τ) ↦[B1]{fullShare} h1) ∗ (mainM.view.loc (c : Thread nD τ) ↦[B2]{fullShare} h2) ∗ (mainM.view.loc (c : Thread nD τ) ↦[B3]{fullShare} h3) ∗ (mainM.view.loc (c : Thread nD τ) ↦[B4]{fullShare} h4') ∗ (mainM.view.loc (c : Thread nD τ) ↦[B5]{fullShare} h5') ∗ (mainM.view.loc (c : Thread nD τ) ↦[B6]{fullShare} h6') ∗ (mainM.view.loc (c : Thread nD τ) ↦[B7]{fullShare} h7')
            ∗ (ringM.view.loc (c : Thread nD τ) ↦[ringRange s'.val 0 384]{fullShare} p0) ∗ (ringM.view.loc (c : Thread nD τ) ↦[ringRange s'.val 384 768]{fullShare} p1) ∗ (ringM.view.loc (c : Thread nD τ) ↦[ringRange s'.val 768 1152]{fullShare} p2) ∗ (ringM.view.loc (c : Thread nD τ) ↦[ringRange s'.val 1152 1536]{fullShare} p3) ∗ (ringM.view.loc (c : Thread nD τ) ↦[ringRange s'.val 1536 1920]{fullShare} p4) ∗ (ringM.view.loc (c : Thread nD τ) ↦[ringRange s'.val 1920 2304]{fullShare} p5) ∗ (ringM.view.loc (c : Thread nD τ) ↦[ringRange s'.val 2304 2688]{fullShare} p6) ∗ (ringM.view.loc (c : Thread nD τ) ↦[ringRange s'.val 2688 3072]{fullShare} p7)
            ∗ (∃ (qj : Buf (Elt F) (ringM.view.loc (c : Thread nD τ))) (P : Vec F S1x3072x1024 .f32), ⌜P = k1_pay6 X4 ht X5 l⌝
                ∗ (∃ t : Buf (Elt F) (mainM.view.loc (c : Thread nD τ)), ⌜(mainTail 0).view.read (Elt F) t = ReadAs.same.apply ((ringTail s 0).view.read (Elt F) (slotW c s qj P))⌝
                  ∗ (mainM.view.loc (c : Thread nD τ) ↦[rowRange 98304 98728]{fullShare} t) ∗ (ringM.view.loc (c : Thread nD τ) ↦[ringRange s.val 0 424]{fullShare} slotW c s qj P))
                ∗ (∃ t : Buf (Elt F) (mainM.view.loc (c : Thread nD τ)), ⌜(mainTail 1).view.read (Elt F) t = ReadAs.same.apply ((ringTail s 1).view.read (Elt F) (slotW c s qj P))⌝
                  ∗ (mainM.view.loc (c : Thread nD τ) ↦[rowRange 98728 99152]{fullShare} t) ∗ (ringM.view.loc (c : Thread nD τ) ↦[ringRange s.val 424 848]{fullShare} slotW c s qj P))
                ∗ (∃ t : Buf (Elt F) (mainM.view.loc (c : Thread nD τ)), ⌜(mainTail 2).view.read (Elt F) t = ReadAs.same.apply ((ringTail s 2).view.read (Elt F) (slotW c s qj P))⌝
                  ∗ (mainM.view.loc (c : Thread nD τ) ↦[rowRange 99152 99576]{fullShare} t) ∗ (ringM.view.loc (c : Thread nD τ) ↦[ringRange s.val 848 1272]{fullShare} slotW c s qj P))
                ∗ (∃ t : Buf (Elt F) (mainM.view.loc (c : Thread nD τ)), ⌜(mainTail 3).view.read (Elt F) t = ReadAs.same.apply ((ringTail s 3).view.read (Elt F) (slotW c s qj P))⌝
                  ∗ (mainM.view.loc (c : Thread nD τ) ↦[rowRange 99576 100000]{fullShare} t) ∗ (ringM.view.loc (c : Thread nD τ) ↦[ringRange s.val 1272 1696]{fullShare} slotW c s qj P))
                ∗ (ringM.view.loc (c : Thread nD τ) ↦[ringRange s.val 1696 3072]{fullShare} slotW c s qj P))
            ∗ semVal ((c : Thread nD τ), SemLoc.dma (rsem s 0)) 0 ∗ semVal ((c : Thread nD τ), SemLoc.dma (rsem s 1)) 0 ∗ semVal ((c : Thread nD τ), SemLoc.dma (rsem s 2)) 0 ∗ semVal ((c : Thread nD τ), SemLoc.dma (rsem s 3)) 0 ∗ semVal ((c : Thread nD τ), SemLoc.dma (rsem s 4)) 0 ∗ semVal ((c : Thread nD τ), SemLoc.dma (rsem s 5)) 0 ∗ semVal ((c : Thread nD τ), SemLoc.dma (rsem s 6)) 0 ∗ semVal ((c : Thread nD τ), SemLoc.dma (rsem s 7)) 0
            ∗ semVal ((c : Thread nD τ), SemLoc.dma (rsem s' 0)) 0 ∗ semVal ((c : Thread nD τ), SemLoc.dma (rsem s' 1)) 0 ∗ semVal ((c : Thread nD τ), SemLoc.dma (rsem s' 2)) 0 ∗ semVal ((c : Thread nD τ), SemLoc.dma (rsem s' 3)) 0 ∗ semVal ((c : Thread nD τ), SemLoc.dma (rsem s' 4)) 0 ∗ semVal ((c : Thread nD τ), SemLoc.dma (rsem s' 5)) 0 ∗ semVal ((c : Thread nD τ), SemLoc.dma (rsem s' 6)) 0 ∗ semVal ((c : Thread nD τ), SemLoc.dma (rsem s' 7)) 0) -∗ K ⟨⟩))
      ⊢ wp frame (wpE (defs₀ (F := F)) 𝒱₀ (c : Thread nD τ) none) Set.univ
          (cc1__fused_body i arg2 harg2 arg3 harg3 arg4 harg4 arg5 harg5 arg6 harg6 arg7 harg7 (Memref.whole main_v9) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) cc1_scratch4) K := by
  have hsv : (i 1).val % 2 = s.val := by rw [hj]; exact hs
  have hsv' : 1 - (i 1).val % 2 = s'.val := by rw [hsv]; exact hs'.symm
  have e18 : k1_off18 i = ![s.val, 0, 0] := by rw [k1_off18_eq, hsv]
  have ew0 : k1_off1 i = ![s.val, 0] := by rw [k1_off1_eq, hsv]
  have ew1 : k1_off4 i = ![s.val, 1] := by rw [k1_off4_eq, hsv]
  have ew2 : k1_off6 i = ![s.val, 2] := by rw [k1_off6_eq, hsv]
  have ew3 : k1_off8 i = ![s.val, 3] := by rw [k1_off8_eq, hsv]
  have ew4 : k1_off10 i = ![s.val, 4] := by rw [k1_off10_eq, hsv]
  have ew5 : k1_off12 i = ![s.val, 5] := by rw [k1_off12_eq, hsv]
  have ew6 : k1_off14 i = ![s.val, 6] := by rw [k1_off14_eq, hsv]
  have ew7 : k1_off16 i = ![s.val, 7] := by rw [k1_off16_eq, hsv]
  have et0 : k1_off36 i = ![s.val, 0] := by rw [k1_off36_eq, hsv]
  have et1 : k1_off38 i = ![s.val, 1] := by rw [k1_off38_eq, hsv]
  have et2 : k1_off40 i = ![s.val, 2] := by rw [k1_off40_eq, hsv]
  have et3 : k1_off42 i = ![s.val, 3] := by rw [k1_off42_eq, hsv]
  have er0 : k1_off37 i = ![s.val, 0, 0] := by rw [k1_off37_eq, hsv]
  have er1 : k1_off39 i = ![s.val, 424, 0] := by rw [k1_off39_eq, hsv]
  have er2 : k1_off41 i = ![s.val, 848, 0] := by rw [k1_off41_eq, hsv]
  have er3 : k1_off43 i = ![s.val, 1272, 0] := by rw [k1_off43_eq, hsv]
  have ev0 : k1_off44 i = ![s'.val, 0] := by rw [k1_off44_eq, hsv']
  have ev1 : k1_off47 i = ![s'.val, 1] := by rw [k1_off47_eq, hsv']
  have ev2 : k1_off49 i = ![s'.val, 2] := by rw [k1_off49_eq, hsv']
  have ev3 : k1_off51 i = ![s'.val, 3] := by rw [k1_off51_eq, hsv']
  have ev4 : k1_off53 i = ![s'.val, 4] := by rw [k1_off53_eq, hsv']
  have ev5 : k1_off55 i = ![s'.val, 5] := by rw [k1_off55_eq, hsv']
  have ev6 : k1_off57 i = ![s'.val, 6] := by rw [k1_off57_eq, hsv']
  have ev7 : k1_off59 i = ![s'.val, 7] := by rw [k1_off59_eq, hsv']
  rw [cc1__fused_body_eq_skeleton]; unfold cc1__fused_body_skel
  unfold owns
  iintro ⟨⟨%f4, %hf4, H4⟩, ⟨%f5, %hf5, H5⟩, H9, H11, Ho, Hblk, W0, W1, W2, W3, W4, W5, W6, W7, V0, V1, V2, V3, V4, V5, V6, V7, Hk⟩
  obtain rfl := harg6.eq_unread hf4
  obtain rfl := harg7.eq_unread hf5
  -- block 31's flights set aside until their waits
  ihave V0 := (aside_intro) $$ V0
  ihave V1 := (aside_intro) $$ V1
  ihave V2 := (aside_intro) $$ V2
  ihave V3 := (aside_intro) $$ V3
  ihave V4 := (aside_intro) $$ V4
  ihave V5 := (aside_intro) $$ V5
  ihave V6 := (aside_intro) $$ V6
  ihave V7 := (aside_intro) $$ V7
  -- block 30's flights, their semaphores as the waits name them
  ihave W0 := (Entails.of_eq (congrArg (fun x => (Transfers.Flight EC (c : Thread nD τ) (SemLoc.dma x) (none : HIx 1) 49152
      iprop((mainM.view.loc (c : Thread nD τ) ↦[A0]{fullShare} g0) ∗ (ringM.view.loc (c : Thread nD τ) ↦[ringRange s.val 0 384]{fullShare} q0)) : sProp 𝕄))
    (sem_spell (k1_off1 i) s 0 ew0 (k1_off1_inb i h4 h5)).symm)) $$ W0
  ihave W1 := (Entails.of_eq (congrArg (fun x => (Transfers.Flight EC (c : Thread nD τ) (SemLoc.dma x) (none : HIx 1) 49152
      iprop((mainM.view.loc (c : Thread nD τ) ↦[A1]{fullShare} g1) ∗ (ringM.view.loc (c : Thread nD τ) ↦[ringRange s.val 384 768]{fullShare} q1)) : sProp 𝕄))
    (sem_spell (k1_off4 i) s 1 ew1 (k1_off4_inb i h4 h5)).symm)) $$ W1
  ihave W2 := (Entails.of_eq (congrArg (fun x => (Transfers.Flight EC (c : Thread nD τ) (SemLoc.dma x) (none : HIx 1) 49152
      iprop((mainM.view.loc (c : Thread nD τ) ↦[A2]{fullShare} g2) ∗ (ringM.view.loc (c : Thread nD τ) ↦[ringRange s.val 768 1152]{fullShare} q2)) : sProp 𝕄))
    (sem_spell (k1_off6 i) s 2 ew2 (k1_off6_inb i h4 h5)).symm)) $$ W2
  ihave W3 := (Entails.of_eq (congrArg (fun x => (Transfers.Flight EC (c : Thread nD τ) (SemLoc.dma x) (none : HIx 1) 49152
      iprop((mainM.view.loc (c : Thread nD τ) ↦[A3]{fullShare} g3) ∗ (ringM.view.loc (c : Thread nD τ) ↦[ringRange s.val 1152 1536]{fullShare} q3)) : sProp 𝕄))
    (sem_spell (k1_off8 i) s 3 ew3 (k1_off8_inb i h4 h5)).symm)) $$ W3
  ihave W4 := (Entails.of_eq (congrArg (fun x => (Transfers.Flight EC (c : Thread nD τ) (SemLoc.dma x) (none : HIx 1) 49152
      iprop((mainM.view.loc (c : Thread nD τ) ↦[A4]{fullShare} g4) ∗ (ringM.view.loc (c : Thread nD τ) ↦[ringRange s.val 1536 1920]{fullShare} q4)) : sProp 𝕄))
    (sem_spell (k1_off10 i) s 4 ew4 (k1_off10_inb i h4 h5)).symm)) $$ W4
  ihave W5 := (Entails.of_eq (congrArg (fun x => (Transfers.Flight EC (c : Thread nD τ) (SemLoc.dma x) (none : HIx 1) 49152
      iprop((mainM.view.loc (c : Thread nD τ) ↦[A5]{fullShare} g5) ∗ (ringM.view.loc (c : Thread nD τ) ↦[ringRange s.val 1920 2304]{fullShare} q5)) : sProp 𝕄))
    (sem_spell (k1_off12 i) s 5 ew5 (k1_off12_inb i h4 h5)).symm)) $$ W5
  ihave W6 := (Entails.of_eq (congrArg (fun x => (Transfers.Flight EC (c : Thread nD τ) (SemLoc.dma x) (none : HIx 1) 49152
      iprop((mainM.view.loc (c : Thread nD τ) ↦[A6]{fullShare} g6) ∗ (ringM.view.loc (c : Thread nD τ) ↦[ringRange s.val 2304 2688]{fullShare} q6)) : sProp 𝕄))
    (sem_spell (k1_off14 i) s 6 ew6 (k1_off14_inb i h4 h5)).symm)) $$ W6
  ihave W7 := (Entails.of_eq (congrArg (fun x => (Transfers.Flight EC (c : Thread nD τ) (SemLoc.dma x) (none : HIx 1) 49152
      iprop((mainM.view.loc (c : Thread nD τ) ↦[A7]{fullShare} g7) ∗ (ringM.view.loc (c : Thread nD τ) ↦[ringRange s.val 2688 3072]{fullShare} q7)) : sProp 𝕄))
    (sem_spell (k1_off16 i) s 7 ew7 (k1_off16_inb i h4 h5)).symm)) $$ W7
  (set_option sl_exec.stopBefore "k1_cond7" in sl_exec (disch := first | exact hA | exact hB | exact hC | exact h4 | exact h5 | exact h6 | exact h7))
  -- the slot's eight chunks are back: the slot, as the body names it
  ihave Hslot := (slot_join c s.val q0 q1 q2 q3 q4 q5 q6 q7) $$ [W0_src W1_src W2_src W3_src W4_src W5_src W6_src W7_src]
  · isplitl [W0_src]; · iexact W0_src
    isplitl [W1_src]; · iexact W1_src
    isplitl [W2_src]; · iexact W2_src
    isplitl [W3_src]; · iexact W3_src
    isplitl [W4_src]; · iexact W4_src
    isplitl [W5_src]; · iexact W5_src
    isplitl [W6_src]; · iexact W6_src
    iexact W7_src
  icases Hslot with ⟨%qj, Hslot⟩
  ihave Hslot := (Entails.of_eq (pt_ringSlot c (k1_off18 i) s.val e18 (k1_off18_inb i h4) qj).symm) $$ Hslot
  (set_option sl_exec.stopBefore "k1_cond7" in sl_exec (disch := first | exact hA | exact hB | exact hC | exact h4 | exact h5 | exact h6 | exact h7))
  unfold run1_last.sl.Hslot_w1
  -- the slot over its rows, cut into the four chunks the last block's copies read and the rest
  ihave Hslot := (Entails.of_eq (pt_ringSlot c (k1_off18 i) s.val e18 (k1_off18_inb i h4) _)) $$ Hslot
  ihave Hslot := (Entails.of_eq (congrArg (fun Wc => (ringM.view.loc (c : Thread nD τ) ↦[ringRange s.val 0 3072]{fullShare} Wc : sProp 𝕄))
    (slotW_spell c s (k1_off18 i) e18 (k1_off18_inb i h4) qj _))) $$ Hslot
  ihave Hslot := (slot_split_tail c s.val _) $$ Hslot
  icases Hslot with ⟨T0, T1, T2, T3, Trest⟩
  ihave T0 := (Entails.of_eq (pt_ringTail' c (k1_off37 i) s.val 0 424 er0 (by omega) (k1_off37_inb i h4 h7) _).symm) $$ T0
  ihave T1 := (Entails.of_eq (pt_ringTail' c (k1_off39 i) s.val 424 848 er1 (by omega) (k1_off39_inb i h4 h7) _).symm) $$ T1
  ihave T2 := (Entails.of_eq (pt_ringTail' c (k1_off41 i) s.val 848 1272 er2 (by omega) (k1_off41_inb i h4 h7) _).symm) $$ T2
  ihave T3 := (Entails.of_eq (pt_ringTail' c (k1_off43 i) s.val 1272 1696 er3 (by omega) (k1_off43_inb i h4 h7) _).symm) $$ T3
  -- the last block's rows of the result, cut into the four chunks the copies write
  ihave Hblk := (tail_split c g) $$ Hblk
  icases Hblk with ⟨D0, D1, D2, D3⟩
  ihave D0 := (Entails.of_eq (pt_mainTail' c ![98304, 0] 98304 98728 rfl rfl inb_S100000x1024_S424x1024_98304_0 g).symm) $$ D0
  ihave D1 := (Entails.of_eq (pt_mainTail' c ![98728, 0] 98728 99152 rfl rfl inb_S100000x1024_S424x1024_98728_0 g).symm) $$ D1
  ihave D2 := (Entails.of_eq (pt_mainTail' c ![99152, 0] 99152 99576 rfl rfl inb_S100000x1024_S424x1024_99152_0 g).symm) $$ D2
  ihave D3 := (Entails.of_eq (pt_mainTail' c ![99576, 0] 99576 100000 rfl rfl inb_S100000x1024_S424x1024_99576_0 g).symm) $$ D3
  -- the four semaphores the last block's copies complete on, from the waits' spelling to the starts'
  ihave W0 := (Entails.of_eq (congrArg (fun x => (semVal ((c : Thread nD τ), SemLoc.dma x) 0 : sProp 𝕄)) ((sem_spell (k1_off1 i) s 0 ew0 (k1_off1_inb i h4 h5)).trans (sem_spell (k1_off36 i) s 0 et0 (k1_off36_inb i h4 h7)).symm))) $$ W0
  ihave W1 := (Entails.of_eq (congrArg (fun x => (semVal ((c : Thread nD τ), SemLoc.dma x) 0 : sProp 𝕄)) ((sem_spell (k1_off4 i) s 1 ew1 (k1_off4_inb i h4 h5)).trans (sem_spell (k1_off38 i) s 1 et1 (k1_off38_inb i h4 h7)).symm))) $$ W1
  ihave W2 := (Entails.of_eq (congrArg (fun x => (semVal ((c : Thread nD τ), SemLoc.dma x) 0 : sProp 𝕄)) ((sem_spell (k1_off6 i) s 2 ew2 (k1_off6_inb i h4 h5)).trans (sem_spell (k1_off40 i) s 2 et2 (k1_off40_inb i h4 h7)).symm))) $$ W2
  ihave W3 := (Entails.of_eq (congrArg (fun x => (semVal ((c : Thread nD τ), SemLoc.dma x) 0 : sProp 𝕄)) ((sem_spell (k1_off8 i) s 3 ew3 (k1_off8_inb i h4 h5)).trans (sem_spell (k1_off42 i) s 3 et3 (k1_off42_inb i h4 h7)).symm))) $$ W3
  -- block 31's flights, their semaphores as the waits name them
  ihave V0 := (aside_elim) $$ V0
  ihave V0 := (Entails.of_eq (congrArg (fun x => (Transfers.Flight EC (c : Thread nD τ) (SemLoc.dma x) (none : HIx 1) 49152
      iprop((mainM.view.loc (c : Thread nD τ) ↦[B0]{fullShare} h0) ∗ (ringM.view.loc (c : Thread nD τ) ↦[ringRange s'.val 0 384]{fullShare} p0)) : sProp 𝕄))
    (sem_spell (k1_off44 i) s' 0 ev0 (k1_off44_inb i h4 h7)).symm)) $$ V0
  ihave V1 := (aside_elim) $$ V1
  ihave V1 := (Entails.of_eq (congrArg (fun x => (Transfers.Flight EC (c : Thread nD τ) (SemLoc.dma x) (none : HIx 1) 49152
      iprop((mainM.view.loc (c : Thread nD τ) ↦[B1]{fullShare} h1) ∗ (ringM.view.loc (c : Thread nD τ) ↦[ringRange s'.val 384 768]{fullShare} p1)) : sProp 𝕄))
    (sem_spell (k1_off47 i) s' 1 ev1 (k1_off47_inb i h4 h7)).symm)) $$ V1
  ihave V2 := (aside_elim) $$ V2
  ihave V2 := (Entails.of_eq (congrArg (fun x => (Transfers.Flight EC (c : Thread nD τ) (SemLoc.dma x) (none : HIx 1) 49152
      iprop((mainM.view.loc (c : Thread nD τ) ↦[B2]{fullShare} h2) ∗ (ringM.view.loc (c : Thread nD τ) ↦[ringRange s'.val 768 1152]{fullShare} p2)) : sProp 𝕄))
    (sem_spell (k1_off49 i) s' 2 ev2 (k1_off49_inb i h4 h7)).symm)) $$ V2
  ihave V3 := (aside_elim) $$ V3
  ihave V3 := (Entails.of_eq (congrArg (fun x => (Transfers.Flight EC (c : Thread nD τ) (SemLoc.dma x) (none : HIx 1) 49152
      iprop((mainM.view.loc (c : Thread nD τ) ↦[B3]{fullShare} h3) ∗ (ringM.view.loc (c : Thread nD τ) ↦[ringRange s'.val 1152 1536]{fullShare} p3)) : sProp 𝕄))
    (sem_spell (k1_off51 i) s' 3 ev3 (k1_off51_inb i h4 h7)).symm)) $$ V3
  ihave V4 := (aside_elim) $$ V4
  ihave V4 := (Entails.of_eq (congrArg (fun x => (Transfers.Flight EC (c : Thread nD τ) (SemLoc.dma x) (none : HIx 1) 49152
      iprop((mainM.view.loc (c : Thread nD τ) ↦[B4]{fullShare} h4') ∗ (ringM.view.loc (c : Thread nD τ) ↦[ringRange s'.val 1536 1920]{fullShare} p4)) : sProp 𝕄))
    (sem_spell (k1_off53 i) s' 4 ev4 (k1_off53_inb i h4 h7)).symm)) $$ V4
  ihave V5 := (aside_elim) $$ V5
  ihave V5 := (Entails.of_eq (congrArg (fun x => (Transfers.Flight EC (c : Thread nD τ) (SemLoc.dma x) (none : HIx 1) 49152
      iprop((mainM.view.loc (c : Thread nD τ) ↦[B5]{fullShare} h5') ∗ (ringM.view.loc (c : Thread nD τ) ↦[ringRange s'.val 1920 2304]{fullShare} p5)) : sProp 𝕄))
    (sem_spell (k1_off55 i) s' 5 ev5 (k1_off55_inb i h4 h7)).symm)) $$ V5
  ihave V6 := (aside_elim) $$ V6
  ihave V6 := (Entails.of_eq (congrArg (fun x => (Transfers.Flight EC (c : Thread nD τ) (SemLoc.dma x) (none : HIx 1) 49152
      iprop((mainM.view.loc (c : Thread nD τ) ↦[B6]{fullShare} h6') ∗ (ringM.view.loc (c : Thread nD τ) ↦[ringRange s'.val 2304 2688]{fullShare} p6)) : sProp 𝕄))
    (sem_spell (k1_off57 i) s' 6 ev6 (k1_off57_inb i h4 h7)).symm)) $$ V6
  ihave V7 := (aside_elim) $$ V7
  ihave V7 := (Entails.of_eq (congrArg (fun x => (Transfers.Flight EC (c : Thread nD τ) (SemLoc.dma x) (none : HIx 1) 49152
      iprop((mainM.view.loc (c : Thread nD τ) ↦[B7]{fullShare} h7') ∗ (ringM.view.loc (c : Thread nD τ) ↦[ringRange s'.val 2688 3072]{fullShare} p7)) : sProp 𝕄))
    (sem_spell (k1_off59 i) s' 7 ev7 (k1_off59_inb i h4 h7)).symm)) $$ V7
  sl_exec (disch := first | exact hA | exact hB | exact hC | exact h4 | exact h5 | exact h6 | exact h7)
  sl_step
  iapply Hk
  isplitl [H4]
  · iexists _; isplitr; · ipureintro; exact hf4
    iexact H4
  isplitl [H5]
  · iexists _; isplitr; · ipureintro; exact hf5
    iexact H5
  isplitl [H9]; · iexact H9
  isplitl [H11]; · iexact H11
  isplitl [Ho]
  · iexists _; isplitr; swap; · iexact Ho
    ipureintro; intro p hp
    simp only [Finset.mem_insert] at hp
    rcases hp with rfl | rfl | rfl | rfl | rfl | rfl | rfl | rfl | rfl | rfl | rfl | rfl | rfl | rfl | rfl | rfl | rfl | rfl | rfl | rfl | hp
    all_goals first | exact .inr rfl | exact .inl hp
  isplitl [W0_dst]; · iexact W0_dst
  isplitl [W1_dst]; · iexact W1_dst
  isplitl [W2_dst]; · iexact W2_dst
  isplitl [W3_dst]; · iexact W3_dst
  isplitl [W4_dst]; · iexact W4_dst
  isplitl [W5_dst]; · iexact W5_dst
  isplitl [W6_dst]; · iexact W6_dst
  isplitl [W7_dst]; · iexact W7_dst
  isplitl [V0_dst]; · iexact V0_dst
  isplitl [V1_dst]; · iexact V1_dst
  isplitl [V2_dst]; · iexact V2_dst
  isplitl [V3_dst]; · iexact V3_dst
  isplitl [V4_dst]; · iexact V4_dst
  isplitl [V5_dst]; · iexact V5_dst
  isplitl [V6_dst]; · iexact V6_dst
  isplitl [V7_dst]; · iexact V7_dst
  isplitl [V0_src]; · iexact V0_src
  isplitl [V1_src]; · iexact V1_src
  isplitl [V2_src]; · iexact V2_src
  isplitl [V3_src]; · iexact V3_src
  isplitl [V4_src]; · iexact V4_src
  isplitl [V5_src]; · iexact V5_src
  isplitl [V6_src]; · iexact V6_src
  isplitl [V7_src]; · iexact V7_src
  isplitl [D0 T0 D1 T1 D2 T2 D3 T3 Trest]
  · iexists qj, _; isplitr; swap
    · isplitl [D0 T0]
      · iexists _; isplitr; swap
        · isplitl [D0]
          · iapply (Entails.of_eq (pt_mainTail' c ![98304, 0] 98304 98728 rfl rfl inb_S100000x1024_S424x1024_98304_0 _)); iexact D0
          · iapply (Entails.of_eq (pt_ringTail' c (k1_off37 i) s.val 0 424 er0 (by omega) (k1_off37_inb i h4 h7) _)); iexact T0
        · ipureintro
          unfold run1_last.sl.dma0
          exact fact_spell_tail c _ _ s 0 rfl er0 _ _ g _
      isplitl [D1 T1]
      · iexists _; isplitr; swap
        · isplitl [D1]
          · iapply (Entails.of_eq (pt_mainTail' c ![98728, 0] 98728 99152 rfl rfl inb_S100000x1024_S424x1024_98728_0 _)); iexact D1
          · iapply (Entails.of_eq (pt_ringTail' c (k1_off39 i) s.val 424 848 er1 (by omega) (k1_off39_inb i h4 h7) _)); iexact T1
        · ipureintro
          unfold run1_last.sl.dma0_1
          exact fact_spell_tail c _ _ s 1 rfl er1 _ _ g _
      isplitl [D2 T2]
      · iexists _; isplitr; swap
        · isplitl [D2]
          · iapply (Entails.of_eq (pt_mainTail' c ![99152, 0] 99152 99576 rfl rfl inb_S100000x1024_S424x1024_99152_0 _)); iexact D2
          · iapply (Entails.of_eq (pt_ringTail' c (k1_off41 i) s.val 848 1272 er2 (by omega) (k1_off41_inb i h4 h7) _)); iexact T2
        · ipureintro
          unfold run1_last.sl.dma0_2
          exact fact_spell_tail c _ _ s 2 rfl er2 _ _ g _
      isplitl [D3 T3]
      · iexists _; isplitr; swap
        · isplitl [D3]
          · iapply (Entails.of_eq (pt_mainTail' c ![99576, 0] 99576 100000 rfl rfl inb_S100000x1024_S424x1024_99576_0 _)); iexact D3
          · iapply (Entails.of_eq (pt_ringTail' c (k1_off43 i) s.val 1272 1696 er3 (by omega) (k1_off43_inb i h4 h7) _)); iexact T3
        · ipureintro
          unfold run1_last.sl.dma0_3
          exact fact_spell_tail c _ _ s 3 rfl er3 _ _ g _
      iexact Trest
    · ipureintro
      congr 1
      · exact (readAt_unit_zero _ zero2 _ _).trans hf4
      · exact whole_readAt_unit_zero cc1_scratch0 zero2 _ _
      · exact (readAt_unit_zero _ zero2 _ _).trans hf5
      · exact whole_readAt_unit_zero cc1_scratch2 zero2 _ _
  isplitl [W0]; · iapply (Entails.of_eq (congrArg (fun x => (semVal ((c : Thread nD τ), SemLoc.dma x) 0 : sProp 𝕄)) (sem_spell (k1_off36 i) s 0 et0 (k1_off36_inb i h4 h7)))); iexact W0
  isplitl [W1]; · iapply (Entails.of_eq (congrArg (fun x => (semVal ((c : Thread nD τ), SemLoc.dma x) 0 : sProp 𝕄)) (sem_spell (k1_off38 i) s 1 et1 (k1_off38_inb i h4 h7)))); iexact W1
  isplitl [W2]; · iapply (Entails.of_eq (congrArg (fun x => (semVal ((c : Thread nD τ), SemLoc.dma x) 0 : sProp 𝕄)) (sem_spell (k1_off40 i) s 2 et2 (k1_off40_inb i h4 h7)))); iexact W2
  isplitl [W3]; · iapply (Entails.of_eq (congrArg (fun x => (semVal ((c : Thread nD τ), SemLoc.dma x) 0 : sProp 𝕄)) (sem_spell (k1_off42 i) s 3 et3 (k1_off42_inb i h4 h7)))); iexact W3
  isplitl [W4]; · iapply (Entails.of_eq (congrArg (fun x => (semVal ((c : Thread nD τ), SemLoc.dma x) 0 : sProp 𝕄)) (sem_spell (k1_off10 i) s 4 ew4 (k1_off10_inb i h4 h5)))); iexact W4
  isplitl [W5]; · iapply (Entails.of_eq (congrArg (fun x => (semVal ((c : Thread nD τ), SemLoc.dma x) 0 : sProp 𝕄)) (sem_spell (k1_off12 i) s 5 ew5 (k1_off12_inb i h4 h5)))); iexact W5
  isplitl [W6]; · iapply (Entails.of_eq (congrArg (fun x => (semVal ((c : Thread nD τ), SemLoc.dma x) 0 : sProp 𝕄)) (sem_spell (k1_off14 i) s 6 ew6 (k1_off14_inb i h4 h5)))); iexact W6
  isplitl [W7]; · iapply (Entails.of_eq (congrArg (fun x => (semVal ((c : Thread nD τ), SemLoc.dma x) 0 : sProp 𝕄)) (sem_spell (k1_off16 i) s 7 ew7 (k1_off16_inb i h4 h5)))); iexact W7
  isplitl [V0]; · iapply (Entails.of_eq (congrArg (fun x => (semVal ((c : Thread nD τ), SemLoc.dma x) 0 : sProp 𝕄)) (sem_spell (k1_off44 i) s' 0 ev0 (k1_off44_inb i h4 h7)))); iexact V0
  isplitl [V1]; · iapply (Entails.of_eq (congrArg (fun x => (semVal ((c : Thread nD τ), SemLoc.dma x) 0 : sProp 𝕄)) (sem_spell (k1_off47 i) s' 1 ev1 (k1_off47_inb i h4 h7)))); iexact V1
  isplitl [V2]; · iapply (Entails.of_eq (congrArg (fun x => (semVal ((c : Thread nD τ), SemLoc.dma x) 0 : sProp 𝕄)) (sem_spell (k1_off49 i) s' 2 ev2 (k1_off49_inb i h4 h7)))); iexact V2
  isplitl [V3]; · iapply (Entails.of_eq (congrArg (fun x => (semVal ((c : Thread nD τ), SemLoc.dma x) 0 : sProp 𝕄)) (sem_spell (k1_off51 i) s' 3 ev3 (k1_off51_inb i h4 h7)))); iexact V3
  isplitl [V4]; · iapply (Entails.of_eq (congrArg (fun x => (semVal ((c : Thread nD τ), SemLoc.dma x) 0 : sProp 𝕄)) (sem_spell (k1_off53 i) s' 4 ev4 (k1_off53_inb i h4 h7)))); iexact V4
  isplitl [V5]; · iapply (Entails.of_eq (congrArg (fun x => (semVal ((c : Thread nD τ), SemLoc.dma x) 0 : sProp 𝕄)) (sem_spell (k1_off55 i) s' 5 ev5 (k1_off55_inb i h4 h7)))); iexact V5
  isplitl [V6]; · iapply (Entails.of_eq (congrArg (fun x => (semVal ((c : Thread nD τ), SemLoc.dma x) 0 : sProp 𝕄)) (sem_spell (k1_off57 i) s' 6 ev6 (k1_off57_inb i h4 h7)))); iexact V6
  iapply (Entails.of_eq (congrArg (fun x => (semVal ((c : Thread nD τ), SemLoc.dma x) 0 : sProp 𝕄)) (sem_spell (k1_off59 i) s' 7 ev7 (k1_off59_inb i h4 h7)))); iexact V7

end Run1

/-! ## The obligation at the last point -/

section Points1c

variable (c : Dev nD) (A : Arrs (F := F) c) (Rec : Set (SemLoc sig × HIx 1)) (I : RegionInv c A)

omit [FloatOps F] in
theorem slot30 : slotOf (32 - 2) = 0 := by decide
omit [FloatOps F] in
theorem slot31 : slotOf (32 - 1) = 1 := by decide

/-- What a tail copy landed satisfies its chunk's predicate. -/
theorem tail_fact (t : Fin cfg1.N) (h65 : t.val = 65) (r : Fin 4) (d4 d5) (ht : Vec F S128x1024 .bf16) (l : Vec F S1x1024 .f32) (hHT : I.HT ht) (hL : I.LSE l)
    (s : Fin 2) (qj : Buf (Elt F) (ringM.view.loc (c : Thread nD τ))) (P : Vec F S1x3072x1024 .f32)
    (hP : P = k1_pay6 (stg c A 4 t d4) ht (stg c A 5 t d5) l)
    (tt : Buf (Elt F) (mainM.view.loc (c : Thread nD τ)))
    (hread : (mainTail r).view.read (Elt F) tt = ReadAs.same.apply ((ringTail s r).view.read (Elt F) (slotW c s qj P))) :
    I.OutT r ((mainTail r).view.read (Elt F) tt) := by
  subst hP
  refine I.hOutT t h65 r d4 d5 ht l hHT hL _ (fun i v => ?_)
  rw [hread]; exact landed_tail c s r qj _ i v

set_option maxHeartbeats 4000000 in
theorem point1_last (hRec : ∀ sm : SemLoc sig, (sm, (none : HIx 1)) ∈ Rec) (t : Fin cfg1.N) (h65 : t.val = 65) : PointObl c A Rec I t := by
  have e66 : t.val + 1 = 66 := by omega
  have h30 : 32 - 2 < 32 := by decide
  have h31 : 32 - 1 < 32 := by decide
  unfold PointObl bodyPre bodyPost bodyAt1
  simp only [before_eq]
  rw [show (pdat c A Rec I).Φ t.castSucc = Φ c A I t.val from rfl, show (pdat c A Rec I).Φ t.succ = Φ c A I (t.val + 1) from rfl,
    show (pdat c A Rec I).owesAt (none : HIx 1) t.succ = (pdat c A Rec I).owesAt (none : HIx 1) t.castSucc from rfl]
  rw [Φ_fly c A I t.val (by omega) (by omega), e66, Φ_done, show t.val - 33 = 32 from by omega, fly_ge c A I 32 (by decide),
    FlightB_lt c A I (32 - 2) (by decide), FlightB_lt c A I (32 - 1) (by decide)]
  unfold scr idle
  rw [sems0_eq]
  iintro ⟨⟨⟨⟨%hv, H9, %hhv⟩, ⟨%sv, H10, %hs⟩, ⟨%l, H11, %hl⟩⟩, ⟨%f0, Hl, %hl0⟩, ⟨%fu, Hu⟩, ⟨B0, B1, B2, B3, B4, B5, B6, B7⟩, ⟨C0, C1, C2, C3, C4, C5, C6, C7⟩⟩, ⟨%W, %hW, Ho⟩, ⟨%d0, H0⟩, ⟨%d1, H1⟩, ⟨%d2, H2⟩, ⟨%d3, H3⟩, ⟨%d4, H4⟩, ⟨%d5, H5⟩⟩
  -- the flights of blocks 30 and 31, over the rows' ranges
  ihave B0 := (FlightC_elim c A I (⟨32 - 2, h30⟩ : Fin 32) 0 (0 : Fin 2) slot30 (92160) (92544) 0 384 rfl rfl rfl rfl) $$ B0
  icases B0 with ⟨%g0, %q0, %hg0, B0⟩
  ihave B1 := (FlightC_elim c A I (⟨32 - 2, h30⟩ : Fin 32) 1 (0 : Fin 2) slot30 (92544) (92928) 384 768 rfl rfl rfl rfl) $$ B1
  icases B1 with ⟨%g1, %q1, %hg1, B1⟩
  ihave B2 := (FlightC_elim c A I (⟨32 - 2, h30⟩ : Fin 32) 2 (0 : Fin 2) slot30 (92928) (93312) 768 1152 rfl rfl rfl rfl) $$ B2
  icases B2 with ⟨%g2, %q2, %hg2, B2⟩
  ihave B3 := (FlightC_elim c A I (⟨32 - 2, h30⟩ : Fin 32) 3 (0 : Fin 2) slot30 (93312) (93696) 1152 1536 rfl rfl rfl rfl) $$ B3
  icases B3 with ⟨%g3, %q3, %hg3, B3⟩
  ihave B4 := (FlightC_elim c A I (⟨32 - 2, h30⟩ : Fin 32) 4 (0 : Fin 2) slot30 (93696) (94080) 1536 1920 rfl rfl rfl rfl) $$ B4
  icases B4 with ⟨%g4, %q4, %hg4, B4⟩
  ihave B5 := (FlightC_elim c A I (⟨32 - 2, h30⟩ : Fin 32) 5 (0 : Fin 2) slot30 (94080) (94464) 1920 2304 rfl rfl rfl rfl) $$ B5
  icases B5 with ⟨%g5, %q5, %hg5, B5⟩
  ihave B6 := (FlightC_elim c A I (⟨32 - 2, h30⟩ : Fin 32) 6 (0 : Fin 2) slot30 (94464) (94848) 2304 2688 rfl rfl rfl rfl) $$ B6
  icases B6 with ⟨%g6, %q6, %hg6, B6⟩
  ihave B7 := (FlightC_elim c A I (⟨32 - 2, h30⟩ : Fin 32) 7 (0 : Fin 2) slot30 (94848) (95232) 2688 3072 rfl rfl rfl rfl) $$ B7
  icases B7 with ⟨%g7, %q7, %hg7, B7⟩
  ihave C0 := (FlightC_elim c A I (⟨32 - 1, h31⟩ : Fin 32) 0 (1 : Fin 2) slot31 (95232) (95616) 0 384 rfl rfl rfl rfl) $$ C0
  icases C0 with ⟨%k0, %p0, %hk0, C0⟩
  ihave C1 := (FlightC_elim c A I (⟨32 - 1, h31⟩ : Fin 32) 1 (1 : Fin 2) slot31 (95616) (96000) 384 768 rfl rfl rfl rfl) $$ C1
  icases C1 with ⟨%k1, %p1, %hk1, C1⟩
  ihave C2 := (FlightC_elim c A I (⟨32 - 1, h31⟩ : Fin 32) 2 (1 : Fin 2) slot31 (96000) (96384) 768 1152 rfl rfl rfl rfl) $$ C2
  icases C2 with ⟨%k2, %p2, %hk2, C2⟩
  ihave C3 := (FlightC_elim c A I (⟨32 - 1, h31⟩ : Fin 32) 3 (1 : Fin 2) slot31 (96384) (96768) 1152 1536 rfl rfl rfl rfl) $$ C3
  icases C3 with ⟨%k3, %p3, %hk3, C3⟩
  ihave C4 := (FlightC_elim c A I (⟨32 - 1, h31⟩ : Fin 32) 4 (1 : Fin 2) slot31 (96768) (97152) 1536 1920 rfl rfl rfl rfl) $$ C4
  icases C4 with ⟨%k4, %p4, %hk4, C4⟩
  ihave C5 := (FlightC_elim c A I (⟨32 - 1, h31⟩ : Fin 32) 5 (1 : Fin 2) slot31 (97152) (97536) 1920 2304 rfl rfl rfl rfl) $$ C5
  icases C5 with ⟨%k5, %p5, %hk5, C5⟩
  ihave C6 := (FlightC_elim c A I (⟨32 - 1, h31⟩ : Fin 32) 6 (1 : Fin 2) slot31 (97536) (97920) 2304 2688 rfl rfl rfl rfl) $$ C6
  icases C6 with ⟨%k6, %p6, %hk6, C6⟩
  ihave C7 := (FlightC_elim c A I (⟨32 - 1, h31⟩ : Fin 32) 7 (1 : Fin 2) slot31 (97920) (98304) 2688 3072 rfl rfl rfl rfl) $$ C7
  icases C7 with ⟨%k7, %p7, %hk7, C7⟩
  -- the untouched rows: the last block's
  ihave Hu := (Entails.of_eq (congrArg (fun S : Finset S100000x1024.Idx => (mainM.view.loc (c : Thread nD τ) ↦[S]{fullShare} fu : sProp 𝕄))
      (rowRange_congr (show 3072 * 32 = 98304 from rfl) rfl))) $$ Hu
  iapply (run1_last c (grid1.coords t) _ _ _ _ _ _ _ _ _ _ _ _ (by rw [coords1, h65]) (0 : Fin 2) (1 : Fin 2) rfl rfl
    (fun hc => by have := (hcA t).mp hc; omega) (fun hc => by have := (hcB t).mp hc; omega) (fun hc => by have := (hcC t).mp hc; omega)
    ((hc4 t).mpr (by omega)) ((hc5 t).mpr (by omega)) (fun hc => by have := (hc6 t).mp hc; omega) ((hc7 t).mpr (by omega))
    (stg c A 4 t d4) (stg c A 5 t d5) hv l
    (rowRange 92160 92544) (rowRange 92544 92928) (rowRange 92928 93312) (rowRange 93312 93696) (rowRange 93696 94080) (rowRange 94080 94464) (rowRange 94464 94848) (rowRange 94848 95232)
    (rowRange 95232 95616) (rowRange 95616 96000) (rowRange 96000 96384) (rowRange 96384 96768) (rowRange 96768 97152) (rowRange 97152 97536) (rowRange 97536 97920) (rowRange 97920 98304)
    g0 g1 g2 g3 g4 g5 g6 g7 k0 k1 k2 k3 k4 k5 k6 k7 fu q0 q1 q2 q3 q4 q5 q6 q7 p0 p1 p2 p3 p4 p5 p6 p7 W _)
  isplitl [H4]; · iexact H4
  isplitl [H5]; · iexact H5
  isplitl [H9]; · iexact H9
  isplitl [H11]; · iexact H11
  isplitl [Ho]; · iexact Ho
  isplitl [Hu]; · iexact Hu
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  iintro ⟨H4, H5, H9, H11, ⟨%W', %hW', Ho⟩, L0, L1, L2, L3, L4, L5, L6, L7, M0, M1, M2, M3, M4, M5, M6, M7, R0, R1, R2, R3, R4, R5, R6, R7,
    ⟨%qj, %P, %hP, ⟨%t0, %ht0, Dt0, Rt0⟩, ⟨%t1, %ht1, Dt1, Rt1⟩, ⟨%t2, %ht2, Dt2, Rt2⟩, ⟨%t3, %ht3, Dt3, Rt3⟩, Rrest⟩,
    Z0, Z1, Z2, Z3, Z4, Z5, Z6, Z7, Y0, Y1, Y2, Y3, Y4, Y5, Y6, Y7⟩
  have hHT : I.HT hv := hhv (by omega)
  have hL : I.LSE l := hl (by omega)
  -- the landed rows grow by blocks 30 and 31
  ihave HL := (landed_join c A I (⟨32 - 2, h30⟩ : Fin 32) f0 g0 g1 g2 g3 g4 g5 g6 g7 (fun b' r hb => hl0 b' r (by simp only at hb; omega))
    hg0 hg1 hg2 hg3 hg4 hg5 hg6 hg7) $$ [Hl L0 L1 L2 L3 L4 L5 L6 L7]
  · isplitl [Hl]; · iexact Hl
    isplitl [L0]; · iexact L0
    isplitl [L1]; · iexact L1
    isplitl [L2]; · iexact L2
    isplitl [L3]; · iexact L3
    isplitl [L4]; · iexact L4
    isplitl [L5]; · iexact L5
    isplitl [L6]; · iexact L6
    iexact L7
  icases HL with ⟨%f1, Hl, %hf1⟩
  ihave HL := (landed_join c A I (⟨32 - 1, h31⟩ : Fin 32) f1 k0 k1 k2 k3 k4 k5 k6 k7 (fun b' r hb => hf1 b' r (by simp only at hb ⊢; omega))
    hk0 hk1 hk2 hk3 hk4 hk5 hk6 hk7) $$ [Hl M0 M1 M2 M3 M4 M5 M6 M7]
  · isplitl [Hl]; · iexact Hl
    isplitl [M0]; · iexact M0
    isplitl [M1]; · iexact M1
    isplitl [M2]; · iexact M2
    isplitl [M3]; · iexact M3
    isplitl [M4]; · iexact M4
    isplitl [M5]; · iexact M5
    isplitl [M6]; · iexact M6
    iexact M7
  icases HL with ⟨%f2, Hl, %hf2⟩
  -- and by the last block's four chunks: the whole result
  ihave HF := (final_join c A I f2 t0 t1 t2 t3 (fun b' r hb => hf2 b' r (by simp only; omega))
    (tail_fact c A I t h65 0 d4 d5 hv l hHT hL 0 qj P hP t0 ht0) (tail_fact c A I t h65 1 d4 d5 hv l hHT hL 0 qj P hP t1 ht1)
    (tail_fact c A I t h65 2 d4 d5 hv l hHT hL 0 qj P hP t2 ht2) (tail_fact c A I t h65 3 d4 d5 hv l hHT hL 0 qj P hP t3 ht3)) $$ [Hl Dt0 Dt1 Dt2 Dt3]
  · isplitl [Hl]; · iexact Hl
    isplitl [Dt0]; · iexact Dt0
    isplitl [Dt1]; · iexact Dt1
    isplitl [Dt2]; · iexact Dt2
    iexact Dt3
  icases HF with ⟨%ff, Hm, %hff⟩
  -- the ring: the two slots, whole again
  ihave Hs0 := (slot_join_tail c (0 : Fin 2).val _ _ _ _ _) $$ [Rt0 Rt1 Rt2 Rt3 Rrest]
  · isplitl [Rt0]; · iexact Rt0
    isplitl [Rt1]; · iexact Rt1
    isplitl [Rt2]; · iexact Rt2
    isplitl [Rt3]; · iexact Rt3
    iexact Rrest
  icases Hs0 with ⟨%qa, Hs0⟩
  ihave Hs1 := (slot_join c (1 : Fin 2).val p0 p1 p2 p3 p4 p5 p6 p7) $$ [R0 R1 R2 R3 R4 R5 R6 R7]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  icases Hs1 with ⟨%qb, Hs1⟩
  ihave Hr := (ring_slots_join c qa qb) $$ [Hs0 Hs1]
  · isplitl [Hs0]; · iexact Hs0
    iexact Hs1
  icases Hr with ⟨%qr, Hr⟩
  isplitl [H9 H10 H11 Hm Hr Z0 Z1 Z2 Z3 Z4 Z5 Z6 Z7 Y0 Y1 Y2 Y3 Y4 Y5 Y6 Y7]
  · isplitl [H9 H10 H11]
    · isplitl [H9]
      · iexists hv; isplitl [H9]; · iexact H9
        ipureintro; intro _; exact hHT
      isplitl [H10]
      · iexists sv; isplitl [H10]; · iexact H10
        ipureintro; intro _
        have hs' := hs (by omega)
        rw [min_eq_right (by omega : 32 ≤ t.val)] at hs'
        exact hs'
      · iexists l; isplitl [H11]; · iexact H11
        ipureintro; intro _; exact hL
    isplitl [Hm]
    · iexists ff; isplitl [Hm]; · iexact Hm
      ipureintro; intro _; exact hff
    isplitl [Hr]; · iexists qr; iexact Hr
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    iexact Y7
  isplitl [Ho]
  · iexists W'; isplitr
    · ipureintro
      intro p hp
      rcases hW' p (Finset.mem_coe.mp hp) with h | h
      · exact hW (Finset.mem_coe.mpr h)
      · exact Or.inl (by obtain ⟨sm, ix⟩ := p; cases h; exact hRec sm)
    · iexact Ho
  isplitl [H0]; · iapply (owns_after c A Rec I 0 (fun _ _ => rfl) t d0 _) $$ H0
  isplitl [H1]; · iapply (owns_after c A Rec I 1 (fun _ _ => rfl) t d1 _) $$ H1
  isplitl [H2]; · iapply (owns_after c A Rec I 2 (fun _ _ => rfl) t d2 _) $$ H2
  isplitl [H3]; · iapply (owns_after c A Rec I 3 (fun _ _ => rfl) t d3 _) $$ H3
  isplitl [H4]; · iexists d4; iapply (owns_fill_cut c A Rec I 4 t d4 _) $$ H4
  iexists d5; iapply (owns_fill_cut c A Rec I 5 t d5 _) $$ H5

end Points1c

end Cert.Proof.KernelIdeal

end
-- ==== Proof.KernelIdeal.RegionBody.lean ====
/-
  The TensorCore region's body obligation: at every grid point the body runs from the invariant before the point
  to the invariant after it — the three kinds of point of pass 0, the first two of pass 1, those that wait, store
  and start, and the last.
-/
import proofs.«204087_g3891240370374_cont_8to1_b_1678_29_alg».proof.Proof.KernelIdeal.RegionBody0
import proofs.«204087_g3891240370374_cont_8to1_b_1678_29_alg».proof.Proof.KernelIdeal.RegionBody1a
import proofs.«204087_g3891240370374_cont_8to1_b_1678_29_alg».proof.Proof.KernelIdeal.RegionBody1b
import proofs.«204087_g3891240370374_cont_8to1_b_1678_29_alg».proof.Proof.KernelIdeal.RegionBody1c

set_option maxRecDepth 16384

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig (HIx 1) (Elt F) ℕ UU ℕ

theorem hbody (c : Dev nD) (A : Arrs (F := F) c) (Rec : Set (SemLoc sig × HIx 1)) (I : RegionInv c A)
    (hRec : ∀ sm : SemLoc sig, (sm, (none : HIx 1)) ∈ Rec) :
    BodyObligationLoose (pdat c A Rec I) (defs₀ (F := F)) 𝒱₀ (none : HIx 1) Set.univ :=
  hbody_of c A Rec I fun t => by
    have hN : t.val < 66 := lt_of_lt_of_eq t.isLt N_1
    by_cases h0 : t.val = 0
    · exact point0_first c A Rec I t h0
    by_cases h32 : t.val < 32
    · exact point0_mid c A Rec I t (by omega) h32
    by_cases h32' : t.val = 32
    · exact point0_last c A Rec I t h32'
    by_cases h33 : t.val = 33
    · exact point1_first c A Rec I t h33
    by_cases h34 : t.val = 34
    · exact point1_second c A Rec I t h34
    by_cases h64 : t.val ≤ 64
    · exact point1_mid c A Rec I hRec t (by omega) h64
    · exact point1_last c A Rec I hRec t (by omega)

end Cert.Proof.KernelIdeal

end
-- ==== Proof.RefTerm.lean ====
/-
  What the reference computes, as a term of its six arguments, in five stages: the looked-up rows (a gather under a
  wrapped, range-checked index, a fill value elsewhere), the projection with its bias, the rectifier, the output
  layer with its bias, and the logarithm of the soft-max in its shifted form.
-/
import proofs.«204087_g3891240370374_cont_8to1_b_1678_29_alg».proof.ReferenceIdeal

noncomputable section

namespace Cert.ReferenceIdeal.RefRun

open Cert.ReferenceIdeal Idealize.ShloMosaic

variable {F : FTy → Type} [FloatOps F] [Cert.ReferenceIdeal.Facts]
open Cert.ReferenceIdeal.Facts₀ Cert.ReferenceIdeal.Facts

/-- The index with a negative value wrapped once around the table. -/
def wrapped (idx : IVec S1024 32) : IVec S1024 32 :=
  select (cmpi .slt idx (broadcastInDim S1024 ![] bcast_S_S1024 (constantI S_ 32 0#32)))
    (addi idx (broadcastInDim S1024 ![] bcast_S_S1024 (constantI S_ 32 100000#32))) idx

/-- The wrapped index as a column of start indices. -/
def starts (idx : IVec S1024 32) : IVec S1024x1 32 :=
  broadcastInDim S1024x1 ![0] bcast_S1024_S1024x1_0 (wrapped idx)

/-- Which batch entries' start index names a row of the table. -/
def inRange (st : IVec S1024x1 32) : IVec S1024 1 :=
  Host.reduce IntOp.andi
    (andi (cmpi .sge st (broadcastInDim S1024x1 ![] bcast_S_S1024x1 (constantI S_ 32 0#32)))
      (cmpi .sle st (broadcastInDim S1024x1 ![0, 1] bcast_S1x1_S1024x1_0_1
        (broadcastInDim S1x1 ![1] bcast_S1_S1x1_1 (constantI S1 32 99999#32)))))
    (constantI S_ 1 1#1) reducesTo_S1024x1_S1024_d1 h_S_

/-- The looked-up rows: the gathered row where the start index is in range, a fill value elsewhere. -/
def taken (idx : IVec S1024 32) (emb : FVec F S100000x64 .f32) : FVec F S1024x64 .f32 :=
  select (broadcastInDim S1024x64 ![0] bcast_S1024_S1024x64_0 (inRange (starts idx)))
    (Host.gather gather_S100000x64_S1024x1_S1024x64_1_0_n_n_0_1_164 emb (starts idx))
    (broadcastInDim S1024x64 ![] bcast_S_S1024x64 (constant S_ .f32 0x7FC00000#32))

/-- The projection: the rows against the transposed projection matrix, plus the bias along the rows. -/
def proj (x : FVec F S1024x64 .f32) (Wp : FVec F S128x64 .f32) (bp : FVec F S128 .f32) : FVec F S1024x128 .f32 :=
  addf (Host.dotGeneral dot_S1024x64_S64x128_S1024x128_1_0_0_1_n_n none x
      (transpose S64x128 [1, 0] Wp transposes_S128x64_S64x128_1_0))
    (broadcastInDim S1024x128 ![0, 1] bcast_S1x128_S1024x128_0_1 (broadcastInDim S1x128 ![1] bcast_S128_S1x128_1 bp))

/-- The rectifier: the maximum with zero. -/
def relu (x : FVec F S1024x128 .f32) : FVec F S1024x128 .f32 :=
  maximumf x (broadcastInDim S1024x128 ![] bcast_S_S1024x128 (constant S_ .f32 0x00000000#32))

/-- The output layer: the hidden rows against the transposed output matrix, plus the bias along the rows. -/
def outLayer (h : FVec F S1024x128 .f32) (Wo : FVec F S100000x128 .f32) (bo : FVec F S100000 .f32) : FVec F S1024x100000 .f32 :=
  addf (Host.dotGeneral dot_S1024x128_S128x100000_S1024x100000_1_0_0_1_n_n none h
      (transpose S128x100000 [1, 0] Wo transposes_S100000x128_S128x100000_1_0))
    (broadcastInDim S1024x100000 ![0, 1] bcast_S1x100000_S1024x100000_0_1 (broadcastInDim S1x100000 ![1] bcast_S100000_S1x100000_1 bo))

/-- Each row's maximum, as the program takes it: a max-reduce from `-∞`, then the maximum with `-∞` again. -/
def rowMax (x : FVec F S1024x100000 .f32) : FVec F S1024 .f32 :=
  maximumf (broadcastInDim S1024 ![] bcast_S_S1024 (constant S_ .f32 0xFF800000#32))
    (Host.reduce FloatOps.maximumf x (constant S_ .f32 0xFF800000#32) reducesTo_S1024x100000_S1024_d1 h_S_)

/-- The rows shifted by their maximum. -/
def shifted (x : FVec F S1024x100000 .f32) : FVec F S1024x100000 .f32 :=
  subf x (broadcastInDim S1024x100000 ![0, 1] bcast_S1024x1_S1024x100000_0_1
    (broadcastInDim S1024x1 ![0] bcast_S1024_S1024x1_0 (rowMax x)))

/-- Each row's sum of the exponentials of the shifted row, from the initial value zero. -/
def sumExp (sh : FVec F S1024x100000 .f32) : FVec F S1024 .f32 :=
  Host.reduceAdd (Host.exp sh) (constant S_ .f32 0x00000000#32) reducesTo_S1024x100000_S1024_d1 h_S_

/-- The logarithm of the soft-max along the rows, in the shifted form. -/
def logSoftmax (x : FVec F S1024x100000 .f32) : FVec F S1024x100000 .f32 :=
  subf (shifted x) (broadcastInDim S1024x100000 ![0, 1] bcast_S1024x1_S1024x100000_0_1
    (Host.log (broadcastInDim S1024x1 ![0] bcast_S1024_S1024x1_0 (sumExp (shifted x)))))

/-- What the program computes from its six arguments. -/
def out (idx : IVec S1024 32) (emb : FVec F S100000x64 .f32) (Wp : FVec F S128x64 .f32) (bp : FVec F S128 .f32)
    (Wo : FVec F S100000x128 .f32) (bo : FVec F S100000 .f32) : FVec F S1024x100000 .f32 :=
  logSoftmax (outLayer (relu (proj (taken idx emb) Wp bp)) Wo bo)

end Cert.ReferenceIdeal.RefRun

end
-- ==== Proof.RefRun.lean ====
/-
  The reference's run, written out: @main with its three outlined functions unfolded at their calls is one
  straight line of fifty-two host operations; every weakly fair execution ends with the result buffer at the
  operations' composed term of the six arguments (`out`), the arguments unchanged.
-/
import proofs.«204087_g3891240370374_cont_8to1_b_1678_29_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-! ## The operations -/

/-- @main's fifty-two operations in order, the calls unfolded: the lookup's twenty-three (the select of the
    wrapped index among them), the projection's five, the rectifier's three, the output layer's five, the
    log-soft-max's sixteen. -/
abbrev ops : List (HloOp τ sig (Elt F)) :=
  [ TRef.nullary main_call0.c (constantI S_ 32 0#32),
    TRef.unary main_call0.c main_call0.v0 (broadcastInDim S1024 ![] bcast_S_S1024),
    TRef.binary (.of main_arg0 : TRef sig ⟨S1024, .i32⟩) main_call0.v0 main_call0.v1 (cmpi .slt),
    TRef.nullary main_call0.c_0 (constantI S_ 32 100000#32),
    TRef.unary main_call0.c_0 main_call0.v2 (broadcastInDim S1024 ![] bcast_S_S1024),
    TRef.binary (.of main_arg0 : TRef sig ⟨S1024, .i32⟩) main_call0.v2 main_call0.v3 addi,
    TRef.ternary main_call0.v1 main_call0.v3 (.of main_arg0 : TRef sig ⟨S1024, .i32⟩) main_call0.call0.v0 select,
    TRef.unary main_call0.call0.v0 main_call0.v5 (broadcastInDim S1024x1 ![0] bcast_S1024_S1024x1_0),
    TRef.nullary main_call0.c_1 (constantI S1 32 99999#32),
    TRef.nullary main_call0.c_2 (constantI S_ 32 0#32),
    TRef.unary main_call0.c_2 main_call0.v6 (broadcastInDim S1024x1 ![] bcast_S_S1024x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024x1 ![0, 1] bcast_S1x1_S1024x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1_S1024_d1 h_S_),
    TRef.binary (.of main_arg1 : TRef sig ⟨S100000x64, .f32⟩) main_call0.v5 main_call0.v13 (fun x i => Host.gather gather_S100000x64_S1024x1_S1024x64_1_0_n_n_0_1_164 x i),
    TRef.unary main_call0.v12 main_call0.v14 (broadcastInDim S1024x64 ![0] bcast_S1024_S1024x64_0),
    TRef.nullary main_call0.cst (constant S_ .f32 0x7FC00000#32),
    TRef.unary main_call0.cst main_call0.v15 (broadcastInDim S1024x64 ![] bcast_S_S1024x64),
    TRef.ternary main_call0.v14 main_call0.v13 main_call0.v15 main_call0.v16 select,
    unary main_arg2 main_v1 ((transpose S64x128 [1, 0] · transposes_S128x64_S64x128_1_0) : (⟨S128x64, .f32⟩ : BufTy).Contents (Elt F) → (⟨S64x128, .f32⟩ : BufTy).Contents (Elt F)),
    binary main_v0 main_v1 main_v2 ((fun l r => Host.dotGeneral dot_S1024x64_S64x128_S1024x128_1_0_0_1_n_n none l r) : (⟨S1024x64, .f32⟩ : BufTy).Contents (Elt F) → (⟨S64x128, .f32⟩ : BufTy).Contents (Elt F) → (⟨S1024x128, .f32⟩ : BufTy).Contents (Elt F)),
    unary main_arg3 main_v3 (broadcastInDim S1x128 ![1] bcast_S128_S1x128_1 : (⟨S128, .f32⟩ : BufTy).Contents (Elt F) → (⟨S1x128, .f32⟩ : BufTy).Contents (Elt F)),
    unary main_v3 main_v4 (broadcastInDim S1024x128 ![0, 1] bcast_S1x128_S1024x128_0_1 : (⟨S1x128, .f32⟩ : BufTy).Contents (Elt F) → (⟨S1024x128, .f32⟩ : BufTy).Contents (Elt F)),
    binary main_v2 main_v4 main_v5 (addf : (⟨S1024x128, .f32⟩ : BufTy).Contents (Elt F) → (⟨S1024x128, .f32⟩ : BufTy).Contents (Elt F) → (⟨S1024x128, .f32⟩ : BufTy).Contents (Elt F)),
    TRef.nullary main_call1.cst (constant S_ .f32 0x00000000#32),
    TRef.unary main_call1.cst main_call1.v0 (broadcastInDim S1024x128 ![] bcast_S_S1024x128),
    TRef.binary (.of main_v5 : TRef sig ⟨S1024x128, .f32⟩) main_call1.v0 main_call1.v1 maximumf,
    unary main_arg4 main_v7 ((transpose S128x100000 [1, 0] · transposes_S100000x128_S128x100000_1_0) : (⟨S100000x128, .f32⟩ : BufTy).Contents (Elt F) → (⟨S128x100000, .f32⟩ : BufTy).Contents (Elt F)),
    binary main_v6 main_v7 main_v8 ((fun l r => Host.dotGeneral dot_S1024x128_S128x100000_S1024x100000_1_0_0_1_n_n none l r) : (⟨S1024x128, .f32⟩ : BufTy).Contents (Elt F) → (⟨S128x100000, .f32⟩ : BufTy).Contents (Elt F) → (⟨S1024x100000, .f32⟩ : BufTy).Contents (Elt F)),
    unary main_arg5 main_v9 (broadcastInDim S1x100000 ![1] bcast_S100000_S1x100000_1 : (⟨S100000, .f32⟩ : BufTy).Contents (Elt F) → (⟨S1x100000, .f32⟩ : BufTy).Contents (Elt F)),
    unary main_v9 main_v10 (broadcastInDim S1024x100000 ![0, 1] bcast_S1x100000_S1024x100000_0_1 : (⟨S1x100000, .f32⟩ : BufTy).Contents (Elt F) → (⟨S1024x100000, .f32⟩ : BufTy).Contents (Elt F)),
    binary main_v8 main_v10 main_v11 (addf : (⟨S1024x100000, .f32⟩ : BufTy).Contents (Elt F) → (⟨S1024x100000, .f32⟩ : BufTy).Contents (Elt F) → (⟨S1024x100000, .f32⟩ : BufTy).Contents (Elt F)),
    TRef.nullary main_call2.cst (constant S_ .f32 0xFF800000#32),
    TRef.binary (.of main_v11 : TRef sig ⟨S1024x100000, .f32⟩) main_call2.cst main_call2.v0 (fun x v => Host.reduce FloatOps.maximumf x v reducesTo_S1024x100000_S1024_d1 h_S_),
    TRef.nullary main_call2.cst_0 (constant S_ .f32 0xFF800000#32),
    TRef.unary main_call2.cst_0 main_call2.v1 (broadcastInDim S1024 ![] bcast_S_S1024),
    TRef.binary main_call2.v1 main_call2.v0 main_call2.v2 maximumf,
    TRef.unary main_call2.v2 main_call2.v3 (broadcastInDim S1024x1 ![0] bcast_S1024_S1024x1_0),
    TRef.unary main_call2.v3 main_call2.v4 (broadcastInDim S1024x100000 ![0, 1] bcast_S1024x1_S1024x100000_0_1),
    TRef.binary (.of main_v11 : TRef sig ⟨S1024x100000, .f32⟩) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S1024x100000_S1024_d1 h_S_),
    TRef.unary main_call2.v7 main_call2.v8 (broadcastInDim S1024x1 ![0] bcast_S1024_S1024x1_0),
    TRef.unary main_call2.v8 main_call2.v9 Host.log,
    TRef.unary main_call2.v9 main_call2.v10 (broadcastInDim S1024x100000 ![0, 1] bcast_S1024x1_S1024x100000_0_1),
    TRef.binary main_call2.v5 main_call2.v10 main_call2.v11 subf ]

set_option maxRecDepth 1024 in
/-- @main is that straight line: the functions unfolded at their calls, sequencing re-associated. -/
theorem main_eq (c : Dev nD) : main (F := F) c = seq ops := by
  simp only [main, fn_take.body, fn_where.body, fn_relu.body, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., binary_bufs_sub .., unary_bufs_sub .., unary_bufs_sub .., binary_bufs_sub ..,
    nullary_bufs_sub .., unary_bufs_sub .., binary_bufs_sub ..,
    unary_bufs_sub .., binary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

/-- On every device, from any memory with zero counters: every weakly fair execution of @main terminates and every
    TensorCore buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the buffers hold after the line -/

/-- A transport along an equation between a type and itself is the identity. -/
theorem cast_self {α : Sort _} (h : α = α) (a : α) : cast h a = a := eq_of_heq (cast_heq h a)

set_option maxRecDepth 8192 in
set_option maxHeartbeats 1000000 in
/-- The fold at the result buffer is `out` of the arguments: each operation's result read at its own buffer is its
    function of its operands' buffers, every other buffer keeps what it held, and the typed references' transports
    are the identity at literal references. -/
theorem out_eq (V : Valuation τ sig (Elt F)) :
    after ops V (main_v12 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  simp only [TRef.toBuf, TRef.ofBuf, cast_self]
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- On every device, for any float values, from any memory with zero counters: every weakly fair execution of
    @main terminates with the result at `out` of the arguments' launch contents and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
          = out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v12).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_main m ρ)

end Cert.ReferenceIdeal.RefRun

end
-- ==== Proof.RefValue.lean ====
/-
  The reference's composed term read at an index, at the ideal instance: under the decoded precondition (every
  float entry a real, every index word in `[0, 99999]`) it is the specification `Cert.Spec.G`. The lookup: a word
  that is not negative is not wrapped, it passes the range check, the gather's clamp leaves it, so the row is the
  table's row at the word. The two layers: a contraction over one axis is the sum over that axis's coordinates,
  a transpose swaps them, a bias broadcast along the rows reads the bias. The logarithm of the soft-max: the row
  maximum is the fold of `max` from `-∞`, the host sum is `0 + ∑`, and the shift law closes.
-/
import proofs.«204087_g3891240370374_cont_8to1_b_1678_29_alg».proof.Proof.RefTerm
import proofs.«204087_g3891240370374_cont_8to1_b_1678_29_alg».proof.Proof.Pre
import Idealize.ShloMosaic.Lib.IdealHost
import Idealize.ShloMosaic.Lib.ValueLayout
import Idealize.ShloMosaic.Lib.KernelVsHost

noncomputable section

open scoped BigOperators

namespace Cert.ReferenceIdeal.RefValue

open Cert.ReferenceIdeal Cert.ReferenceIdeal.RefRun Idealize.ShloMosaic Idealize.ShloMosaic.ValueIdx Cert.Spec

variable [Cert.ReferenceIdeal.Facts] [Cert.Pre_input_domain.Facts]
open Cert.ReferenceIdeal.Facts₀ Cert.ReferenceIdeal.Facts

/-! ## Broadcasts read at an index -/

/-- A vector broadcast to a column reads the vector at the row. -/
theorem bcast_col_apply {α : Type} (r : S1024.Idx → α) (b : Fin 1024) (z : Fin 1) :
    broadcastInDim S1024x1 ![0] bcast_S1024_S1024x1_0 r (ix2 b z) = r (ix1 b) := by
  refine broadcastInDim_apply ![0] bcast_S1024_S1024x1_0 r (ix2 b z) (ix1 b) ?_
  intro a
  match a with
  | ⟨0, _⟩ =>
    show b.val = if (1024 : ℕ) = 1 then 0 else b.val
    simp

/-- A column broadcast along the vocabulary reads the column at the row. -/
theorem bcast_colrow_apply {α : Type} (c : S1024x1.Idx → α) (b : Fin 1024) (v : Fin 100000) :
    broadcastInDim S1024x100000 ![0, 1] bcast_S1024x1_S1024x100000_0_1 c (ix2 b v) = c (ix2 b (0 : Fin 1)) := by
  refine broadcastInDim_apply ![0, 1] bcast_S1024x1_S1024x100000_0_1 c (ix2 b v) (ix2 b (0 : Fin 1)) ?_
  intro a
  match a with
  | ⟨0, _⟩ =>
    show b.val = if (1024 : ℕ) = 1 then 0 else b.val
    simp
  | ⟨1, _⟩ =>
    show (0 : ℕ) = if (1 : ℕ) = 1 then 0 else v.val
    simp

/-- A vector broadcast to the 64 columns of the looked-up rows reads the vector at the row. -/
theorem bcast_row64_apply {α : Type} (r : S1024.Idx → α) (b : Fin 1024) (d : Fin 64) :
    broadcastInDim S1024x64 ![0] bcast_S1024_S1024x64_0 r (ix2 b d) = r (ix1 b) := by
  refine broadcastInDim_apply ![0] bcast_S1024_S1024x64_0 r (ix2 b d) (ix1 b) ?_
  intro a
  match a with
  | ⟨0, _⟩ =>
    show b.val = if (1024 : ℕ) = 1 then 0 else b.val
    simp

/-- The projection's bias, broadcast to one row and then down the batch, reads the bias at the column. -/
theorem bcast_bias128_apply {α : Type} (bp : S128.Idx → α) (b : Fin 1024) (k : Fin 128) :
    broadcastInDim S1024x128 ![0, 1] bcast_S1x128_S1024x128_0_1 (broadcastInDim S1x128 ![1] bcast_S128_S1x128_1 bp) (ix2 b k)
      = bp (ix1 k) := by
  rw [broadcastInDim_oneRow_apply]
  refine broadcastInDim_apply ![1] bcast_S128_S1x128_1 bp (ix2 (0 : Fin 1) k) (ix1 k) ?_
  intro a
  match a with
  | ⟨0, _⟩ =>
    show k.val = if (128 : ℕ) = 1 then 0 else k.val
    simp

/-- The output layer's bias likewise. -/
theorem bcast_bias100000_apply {α : Type} (bo : S100000.Idx → α) (b : Fin 1024) (v : Fin 100000) :
    broadcastInDim S1024x100000 ![0, 1] bcast_S1x100000_S1024x100000_0_1 (broadcastInDim S1x100000 ![1] bcast_S100000_S1x100000_1 bo) (ix2 b v)
      = bo (ix1 v) := by
  rw [broadcastInDim_oneRow_apply]
  refine broadcastInDim_apply ![1] bcast_S100000_S1x100000_1 bo (ix2 (0 : Fin 1) v) (ix1 v) ?_
  intro a
  match a with
  | ⟨0, _⟩ =>
    show v.val = if (100000 : ℕ) = 1 then 0 else v.val
    simp

/-! ## The lookup -/

/-- A word that is not negative is not wrapped. -/
theorem wrapped_apply (idx : IVec S1024 32) (b : Fin 1024) (h0 : 0 ≤ (idx (ix1 b)).toInt) :
    wrapped idx (ix1 b) = idx (ix1 b) := by
  unfold wrapped
  rw [select_apply]
  have hc : cmpi .slt idx (broadcastInDim S1024 ![] bcast_S_S1024 (constantI S_ 32 0#32)) (ix1 b) = 0#1 := by
    refine eq_zero_of_ne_one fun h1 => ?_
    have h2 : IntOp.cmpi .slt (idx (ix1 b)) (0#32) = 1#1 := h1
    have h3 := IntOp.cmpi_slt.mp h2
    rw [show (0#32 : BitVec 32).toInt = 0 from by decide] at h3
    omega
  rw [hc, select_zero]

/-- The start index of a batch entry is its wrapped word. -/
theorem starts_apply (idx : IVec S1024 32) (b : Fin 1024) (z : Fin 1) : starts idx (ix2 b z) = wrapped idx (ix1 b) := by
  unfold starts
  exact bcast_col_apply _ b z

/-- A left fold by `and` from 1 over bits that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A start index in `[0, 99999]` passes the range check. -/
theorem inRange_apply (st : IVec S1024x1 32) (b : Fin 1024) (h0 : 0 ≤ (st (ix2 b (0 : Fin 1))).toInt)
    (h1 : (st (ix2 b (0 : Fin 1))).toInt ≤ 99999) : inRange st (ix1 b) = 1#1 := by
  unfold inRange
  rw [Host.reduce_eq_foldl]
  refine foldl_andi_one _ _ fun i hi => ?_
  have hd : reducesTo_S1024x1_S1024_d1.drop i = ix1 b := by simpa using (List.mem_filter.mp hi).2
  obtain ⟨p, q, rfl⟩ : ∃ (p : Fin 1024) (q : Fin 1), i = ix2 p q := ⟨i 0, i 1, eq_ix2 i⟩
  have hp : p = b := Fin.ext (congrArg (fun j : S1024.Idx => (j 0).val) hd)
  have hq : q = 0 := Subsingleton.elim _ _
  subst hp; subst hq
  show IntOp.andi (IntOp.cmpi .sge (st (ix2 p 0)) 0#32) (IntOp.cmpi .sle (st (ix2 p 0)) 99999#32) = 1#1
  refine IntOp.andi_eq_one.mpr ⟨IntOp.cmpi_sge.mpr ?_, IntOp.cmpi_sle.mpr ?_⟩
  · rw [show (0#32 : BitVec 32).toInt = 0 from by decide]; exact h0
  · rw [show (99999#32 : BitVec 32).toInt = 99999 from by decide]; exact h1

/-- The gather's row coordinate: the start index read signed and clamped into the table. -/
theorem gather_coord0 (st : IVec S1024x1 32) (b : Fin 1024) (d : Fin 64) :
    gather_S100000x64_S1024x1_S1024x64_1_0_n_n_0_1_164.start (ix2 b d) st (0 : Fin 2)
      + gather_S100000x64_S1024x1_S1024x64_1_0_n_n_0_1_164.batchCoord (ix2 b d) (0 : Fin 2)
      + gather_S100000x64_S1024x1_S1024x64_1_0_n_n_0_1_164.offCoord (ix2 b d) (0 : Fin 2)
      = min (st (ix2 b (0 : Fin 1))).toInt.toNat 99999 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S100000x64_S1024x1_S1024x64_1_0_n_n_0_1_164.startIndexMap from List.mem_singleton.mpr rfl)]
  have hsi : gather_S100000x64_S1024x1_S1024x64_1_0_n_n_0_1_164.siIdx (ix2 b d)
      ⟨List.idxOf (0 : Fin 2) gather_S100000x64_S1024x1_S1024x64_1_0_n_n_0_1_164.startIndexMap,
        List.idxOf_lt_length_iff.2 (List.mem_singleton.mpr rfl)⟩ = ix2 b (0 : Fin 1) := by
    funext c; refine Fin.ext ?_
    match c with
    | ⟨0, _⟩ => rfl
    | ⟨1, _⟩ => rfl
  rw [hsi]
  rfl

/-- The gather's column coordinate: the result's offset coordinate. -/
theorem gather_coord1 (st : IVec S1024x1 32) (b : Fin 1024) (d : Fin 64) :
    gather_S100000x64_S1024x1_S1024x64_1_0_n_n_0_1_164.start (ix2 b d) st (1 : Fin 2)
      + gather_S100000x64_S1024x1_S1024x64_1_0_n_n_0_1_164.batchCoord (ix2 b d) (1 : Fin 2)
      + gather_S100000x64_S1024x1_S1024x64_1_0_n_n_0_1_164.offCoord (ix2 b d) (1 : Fin 2)
      = d.val := by
  have hne : (1 : Fin 2) ≠ 0 := by decide
  have hs : (1 : Fin 2) ∉ gather_S100000x64_S1024x1_S1024x64_1_0_n_n_0_1_164.startIndexMap :=
    fun h => hne (List.mem_singleton.mp h)
  have hk : (1 : Fin 2) ∈ gather_S100000x64_S1024x1_S1024x64_1_0_n_n_0_1_164.sKept :=
    (GatherDims.mem_sKept _ _).mpr ⟨fun h => hne (List.mem_singleton.mp h), List.not_mem_nil⟩
  rw [GatherDims.batchCoord_eq_zero _ _ _ List.not_mem_nil]
  unfold GatherDims.start
  rw [dif_neg hs]
  unfold GatherDims.offCoord
  rw [dif_pos hk]
  simp only [Nat.zero_add, Nat.add_zero]
  rfl

/-- THE GATHER READ AT `(b, d)`: the table at the row the start index names, read signed and clamped into the table. -/
theorem gather_row_apply {α : Type} (emb : S100000x64.Idx → α) (st : IVec S1024x1 32) (b : Fin 1024) (d : Fin 64) :
    Host.gather gather_S100000x64_S1024x1_S1024x64_1_0_n_n_0_1_164 emb st (ix2 b d)
      = emb (ix2 (⟨min (st (ix2 b (0 : Fin 1))).toInt.toNat 99999, by omega⟩ : Fin 100000) d) := by
  unfold Host.gather
  congr 1
  funext a
  refine Fin.ext ?_
  have h2 : a = (0 : Fin 2) ∨ a = (1 : Fin 2) := by
    rcases a with ⟨v, hv⟩
    have hv2 : v < 2 := hv
    interval_cases v
    · exact Or.inl rfl
    · exact Or.inr rfl
  rcases h2 with rfl | rfl
  · exact gather_coord0 st b d
  · exact gather_coord1 st b d

/-- THE LOOKUP: for a word in `[0, 99999]` the looked-up row is the table's row at the word. -/
theorem taken_apply (idx : IVec S1024 32) (emb : FVec Ideal S100000x64 .f32) (b : Fin 1024) (d : Fin 64)
    (h0 : 0 ≤ (idx (ix1 b)).toInt) (h1 : (idx (ix1 b)).toInt ≤ 99999) :
    taken idx emb (ix2 b d) = emb (ix2 (row idx b) d) := by
  have hst : starts idx (ix2 b (0 : Fin 1)) = idx (ix1 b) := by rw [starts_apply, wrapped_apply _ _ h0]
  unfold taken
  rw [select_apply, bcast_row64_apply, inRange_apply _ b (by rw [hst]; exact h0) (by rw [hst]; exact h1), select_one,
    gather_row_apply]
  have hr := Cert.Pre.toNat_of_range _ h0 h1
  refine congrArg emb (congrArg (fun r : Fin 100000 => ix2 r d) (Fin.ext ?_))
  show min (starts idx (ix2 b (0 : Fin 1))).toInt.toNat 99999 = (idx (ix1 b)).toNat % 100000
  rw [hst, hr.2, Int.toNat_natCast]
  omega

/-! ## The two layers -/

/-- The pattern of `-∞` denotes the bottom element. -/
theorem ofBits_ninf : Ideal.ofBits .f32 0xFF800000#32 = ⊥ := by simp [Ideal.ofBits, Ideal.ieee]

/-- The projection's contraction read at `(b, k)`: the sum over the 64 coordinates of the contracted axis. -/
theorem dot1_apply (x : FVec Ideal S1024x64 .f32) (y : FVec Ideal S64x128 .f32) (b : Fin 1024) (k : Fin 128) :
    Host.dotGeneral dot_S1024x64_S64x128_S1024x128_1_0_0_1_n_n none x y (ix2 b k)
      = ∑ d : Fin 64, x (ix2 b d) * y (ix2 d k) := by
  simp only [Host.dotGeneral]
  rw [Ideal.dotGeneral_apply,
    ← Equiv.sum_comp (contrEquiv1 dot_S1024x64_S64x128_S1024x128_1_0_0_1_n_n 64 rfl rfl).symm]
  refine Finset.sum_congr rfl fun d _ => ?_
  have hl : dot_S1024x64_S64x128_S1024x128_1_0_0_1_n_n.lhsIdx (ix2 b k)
      ((contrEquiv1 dot_S1024x64_S64x128_S1024x128_1_0_0_1_n_n 64 rfl rfl).symm d) = ix2 b d := by
    funext a; refine Fin.ext ?_
    match a with
    | ⟨0, _⟩ => rfl
    | ⟨1, _⟩ =>
      exact (DotDims.lhsIdx_val_of_single _ (cl := (1 : Fin 2)) rfl _ _).trans
        (contrEquiv1_symm_val dot_S1024x64_S64x128_S1024x128_1_0_0_1_n_n 64 rfl rfl d)
  have hr : dot_S1024x64_S64x128_S1024x128_1_0_0_1_n_n.rhsIdx (ix2 b k)
      ((contrEquiv1 dot_S1024x64_S64x128_S1024x128_1_0_0_1_n_n 64 rfl rfl).symm d) = ix2 d k := by
    funext a; refine Fin.ext ?_
    match a with
    | ⟨0, _⟩ =>
      exact (DotDims.rhsIdx_val_of_single _ (cr := (0 : Fin 2)) rfl _ _).trans
        (contrEquiv1_symm_val dot_S1024x64_S64x128_S1024x128_1_0_0_1_n_n 64 rfl rfl d)
    | ⟨1, _⟩ => rfl
  rw [hl, hr]

/-- The output layer's contraction read at `(b, v)`: the sum over the 128 coordinates of the contracted axis. -/
theorem dot2_apply (x : FVec Ideal S1024x128 .f32) (y : FVec Ideal S128x100000 .f32) (b : Fin 1024) (v : Fin 100000) :
    Host.dotGeneral dot_S1024x128_S128x100000_S1024x100000_1_0_0_1_n_n none x y (ix2 b v)
      = ∑ k : Fin 128, x (ix2 b k) * y (ix2 k v) := by
  simp only [Host.dotGeneral]
  rw [Ideal.dotGeneral_apply,
    ← Equiv.sum_comp (contrEquiv1 dot_S1024x128_S128x100000_S1024x100000_1_0_0_1_n_n 128 rfl rfl).symm]
  refine Finset.sum_congr rfl fun k _ => ?_
  have hl : dot_S1024x128_S128x100000_S1024x100000_1_0_0_1_n_n.lhsIdx (ix2 b v)
      ((contrEquiv1 dot_S1024x128_S128x100000_S1024x100000_1_0_0_1_n_n 128 rfl rfl).symm k) = ix2 b k := by
    funext a; refine Fin.ext ?_
    match a with
    | ⟨0, _⟩ => rfl
    | ⟨1, _⟩ =>
      exact (DotDims.lhsIdx_val_of_single _ (cl := (1 : Fin 2)) rfl _ _).trans
        (contrEquiv1_symm_val dot_S1024x128_S128x100000_S1024x100000_1_0_0_1_n_n 128 rfl rfl k)
  have hr : dot_S1024x128_S128x100000_S1024x100000_1_0_0_1_n_n.rhsIdx (ix2 b v)
      ((contrEquiv1 dot_S1024x128_S128x100000_S1024x100000_1_0_0_1_n_n 128 rfl rfl).symm k) = ix2 k v := by
    funext a; refine Fin.ext ?_
    match a with
    | ⟨0, _⟩ =>
      exact (DotDims.rhsIdx_val_of_single _ (cr := (0 : Fin 2)) rfl _ _).trans
        (contrEquiv1_symm_val dot_S1024x128_S128x100000_S1024x100000_1_0_0_1_n_n 128 rfl rfl k)
    | ⟨1, _⟩ => rfl
  rw [hl, hr]

/-- The projection read at `(b, k)`. -/
theorem proj_apply (x : FVec Ideal S1024x64 .f32) (Wp : FVec Ideal S128x64 .f32) (bp : FVec Ideal S128 .f32)
    (b : Fin 1024) (k : Fin 128) :
    proj x Wp bp (ix2 b k) = ∑ d : Fin 64, x (ix2 b d) * Wp (ix2 k d) + bp (ix1 k) := by
  unfold proj
  rw [addf_apply, dot1_apply, bcast_bias128_apply]
  refine congrArg (· + bp (ix1 k)) (Finset.sum_congr rfl fun d _ => ?_)
  rw [transpose_ix2_apply]

/-- The rectifier read at an index. -/
theorem relu_apply (x : FVec Ideal S1024x128 .f32) (i : S1024x128.Idx) : relu x i = max (x i) 0 := by
  unfold relu
  rw [maximumf_apply, broadcastInDim_scalar_apply, constant_apply, Ideal.ofBits_zero_f32]

/-- The output layer read at `(b, v)`. -/
theorem outLayer_apply (h : FVec Ideal S1024x128 .f32) (Wo : FVec Ideal S100000x128 .f32) (bo : FVec Ideal S100000 .f32)
    (b : Fin 1024) (v : Fin 100000) :
    outLayer h Wo bo (ix2 b v) = ∑ k : Fin 128, h (ix2 b k) * Wo (ix2 v k) + bo (ix1 v) := by
  unfold outLayer
  rw [addf_apply, dot2_apply, bcast_bias100000_apply]
  refine congrArg (· + bo (ix1 v)) (Finset.sum_congr rfl fun k _ => ?_)
  rw [transpose_ix2_apply]

/-- THE LOGITS: under the range facts the output layer of the rectified projection of the looked-up rows is the
    specification's logit. -/
theorem logits_apply (idx : IVec S1024 32) (emb : FVec Ideal S100000x64 .f32) (Wp : FVec Ideal S128x64 .f32)
    (bp : FVec Ideal S128 .f32) (Wo : FVec Ideal S100000x128 .f32) (bo : FVec Ideal S100000 .f32)
    (hidx : ∀ b : Fin 1024, 0 ≤ (idx (ix1 b)).toInt ∧ (idx (ix1 b)).toInt ≤ 99999) (b : Fin 1024) (v : Fin 100000) :
    outLayer (relu (proj (taken idx emb) Wp bp)) Wo bo (ix2 b v) = logit idx emb Wp bp Wo bo b v := by
  rw [outLayer_apply]
  unfold logit
  refine congrArg (· + bo (ix1 v)) (Finset.sum_congr rfl fun k _ => ?_)
  refine congrArg (· * Wo (ix2 v k)) ?_
  rw [relu_apply, proj_apply]
  unfold hid
  refine congrArg (fun s => max (s + bp (ix1 k)) 0) (Finset.sum_congr rfl fun d _ => ?_)
  rw [taken_apply idx emb b d (hidx b).1 (hidx b).2]

/-! ## The logarithm of the soft-max -/

/-- The host's exponential and logarithm at an index are the ideal instance's functions of the element. -/
theorem host_exp_apply {s : Shape} {φ : FTy} (x : FVec Ideal s φ) (i : s.Idx) : Host.exp x i = Ideal.exp (x i) := rfl
theorem host_log_apply {s : Shape} {φ : FTy} (x : FVec Ideal s φ) (i : s.Idx) : Host.log x i = Ideal.log (x i) := rfl

/-- A fold of the instance's maximum is the fold of `max`. -/
theorem fold_maximumf {ι : Type} (s : Finset ι) (b : EReal) (f : ι → EReal) :
    s.fold (FloatOps.maximumf (F := Ideal) (φ := .f32)) b f = s.fold max b f := rfl

/-- The vocabulary coordinate inserted into a batch index is the pair. -/
theorem lift_row (hR : S1024x100000.Reduces [1] S1024) (b : Fin 1024) (v : Fin 100000) :
    hR.lift (ix1 b) v = ix2 b v := by
  funext a; refine Fin.ext ?_
  match a with
  | ⟨0, _⟩ => rfl
  | ⟨1, _⟩ => rfl

/-- Each row's maximum: `max` of `-∞` and the fold of `max` from `-∞` along the row. -/
theorem rowMax_apply (x : FVec Ideal S1024x100000 .f32) (b : Fin 1024) :
    rowMax x (ix1 b) = max ⊥ ((Finset.univ : Finset (Fin 100000)).fold max ⊥ fun v => x (ix2 b v)) := by
  have hR : S1024x100000.Reduces [1] S1024 := by decide
  unfold rowMax
  rw [maximumf_apply, broadcastInDim_scalar_apply, constant_apply, ofBits_ninf,
    Host.reduce_eq_fold_single (FloatOps.maximumf (F := Ideal) (φ := .f32)) x _ reducesTo_S1024x100000_S1024_d1 hR h_S_ (ix1 b),
    constant_apply, ofBits_ninf, fold_maximumf]
  refine congrArg (max ⊥) (Finset.fold_congr fun v _ => ?_)
  exact congrArg x (lift_row hR b v)

/-- Each row's sum of exponentials: the initial value `0` plus the sum along the row. -/
theorem sumExp_apply (sh : FVec Ideal S1024x100000 .f32) (b : Fin 1024) :
    sumExp sh (ix1 b) = 0 + ∑ v : Fin 100000, Ideal.exp (sh (ix2 b v)) := by
  have hR : S1024x100000.Reduces [1] S1024 := by decide
  unfold sumExp
  rw [hostReduceAdd_apply, Ideal.hostReduceAdd_single reducesTo_S1024x100000_S1024_d1 hR, constant_apply, Ideal.ofBits_zero_f32]
  refine congrArg (0 + ·) (Finset.sum_congr rfl fun v _ => ?_)
  rw [host_exp_apply]
  exact congrArg (fun i => Ideal.exp (sh i)) (lift_row hR b v)

/-- The shifted rows at an index. -/
theorem shifted_apply (x : FVec Ideal S1024x100000 .f32) (b : Fin 1024) (v : Fin 100000) :
    shifted x (ix2 b v) = x (ix2 b v) - rowMax x (ix1 b) := by
  unfold shifted
  rw [subf_apply, bcast_colrow_apply, bcast_col_apply]

/-- The logarithm of the soft-max at an index, in the shifted form the program computes. -/
theorem logSoftmax_apply (x : FVec Ideal S1024x100000 .f32) (b : Fin 1024) (v : Fin 100000) :
    logSoftmax x (ix2 b v)
      = (x (ix2 b v) - rowMax x (ix1 b))
          - Ideal.log (0 + ∑ v' : Fin 100000, Ideal.exp (x (ix2 b v') - rowMax x (ix1 b))) := by
  unfold logSoftmax
  rw [subf_apply, shifted_apply, bcast_colrow_apply, host_log_apply, bcast_col_apply, sumExp_apply]
  refine congrArg (fun s => (x (ix2 b v) - rowMax x (ix1 b)) - Ideal.log (0 + s)) (Finset.sum_congr rfl fun v' _ => ?_)
  rw [shifted_apply]

/-! ## The composed term is the specification -/

/-- Under the decoded precondition the reference's composed term is `G`. -/
theorem out_eq_G (idx : IVec S1024 32) (emb : FVec Ideal S100000x64 .f32) (Wp : FVec Ideal S128x64 .f32)
    (bp : FVec Ideal S128 .f32) (Wo : FVec Ideal S100000x128 .f32) (bo : FVec Ideal S100000 .f32)
    (hemb : ∀ i, IsReal (emb i)) (hWp : ∀ i, IsReal (Wp i)) (hbp : ∀ i, IsReal (bp i))
    (hWo : ∀ i, IsReal (Wo i)) (hbo : ∀ i, IsReal (bo i))
    (hidx : ∀ b : Fin 1024, 0 ≤ (idx (ix1 b)).toInt ∧ (idx (ix1 b)).toInt ≤ 99999) :
    out (F := Ideal) idx emb Wp bp Wo bo = G idx emb Wp bp Wo bo := by
  funext j
  obtain ⟨b, v, rfl⟩ : ∃ (b : Fin 1024) (v : Fin 100000), j = ix2 b v := ⟨j 0, j 1, eq_ix2 j⟩
  unfold out
  rw [logSoftmax_apply, rowMax_apply, G_apply]
  have hx : ∀ v', outLayer (relu (proj (taken idx emb) Wp bp)) Wo bo (ix2 b v') = logit idx emb Wp bp Wo bo b v' :=
    fun v' => logits_apply idx emb Wp bp Wo bo hidx b v'
  simp only [hx]
  haveI : Nonempty (Fin 100000) := ⟨⟨0, by omega⟩⟩
  exact lse_shift (l := fun v' => logit idx emb Wp bp Wo bo b v')
    (fun v' => logit_isReal idx emb Wp bp Wo bo hemb hWp hbp hWo hbo b v') v

end Cert.ReferenceIdeal.RefValue

end
-- ==== Proof.RefFinal.lean ====
/-
  The reference's run with its result named by the specification: under the precondition every weakly fair execution
  of the reference ends with the result buffer at `Cert.Spec.G` of the six arguments and the arguments unchanged.
  The run itself needs no precondition (its result is the operations' composed term); the precondition, decoded
  into "every float entry is a real, every index word is in range", turns that term into `G`.
-/
import proofs.«204087_g3891240370374_cont_8to1_b_1678_29_alg».proof.Defs
import proofs.«204087_g3891240370374_cont_8to1_b_1678_29_alg».proof.Proof.RefRun
import proofs.«204087_g3891240370374_cont_8to1_b_1678_29_alg».proof.Proof.RefValue

noncomputable section

namespace Cert.ReferenceIdeal.RefRun

open Cert.ReferenceIdeal Idealize.ShloMosaic Idealize.ShloMosaic.TcCoe Idealize.SL.Sem Idealize.ShloMosaic.StableHlo

/-- Under the precondition: the reference runs, its result is `G` of its arguments, its arguments end unchanged. -/
theorem run [Cert.ReferenceIdeal.Facts] [Cert.Pre_input_domain.Facts]
    (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v12)
            = Cert.Spec.G (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
                (m ((c.tc : Thread Cert.ReferenceIdeal.nD Cert.ReferenceIdeal.τ).loc Cert.ReferenceIdeal.main_arg4))
                (m ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run (Cert.ReferenceIdeal.defs (F := Ideal)) _ _).mono (fun _ h c => by
      obtain ⟨hemb, hWp, hbp, hWo, hbo, hidx⟩ := Cert.Pre.decode _ _ _ _ _ _ (hpre c)
      exact ⟨(h c).1.trans (Cert.ReferenceIdeal.RefValue.out_eq_G _ _ _ _ _ _ hemb hWp hbp hWo hbo hidx), (h c).2⟩)
    (run_term (F := Ideal) m g)

end Cert.ReferenceIdeal.RefRun

end
-- ==== Proof.AlgRef.lean ====
/-
  The reference's two claims from its run: its frame is the run with the result dropped, and, from a memory that
  agrees with the kernel's on the six arguments, its result is the specification of the kernel's arguments.
-/
import proofs.«204087_g3891240370374_cont_8to1_b_1678_29_alg».proof.Proof.RefFinal

noncomputable section
namespace Cert
open Idealize.ShloMosaic Idealize.SL.Sem

theorem frame_ref [hR : Cert.ReferenceIdeal.Facts] [hP : Cert.Pre_input_domain.Facts] :
    frame_ReferenceIdeal (hReferenceIdeal := hR) (hPre_input_domain := hP) :=
  fun m g hpre => (θ_run _ _ _).mono (fun _ h c => (h c).2) (Cert.ReferenceIdeal.RefRun.run m g hpre)

/-- the reference half of the algebraic claim, given agreement of the arguments with a kernel-side memory -/
theorem alg_ref [hK : Cert.KernelIdeal.Facts] [hR : Cert.ReferenceIdeal.Facts] [hP : Cert.Pre_input_domain.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hpre : Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12)
            = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
                (m ((c.tc : Thread Cert.KernelIdeal.nD Cert.KernelIdeal.τ).loc Cert.KernelIdeal.main_arg2)) (m ((c.tc : Thread Cert.KernelIdeal.nD Cert.KernelIdeal.τ).loc Cert.KernelIdeal.main_arg3))
                (m ((c.tc : Thread Cert.KernelIdeal.nD Cert.KernelIdeal.τ).loc Cert.KernelIdeal.main_arg4)) (m ((c.tc : Thread Cert.KernelIdeal.nD Cert.KernelIdeal.τ).loc Cert.KernelIdeal.main_arg5))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) := by
  have hpre' : Pre_ReferenceIdeal m' := fun c => by
    obtain ⟨e0, e1, e2, e3, e4, e5⟩ := hagree c
    rw [e0, e1, e2, e3, e4, e5]
    exact hpre c
  refine (θ_run _ _ _).mono (fun _ h c => ?_) (Cert.ReferenceIdeal.RefRun.run m' g' hpre')
  obtain ⟨e0, e1, e2, e3, e4, e5⟩ := hagree c
  refine ⟨?_, (h c).2⟩
  rw [(h c).1, e0, e1, e2, e3, e4, e5]

end Cert
end
-- ==== Proof.Value.Pay.lean ====
/-
  The TensorCore kernel's stored values read at an index, at the ideal instance: each payload of the body as the
  extended-real formula it denotes. The hidden layer (transposed, hidden unit by batch entry), a block of 3072
  logits, the running sum of their exponentials, the logarithm of the sum with the last block's rows past 1696
  masked off, and the logits less that logarithm.
-/
import proofs.«204087_g3891240370374_cont_8to1_b_1678_29_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.Affine

noncomputable section

open scoped BigOperators

namespace Cert.Proof.Value

open Cert.KernelIdeal Cert.KernelIdeal.Gen
open Idealize.ShloMosaic Idealize.ShloMosaic.ValueIdx

/-! ## The two products -/

/-- The projection's product at (hidden unit, batch entry): the sum over the 64 embedding coordinates. -/
theorem mm1_apply {φ₁ φ₂ : FTy} (l : FVec Ideal S128x64 φ₁) (r : FVec Ideal S64x1024 φ₂) (k : Fin 128) (b : Fin 1024) :
    FloatOps.matmul dot_S128x64_S64x1024_S128x1024_1_0_0_1_n_n none l r (constant (F := Ideal) S128x1024 .f32 0x00000000#32) (ix2 k b)
      = ∑ d : Fin 64, l (ix2 k d) * r (ix2 d b) := by
  rw [Ideal.matmul_constant_zero_apply]
  rw [← Equiv.sum_comp (contrEquiv1 dot_S128x64_S64x1024_S128x1024_1_0_0_1_n_n 64 rfl rfl).symm]
  refine Finset.sum_congr rfl fun d _ => ?_
  have e1 : dot_S128x64_S64x1024_S128x1024_1_0_0_1_n_n.lhsIdx (ix2 k b) ((contrEquiv1 dot_S128x64_S64x1024_S128x1024_1_0_0_1_n_n 64 rfl rfl).symm d) = ix2 k d := by
    funext a; apply Fin.ext
    match a with
    | ⟨0, _⟩ => rfl
    | ⟨1, _⟩ =>
      exact (DotDims.lhsIdx_val_of_single dot_S128x64_S64x1024_S128x1024_1_0_0_1_n_n (cl := 1) rfl _ _).trans
        (contrEquiv1_symm_val dot_S128x64_S64x1024_S128x1024_1_0_0_1_n_n 64 rfl rfl d)
  have e2 : dot_S128x64_S64x1024_S128x1024_1_0_0_1_n_n.rhsIdx (ix2 k b) ((contrEquiv1 dot_S128x64_S64x1024_S128x1024_1_0_0_1_n_n 64 rfl rfl).symm d) = ix2 d b := by
    funext a; apply Fin.ext
    match a with
    | ⟨0, _⟩ =>
      exact (DotDims.rhsIdx_val_of_single dot_S128x64_S64x1024_S128x1024_1_0_0_1_n_n (cr := 0) rfl _ _).trans
        (contrEquiv1_symm_val dot_S128x64_S64x1024_S128x1024_1_0_0_1_n_n 64 rfl rfl d)
    | ⟨1, _⟩ => rfl
  rw [e1, e2]

/-- The output layer's product at (row of the block, batch entry): the sum over the 128 hidden units. -/
theorem mm3_apply {φ₁ φ₂ : FTy} (l : FVec Ideal S3072x128 φ₁) (r : FVec Ideal S128x1024 φ₂) (i : Fin 3072) (b : Fin 1024) :
    FloatOps.matmul dot_S3072x128_S128x1024_S3072x1024_1_0_0_1_n_n none l r (constant (F := Ideal) S3072x1024 .f32 0x00000000#32) (ix2 i b)
      = ∑ k : Fin 128, l (ix2 i k) * r (ix2 k b) := by
  rw [Ideal.matmul_constant_zero_apply]
  rw [← Equiv.sum_comp (contrEquiv1 dot_S3072x128_S128x1024_S3072x1024_1_0_0_1_n_n 128 rfl rfl).symm]
  refine Finset.sum_congr rfl fun k _ => ?_
  have e1 : dot_S3072x128_S128x1024_S3072x1024_1_0_0_1_n_n.lhsIdx (ix2 i b) ((contrEquiv1 dot_S3072x128_S128x1024_S3072x1024_1_0_0_1_n_n 128 rfl rfl).symm k) = ix2 i k := by
    funext a; apply Fin.ext
    match a with
    | ⟨0, _⟩ => rfl
    | ⟨1, _⟩ =>
      exact (DotDims.lhsIdx_val_of_single dot_S3072x128_S128x1024_S3072x1024_1_0_0_1_n_n (cl := 1) rfl _ _).trans
        (contrEquiv1_symm_val dot_S3072x128_S128x1024_S3072x1024_1_0_0_1_n_n 128 rfl rfl k)
  have e2 : dot_S3072x128_S128x1024_S3072x1024_1_0_0_1_n_n.rhsIdx (ix2 i b) ((contrEquiv1 dot_S3072x128_S128x1024_S3072x1024_1_0_0_1_n_n 128 rfl rfl).symm k) = ix2 k b := by
    funext a; apply Fin.ext
    match a with
    | ⟨0, _⟩ =>
      exact (DotDims.rhsIdx_val_of_single dot_S3072x128_S128x1024_S3072x1024_1_0_0_1_n_n (cr := 0) rfl _ _).trans
        (contrEquiv1_symm_val dot_S3072x128_S128x1024_S3072x1024_1_0_0_1_n_n 128 rfl rfl k)
    | ⟨1, _⟩ => rfl
  rw [e1, e2]

/-! ## A block of logits -/

/-- Row i of the block, batch entry b: the hidden layer against row i of the output matrix's block, plus the
    bias's entry i. -/
theorem pay3_apply (w : Vec Ideal S3072x128 .f32) (ht : Vec Ideal S128x1024 .bf16) (bo : Vec Ideal S1x3072 .f32) (i : Fin 3072) (b : Fin 1024) :
    k1_pay3 (F := Ideal) w ht bo (ix2 i b) = (∑ k : Fin 128, w (ix2 i k) * ht (ix2 k b)) + bo (ix2 (0 : Fin 1) i) := by
  unfold k1_pay3
  show FloatOps.matmul dot_S3072x128_S128x1024_S3072x1024_1_0_0_1_n_n none _ _ _ (ix2 i b) + _ = _
  rw [mm3_apply]
  congr 1
  refine (broadcastTo_apply _ _ (ix2 i b) (ix2 i (0 : Fin 1)) fun a => ?_).trans ?_
  · match a with
    | ⟨0, _⟩ => rfl
    | ⟨1, _⟩ => rfl
  refine (transpose_apply _ _ _ (ix2 i (0 : Fin 1)) (ix2 (0 : Fin 1) i) fun a => ?_).trans ?_
  · match a with
    | ⟨0, _⟩ => rfl
    | ⟨1, _⟩ => rfl
  rw [shapeCast_self]

/-! ## Words: selects on a comparison -/

theorem select_slt {α : Type} (x y : BitVec 32) (A B : α) :
    Scalar.select (IntOp.cmpi .slt x y) A B = if x.toInt < y.toInt then A else B := by
  unfold Scalar.select; exact if_congr IntOp.cmpi_slt rfl rfl
theorem select_eq {α : Type} (x y : BitVec 32) (A B : α) :
    Scalar.select (IntOp.cmpi .eq x y) A B = if x = y then A else B := by
  unfold Scalar.select; exact if_congr IntOp.cmpi_eq rfl rfl
/-- A row number of a block, as a 32-bit word read signed, is itself. -/
theorem toInt_row (i : ℕ) (h : i < 3072) : (BitVec.ofNat 32 i).toInt = (i : Int) := by
  rw [BitVec.toInt_eq_toNat_cond, BitVec.toNat_ofNat, Nat.mod_eq_of_lt (by omega)]
  rw [if_pos (by omega)]

/-! ## Layout steps the payloads share -/

/-- A vector of 1024 entries cast to one row reads its entry. -/
theorem cast_row {α : Type} (v : S1024.Idx → α) (h : S1024.ShapeCasts S1x1024) (b : Fin 1024) :
    shapeCast S1x1024 v h (ix2 (0 : Fin 1) b) = v (ix1 b) :=
  shapeCast_apply v h _ (ix1 b) (by
    rw [Shape.rowMajor_val_one, Shape.rowMajor_val_two]
    show b.val = 0 * 1024 + b.val
    omega)

/-- The sum over the rows of a block, at batch entry b. -/
theorem colsum_apply (x : FVec Ideal S3072x1024 .f32) (hφ : FKind.Formats .f32) (hacc : (0x00000000#32 : BitVec 32) = FKind.add.neutral .f32 hφ) (b : Fin 1024) :
    multiReduction (F := Ideal) .add [0] S1024 x 0x00000000#32 reduces_S3072x1024_S1024 hφ hacc (ix1 b) = ∑ i : Fin 3072, x (ix2 i b) := by
  refine (Ideal.multiReduction_add_single x 0x00000000#32 reduces_S3072x1024_S1024 hφ hacc (ix1 b)).trans ?_
  refine Finset.sum_congr rfl fun i _ => congrArg x ?_
  funext a; apply Fin.ext
  match a with
  | ⟨0, _⟩ => rfl
  | ⟨1, _⟩ => rfl

/-! ## The hidden layer -/

/-- Hidden unit k, batch entry b: the projection's row k against the half of the gathered row the parity selects,
    plus the bias, rectified. -/
theorem pay1_apply (rows : Vec Ideal S1024x128 .f32) (par : Vec Ideal S1024x1 .i32) (wp : Vec Ideal S128x64 .f32) (bpc : Vec Ideal S128x1 .f32)
    (k : Fin 128) (b : Fin 1024) :
    k1_pay1 (F := Ideal) rows par wp bpc (ix2 k b)
      = max ((∑ d : Fin 64, wp (ix2 k d) *
              (if par (ix2 b (0 : Fin 1)) = 1#32 then rows (ix2 b (⟨64 + d.val, by omega⟩ : Fin 128)) else rows (ix2 b (⟨d.val, by omega⟩ : Fin 128))))
            + bpc (ix2 k (0 : Fin 1))) 0 := by
  unfold k1_pay1
  rw [shapeCast_self]
  show max (FloatOps.matmul dot_S128x64_S64x1024_S128x1024_1_0_0_1_n_n none _ _ _ (ix2 k b) + _) (Ideal.ofBits .f32 0x00000000#32) = _
  rw [mm1_apply, Ideal.ofBits_zero_f32]
  congr 2
  · refine Finset.sum_congr rfl fun d _ => congrArg (wp (ix2 k d) * ·) ?_
    refine (transpose_apply _ _ _ (ix2 d b) (ix2 b d) fun a => ?_).trans ?_
    · match a with
      | ⟨0, _⟩ => rfl
      | ⟨1, _⟩ => rfl
    show Scalar.select _ _ _ = _
    have hc : broadcastTo S1024x64 (shapeCast S1024x1 (cmpi .eq (shapeCast S1024x1 par shapeCasts_S1024x1_S1024x1) (broadcast S1024x1 1#32)) shapeCasts_S1024x1_S1024x1)
        broadcasts_S1024x1_S1024x64 (ix2 b d) = IntOp.cmpi .eq (par (ix2 b (0 : Fin 1))) 1#32 := by
      refine (broadcastTo_apply _ _ (ix2 b d) (ix2 b (0 : Fin 1)) fun a => ?_).trans ?_
      · match a with
        | ⟨0, _⟩ => rfl
        | ⟨1, _⟩ => rfl
      rw [shapeCast_self, shapeCast_self]
      rfl
    have h1 : extractStridedSlice S1024x64 ![0, 64] (shapeCast S1024x128 rows shapeCasts_S1024x128_S1024x128) slices_S1024x128_o0_64_S1024x64 (ix2 b d)
        = rows (ix2 b (⟨64 + d.val, by omega⟩ : Fin 128)) := by
      rw [shapeCast_self]
      refine extractStridedSlice_apply _ _ _ _ _ fun a => ?_
      match a with
      | ⟨0, _⟩ => show b.val = 0 + b.val; omega
      | ⟨1, _⟩ => rfl
    have h0 : extractStridedSlice S1024x64 ![0, 0] (shapeCast S1024x128 rows shapeCasts_S1024x128_S1024x128) slices_S1024x128_o0_0_S1024x64 (ix2 b d)
        = rows (ix2 b (⟨d.val, by omega⟩ : Fin 128)) := by
      rw [shapeCast_self]
      refine extractStridedSlice_apply _ _ _ _ _ fun a => ?_
      match a with
      | ⟨0, _⟩ => show b.val = 0 + b.val; omega
      | ⟨1, _⟩ => show d.val = 0 + d.val; omega
    rw [hc, h1, h0, select_eq]
  · refine (broadcastTo_apply _ _ (ix2 k b) (ix2 k (0 : Fin 1)) fun a => ?_).trans ?_
    · match a with
      | ⟨0, _⟩ => rfl
      | ⟨1, _⟩ => rfl
    rw [shapeCast_self]

/-! ## The running sum, its logarithm, the outputs -/

/-- The running sum starts at zero. -/
theorem pay2_apply (j : S1x1024.Idx) : k1_pay2 (F := Ideal) j = 0 := by
  unfold k1_pay2
  rw [shapeCast_self]
  exact Ideal.ofBits_zero_f32

/-- One block added to the running sum: the exponentials of the block's 3072 logits at the batch entry. -/
theorem pay4_apply (w : Vec Ideal S3072x128 .f32) (ht : Vec Ideal S128x1024 .bf16) (bo : Vec Ideal S1x3072 .f32) (s : Vec Ideal S1x1024 .f32) (b : Fin 1024) :
    k1_pay4 (F := Ideal) w ht bo s (ix2 (0 : Fin 1) b)
      = s (ix2 (0 : Fin 1) b) + ∑ i : Fin 3072, Ideal.exp (k1_pay3 (F := Ideal) w ht bo (ix2 i b)) := by
  unfold k1_pay4
  rw [shapeCast_self]
  show s (ix2 (0 : Fin 1) b) + _ = _
  congr 1
  rw [cast_row]
  exact colsum_apply _ _ _ b

/-- The last block: the rows below 1696 added, the others masked to zero; then the logarithm. -/
theorem pay5_apply (w : Vec Ideal S3072x128 .f32) (ht : Vec Ideal S128x1024 .bf16) (bo : Vec Ideal S1x3072 .f32) (s : Vec Ideal S1x1024 .f32) (b : Fin 1024) :
    k1_pay5 (F := Ideal) w ht bo s (ix2 (0 : Fin 1) b)
      = Ideal.log (s (ix2 (0 : Fin 1) b) + ∑ i : Fin 3072, if i.val < 1696 then Ideal.exp (k1_pay3 (F := Ideal) w ht bo (ix2 i b)) else 0) := by
  unfold k1_pay5
  rw [shapeCast_self]
  show Ideal.log (s (ix2 (0 : Fin 1) b) + _) = _
  congr 2
  rw [cast_row]
  refine (colsum_apply _ _ _ b).trans ?_
  refine Finset.sum_congr rfl fun i _ => ?_
  show Scalar.select (IntOp.cmpi .slt (iota .tc S3072x1024 32 [0] iota_S3072x1024_d0_w32 (ix2 i b)) 1696#32) (Ideal.exp _) (Ideal.ofBits .f32 0x00000000#32) = _
  rw [iota_single_apply, select_slt, Ideal.ofBits_zero_f32]
  show (if (BitVec.ofNat 32 i.val).toInt < (1696#32 : BitVec 32).toInt then _ else _) = _
  rw [toInt_row i.val i.isLt, show (1696#32 : BitVec 32).toInt = 1696 from by decide]
  exact if_congr (by omega) rfl rfl

/-- The outputs of a block: each logit less the logarithm at its batch entry. -/
theorem pay6_apply (w : Vec Ideal S3072x128 .f32) (ht : Vec Ideal S128x1024 .bf16) (bo : Vec Ideal S1x3072 .f32) (l : Vec Ideal S1x1024 .f32)
    (i : Fin 3072) (b : Fin 1024) :
    k1_pay6 (F := Ideal) w ht bo l (ix3 (0 : Fin 1) i b) = k1_pay3 (F := Ideal) w ht bo (ix2 i b) - l (ix2 (0 : Fin 1) b) := by
  unfold k1_pay6
  refine (shapeCast_apply _ _ (ix3 (0 : Fin 1) i b) (ix2 i b) ?_).trans ?_
  · rw [Shape.rowMajor_val_two, Shape.rowMajor_val_three]
    show i.val * 1024 + b.val = (0 * 3072 + i.val) * 1024 + b.val
    omega
  show k1_pay3 (F := Ideal) w ht bo (ix2 i b) - _ = _
  congr 1
  refine (broadcastTo_apply _ _ (ix2 i b) (ix2 (0 : Fin 1) b) fun a => ?_)
  match a with
  | ⟨0, _⟩ => rfl
  | ⟨1, _⟩ => rfl

end Cert.Proof.Value

end
-- ==== Proof.Value.Stg.lean ====
/-
  What the kernel's staging buffers hold at a grid point, read at an index of the block: for the four windows
  whose block is their whole array, the array; for the output matrix's and the output bias's windows, whose block j
  is rows (entries) 3072 j to 3072 j + 3071 of the array, the array's entry where that row exists and the buffer's
  earlier contents where the block overhangs the array's end (the last block: only 1696 of its rows exist).
-/
import proofs.«204087_g3891240370374_cont_8to1_b_1678_29_alg».proof.Proof.KernelIdeal.RegionDat
import Idealize.ShloMosaic.Lib.ValueIdx
import Idealize.ShloMosaic.Lib.Pipeline.Value

set_option maxRecDepth 16384

noncomputable section

namespace Cert.Proof.Value

open Cert.KernelIdeal Cert.KernelIdeal.Gen Cert.Proof.KernelIdeal
open Idealize.ShloMosaic Idealize.ShloMosaic.ValueIdx

variable {F : FTy → Type} [FloatOps F]

/-! ## The block index at a point, decided over the grid -/

theorem idx0 : ∀ (t : Fin cfg1.N) (a : Fin 2), (cfg1.win 0).index t a = 0 :=
  (by decide +kernel : ∀ (t : Fin grid1.N) (a : Fin 2), win1_0.index t a = 0)
theorem idx1 : ∀ (t : Fin cfg1.N) (a : Fin 2), (cfg1.win 1).index t a = 0 :=
  (by decide +kernel : ∀ (t : Fin grid1.N) (a : Fin 2), win1_1.index t a = 0)
theorem idx2 : ∀ (t : Fin cfg1.N) (a : Fin 2), (cfg1.win 2).index t a = 0 :=
  (by decide +kernel : ∀ (t : Fin grid1.N) (a : Fin 2), win1_2.index t a = 0)
theorem idx3 : ∀ (t : Fin cfg1.N) (a : Fin 2), (cfg1.win 3).index t a = 0 :=
  (by decide +kernel : ∀ (t : Fin grid1.N) (a : Fin 2), win1_3.index t a = 0)
theorem idx4 : ∀ t : Fin cfg1.N, (cfg1.win 4).index t 0 = t.val % 33 ∧ (cfg1.win 4).index t 1 = 0 :=
  (by decide +kernel : ∀ t : Fin grid1.N, win1_4.index t 0 = t.val % 33 ∧ win1_4.index t 1 = 0)
theorem idx5 : ∀ t : Fin cfg1.N, (cfg1.win 5).index t 0 = 0 ∧ (cfg1.win 5).index t 1 = t.val % 33 :=
  (by decide +kernel : ∀ t : Fin grid1.N, win1_5.index t 0 = 0 ∧ win1_5.index t 1 = t.val % 33)

/-! ## A staging buffer at an index: fetched there, or left as it was -/

variable (c : Dev nD) (A : Arrs (F := F) c)

theorem stg_moved (w : Fin cfg1.W) (t : Fin cfg1.N) (d : (cfg1.win w).block.Idx → Elt F (cfg1.win w).elt) (y : (cfg1.win w).block.Idx)
    (hy : ∀ a, (y a).val < (cfg1.win w).xsize (cfg1.grid.coords t) a) :
    stg c A w t d y = ((cfg1.win w).blk t).view.read (Elt F) (A w) (fun a => ⟨(y a).val, hy a⟩) := by
  unfold stg iblk Pipeline.Window.fill
  rw [dif_pos (((cfg1.win w).moved_iff _ y).mpr hy)]

theorem stg_not_moved (w : Fin cfg1.W) (t : Fin cfg1.N) (d : (cfg1.win w).block.Idx → Elt F (cfg1.win w).elt) (y : (cfg1.win w).block.Idx)
    (hy : ¬ ∀ a, (y a).val < (cfg1.win w).xsize (cfg1.grid.coords t) a) : stg c A w t d y = d y :=
  (cfg1.win w).fill_of_not_moved _ d _ fun h => hy (((cfg1.win w).moved_iff _ y).mp h)

/-! ## The output matrix's block -/

theorem stg4_apply (t : Fin cfg1.N) (d : Vec F S3072x128 .f32) (i : Fin 3072) (k : Fin 128) :
    (stg c A 4 t d : Vec F S3072x128 .f32) (ix2 i k)
      = if h : 3072 * (t.val % 33) + i.val < 100000 then (A 4 : Vec F S100000x128 .f32) (ix2 (⟨3072 * (t.val % 33) + i.val, h⟩ : Fin 100000) k) else d (ix2 i k) := by
  have hj := idx4 t
  have hx0 : (cfg1.win 4).xsize (cfg1.grid.coords t) 0 = if (t.val % 33 + 1) * 3072 ≤ 100000 then 3072 else 100000 - (t.val % 33) * 3072 := by
    show (Pipeline.Clip.of ((cfg1.win 4).index t 0) 3072 100000).extent 3072 = _
    rw [hj.1]; unfold Pipeline.Clip.of; split <;> rfl
  have hx1 : (cfg1.win 4).xsize (cfg1.grid.coords t) 1 = 128 := by
    show (Pipeline.Clip.of ((cfg1.win 4).index t 1) 128 128).extent 128 = _
    rw [hj.2]; rfl
  by_cases h : 3072 * (t.val % 33) + i.val < 100000
  · rw [dif_pos h]
    have hy : ∀ a, ((ix2 i k : S3072x128.Idx) a).val < (cfg1.win 4).xsize (cfg1.grid.coords t) a := fun a => by
      match a with
      | ⟨0, _⟩ => rw [show (⟨0, _⟩ : Fin 2) = 0 from rfl, hx0]; show i.val < _; have := i.isLt; split <;> omega
      | ⟨1, _⟩ => rw [show (⟨1, _⟩ : Fin 2) = 1 from rfl, hx1]; exact k.isLt
    refine (stg_moved c A 4 t d (ix2 i k) hy).trans ?_
    refine (View.read_apply _ _).trans ((cast_eq _ _).trans (congrArg (A 4) ?_))
    funext a; apply Fin.ext
    show (((cfg1.win 4).rect t).emb _ a : Nat) = _
    rw [Pipeline.Window.rect_emb_val]
    match a with
    | ⟨0, _⟩ => show (cfg1.win 4).index t 0 * 3072 + i.val = 3072 * (t.val % 33) + i.val; rw [hj.1]; omega
    | ⟨1, _⟩ => show (cfg1.win 4).index t 1 * 128 + k.val = k.val; rw [hj.2]; omega
  · rw [dif_neg h]
    refine stg_not_moved c A 4 t d (ix2 i k) fun hall => h ?_
    have h0 := hall 0
    rw [hx0] at h0
    have h0' : i.val < (if (t.val % 33 + 1) * 3072 ≤ 100000 then 3072 else 100000 - (t.val % 33) * 3072) := h0
    split at h0' <;> omega

/-! ## The output bias's block -/

theorem stg5_apply (t : Fin cfg1.N) (d : Vec F S1x3072 .f32) (i : Fin 3072) :
    (stg c A 5 t d : Vec F S1x3072 .f32) (ix2 (0 : Fin 1) i)
      = if h : 3072 * (t.val % 33) + i.val < 100000 then (A 5 : Vec F S1x100000 .f32) (ix2 (0 : Fin 1) (⟨3072 * (t.val % 33) + i.val, h⟩ : Fin 100000)) else d (ix2 (0 : Fin 1) i) := by
  have hj := idx5 t
  have hx0 : (cfg1.win 5).xsize (cfg1.grid.coords t) 0 = 1 := by
    show (Pipeline.Clip.of ((cfg1.win 5).index t 0) 1 1).extent 1 = _
    rw [hj.1]; rfl
  have hx1 : (cfg1.win 5).xsize (cfg1.grid.coords t) 1 = if (t.val % 33 + 1) * 3072 ≤ 100000 then 3072 else 100000 - (t.val % 33) * 3072 := by
    show (Pipeline.Clip.of ((cfg1.win 5).index t 1) 3072 100000).extent 3072 = _
    rw [hj.2]; unfold Pipeline.Clip.of; split <;> rfl
  by_cases h : 3072 * (t.val % 33) + i.val < 100000
  · rw [dif_pos h]
    have hy : ∀ a, ((ix2 (0 : Fin 1) i : S1x3072.Idx) a).val < (cfg1.win 5).xsize (cfg1.grid.coords t) a := fun a => by
      match a with
      | ⟨0, _⟩ => rw [show (⟨0, _⟩ : Fin 2) = 0 from rfl, hx0]; exact Nat.one_pos
      | ⟨1, _⟩ => rw [show (⟨1, _⟩ : Fin 2) = 1 from rfl, hx1]; show i.val < _; have := i.isLt; split <;> omega
    refine (stg_moved c A 5 t d (ix2 (0 : Fin 1) i) hy).trans ?_
    refine (View.read_apply _ _).trans ((cast_eq _ _).trans (congrArg (A 5) ?_))
    funext a; apply Fin.ext
    show (((cfg1.win 5).rect t).emb _ a : Nat) = _
    rw [Pipeline.Window.rect_emb_val]
    match a with
    | ⟨0, _⟩ => show (cfg1.win 5).index t 0 * 1 + 0 = 0; rw [hj.1]
    | ⟨1, _⟩ => show (cfg1.win 5).index t 1 * 3072 + i.val = 3072 * (t.val % 33) + i.val; rw [hj.2]; omega
  · rw [dif_neg h]
    refine stg_not_moved c A 5 t d (ix2 (0 : Fin 1) i) fun hall => h ?_
    have h1 := hall 1
    rw [hx1] at h1
    have h1' : i.val < (if (t.val % 33 + 1) * 3072 ≤ 100000 then 3072 else 100000 - (t.val % 33) * 3072) := h1
    split at h1' <;> omega

/-! ## The four windows whose block is the whole array -/

theorem stg0_apply (t : Fin cfg1.N) (d : Vec F S1024x128 .f32) (y : S1024x128.Idx) :
    (stg c A 0 t d : Vec F S1024x128 .f32) y = (A 0 : Vec F S1024x128 .f32) y := by
  refine (stg_moved c A 0 t d y fun a => (y a).isLt).trans ?_
  refine (View.read_apply _ _).trans ((cast_eq _ _).trans (congrArg (A 0) ?_))
  funext a; apply Fin.ext
  show (((cfg1.win 0).rect t).emb _ a : Nat) = _
  rw [Pipeline.Window.rect_emb_val, idx0 t a]
  show 0 * _ + (y a).val = _
  omega
theorem stg1_apply (t : Fin cfg1.N) (d : Vec F S1024x1 .i32) (y : S1024x1.Idx) :
    (stg c A 1 t d : Vec F S1024x1 .i32) y = (A 1 : Vec F S1024x1 .i32) y := by
  refine (stg_moved c A 1 t d y fun a => (y a).isLt).trans ?_
  refine (View.read_apply _ _).trans ((cast_eq _ _).trans (congrArg (A 1) ?_))
  funext a; apply Fin.ext
  show (((cfg1.win 1).rect t).emb _ a : Nat) = _
  rw [Pipeline.Window.rect_emb_val, idx1 t a]
  show 0 * _ + (y a).val = _
  omega
theorem stg2_apply (t : Fin cfg1.N) (d : Vec F S128x64 .f32) (y : S128x64.Idx) :
    (stg c A 2 t d : Vec F S128x64 .f32) y = (A 2 : Vec F S128x64 .f32) y := by
  refine (stg_moved c A 2 t d y fun a => (y a).isLt).trans ?_
  refine (View.read_apply _ _).trans ((cast_eq _ _).trans (congrArg (A 2) ?_))
  funext a; apply Fin.ext
  show (((cfg1.win 2).rect t).emb _ a : Nat) = _
  rw [Pipeline.Window.rect_emb_val, idx2 t a]
  show 0 * _ + (y a).val = _
  omega
theorem stg3_apply (t : Fin cfg1.N) (d : Vec F S128x1 .f32) (y : S128x1.Idx) :
    (stg c A 3 t d : Vec F S128x1 .f32) y = (A 3 : Vec F S128x1 .f32) y := by
  refine (stg_moved c A 3 t d y fun a => (y a).isLt).trans ?_
  refine (View.read_apply _ _).trans ((cast_eq _ _).trans (congrArg (A 3) ?_))
  funext a; apply Fin.ext
  show (((cfg1.win 3).rect t).emb _ a : Nat) = _
  rw [Pipeline.Window.rect_emb_val, idx3 t a]
  show 0 * _ + (y a).val = _
  omega

end Cert.Proof.Value

end
-- ==== Proof.Value.Entry.lean ====
/-
  What the kernel region finds in its six windowed arrays, in terms of the program's arguments: the host
  operations before the region are reshapes, a shift and a mask of the index words, and the SparseCore call's
  gathered rows. In particular the half of a gathered 128-wide row that the index word's parity selects is the
  embedding table's row at that index word.
-/
import proofs.«204087_g3891240370374_cont_8to1_b_1678_29_alg».proof.Proof.KernelIdeal.MainB
import proofs.«204087_g3891240370374_cont_8to1_b_1678_29_alg».proof.Proof.Spec
import Idealize.ShloMosaic.Lib.ValueIdx
import Idealize.ShloMosaic.Lib.Pipeline.Value

set_option maxRecDepth 16384

noncomputable section

namespace Cert.Proof.Value

open Cert.KernelIdeal Cert.KernelIdeal.Gen Cert.Proof.KernelIdeal
open Idealize.ShloMosaic Idealize.ShloMosaic.ValueIdx Idealize.ShloMosaic.StableHlo

variable {F : FTy → Type} [FloatOps F]

/-! ## Words: the index word halved, and its parity -/

/-- A non-negative word shifted right by one (arithmetically) is its half. -/
theorem shr_one_toNat (w : BitVec 32) (h0 : 0 ≤ w.toInt) : (IntOp.shrsi .host w 1#32).toNat = w.toNat / 2 := by
  have hm : w.msb = false := by
    rw [BitVec.msb_eq_false_iff_two_mul_lt]
    rw [BitVec.toInt_eq_toNat_cond] at h0
    split at h0
    · assumption
    · have := w.isLt; omega
  unfold IntOp.shrsi
  rw [if_pos (by decide)]
  show (w.sshiftRight (1#32 : BitVec 32).toNat).toNat = _
  rw [BitVec.sshiftRight_eq_of_msb_false hm, BitVec.toNat_ushiftRight]
  show w.toNat >>> 1 = _
  rw [Nat.shiftRight_eq_div_pow]
/-- A word between 0 and 99999 read signed is at most 99999 read unsigned. -/
theorem toNat_le (w : BitVec 32) (h0 : 0 ≤ w.toInt) (h1 : w.toInt ≤ 99999) : w.toNat ≤ 99999 := by
  have := w.isLt
  rw [BitVec.toInt_eq_toNat_cond] at h0 h1
  split at h0 <;> split at h1 <;> omega
/-- The word's lowest bit is one exactly when it is odd. -/
theorem and_one_eq (w : BitVec 32) : IntOp.andi w 1#32 = 1#32 ↔ w.toNat % 2 = 1 := by
  unfold IntOp.andi
  rw [← BitVec.toNat_inj, BitVec.toNat_and]
  show w.toNat &&& 1 = 1 ↔ _
  rw [Nat.and_one_is_mod]

/-! ## The arguments -/

variable (m : (ℓ : Loc nD τ sig) → Buf (Elt F) ℓ) (c : Dev nD)

abbrev aIdx : IVec S1024 32 := m (c, Proc.devRef .tc (main_arg0 : Ref sig .tc))
abbrev aEmb : Vec F S100000x64 .f32 := m (c, Proc.devRef .tc (main_arg1 : Ref sig .tc))
abbrev aWp : Vec F S128x64 .f32 := m (c, Proc.devRef .tc (main_arg2 : Ref sig .tc))
abbrev aBp : Vec F S128 .f32 := m (c, Proc.devRef .tc (main_arg3 : Ref sig .tc))
abbrev aWo : Vec F S100000x128 .f32 := m (c, Proc.devRef .tc (main_arg4 : Ref sig .tc))
abbrev aBo : Vec F S100000 .f32 := m (c, Proc.devRef .tc (main_arg5 : Ref sig .tc))

/-! ## The table and the index list the SparseCore call finds -/

theorem tV_eq : (tV m c : Vec F S50000x128 .f32) = shapeCast S50000x128 (aEmb m c) shapeCasts_S100000x64_S50000x128 := by
  show StableHlo.after (ops1 (F := F)) (V0 m c) (Proc.devRef .tc (main_v2 : Ref sig .tc)) = _
  after_results
  rfl

theorem ixV_eq : (ixV m c : IVec S1024 32)
    = Host.shrsi (aIdx m c) (broadcastInDim S1024 ![] bcast_S_S1024 (constantI S_ 32 1#32)) := by
  show StableHlo.after (ops1 (F := F)) (V0 m c) (Proc.devRef .tc (main_v4 : Ref sig .tc)) = _
  after_results
  rfl

/-! ## The arguments are untouched along the way -/

theorem V1_arg0 : V1 m c (Proc.devRef .tc (main_arg0 : Ref sig .tc)) = aIdx m c := by
  show StableHlo.after (ops1 (F := F)) (V0 m c) (Proc.devRef .tc (main_arg0 : Ref sig .tc)) = _
  after_results
  rfl
theorem V2_arg0 : V2 m c (Proc.devRef .tc (main_arg0 : Ref sig .tc)) = aIdx m c := by
  unfold V2
  rw [Function.update_of_ne (by decide)]
  exact V1_arg0 m c

/-! ## The six arrays at the region's entry -/

theorem Aent0 : (Aent m c 0 : Vec F S1024x128 .f32) = gathered (tV m c) (ixV m c) := by
  show StableHlo.after (ops2 (F := F)) (V2 m c) (Proc.devRef .tc (main_v5 : Ref sig .tc)) = _
  after_results
  unfold V2
  exact Function.update_self _ _ _

theorem Aent1 : (Aent m c 1 : Vec F S1024x1 .i32)
    = shapeCast S1024x1 (andi (aIdx m c) (broadcastInDim S1024 ![] bcast_S_S1024 (constantI S_ 32 1#32))) shapeCasts_S1024_S1024x1 := by
  show StableHlo.after (ops2 (F := F)) (V2 m c) (Proc.devRef .tc (main_v8 : Ref sig .tc)) = _
  after_results
  rw [V2_arg0]
  rfl

theorem Aent2 : (Aent m c 2 : Vec F S128x64 .f32) = aWp m c := by
  show StableHlo.after (ops2 (F := F)) (V2 m c) (Proc.devRef .tc (main_arg2 : Ref sig .tc)) = _
  after_results
  unfold V2
  rw [Function.update_of_ne (by decide)]
  show StableHlo.after (ops1 (F := F)) (V0 m c) (Proc.devRef .tc (main_arg2 : Ref sig .tc)) = _
  after_results
  rfl

theorem Aent3 : (Aent m c 3 : Vec F S128x1 .f32) = shapeCast S128x1 (aBp m c) shapeCasts_S128_S128x1 := by
  show StableHlo.after (ops2 (F := F)) (V2 m c) (Proc.devRef .tc (main_v0 : Ref sig .tc)) = _
  after_results
  unfold V2
  rw [Function.update_of_ne (by decide)]
  show StableHlo.after (ops1 (F := F)) (V0 m c) (Proc.devRef .tc (main_v0 : Ref sig .tc)) = _
  after_results
  rfl

theorem Aent4 : (Aent m c 4 : Vec F S100000x128 .f32) = aWo m c := by
  show StableHlo.after (ops2 (F := F)) (V2 m c) (Proc.devRef .tc (main_arg4 : Ref sig .tc)) = _
  after_results
  unfold V2
  rw [Function.update_of_ne (by decide)]
  show StableHlo.after (ops1 (F := F)) (V0 m c) (Proc.devRef .tc (main_arg4 : Ref sig .tc)) = _
  after_results
  rfl

theorem Aent5 : (Aent m c 5 : Vec F S1x100000 .f32) = shapeCast S1x100000 (aBo m c) shapeCasts_S100000_S1x100000 := by
  show StableHlo.after (ops2 (F := F)) (V2 m c) (Proc.devRef .tc (main_v1 : Ref sig .tc)) = _
  after_results
  unfold V2
  rw [Function.update_of_ne (by decide)]
  show StableHlo.after (ops1 (F := F)) (V0 m c) (Proc.devRef .tc (main_v1 : Ref sig .tc)) = _
  after_results
  rfl

/-! ## The arrays read at an index -/

/-- The one-word constant broadcast to every batch entry. -/
theorem bcast_one (b : Fin 1024) : broadcastInDim S1024 ![] bcast_S_S1024 (constantI S_ 32 1#32) (ix1 b) = 1#32 :=
  broadcastInDim_apply _ _ _ _ ix0 fun a => a.elim0

/-- The parity column: the index word's lowest bit. -/
theorem Aent1_apply (b : Fin 1024) : (Aent m c 1 : Vec F S1024x1 .i32) (ix2 b (0 : Fin 1)) = IntOp.andi (aIdx m c (ix1 b)) 1#32 := by
  rw [Aent1]
  refine (shapeCast_apply _ _ (ix2 b (0 : Fin 1)) (ix1 b) ?_).trans ?_
  · rw [Shape.rowMajor_val_one, Shape.rowMajor_val_two]
    show b.val = b.val * 1 + 0
    omega
  show IntOp.andi (aIdx m c (ix1 b)) (broadcastInDim S1024 ![] bcast_S_S1024 (constantI S_ 32 1#32) (ix1 b)) = _
  rw [bcast_one]

/-- The projection's bias as a column. -/
theorem Aent3_apply (k : Fin 128) : (Aent m c 3 : Vec F S128x1 .f32) (ix2 k (0 : Fin 1)) = aBp m c (ix1 k) := by
  rw [Aent3]
  refine shapeCast_apply _ _ (ix2 k (0 : Fin 1)) (ix1 k) ?_
  rw [Shape.rowMajor_val_one, Shape.rowMajor_val_two]
  show k.val = k.val * 1 + 0
  omega

/-- The output bias as a row. -/
theorem Aent5_apply (v : Fin 100000) : (Aent m c 5 : Vec F S1x100000 .f32) (ix2 (0 : Fin 1) v) = aBo m c (ix1 v) := by
  rw [Aent5]
  refine shapeCast_apply _ _ (ix2 (0 : Fin 1) v) (ix1 v) ?_
  rw [Shape.rowMajor_val_one, Shape.rowMajor_val_two]
  show v.val = 0 * 100000 + v.val
  omega

/-- The halved index word names a row of the paired table. -/
theorem ixV_apply (b : Fin 1024) (h0 : 0 ≤ (aIdx m c (ix1 b)).toInt) :
    ((ixV m c : IVec S1024 32) (ix1 b)).toNat = (aIdx m c (ix1 b)).toNat / 2 := by
  rw [ixV_eq]
  show (IntOp.shrsi .host (aIdx m c (ix1 b)) (broadcastInDim S1024 ![] bcast_S_S1024 (constantI S_ 32 1#32) (ix1 b))).toNat = _
  rw [bcast_one, shr_one_toNat _ h0]

/-- The paired table at (row, column): the embedding table at (2 row + column / 64, column mod 64). -/
theorem tV_apply (r : Fin 50000) (col : Fin 128) :
    (tV m c : Vec F S50000x128 .f32) (ix2 r col)
      = aEmb m c (ix2 (⟨2 * r.val + col.val / 64, by omega⟩ : Fin 100000) (⟨col.val % 64, by omega⟩ : Fin 64)) := by
  rw [tV_eq]
  refine shapeCast_apply _ _ (ix2 r col) _ ?_
  rw [Shape.rowMajor_val_two, Shape.rowMajor_val_two]
  show (2 * r.val + col.val / 64) * 64 + col.val % 64 = r.val * 128 + col.val
  omega

/-- The gathered rows at (batch entry, column), for an index word in range. -/
theorem Aent0_apply (b : Fin 1024) (col : Fin 128) (h0 : 0 ≤ (aIdx m c (ix1 b)).toInt) (h1 : (aIdx m c (ix1 b)).toInt ≤ 99999)
    (hn : 2 * ((aIdx m c (ix1 b)).toNat / 2) + col.val / 64 < 100000) :
    (Aent m c 0 : Vec F S1024x128 .f32) (ix2 b col)
      = aEmb m c (ix2 (⟨2 * ((aIdx m c (ix1 b)).toNat / 2) + col.val / 64, hn⟩ : Fin 100000) (⟨col.val % 64, by omega⟩ : Fin 64)) := by
  rw [Aent0]
  have hr : (rowOf (ixV m c) b).val = (aIdx m c (ix1 b)).toNat / 2 := by
    show ((ixV m c : IVec S1024 32) (ix1 b)).toNat % 50000 = _
    rw [ixV_apply m c b h0]
    refine Nat.mod_eq_of_lt ?_
    have := toNat_le _ h0 h1
    omega
  show (tV m c : Vec F S50000x128 .f32) (ix2 (rowOf (ixV m c) b) col) = _
  rw [tV_apply]
  refine congrArg (aEmb m c) (congrArg₂ ix2 (Fin.ext ?_) rfl)
  show 2 * (rowOf (ixV m c) b).val + col.val / 64 = _
  rw [hr]

/-- THE SELECTED HALF: the half of the gathered row the parity picks is the embedding table's row at the index word. -/
theorem sel_eq (b : Fin 1024) (d : Fin 64) (h0 : 0 ≤ (aIdx m c (ix1 b)).toInt) (h1 : (aIdx m c (ix1 b)).toInt ≤ 99999) :
    (if IntOp.andi (aIdx m c (ix1 b)) 1#32 = 1#32
      then (Aent m c 0 : Vec F S1024x128 .f32) (ix2 b (⟨64 + d.val, by omega⟩ : Fin 128))
      else (Aent m c 0 : Vec F S1024x128 .f32) (ix2 b (⟨d.val, by omega⟩ : Fin 128)))
      = aEmb m c (ix2 (Cert.Spec.row (aIdx m c) b) d) := by
  have hlt : (aIdx m c (ix1 b)).toNat ≤ 99999 := toNat_le _ h0 h1
  have hrow : (Cert.Spec.row (aIdx m c) b).val = (aIdx m c (ix1 b)).toNat := by
    rw [Cert.Spec.row_val]; exact Nat.mod_eq_of_lt (by omega)
  by_cases hodd' : IntOp.andi (aIdx m c (ix1 b)) 1#32 = 1#32
  · have hodd := (and_one_eq _).mp hodd'
    rw [if_pos hodd']
    rw [Aent0_apply m c b _ h0 h1 (by show 2 * (_ / 2) + (64 + d.val) / 64 < 100000; omega)]
    refine congrArg (aEmb m c) (congrArg₂ ix2 (Fin.ext ?_) (Fin.ext ?_))
    · show 2 * (_ / 2) + (64 + d.val) / 64 = _
      rw [hrow]; omega
    · show (64 + d.val) % 64 = d.val
      omega
  · have heven : ¬ (aIdx m c (ix1 b)).toNat % 2 = 1 := fun h => hodd' ((and_one_eq _).mpr h)
    rw [if_neg hodd']
    rw [Aent0_apply m c b _ h0 h1 (by show 2 * (_ / 2) + d.val / 64 < 100000; omega)]
    refine congrArg (aEmb m c) (congrArg₂ ix2 (Fin.ext ?_) (Fin.ext ?_))
    · show 2 * (_ / 2) + d.val / 64 = _
      rw [hrow]; omega
    · show d.val % 64 = d.val
      omega

end Cert.Proof.Value

end
-- ==== Proof.Value.Inv.lean ====
/-
  The kernel region's values at the ideal instance: what the three scratch buffers and each copied chunk of the
  result hold, as predicates closed under the body's stores. The hidden activations are the specification's hidden
  layer; the running sum after n vocabulary blocks is the sum of the exponentials of the first 3072 n logits; its
  logarithm is taken over the whole vocabulary (the last block's 1376 missing rows masked off); every chunk of the
  result holds logit minus that logarithm. Splitting the vocabulary's sum into blocks uses associativity only.
-/
import proofs.«204087_g3891240370374_cont_8to1_b_1678_29_alg».proof.Proof.Value.Pay
import proofs.«204087_g3891240370374_cont_8to1_b_1678_29_alg».proof.Proof.Value.Stg
import proofs.«204087_g3891240370374_cont_8to1_b_1678_29_alg».proof.Proof.Value.Entry

set_option maxRecDepth 16384

noncomputable section

open scoped BigOperators

namespace Cert.Proof.Value

open Cert.KernelIdeal Cert.KernelIdeal.Gen Cert.Proof.KernelIdeal
open Idealize.ShloMosaic Idealize.ShloMosaic.ValueIdx

variable (m : (ℓ : Loc nD τ sig) → Buf (Elt Ideal) ℓ) (c : Dev nD)

/-! ## The specification's terms over the program's arguments -/

/-- The hidden layer and the logits of the arguments on device c. -/
def Hid (b : Fin 1024) (k : Fin 128) : EReal := Cert.Spec.hid (aIdx m c) (aEmb m c) (aWp m c) (aBp m c) b k
def Lg (b : Fin 1024) (v : Fin 100000) : EReal := Cert.Spec.logit (aIdx m c) (aEmb m c) (aWp m c) (aBp m c) (aWo m c) (aBo m c) b v
/-- The exponential of the logit at vocabulary position n, nothing past the vocabulary's end. -/
def E (b : Fin 1024) (n : ℕ) : EReal := if h : n < 100000 then Ideal.exp (Lg m c b ⟨n, h⟩) else 0
/-- The logarithm of the sum of the exponentials along the vocabulary. -/
def Lse (b : Fin 1024) : EReal := Ideal.log (∑ v : Fin 100000, Ideal.exp (Lg m c b v))

theorem sum_E (b : Fin 1024) : ∑ n ∈ Finset.range 100000, E m c b n = ∑ v : Fin 100000, Ideal.exp (Lg m c b v) := by
  rw [Finset.sum_range]
  exact Finset.sum_congr rfl fun v _ => dif_pos v.isLt

/-! ## The predicates -/

def HTp (x : Vec Ideal S128x1024 .bf16) : Prop := ∀ (k : Fin 128) (b : Fin 1024), x (ix2 k b) = Hid m c b k
def Sp (n : ℕ) (x : Vec Ideal S1x1024 .f32) : Prop := ∀ b : Fin 1024, x (ix2 (0 : Fin 1) b) = ∑ n' ∈ Finset.range (3072 * n), E m c b n'
def LSEp (x : Vec Ideal S1x1024 .f32) : Prop := ∀ b : Fin 1024, x (ix2 (0 : Fin 1) b) = Lse m c b
def OutCp (bb : Fin 32) (r : Fin 8) (X : Vec Ideal S384x1024 .f32) : Prop :=
  ∀ (i : Fin 384) (b : Fin 1024), X (ix2 i b) = Lg m c b (⟨3072 * bb.val + 384 * r.val + i.val, by omega⟩ : Fin 100000) - Lse m c b
def OutTp (r : Fin 4) (X : Vec Ideal S424x1024 .f32) : Prop :=
  ∀ (i : Fin 424) (b : Fin 1024), X (ix2 i b) = Lg m c b (⟨98304 + 424 * r.val + i.val, by omega⟩ : Fin 100000) - Lse m c b

/-- The index words in range: what the precondition gives. -/
def InRange : Prop := ∀ b : Fin 1024, 0 ≤ (aIdx m c (ix1 b)).toInt ∧ (aIdx m c (ix1 b)).toInt ≤ 99999

/-! ## The closures -/

variable {m c}

/-- The first point's store of the hidden activations. -/
theorem closure_HT (hr : InRange m c) (t : Fin cfg1.N) (d0 d1 d2 d3) :
    HTp m c (k1_pay1 (F := Ideal) (stg c (Aent m c) 0 t d0) (stg c (Aent m c) 1 t d1) (stg c (Aent m c) 2 t d2) (stg c (Aent m c) 3 t d3)) := by
  intro k b
  refine (pay1_apply (stg c (Aent m c) 0 t d0) (stg c (Aent m c) 1 t d1) (stg c (Aent m c) 2 t d2) (stg c (Aent m c) 3 t d3) k b).trans ?_
  unfold Hid Cert.Spec.hid
  congr 2
  · refine Finset.sum_congr rfl fun d _ => ?_
    rw [stg2_apply, stg1_apply, stg0_apply, stg0_apply, Aent1_apply, sel_eq m c b d (hr b).1 (hr b).2, Aent2, mul_comm]
  · rw [stg3_apply, Aent3_apply]

/-- The running sum starts empty. -/
theorem closure_S0 : Sp m c 0 (k1_pay2 (F := Ideal)) := by
  intro b
  rw [pay2_apply]
  simp

/-- A block's logit at a row that exists. -/
theorem pay3_logit (t : Fin cfg1.N) (d4 d5) (ht : Vec Ideal S128x1024 .bf16) (hHT : HTp m c ht) (i : Fin 3072) (b : Fin 1024)
    (h : 3072 * (t.val % 33) + i.val < 100000) :
    k1_pay3 (F := Ideal) (stg c (Aent m c) 4 t d4) ht (stg c (Aent m c) 5 t d5) (ix2 i b) = Lg m c b ⟨3072 * (t.val % 33) + i.val, h⟩ := by
  refine (pay3_apply (stg c (Aent m c) 4 t d4) ht (stg c (Aent m c) 5 t d5) i b).trans ?_
  unfold Lg Cert.Spec.logit
  congr 1
  · refine Finset.sum_congr rfl fun k _ => ?_
    rw [stg4_apply, dif_pos h, hHT k b, Aent4, mul_comm]
    rfl
  · rw [stg5_apply, dif_pos h, Aent5_apply]

/-- One more block in the running sum. -/
theorem closure_S (t : Fin cfg1.N) (ht32 : t.val < 32) (d4 d5) (ht : Vec Ideal S128x1024 .bf16) (s : Vec Ideal S1x1024 .f32)
    (hHT : HTp m c ht) (hS : Sp m c t.val s) :
    Sp m c (t.val + 1) (k1_pay4 (F := Ideal) (stg c (Aent m c) 4 t d4) ht (stg c (Aent m c) 5 t d5) s) := by
  intro b
  refine (pay4_apply (stg c (Aent m c) 4 t d4) ht (stg c (Aent m c) 5 t d5) s b).trans ?_
  have hmod : t.val % 33 = t.val := Nat.mod_eq_of_lt (by omega)
  rw [hS b, show 3072 * (t.val + 1) = 3072 * t.val + 3072 from by ring, Finset.sum_range_add]
  refine congrArg (_ + ·) ?_
  rw [Finset.sum_range]
  refine Finset.sum_congr rfl fun i _ => ?_
  have h : 3072 * (t.val % 33) + i.val < 100000 := by have := i.isLt; omega
  rw [pay3_logit t d4 d5 ht hHT i b h]
  unfold E
  rw [dif_pos (by have := i.isLt; omega)]
  exact congrArg (fun v => Ideal.exp (Lg m c b v)) (Fin.ext (by show 3072 * (t.val % 33) + i.val = 3072 * t.val + i.val; rw [hmod]))

/-- The last block, its rows past the vocabulary's end masked off, and the logarithm. -/
theorem closure_LSE (t : Fin cfg1.N) (h32 : t.val = 32) (d4 d5) (ht : Vec Ideal S128x1024 .bf16) (s : Vec Ideal S1x1024 .f32)
    (hHT : HTp m c ht) (hS : Sp m c 32 s) :
    LSEp m c (k1_pay5 (F := Ideal) (stg c (Aent m c) 4 t d4) ht (stg c (Aent m c) 5 t d5) s) := by
  intro b
  refine (pay5_apply (stg c (Aent m c) 4 t d4) ht (stg c (Aent m c) 5 t d5) s b).trans ?_
  have hmod : t.val % 33 = 32 := by rw [h32]
  unfold Lse
  refine congrArg Ideal.log ?_
  rw [hS b, ← sum_E]
  have hsplit : ∑ n ∈ Finset.range (3072 * 32 + 3072), E m c b n = ∑ n ∈ Finset.range 100000, E m c b n := by
    have hz : ∑ x ∈ Finset.range 1376, E m c b (100000 + x) = 0 :=
      Finset.sum_eq_zero fun x _ => by unfold E; exact dif_neg (by omega)
    rw [show 3072 * 32 + 3072 = 100000 + 1376 from rfl, Finset.sum_range_add, hz, add_zero]
  rw [← hsplit, Finset.sum_range_add]
  refine congrArg (_ + ·) ?_
  rw [Finset.sum_range]
  refine Finset.sum_congr rfl fun i _ => ?_
  by_cases hi : i.val < 1696
  · rw [if_pos hi]
    have h : 3072 * (t.val % 33) + i.val < 100000 := by rw [hmod]; omega
    rw [pay3_logit t d4 d5 ht hHT i b h]
    unfold E
    rw [dif_pos (by omega)]
    exact congrArg (fun v => Ideal.exp (Lg m c b v)) (Fin.ext (by show 3072 * (t.val % 33) + i.val = 3072 * 32 + i.val; rw [hmod]))
  · rw [if_neg hi]
    unfold E
    rw [dif_neg (show ¬ 3072 * 32 + i.val < 100000 by omega)]

/-- A full block's copied chunk: what lands in rows 3072 bb + 384 r + i of the result. -/
theorem closure_OutC (t : Fin cfg1.N) (bb : Fin 32) (htb : t.val = 33 + bb.val) (r : Fin 8) (d4 d5) (ht : Vec Ideal S128x1024 .bf16) (l : Vec Ideal S1x1024 .f32)
    (hHT : HTp m c ht) (hL : LSEp m c l) (X : Vec Ideal S384x1024 .f32)
    (hX : ∀ (i : Fin 384) (v : Fin 1024), X (ix2 i v)
      = k1_pay6 (F := Ideal) (stg c (Aent m c) 4 t d4) ht (stg c (Aent m c) 5 t d5) l (ix3 (0 : Fin 1) (⟨384 * r.val + i.val, by omega⟩ : Fin 3072) v)) :
    OutCp m c bb r X := by
  intro i b
  have hmod : t.val % 33 = bb.val := by rw [htb]; omega
  have h : 3072 * (t.val % 33) + (384 * r.val + i.val) < 100000 := by rw [hmod]; omega
  rw [hX i b, pay6_apply, pay3_logit t d4 d5 ht hHT _ b h, hL b]
  exact congrArg (fun v => Lg m c b v - Lse m c b) (Fin.ext (by show 3072 * (t.val % 33) + (384 * r.val + i.val) = 3072 * bb.val + 384 * r.val + i.val; rw [hmod]; omega))

/-- The last block's copied chunk: rows 98304 + 424 r + i of the result. -/
theorem closure_OutT (t : Fin cfg1.N) (ht65 : t.val = 65) (r : Fin 4) (d4 d5) (ht : Vec Ideal S128x1024 .bf16) (l : Vec Ideal S1x1024 .f32)
    (hHT : HTp m c ht) (hL : LSEp m c l) (X : Vec Ideal S424x1024 .f32)
    (hX : ∀ (i : Fin 424) (v : Fin 1024), X (ix2 i v)
      = k1_pay6 (F := Ideal) (stg c (Aent m c) 4 t d4) ht (stg c (Aent m c) 5 t d5) l (ix3 (0 : Fin 1) (⟨424 * r.val + i.val, by omega⟩ : Fin 3072) v)) :
    OutTp m c r X := by
  intro i b
  have hmod : t.val % 33 = 32 := by rw [ht65]
  have h : 3072 * (t.val % 33) + (424 * r.val + i.val) < 100000 := by rw [hmod]; omega
  rw [hX i b, pay6_apply, pay3_logit t d4 d5 ht hHT _ b h, hL b]
  exact congrArg (fun v => Lg m c b v - Lse m c b) (Fin.ext (by show 3072 * (t.val % 33) + (424 * r.val + i.val) = 98304 + 424 * r.val + i.val; rw [hmod]; omega))

end Cert.Proof.Value

end
-- ==== Proof.Value.Final.lean ====
/-
  The values assembled: the region's predicates as one record, and what the result array holds once every copied
  chunk satisfies its predicate: row v, column b of the result is the specification at (b, v); so the result
  transposed is the specification, as one function of the arguments.
-/
import proofs.«204087_g3891240370374_cont_8to1_b_1678_29_alg».proof.Proof.Value.Inv

set_option maxRecDepth 16384

noncomputable section

open scoped BigOperators

namespace Cert.Proof.Value

open Cert.KernelIdeal Cert.KernelIdeal.Gen Cert.Proof.KernelIdeal
open Idealize.ShloMosaic Idealize.ShloMosaic.ValueIdx

variable (m : (ℓ : Loc nD τ sig) → Buf (Elt Ideal) ℓ) (c : Dev nD)

/-! ## The region's predicates as one record -/

/-- The predicates on the scratch buffers and the result's chunks, with their closures. -/
def specInv (hr : InRange m c) : RegionInv (F := Ideal) c (Aent m c) where
  HT := HTp m c
  S := Sp m c
  LSE := LSEp m c
  OutC := OutCp m c
  OutT := OutTp m c
  hHT t _ d0 d1 d2 d3 := closure_HT hr t d0 d1 d2 d3
  hS0 := closure_S0
  hS t ht32 d4 d5 ht s hHT hS := closure_S t ht32 d4 d5 ht s hHT hS
  hLSE t h32 d4 d5 ht s hHT hS := closure_LSE t h32 d4 d5 ht s hHT hS
  hOutC t bb htb r d4 d5 ht l hHT hL X hX := closure_OutC t bb htb r d4 d5 ht l hHT hL X hX
  hOutT t h65 r d4 d5 ht l hHT hL X hX := closure_OutT t h65 r d4 d5 ht l hHT hL X hX

/-! ## Where the result's chunks sit -/

theorem mainChunk_read (f : Vec Ideal S100000x1024 .f32) (bb : Fin 32) (r : Fin 8) (i : Fin 384) (b : Fin 1024) :
    (mainChunk bb r).view.read (Elt Ideal) f (ix2 i b)
      = f (ix2 (⟨3072 * bb.val + 384 * r.val + i.val, by omega⟩ : Fin 100000) b) := by
  refine (View.read_apply _ _).trans ((cast_eq _ _).trans (congrArg f ?_))
  funext a; apply Fin.ext
  match a with
  | ⟨0, _⟩ => show 3072 * bb.val + 384 * r.val + 1 * i.val = 3072 * bb.val + 384 * r.val + i.val; omega
  | ⟨1, _⟩ => show 0 + 1 * b.val = b.val; omega

theorem mainTail_read (f : Vec Ideal S100000x1024 .f32) (r : Fin 4) (i : Fin 424) (b : Fin 1024) :
    (mainTail r).view.read (Elt Ideal) f (ix2 i b)
      = f (ix2 (⟨98304 + 424 * r.val + i.val, by omega⟩ : Fin 100000) b) := by
  refine (View.read_apply _ _).trans ((cast_eq _ _).trans (congrArg f ?_))
  funext a; apply Fin.ext
  match a with
  | ⟨0, _⟩ => show 98304 + 424 * r.val + 1 * i.val = 98304 + 424 * r.val + i.val; omega
  | ⟨1, _⟩ => show 0 + 1 * b.val = b.val; omega

/-! ## The result -/

variable {m c}

/-- Every chunk at its predicate: every entry of the result is logit minus the logarithm of the sum. -/
theorem out_apply (f : Vec Ideal S100000x1024 .f32)
    (hC : ∀ bb r, OutCp m c bb r ((mainChunk bb r).view.read (Elt Ideal) f)) (hT : ∀ r, OutTp m c r ((mainTail r).view.read (Elt Ideal) f))
    (v : Fin 100000) (b : Fin 1024) : f (ix2 v b) = Lg m c b v - Lse m c b := by
  by_cases hv : v.val < 98304
  · have h := hC ⟨v.val / 3072, by omega⟩ ⟨v.val % 3072 / 384, by omega⟩ ⟨v.val % 384, by omega⟩ b
    rw [mainChunk_read] at h
    have e : (⟨3072 * (v.val / 3072) + 384 * (v.val % 3072 / 384) + v.val % 384, by omega⟩ : Fin 100000) = v :=
      Fin.ext (by show 3072 * (v.val / 3072) + 384 * (v.val % 3072 / 384) + v.val % 384 = v.val; omega)
    rw [show (⟨3072 * (⟨v.val / 3072, by omega⟩ : Fin 32).val + 384 * (⟨v.val % 3072 / 384, by omega⟩ : Fin 8).val + (⟨v.val % 384, by omega⟩ : Fin 384).val, by omega⟩ : Fin 100000) = v from e] at h
    exact h
  · have hv' := v.isLt
    have h := hT ⟨(v.val - 98304) / 424, by omega⟩ ⟨(v.val - 98304) % 424, by omega⟩ b
    rw [mainTail_read] at h
    have e : (⟨98304 + 424 * ((v.val - 98304) / 424) + (v.val - 98304) % 424, by omega⟩ : Fin 100000) = v :=
      Fin.ext (by show 98304 + 424 * ((v.val - 98304) / 424) + (v.val - 98304) % 424 = v.val; omega)
    rw [show (⟨98304 + 424 * (⟨(v.val - 98304) / 424, by omega⟩ : Fin 4).val + (⟨(v.val - 98304) % 424, by omega⟩ : Fin 424).val, by omega⟩ : Fin 100000) = v from e] at h
    exact h

/-- So the result at (v, b) is the specification at (b, v). -/
theorem out_eq_G (f : Vec Ideal S100000x1024 .f32)
    (hC : ∀ bb r, OutCp m c bb r ((mainChunk bb r).view.read (Elt Ideal) f)) (hT : ∀ r, OutTp m c r ((mainTail r).view.read (Elt Ideal) f))
    (v : Fin 100000) (b : Fin 1024) :
    f (ix2 v b) = Cert.Spec.G (aIdx m c) (aEmb m c) (aWp m c) (aBp m c) (aWo m c) (aBo m c) (ix2 b v) :=
  (out_apply f hC hT v b).trans rfl

/-- From the region's exit fact. -/
theorem outAll_eq_G (hr : InRange m c) (f : Buf (Elt Ideal) (mainM.view.loc (c.tc : Thread nD τ))) (h : OutAll c (Aent m c) (specInv m c hr) f)
    (v : Fin 100000) (b : Fin 1024) :
    (f : Vec Ideal S100000x1024 .f32) (ix2 v b) = Cert.Spec.G (aIdx m c) (aEmb m c) (aWp m c) (aBp m c) (aWo m c) (aBo m c) (ix2 b v) :=
  out_eq_G f h.1 h.2 v b

/-- The result transposed is the specification, as one function. -/
theorem transpose_eq_G (f : Vec Ideal S100000x1024 .f32)
    (hC : ∀ bb r, OutCp m c bb r ((mainChunk bb r).view.read (Elt Ideal) f)) (hT : ∀ r, OutTp m c r ((mainTail r).view.read (Elt Ideal) f)) :
    transpose S1024x100000 [1, 0] f transposes_S100000x1024_S1024x100000_1_0
      = Cert.Spec.G (aIdx m c) (aEmb m c) (aWp m c) (aBp m c) (aWo m c) (aBo m c) := by
  funext j
  obtain ⟨b, v, rfl⟩ : ∃ (b : Fin 1024) (v : Fin 100000), j = ix2 b v := ⟨j 0, j 1, eq_ix2 j⟩
  refine (transpose_apply _ _ _ (ix2 b v) (ix2 v b) fun a => ?_).trans (out_eq_G f hC hT v b)
  match a with
  | ⟨0, _⟩ => rfl
  | ⟨1, _⟩ => rfl

end Cert.Proof.Value

end
-- ==== Proof.AlgKernel.lean ====
/-
  The kernel's half of the value claim: at the exact instance, under the precondition, the idealized kernel's
  program runs to a memory whose result is the specification of its arguments, the arguments unchanged. The
  region's invariant is instantiated with the specification's relations; what the last host line transposes is
  the specification read with its two coordinates exchanged.
-/
import proofs.«204087_g3891240370374_cont_8to1_b_1678_29_alg».proof.Defs
import proofs.«204087_g3891240370374_cont_8to1_b_1678_29_alg».proof.Proof.KernelIdeal.MainF
import proofs.«204087_g3891240370374_cont_8to1_b_1678_29_alg».proof.Proof.Value.Final

noncomputable section

namespace Cert.Proof

open Idealize.ShloMosaic Idealize.SL.Sem Idealize.ShloMosaic.SparseCore.Cfg
open Cert.KernelIdeal Cert.Proof.KernelIdeal Cert.Proof.Value

theorem alg_kernel [Cert.KernelIdeal.Facts] [Cert.Pre_input_domain.Facts]
    (hb : ∀ (m : (ℓ : Loc nD τ sig) → Buf (Elt Ideal) ℓ) (I : (c : Dev nD) → RegionInv c (Aent m c)) (c : Dev nD),
      Pipeline.BodyObligationLoose (pdat c (Aent m c) (Rec (F := Ideal) c) (I c)) (defs₀ (F := Ideal)) 𝒱₀ (none : HIx 1) Set.univ)
    (m : (ℓ : Loc nD τ sig) → Buf (Elt Ideal) ℓ) (g : Dev nD → PrngReg) (hpre : Cert.Pre_KernelIdeal m) :
    θ_run (Cert.KernelIdeal.defs (F := Ideal)) (Cert.KernelIdeal.threads (F := Ideal)) ⟨m, fun _ => 0, g⟩ (fun r => ∀ c : Dev nD,
      r.2.mem ((c.tc : Thread nD τ).loc main_v10)
        = Cert.Spec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ ArgsKept m r c) := by
  have hr : ∀ c, InRange m c := fun c => (Cert.Pre.decode _ _ _ _ _ _ (hpre c)).2.2.2.2.2
  refine (θ_run (Cert.KernelIdeal.defs (F := Ideal)) _ _).mono (fun r h c => ?_)
    (run_value (F := Ideal) m g (RS_of m (fun c => specInv m c (hr c)) (hb m _)) (hin_of_pre m hpre))
  obtain ⟨⟨f, hf, h10⟩, hk⟩ := h c
  exact ⟨h10.trans (transpose_eq_G f hf.1 hf.2), hk⟩

end Cert.Proof

end
-- ==== Proof.lean ====
/-
  The certificate's five claims.

  The kernel is an embedding lookup on the SparseCore (thirty-two tiles each copy thirty-two index words, gather the
  128-wide table rows they name and write them out) followed by one TensorCore pallas_call over a grid of two passes
  of thirty-three vocabulary blocks: the hidden layer once, then per block the logits; pass one accumulates the sum of
  their exponentials and takes its logarithm, pass two writes logits minus that logarithm through a two-slot ring of
  copies that stay outstanding from one grid point to a later one. The reference is the lookup, two dense layers and
  a log-softmax that subtracts the row maximum first.

  Frames: each program's threads all terminate, nothing faults, the arguments end unchanged — for the two kernel
  programs from the SparseCore launch theorem (each tile's task, @main on the TensorCore with the pipeline region as
  one segment, the region's body at a symbolic grid point with the copies in flight carried in its invariant), for
  the reference from its run. Values: under the precondition every input is a real number and every index names a
  row, so both sides compute logit − log Σ exp logit, the reference's shift by the row maximum cancelling; the
  kernel's blocks of the vocabulary sum rejoin by associativity and commutativity alone.
-/
import proofs.«204087_g3891240370374_cont_8to1_b_1678_29_alg».proof.Defs
import proofs.«204087_g3891240370374_cont_8to1_b_1678_29_alg».proof.Proof.Gen.Kernel
import proofs.«204087_g3891240370374_cont_8to1_b_1678_29_alg».proof.Proof.Gen.Kernel.Skeleton
import proofs.«204087_g3891240370374_cont_8to1_b_1678_29_alg».proof.Proof.Gen.Kernel.Launch
import proofs.«204087_g3891240370374_cont_8to1_b_1678_29_alg».proof.Proof.Gen.Kernel.Points
import proofs.«204087_g3891240370374_cont_8to1_b_1678_29_alg».proof.Proof.Gen.KernelIdeal
import proofs.«204087_g3891240370374_cont_8to1_b_1678_29_alg».proof.Proof.Gen.KernelIdeal.Skeleton
import proofs.«204087_g3891240370374_cont_8to1_b_1678_29_alg».proof.Proof.Gen.KernelIdeal.Launch
import proofs.«204087_g3891240370374_cont_8to1_b_1678_29_alg».proof.Proof.Gen.KernelIdeal.Points
import proofs.«204087_g3891240370374_cont_8to1_b_1678_29_alg».proof.Proof.Gen.ReferenceIdeal
import proofs.«204087_g3891240370374_cont_8to1_b_1678_29_alg».proof.Proof.Gen.Pre_input_domain
import proofs.«204087_g3891240370374_cont_8to1_b_1678_29_alg».proof.Proof.Kernel.MainF
import proofs.«204087_g3891240370374_cont_8to1_b_1678_29_alg».proof.Proof.Kernel.RegionBody
import proofs.«204087_g3891240370374_cont_8to1_b_1678_29_alg».proof.Proof.KernelIdeal.MainF
import proofs.«204087_g3891240370374_cont_8to1_b_1678_29_alg».proof.Proof.KernelIdeal.RegionBody
import proofs.«204087_g3891240370374_cont_8to1_b_1678_29_alg».proof.Proof.AlgRef
import proofs.«204087_g3891240370374_cont_8to1_b_1678_29_alg».proof.Proof.AlgKernel
import Idealize.ShloMosaic.Adequacy
import Idealize.ShloMosaic.Init

noncomputable section

namespace Cert.Proof

open Idealize.ShloMosaic Idealize.SL.Sem Idealize.ShloMosaic.SparseCore.Cfg

/-- The word-level kernel's frame: its run with the values dropped; the region's invariant carries no relation. -/
theorem frame_p : @Cert.frame_Kernel Cert.Kernel.Gen.facts Cert.Pre_input_domain.Gen.facts := fun m g hpre =>
  (θ_run (Cert.Kernel.defs (F := Bits)) _ _).mono (fun r h c => (h c).2)
    (Cert.Proof.Kernel.run_value (F := Bits) m g
      (Cert.Proof.Kernel.RS_of m (fun c => Cert.Proof.Kernel.RegionInv.trivial c _)
        (fun c => Cert.Proof.Kernel.hbody c _ _ _ (Cert.Proof.Kernel.hRec c)))
      (Cert.Proof.Kernel.hin_of_pre m hpre))

/-- The idealized kernel's frame, likewise. -/
theorem frame_pi : @Cert.frame_KernelIdeal Cert.KernelIdeal.Gen.facts Cert.Pre_input_domain.Gen.facts := fun m g hpre =>
  (θ_run (Cert.KernelIdeal.defs (F := Ideal)) _ _).mono (fun r h c => (h c).2)
    (Cert.Proof.KernelIdeal.run_value (F := Ideal) m g
      (Cert.Proof.KernelIdeal.RS_of m (fun c => Cert.Proof.KernelIdeal.RegionInv.trivial c _)
        (fun c => Cert.Proof.KernelIdeal.hbody c _ _ _ (Cert.Proof.KernelIdeal.hRec c)))
      (Cert.Proof.KernelIdeal.hin_of_pre m hpre))

/-- The reference's frame: its run with the result dropped. -/
theorem frame_ri : @Cert.frame_ReferenceIdeal Cert.ReferenceIdeal.Gen.facts Cert.Pre_input_domain.Gen.facts := Cert.frame_ref

/-- Both idealized programs end at the specification of the arguments. -/
theorem algebraic : @Cert.algebraic_KernelIdeal_ReferenceIdeal Cert.KernelIdeal.Gen.facts Cert.ReferenceIdeal.Gen.facts Cert.Pre_input_domain.Gen.facts :=
  fun m g m' g' hpre hagree =>
    ⟨fun c => Cert.Spec.G (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)),
      alg_kernel (fun m I c => Cert.Proof.KernelIdeal.hbody c _ _ _ (Cert.Proof.KernelIdeal.hRec c)) m g hpre,
      Cert.alg_ref m m' g' hpre hagree⟩

theorem claim : Cert.Claim :=
  ⟨Cert.Kernel.Gen.facts, Cert.KernelIdeal.Gen.facts, Cert.ReferenceIdeal.Gen.facts, Cert.Pre_input_domain.Gen.facts,
    frame_p, frame_pi, frame_ri, trivial, algebraic⟩

end Cert.Proof

end
